-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v212)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v307) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S2x800000 : Shape := ⟨2, ![2, 800000]⟩
abbrev S12x256 : Shape := ⟨2, ![12, 256]⟩
abbrev S256 : Shape := ⟨1, ![256]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S12x256 : S_.BroadcastsInDim S12x256 (![] : Fin 0 → Fin S12x256.rank)
  reducesTo_S12x256_S_d0_1 : S12x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S64x1 .f32) (main_arg20 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg19
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg15 : FVec F S128 .f32) (main_arg16 : FVec F S128 .f32) (main_arg17 : FVec F S128x64 .f32) (main_arg18 : FVec F S64 .f32) (main_arg19 : FVec F S64x1 .f32) (main_arg20 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S256x128 .f32) (main_arg13 : FVec F S128 .f32) (main_arg14 : FVec F S256x128 .f32) (main_arg15 : FVec F S128 .f32) (main_arg16 : FVec F S128 .f32) (main_arg17 : FVec F S128x64 .f32) (main_arg18 : FVec F S64 .f32) (main_arg19 : FVec F S64x1 .f32) (main_arg20 : FVec F S1 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x128 .f32 := Host.absf main_arg14
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg15 main_arg16 main_arg17 main_arg18 main_arg19 main_arg20 main_v63 main_v67

def fn_part2 {F : FTy → Type} [FloatOps F] (main_arg8 : FVec F S3x256 .f32) (main_arg9 : FVec F S3x256x256 .f32) (main_arg10 : FVec F S3x256 .f32) (main_arg11 : FVec F S3x256 .f32) (main_arg12 : FVec F S256x128 .f32) (main_arg13 : FVec F S128 .f32) (main_arg14 : FVec F S256x128 .f32) (main_arg15 : FVec F S128 .f32) (main_arg16 : FVec F S128 .f32) (main_arg17 : FVec F S128x64 .f32) (main_arg18 : FVec F S64 .f32) (main_arg19 : FVec F S64x1 .f32) (main_arg20 : FVec F S1 .f32) (main_v33 : IVec S_ 1) : IVec S_ 1 :=
  let main_v34 : FVec F S3x256 .f32 := Host.absf main_arg8
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256x256 .f32 := Host.absf main_arg9
  let main_cst_14 : FVec F S_ .f32 := constant S_ .f32 0x7F800000#32
  let main_v40 : FVec F S3x256x256 .f32 := broadcastInDim S3x256x256 ![] bcast_S_S3x256x256 main_cst_14
  let main_v41 : IVec S3x256x256 1 := cmpf .olt main_v39 main_v40
  let main_c_15 : IVec S_ 1 := constantI S_ 1 1#1
  let main_v42 : IVec S_ 1 := (fun x v => Host.reduce IntOp.andi x v reducesTo_S3x256x256_S_d0_1_2 h_S_) main_v41 main_c_15
  let main_v43 : IVec S_ 1 := andi main_v38 main_v42
  let main_v44 : FVec F S3x256 .f32 := Host.absf main_arg10
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S3x256 .f32 := Host.absf main_arg11
  let main_cst_18 : FVec F S_ .f32 := constant S_ .f32 0x7F800000#32
  let main_v50 : FVec F S3x256 .f32 := broadcastInDim S3x256 ![] bcast_S_S3x256 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S256 .f32) (main_arg6 : FVec F S256 .f32) (main_arg7 : FVec F S3x256x256 .f32) (main_arg8 : FVec F S3x256 .f32) (main_arg9 : FVec F S3x256x256 .f32) (main_arg10 : FVec F S3x256 .f32) (main_arg11 : FVec F S3x256 .f32) (main_arg12 : FVec F S256x128 .f32) (main_arg13 : FVec F S128 .f32) (main_arg14 : FVec F S256x128 .f32) (main_arg15 : FVec F S128 .f32) (main_arg16 : FVec F S128 .f32) (main_arg17 : FVec F S128x64 .f32) (main_arg18 : FVec F S64 .f32) (main_arg19 : FVec F S64x1 .f32) (main_arg20 : FVec F S1 .f32) (main_v13 : IVec S_ 1) (main_v16 : IVec S12x256 1) : IVec S_ 1 :=
  let main_c_5 : IVec S_ 1 := constantI S_ 1 1#1
  let main_v17 : IVec S_ 1 := (fun x v => Host.reduce IntOp.andi x v reducesTo_S12x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S3x256x256 .f32 := Host.absf main_arg7
  let main_cst_10 : FVec F S_ .f32 := constant S_ .f32 0x7F800000#32
  let main_v30 : FVec F S3x256x256 .f32 := broadcastInDim S3x256x256 ![] bcast_S_S3x256x256 main_cst_10
  let main_v31 : IVec S3x256x256 1 := cmpf .olt main_v29 main_v30
  let main_c_11 : IVec S_ 1 := constantI S_ 1 1#1
  let main_v32 : IVec S_ 1 := (fun x v => Host.reduce IntOp.andi x v reducesTo_S3x256x256_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x12 .f32) (main_arg1 : IVec S2x800000 32) (main_arg2 : FVec F S12x256 .f32) (main_arg3 : FVec F S256 .f32) (main_arg4 : FVec F S12x256 .f32) (main_arg5 : FVec F S256 .f32) (main_arg6 : FVec F S256 .f32) (main_arg7 : FVec F S3x256x256 .f32) (main_arg8 : FVec F S3x256 .f32) (main_arg9 : FVec F S3x256x256 .f32) (main_arg10 : FVec F S3x256 .f32) (main_arg11 : FVec F S3x256 .f32) (main_arg12 : FVec F S256x128 .f32) (main_arg13 : FVec F S128 .f32) (main_arg14 : FVec F S256x128 .f32) (main_arg15 : FVec F S128 .f32) (main_arg16 : FVec F S128 .f32) (main_arg17 : FVec F S128x64 .f32) (main_arg18 : FVec F S64 .f32) (main_arg19 : FVec F S64x1 .f32) (main_arg20 : FVec F S1 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S12x256 .f32 := Host.absf main_arg2
  let main_cst_0 : FVec F S_ .f32 := constant S_ .f32 0x7F800000#32
  let main_v5 : FVec F S12x256 .f32 := broadcastInDim S12x256 ![] bcast_S_S12x256 main_cst_0
  let main_v6 : IVec S12x256 1 := cmpf .olt main_v4 main_v5
  let main_c_1 : IVec S_ 1 := constantI S_ 1 1#1
  let main_v7 : IVec S_ 1 := (fun x v => Host.reduce IntOp.andi x v reducesTo_S12x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S12x256 .f32 := Host.absf main_arg4
  let main_cst_4 : FVec F S_ .f32 := constant S_ .f32 0x7F800000#32
  let main_v15 : FVec F S12x256 .f32 := broadcastInDim S12x256 ![] bcast_S_S12x256 main_cst_4
  let main_v16 : IVec S12x256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x12 : Shape := ⟨2, ![100000, 12]⟩
abbrev S2x800000 : Shape := ⟨2, ![2, 800000]⟩
abbrev S12x256 : Shape := ⟨2, ![12, 256]⟩
abbrev S256 : Shape := ⟨1, ![256]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S800000x12 : Shape := ⟨2, ![800000, 12]⟩
abbrev S100000x1 : Shape := ⟨2, ![100000, 1]⟩
abbrev S1x256 : Shape := ⟨2, ![1, 256]⟩
abbrev S100000x256 : Shape := ⟨2, ![100000, 256]⟩
abbrev S25x1x256 : Shape := ⟨3, ![25, 1, 256]⟩
abbrev S4000x12 : Shape := ⟨2, ![4000, 12]⟩
abbrev S4000x256 : Shape := ⟨2, ![4000, 256]⟩
abbrev S1x1x256 : Shape := ⟨3, ![1, 1, 256]⟩
abbrev S4000 : Shape := ⟨1, ![4000]⟩
abbrev S4000x1 : Shape := ⟨2, ![4000, 1]⟩
abbrev S800000x256 : Shape := ⟨2, ![800000, 256]⟩
abbrev S1x256x256 : Shape := ⟨3, ![1, 256, 256]⟩
abbrev S256x256 : Shape := ⟨2, ![256, 256]⟩
abbrev S1x128 : Shape := ⟨2, ![1, 128]⟩
abbrev S100000x128 : Shape := ⟨2, ![100000, 128]⟩
abbrev S25x1x128 : Shape := ⟨3, ![25, 1, 128]⟩
abbrev S4000x128 : Shape := ⟨2, ![4000, 128]⟩
abbrev S1x1x128 : Shape := ⟨3, ![1, 1, 128]⟩
abbrev S1x64 : Shape := ⟨2, ![1, 64]⟩
abbrev S1x1 : Shape := ⟨2, ![1, 1]⟩
abbrev S4000x64 : Shape := ⟨2, ![4000, 64]⟩

abbrev nBuf : Space → Nat
  | .hbm => 288
  | .vmem => 109
  | .smem => 0
  | _ => 0

abbrev hbmTy0_0 (i : Nat) : BufTy := match i % 128 with
  | 0 => ⟨S100000x12, .f32⟩
  | 1 => ⟨S2x800000, .i32⟩
  | 2 => ⟨S12x256, .f32⟩
  | 3 => ⟨S256, .f32⟩
  | 4 => ⟨S12x256, .f32⟩
  | 5 => ⟨S256, .f32⟩
  | 6 => ⟨S256, .f32⟩
  | 7 => ⟨S3x256x256, .f32⟩
  | 8 => ⟨S3x256, .f32⟩
  | 9 => ⟨S3x256x256, .f32⟩
  | 10 => ⟨S3x256, .f32⟩
  | 11 => ⟨S3x256, .f32⟩
  | 12 => ⟨S256x128, .f32⟩
  | 13 => ⟨S128, .f32⟩
  | 14 => ⟨S256x128, .f32⟩
  | 15 => ⟨S128, .f32⟩
  | 16 => ⟨S128, .f32⟩
  | 17 => ⟨S128x64, .f32⟩
  | 18 => ⟨S64, .f32⟩
  | 19 => ⟨S64x1, .f32⟩
  | 20 => ⟨S1, .f32⟩
  | 21 => ⟨S1x800000, .i32⟩
  | 22 => ⟨S800000, .i32⟩
  | 23 => ⟨S1x800000, .i32⟩
  | 24 => ⟨S800000, .i32⟩
  | 25 => ⟨S_, .f32⟩
  | 26 => ⟨S800000, .f32⟩
  | 27 => ⟨S_, .f32⟩
  | 28 => ⟨S100000, .f32⟩
  | 29 => ⟨S800000x1, .i32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x12, .f32⟩
  | 46 => ⟨S_, .f32⟩
  | 47 => ⟨S100000x12, .f32⟩
  | 48 => ⟨S800000x1, .i32⟩
  | 49 => ⟨S100000x12, .f32⟩
  | 50 => ⟨S100000x1, .f32⟩
  | 51 => ⟨S100000x12, .f32⟩
  | 52 => ⟨S100000x12, .f32⟩
  | 53 => ⟨S1x256, .f32⟩
  | 54 => ⟨S100000x256, .bf16⟩
  | 55 => ⟨S25x1x256, .f32⟩
  | 56 => ⟨S25x1x256, .f32⟩
  | 57 => ⟨S_, .f32⟩
  | 58 => ⟨S1x256, .f32⟩
  | 59 => ⟨S256, .f32⟩
  | 60 => ⟨S_, .f32⟩
  | 61 => ⟨S1x256, .f32⟩
  | 62 => ⟨S256, .f32⟩
  | 63 => ⟨S_, .f32⟩
  | 64 => ⟨S256, .f32⟩
  | 65 => ⟨S256, .f32⟩
  | 66 => ⟨S_, .f32⟩
  | 67 => ⟨S256, .f32⟩
  | 68 => ⟨S256, .f32⟩
  | 69 => ⟨S256, .f32⟩
  | 70 => ⟨S256, .f32⟩
  | 71 => ⟨S_, .f32⟩
  | 72 => ⟨S256, .f32⟩
  | 73 => ⟨S256, .f32⟩
  | 74 => ⟨S1x256, .f32⟩
  | 75 => ⟨S1x256, .f32⟩
  | 76 => ⟨S1x256, .f32⟩
  | 77 => ⟨S1x256, .f32⟩
  | 78 => ⟨S100000x256, .bf16⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x256, .bf16⟩
  | 88 => ⟨S800000x256, .f32⟩
  | 89 => ⟨S_, .f32⟩
  | 90 => ⟨S100000x256, .f32⟩
  | 91 => ⟨S800000x1, .i32⟩
  | 92 => ⟨S100000x256, .f32⟩
  | 93 => ⟨S100000x1, .f32⟩
  | 94 => ⟨S100000x256, .f32⟩
  | 95 => ⟨S100000x256, .f32⟩
  | 96 => ⟨S100000x256, .bf16⟩
  | 97 => ⟨S1x256x256, .f32⟩
  | 98 => ⟨S256x256, .f32⟩
  | 99 => ⟨S1x256, .f32⟩
  | 100 => ⟨S256, .f32⟩
  | 101 => ⟨S1x256x256, .f32⟩
  | 102 => ⟨S256x256, .f32⟩
  | 103 => ⟨S1x256, .f32⟩
  | 104 => ⟨S256, .f32⟩
  | 105 => ⟨S1x256, .f32⟩
  | 106 => ⟨S256, .f32⟩
  | 107 => ⟨S1x256, .f32⟩
  | 108 => ⟨S100000x256, .bf16⟩
  | 109 => ⟨S25x1x256, .f32⟩
  | 110 => ⟨S25x1x256, .f32⟩
  | 111 => ⟨S_, .f32⟩
  | 112 => ⟨S1x256, .f32⟩
  | 113 => ⟨S256, .f32⟩
  | 114 => ⟨S_, .f32⟩
  | 115 => ⟨S1x256, .f32⟩
  | 116 => ⟨S256, .f32⟩
  | 117 => ⟨S_, .f32⟩
  | 118 => ⟨S256, .f32⟩
  | 119 => ⟨S256, .f32⟩
  | 120 => ⟨S_, .f32⟩
  | 121 => ⟨S256, .f32⟩
  | 122 => ⟨S256, .f32⟩
  | 123 => ⟨S256, .f32⟩
  | 124 => ⟨S256, .f32⟩
  | 125 => ⟨S_, .f32⟩
  | 126 => ⟨S256, .f32⟩
  | 127 => ⟨S256, .f32⟩
  | _ => ⟨S100000x12, .f32⟩

abbrev hbmTy0_1 (i : Nat) : BufTy := match i % 128 with
  | 0 => ⟨S1x256, .f32⟩
  | 1 => ⟨S1x256, .f32⟩
  | 2 => ⟨S1x256, .f32⟩
  | 3 => ⟨S1x256, .f32⟩
  | 4 => ⟨S100000x256, .bf16⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x256, .bf16⟩
  | 14 => ⟨S800000x256, .f32⟩
  | 15 => ⟨S_, .f32⟩
  | 16 => ⟨S100000x256, .f32⟩
  | 17 => ⟨S800000x1, .i32⟩
  | 18 => ⟨S100000x256, .f32⟩
  | 19 => ⟨S100000x1, .f32⟩
  | 20 => ⟨S100000x256, .f32⟩
  | 21 => ⟨S100000x256, .f32⟩
  | 22 => ⟨S100000x256, .bf16⟩
  | 23 => ⟨S1x256x256, .f32⟩
  | 24 => ⟨S256x256, .f32⟩
  | 25 => ⟨S1x256, .f32⟩
  | 26 => ⟨S256, .f32⟩
  | 27 => ⟨S1x256x256, .f32⟩
  | 28 => ⟨S256x256, .f32⟩
  | 29 => ⟨S1x256, .f32⟩
  | 30 => ⟨S256, .f32⟩
  | 31 => ⟨S1x256, .f32⟩
  | 32 => ⟨S256, .f32⟩
  | 33 => ⟨S1x256, .f32⟩
  | 34 => ⟨S100000x256, .bf16⟩
  | 35 => ⟨S25x1x256, .f32⟩
  | 36 => ⟨S25x1x256, .f32⟩
  | 37 => ⟨S_, .f32⟩
  | 38 => ⟨S1x256, .f32⟩
  | 39 => ⟨S256, .f32⟩
  | 40 => ⟨S_, .f32⟩
  | 41 => ⟨S1x256, .f32⟩
  | 42 => ⟨S256, .f32⟩
  | 43 => ⟨S_, .f32⟩
  | 44 => ⟨S256, .f32⟩
  | 45 => ⟨S256, .f32⟩
  | 46 => ⟨S_, .f32⟩
  | 47 => ⟨S256, .f32⟩
  | 48 => ⟨S256, .f32⟩
  | 49 => ⟨S256, .f32⟩
  | 50 => ⟨S256, .f32⟩
  | 51 => ⟨S_, .f32⟩
  | 52 => ⟨S256, .f32⟩
  | 53 => ⟨S256, .f32⟩
  | 54 => ⟨S1x256, .f32⟩
  | 55 => ⟨S1x256, .f32⟩
  | 56 => ⟨S1x256, .f32⟩
  | 57 => ⟨S1x256, .f32⟩
  | 58 => ⟨S100000x256, .bf16⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x256, .bf16⟩
  | 68 => ⟨S800000x256, .f32⟩
  | 69 => ⟨S_, .f32⟩
  | 70 => ⟨S100000x256, .f32⟩
  | 71 => ⟨S800000x1, .i32⟩
  | 72 => ⟨S100000x256, .f32⟩
  | 73 => ⟨S100000x1, .f32⟩
  | 74 => ⟨S100000x256, .f32⟩
  | 75 => ⟨S100000x256, .f32⟩
  | 76 => ⟨S100000x256, .bf16⟩
  | 77 => ⟨S1x256x256, .f32⟩
  | 78 => ⟨S256x256, .f32⟩
  | 79 => ⟨S1x256, .f32⟩
  | 80 => ⟨S256, .f32⟩
  | 81 => ⟨S1x256x256, .f32⟩
  | 82 => ⟨S256x256, .f32⟩
  | 83 => ⟨S1x256, .f32⟩
  | 84 => ⟨S256, .f32⟩
  | 85 => ⟨S1x256, .f32⟩
  | 86 => ⟨S256, .f32⟩
  | 87 => ⟨S1x256, .f32⟩
  | 88 => ⟨S100000x256, .bf16⟩
  | 89 => ⟨S25x1x256, .f32⟩
  | 90 => ⟨S25x1x256, .f32⟩
  | 91 => ⟨S_, .f32⟩
  | 92 => ⟨S1x256, .f32⟩
  | 93 => ⟨S256, .f32⟩
  | 94 => ⟨S_, .f32⟩
  | 95 => ⟨S1x256, .f32⟩
  | 96 => ⟨S256, .f32⟩
  | 97 => ⟨S_, .f32⟩
  | 98 => ⟨S256, .f32⟩
  | 99 => ⟨S256, .f32⟩
  | 100 => ⟨S_, .f32⟩
  | 101 => ⟨S256, .f32⟩
  | 102 => ⟨S256, .f32⟩
  | 103 => ⟨S256, .f32⟩
  | 104 => ⟨S256, .f32⟩
  | 105 => ⟨S_, .f32⟩
  | 106 => ⟨S256, .f32⟩
  | 107 => ⟨S256, .f32⟩
  | 108 => ⟨S1x256, .f32⟩
  | 109 => ⟨S1x256, .f32⟩
  | 110 => ⟨S1x256, .f32⟩
  | 111 => ⟨S1x256, .f32⟩
  | 112 => ⟨S100000x256, .bf16⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x256, .bf16⟩
  | 122 => ⟨S800000x256, .f32⟩
  | 123 => ⟨S_, .f32⟩
  | 124 => ⟨S100000x256, .f32⟩
  | 125 => ⟨S800000x1, .i32⟩
  | 126 => ⟨S100000x256, .f32⟩
  | 127 => ⟨S100000x1, .f32⟩
  | _ => ⟨S100000x12, .f32⟩

abbrev hbmTy0_2 (i : Nat) : BufTy := match i % 128 with
  | 0 => ⟨S100000x256, .f32⟩
  | 1 => ⟨S100000x256, .f32⟩
  | 2 => ⟨S100000x256, .bf16⟩
  | 3 => ⟨S1x128, .f32⟩
  | 4 => ⟨S100000x128, .bf16⟩
  | 5 => ⟨S25x1x128, .f32⟩
  | 6 => ⟨S25x1x128, .f32⟩
  | 7 => ⟨S_, .f32⟩
  | 8 => ⟨S1x128, .f32⟩
  | 9 => ⟨S128, .f32⟩
  | 10 => ⟨S_, .f32⟩
  | 11 => ⟨S1x128, .f32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S128, .f32⟩
  | 20 => ⟨S128, .f32⟩
  | 21 => ⟨S_, .f32⟩
  | 22 => ⟨S128, .f32⟩
  | 23 => ⟨S128, .f32⟩
  | 24 => ⟨S1x128, .f32⟩
  | 25 => ⟨S1x128, .f32⟩
  | 26 => ⟨S1x128, .f32⟩
  | 27 => ⟨S1x128, .f32⟩
  | 28 => ⟨S1x64, .f32⟩
  | 29 => ⟨S1x1, .f32⟩
  | 30 => ⟨S100000x1, .f32⟩
  | 31 => ⟨S100000, .f32⟩
  | _ => ⟨S100000x12, .f32⟩

abbrev hbmTy (i : Nat) : BufTy := match i / 128 with
  | 0 => hbmTy0_0 i
  | 1 => hbmTy0_1 i
  | 2 => hbmTy0_2 i
  | _ => ⟨S100000x12, .f32⟩

abbrev bufTy : (tb : Table) → Fin (tcTables nBuf tb) → BufTy
  | .hbm, ⟨i, _⟩ => hbmTy i
  | .local _ .vmem, ⟨0, _⟩ => ⟨S4000x12, .f32⟩
  | .local _ .vmem, ⟨1, _⟩ => ⟨S4000x12, .f32⟩
  | .local _ .vmem, ⟨2, _⟩ => ⟨S4000x12, .f32⟩
  | .local _ .vmem, ⟨3, _⟩ => ⟨S4000x12, .f32⟩
  | .local _ .vmem, ⟨4, _⟩ => ⟨S12x256, .f32⟩
  | .local _ .vmem, ⟨5, _⟩ => ⟨S12x256, .f32⟩
  | .local _ .vmem, ⟨6, _⟩ => ⟨S1x256, .f32⟩
  | .local _ .vmem, ⟨7, _⟩ => ⟨S4000x256, .bf16⟩
  | .local _ .vmem, ⟨8, _⟩ => ⟨S4000x256, .bf16⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S4000x256, .bf16⟩
  | .local _ .vmem, ⟨14, _⟩ => ⟨S4000x256, .bf16⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S4000x256, .bf16⟩
  | .local _ .vmem, ⟨20, _⟩ => ⟨S4000x256, .bf16⟩
  | .local _ .vmem, ⟨21, _⟩ => ⟨S4000x256, .bf16⟩
  | .local _ .vmem, ⟨22, _⟩ => ⟨S4000x256, .bf16⟩
  | .local _ .vmem, ⟨23, _⟩ => ⟨S4000x256, .bf16⟩
  | .local _ .vmem, ⟨24, _⟩ => ⟨S4000x256, .bf16⟩
  | .local _ .vmem, ⟨25, _⟩ => ⟨S256x256, .f32⟩
  | .local _ .vmem, ⟨26, _⟩ => ⟨S256x256, .f32⟩
  | .local _ .vmem, ⟨27, _⟩ => ⟨S1x256, .f32⟩
  | .local _ .vmem, ⟨28, _⟩ => ⟨S4000x256, .bf16⟩
  | .local _ .vmem, ⟨29, _⟩ => ⟨S4000x256, .bf16⟩
  | .local _ .vmem, ⟨30, _⟩ => ⟨S1x1x256, .f32⟩
  | .local _ .vmem, ⟨31, _⟩ => ⟨S1x1x256, .f32⟩
  | .local _ .vmem, ⟨32, _⟩ => ⟨S1x1x256, .f32⟩
  | .local _ .vmem, ⟨33, _⟩ => ⟨S1x1x256, .f32⟩
  | .local _ .vmem, ⟨34, _⟩ => ⟨S4000x256, .bf16⟩
  | .local _ .vmem, ⟨35, _⟩ => ⟨S4000x256, .bf16⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S4000x256, .bf16⟩
  | .local _ .vmem, ⟨41, _⟩ => ⟨S4000x256, .bf16⟩
  | .local _ .vmem, ⟨42, _⟩ => ⟨S4000x256, .bf16⟩
  | .local _ .vmem, ⟨43, _⟩ => ⟨S4000x256, .bf16⟩
  | .local _ .vmem, ⟨44, _⟩ => ⟨S4000x256, .bf16⟩
  | .local _ .vmem, ⟨45, _⟩ => ⟨S4000x256, .bf16⟩
  | .local _ .vmem, ⟨46, _⟩ => ⟨S256x256, .f32⟩
  | .local _ .vmem, ⟨47, _⟩ => ⟨S256x256, .f32⟩
  | .local _ .vmem, ⟨48, _⟩ => ⟨S1x256, .f32⟩
  | .local _ .vmem, ⟨49, _⟩ => ⟨S4000x256, .bf16⟩
  | .local _ .vmem, ⟨50, _⟩ => ⟨S4000x256, .bf16⟩
  | .local _ .vmem, ⟨51, _⟩ => ⟨S1x1x256, .f32⟩
  | .local _ .vmem, ⟨52, _⟩ => ⟨S1x1x256, .f32⟩
  | .local _ .vmem, ⟨53, _⟩ => ⟨S1x1x256, .f32⟩
  | .local _ .vmem, ⟨54, _⟩ => ⟨S1x1x256, .f32⟩
  | .local _ .vmem, ⟨55, _⟩ => ⟨S4000x256, .bf16⟩
  | .local _ .vmem, ⟨56, _⟩ => ⟨S4000x256, .bf16⟩
  | .local _ .vmem, ⟨57, _⟩ => ⟨S1x256, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S4000x256, .bf16⟩
  | .local _ .vmem, ⟨62, _⟩ => ⟨S4000x256, .bf16⟩
  | .local _ .vmem, ⟨63, _⟩ => ⟨S4000x256, .bf16⟩
  | .local _ .vmem, ⟨64, _⟩ => ⟨S4000x256, .bf16⟩
  | .local _ .vmem, ⟨65, _⟩ => ⟨S4000x256, .bf16⟩
  | .local _ .vmem, ⟨66, _⟩ => ⟨S4000x256, .bf16⟩
  | .local _ .vmem, ⟨67, _⟩ => ⟨S256x256, .f32⟩
  | .local _ .vmem, ⟨68, _⟩ => ⟨S256x256, .f32⟩
  | .local _ .vmem, ⟨69, _⟩ => ⟨S1x256, .f32⟩
  | .local _ .vmem, ⟨70, _⟩ => ⟨S4000x256, .bf16⟩
  | .local _ .vmem, ⟨71, _⟩ => ⟨S4000x256, .bf16⟩
  | .local _ .vmem, ⟨72, _⟩ => ⟨S1x1x256, .f32⟩
  | .local _ .vmem, ⟨73, _⟩ => ⟨S1x1x256, .f32⟩
  | .local _ .vmem, ⟨74, _⟩ => ⟨S1x1x256, .f32⟩
  | .local _ .vmem, ⟨75, _⟩ => ⟨S1x1x256, .f32⟩
  | .local _ .vmem, ⟨76, _⟩ => ⟨S4000x256, .bf16⟩
  | .local _ .vmem, ⟨77, _⟩ => ⟨S4000x256, .bf16⟩
  | .local _ .vmem, ⟨78, _⟩ => ⟨S1x256, .f32⟩
  | .local _ .vmem, ⟨79, _⟩ => ⟨S1x256, .f32⟩
  | .local _ .vmem, ⟨80, _⟩ => ⟨S1x256, .f32⟩
  | .local _ .vmem, ⟨81, _⟩ => ⟨S1x256, .f32⟩
  | .local _ .vmem, ⟨82, _⟩ => ⟨S4000x256, .bf16⟩
  | .local _ .vmem, ⟨83, _⟩ => ⟨S4000x256, .bf16⟩
  | .local _ .vmem, ⟨84, _⟩ => ⟨S4000x256, .bf16⟩
  | .local _ .vmem, ⟨85, _⟩ => ⟨S4000x256, .bf16⟩
  | .local _ .vmem, ⟨86, _⟩ => ⟨S4000x256, .bf16⟩
  | .local _ .vmem, ⟨87, _⟩ => ⟨S4000x256, .bf16⟩
  | .local _ .vmem, ⟨88, _⟩ => ⟨S256x128, .f32⟩
  | .local _ .vmem, ⟨89, _⟩ => ⟨S256x128, .f32⟩
  | .local _ .vmem, ⟨90, _⟩ => ⟨S1x128, .f32⟩
  | .local _ .vmem, ⟨91, _⟩ => ⟨S4000x128, .bf16⟩
  | .local _ .vmem, ⟨92, _⟩ => ⟨S4000x128, .bf16⟩
  | .local _ .vmem, ⟨93, _⟩ => ⟨S1x1x128, .f32⟩
  | .local _ .vmem, ⟨94, _⟩ => ⟨S1x1x128, .f32⟩
  | .local _ .vmem, ⟨95, _⟩ => ⟨S1x1x128, .f32⟩
  | .local _ .vmem, ⟨96, _⟩ => ⟨S1x1x128, .f32⟩
  | .local _ .vmem, ⟨97, _⟩ => ⟨S4000x128, .bf16⟩
  | .local _ .vmem, ⟨98, _⟩ => ⟨S4000x128, .bf16⟩
  | .local _ .vmem, ⟨99, _⟩ => ⟨S1x128, .f32⟩
  | .local _ .vmem, ⟨100, _⟩ => ⟨S1x128, .f32⟩
  | .local _ .vmem, ⟨101, _⟩ => ⟨S1x128, .f32⟩
  | .local _ .vmem, ⟨102, _⟩ => ⟨S1x128, .f32⟩
  | .local _ .vmem, ⟨103, _⟩ => ⟨S128x64, .f32⟩
  | .local _ .vmem, ⟨104, _⟩ => ⟨S1x64, .f32⟩
  | .local _ .vmem, ⟨105, _⟩ => ⟨S64x1, .f32⟩
  | .local _ .vmem, ⟨106, _⟩ => ⟨S1x1, .f32⟩
  | .local _ .vmem, ⟨107, _⟩ => ⟨S4000x1, .f32⟩
  | .local _ .vmem, ⟨108, _⟩ => ⟨S4000x1, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | _, _ => false

abbrev semScoped : Fin 0 → Bool
  | ⟨_, h⟩ => absurd h (Nat.not_lt_zero _)

abbrev dmaSemScoped : Fin 109 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | _ => false

abbrev sig : RefSig :=
  ofTc nBuf bufTy 0 109 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26_0 : Ref sig .tc := ⟨.hbm, 54, rfl⟩
abbrev main_v26_1 : Ref sig .tc := ⟨.hbm, 55, rfl⟩
abbrev main_v26_2 : Ref sig .tc := ⟨.hbm, 56, rfl⟩
abbrev main_cst_5 : Ref sig .tc := ⟨.hbm, 57, rfl⟩
abbrev main_v27 : Ref sig .tc := ⟨.hbm, 58, rfl⟩
abbrev main_v28 : Ref sig .tc := ⟨.hbm, 59, rfl⟩
abbrev main_cst_6 : Ref sig .tc := ⟨.hbm, 60, rfl⟩
abbrev main_v29 : Ref sig .tc := ⟨.hbm, 61, rfl⟩
abbrev main_v30 : Ref sig .tc := ⟨.hbm, 62, rfl⟩
abbrev main_cst_7 : Ref sig .tc := ⟨.hbm, 63, rfl⟩
abbrev main_v31 : Ref sig .tc := ⟨.hbm, 64, rfl⟩
abbrev main_v32 : Ref sig .tc := ⟨.hbm, 65, rfl⟩
abbrev main_cst_8 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_9 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_10 : Ref sig .tc := ⟨.hbm, 79, rfl⟩
abbrev main_v44 : Ref sig .tc := ⟨.hbm, 80, rfl⟩
abbrev main_v45 : Ref sig .tc := ⟨.hbm, 81, rfl⟩
abbrev main_c_11 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_12 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70_0 : Ref sig .tc := ⟨.hbm, 108, rfl⟩
abbrev main_v70_1 : Ref sig .tc := ⟨.hbm, 109, rfl⟩
abbrev main_v70_2 : Ref sig .tc := ⟨.hbm, 110, rfl⟩
abbrev main_cst_13 : Ref sig .tc := ⟨.hbm, 111, rfl⟩
abbrev main_v71 : Ref sig .tc := ⟨.hbm, 112, rfl⟩
abbrev main_v72 : Ref sig .tc := ⟨.hbm, 113, rfl⟩
abbrev main_cst_14 : Ref sig .tc := ⟨.hbm, 114, rfl⟩
abbrev main_v73 : Ref sig .tc := ⟨.hbm, 115, rfl⟩
abbrev main_v74 : Ref sig .tc := ⟨.hbm, 116, rfl⟩
abbrev main_cst_15 : Ref sig .tc := ⟨.hbm, 117, rfl⟩
abbrev main_v75 : Ref sig .tc := ⟨.hbm, 118, rfl⟩
abbrev main_v76 : Ref sig .tc := ⟨.hbm, 119, rfl⟩
abbrev main_cst_16 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_17 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_c_18 : Ref sig .tc := ⟨.hbm, 133, rfl⟩
abbrev main_v88 : Ref sig .tc := ⟨.hbm, 134, rfl⟩
abbrev main_v89 : Ref sig .tc := ⟨.hbm, 135, rfl⟩
abbrev main_c_19 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_20 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114_0 : Ref sig .tc := ⟨.hbm, 162, rfl⟩
abbrev main_v114_1 : Ref sig .tc := ⟨.hbm, 163, rfl⟩
abbrev main_v114_2 : Ref sig .tc := ⟨.hbm, 164, rfl⟩
abbrev main_cst_21 : Ref sig .tc := ⟨.hbm, 165, rfl⟩
abbrev main_v115 : Ref sig .tc := ⟨.hbm, 166, rfl⟩
abbrev main_v116 : Ref sig .tc := ⟨.hbm, 167, rfl⟩
abbrev main_cst_22 : Ref sig .tc := ⟨.hbm, 168, rfl⟩
abbrev main_v117 : Ref sig .tc := ⟨.hbm, 169, rfl⟩
abbrev main_v118 : Ref sig .tc := ⟨.hbm, 170, rfl⟩
abbrev main_cst_23 : Ref sig .tc := ⟨.hbm, 171, rfl⟩
abbrev main_v119 : Ref sig .tc := ⟨.hbm, 172, rfl⟩
abbrev main_v120 : Ref sig .tc := ⟨.hbm, 173, rfl⟩
abbrev main_cst_24 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_25 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_c_26 : Ref sig .tc := ⟨.hbm, 187, rfl⟩
abbrev main_v132 : Ref sig .tc := ⟨.hbm, 188, rfl⟩
abbrev main_v133 : Ref sig .tc := ⟨.hbm, 189, rfl⟩
abbrev main_c_27 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_28 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158_0 : Ref sig .tc := ⟨.hbm, 216, rfl⟩
abbrev main_v158_1 : Ref sig .tc := ⟨.hbm, 217, rfl⟩
abbrev main_v158_2 : Ref sig .tc := ⟨.hbm, 218, rfl⟩
abbrev main_cst_29 : Ref sig .tc := ⟨.hbm, 219, rfl⟩
abbrev main_v159 : Ref sig .tc := ⟨.hbm, 220, rfl⟩
abbrev main_v160 : Ref sig .tc := ⟨.hbm, 221, rfl⟩
abbrev main_cst_30 : Ref sig .tc := ⟨.hbm, 222, rfl⟩
abbrev main_v161 : Ref sig .tc := ⟨.hbm, 223, rfl⟩
abbrev main_v162 : Ref sig .tc := ⟨.hbm, 224, rfl⟩
abbrev main_cst_31 : Ref sig .tc := ⟨.hbm, 225, rfl⟩
abbrev main_v163 : Ref sig .tc := ⟨.hbm, 226, rfl⟩
abbrev main_v164 : Ref sig .tc := ⟨.hbm, 227, rfl⟩
abbrev main_cst_32 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_cst_33 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_c_34 : Ref sig .tc := ⟨.hbm, 241, rfl⟩
abbrev main_v176 : Ref sig .tc := ⟨.hbm, 242, rfl⟩
abbrev main_v177 : Ref sig .tc := ⟨.hbm, 243, rfl⟩
abbrev main_c_35 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_cst_36 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192_0 : Ref sig .tc := ⟨.hbm, 260, rfl⟩
abbrev main_v192_1 : Ref sig .tc := ⟨.hbm, 261, rfl⟩
abbrev main_v192_2 : Ref sig .tc := ⟨.hbm, 262, rfl⟩
abbrev main_cst_37 : Ref sig .tc := ⟨.hbm, 263, rfl⟩
abbrev main_v193 : Ref sig .tc := ⟨.hbm, 264, rfl⟩
abbrev main_v194 : Ref sig .tc := ⟨.hbm, 265, rfl⟩
abbrev main_cst_38 : Ref sig .tc := ⟨.hbm, 266, rfl⟩
abbrev main_v195 : Ref sig .tc := ⟨.hbm, 267, rfl⟩
abbrev main_v196 : Ref sig .tc := ⟨.hbm, 268, rfl⟩
abbrev main_cst_39 : Ref sig .tc := ⟨.hbm, 269, rfl⟩
abbrev main_v197 : Ref sig .tc := ⟨.hbm, 270, rfl⟩
abbrev main_v198 : Ref sig .tc := ⟨.hbm, 271, rfl⟩
abbrev main_cst_40 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_cst_41 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc4_stg6_0 : Ref sig .tc := ⟨.vmem, 51, rfl⟩
abbrev cc4_stg6_1 : Ref sig .tc := ⟨.vmem, 52, rfl⟩
abbrev cc4_stg7_0 : Ref sig .tc := ⟨.vmem, 53, rfl⟩
abbrev cc4_stg7_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg1_1 : Ref sig .tc := ⟨.vmem, 66, rfl⟩
abbrev cc6_stg2_0 : Ref sig .tc := ⟨.vmem, 67, rfl⟩
abbrev cc6_stg3_0 : Ref sig .tc := ⟨.vmem, 68, rfl⟩
abbrev cc6_stg4_0 : Ref sig .tc := ⟨.vmem, 69, rfl⟩
abbrev cc6_stg5_0 : Ref sig .tc := ⟨.vmem, 70, rfl⟩
abbrev cc6_stg5_1 : Ref sig .tc := ⟨.vmem, 71, rfl⟩
abbrev cc6_stg6_0 : Ref sig .tc := ⟨.vmem, 72, rfl⟩
abbrev cc6_stg6_1 : Ref sig .tc := ⟨.vmem, 73, rfl⟩
abbrev cc6_stg7_0 : Ref sig .tc := ⟨.vmem, 74, rfl⟩
abbrev cc6_stg7_1 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg2_0 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg5_0 : Ref sig .tc := ⟨.vmem, 82, rfl⟩
abbrev cc7_stg5_1 : Ref sig .tc := ⟨.vmem, 83, rfl⟩
abbrev cc8_stg0_0 : Ref sig .tc := ⟨.vmem, 84, rfl⟩
abbrev cc8_stg0_1 : Ref sig .tc := ⟨.vmem, 85, rfl⟩
abbrev cc8_stg1_0 : Ref sig .tc := ⟨.vmem, 86, rfl⟩
abbrev cc8_stg1_1 : Ref sig .tc := ⟨.vmem, 87, rfl⟩
abbrev cc8_stg2_0 : Ref sig .tc := ⟨.vmem, 88, rfl⟩
abbrev cc8_stg3_0 : Ref sig .tc := ⟨.vmem, 89, rfl⟩
abbrev cc8_stg4_0 : Ref sig .tc := ⟨.vmem, 90, rfl⟩
abbrev cc8_stg5_0 : Ref sig .tc := ⟨.vmem, 91, rfl⟩
abbrev cc8_stg5_1 : Ref sig .tc := ⟨.vmem, 92, rfl⟩
abbrev cc8_stg6_0 : Ref sig .tc := ⟨.vmem, 93, rfl⟩
abbrev cc8_stg6_1 : Ref sig .tc := ⟨.vmem, 94, rfl⟩
abbrev cc8_stg7_0 : Ref sig .tc := ⟨.vmem, 95, rfl⟩
abbrev cc8_stg7_1 : Ref sig .tc := ⟨.vmem, 96, rfl⟩
abbrev cc9_stg0_0 : Ref sig .tc := ⟨.vmem, 97, rfl⟩
abbrev cc9_stg0_1 : Ref sig .tc := ⟨.vmem, 98, rfl⟩
abbrev cc9_stg1_0 : Ref sig .tc := ⟨.vmem, 99, rfl⟩
abbrev cc9_stg2_0 : Ref sig .tc := ⟨.vmem, 100, rfl⟩
abbrev cc9_stg3_0 : Ref sig .tc := ⟨.vmem, 101, rfl⟩
abbrev cc9_stg4_0 : Ref sig .tc := ⟨.vmem, 102, rfl⟩
abbrev cc9_stg5_0 : Ref sig .tc := ⟨.vmem, 103, rfl⟩
abbrev cc9_stg6_0 : Ref sig .tc := ⟨.vmem, 104, rfl⟩
abbrev cc9_stg7_0 : Ref sig .tc := ⟨.vmem, 105, rfl⟩
abbrev cc9_stg8_0 : Ref sig .tc := ⟨.vmem, 106, rfl⟩
abbrev cc9_stg9_0 : Ref sig .tc := ⟨.vmem, 107, rfl⟩
abbrev cc9_stg9_1 : Ref sig .tc := ⟨.vmem, 108, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem5_1 : DmaSem sig := 50
abbrev cc4_sem6_0 : DmaSem sig := 51
abbrev cc4_sem6_1 : DmaSem sig := 52
abbrev cc4_sem7_0 : DmaSem sig := 53
abbrev cc4_sem7_1 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62
abbrev cc6_sem0_0 : DmaSem sig := 63
abbrev cc6_sem0_1 : DmaSem sig := 64
abbrev cc6_sem1_0 : DmaSem sig := 65
abbrev cc6_sem1_1 : DmaSem sig := 66
abbrev cc6_sem2_0 : DmaSem sig := 67
abbrev cc6_sem3_0 : DmaSem sig := 68
abbrev cc6_sem4_0 : DmaSem sig := 69
abbrev cc6_sem5_0 : DmaSem sig := 70
abbrev cc6_sem5_1 : DmaSem sig := 71
abbrev cc6_sem6_0 : DmaSem sig := 72
abbrev cc6_sem6_1 : DmaSem sig := 73
abbrev cc6_sem7_0 : DmaSem sig := 74
abbrev cc6_sem7_1 : DmaSem sig := 75
abbrev cc7_sem0_0 : DmaSem sig := 76
abbrev cc7_sem0_1 : DmaSem sig := 77
abbrev cc7_sem1_0 : DmaSem sig := 78
abbrev cc7_sem2_0 : DmaSem sig := 79
abbrev cc7_sem3_0 : DmaSem sig := 80
abbrev cc7_sem4_0 : DmaSem sig := 81
abbrev cc7_sem5_0 : DmaSem sig := 82
abbrev cc7_sem5_1 : DmaSem sig := 83
abbrev cc8_sem0_0 : DmaSem sig := 84
abbrev cc8_sem0_1 : DmaSem sig := 85
abbrev cc8_sem1_0 : DmaSem sig := 86
abbrev cc8_sem1_1 : DmaSem sig := 87
abbrev cc8_sem2_0 : DmaSem sig := 88
abbrev cc8_sem3_0 : DmaSem sig := 89
abbrev cc8_sem4_0 : DmaSem sig := 90
abbrev cc8_sem5_0 : DmaSem sig := 91
abbrev cc8_sem5_1 : DmaSem sig := 92
abbrev cc8_sem6_0 : DmaSem sig := 93
abbrev cc8_sem6_1 : DmaSem sig := 94
abbrev cc8_sem7_0 : DmaSem sig := 95
abbrev cc8_sem7_1 : DmaSem sig := 96
abbrev cc9_sem0_0 : DmaSem sig := 97
abbrev cc9_sem0_1 : DmaSem sig := 98
abbrev cc9_sem1_0 : DmaSem sig := 99
abbrev cc9_sem2_0 : DmaSem sig := 100
abbrev cc9_sem3_0 : DmaSem sig := 101
abbrev cc9_sem4_0 : DmaSem sig := 102
abbrev cc9_sem5_0 : DmaSem sig := 103
abbrev cc9_sem6_0 : DmaSem sig := 104
abbrev cc9_sem7_0 : DmaSem sig := 105
abbrev cc9_sem8_0 : DmaSem sig := 106
abbrev cc9_sem9_0 : DmaSem sig := 107
abbrev cc9_sem9_1 : DmaSem sig := 108

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S4000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x1x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x1x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x256 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S4000x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x256 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1x1x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1x1x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4000x256 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_7 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S4000x256 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S256x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S4000x128 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S1x1x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S1x1x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S64x1 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x1 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S4000x1 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x12 : S_.BroadcastsInDim S100000x12 (![] : Fin 0 → Fin S100000x12.rank)
  bcast_S100000_S100000x1_0 : S100000.BroadcastsInDim S100000x1 (![0] : Fin 1 → Fin S100000x1.rank)
  bcast_S100000x1_S100000x12_0_1 : S100000x1.BroadcastsInDim S100000x12 (![0, 1] : Fin 2 → Fin S100000x12.rank)
  shapeCasts_S256_S1x256 : S256.ShapeCasts S1x256
  inb_S4000x12_S4000x12_0_0 : ∀ a, (![0, 0] : Fin 2 → Nat) a + S4000x12.size a ≤ S4000x12.size a
  h_S4000x12 : 0 < S4000x12.numel
  shapeCasts_S4000x12_S4000x12 : S4000x12.ShapeCasts S4000x12
  bitsLt_bf16_f32 : FTy.bits .bf16 < FTy.bits .f32
  inb_S12x256_S12x256_0_0 : ∀ a, (![0, 0] : Fin 2 → Nat) a + S12x256.size a ≤ S12x256.size a
  h_S12x256 : 0 < S12x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  reduces_S4000x256_S4000 : S4000x256.Reduces [1] S4000
  shapeCasts_S4000_S4000x1 : S4000.ShapeCasts S4000x1
  broadcasts_S4000x1_S4000x256 : S4000x1.Broadcasts S4000x256
  inb_S4000x256_S4000x256_0_0 : ∀ a, (![0, 0] : Fin 2 → Nat) a + S4000x256.size a ≤ S4000x256.size a
  h_S4000x256 : 0 < S4000x256.numel
  packedbf16_S4000x256_S4000x256_0_0 : (Rect.unit (s := S4000x256) ![0, 0] S4000x256.size inb_S4000x256_S4000x256_0_0).PackedRows (EltTy.packing .bf16)
  reduces_S4000x256_S256 : S4000x256.Reduces [0] S256
  shapeCasts_S256_S1x1x256 : S256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S25x1x256_S1x256_d0 : S25x1x256.ReducesTo [0] S1x256
  h_S_ : 0 < S_.numel
  shapeCasts_S1x256_S256 : S1x256.ShapeCasts S256
  bcast_S_S256 : S_.BroadcastsInDim S256 (![] : Fin 0 → Fin S256.rank)
  shapeCasts_S4000x256_S4000x256 : S4000x256.ShapeCasts S4000x256
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  reduces_S4000x128_S128 : S4000x128.Reduces [0] S128
  shapeCasts_S128_S1x1x128 : S128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S25x1x128_S1x128_d0 : S25x1x128.ReducesTo [0] S1x128
  shapeCasts_S1x128_S128 : S1x128.ShapeCasts S128
  bcast_S_S128 : S_.BroadcastsInDim S128 (![] : Fin 0 → Fin S128.rank)
  shapeCasts_S64_S1x64 : S64.ShapeCasts S1x64
  shapeCasts_S1_S1x1 : S1.ShapeCasts S1x1
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  scatter_S100000_S800000x1_S800000_n_0_0_1_wf : ScatterDims.WF S100000 S800000x1 S800000 [] [0] [0] 1
  gather_S100000x12_S800000x1_S800000x12_1_0_n_n_0_1_112_wf : GatherDims.WF S100000x12 S800000x1 S800000x12 [1] [0] [] [0] [] 1 ![1, 12]
  scatter_S100000x12_S800000x1_S800000x12_1_0_0_1_wf : ScatterDims.WF S100000x12 S800000x1 S800000x12 [1] [0] [0] 1
  dot_S4000x12_S12x256_S4000x256_1_0_0_1_n_n_wf : DotDims.WF S4000x12 S12x256 S4000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  dot_S4000x128_S128x64_S4000x64_1_0_0_1_n_n_wf : DotDims.WF S4000x128 S128x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x12.size a ≤ S100000x12.size a
  hwx0_0 : ∀ i : grid0.Coords, EltTy.bits .f32 = 32 ∨ (Rect.block (s := S100000x12) S4000x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x12.size a ≤ S100000x12.size a
  hwx0_1 : ∀ i : grid0.Coords, EltTy.bits .f32 = 32 ∨ (Rect.block (s := S100000x12) S4000x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x256.size a ≤ S12x256.size a
  hwx0_2 : ∀ i : grid0.Coords, EltTy.bits .f32 = 32 ∨ (Rect.block (s := S12x256) S12x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x256.size a ≤ S12x256.size a
  hwx0_3 : ∀ i : grid0.Coords, EltTy.bits .f32 = 32 ∨ (Rect.block (s := S12x256) S12x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S100000x256.size a
  hwx0_5 : ∀ i : grid0.Coords, EltTy.bits .bf16 = 32 ∨ (Rect.block (s := S100000x256) S4000x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S25x1x256.size a
  hwx0_6 : ∀ i : grid0.Coords, EltTy.bits .f32 = 32 ∨ (Rect.block (s := S25x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S25x1x256.size a
  hwx0_7 : ∀ i : grid0.Coords, EltTy.bits .f32 = 32 ∨ (Rect.block (s := S25x1x256) S1x1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .bf16 = 32 ∨ (Rect.block (s := S100000x256) S4000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S100000x256.size a
  hwx1_5 : ∀ i : grid1.Coords, EltTy.bits .bf16 = 32 ∨ (Rect.block (s := S100000x256) S4000x256.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S100000x256.size a
  hwx2_0 : ∀ i : grid2.Coords, EltTy.bits .bf16 = 32 ∨ (Rect.block (s := S100000x256) S4000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S100000x256.size a
  hwx2_1 : ∀ i : grid2.Coords, EltTy.bits .bf16 = 32 ∨ (Rect.block (s := S100000x256) S4000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x256.size a ≤ S100000x256.size a
  hwx2_5 : ∀ i : grid2.Coords, EltTy.bits .bf16 = 32 ∨ (Rect.block (s := S100000x256) S4000x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x256.size a ≤ S25x1x256.size a
  hwx2_6 : ∀ i : grid2.Coords, EltTy.bits .f32 = 32 ∨ (Rect.block (s := S25x1x256) S1x1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x256.size a ≤ S25x1x256.size a
  hwx2_7 : ∀ i : grid2.Coords, EltTy.bits .f32 = 32 ∨ (Rect.block (s := S25x1x256) S1x1x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S100000x256.size a
  hwx3_0 : ∀ i : grid3.Coords, EltTy.bits .bf16 = 32 ∨ (Rect.block (s := S100000x256) S4000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x256.size a ≤ S100000x256.size a
  hwx3_5 : ∀ i : grid3.Coords, EltTy.bits .bf16 = 32 ∨ (Rect.block (s := S100000x256) S4000x256.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S100000x256.size a
  hwx4_0 : ∀ i : grid4.Coords, EltTy.bits .bf16 = 32 ∨ (Rect.block (s := S100000x256) S4000x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x256.size a ≤ S100000x256.size a
  hwx4_1 : ∀ i : grid4.Coords, EltTy.bits .bf16 = 32 ∨ (Rect.block (s := S100000x256) S4000x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x256.size a ≤ S100000x256.size a
  hwx4_5 : ∀ i : grid4.Coords, EltTy.bits .bf16 = 32 ∨ (Rect.block (s := S100000x256) S4000x256.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x1x256.size a ≤ S25x1x256.size a
  hwx4_6 : ∀ i : grid4.Coords, EltTy.bits .f32 = 32 ∨ (Rect.block (s := S25x1x256) S1x1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x1x256.size a ≤ S25x1x256.size a
  hwx4_7 : ∀ i : grid4.Coords, EltTy.bits .f32 = 32 ∨ (Rect.block (s := S25x1x256) S1x1x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x256.size a ≤ S100000x256.size a
  hwx5_0 : ∀ i : grid5.Coords, EltTy.bits .bf16 = 32 ∨ (Rect.block (s := S100000x256) S4000x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x256.size a ≤ S100000x256.size a
  hwx5_5 : ∀ i : grid5.Coords, EltTy.bits .bf16 = 32 ∨ (Rect.block (s := S100000x256) S4000x256.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x256.size a ≤ S100000x256.size a
  hwx6_0 : ∀ i : grid6.Coords, EltTy.bits .bf16 = 32 ∨ (Rect.block (s := S100000x256) S4000x256.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x256.size a ≤ S100000x256.size a
  hwx6_1 : ∀ i : grid6.Coords, EltTy.bits .bf16 = 32 ∨ (Rect.block (s := S100000x256) S4000x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x256.size a ≤ S100000x256.size a
  hwx6_5 : ∀ i : grid6.Coords, EltTy.bits .bf16 = 32 ∨ (Rect.block (s := S100000x256) S4000x256.size (cc6_transform_5 i) (hinb6_5 i)).WholeWords (EltTy.packing .bf16)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1x1x256.size a ≤ S25x1x256.size a
  hwx6_6 : ∀ i : grid6.Coords, EltTy.bits .f32 = 32 ∨ (Rect.block (s := S25x1x256) S1x1x256.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1x1x256.size a ≤ S25x1x256.size a
  hwx6_7 : ∀ i : grid6.Coords, EltTy.bits .f32 = 32 ∨ (Rect.block (s := S25x1x256) S1x1x256.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x256.size a ≤ S100000x256.size a
  hwx7_0 : ∀ i : grid7.Coords, EltTy.bits .bf16 = 32 ∨ (Rect.block (s := S100000x256) S4000x256.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x256.size a ≤ S100000x256.size a
  hwx7_5 : ∀ i : grid7.Coords, EltTy.bits .bf16 = 32 ∨ (Rect.block (s := S100000x256) S4000x256.size (cc7_transform_5 i) (hinb7_5 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x256.size a ≤ S100000x256.size a
  hwx8_0 : ∀ i : grid8.Coords, EltTy.bits .bf16 = 32 ∨ (Rect.block (s := S100000x256) S4000x256.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x256.size a ≤ S100000x256.size a
  hwx8_1 : ∀ i : grid8.Coords, EltTy.bits .bf16 = 32 ∨ (Rect.block (s := S100000x256) S4000x256.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x128.size a ≤ S256x128.size a
  hwx8_2 : ∀ i : grid8.Coords, EltTy.bits .f32 = 32 ∨ (Rect.block (s := S256x128) S256x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x128.size a ≤ S256x128.size a
  hwx8_3 : ∀ i : grid8.Coords, EltTy.bits .f32 = 32 ∨ (Rect.block (s := S256x128) S256x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S4000x128.size a ≤ S100000x128.size a
  hwx8_5 : ∀ i : grid8.Coords, EltTy.bits .bf16 = 32 ∨ (Rect.block (s := S100000x128) S4000x128.size (cc8_transform_5 i) (hinb8_5 i)).WholeWords (EltTy.packing .bf16)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1x1x128.size a ≤ S25x1x128.size a
  hwx8_6 : ∀ i : grid8.Coords, EltTy.bits .f32 = 32 ∨ (Rect.block (s := S25x1x128) S1x1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S1x1x128.size a ≤ S25x1x128.size a
  hwx8_7 : ∀ i : grid8.Coords, EltTy.bits .f32 = 32 ∨ (Rect.block (s := S25x1x128) S1x1x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S100000x128.size a
  hwx9_0 : ∀ i : grid9.Coords, EltTy.bits .bf16 = 32 ∨ (Rect.block (s := S100000x128) S4000x128.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x64.size a ≤ S128x64.size a
  hwx9_5 : ∀ i : grid9.Coords, EltTy.bits .f32 = 32 ∨ (Rect.block (s := S128x64) S128x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x64.size a ≤ S1x64.size a
  hwx9_6 : ∀ i : grid9.Coords, EltTy.bits .f32 = 32 ∨ (Rect.block (s := S1x64) S1x64.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S64x1.size a ≤ S64x1.size a
  hwx9_7 : ∀ i : grid9.Coords, EltTy.bits .f32 = 32 ∨ (Rect.block (s := S64x1) S64x1.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x1.size a ≤ S1x1.size a
  hwx9_8 : ∀ i : grid9.Coords, EltTy.bits .f32 = 32 ∨ (Rect.block (s := S1x1) S1x1.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S4000x1.size a ≤ S100000x1.size a
  hwx9_9 : ∀ i : grid9.Coords, EltTy.bits .f32 = 32 ∨ (Rect.block (s := S100000x1) S4000x1.size (cc9_transform_9 i) (hinb9_9 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x12_S800000x1_S800000x12_1_0_n_n_0_1_112 : GatherDims S100000x12 S800000x1 S800000x12 where
  offsetDims := [1]
  collapsedSliceDims := [0]
  operandBatchingDims := []
  startIndicesBatchingDims := []
  startIndexMap := [0]
  indexVectorDim := 1
  sliceSizes := ![1, 12]
  wf := gather_S100000x12_S800000x1_S800000x12_1_0_n_n_0_1_112_wf
def scatter_S100000x12_S800000x1_S800000x12_1_0_0_1 : ScatterDims S100000x12 S800000x1 S800000x12 where
  updateWindowDims := [1]
  insertedWindowDims := [0]
  scatterDimsToOperandDims := [0]
  indexVectorDim := 1
  wf := scatter_S100000x12_S800000x1_S800000x12_1_0_0_1_wf
def dot_S4000x12_S12x256_S4000x256_1_0_0_1_n_n : DotDims S4000x12 S12x256 S4000x256 where
  lhsContracting := [1]
  rhsContracting := [0]
  lhsNonContracting := [0]
  rhsNonContracting := [1]
  lhsBatch := []
  rhsBatch := []
  wf := dot_S4000x12_S12x256_S4000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_v24) S4000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S12x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S12x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S4000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x1x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x1x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70_0) S4000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v70_1) S1x1x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v70_2) S1x1x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v70_0) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S4000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v102) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S4000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v104) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v108) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v113) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v114_0) S4000x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v114_1) S1x1x256.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v114_2) S1x1x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v114_0) S4000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v127) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v128) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v129) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v130) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v131) S4000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v146) S4000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v131) S4000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v148) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v152) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v157) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v158_0) S4000x256.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v158_1) S1x1x256.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v158_2) S1x1x256.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v158_0) S4000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v171) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v172) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v173) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v174) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v175) S4000x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v190) S4000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v175) S4000x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg12) S256x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg14) S256x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v191) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v192_0) S4000x128.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v192_1) S1x1x128.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v192_2) S1x1x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v192_0) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v205) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v206) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v207) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v208) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg17) S128x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v209) S1x64.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_arg19) S64x1.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v210) S1x1.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v211) S4000x1.size cc9_transform_9 reads9_9 true false 2 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

class Facts : Prop extends Facts₀ where

variable [Facts]
-- ==== ReferenceIdeal.lean ====
abbrev S100000x12 : Shape := ⟨2, ![100000, 12]⟩
abbrev S2x800000 : Shape := ⟨2, ![2, 800000]⟩
abbrev S12x256 : Shape := ⟨2, ![12, 256]⟩
abbrev S256 : Shape := ⟨1, ![256]⟩
abbrev S3x256x256 : Shape := ⟨3, ![3, 256, 256]⟩
abbrev S3x256 : Shape := ⟨2, ![3, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S800000x12 : Shape := ⟨2, ![800000, 12]⟩
abbrev S100000x1 : Shape := ⟨2, ![100000, 1]⟩
abbrev S100000x256 : Shape := ⟨2, ![100000, 256]⟩
abbrev S1x256 : Shape := ⟨2, ![1, 256]⟩
abbrev S1x256x256 : Shape := ⟨3, ![1, 256, 256]⟩
abbrev S256x256 : Shape := ⟨2, ![256, 256]⟩
abbrev S800000x256 : Shape := ⟨2, ![800000, 256]⟩
abbrev S100000x128 : Shape := ⟨2, ![100000, 128]⟩
abbrev S1x128 : Shape := ⟨2, ![1, 128]⟩
abbrev S100000x64 : Shape := ⟨2, ![100000, 64]⟩
abbrev S1x64 : Shape := ⟨2, ![1, 64]⟩
abbrev S1x1 : Shape := ⟨2, ![1, 1]⟩

abbrev nBuf : Space → Nat
  | .hbm => 504
  | .vmem => 0
  | .smem => 0
  | _ => 0

abbrev hbmTy0_0 (i : Nat) : BufTy := match i % 128 with
  | 0 => ⟨S100000x12, .f32⟩
  | 1 => ⟨S2x800000, .i32⟩
  | 2 => ⟨S12x256, .f32⟩
  | 3 => ⟨S256, .f32⟩
  | 4 => ⟨S12x256, .f32⟩
  | 5 => ⟨S256, .f32⟩
  | 6 => ⟨S256, .f32⟩
  | 7 => ⟨S3x256x256, .f32⟩
  | 8 => ⟨S3x256, .f32⟩
  | 9 => ⟨S3x256x256, .f32⟩
  | 10 => ⟨S3x256, .f32⟩
  | 11 => ⟨S3x256, .f32⟩
  | 12 => ⟨S256x128, .f32⟩
  | 13 => ⟨S128, .f32⟩
  | 14 => ⟨S256x128, .f32⟩
  | 15 => ⟨S128, .f32⟩
  | 16 => ⟨S128, .f32⟩
  | 17 => ⟨S128x64, .f32⟩
  | 18 => ⟨S64, .f32⟩
  | 19 => ⟨S64x1, .f32⟩
  | 20 => ⟨S1, .f32⟩
  | 21 => ⟨S1x800000, .i32⟩
  | 22 => ⟨S800000, .i32⟩
  | 23 => ⟨S1x800000, .i32⟩
  | 24 => ⟨S800000, .i32⟩
  | 25 => ⟨S_, .f32⟩
  | 26 => ⟨S800000, .f32⟩
  | 27 => ⟨S_, .f32⟩
  | 28 => ⟨S100000, .f32⟩
  | 29 => ⟨S800000x1, .i32⟩
  | 30 => ⟨S100000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x12, .f32⟩
  | 40 => ⟨S_, .f32⟩
  | 41 => ⟨S100000x12, .f32⟩
  | 42 => ⟨S800000x1, .i32⟩
  | 43 => ⟨S100000x12, .f32⟩
  | 44 => ⟨S_, .f32⟩
  | 45 => ⟨S100000, .f32⟩
  | 46 => ⟨S100000, .f32⟩
  | 47 => ⟨S100000x1, .f32⟩
  | 48 => ⟨S100000x12, .f32⟩
  | 49 => ⟨S100000x12, .f32⟩
  | 50 => ⟨S100000x256, .f32⟩
  | 51 => ⟨S1x256, .f32⟩
  | 52 => ⟨S100000x256, .f32⟩
  | 53 => ⟨S100000x256, .f32⟩
  | 54 => ⟨S100000x256, .f32⟩
  | 55 => ⟨S100000x256, .f32⟩
  | 56 => ⟨S100000x256, .f32⟩
  | 57 => ⟨S_, .f32⟩
  | 58 => ⟨S100000, .f32⟩
  | 59 => ⟨S100000x1, .f32⟩
  | 60 => ⟨S100000x1, .f32⟩
  | 61 => ⟨S_, .f32⟩
  | 62 => ⟨S100000x1, .f32⟩
  | 63 => ⟨S100000x1, .f32⟩
  | 64 => ⟨S100000x256, .f32⟩
  | 65 => ⟨S100000x256, .f32⟩
  | 66 => ⟨S_, .f32⟩
  | 67 => ⟨S256, .f32⟩
  | 68 => ⟨S_, .f32⟩
  | 69 => ⟨S256, .f32⟩
  | 70 => ⟨S256, .f32⟩
  | 71 => ⟨S_, .i32⟩
  | 72 => ⟨S_, .f32⟩
  | 73 => ⟨S256, .f32⟩
  | 74 => ⟨S1x256, .f32⟩
  | 75 => ⟨S_, .f32⟩
  | 76 => ⟨S1x256, .f32⟩
  | 77 => ⟨S1x256, .f32⟩
  | 78 => ⟨S100000x256, .f32⟩
  | 79 => ⟨S100000x256, .f32⟩
  | 80 => ⟨S100000x256, .f32⟩
  | 81 => ⟨S_, .f32⟩
  | 82 => ⟨S_, .f32⟩
  | 83 => ⟨S_, .f32⟩
  | 84 => ⟨S_, .f32⟩
  | 85 => ⟨S256, .f32⟩
  | 86 => ⟨S256, .f32⟩
  | 87 => ⟨S256, .f32⟩
  | 88 => ⟨S_, .f32⟩
  | 89 => ⟨S_, .i1⟩
  | 90 => ⟨S_, .f32⟩
  | 91 => ⟨S_, .f32⟩
  | 92 => ⟨S256, .f32⟩
  | 93 => ⟨S256, .f32⟩
  | 94 => ⟨S1x256, .f32⟩
  | 95 => ⟨S100000x256, .f32⟩
  | 96 => ⟨S100000x256, .f32⟩
  | 97 => ⟨S_, .f32⟩
  | 98 => ⟨S256, .f32⟩
  | 99 => ⟨S256, .f32⟩
  | 100 => ⟨S256, .f32⟩
  | 101 => ⟨S1x256, .f32⟩
  | 102 => ⟨S100000x256, .f32⟩
  | 103 => ⟨S100000x256, .f32⟩
  | 104 => ⟨S1x256, .f32⟩
  | 105 => ⟨S100000x256, .f32⟩
  | 106 => ⟨S100000x256, .f32⟩
  | 107 => ⟨S1x256, .f32⟩
  | 108 => ⟨S100000x256, .f32⟩
  | 109 => ⟨S100000x256, .f32⟩
  | 110 => ⟨S_, .f32⟩
  | 111 => ⟨S100000x256, .f32⟩
  | 112 => ⟨S100000x256, .f32⟩
  | 113 => ⟨S1x256x256, .f32⟩
  | 114 => ⟨S256x256, .f32⟩
  | 115 => ⟨S1x256, .f32⟩
  | 116 => ⟨S256, .f32⟩
  | 117 => ⟨S1x256x256, .f32⟩
  | 118 => ⟨S256x256, .f32⟩
  | 119 => ⟨S1x256, .f32⟩
  | 120 => ⟨S256, .f32⟩
  | 121 => ⟨S1x256, .f32⟩
  | 122 => ⟨S256, .f32⟩
  | 123 => ⟨S_, .f32⟩
  | 124 => ⟨S800000, .f32⟩
  | 125 => ⟨S_, .f32⟩
  | 126 => ⟨S100000, .f32⟩
  | 127 => ⟨S800000x1, .i32⟩
  | _ => ⟨S100000x12, .f32⟩

abbrev hbmTy0_1 (i : Nat) : BufTy := match i % 128 with
  | 0 => ⟨S100000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x256, .f32⟩
  | 10 => ⟨S_, .f32⟩
  | 11 => ⟨S100000x256, .f32⟩
  | 12 => ⟨S800000x1, .i32⟩
  | 13 => ⟨S100000x256, .f32⟩
  | 14 => ⟨S_, .f32⟩
  | 15 => ⟨S100000, .f32⟩
  | 16 => ⟨S100000, .f32⟩
  | 17 => ⟨S100000x1, .f32⟩
  | 18 => ⟨S100000x256, .f32⟩
  | 19 => ⟨S100000x256, .f32⟩
  | 20 => ⟨S100000x256, .f32⟩
  | 21 => ⟨S1x256, .f32⟩
  | 22 => ⟨S100000x256, .f32⟩
  | 23 => ⟨S100000x256, .f32⟩
  | 24 => ⟨S100000x256, .f32⟩
  | 25 => ⟨S100000x256, .f32⟩
  | 26 => ⟨S100000x256, .f32⟩
  | 27 => ⟨S_, .f32⟩
  | 28 => ⟨S100000, .f32⟩
  | 29 => ⟨S100000x1, .f32⟩
  | 30 => ⟨S100000x1, .f32⟩
  | 31 => ⟨S_, .f32⟩
  | 32 => ⟨S100000x1, .f32⟩
  | 33 => ⟨S100000x1, .f32⟩
  | 34 => ⟨S100000x256, .f32⟩
  | 35 => ⟨S100000x256, .f32⟩
  | 36 => ⟨S_, .f32⟩
  | 37 => ⟨S256, .f32⟩
  | 38 => ⟨S_, .f32⟩
  | 39 => ⟨S256, .f32⟩
  | 40 => ⟨S256, .f32⟩
  | 41 => ⟨S_, .i32⟩
  | 42 => ⟨S_, .f32⟩
  | 43 => ⟨S256, .f32⟩
  | 44 => ⟨S1x256, .f32⟩
  | 45 => ⟨S_, .f32⟩
  | 46 => ⟨S1x256, .f32⟩
  | 47 => ⟨S1x256, .f32⟩
  | 48 => ⟨S100000x256, .f32⟩
  | 49 => ⟨S100000x256, .f32⟩
  | 50 => ⟨S100000x256, .f32⟩
  | 51 => ⟨S_, .f32⟩
  | 52 => ⟨S_, .f32⟩
  | 53 => ⟨S_, .f32⟩
  | 54 => ⟨S_, .f32⟩
  | 55 => ⟨S256, .f32⟩
  | 56 => ⟨S256, .f32⟩
  | 57 => ⟨S256, .f32⟩
  | 58 => ⟨S_, .f32⟩
  | 59 => ⟨S_, .i1⟩
  | 60 => ⟨S_, .f32⟩
  | 61 => ⟨S_, .f32⟩
  | 62 => ⟨S256, .f32⟩
  | 63 => ⟨S256, .f32⟩
  | 64 => ⟨S1x256, .f32⟩
  | 65 => ⟨S100000x256, .f32⟩
  | 66 => ⟨S100000x256, .f32⟩
  | 67 => ⟨S_, .f32⟩
  | 68 => ⟨S256, .f32⟩
  | 69 => ⟨S256, .f32⟩
  | 70 => ⟨S256, .f32⟩
  | 71 => ⟨S1x256, .f32⟩
  | 72 => ⟨S100000x256, .f32⟩
  | 73 => ⟨S100000x256, .f32⟩
  | 74 => ⟨S1x256, .f32⟩
  | 75 => ⟨S100000x256, .f32⟩
  | 76 => ⟨S100000x256, .f32⟩
  | 77 => ⟨S1x256, .f32⟩
  | 78 => ⟨S100000x256, .f32⟩
  | 79 => ⟨S100000x256, .f32⟩
  | 80 => ⟨S_, .f32⟩
  | 81 => ⟨S100000x256, .f32⟩
  | 82 => ⟨S100000x256, .f32⟩
  | 83 => ⟨S1x256x256, .f32⟩
  | 84 => ⟨S256x256, .f32⟩
  | 85 => ⟨S1x256, .f32⟩
  | 86 => ⟨S256, .f32⟩
  | 87 => ⟨S1x256x256, .f32⟩
  | 88 => ⟨S256x256, .f32⟩
  | 89 => ⟨S1x256, .f32⟩
  | 90 => ⟨S256, .f32⟩
  | 91 => ⟨S1x256, .f32⟩
  | 92 => ⟨S256, .f32⟩
  | 93 => ⟨S_, .f32⟩
  | 94 => ⟨S800000, .f32⟩
  | 95 => ⟨S_, .f32⟩
  | 96 => ⟨S100000, .f32⟩
  | 97 => ⟨S800000x1, .i32⟩
  | 98 => ⟨S100000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x256, .f32⟩
  | 108 => ⟨S_, .f32⟩
  | 109 => ⟨S100000x256, .f32⟩
  | 110 => ⟨S800000x1, .i32⟩
  | 111 => ⟨S100000x256, .f32⟩
  | 112 => ⟨S_, .f32⟩
  | 113 => ⟨S100000, .f32⟩
  | 114 => ⟨S100000, .f32⟩
  | 115 => ⟨S100000x1, .f32⟩
  | 116 => ⟨S100000x256, .f32⟩
  | 117 => ⟨S100000x256, .f32⟩
  | 118 => ⟨S100000x256, .f32⟩
  | 119 => ⟨S1x256, .f32⟩
  | 120 => ⟨S100000x256, .f32⟩
  | 121 => ⟨S100000x256, .f32⟩
  | 122 => ⟨S100000x256, .f32⟩
  | 123 => ⟨S100000x256, .f32⟩
  | 124 => ⟨S100000x256, .f32⟩
  | 125 => ⟨S_, .f32⟩
  | 126 => ⟨S100000, .f32⟩
  | 127 => ⟨S100000x1, .f32⟩
  | _ => ⟨S100000x12, .f32⟩

abbrev hbmTy0_2 (i : Nat) : BufTy := match i % 128 with
  | 0 => ⟨S100000x1, .f32⟩
  | 1 => ⟨S_, .f32⟩
  | 2 => ⟨S100000x1, .f32⟩
  | 3 => ⟨S100000x1, .f32⟩
  | 4 => ⟨S100000x256, .f32⟩
  | 5 => ⟨S100000x256, .f32⟩
  | 6 => ⟨S_, .f32⟩
  | 7 => ⟨S256, .f32⟩
  | 8 => ⟨S_, .f32⟩
  | 9 => ⟨S256, .f32⟩
  | 10 => ⟨S256, .f32⟩
  | 11 => ⟨S_, .i32⟩
  | 12 => ⟨S_, .f32⟩
  | 13 => ⟨S256, .f32⟩
  | 14 => ⟨S1x256, .f32⟩
  | 15 => ⟨S_, .f32⟩
  | 16 => ⟨S1x256, .f32⟩
  | 17 => ⟨S1x256, .f32⟩
  | 18 => ⟨S100000x256, .f32⟩
  | 19 => ⟨S100000x256, .f32⟩
  | 20 => ⟨S100000x256, .f32⟩
  | 21 => ⟨S_, .f32⟩
  | 22 => ⟨S_, .f32⟩
  | 23 => ⟨S_, .f32⟩
  | 24 => ⟨S_, .f32⟩
  | 25 => ⟨S256, .f32⟩
  | 26 => ⟨S256, .f32⟩
  | 27 => ⟨S256, .f32⟩
  | 28 => ⟨S_, .f32⟩
  | 29 => ⟨S_, .i1⟩
  | 30 => ⟨S_, .f32⟩
  | 31 => ⟨S_, .f32⟩
  | 32 => ⟨S256, .f32⟩
  | 33 => ⟨S256, .f32⟩
  | 34 => ⟨S1x256, .f32⟩
  | 35 => ⟨S100000x256, .f32⟩
  | 36 => ⟨S100000x256, .f32⟩
  | 37 => ⟨S_, .f32⟩
  | 38 => ⟨S256, .f32⟩
  | 39 => ⟨S256, .f32⟩
  | 40 => ⟨S256, .f32⟩
  | 41 => ⟨S1x256, .f32⟩
  | 42 => ⟨S100000x256, .f32⟩
  | 43 => ⟨S100000x256, .f32⟩
  | 44 => ⟨S1x256, .f32⟩
  | 45 => ⟨S100000x256, .f32⟩
  | 46 => ⟨S100000x256, .f32⟩
  | 47 => ⟨S1x256, .f32⟩
  | 48 => ⟨S100000x256, .f32⟩
  | 49 => ⟨S100000x256, .f32⟩
  | 50 => ⟨S_, .f32⟩
  | 51 => ⟨S100000x256, .f32⟩
  | 52 => ⟨S100000x256, .f32⟩
  | 53 => ⟨S1x256x256, .f32⟩
  | 54 => ⟨S256x256, .f32⟩
  | 55 => ⟨S1x256, .f32⟩
  | 56 => ⟨S256, .f32⟩
  | 57 => ⟨S1x256x256, .f32⟩
  | 58 => ⟨S256x256, .f32⟩
  | 59 => ⟨S1x256, .f32⟩
  | 60 => ⟨S256, .f32⟩
  | 61 => ⟨S1x256, .f32⟩
  | 62 => ⟨S256, .f32⟩
  | 63 => ⟨S_, .f32⟩
  | 64 => ⟨S800000, .f32⟩
  | 65 => ⟨S_, .f32⟩
  | 66 => ⟨S100000, .f32⟩
  | 67 => ⟨S800000x1, .i32⟩
  | 68 => ⟨S100000, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x256, .f32⟩
  | 78 => ⟨S_, .f32⟩
  | 79 => ⟨S100000x256, .f32⟩
  | 80 => ⟨S800000x1, .i32⟩
  | 81 => ⟨S100000x256, .f32⟩
  | 82 => ⟨S_, .f32⟩
  | 83 => ⟨S100000, .f32⟩
  | 84 => ⟨S100000, .f32⟩
  | 85 => ⟨S100000x1, .f32⟩
  | 86 => ⟨S100000x256, .f32⟩
  | 87 => ⟨S100000x256, .f32⟩
  | 88 => ⟨S100000x256, .f32⟩
  | 89 => ⟨S1x256, .f32⟩
  | 90 => ⟨S100000x256, .f32⟩
  | 91 => ⟨S100000x256, .f32⟩
  | 92 => ⟨S100000x256, .f32⟩
  | 93 => ⟨S100000x256, .f32⟩
  | 94 => ⟨S100000x256, .f32⟩
  | 95 => ⟨S_, .f32⟩
  | 96 => ⟨S100000, .f32⟩
  | 97 => ⟨S100000x1, .f32⟩
  | 98 => ⟨S100000x1, .f32⟩
  | 99 => ⟨S_, .f32⟩
  | 100 => ⟨S100000x1, .f32⟩
  | 101 => ⟨S100000x1, .f32⟩
  | 102 => ⟨S100000x256, .f32⟩
  | 103 => ⟨S100000x256, .f32⟩
  | 104 => ⟨S_, .f32⟩
  | 105 => ⟨S256, .f32⟩
  | 106 => ⟨S_, .f32⟩
  | 107 => ⟨S256, .f32⟩
  | 108 => ⟨S256, .f32⟩
  | 109 => ⟨S_, .i32⟩
  | 110 => ⟨S_, .f32⟩
  | 111 => ⟨S256, .f32⟩
  | 112 => ⟨S1x256, .f32⟩
  | 113 => ⟨S_, .f32⟩
  | 114 => ⟨S1x256, .f32⟩
  | 115 => ⟨S1x256, .f32⟩
  | 116 => ⟨S100000x256, .f32⟩
  | 117 => ⟨S100000x256, .f32⟩
  | 118 => ⟨S100000x256, .f32⟩
  | 119 => ⟨S_, .f32⟩
  | 120 => ⟨S_, .f32⟩
  | 121 => ⟨S_, .f32⟩
  | 122 => ⟨S_, .f32⟩
  | 123 => ⟨S256, .f32⟩
  | 124 => ⟨S256, .f32⟩
  | 125 => ⟨S256, .f32⟩
  | 126 => ⟨S_, .f32⟩
  | 127 => ⟨S_, .i1⟩
  | _ => ⟨S100000x12, .f32⟩

abbrev hbmTy0_3 (i : Nat) : BufTy := match i % 128 with
  | 0 => ⟨S_, .f32⟩
  | 1 => ⟨S_, .f32⟩
  | 2 => ⟨S256, .f32⟩
  | 3 => ⟨S256, .f32⟩
  | 4 => ⟨S1x256, .f32⟩
  | 5 => ⟨S100000x256, .f32⟩
  | 6 => ⟨S100000x256, .f32⟩
  | 7 => ⟨S_, .f32⟩
  | 8 => ⟨S256, .f32⟩
  | 9 => ⟨S256, .f32⟩
  | 10 => ⟨S256, .f32⟩
  | 11 => ⟨S1x256, .f32⟩
  | 12 => ⟨S100000x256, .f32⟩
  | 13 => ⟨S100000x256, .f32⟩
  | 14 => ⟨S1x256, .f32⟩
  | 15 => ⟨S100000x256, .f32⟩
  | 16 => ⟨S100000x256, .f32⟩
  | 17 => ⟨S1x256, .f32⟩
  | 18 => ⟨S100000x256, .f32⟩
  | 19 => ⟨S100000x256, .f32⟩
  | 20 => ⟨S_, .f32⟩
  | 21 => ⟨S100000x256, .f32⟩
  | 22 => ⟨S100000x256, .f32⟩
  | 23 => ⟨S_, .f32⟩
  | 24 => ⟨S800000, .f32⟩
  | 25 => ⟨S_, .f32⟩
  | 26 => ⟨S100000, .f32⟩
  | 27 => ⟨S800000x1, .i32⟩
  | 28 => ⟨S100000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x256, .f32⟩
  | 38 => ⟨S_, .f32⟩
  | 39 => ⟨S100000x256, .f32⟩
  | 40 => ⟨S800000x1, .i32⟩
  | 41 => ⟨S100000x256, .f32⟩
  | 42 => ⟨S_, .f32⟩
  | 43 => ⟨S100000, .f32⟩
  | 44 => ⟨S100000, .f32⟩
  | 45 => ⟨S100000x1, .f32⟩
  | 46 => ⟨S100000x256, .f32⟩
  | 47 => ⟨S100000x256, .f32⟩
  | 48 => ⟨S100000x128, .f32⟩
  | 49 => ⟨S1x128, .f32⟩
  | 50 => ⟨S100000x128, .f32⟩
  | 51 => ⟨S100000x128, .f32⟩
  | 52 => ⟨S100000x128, .f32⟩
  | 53 => ⟨S100000x128, .f32⟩
  | 54 => ⟨S100000x128, .f32⟩
  | 55 => ⟨S_, .f32⟩
  | 56 => ⟨S100000, .f32⟩
  | 57 => ⟨S100000x1, .f32⟩
  | 58 => ⟨S100000x1, .f32⟩
  | 59 => ⟨S_, .f32⟩
  | 60 => ⟨S100000x1, .f32⟩
  | 61 => ⟨S100000x1, .f32⟩
  | 62 => ⟨S100000x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S_, .i32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S100000x128, .f32⟩
  | 77 => ⟨S100000x128, .f32⟩
  | 78 => ⟨S100000x128, .f32⟩
  | 79 => ⟨S_, .f32⟩
  | 80 => ⟨S_, .f32⟩
  | 81 => ⟨S_, .f32⟩
  | 82 => ⟨S_, .f32⟩
  | 83 => ⟨S128, .f32⟩
  | 84 => ⟨S128, .f32⟩
  | 85 => ⟨S128, .f32⟩
  | 86 => ⟨S_, .f32⟩
  | 87 => ⟨S_, .i1⟩
  | 88 => ⟨S_, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S100000x1, .f32⟩
  | 116 => ⟨S1x1, .f32⟩
  | 117 => ⟨S100000x1, .f32⟩
  | 118 => ⟨S100000x1, .f32⟩
  | 119 => ⟨S100000, .f32⟩
  | _ => ⟨S100000x12, .f32⟩

abbrev hbmTy (i : Nat) : BufTy := match i / 128 with
  | 0 => hbmTy0_0 i
  | 1 => hbmTy0_1 i
  | 2 => hbmTy0_2 i
  | 3 => hbmTy0_3 i
  | _ => ⟨S100000x12, .f32⟩

abbrev bufTy : (tb : Table) → Fin (tcTables nBuf tb) → BufTy
  | .hbm, ⟨i, _⟩ => hbmTy i
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c : Ref sig .tc := ⟨.hbm, 31, rfl⟩
abbrev main_v8 : Ref sig .tc := ⟨.hbm, 32, rfl⟩
abbrev main_v9 : Ref sig .tc := ⟨.hbm, 33, rfl⟩
abbrev main_c_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_c_8 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_cst_0 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_cst_1 : Ref sig .tc := ⟨.hbm, 82, rfl⟩
abbrev main_call0_v8 : Ref sig .tc := ⟨.hbm, 83, rfl⟩
abbrev main_call0_cst_2 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_cst_3 : Ref sig .tc := ⟨.hbm, 88, rfl⟩
abbrev main_call0_v12 : Ref sig .tc := ⟨.hbm, 89, rfl⟩
abbrev main_call0_cst_4 : Ref sig .tc := ⟨.hbm, 90, rfl⟩
abbrev main_call0_call0_v0 : Ref sig .tc := ⟨.hbm, 91, rfl⟩
abbrev main_call0_call0_v1 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_9 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_call1_cst : Ref sig .tc := ⟨.hbm, 110, rfl⟩
abbrev main_call1_v0 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_cst_10 : Ref sig .tc := ⟨.hbm, 123, rfl⟩
abbrev main_v67 : Ref sig .tc := ⟨.hbm, 124, rfl⟩
abbrev main_cst_11 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_c_12 : Ref sig .tc := ⟨.hbm, 129, rfl⟩
abbrev main_v71 : Ref sig .tc := ⟨.hbm, 130, rfl⟩
abbrev main_v72 : Ref sig .tc := ⟨.hbm, 131, rfl⟩
abbrev main_c_13 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_cst_14 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_15 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_cst_16 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_17 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_18 : Ref sig .tc := ⟨.hbm, 164, rfl⟩
abbrev main_v100 : Ref sig .tc := ⟨.hbm, 165, rfl⟩
abbrev main_cst_19 : Ref sig .tc := ⟨.hbm, 166, rfl⟩
abbrev main_v101 : Ref sig .tc := ⟨.hbm, 167, rfl⟩
abbrev main_v102 : Ref sig .tc := ⟨.hbm, 168, rfl⟩
abbrev main_c_20 : Ref sig .tc := ⟨.hbm, 169, rfl⟩
abbrev main_call2_cst : Ref sig .tc := ⟨.hbm, 170, rfl⟩
abbrev main_call2_v0 : Ref sig .tc := ⟨.hbm, 171, rfl⟩
abbrev main_call2_v1 : Ref sig .tc := ⟨.hbm, 172, rfl⟩
abbrev main_call2_cst_0 : Ref sig .tc := ⟨.hbm, 173, rfl⟩
abbrev main_call2_v2 : Ref sig .tc := ⟨.hbm, 174, rfl⟩
abbrev main_call2_v3 : Ref sig .tc := ⟨.hbm, 175, rfl⟩
abbrev main_call2_v4 : Ref sig .tc := ⟨.hbm, 176, rfl⟩
abbrev main_call2_v5 : Ref sig .tc := ⟨.hbm, 177, rfl⟩
abbrev main_call2_v6 : Ref sig .tc := ⟨.hbm, 178, rfl⟩
abbrev main_call2_v7 : Ref sig .tc := ⟨.hbm, 179, rfl⟩
abbrev main_call2_cst_1 : Ref sig .tc := ⟨.hbm, 180, rfl⟩
abbrev main_call2_v8 : Ref sig .tc := ⟨.hbm, 181, rfl⟩
abbrev main_call2_cst_2 : Ref sig .tc := ⟨.hbm, 182, rfl⟩
abbrev main_call2_v9 : Ref sig .tc := ⟨.hbm, 183, rfl⟩
abbrev main_call2_v10 : Ref sig .tc := ⟨.hbm, 184, rfl⟩
abbrev main_call2_v11 : Ref sig .tc := ⟨.hbm, 185, rfl⟩
abbrev main_call2_cst_3 : Ref sig .tc := ⟨.hbm, 186, rfl⟩
abbrev main_call2_v12 : Ref sig .tc := ⟨.hbm, 187, rfl⟩
abbrev main_call2_cst_4 : Ref sig .tc := ⟨.hbm, 188, rfl⟩
abbrev main_call2_call0_v0 : Ref sig .tc := ⟨.hbm, 189, rfl⟩
abbrev main_call2_call0_v1 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_21 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_call3_cst : Ref sig .tc := ⟨.hbm, 208, rfl⟩
abbrev main_call3_v0 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_cst_22 : Ref sig .tc := ⟨.hbm, 221, rfl⟩
abbrev main_v130 : Ref sig .tc := ⟨.hbm, 222, rfl⟩
abbrev main_cst_23 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_c_24 : Ref sig .tc := ⟨.hbm, 227, rfl⟩
abbrev main_v134 : Ref sig .tc := ⟨.hbm, 228, rfl⟩
abbrev main_v135 : Ref sig .tc := ⟨.hbm, 229, rfl⟩
abbrev main_c_25 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_cst_26 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_cst_27 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_cst_28 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_cst_29 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_cst_30 : Ref sig .tc := ⟨.hbm, 262, rfl⟩
abbrev main_v163 : Ref sig .tc := ⟨.hbm, 263, rfl⟩
abbrev main_cst_31 : Ref sig .tc := ⟨.hbm, 264, rfl⟩
abbrev main_v164 : Ref sig .tc := ⟨.hbm, 265, rfl⟩
abbrev main_v165 : Ref sig .tc := ⟨.hbm, 266, rfl⟩
abbrev main_c_32 : Ref sig .tc := ⟨.hbm, 267, rfl⟩
abbrev main_call4_cst : Ref sig .tc := ⟨.hbm, 268, rfl⟩
abbrev main_call4_v0 : Ref sig .tc := ⟨.hbm, 269, rfl⟩
abbrev main_call4_v1 : Ref sig .tc := ⟨.hbm, 270, rfl⟩
abbrev main_call4_cst_0 : Ref sig .tc := ⟨.hbm, 271, rfl⟩
abbrev main_call4_v2 : Ref sig .tc := ⟨.hbm, 272, rfl⟩
abbrev main_call4_v3 : Ref sig .tc := ⟨.hbm, 273, rfl⟩
abbrev main_call4_v4 : Ref sig .tc := ⟨.hbm, 274, rfl⟩
abbrev main_call4_v5 : Ref sig .tc := ⟨.hbm, 275, rfl⟩
abbrev main_call4_v6 : Ref sig .tc := ⟨.hbm, 276, rfl⟩
abbrev main_call4_v7 : Ref sig .tc := ⟨.hbm, 277, rfl⟩
abbrev main_call4_cst_1 : Ref sig .tc := ⟨.hbm, 278, rfl⟩
abbrev main_call4_v8 : Ref sig .tc := ⟨.hbm, 279, rfl⟩
abbrev main_call4_cst_2 : Ref sig .tc := ⟨.hbm, 280, rfl⟩
abbrev main_call4_v9 : Ref sig .tc := ⟨.hbm, 281, rfl⟩
abbrev main_call4_v10 : Ref sig .tc := ⟨.hbm, 282, rfl⟩
abbrev main_call4_v11 : Ref sig .tc := ⟨.hbm, 283, rfl⟩
abbrev main_call4_cst_3 : Ref sig .tc := ⟨.hbm, 284, rfl⟩
abbrev main_call4_v12 : Ref sig .tc := ⟨.hbm, 285, rfl⟩
abbrev main_call4_cst_4 : Ref sig .tc := ⟨.hbm, 286, rfl⟩
abbrev main_call4_call0_v0 : Ref sig .tc := ⟨.hbm, 287, rfl⟩
abbrev main_call4_call0_v1 : Ref sig .tc := ⟨.hbm, 288, rfl⟩
abbrev main_v166 : Ref sig .tc := ⟨.hbm, 289, rfl⟩
abbrev main_v167 : Ref sig .tc := ⟨.hbm, 290, rfl⟩
abbrev main_v168 : Ref sig .tc := ⟨.hbm, 291, rfl⟩
abbrev main_v169 : Ref sig .tc := ⟨.hbm, 292, rfl⟩
abbrev main_cst_33 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_v174 : Ref sig .tc := ⟨.hbm, 298, rfl⟩
abbrev main_v175 : Ref sig .tc := ⟨.hbm, 299, rfl⟩
abbrev main_v176 : Ref sig .tc := ⟨.hbm, 300, rfl⟩
abbrev main_v177 : Ref sig .tc := ⟨.hbm, 301, rfl⟩
abbrev main_v178 : Ref sig .tc := ⟨.hbm, 302, rfl⟩
abbrev main_v179 : Ref sig .tc := ⟨.hbm, 303, rfl⟩
abbrev main_v180 : Ref sig .tc := ⟨.hbm, 304, rfl⟩
abbrev main_v181 : Ref sig .tc := ⟨.hbm, 305, rfl⟩
abbrev main_call5_cst : Ref sig .tc := ⟨.hbm, 306, rfl⟩
abbrev main_call5_v0 : Ref sig .tc := ⟨.hbm, 307, rfl⟩
abbrev main_v182 : Ref sig .tc := ⟨.hbm, 308, rfl⟩
abbrev main_v183 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_v191 : Ref sig .tc := ⟨.hbm, 317, rfl⟩
abbrev main_v192 : Ref sig .tc := ⟨.hbm, 318, rfl⟩
abbrev main_cst_34 : Ref sig .tc := ⟨.hbm, 319, rfl⟩
abbrev main_v193 : Ref sig .tc := ⟨.hbm, 320, rfl⟩
abbrev main_cst_35 : Ref sig .tc := ⟨.hbm, 321, rfl⟩
abbrev main_v194 : Ref sig .tc := ⟨.hbm, 322, rfl⟩
abbrev main_v195 : Ref sig .tc := ⟨.hbm, 323, rfl⟩
abbrev main_v196 : Ref sig .tc := ⟨.hbm, 324, rfl⟩
abbrev main_c_36 : Ref sig .tc := ⟨.hbm, 325, rfl⟩
abbrev main_v197 : Ref sig .tc := ⟨.hbm, 326, rfl⟩
abbrev main_v198 : Ref sig .tc := ⟨.hbm, 327, rfl⟩
abbrev main_c_37 : Ref sig .tc := ⟨.hbm, 328, rfl⟩
abbrev main_v199 : Ref sig .tc := ⟨.hbm, 329, rfl⟩
abbrev main_v200 : Ref sig .tc := ⟨.hbm, 330, rfl⟩
abbrev main_v201 : Ref sig .tc := ⟨.hbm, 331, rfl⟩
abbrev main_v202 : Ref sig .tc := ⟨.hbm, 332, rfl⟩
abbrev main_v203 : Ref sig .tc := ⟨.hbm, 333, rfl⟩
abbrev main_cst_38 : Ref sig .tc := ⟨.hbm, 334, rfl⟩
abbrev main_v204 : Ref sig .tc := ⟨.hbm, 335, rfl⟩
abbrev main_v205 : Ref sig .tc := ⟨.hbm, 336, rfl⟩
abbrev main_v206 : Ref sig .tc := ⟨.hbm, 337, rfl⟩
abbrev main_cst_39 : Ref sig .tc := ⟨.hbm, 338, rfl⟩
abbrev main_v207 : Ref sig .tc := ⟨.hbm, 339, rfl⟩
abbrev main_v208 : Ref sig .tc := ⟨.hbm, 340, rfl⟩
abbrev main_v209 : Ref sig .tc := ⟨.hbm, 341, rfl⟩
abbrev main_v210 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_v214 : Ref sig .tc := ⟨.hbm, 346, rfl⟩
abbrev main_v215 : Ref sig .tc := ⟨.hbm, 347, rfl⟩
abbrev main_v216 : Ref sig .tc := ⟨.hbm, 348, rfl⟩
abbrev main_v217 : Ref sig .tc := ⟨.hbm, 349, rfl⟩
abbrev main_v218 : Ref sig .tc := ⟨.hbm, 350, rfl⟩
abbrev main_cst_40 : Ref sig .tc := ⟨.hbm, 351, rfl⟩
abbrev main_v219 : Ref sig .tc := ⟨.hbm, 352, rfl⟩
abbrev main_v220 : Ref sig .tc := ⟨.hbm, 353, rfl⟩
abbrev main_v221 : Ref sig .tc := ⟨.hbm, 354, rfl⟩
abbrev main_cst_41 : Ref sig .tc := ⟨.hbm, 355, rfl⟩
abbrev main_v222 : Ref sig .tc := ⟨.hbm, 356, rfl⟩
abbrev main_v223 : Ref sig .tc := ⟨.hbm, 357, rfl⟩
abbrev main_v224 : Ref sig .tc := ⟨.hbm, 358, rfl⟩
abbrev main_v225 : Ref sig .tc := ⟨.hbm, 359, rfl⟩
abbrev main_cst_42 : Ref sig .tc := ⟨.hbm, 360, rfl⟩
abbrev main_v226 : Ref sig .tc := ⟨.hbm, 361, rfl⟩
abbrev main_cst_43 : Ref sig .tc := ⟨.hbm, 362, rfl⟩
abbrev main_v227 : Ref sig .tc := ⟨.hbm, 363, rfl⟩
abbrev main_v228 : Ref sig .tc := ⟨.hbm, 364, rfl⟩
abbrev main_c_44 : Ref sig .tc := ⟨.hbm, 365, rfl⟩
abbrev main_call6_cst : Ref sig .tc := ⟨.hbm, 366, rfl⟩
abbrev main_call6_v0 : Ref sig .tc := ⟨.hbm, 367, rfl⟩
abbrev main_call6_v1 : Ref sig .tc := ⟨.hbm, 368, rfl⟩
abbrev main_call6_cst_0 : Ref sig .tc := ⟨.hbm, 369, rfl⟩
abbrev main_call6_v2 : Ref sig .tc := ⟨.hbm, 370, rfl⟩
abbrev main_call6_v3 : Ref sig .tc := ⟨.hbm, 371, rfl⟩
abbrev main_call6_v4 : Ref sig .tc := ⟨.hbm, 372, rfl⟩
abbrev main_call6_v5 : Ref sig .tc := ⟨.hbm, 373, rfl⟩
abbrev main_call6_v6 : Ref sig .tc := ⟨.hbm, 374, rfl⟩
abbrev main_call6_v7 : Ref sig .tc := ⟨.hbm, 375, rfl⟩
abbrev main_call6_cst_1 : Ref sig .tc := ⟨.hbm, 376, rfl⟩
abbrev main_call6_v8 : Ref sig .tc := ⟨.hbm, 377, rfl⟩
abbrev main_call6_cst_2 : Ref sig .tc := ⟨.hbm, 378, rfl⟩
abbrev main_call6_v9 : Ref sig .tc := ⟨.hbm, 379, rfl⟩
abbrev main_call6_v10 : Ref sig .tc := ⟨.hbm, 380, rfl⟩
abbrev main_call6_v11 : Ref sig .tc := ⟨.hbm, 381, rfl⟩
abbrev main_call6_cst_3 : Ref sig .tc := ⟨.hbm, 382, rfl⟩
abbrev main_call6_v12 : Ref sig .tc := ⟨.hbm, 383, rfl⟩
abbrev main_call6_cst_4 : Ref sig .tc := ⟨.hbm, 384, rfl⟩
abbrev main_call6_call0_v0 : Ref sig .tc := ⟨.hbm, 385, rfl⟩
abbrev main_call6_call0_v1 : Ref sig .tc := ⟨.hbm, 386, rfl⟩
abbrev main_v229 : Ref sig .tc := ⟨.hbm, 387, rfl⟩
abbrev main_v230 : Ref sig .tc := ⟨.hbm, 388, rfl⟩
abbrev main_v231 : Ref sig .tc := ⟨.hbm, 389, rfl⟩
abbrev main_v232 : Ref sig .tc := ⟨.hbm, 390, rfl⟩
abbrev main_cst_45 : Ref sig .tc := ⟨.hbm, 391, rfl⟩
abbrev main_v233 : Ref sig .tc := ⟨.hbm, 392, rfl⟩
abbrev main_v234 : Ref sig .tc := ⟨.hbm, 393, rfl⟩
abbrev main_v235 : Ref sig .tc := ⟨.hbm, 394, rfl⟩
abbrev main_v236 : Ref sig .tc := ⟨.hbm, 395, rfl⟩
abbrev main_v237 : Ref sig .tc := ⟨.hbm, 396, rfl⟩
abbrev main_v238 : Ref sig .tc := ⟨.hbm, 397, rfl⟩
abbrev main_v239 : Ref sig .tc := ⟨.hbm, 398, rfl⟩
abbrev main_v240 : Ref sig .tc := ⟨.hbm, 399, rfl⟩
abbrev main_v241 : Ref sig .tc := ⟨.hbm, 400, rfl⟩
abbrev main_v242 : Ref sig .tc := ⟨.hbm, 401, rfl⟩
abbrev main_v243 : Ref sig .tc := ⟨.hbm, 402, rfl⟩
abbrev main_v244 : Ref sig .tc := ⟨.hbm, 403, rfl⟩
abbrev main_call7_cst : Ref sig .tc := ⟨.hbm, 404, rfl⟩
abbrev main_call7_v0 : Ref sig .tc := ⟨.hbm, 405, rfl⟩
abbrev main_v245 : Ref sig .tc := ⟨.hbm, 406, rfl⟩
abbrev main_cst_46 : Ref sig .tc := ⟨.hbm, 407, rfl⟩
abbrev main_v246 : Ref sig .tc := ⟨.hbm, 408, rfl⟩
abbrev main_cst_47 : Ref sig .tc := ⟨.hbm, 409, rfl⟩
abbrev main_v247 : Ref sig .tc := ⟨.hbm, 410, rfl⟩
abbrev main_v248 : Ref sig .tc := ⟨.hbm, 411, rfl⟩
abbrev main_v249 : Ref sig .tc := ⟨.hbm, 412, rfl⟩
abbrev main_c_48 : Ref sig .tc := ⟨.hbm, 413, rfl⟩
abbrev main_v250 : Ref sig .tc := ⟨.hbm, 414, rfl⟩
abbrev main_v251 : Ref sig .tc := ⟨.hbm, 415, rfl⟩
abbrev main_c_49 : Ref sig .tc := ⟨.hbm, 416, rfl⟩
abbrev main_v252 : Ref sig .tc := ⟨.hbm, 417, rfl⟩
abbrev main_v253 : Ref sig .tc := ⟨.hbm, 418, rfl⟩
abbrev main_v254 : Ref sig .tc := ⟨.hbm, 419, rfl⟩
abbrev main_v255 : Ref sig .tc := ⟨.hbm, 420, rfl⟩
abbrev main_v256 : Ref sig .tc := ⟨.hbm, 421, rfl⟩
abbrev main_cst_50 : Ref sig .tc := ⟨.hbm, 422, rfl⟩
abbrev main_v257 : Ref sig .tc := ⟨.hbm, 423, rfl⟩
abbrev main_v258 : Ref sig .tc := ⟨.hbm, 424, rfl⟩
abbrev main_v259 : Ref sig .tc := ⟨.hbm, 425, rfl⟩
abbrev main_cst_51 : Ref sig .tc := ⟨.hbm, 426, rfl⟩
abbrev main_v260 : Ref sig .tc := ⟨.hbm, 427, rfl⟩
abbrev main_v261 : Ref sig .tc := ⟨.hbm, 428, rfl⟩
abbrev main_v262 : Ref sig .tc := ⟨.hbm, 429, rfl⟩
abbrev main_v263 : Ref sig .tc := ⟨.hbm, 430, rfl⟩
abbrev main_v264 : Ref sig .tc := ⟨.hbm, 431, rfl⟩
abbrev main_v265 : Ref sig .tc := ⟨.hbm, 432, rfl⟩
abbrev main_v266 : Ref sig .tc := ⟨.hbm, 433, rfl⟩
abbrev main_v267 : Ref sig .tc := ⟨.hbm, 434, rfl⟩
abbrev main_v268 : Ref sig .tc := ⟨.hbm, 435, rfl⟩
abbrev main_v269 : Ref sig .tc := ⟨.hbm, 436, rfl⟩
abbrev main_v270 : Ref sig .tc := ⟨.hbm, 437, rfl⟩
abbrev main_v271 : Ref sig .tc := ⟨.hbm, 438, rfl⟩
abbrev main_cst_52 : Ref sig .tc := ⟨.hbm, 439, rfl⟩
abbrev main_v272 : Ref sig .tc := ⟨.hbm, 440, rfl⟩
abbrev main_v273 : Ref sig .tc := ⟨.hbm, 441, rfl⟩
abbrev main_v274 : Ref sig .tc := ⟨.hbm, 442, rfl⟩
abbrev main_cst_53 : Ref sig .tc := ⟨.hbm, 443, rfl⟩
abbrev main_v275 : Ref sig .tc := ⟨.hbm, 444, rfl⟩
abbrev main_v276 : Ref sig .tc := ⟨.hbm, 445, rfl⟩
abbrev main_v277 : Ref sig .tc := ⟨.hbm, 446, rfl⟩
abbrev main_v278 : Ref sig .tc := ⟨.hbm, 447, rfl⟩
abbrev main_cst_54 : Ref sig .tc := ⟨.hbm, 448, rfl⟩
abbrev main_v279 : Ref sig .tc := ⟨.hbm, 449, rfl⟩
abbrev main_cst_55 : Ref sig .tc := ⟨.hbm, 450, rfl⟩
abbrev main_v280 : Ref sig .tc := ⟨.hbm, 451, rfl⟩
abbrev main_v281 : Ref sig .tc := ⟨.hbm, 452, rfl⟩
abbrev main_c_56 : Ref sig .tc := ⟨.hbm, 453, rfl⟩
abbrev main_call8_cst : Ref sig .tc := ⟨.hbm, 454, rfl⟩
abbrev main_call8_v0 : Ref sig .tc := ⟨.hbm, 455, rfl⟩
abbrev main_call8_v1 : Ref sig .tc := ⟨.hbm, 456, rfl⟩
abbrev main_call8_cst_0 : Ref sig .tc := ⟨.hbm, 457, rfl⟩
abbrev main_call8_v2 : Ref sig .tc := ⟨.hbm, 458, rfl⟩
abbrev main_call8_v3 : Ref sig .tc := ⟨.hbm, 459, rfl⟩
abbrev main_call8_v4 : Ref sig .tc := ⟨.hbm, 460, rfl⟩
abbrev main_call8_v5 : Ref sig .tc := ⟨.hbm, 461, rfl⟩
abbrev main_call8_v6 : Ref sig .tc := ⟨.hbm, 462, rfl⟩
abbrev main_call8_v7 : Ref sig .tc := ⟨.hbm, 463, rfl⟩
abbrev main_call8_cst_1 : Ref sig .tc := ⟨.hbm, 464, rfl⟩
abbrev main_call8_v8 : Ref sig .tc := ⟨.hbm, 465, rfl⟩
abbrev main_call8_cst_2 : Ref sig .tc := ⟨.hbm, 466, rfl⟩
abbrev main_call8_v9 : Ref sig .tc := ⟨.hbm, 467, rfl⟩
abbrev main_call8_v10 : Ref sig .tc := ⟨.hbm, 468, rfl⟩
abbrev main_call8_v11 : Ref sig .tc := ⟨.hbm, 469, rfl⟩
abbrev main_call8_cst_3 : Ref sig .tc := ⟨.hbm, 470, rfl⟩
abbrev main_call8_v12 : Ref sig .tc := ⟨.hbm, 471, rfl⟩
abbrev main_call8_cst_4 : Ref sig .tc := ⟨.hbm, 472, rfl⟩
abbrev main_call8_call0_v0 : Ref sig .tc := ⟨.hbm, 473, rfl⟩
abbrev main_call8_call0_v1 : Ref sig .tc := ⟨.hbm, 474, rfl⟩
abbrev main_v282 : Ref sig .tc := ⟨.hbm, 475, rfl⟩
abbrev main_v283 : Ref sig .tc := ⟨.hbm, 476, rfl⟩
abbrev main_v284 : Ref sig .tc := ⟨.hbm, 477, rfl⟩
abbrev main_v285 : Ref sig .tc := ⟨.hbm, 478, rfl⟩
abbrev main_cst_57 : Ref sig .tc := ⟨.hbm, 479, rfl⟩
abbrev main_v286 : Ref sig .tc := ⟨.hbm, 480, rfl⟩
abbrev main_v287 : Ref sig .tc := ⟨.hbm, 481, rfl⟩
abbrev main_v288 : Ref sig .tc := ⟨.hbm, 482, rfl⟩
abbrev main_v289 : Ref sig .tc := ⟨.hbm, 483, rfl⟩
abbrev main_v290 : Ref sig .tc := ⟨.hbm, 484, rfl⟩
abbrev main_v291 : Ref sig .tc := ⟨.hbm, 485, rfl⟩
abbrev main_v292 : Ref sig .tc := ⟨.hbm, 486, rfl⟩
abbrev main_v293 : Ref sig .tc := ⟨.hbm, 487, rfl⟩
abbrev main_v294 : Ref sig .tc := ⟨.hbm, 488, rfl⟩
abbrev main_v295 : Ref sig .tc := ⟨.hbm, 489, rfl⟩
abbrev main_v296 : Ref sig .tc := ⟨.hbm, 490, rfl⟩
abbrev main_v297 : Ref sig .tc := ⟨.hbm, 491, rfl⟩
abbrev main_v298 : Ref sig .tc := ⟨.hbm, 492, rfl⟩
abbrev main_v299 : Ref sig .tc := ⟨.hbm, 493, rfl⟩
abbrev main_v300 : Ref sig .tc := ⟨.hbm, 494, rfl⟩
abbrev main_v301 : Ref sig .tc := ⟨.hbm, 495, rfl⟩
abbrev main_call9_cst : Ref sig .tc := ⟨.hbm, 496, rfl⟩
abbrev main_call9_v0 : Ref sig .tc := ⟨.hbm, 497, rfl⟩
abbrev main_v302 : Ref sig .tc := ⟨.hbm, 498, rfl⟩
abbrev main_v303 : Ref sig .tc := ⟨.hbm, 499, rfl⟩
abbrev main_v304 : Ref sig .tc := ⟨.hbm, 500, rfl⟩
abbrev main_v305 : Ref sig .tc := ⟨.hbm, 501, rfl⟩
abbrev main_v306 : Ref sig .tc := ⟨.hbm, 502, rfl⟩
abbrev main_v307 : Ref sig .tc := ⟨.hbm, 503, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x12 : S_.BroadcastsInDim S100000x12 (![] : Fin 0 → Fin S100000x12.rank)
  bcast_S100000_S100000x1_0 : S100000.BroadcastsInDim S100000x1 (![0] : Fin 1 → Fin S100000x1.rank)
  bcast_S100000x1_S100000x12_0_1 : S100000x1.BroadcastsInDim S100000x12 (![0, 1] : Fin 2 → Fin S100000x12.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  reducesTo_S100000x256_S256_d0 : S100000x256.ReducesTo [0] S256
  bcast_S_S256 : S_.BroadcastsInDim S256 (![] : Fin 0 → Fin S256.rank)
  bcast_S_S1x256 : S_.BroadcastsInDim S1x256 (![] : Fin 0 → Fin S1x256.rank)
  bcast_S_S100000x256 : S_.BroadcastsInDim S100000x256 (![] : Fin 0 → Fin S100000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  bcast_S100000x1_S100000x128_0_1 : S100000x1.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S800000x1_S800000_n_0_0_1_wf : ScatterDims.WF S100000 S800000x1 S800000 [] [0] [0] 1
  gather_S100000x12_S800000x1_S800000x12_1_0_n_n_0_1_112_wf : GatherDims.WF S100000x12 S800000x1 S800000x12 [1] [0] [] [0] [] 1 ![1, 12]
  scatter_S100000x12_S800000x1_S800000x12_1_0_0_1_wf : ScatterDims.WF S100000x12 S800000x1 S800000x12 [1] [0] [0] 1
  dot_S100000x12_S12x256_S100000x256_1_0_0_1_n_n_wf : DotDims.WF S100000x12 S12x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x12_S800000x1_S800000x12_1_0_n_n_0_1_112 : GatherDims S100000x12 S800000x1 S800000x12 where
  offsetDims := [1]
  collapsedSliceDims := [0]
  operandBatchingDims := []
  startIndicesBatchingDims := []
  startIndexMap := [0]
  indexVectorDim := 1
  sliceSizes := ![1, 12]
  wf := gather_S100000x12_S800000x1_S800000x12_1_0_n_n_0_1_112_wf
def scatter_S100000x12_S800000x1_S800000x12_1_0_0_1 : ScatterDims S100000x12 S800000x1 S800000x12 where
  updateWindowDims := [1]
  insertedWindowDims := [0]
  scatterDimsToOperandDims := [0]
  indexVectorDim := 1
  wf := scatter_S100000x12_S800000x1_S800000x12_1_0_0_1_wf
def dot_S100000x12_S12x256_S100000x256_1_0_0_1_n_n : DotDims S100000x12 S12x256 S100000x256 where
  lhsContracting := [1]
  rhsContracting := [0]
  lhsNonContracting := [0]
  rhsNonContracting := [1]
  lhsBatch := []
  rhsBatch := []
  wf := dot_S100000x12_S12x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/- The kernel program's run, with the contents of its result buffer named.

   From any launch memory with zero counters, every weakly fair execution of the program on the
   TensorCores terminates without a fault; in every final state the result buffer holds what the
   last stretch of host operations leaves there (the boundary contents after the tenth region's
   write-backs, pushed through the final reshape), and every argument array is as launched. -/
import proofs.«169498_j72670846649171_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch statement is instantiated at this run
set_option backward.isDefEq.respectTransparency.types false in
/-- The run: termination, no fault, and in every final state the result buffer at the last
    boundary's contents and each of the 21 argument arrays unchanged. The final thread state owns
    every unscoped buffer at the last boundary's contents; reading it against the final memory
    gives each buffer's value, the result buffer directly and an argument through the chain of
    boundaries back to the launch memory. -/
theorem run_value : θ_run (defs (F := F)) (onTc (τ := τ) (main (F := F))) ⟨m, fun _ => 0, ρ⟩ (fun r => ∀ c : Dev nD,
      r.2.mem ((c.tc : Thread nD τ).loc main_v212) = W21 m ρ c main_v212
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v212 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c),
       (h c _ (mem_uc main_arg15 (by decide))).trans (W21_main_arg15 m ρ c),
       (h c _ (mem_uc main_arg16 (by decide))).trans (W21_main_arg16 m ρ c),
       (h c _ (mem_uc main_arg17 (by decide))).trans (W21_main_arg17 m ρ c),
       (h c _ (mem_uc main_arg18 (by decide))).trans (W21_main_arg18 m ρ c),
       (h c _ (mem_uc main_arg19 (by decide))).trans (W21_main_arg19 m ρ c),
       (h c _ (mem_uc main_arg20 (by decide))).trans (W21_main_arg20 m ρ c)⟩)

end Cert.KernelIdeal.KRun

end
-- ==== Proof.KHostDefs.lean ====
/- The host-side arithmetic of the kernel program, as named whole-array functions.

   Between its ten regions the program computes, on whole arrays: the two rows of the edge list, the
   reciprocal of the clamped in-degree, the mean aggregation of a feature array along the edges
   (gather by source, scatter-add by target, scale by the reciprocal degree), the batch mean and the
   clamped batch variance out of the per-block column sums, and a few slices and reshapes of the
   parameter arrays.  Each function below is the composition of the corresponding operations, for any
   float model. -/
import proofs.«169498_j72670846649171_2_alg».proof.Proof.Gen.KernelIdeal

noncomputable section

namespace Cert.KernelIdeal.KHost

open Idealize.ShloMosaic Cert.KernelIdeal Cert.KernelIdeal.Gen

variable {F : FTy → Type} [FloatOps F]

/-! ## The edge list -/

/-- Row 0 of the edge list: the source node of every edge. -/
def kSrc (e : IVec S2x800000 32) : IVec S800000 32 :=
  shapeCast S800000 (extractStridedSlice S1x800000 ![0, 0] e slices_S2x800000_S1x800000_0_0) shapeCasts_S1x800000_S800000

/-- Row 1 of the edge list: the target node of every edge. -/
def kDst (e : IVec S2x800000 32) : IVec S800000 32 :=
  shapeCast S800000 (extractStridedSlice S1x800000 ![1, 0] e slices_S2x800000_S1x800000_1_0) shapeCasts_S1x800000_S800000

/-- An index row as a gather reads it: a negative index is shifted up by the number of nodes, and the
    row becomes a column. -/
def kIdx (s : IVec S800000 32) : IVec S800000x1 32 :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 100000#32))) s)

/-- The in-degree of every node: a one added at the target of every edge. -/
def kDeg (d : IVec S800000 32) : FVec F S100000 .f32 :=
  Host.scatterAdd scatter_S100000_S800000x1_S800000_n_0_0_1 (broadcastInDim S100000 ![] bcast_S_S100000 (constant (F := F) S_ .f32 0x00000000#32)) (broadcastInDim S800000x1 ![0] bcast_S800000_S800000x1_0 d) (broadcastInDim S800000 ![] bcast_S_S800000 (constant (F := F) S_ .f32 0x3F800000#32))

/-- One over the in-degree clamped below by one. -/
def kDegInv (d : IVec S800000 32) : FVec F S100000 .f32 :=
  Host.divf (broadcastInDim S100000 ![] bcast_S_S100000 (constant (F := F) S_ .f32 0x3F800000#32)) (maximumf (kDeg d) (broadcastInDim S100000 ![] bcast_S_S100000 (constant (F := F) S_ .f32 0x3F800000#32)))

/-! ## The mean aggregation along the edges -/

/-- Twelve-column features: the rows gathered at the sources, added up at the targets, every row scaled
    by its reciprocal degree `r`. -/
def kAgg12 (x : FVec F S100000x12 .f32) (s d : IVec S800000 32) (r : FVec F S100000 .f32) : FVec F S100000x12 .f32 :=
  mulf (Host.scatterAdd scatter_S100000x12_S800000x1_S800000x12_1_0_0_1 (broadcastInDim S100000x12 ![] bcast_S_S100000x12 (constant (F := F) S_ .f32 0x00000000#32)) (broadcastInDim S800000x1 ![0] bcast_S800000_S800000x1_0 d) (Host.gather gather_S100000x12_S800000x1_S800000x12_1_0_n_n_0_1_112 x (kIdx s))) (broadcastInDim S100000x12 ![0, 1] bcast_S100000x1_S100000x12_0_1 (broadcastInDim S100000x1 ![0] bcast_S100000_S100000x1_0 r))

/-- 256-column features kept in the narrow format: widened, gathered at the sources, added up at the
    targets, every row scaled by its reciprocal degree `r`, narrowed again. -/
def kAgg256 (h : FVec F S100000x256 .bf16) (s d : IVec S800000 32) (r : FVec F S100000 .f32) : FVec F S100000x256 .bf16 :=
  truncf .bf16 (mulf (Host.scatterAdd scatter_S100000x256_S800000x1_S800000x256_1_0_0_1 (broadcastInDim S100000x256 ![] bcast_S_S100000x256 (constant (F := F) S_ .f32 0x00000000#32)) (broadcastInDim S800000x1 ![0] bcast_S800000_S800000x1_0 d) (extf .f32 (Host.gather gather_S100000x256_S800000x1_S800000x256_1_0_n_n_0_1_1256 h (kIdx s)) bitsLt_bf16_f32)) (broadcastInDim S100000x256 ![0, 1] bcast_S100000x1_S100000x256_0_1 (broadcastInDim S100000x1 ![0] bcast_S100000_S100000x1_0 r))) bitsLt_bf16_f32

/-! ## Batch statistics out of the per-block column sums -/

/-- The column means: the 25 block sums added up and divided by the number of rows. -/
def kMeanVec256 (s1 : FVec F S25x1x256 .f32) : FVec F S256 .f32 :=
  Host.divf (shapeCast S256 (Host.reduceAdd s1 (constant (F := F) S_ .f32 0x00000000#32) reducesTo_S25x1x256_S1x256_d0 h_S_) shapeCasts_S1x256_S256) (broadcastInDim S256 ![] bcast_S_S256 (constant (F := F) S_ .f32 0x47C35000#32))

/-- The clamped column variances: the mean of the squares minus the square of the mean, and zero where
    that is negative. -/
def kVarVec256 (s1 s2 : FVec F S25x1x256 .f32) : FVec F S256 .f32 :=
  maximumf (subf (Host.divf (shapeCast S256 (Host.reduceAdd s2 (constant (F := F) S_ .f32 0x00000000#32) reducesTo_S25x1x256_S1x256_d0 h_S_) shapeCasts_S1x256_S256) (broadcastInDim S256 ![] bcast_S_S256 (constant (F := F) S_ .f32 0x47C35000#32))) (mulf (kMeanVec256 s1) (kMeanVec256 s1))) (broadcastInDim S256 ![] bcast_S_S256 (constant (F := F) S_ .f32 0x00000000#32))

/-- The column means as a row. -/
def kMean256 (s1 : FVec F S25x1x256 .f32) : FVec F S1x256 .f32 :=
  shapeCast S1x256 (kMeanVec256 s1) shapeCasts_S256_S1x256

/-- The clamped column variances as a row. -/
def kVar256 (s1 s2 : FVec F S25x1x256 .f32) : FVec F S1x256 .f32 :=
  shapeCast S1x256 (kVarVec256 s1 s2) shapeCasts_S256_S1x256

/-- The column means, 128 columns. -/
def kMeanVec128 (s1 : FVec F S25x1x128 .f32) : FVec F S128 .f32 :=
  Host.divf (shapeCast S128 (Host.reduceAdd s1 (constant (F := F) S_ .f32 0x00000000#32) reducesTo_S25x1x128_S1x128_d0 h_S_) shapeCasts_S1x128_S128) (broadcastInDim S128 ![] bcast_S_S128 (constant (F := F) S_ .f32 0x47C35000#32))

/-- The clamped column variances, 128 columns. -/
def kVarVec128 (s1 s2 : FVec F S25x1x128 .f32) : FVec F S128 .f32 :=
  maximumf (subf (Host.divf (shapeCast S128 (Host.reduceAdd s2 (constant (F := F) S_ .f32 0x00000000#32) reducesTo_S25x1x128_S1x128_d0 h_S_) shapeCasts_S1x128_S128) (broadcastInDim S128 ![] bcast_S_S128 (constant (F := F) S_ .f32 0x47C35000#32))) (mulf (kMeanVec128 s1) (kMeanVec128 s1))) (broadcastInDim S128 ![] bcast_S_S128 (constant (F := F) S_ .f32 0x00000000#32))

/-- The column means as a row, 128 columns. -/
def kMean128 (s1 : FVec F S25x1x128 .f32) : FVec F S1x128 .f32 :=
  shapeCast S1x128 (kMeanVec128 s1) shapeCasts_S128_S1x128

/-- The clamped column variances as a row, 128 columns. -/
def kVar128 (s1 s2 : FVec F S25x1x128 .f32) : FVec F S1x128 .f32 :=
  shapeCast S1x128 (kVarVec128 s1 s2) shapeCasts_S128_S1x128

/-! ## Parameter vectors as rows, and the layers of the stacked parameters -/

/-- A vector of 256 entries as a one-row matrix. -/
def kRow256 (v : FVec F S256 .f32) : FVec F S1x256 .f32 := shapeCast S1x256 v shapeCasts_S256_S1x256
/-- A vector of 128 entries as a one-row matrix. -/
def kRow128 (v : FVec F S128 .f32) : FVec F S1x128 .f32 := shapeCast S1x128 v shapeCasts_S128_S1x128
/-- A vector of 64 entries as a one-row matrix. -/
def kRow64 (v : FVec F S64 .f32) : FVec F S1x64 .f32 := shapeCast S1x64 v shapeCasts_S64_S1x64
/-- A single entry as a one-by-one matrix. -/
def kRow1 (v : FVec F S1 .f32) : FVec F S1x1 .f32 := shapeCast S1x1 v shapeCasts_S1_S1x1

/-- Layer 0 of three stacked 256 by 256 matrices. -/
def kMat0 (a : FVec F S3x256x256 .f32) : FVec F S256x256 .f32 :=
  shapeCast S256x256 (extractStridedSlice S1x256x256 ![0, 0, 0] a slices_S3x256x256_S1x256x256_0_0_0) shapeCasts_S1x256x256_S256x256
/-- Layer 1 of three stacked 256 by 256 matrices. -/
def kMat1 (a : FVec F S3x256x256 .f32) : FVec F S256x256 .f32 :=
  shapeCast S256x256 (extractStridedSlice S1x256x256 ![1, 0, 0] a slices_S3x256x256_S1x256x256_1_0_0) shapeCasts_S1x256x256_S256x256
/-- Layer 2 of three stacked 256 by 256 matrices. -/
def kMat2 (a : FVec F S3x256x256 .f32) : FVec F S256x256 .f32 :=
  shapeCast S256x256 (extractStridedSlice S1x256x256 ![2, 0, 0] a slices_S3x256x256_S1x256x256_2_0_0) shapeCasts_S1x256x256_S256x256

/-- Layer 0 of three stacked vectors of 256 entries. -/
def kVec0 (a : FVec F S3x256 .f32) : FVec F S256 .f32 :=
  shapeCast S256 (extractStridedSlice S1x256 ![0, 0] a slices_S3x256_S1x256_0_0) shapeCasts_S1x256_S256
/-- Layer 1 of three stacked vectors of 256 entries. -/
def kVec1 (a : FVec F S3x256 .f32) : FVec F S256 .f32 :=
  shapeCast S256 (extractStridedSlice S1x256 ![1, 0] a slices_S3x256_S1x256_1_0) shapeCasts_S1x256_S256
/-- Layer 2 of three stacked vectors of 256 entries. -/
def kVec2 (a : FVec F S3x256 .f32) : FVec F S256 .f32 :=
  shapeCast S256 (extractStridedSlice S1x256 ![2, 0] a slices_S3x256_S1x256_2_0) shapeCasts_S1x256_S256

/-- The single output column as a vector. -/
def kOut (o : FVec F S100000x1 .f32) : FVec F S100000 .f32 :=
  shapeCast S100000 o shapeCasts_S100000x1_S100000

end Cert.KernelIdeal.KHost

end
-- ==== Proof.KHostOps.lean ====
/- What each stretch of host operations leaves in the buffers the regions read, for any contents
   before it: the value is the named whole-array function of the stretch's inputs. And a buffer a
   stretch does not write is left as it was. -/
import proofs.«169498_j72670846649171_2_alg».proof.Proof.Gen.KernelIdeal.Launch
import proofs.«169498_j72670846649171_2_alg».proof.Proof.KHostDefs

set_option maxRecDepth 16384

noncomputable section

namespace Cert.KernelIdeal.KHost

open Idealize.ShloMosaic Idealize.ShloMosaic.TcCoe Idealize.ShloMosaic.StableHlo
open Cert.KernelIdeal Cert.KernelIdeal.Gen

variable {F : FTy → Type} [FloatOps F]

/-! ## Stretch 0 -/

/-- The buffers the operations of stretch 0 write. -/
abbrev written0 : List (Ref sig .tc) := [main_v0, main_v1, main_v2, main_v3, main_cst, main_v4, main_cst_0, main_v5, main_v6, main_v7, main_cst_1, main_v8, main_v9, main_cst_2, main_v10, main_v11, main_c, main_v12, main_v13, main_c_3, main_v14, main_v15, main_v16, main_v17, main_v18, main_cst_4, main_v19, main_v20, main_v21, main_v22, main_v23, main_v24, main_v25]
theorem written0_sub : (hostOps0 : List (HloOp τ sig (Elt F))).Forall fun op => op.writes ⊆ ((written0).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 0 does not write holds after it what it held before. -/
theorem after0_keep (V : Valuation τ sig (Elt F)) (r : Ref sig .tc) (h : r ∉ written0) :
    StableHlo.after hostOps0 V (Proc.devRef .tc r) = V (Proc.devRef .tc r) :=
  StableHlo.after_of_writes_sub hostOps0 V written0_sub h

theorem after0_v1 (V : Valuation τ sig (Elt F)) :
    StableHlo.after hostOps0 V (Proc.devRef .tc main_v1) = kSrc (V (Proc.devRef .tc main_arg1)) := by
  dsimp only [hostOps0]; after_results_simp; rfl

theorem after0_v3 (V : Valuation τ sig (Elt F)) :
    StableHlo.after hostOps0 V (Proc.devRef .tc main_v3) = kDst (V (Proc.devRef .tc main_arg1)) := by
  dsimp only [hostOps0]; after_results_simp; rfl

theorem after0_v11 (V : Valuation τ sig (Elt F)) :
    StableHlo.after hostOps0 V (Proc.devRef .tc main_v11) = kDegInv (kDst (V (Proc.devRef .tc main_arg1))) := by
  dsimp only [hostOps0]; after_results_simp; rfl

theorem after0_v24 (V : Valuation τ sig (Elt F)) :
    StableHlo.after hostOps0 V (Proc.devRef .tc main_v24) = kAgg12 (V (Proc.devRef .tc main_arg0)) (kSrc (V (Proc.devRef .tc main_arg1))) (kDst (V (Proc.devRef .tc main_arg1))) (kDegInv (kDst (V (Proc.devRef .tc main_arg1)))) := by
  dsimp only [hostOps0]; after_results_simp; rfl

theorem after0_v25 (V : Valuation τ sig (Elt F)) :
    StableHlo.after hostOps0 V (Proc.devRef .tc main_v25) = kRow256 (V (Proc.devRef .tc main_arg3)) := by
  dsimp only [hostOps0]; after_results_simp; rfl

/-! ## Stretch 1 -/

/-- The buffers the operations of stretch 1 write. -/
abbrev written1 : List (Ref sig .tc) := [main_cst_5, main_v27, main_v28, main_cst_6, main_v29, main_v30, main_cst_7, main_v31, main_v32, main_cst_8, main_v33, main_v34, main_v35, main_v36, main_cst_9, main_v37, main_v38, main_v39, main_v40, main_v41, main_v42]
theorem written1_sub : (hostOps1 : List (HloOp τ sig (Elt F))).Forall fun op => op.writes ⊆ ((written1).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 1 does not write holds after it what it held before. -/
theorem after1_keep (V : Valuation τ sig (Elt F)) (r : Ref sig .tc) (h : r ∉ written1) :
    StableHlo.after hostOps1 V (Proc.devRef .tc r) = V (Proc.devRef .tc r) :=
  StableHlo.after_of_writes_sub hostOps1 V written1_sub h

theorem after1_v39 (V : Valuation τ sig (Elt F)) :
    StableHlo.after hostOps1 V (Proc.devRef .tc main_v39) = kMean256 (V (Proc.devRef .tc main_v26_1)) := by
  dsimp only [hostOps1]; after_results_simp; rfl

theorem after1_v40 (V : Valuation τ sig (Elt F)) :
    StableHlo.after hostOps1 V (Proc.devRef .tc main_v40) = kVar256 (V (Proc.devRef .tc main_v26_1)) (V (Proc.devRef .tc main_v26_2)) := by
  dsimp only [hostOps1]; after_results_simp; rfl

theorem after1_v41 (V : Valuation τ sig (Elt F)) :
    StableHlo.after hostOps1 V (Proc.devRef .tc main_v41) = kRow256 (V (Proc.devRef .tc main_arg5)) := by
  dsimp only [hostOps1]; after_results_simp; rfl

theorem after1_v42 (V : Valuation τ sig (Elt F)) :
    StableHlo.after hostOps1 V (Proc.devRef .tc main_v42) = kRow256 (V (Proc.devRef .tc main_arg6)) := by
  dsimp only [hostOps1]; after_results_simp; rfl

/-! ## Stretch 2 -/

/-- The buffers the operations of stretch 2 write. -/
abbrev written2 : List (Ref sig .tc) := [main_c_10, main_v44, main_v45, main_c_11, main_v46, main_v47, main_v48, main_v49, main_v50, main_v51, main_cst_12, main_v52, main_v53, main_v54, main_v55, main_v56, main_v57, main_v58, main_v59, main_v60, main_v61, main_v62, main_v63, main_v64, main_v65, main_v66, main_v67, main_v68, main_v69]
theorem written2_sub : (hostOps2 : List (HloOp τ sig (Elt F))).Forall fun op => op.writes ⊆ ((written2).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 2 does not write holds after it what it held before. -/
theorem after2_keep (V : Valuation τ sig (Elt F)) (r : Ref sig .tc) (h : r ∉ written2) :
    StableHlo.after hostOps2 V (Proc.devRef .tc r) = V (Proc.devRef .tc r) :=
  StableHlo.after_of_writes_sub hostOps2 V written2_sub h

theorem after2_v58 (V : Valuation τ sig (Elt F)) :
    StableHlo.after hostOps2 V (Proc.devRef .tc main_v58) = kAgg256 (V (Proc.devRef .tc main_v43)) (V (Proc.devRef .tc main_v1)) (V (Proc.devRef .tc main_v3)) (V (Proc.devRef .tc main_v11)) := by
  dsimp only [hostOps2]; after_results_simp; rfl

theorem after2_v60 (V : Valuation τ sig (Elt F)) :
    StableHlo.after hostOps2 V (Proc.devRef .tc main_v60) = kMat0 (V (Proc.devRef .tc main_arg7)) := by
  dsimp only [hostOps2]; after_results_simp; rfl

theorem after2_v64 (V : Valuation τ sig (Elt F)) :
    StableHlo.after hostOps2 V (Proc.devRef .tc main_v64) = kMat0 (V (Proc.devRef .tc main_arg9)) := by
  dsimp only [hostOps2]; after_results_simp; rfl

theorem after2_v69 (V : Valuation τ sig (Elt F)) :
    StableHlo.after hostOps2 V (Proc.devRef .tc main_v69) = kRow256 (kVec0 (V (Proc.devRef .tc main_arg8))) := by
  dsimp only [hostOps2]; after_results_simp; rfl

theorem after2_v66 (V : Valuation τ sig (Elt F)) :
    StableHlo.after hostOps2 V (Proc.devRef .tc main_v66) = kVec0 (V (Proc.devRef .tc main_arg10)) := by
  dsimp only [hostOps2]; after_results_simp; rfl

theorem after2_v68 (V : Valuation τ sig (Elt F)) :
    StableHlo.after hostOps2 V (Proc.devRef .tc main_v68) = kVec0 (V (Proc.devRef .tc main_arg11)) := by
  dsimp only [hostOps2]; after_results_simp; rfl

/-! ## Stretch 3 -/

/-- The buffers the operations of stretch 3 write. -/
abbrev written3 : List (Ref sig .tc) := [main_cst_13, main_v71, main_v72, main_cst_14, main_v73, main_v74, main_cst_15, main_v75, main_v76, main_cst_16, main_v77, main_v78, main_v79, main_v80, main_cst_17, main_v81, main_v82, main_v83, main_v84, main_v85, main_v86]
theorem written3_sub : (hostOps3 : List (HloOp τ sig (Elt F))).Forall fun op => op.writes ⊆ ((written3).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 3 does not write holds after it what it held before. -/
theorem after3_keep (V : Valuation τ sig (Elt F)) (r : Ref sig .tc) (h : r ∉ written3) :
    StableHlo.after hostOps3 V (Proc.devRef .tc r) = V (Proc.devRef .tc r) :=
  StableHlo.after_of_writes_sub hostOps3 V written3_sub h

theorem after3_v83 (V : Valuation τ sig (Elt F)) :
    StableHlo.after hostOps3 V (Proc.devRef .tc main_v83) = kMean256 (V (Proc.devRef .tc main_v70_1)) := by
  dsimp only [hostOps3]; after_results_simp; rfl

theorem after3_v84 (V : Valuation τ sig (Elt F)) :
    StableHlo.after hostOps3 V (Proc.devRef .tc main_v84) = kVar256 (V (Proc.devRef .tc main_v70_1)) (V (Proc.devRef .tc main_v70_2)) := by
  dsimp only [hostOps3]; after_results_simp; rfl

theorem after3_v85 (V : Valuation τ sig (Elt F)) :
    StableHlo.after hostOps3 V (Proc.devRef .tc main_v85) = kRow256 (V (Proc.devRef .tc main_v66)) := by
  dsimp only [hostOps3]; after_results_simp; rfl

theorem after3_v86 (V : Valuation τ sig (Elt F)) :
    StableHlo.after hostOps3 V (Proc.devRef .tc main_v86) = kRow256 (V (Proc.devRef .tc main_v68)) := by
  dsimp only [hostOps3]; after_results_simp; rfl

/-! ## Stretch 4 -/

/-- The buffers the operations of stretch 4 write. -/
abbrev written4 : List (Ref sig .tc) := [main_c_18, main_v88, main_v89, main_c_19, main_v90, main_v91, main_v92, main_v93, main_v94, main_v95, main_cst_20, main_v96, main_v97, main_v98, main_v99, main_v100, main_v101, main_v102, main_v103, main_v104, main_v105, main_v106, main_v107, main_v108, main_v109, main_v110, main_v111, main_v112, main_v113]
theorem written4_sub : (hostOps4 : List (HloOp τ sig (Elt F))).Forall fun op => op.writes ⊆ ((written4).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 4 does not write holds after it what it held before. -/
theorem after4_keep (V : Valuation τ sig (Elt F)) (r : Ref sig .tc) (h : r ∉ written4) :
    StableHlo.after hostOps4 V (Proc.devRef .tc r) = V (Proc.devRef .tc r) :=
  StableHlo.after_of_writes_sub hostOps4 V written4_sub h

theorem after4_v102 (V : Valuation τ sig (Elt F)) :
    StableHlo.after hostOps4 V (Proc.devRef .tc main_v102) = kAgg256 (V (Proc.devRef .tc main_v87)) (V (Proc.devRef .tc main_v1)) (V (Proc.devRef .tc main_v3)) (V (Proc.devRef .tc main_v11)) := by
  dsimp only [hostOps4]; after_results_simp; rfl

theorem after4_v104 (V : Valuation τ sig (Elt F)) :
    StableHlo.after hostOps4 V (Proc.devRef .tc main_v104) = kMat1 (V (Proc.devRef .tc main_arg7)) := by
  dsimp only [hostOps4]; after_results_simp; rfl

theorem after4_v108 (V : Valuation τ sig (Elt F)) :
    StableHlo.after hostOps4 V (Proc.devRef .tc main_v108) = kMat1 (V (Proc.devRef .tc main_arg9)) := by
  dsimp only [hostOps4]; after_results_simp; rfl

theorem after4_v113 (V : Valuation τ sig (Elt F)) :
    StableHlo.after hostOps4 V (Proc.devRef .tc main_v113) = kRow256 (kVec1 (V (Proc.devRef .tc main_arg8))) := by
  dsimp only [hostOps4]; after_results_simp; rfl

theorem after4_v110 (V : Valuation τ sig (Elt F)) :
    StableHlo.after hostOps4 V (Proc.devRef .tc main_v110) = kVec1 (V (Proc.devRef .tc main_arg10)) := by
  dsimp only [hostOps4]; after_results_simp; rfl

theorem after4_v112 (V : Valuation τ sig (Elt F)) :
    StableHlo.after hostOps4 V (Proc.devRef .tc main_v112) = kVec1 (V (Proc.devRef .tc main_arg11)) := by
  dsimp only [hostOps4]; after_results_simp; rfl

/-! ## Stretch 5 -/

/-- The buffers the operations of stretch 5 write. -/
abbrev written5 : List (Ref sig .tc) := [main_cst_21, main_v115, main_v116, main_cst_22, main_v117, main_v118, main_cst_23, main_v119, main_v120, main_cst_24, main_v121, main_v122, main_v123, main_v124, main_cst_25, main_v125, main_v126, main_v127, main_v128, main_v129, main_v130]
theorem written5_sub : (hostOps5 : List (HloOp τ sig (Elt F))).Forall fun op => op.writes ⊆ ((written5).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 5 does not write holds after it what it held before. -/
theorem after5_keep (V : Valuation τ sig (Elt F)) (r : Ref sig .tc) (h : r ∉ written5) :
    StableHlo.after hostOps5 V (Proc.devRef .tc r) = V (Proc.devRef .tc r) :=
  StableHlo.after_of_writes_sub hostOps5 V written5_sub h

theorem after5_v127 (V : Valuation τ sig (Elt F)) :
    StableHlo.after hostOps5 V (Proc.devRef .tc main_v127) = kMean256 (V (Proc.devRef .tc main_v114_1)) := by
  dsimp only [hostOps5]; after_results_simp; rfl

theorem after5_v128 (V : Valuation τ sig (Elt F)) :
    StableHlo.after hostOps5 V (Proc.devRef .tc main_v128) = kVar256 (V (Proc.devRef .tc main_v114_1)) (V (Proc.devRef .tc main_v114_2)) := by
  dsimp only [hostOps5]; after_results_simp; rfl

theorem after5_v129 (V : Valuation τ sig (Elt F)) :
    StableHlo.after hostOps5 V (Proc.devRef .tc main_v129) = kRow256 (V (Proc.devRef .tc main_v110)) := by
  dsimp only [hostOps5]; after_results_simp; rfl

theorem after5_v130 (V : Valuation τ sig (Elt F)) :
    StableHlo.after hostOps5 V (Proc.devRef .tc main_v130) = kRow256 (V (Proc.devRef .tc main_v112)) := by
  dsimp only [hostOps5]; after_results_simp; rfl

/-! ## Stretch 6 -/

/-- The buffers the operations of stretch 6 write. -/
abbrev written6 : List (Ref sig .tc) := [main_c_26, main_v132, main_v133, main_c_27, main_v134, main_v135, main_v136, main_v137, main_v138, main_v139, main_cst_28, main_v140, main_v141, main_v142, main_v143, main_v144, main_v145, main_v146, main_v147, main_v148, main_v149, main_v150, main_v151, main_v152, main_v153, main_v154, main_v155, main_v156, main_v157]
theorem written6_sub : (hostOps6 : List (HloOp τ sig (Elt F))).Forall fun op => op.writes ⊆ ((written6).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 6 does not write holds after it what it held before. -/
theorem after6_keep (V : Valuation τ sig (Elt F)) (r : Ref sig .tc) (h : r ∉ written6) :
    StableHlo.after hostOps6 V (Proc.devRef .tc r) = V (Proc.devRef .tc r) :=
  StableHlo.after_of_writes_sub hostOps6 V written6_sub h

theorem after6_v146 (V : Valuation τ sig (Elt F)) :
    StableHlo.after hostOps6 V (Proc.devRef .tc main_v146) = kAgg256 (V (Proc.devRef .tc main_v131)) (V (Proc.devRef .tc main_v1)) (V (Proc.devRef .tc main_v3)) (V (Proc.devRef .tc main_v11)) := by
  dsimp only [hostOps6]; after_results_simp; rfl

theorem after6_v148 (V : Valuation τ sig (Elt F)) :
    StableHlo.after hostOps6 V (Proc.devRef .tc main_v148) = kMat2 (V (Proc.devRef .tc main_arg7)) := by
  dsimp only [hostOps6]; after_results_simp; rfl

theorem after6_v152 (V : Valuation τ sig (Elt F)) :
    StableHlo.after hostOps6 V (Proc.devRef .tc main_v152) = kMat2 (V (Proc.devRef .tc main_arg9)) := by
  dsimp only [hostOps6]; after_results_simp; rfl

theorem after6_v157 (V : Valuation τ sig (Elt F)) :
    StableHlo.after hostOps6 V (Proc.devRef .tc main_v157) = kRow256 (kVec2 (V (Proc.devRef .tc main_arg8))) := by
  dsimp only [hostOps6]; after_results_simp; rfl

theorem after6_v154 (V : Valuation τ sig (Elt F)) :
    StableHlo.after hostOps6 V (Proc.devRef .tc main_v154) = kVec2 (V (Proc.devRef .tc main_arg10)) := by
  dsimp only [hostOps6]; after_results_simp; rfl

theorem after6_v156 (V : Valuation τ sig (Elt F)) :
    StableHlo.after hostOps6 V (Proc.devRef .tc main_v156) = kVec2 (V (Proc.devRef .tc main_arg11)) := by
  dsimp only [hostOps6]; after_results_simp; rfl

/-! ## Stretch 7 -/

/-- The buffers the operations of stretch 7 write. -/
abbrev written7 : List (Ref sig .tc) := [main_cst_29, main_v159, main_v160, main_cst_30, main_v161, main_v162, main_cst_31, main_v163, main_v164, main_cst_32, main_v165, main_v166, main_v167, main_v168, main_cst_33, main_v169, main_v170, main_v171, main_v172, main_v173, main_v174]
theorem written7_sub : (hostOps7 : List (HloOp τ sig (Elt F))).Forall fun op => op.writes ⊆ ((written7).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 7 does not write holds after it what it held before. -/
theorem after7_keep (V : Valuation τ sig (Elt F)) (r : Ref sig .tc) (h : r ∉ written7) :
    StableHlo.after hostOps7 V (Proc.devRef .tc r) = V (Proc.devRef .tc r) :=
  StableHlo.after_of_writes_sub hostOps7 V written7_sub h

theorem after7_v171 (V : Valuation τ sig (Elt F)) :
    StableHlo.after hostOps7 V (Proc.devRef .tc main_v171) = kMean256 (V (Proc.devRef .tc main_v158_1)) := by
  dsimp only [hostOps7]; after_results_simp; rfl

theorem after7_v172 (V : Valuation τ sig (Elt F)) :
    StableHlo.after hostOps7 V (Proc.devRef .tc main_v172) = kVar256 (V (Proc.devRef .tc main_v158_1)) (V (Proc.devRef .tc main_v158_2)) := by
  dsimp only [hostOps7]; after_results_simp; rfl

theorem after7_v173 (V : Valuation τ sig (Elt F)) :
    StableHlo.after hostOps7 V (Proc.devRef .tc main_v173) = kRow256 (V (Proc.devRef .tc main_v154)) := by
  dsimp only [hostOps7]; after_results_simp; rfl

theorem after7_v174 (V : Valuation τ sig (Elt F)) :
    StableHlo.after hostOps7 V (Proc.devRef .tc main_v174) = kRow256 (V (Proc.devRef .tc main_v156)) := by
  dsimp only [hostOps7]; after_results_simp; rfl

/-! ## Stretch 8 -/

/-- The buffers the operations of stretch 8 write. -/
abbrev written8 : List (Ref sig .tc) := [main_c_34, main_v176, main_v177, main_c_35, main_v178, main_v179, main_v180, main_v181, main_v182, main_v183, main_cst_36, main_v184, main_v185, main_v186, main_v187, main_v188, main_v189, main_v190, main_v191]
theorem written8_sub : (hostOps8 : List (HloOp τ sig (Elt F))).Forall fun op => op.writes ⊆ ((written8).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 8 does not write holds after it what it held before. -/
theorem after8_keep (V : Valuation τ sig (Elt F)) (r : Ref sig .tc) (h : r ∉ written8) :
    StableHlo.after hostOps8 V (Proc.devRef .tc r) = V (Proc.devRef .tc r) :=
  StableHlo.after_of_writes_sub hostOps8 V written8_sub h

theorem after8_v190 (V : Valuation τ sig (Elt F)) :
    StableHlo.after hostOps8 V (Proc.devRef .tc main_v190) = kAgg256 (V (Proc.devRef .tc main_v175)) (V (Proc.devRef .tc main_v1)) (V (Proc.devRef .tc main_v3)) (V (Proc.devRef .tc main_v11)) := by
  dsimp only [hostOps8]; after_results_simp; rfl

theorem after8_v191 (V : Valuation τ sig (Elt F)) :
    StableHlo.after hostOps8 V (Proc.devRef .tc main_v191) = kRow128 (V (Proc.devRef .tc main_arg13)) := by
  dsimp only [hostOps8]; after_results_simp; rfl

/-! ## Stretch 9 -/

/-- The buffers the operations of stretch 9 write. -/
abbrev written9 : List (Ref sig .tc) := [main_cst_37, main_v193, main_v194, main_cst_38, main_v195, main_v196, main_cst_39, main_v197, main_v198, main_cst_40, main_v199, main_v200, main_v201, main_v202, main_cst_41, main_v203, main_v204, main_v205, main_v206, main_v207, main_v208, main_v209, main_v210]
theorem written9_sub : (hostOps9 : List (HloOp τ sig (Elt F))).Forall fun op => op.writes ⊆ ((written9).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch 9 does not write holds after it what it held before. -/
theorem after9_keep (V : Valuation τ sig (Elt F)) (r : Ref sig .tc) (h : r ∉ written9) :
    StableHlo.after hostOps9 V (Proc.devRef .tc r) = V (Proc.devRef .tc r) :=
  StableHlo.after_of_writes_sub hostOps9 V written9_sub h

theorem after9_v205 (V : Valuation τ sig (Elt F)) :
    StableHlo.after hostOps9 V (Proc.devRef .tc main_v205) = kMean128 (V (Proc.devRef .tc main_v192_1)) := by
  dsimp only [hostOps9]; after_results_simp; rfl

theorem after9_v206 (V : Valuation τ sig (Elt F)) :
    StableHlo.after hostOps9 V (Proc.devRef .tc main_v206) = kVar128 (V (Proc.devRef .tc main_v192_1)) (V (Proc.devRef .tc main_v192_2)) := by
  dsimp only [hostOps9]; after_results_simp; rfl

theorem after9_v207 (V : Valuation τ sig (Elt F)) :
    StableHlo.after hostOps9 V (Proc.devRef .tc main_v207) = kRow128 (V (Proc.devRef .tc main_arg15)) := by
  dsimp only [hostOps9]; after_results_simp; rfl

theorem after9_v208 (V : Valuation τ sig (Elt F)) :
    StableHlo.after hostOps9 V (Proc.devRef .tc main_v208) = kRow128 (V (Proc.devRef .tc main_arg16)) := by
  dsimp only [hostOps9]; after_results_simp; rfl

theorem after9_v209 (V : Valuation τ sig (Elt F)) :
    StableHlo.after hostOps9 V (Proc.devRef .tc main_v209) = kRow64 (V (Proc.devRef .tc main_arg18)) := by
  dsimp only [hostOps9]; after_results_simp; rfl

theorem after9_v210 (V : Valuation τ sig (Elt F)) :
    StableHlo.after hostOps9 V (Proc.devRef .tc main_v210) = kRow1 (V (Proc.devRef .tc main_arg20)) := by
  dsimp only [hostOps9]; after_results_simp; rfl

/-! ## Stretch 10 -/

/-- The buffers the operations of stretch 10 write. -/
abbrev written10 : List (Ref sig .tc) := [main_v212]
theorem written10_sub : (hostOps10 : List (HloOp τ sig (Elt F))).Forall fun op => op.writes ⊆ ((written10).map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 10 does not write holds after it what it held before. -/
theorem after10_keep (V : Valuation τ sig (Elt F)) (r : Ref sig .tc) (h : r ∉ written10) :
    StableHlo.after hostOps10 V (Proc.devRef .tc r) = V (Proc.devRef .tc r) :=
  StableHlo.after_of_writes_sub hostOps10 V written10_sub h

theorem after10_v212 (V : Valuation τ sig (Elt F)) :
    StableHlo.after hostOps10 V (Proc.devRef .tc main_v212) = kOut (V (Proc.devRef .tc main_v211)) := by
  dsimp only [hostOps10]; after_results_simp; rfl

end Cert.KernelIdeal.KHost

end
-- ==== Proof.KHost.lean ====
/- The contents of every buffer a region reads, at the region's entry, as a named whole-array
   function of the launch memory and of the arrays the earlier regions left.

   The boundary contents are a fold through the program; nothing here opens that fold at full size.
   Each stretch of host operations is read once, for any contents before it; a buffer that a stretch
   does not write, and that is not one of a region's arrays, is carried across unchanged, link by
   link, back to where it was made. -/
import proofs.«169498_j72670846649171_2_alg».proof.Proof.Gen.KernelIdeal.Frame
import proofs.«169498_j72670846649171_2_alg».proof.Proof.KHostOps

set_option maxRecDepth 16384

noncomputable section

namespace Cert.KernelIdeal.KHost

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## One link: a stretch leaves what it does not write -/

/-- At launch a buffer holds the launch memory. -/
theorem W0_eq (c : Dev nD) (r : Ref sig .tc) : W0 m ρ c (Proc.devRef .tc r) = m ((c : Thread nD τ).loc r) := rfl

theorem W1_keep (c : Dev nD) (r : Ref sig .tc) (h : r ∉ written0) :
    W1 m ρ c (Proc.devRef .tc r) = W0 m ρ c (Proc.devRef .tc r) := after0_keep (W0 m ρ c) r h
theorem W3_keep (c : Dev nD) (r : Ref sig .tc) (h : r ∉ written1) :
    W3 m ρ c (Proc.devRef .tc r) = W2 m ρ c (Proc.devRef .tc r) := after1_keep (W2 m ρ c) r h
theorem W5_keep (c : Dev nD) (r : Ref sig .tc) (h : r ∉ written2) :
    W5 m ρ c (Proc.devRef .tc r) = W4 m ρ c (Proc.devRef .tc r) := after2_keep (W4 m ρ c) r h
theorem W7_keep (c : Dev nD) (r : Ref sig .tc) (h : r ∉ written3) :
    W7 m ρ c (Proc.devRef .tc r) = W6 m ρ c (Proc.devRef .tc r) := after3_keep (W6 m ρ c) r h
theorem W9_keep (c : Dev nD) (r : Ref sig .tc) (h : r ∉ written4) :
    W9 m ρ c (Proc.devRef .tc r) = W8 m ρ c (Proc.devRef .tc r) := after4_keep (W8 m ρ c) r h
theorem W11_keep (c : Dev nD) (r : Ref sig .tc) (h : r ∉ written5) :
    W11 m ρ c (Proc.devRef .tc r) = W10 m ρ c (Proc.devRef .tc r) := after5_keep (W10 m ρ c) r h
theorem W13_keep (c : Dev nD) (r : Ref sig .tc) (h : r ∉ written6) :
    W13 m ρ c (Proc.devRef .tc r) = W12 m ρ c (Proc.devRef .tc r) := after6_keep (W12 m ρ c) r h
theorem W15_keep (c : Dev nD) (r : Ref sig .tc) (h : r ∉ written7) :
    W15 m ρ c (Proc.devRef .tc r) = W14 m ρ c (Proc.devRef .tc r) := after7_keep (W14 m ρ c) r h
theorem W17_keep (c : Dev nD) (r : Ref sig .tc) (h : r ∉ written8) :
    W17 m ρ c (Proc.devRef .tc r) = W16 m ρ c (Proc.devRef .tc r) := after8_keep (W16 m ρ c) r h
theorem W19_keep (c : Dev nD) (r : Ref sig .tc) (h : r ∉ written9) :
    W19 m ρ c (Proc.devRef .tc r) = W18 m ρ c (Proc.devRef .tc r) := after9_keep (W18 m ρ c) r h
theorem W21_keep (c : Dev nD) (r : Ref sig .tc) (h : r ∉ written10) :
    W21 m ρ c (Proc.devRef .tc r) = W20 m ρ c (Proc.devRef .tc r) := after10_keep (W20 m ρ c) r h

/-! ## Which buffer each window of each region reads or writes -/

theorem arrRef0_0 : Pipeline.arrRef spec0 0 = main_v24 := rfl
theorem arrRef0_1 : Pipeline.arrRef spec0 1 = main_arg0 := rfl
theorem arrRef0_2 : Pipeline.arrRef spec0 2 = main_arg2 := rfl
theorem arrRef0_3 : Pipeline.arrRef spec0 3 = main_arg4 := rfl
theorem arrRef0_4 : Pipeline.arrRef spec0 4 = main_v25 := rfl
theorem arrRef0_5 : Pipeline.arrRef spec0 5 = main_v26_0 := rfl
theorem arrRef0_6 : Pipeline.arrRef spec0 6 = main_v26_1 := rfl
theorem arrRef0_7 : Pipeline.arrRef spec0 7 = main_v26_2 := rfl
theorem arrRef1_0 : Pipeline.arrRef spec1 0 = main_v26_0 := rfl
theorem arrRef1_1 : Pipeline.arrRef spec1 1 = main_v39 := rfl
theorem arrRef1_2 : Pipeline.arrRef spec1 2 = main_v40 := rfl
theorem arrRef1_3 : Pipeline.arrRef spec1 3 = main_v41 := rfl
theorem arrRef1_4 : Pipeline.arrRef spec1 4 = main_v42 := rfl
theorem arrRef1_5 : Pipeline.arrRef spec1 5 = main_v43 := rfl
theorem arrRef2_0 : Pipeline.arrRef spec2 0 = main_v58 := rfl
theorem arrRef2_1 : Pipeline.arrRef spec2 1 = main_v43 := rfl
theorem arrRef2_2 : Pipeline.arrRef spec2 2 = main_v60 := rfl
theorem arrRef2_3 : Pipeline.arrRef spec2 3 = main_v64 := rfl
theorem arrRef2_4 : Pipeline.arrRef spec2 4 = main_v69 := rfl
theorem arrRef2_5 : Pipeline.arrRef spec2 5 = main_v70_0 := rfl
theorem arrRef2_6 : Pipeline.arrRef spec2 6 = main_v70_1 := rfl
theorem arrRef2_7 : Pipeline.arrRef spec2 7 = main_v70_2 := rfl
theorem arrRef3_0 : Pipeline.arrRef spec3 0 = main_v70_0 := rfl
theorem arrRef3_1 : Pipeline.arrRef spec3 1 = main_v83 := rfl
theorem arrRef3_2 : Pipeline.arrRef spec3 2 = main_v84 := rfl
theorem arrRef3_3 : Pipeline.arrRef spec3 3 = main_v85 := rfl
theorem arrRef3_4 : Pipeline.arrRef spec3 4 = main_v86 := rfl
theorem arrRef3_5 : Pipeline.arrRef spec3 5 = main_v87 := rfl
theorem arrRef4_0 : Pipeline.arrRef spec4 0 = main_v102 := rfl
theorem arrRef4_1 : Pipeline.arrRef spec4 1 = main_v87 := rfl
theorem arrRef4_2 : Pipeline.arrRef spec4 2 = main_v104 := rfl
theorem arrRef4_3 : Pipeline.arrRef spec4 3 = main_v108 := rfl
theorem arrRef4_4 : Pipeline.arrRef spec4 4 = main_v113 := rfl
theorem arrRef4_5 : Pipeline.arrRef spec4 5 = main_v114_0 := rfl
theorem arrRef4_6 : Pipeline.arrRef spec4 6 = main_v114_1 := rfl
theorem arrRef4_7 : Pipeline.arrRef spec4 7 = main_v114_2 := rfl
theorem arrRef5_0 : Pipeline.arrRef spec5 0 = main_v114_0 := rfl
theorem arrRef5_1 : Pipeline.arrRef spec5 1 = main_v127 := rfl
theorem arrRef5_2 : Pipeline.arrRef spec5 2 = main_v128 := rfl
theorem arrRef5_3 : Pipeline.arrRef spec5 3 = main_v129 := rfl
theorem arrRef5_4 : Pipeline.arrRef spec5 4 = main_v130 := rfl
theorem arrRef5_5 : Pipeline.arrRef spec5 5 = main_v131 := rfl
theorem arrRef6_0 : Pipeline.arrRef spec6 0 = main_v146 := rfl
theorem arrRef6_1 : Pipeline.arrRef spec6 1 = main_v131 := rfl
theorem arrRef6_2 : Pipeline.arrRef spec6 2 = main_v148 := rfl
theorem arrRef6_3 : Pipeline.arrRef spec6 3 = main_v152 := rfl
theorem arrRef6_4 : Pipeline.arrRef spec6 4 = main_v157 := rfl
theorem arrRef6_5 : Pipeline.arrRef spec6 5 = main_v158_0 := rfl
theorem arrRef6_6 : Pipeline.arrRef spec6 6 = main_v158_1 := rfl
theorem arrRef6_7 : Pipeline.arrRef spec6 7 = main_v158_2 := rfl
theorem arrRef7_0 : Pipeline.arrRef spec7 0 = main_v158_0 := rfl
theorem arrRef7_1 : Pipeline.arrRef spec7 1 = main_v171 := rfl
theorem arrRef7_2 : Pipeline.arrRef spec7 2 = main_v172 := rfl
theorem arrRef7_3 : Pipeline.arrRef spec7 3 = main_v173 := rfl
theorem arrRef7_4 : Pipeline.arrRef spec7 4 = main_v174 := rfl
theorem arrRef7_5 : Pipeline.arrRef spec7 5 = main_v175 := rfl
theorem arrRef8_0 : Pipeline.arrRef spec8 0 = main_v190 := rfl
theorem arrRef8_1 : Pipeline.arrRef spec8 1 = main_v175 := rfl
theorem arrRef8_2 : Pipeline.arrRef spec8 2 = main_arg12 := rfl
theorem arrRef8_3 : Pipeline.arrRef spec8 3 = main_arg14 := rfl
theorem arrRef8_4 : Pipeline.arrRef spec8 4 = main_v191 := rfl
theorem arrRef8_5 : Pipeline.arrRef spec8 5 = main_v192_0 := rfl
theorem arrRef8_6 : Pipeline.arrRef spec8 6 = main_v192_1 := rfl
theorem arrRef8_7 : Pipeline.arrRef spec8 7 = main_v192_2 := rfl
theorem arrRef9_0 : Pipeline.arrRef spec9 0 = main_v192_0 := rfl
theorem arrRef9_1 : Pipeline.arrRef spec9 1 = main_v205 := rfl
theorem arrRef9_2 : Pipeline.arrRef spec9 2 = main_v206 := rfl
theorem arrRef9_3 : Pipeline.arrRef spec9 3 = main_v207 := rfl
theorem arrRef9_4 : Pipeline.arrRef spec9 4 = main_v208 := rfl
theorem arrRef9_5 : Pipeline.arrRef spec9 5 = main_arg17 := rfl
theorem arrRef9_6 : Pipeline.arrRef spec9 6 = main_v209 := rfl
theorem arrRef9_7 : Pipeline.arrRef spec9 7 = main_arg19 := rfl
theorem arrRef9_8 : Pipeline.arrRef spec9 8 = main_v210 := rfl
theorem arrRef9_9 : Pipeline.arrRef spec9 9 = main_v211 := rfl

/-! ## The argument arrays, the edge rows and the reciprocal degree, carried to where they are read -/

theorem W1_arg0 (c : Dev nD) : W1 m ρ c (Proc.devRef .tc main_arg0) = (m ((c : Thread nD τ).loc main_arg0)) :=
  (W1_keep m ρ c main_arg0 (by decide)).trans (W0_eq m ρ c main_arg0)
theorem W1_arg2 (c : Dev nD) : W1 m ρ c (Proc.devRef .tc main_arg2) = (m ((c : Thread nD τ).loc main_arg2)) :=
  (W1_keep m ρ c main_arg2 (by decide)).trans (W0_eq m ρ c main_arg2)
theorem W1_arg4 (c : Dev nD) : W1 m ρ c (Proc.devRef .tc main_arg4) = (m ((c : Thread nD τ).loc main_arg4)) :=
  (W1_keep m ρ c main_arg4 (by decide)).trans (W0_eq m ρ c main_arg4)
theorem W2_arg5 (c : Dev nD) : W2 m ρ c (Proc.devRef .tc main_arg5) = (m ((c : Thread nD τ).loc main_arg5)) :=
  ((W2_of_ne m ρ c main_arg5 (by decide)).trans (W1_keep m ρ c main_arg5 (by decide))).trans (W0_eq m ρ c main_arg5)
theorem W2_arg6 (c : Dev nD) : W2 m ρ c (Proc.devRef .tc main_arg6) = (m ((c : Thread nD τ).loc main_arg6)) :=
  ((W2_of_ne m ρ c main_arg6 (by decide)).trans (W1_keep m ρ c main_arg6 (by decide))).trans (W0_eq m ρ c main_arg6)
theorem W4_arg7 (c : Dev nD) : W4 m ρ c (Proc.devRef .tc main_arg7) = (m ((c : Thread nD τ).loc main_arg7)) :=
  ((W4_of_ne m ρ c main_arg7 (by decide)).trans ((W3_keep m ρ c main_arg7 (by decide)).trans ((W2_of_ne m ρ c main_arg7 (by decide)).trans (W1_keep m ρ c main_arg7 (by decide))))).trans (W0_eq m ρ c main_arg7)
theorem W4_arg8 (c : Dev nD) : W4 m ρ c (Proc.devRef .tc main_arg8) = (m ((c : Thread nD τ).loc main_arg8)) :=
  ((W4_of_ne m ρ c main_arg8 (by decide)).trans ((W3_keep m ρ c main_arg8 (by decide)).trans ((W2_of_ne m ρ c main_arg8 (by decide)).trans (W1_keep m ρ c main_arg8 (by decide))))).trans (W0_eq m ρ c main_arg8)
theorem W4_arg9 (c : Dev nD) : W4 m ρ c (Proc.devRef .tc main_arg9) = (m ((c : Thread nD τ).loc main_arg9)) :=
  ((W4_of_ne m ρ c main_arg9 (by decide)).trans ((W3_keep m ρ c main_arg9 (by decide)).trans ((W2_of_ne m ρ c main_arg9 (by decide)).trans (W1_keep m ρ c main_arg9 (by decide))))).trans (W0_eq m ρ c main_arg9)
theorem W4_arg10 (c : Dev nD) : W4 m ρ c (Proc.devRef .tc main_arg10) = (m ((c : Thread nD τ).loc main_arg10)) :=
  ((W4_of_ne m ρ c main_arg10 (by decide)).trans ((W3_keep m ρ c main_arg10 (by decide)).trans ((W2_of_ne m ρ c main_arg10 (by decide)).trans (W1_keep m ρ c main_arg10 (by decide))))).trans (W0_eq m ρ c main_arg10)
theorem W4_arg11 (c : Dev nD) : W4 m ρ c (Proc.devRef .tc main_arg11) = (m ((c : Thread nD τ).loc main_arg11)) :=
  ((W4_of_ne m ρ c main_arg11 (by decide)).trans ((W3_keep m ρ c main_arg11 (by decide)).trans ((W2_of_ne m ρ c main_arg11 (by decide)).trans (W1_keep m ρ c main_arg11 (by decide))))).trans (W0_eq m ρ c main_arg11)
theorem W8_arg7 (c : Dev nD) : W8 m ρ c (Proc.devRef .tc main_arg7) = (m ((c : Thread nD τ).loc main_arg7)) :=
  ((W8_of_ne m ρ c main_arg7 (by decide)).trans ((W7_keep m ρ c main_arg7 (by decide)).trans ((W6_of_ne m ρ c main_arg7 (by decide)).trans (W5_keep m ρ c main_arg7 (by decide))))).trans (W4_arg7 m ρ c)
theorem W8_arg8 (c : Dev nD) : W8 m ρ c (Proc.devRef .tc main_arg8) = (m ((c : Thread nD τ).loc main_arg8)) :=
  ((W8_of_ne m ρ c main_arg8 (by decide)).trans ((W7_keep m ρ c main_arg8 (by decide)).trans ((W6_of_ne m ρ c main_arg8 (by decide)).trans (W5_keep m ρ c main_arg8 (by decide))))).trans (W4_arg8 m ρ c)
theorem W8_arg9 (c : Dev nD) : W8 m ρ c (Proc.devRef .tc main_arg9) = (m ((c : Thread nD τ).loc main_arg9)) :=
  ((W8_of_ne m ρ c main_arg9 (by decide)).trans ((W7_keep m ρ c main_arg9 (by decide)).trans ((W6_of_ne m ρ c main_arg9 (by decide)).trans (W5_keep m ρ c main_arg9 (by decide))))).trans (W4_arg9 m ρ c)
theorem W8_arg10 (c : Dev nD) : W8 m ρ c (Proc.devRef .tc main_arg10) = (m ((c : Thread nD τ).loc main_arg10)) :=
  ((W8_of_ne m ρ c main_arg10 (by decide)).trans ((W7_keep m ρ c main_arg10 (by decide)).trans ((W6_of_ne m ρ c main_arg10 (by decide)).trans (W5_keep m ρ c main_arg10 (by decide))))).trans (W4_arg10 m ρ c)
theorem W8_arg11 (c : Dev nD) : W8 m ρ c (Proc.devRef .tc main_arg11) = (m ((c : Thread nD τ).loc main_arg11)) :=
  ((W8_of_ne m ρ c main_arg11 (by decide)).trans ((W7_keep m ρ c main_arg11 (by decide)).trans ((W6_of_ne m ρ c main_arg11 (by decide)).trans (W5_keep m ρ c main_arg11 (by decide))))).trans (W4_arg11 m ρ c)
theorem W12_arg7 (c : Dev nD) : W12 m ρ c (Proc.devRef .tc main_arg7) = (m ((c : Thread nD τ).loc main_arg7)) :=
  ((W12_of_ne m ρ c main_arg7 (by decide)).trans ((W11_keep m ρ c main_arg7 (by decide)).trans ((W10_of_ne m ρ c main_arg7 (by decide)).trans (W9_keep m ρ c main_arg7 (by decide))))).trans (W8_arg7 m ρ c)
theorem W12_arg8 (c : Dev nD) : W12 m ρ c (Proc.devRef .tc main_arg8) = (m ((c : Thread nD τ).loc main_arg8)) :=
  ((W12_of_ne m ρ c main_arg8 (by decide)).trans ((W11_keep m ρ c main_arg8 (by decide)).trans ((W10_of_ne m ρ c main_arg8 (by decide)).trans (W9_keep m ρ c main_arg8 (by decide))))).trans (W8_arg8 m ρ c)
theorem W12_arg9 (c : Dev nD) : W12 m ρ c (Proc.devRef .tc main_arg9) = (m ((c : Thread nD τ).loc main_arg9)) :=
  ((W12_of_ne m ρ c main_arg9 (by decide)).trans ((W11_keep m ρ c main_arg9 (by decide)).trans ((W10_of_ne m ρ c main_arg9 (by decide)).trans (W9_keep m ρ c main_arg9 (by decide))))).trans (W8_arg9 m ρ c)
theorem W12_arg10 (c : Dev nD) : W12 m ρ c (Proc.devRef .tc main_arg10) = (m ((c : Thread nD τ).loc main_arg10)) :=
  ((W12_of_ne m ρ c main_arg10 (by decide)).trans ((W11_keep m ρ c main_arg10 (by decide)).trans ((W10_of_ne m ρ c main_arg10 (by decide)).trans (W9_keep m ρ c main_arg10 (by decide))))).trans (W8_arg10 m ρ c)
theorem W12_arg11 (c : Dev nD) : W12 m ρ c (Proc.devRef .tc main_arg11) = (m ((c : Thread nD τ).loc main_arg11)) :=
  ((W12_of_ne m ρ c main_arg11 (by decide)).trans ((W11_keep m ρ c main_arg11 (by decide)).trans ((W10_of_ne m ρ c main_arg11 (by decide)).trans (W9_keep m ρ c main_arg11 (by decide))))).trans (W8_arg11 m ρ c)
theorem W16_arg13 (c : Dev nD) : W16 m ρ c (Proc.devRef .tc main_arg13) = (m ((c : Thread nD τ).loc main_arg13)) :=
  ((W16_of_ne m ρ c main_arg13 (by decide)).trans ((W15_keep m ρ c main_arg13 (by decide)).trans ((W14_of_ne m ρ c main_arg13 (by decide)).trans ((W13_keep m ρ c main_arg13 (by decide)).trans ((W12_of_ne m ρ c main_arg13 (by decide)).trans ((W11_keep m ρ c main_arg13 (by decide)).trans ((W10_of_ne m ρ c main_arg13 (by decide)).trans ((W9_keep m ρ c main_arg13 (by decide)).trans ((W8_of_ne m ρ c main_arg13 (by decide)).trans ((W7_keep m ρ c main_arg13 (by decide)).trans ((W6_of_ne m ρ c main_arg13 (by decide)).trans ((W5_keep m ρ c main_arg13 (by decide)).trans ((W4_of_ne m ρ c main_arg13 (by decide)).trans ((W3_keep m ρ c main_arg13 (by decide)).trans ((W2_of_ne m ρ c main_arg13 (by decide)).trans (W1_keep m ρ c main_arg13 (by decide))))))))))))))))).trans (W0_eq m ρ c main_arg13)
theorem W17_arg12 (c : Dev nD) : W17 m ρ c (Proc.devRef .tc main_arg12) = (m ((c : Thread nD τ).loc main_arg12)) :=
  ((W17_keep m ρ c main_arg12 (by decide)).trans ((W16_of_ne m ρ c main_arg12 (by decide)).trans ((W15_keep m ρ c main_arg12 (by decide)).trans ((W14_of_ne m ρ c main_arg12 (by decide)).trans ((W13_keep m ρ c main_arg12 (by decide)).trans ((W12_of_ne m ρ c main_arg12 (by decide)).trans ((W11_keep m ρ c main_arg12 (by decide)).trans ((W10_of_ne m ρ c main_arg12 (by decide)).trans ((W9_keep m ρ c main_arg12 (by decide)).trans ((W8_of_ne m ρ c main_arg12 (by decide)).trans ((W7_keep m ρ c main_arg12 (by decide)).trans ((W6_of_ne m ρ c main_arg12 (by decide)).trans ((W5_keep m ρ c main_arg12 (by decide)).trans ((W4_of_ne m ρ c main_arg12 (by decide)).trans ((W3_keep m ρ c main_arg12 (by decide)).trans ((W2_of_ne m ρ c main_arg12 (by decide)).trans (W1_keep m ρ c main_arg12 (by decide)))))))))))))))))).trans (W0_eq m ρ c main_arg12)
theorem W17_arg14 (c : Dev nD) : W17 m ρ c (Proc.devRef .tc main_arg14) = (m ((c : Thread nD τ).loc main_arg14)) :=
  ((W17_keep m ρ c main_arg14 (by decide)).trans ((W16_of_ne m ρ c main_arg14 (by decide)).trans ((W15_keep m ρ c main_arg14 (by decide)).trans ((W14_of_ne m ρ c main_arg14 (by decide)).trans ((W13_keep m ρ c main_arg14 (by decide)).trans ((W12_of_ne m ρ c main_arg14 (by decide)).trans ((W11_keep m ρ c main_arg14 (by decide)).trans ((W10_of_ne m ρ c main_arg14 (by decide)).trans ((W9_keep m ρ c main_arg14 (by decide)).trans ((W8_of_ne m ρ c main_arg14 (by decide)).trans ((W7_keep m ρ c main_arg14 (by decide)).trans ((W6_of_ne m ρ c main_arg14 (by decide)).trans ((W5_keep m ρ c main_arg14 (by decide)).trans ((W4_of_ne m ρ c main_arg14 (by decide)).trans ((W3_keep m ρ c main_arg14 (by decide)).trans ((W2_of_ne m ρ c main_arg14 (by decide)).trans (W1_keep m ρ c main_arg14 (by decide)))))))))))))))))).trans (W0_eq m ρ c main_arg14)
theorem W18_arg15 (c : Dev nD) : W18 m ρ c (Proc.devRef .tc main_arg15) = (m ((c : Thread nD τ).loc main_arg15)) :=
  ((W18_of_ne m ρ c main_arg15 (by decide)).trans ((W17_keep m ρ c main_arg15 (by decide)).trans ((W16_of_ne m ρ c main_arg15 (by decide)).trans ((W15_keep m ρ c main_arg15 (by decide)).trans ((W14_of_ne m ρ c main_arg15 (by decide)).trans ((W13_keep m ρ c main_arg15 (by decide)).trans ((W12_of_ne m ρ c main_arg15 (by decide)).trans ((W11_keep m ρ c main_arg15 (by decide)).trans ((W10_of_ne m ρ c main_arg15 (by decide)).trans ((W9_keep m ρ c main_arg15 (by decide)).trans ((W8_of_ne m ρ c main_arg15 (by decide)).trans ((W7_keep m ρ c main_arg15 (by decide)).trans ((W6_of_ne m ρ c main_arg15 (by decide)).trans ((W5_keep m ρ c main_arg15 (by decide)).trans ((W4_of_ne m ρ c main_arg15 (by decide)).trans ((W3_keep m ρ c main_arg15 (by decide)).trans ((W2_of_ne m ρ c main_arg15 (by decide)).trans (W1_keep m ρ c main_arg15 (by decide))))))))))))))))))).trans (W0_eq m ρ c main_arg15)
theorem W18_arg16 (c : Dev nD) : W18 m ρ c (Proc.devRef .tc main_arg16) = (m ((c : Thread nD τ).loc main_arg16)) :=
  ((W18_of_ne m ρ c main_arg16 (by decide)).trans ((W17_keep m ρ c main_arg16 (by decide)).trans ((W16_of_ne m ρ c main_arg16 (by decide)).trans ((W15_keep m ρ c main_arg16 (by decide)).trans ((W14_of_ne m ρ c main_arg16 (by decide)).trans ((W13_keep m ρ c main_arg16 (by decide)).trans ((W12_of_ne m ρ c main_arg16 (by decide)).trans ((W11_keep m ρ c main_arg16 (by decide)).trans ((W10_of_ne m ρ c main_arg16 (by decide)).trans ((W9_keep m ρ c main_arg16 (by decide)).trans ((W8_of_ne m ρ c main_arg16 (by decide)).trans ((W7_keep m ρ c main_arg16 (by decide)).trans ((W6_of_ne m ρ c main_arg16 (by decide)).trans ((W5_keep m ρ c main_arg16 (by decide)).trans ((W4_of_ne m ρ c main_arg16 (by decide)).trans ((W3_keep m ρ c main_arg16 (by decide)).trans ((W2_of_ne m ρ c main_arg16 (by decide)).trans (W1_keep m ρ c main_arg16 (by decide))))))))))))))))))).trans (W0_eq m ρ c main_arg16)
theorem W18_arg18 (c : Dev nD) : W18 m ρ c (Proc.devRef .tc main_arg18) = (m ((c : Thread nD τ).loc main_arg18)) :=
  ((W18_of_ne m ρ c main_arg18 (by decide)).trans ((W17_keep m ρ c main_arg18 (by decide)).trans ((W16_of_ne m ρ c main_arg18 (by decide)).trans ((W15_keep m ρ c main_arg18 (by decide)).trans ((W14_of_ne m ρ c main_arg18 (by decide)).trans ((W13_keep m ρ c main_arg18 (by decide)).trans ((W12_of_ne m ρ c main_arg18 (by decide)).trans ((W11_keep m ρ c main_arg18 (by decide)).trans ((W10_of_ne m ρ c main_arg18 (by decide)).trans ((W9_keep m ρ c main_arg18 (by decide)).trans ((W8_of_ne m ρ c main_arg18 (by decide)).trans ((W7_keep m ρ c main_arg18 (by decide)).trans ((W6_of_ne m ρ c main_arg18 (by decide)).trans ((W5_keep m ρ c main_arg18 (by decide)).trans ((W4_of_ne m ρ c main_arg18 (by decide)).trans ((W3_keep m ρ c main_arg18 (by decide)).trans ((W2_of_ne m ρ c main_arg18 (by decide)).trans (W1_keep m ρ c main_arg18 (by decide))))))))))))))))))).trans (W0_eq m ρ c main_arg18)
theorem W18_arg20 (c : Dev nD) : W18 m ρ c (Proc.devRef .tc main_arg20) = (m ((c : Thread nD τ).loc main_arg20)) :=
  ((W18_of_ne m ρ c main_arg20 (by decide)).trans ((W17_keep m ρ c main_arg20 (by decide)).trans ((W16_of_ne m ρ c main_arg20 (by decide)).trans ((W15_keep m ρ c main_arg20 (by decide)).trans ((W14_of_ne m ρ c main_arg20 (by decide)).trans ((W13_keep m ρ c main_arg20 (by decide)).trans ((W12_of_ne m ρ c main_arg20 (by decide)).trans ((W11_keep m ρ c main_arg20 (by decide)).trans ((W10_of_ne m ρ c main_arg20 (by decide)).trans ((W9_keep m ρ c main_arg20 (by decide)).trans ((W8_of_ne m ρ c main_arg20 (by decide)).trans ((W7_keep m ρ c main_arg20 (by decide)).trans ((W6_of_ne m ρ c main_arg20 (by decide)).trans ((W5_keep m ρ c main_arg20 (by decide)).trans ((W4_of_ne m ρ c main_arg20 (by decide)).trans ((W3_keep m ρ c main_arg20 (by decide)).trans ((W2_of_ne m ρ c main_arg20 (by decide)).trans (W1_keep m ρ c main_arg20 (by decide))))))))))))))))))).trans (W0_eq m ρ c main_arg20)
theorem W19_arg17 (c : Dev nD) : W19 m ρ c (Proc.devRef .tc main_arg17) = (m ((c : Thread nD τ).loc main_arg17)) :=
  ((W19_keep m ρ c main_arg17 (by decide)).trans ((W18_of_ne m ρ c main_arg17 (by decide)).trans ((W17_keep m ρ c main_arg17 (by decide)).trans ((W16_of_ne m ρ c main_arg17 (by decide)).trans ((W15_keep m ρ c main_arg17 (by decide)).trans ((W14_of_ne m ρ c main_arg17 (by decide)).trans ((W13_keep m ρ c main_arg17 (by decide)).trans ((W12_of_ne m ρ c main_arg17 (by decide)).trans ((W11_keep m ρ c main_arg17 (by decide)).trans ((W10_of_ne m ρ c main_arg17 (by decide)).trans ((W9_keep m ρ c main_arg17 (by decide)).trans ((W8_of_ne m ρ c main_arg17 (by decide)).trans ((W7_keep m ρ c main_arg17 (by decide)).trans ((W6_of_ne m ρ c main_arg17 (by decide)).trans ((W5_keep m ρ c main_arg17 (by decide)).trans ((W4_of_ne m ρ c main_arg17 (by decide)).trans ((W3_keep m ρ c main_arg17 (by decide)).trans ((W2_of_ne m ρ c main_arg17 (by decide)).trans (W1_keep m ρ c main_arg17 (by decide)))))))))))))))))))).trans (W0_eq m ρ c main_arg17)
theorem W19_arg19 (c : Dev nD) : W19 m ρ c (Proc.devRef .tc main_arg19) = (m ((c : Thread nD τ).loc main_arg19)) :=
  ((W19_keep m ρ c main_arg19 (by decide)).trans ((W18_of_ne m ρ c main_arg19 (by decide)).trans ((W17_keep m ρ c main_arg19 (by decide)).trans ((W16_of_ne m ρ c main_arg19 (by decide)).trans ((W15_keep m ρ c main_arg19 (by decide)).trans ((W14_of_ne m ρ c main_arg19 (by decide)).trans ((W13_keep m ρ c main_arg19 (by decide)).trans ((W12_of_ne m ρ c main_arg19 (by decide)).trans ((W11_keep m ρ c main_arg19 (by decide)).trans ((W10_of_ne m ρ c main_arg19 (by decide)).trans ((W9_keep m ρ c main_arg19 (by decide)).trans ((W8_of_ne m ρ c main_arg19 (by decide)).trans ((W7_keep m ρ c main_arg19 (by decide)).trans ((W6_of_ne m ρ c main_arg19 (by decide)).trans ((W5_keep m ρ c main_arg19 (by decide)).trans ((W4_of_ne m ρ c main_arg19 (by decide)).trans ((W3_keep m ρ c main_arg19 (by decide)).trans ((W2_of_ne m ρ c main_arg19 (by decide)).trans (W1_keep m ρ c main_arg19 (by decide)))))))))))))))))))).trans (W0_eq m ρ c main_arg19)

/-- The source row, as stretch 0 leaves it. -/
theorem W1_v1 (c : Dev nD) : W1 m ρ c (Proc.devRef .tc main_v1) = kSrc (m ((c : Thread nD τ).loc main_arg1)) := after0_v1 (W0 m ρ c)
/-- The target row, as stretch 0 leaves it. -/
theorem W1_v3 (c : Dev nD) : W1 m ρ c (Proc.devRef .tc main_v3) = kDst (m ((c : Thread nD τ).loc main_arg1)) := after0_v3 (W0 m ρ c)
/-- The reciprocal clamped degree, as stretch 0 leaves it. -/
theorem W1_v11 (c : Dev nD) : W1 m ρ c (Proc.devRef .tc main_v11) = kDegInv (kDst (m ((c : Thread nD τ).loc main_arg1))) := after0_v11 (W0 m ρ c)
theorem W4_v1 (c : Dev nD) : W4 m ρ c (Proc.devRef .tc main_v1) = kSrc (m ((c : Thread nD τ).loc main_arg1)) :=
  ((W4_of_ne m ρ c main_v1 (by decide)).trans ((W3_keep m ρ c main_v1 (by decide)).trans (W2_of_ne m ρ c main_v1 (by decide)))).trans (W1_v1 m ρ c)
theorem W4_v3 (c : Dev nD) : W4 m ρ c (Proc.devRef .tc main_v3) = kDst (m ((c : Thread nD τ).loc main_arg1)) :=
  ((W4_of_ne m ρ c main_v3 (by decide)).trans ((W3_keep m ρ c main_v3 (by decide)).trans (W2_of_ne m ρ c main_v3 (by decide)))).trans (W1_v3 m ρ c)
theorem W4_v11 (c : Dev nD) : W4 m ρ c (Proc.devRef .tc main_v11) = kDegInv (kDst (m ((c : Thread nD τ).loc main_arg1))) :=
  ((W4_of_ne m ρ c main_v11 (by decide)).trans ((W3_keep m ρ c main_v11 (by decide)).trans (W2_of_ne m ρ c main_v11 (by decide)))).trans (W1_v11 m ρ c)
theorem W8_v1 (c : Dev nD) : W8 m ρ c (Proc.devRef .tc main_v1) = kSrc (m ((c : Thread nD τ).loc main_arg1)) :=
  ((W8_of_ne m ρ c main_v1 (by decide)).trans ((W7_keep m ρ c main_v1 (by decide)).trans ((W6_of_ne m ρ c main_v1 (by decide)).trans (W5_keep m ρ c main_v1 (by decide))))).trans (W4_v1 m ρ c)
theorem W8_v3 (c : Dev nD) : W8 m ρ c (Proc.devRef .tc main_v3) = kDst (m ((c : Thread nD τ).loc main_arg1)) :=
  ((W8_of_ne m ρ c main_v3 (by decide)).trans ((W7_keep m ρ c main_v3 (by decide)).trans ((W6_of_ne m ρ c main_v3 (by decide)).trans (W5_keep m ρ c main_v3 (by decide))))).trans (W4_v3 m ρ c)
theorem W8_v11 (c : Dev nD) : W8 m ρ c (Proc.devRef .tc main_v11) = kDegInv (kDst (m ((c : Thread nD τ).loc main_arg1))) :=
  ((W8_of_ne m ρ c main_v11 (by decide)).trans ((W7_keep m ρ c main_v11 (by decide)).trans ((W6_of_ne m ρ c main_v11 (by decide)).trans (W5_keep m ρ c main_v11 (by decide))))).trans (W4_v11 m ρ c)
theorem W12_v1 (c : Dev nD) : W12 m ρ c (Proc.devRef .tc main_v1) = kSrc (m ((c : Thread nD τ).loc main_arg1)) :=
  ((W12_of_ne m ρ c main_v1 (by decide)).trans ((W11_keep m ρ c main_v1 (by decide)).trans ((W10_of_ne m ρ c main_v1 (by decide)).trans (W9_keep m ρ c main_v1 (by decide))))).trans (W8_v1 m ρ c)
theorem W12_v3 (c : Dev nD) : W12 m ρ c (Proc.devRef .tc main_v3) = kDst (m ((c : Thread nD τ).loc main_arg1)) :=
  ((W12_of_ne m ρ c main_v3 (by decide)).trans ((W11_keep m ρ c main_v3 (by decide)).trans ((W10_of_ne m ρ c main_v3 (by decide)).trans (W9_keep m ρ c main_v3 (by decide))))).trans (W8_v3 m ρ c)
theorem W12_v11 (c : Dev nD) : W12 m ρ c (Proc.devRef .tc main_v11) = kDegInv (kDst (m ((c : Thread nD τ).loc main_arg1))) :=
  ((W12_of_ne m ρ c main_v11 (by decide)).trans ((W11_keep m ρ c main_v11 (by decide)).trans ((W10_of_ne m ρ c main_v11 (by decide)).trans (W9_keep m ρ c main_v11 (by decide))))).trans (W8_v11 m ρ c)
theorem W16_v1 (c : Dev nD) : W16 m ρ c (Proc.devRef .tc main_v1) = kSrc (m ((c : Thread nD τ).loc main_arg1)) :=
  ((W16_of_ne m ρ c main_v1 (by decide)).trans ((W15_keep m ρ c main_v1 (by decide)).trans ((W14_of_ne m ρ c main_v1 (by decide)).trans (W13_keep m ρ c main_v1 (by decide))))).trans (W12_v1 m ρ c)
theorem W16_v3 (c : Dev nD) : W16 m ρ c (Proc.devRef .tc main_v3) = kDst (m ((c : Thread nD τ).loc main_arg1)) :=
  ((W16_of_ne m ρ c main_v3 (by decide)).trans ((W15_keep m ρ c main_v3 (by decide)).trans ((W14_of_ne m ρ c main_v3 (by decide)).trans (W13_keep m ρ c main_v3 (by decide))))).trans (W12_v3 m ρ c)
theorem W16_v11 (c : Dev nD) : W16 m ρ c (Proc.devRef .tc main_v11) = kDegInv (kDst (m ((c : Thread nD τ).loc main_arg1))) :=
  ((W16_of_ne m ρ c main_v11 (by decide)).trans ((W15_keep m ρ c main_v11 (by decide)).trans ((W14_of_ne m ρ c main_v11 (by decide)).trans (W13_keep m ρ c main_v11 (by decide))))).trans (W12_v11 m ρ c)

/-! ## The per-layer scale and shift vectors, sliced in one stretch and read in the next -/

theorem W5_v66 (c : Dev nD) : W5 m ρ c (Proc.devRef .tc main_v66) = kVec0 (m ((c : Thread nD τ).loc main_arg10)) :=
  (after2_v66 (W4 m ρ c)).trans (congrArg kVec0 (W4_arg10 m ρ c))
theorem W6_v66 (c : Dev nD) : W6 m ρ c (Proc.devRef .tc main_v66) = kVec0 (m ((c : Thread nD τ).loc main_arg10)) :=
  (W6_of_ne m ρ c main_v66 (by decide)).trans (W5_v66 m ρ c)
theorem W5_v68 (c : Dev nD) : W5 m ρ c (Proc.devRef .tc main_v68) = kVec0 (m ((c : Thread nD τ).loc main_arg11)) :=
  (after2_v68 (W4 m ρ c)).trans (congrArg kVec0 (W4_arg11 m ρ c))
theorem W6_v68 (c : Dev nD) : W6 m ρ c (Proc.devRef .tc main_v68) = kVec0 (m ((c : Thread nD τ).loc main_arg11)) :=
  (W6_of_ne m ρ c main_v68 (by decide)).trans (W5_v68 m ρ c)
theorem W9_v110 (c : Dev nD) : W9 m ρ c (Proc.devRef .tc main_v110) = kVec1 (m ((c : Thread nD τ).loc main_arg10)) :=
  (after4_v110 (W8 m ρ c)).trans (congrArg kVec1 (W8_arg10 m ρ c))
theorem W10_v110 (c : Dev nD) : W10 m ρ c (Proc.devRef .tc main_v110) = kVec1 (m ((c : Thread nD τ).loc main_arg10)) :=
  (W10_of_ne m ρ c main_v110 (by decide)).trans (W9_v110 m ρ c)
theorem W9_v112 (c : Dev nD) : W9 m ρ c (Proc.devRef .tc main_v112) = kVec1 (m ((c : Thread nD τ).loc main_arg11)) :=
  (after4_v112 (W8 m ρ c)).trans (congrArg kVec1 (W8_arg11 m ρ c))
theorem W10_v112 (c : Dev nD) : W10 m ρ c (Proc.devRef .tc main_v112) = kVec1 (m ((c : Thread nD τ).loc main_arg11)) :=
  (W10_of_ne m ρ c main_v112 (by decide)).trans (W9_v112 m ρ c)
theorem W13_v154 (c : Dev nD) : W13 m ρ c (Proc.devRef .tc main_v154) = kVec2 (m ((c : Thread nD τ).loc main_arg10)) :=
  (after6_v154 (W12 m ρ c)).trans (congrArg kVec2 (W12_arg10 m ρ c))
theorem W14_v154 (c : Dev nD) : W14 m ρ c (Proc.devRef .tc main_v154) = kVec2 (m ((c : Thread nD τ).loc main_arg10)) :=
  (W14_of_ne m ρ c main_v154 (by decide)).trans (W13_v154 m ρ c)
theorem W13_v156 (c : Dev nD) : W13 m ρ c (Proc.devRef .tc main_v156) = kVec2 (m ((c : Thread nD τ).loc main_arg11)) :=
  (after6_v156 (W12 m ρ c)).trans (congrArg kVec2 (W12_arg11 m ρ c))
theorem W14_v156 (c : Dev nD) : W14 m ρ c (Proc.devRef .tc main_v156) = kVec2 (m ((c : Thread nD τ).loc main_arg11)) :=
  (W14_of_ne m ρ c main_v156 (by decide)).trans (W13_v156 m ρ c)

/-! ## Region 0 reads: the aggregated input features, the input features, two weight matrices, the shift row -/

theorem V1_v24 (c : Dev nD) : V1 m ρ c main_v24 = kAgg12 (m ((c : Thread nD τ).loc main_arg0)) (kSrc (m ((c : Thread nD τ).loc main_arg1))) (kDst (m ((c : Thread nD τ).loc main_arg1))) (kDegInv (kDst (m ((c : Thread nD τ).loc main_arg1)))) :=
  after0_v24 (W0 m ρ c)
theorem V1_arg0 (c : Dev nD) : V1 m ρ c main_arg0 = (m ((c : Thread nD τ).loc main_arg0)) :=
  W1_arg0 m ρ c
theorem V1_arg2 (c : Dev nD) : V1 m ρ c main_arg2 = (m ((c : Thread nD τ).loc main_arg2)) :=
  W1_arg2 m ρ c
theorem V1_arg4 (c : Dev nD) : V1 m ρ c main_arg4 = (m ((c : Thread nD τ).loc main_arg4)) :=
  W1_arg4 m ρ c
theorem V1_v25 (c : Dev nD) : V1 m ρ c main_v25 = kRow256 (m ((c : Thread nD τ).loc main_arg3)) :=
  after0_v25 (W0 m ρ c)

/-! ## Region 1 reads: the previous region's pre-normalisation array, the batch mean and variance out of its block sums, the scale and shift rows -/

theorem V3_v26_0 (c : Dev nD) : V3 m ρ c main_v26_0 = V2 m ρ c main_v26_0 :=
  W3_keep m ρ c main_v26_0 (by decide)
theorem V3_v39 (c : Dev nD) : V3 m ρ c main_v39 = kMean256 (V2 m ρ c main_v26_1) :=
  after1_v39 (W2 m ρ c)
theorem V3_v40 (c : Dev nD) : V3 m ρ c main_v40 = kVar256 (V2 m ρ c main_v26_1) (V2 m ρ c main_v26_2) :=
  after1_v40 (W2 m ρ c)
theorem V3_v41 (c : Dev nD) : V3 m ρ c main_v41 = kRow256 (m ((c : Thread nD τ).loc main_arg5)) :=
  (after1_v41 (W2 m ρ c)).trans (congrArg kRow256 (W2_arg5 m ρ c))
theorem V3_v42 (c : Dev nD) : V3 m ρ c main_v42 = kRow256 (m ((c : Thread nD τ).loc main_arg6)) :=
  (after1_v42 (W2 m ρ c)).trans (congrArg kRow256 (W2_arg6 m ρ c))

/-! ## Region 2 reads: the aggregated features, the features, layer 0 of the two stacked weight matrices, layer 0 of the stacked shift as a row -/

theorem V5_v58 (c : Dev nD) : V5 m ρ c main_v58 = kAgg256 (V4 m ρ c main_v43) (kSrc (m ((c : Thread nD τ).loc main_arg1))) (kDst (m ((c : Thread nD τ).loc main_arg1))) (kDegInv (kDst (m ((c : Thread nD τ).loc main_arg1)))) :=
  (after2_v58 (W4 m ρ c)).trans (by rw [W4_v1 m ρ c, W4_v3 m ρ c, W4_v11 m ρ c])
theorem V5_v43 (c : Dev nD) : V5 m ρ c main_v43 = V4 m ρ c main_v43 :=
  W5_keep m ρ c main_v43 (by decide)
theorem V5_v60 (c : Dev nD) : V5 m ρ c main_v60 = kMat0 (m ((c : Thread nD τ).loc main_arg7)) :=
  (after2_v60 (W4 m ρ c)).trans (congrArg kMat0 (W4_arg7 m ρ c))
theorem V5_v64 (c : Dev nD) : V5 m ρ c main_v64 = kMat0 (m ((c : Thread nD τ).loc main_arg9)) :=
  (after2_v64 (W4 m ρ c)).trans (congrArg kMat0 (W4_arg9 m ρ c))
theorem V5_v69 (c : Dev nD) : V5 m ρ c main_v69 = kRow256 (kVec0 (m ((c : Thread nD τ).loc main_arg8))) :=
  (after2_v69 (W4 m ρ c)).trans (congrArg (fun a => kRow256 (kVec0 a)) (W4_arg8 m ρ c))

/-! ## Region 3 reads: the previous region's pre-normalisation array, the batch mean and variance out of its block sums, the scale and shift rows -/

theorem V7_v70_0 (c : Dev nD) : V7 m ρ c main_v70_0 = V6 m ρ c main_v70_0 :=
  W7_keep m ρ c main_v70_0 (by decide)
theorem V7_v83 (c : Dev nD) : V7 m ρ c main_v83 = kMean256 (V6 m ρ c main_v70_1) :=
  after3_v83 (W6 m ρ c)
theorem V7_v84 (c : Dev nD) : V7 m ρ c main_v84 = kVar256 (V6 m ρ c main_v70_1) (V6 m ρ c main_v70_2) :=
  after3_v84 (W6 m ρ c)
theorem V7_v85 (c : Dev nD) : V7 m ρ c main_v85 = kRow256 (kVec0 (m ((c : Thread nD τ).loc main_arg10))) :=
  (after3_v85 (W6 m ρ c)).trans (congrArg kRow256 (W6_v66 m ρ c))
theorem V7_v86 (c : Dev nD) : V7 m ρ c main_v86 = kRow256 (kVec0 (m ((c : Thread nD τ).loc main_arg11))) :=
  (after3_v86 (W6 m ρ c)).trans (congrArg kRow256 (W6_v68 m ρ c))

/-! ## Region 4 reads: the aggregated features, the features, layer 1 of the two stacked weight matrices, layer 1 of the stacked shift as a row -/

theorem V9_v102 (c : Dev nD) : V9 m ρ c main_v102 = kAgg256 (V8 m ρ c main_v87) (kSrc (m ((c : Thread nD τ).loc main_arg1))) (kDst (m ((c : Thread nD τ).loc main_arg1))) (kDegInv (kDst (m ((c : Thread nD τ).loc main_arg1)))) :=
  (after4_v102 (W8 m ρ c)).trans (by rw [W8_v1 m ρ c, W8_v3 m ρ c, W8_v11 m ρ c])
theorem V9_v87 (c : Dev nD) : V9 m ρ c main_v87 = V8 m ρ c main_v87 :=
  W9_keep m ρ c main_v87 (by decide)
theorem V9_v104 (c : Dev nD) : V9 m ρ c main_v104 = kMat1 (m ((c : Thread nD τ).loc main_arg7)) :=
  (after4_v104 (W8 m ρ c)).trans (congrArg kMat1 (W8_arg7 m ρ c))
theorem V9_v108 (c : Dev nD) : V9 m ρ c main_v108 = kMat1 (m ((c : Thread nD τ).loc main_arg9)) :=
  (after4_v108 (W8 m ρ c)).trans (congrArg kMat1 (W8_arg9 m ρ c))
theorem V9_v113 (c : Dev nD) : V9 m ρ c main_v113 = kRow256 (kVec1 (m ((c : Thread nD τ).loc main_arg8))) :=
  (after4_v113 (W8 m ρ c)).trans (congrArg (fun a => kRow256 (kVec1 a)) (W8_arg8 m ρ c))

/-! ## Region 5 reads: the previous region's pre-normalisation array, the batch mean and variance out of its block sums, the scale and shift rows -/

theorem V11_v114_0 (c : Dev nD) : V11 m ρ c main_v114_0 = V10 m ρ c main_v114_0 :=
  W11_keep m ρ c main_v114_0 (by decide)
theorem V11_v127 (c : Dev nD) : V11 m ρ c main_v127 = kMean256 (V10 m ρ c main_v114_1) :=
  after5_v127 (W10 m ρ c)
theorem V11_v128 (c : Dev nD) : V11 m ρ c main_v128 = kVar256 (V10 m ρ c main_v114_1) (V10 m ρ c main_v114_2) :=
  after5_v128 (W10 m ρ c)
theorem V11_v129 (c : Dev nD) : V11 m ρ c main_v129 = kRow256 (kVec1 (m ((c : Thread nD τ).loc main_arg10))) :=
  (after5_v129 (W10 m ρ c)).trans (congrArg kRow256 (W10_v110 m ρ c))
theorem V11_v130 (c : Dev nD) : V11 m ρ c main_v130 = kRow256 (kVec1 (m ((c : Thread nD τ).loc main_arg11))) :=
  (after5_v130 (W10 m ρ c)).trans (congrArg kRow256 (W10_v112 m ρ c))

/-! ## Region 6 reads: the aggregated features, the features, layer 2 of the two stacked weight matrices, layer 2 of the stacked shift as a row -/

theorem V13_v146 (c : Dev nD) : V13 m ρ c main_v146 = kAgg256 (V12 m ρ c main_v131) (kSrc (m ((c : Thread nD τ).loc main_arg1))) (kDst (m ((c : Thread nD τ).loc main_arg1))) (kDegInv (kDst (m ((c : Thread nD τ).loc main_arg1)))) :=
  (after6_v146 (W12 m ρ c)).trans (by rw [W12_v1 m ρ c, W12_v3 m ρ c, W12_v11 m ρ c])
theorem V13_v131 (c : Dev nD) : V13 m ρ c main_v131 = V12 m ρ c main_v131 :=
  W13_keep m ρ c main_v131 (by decide)
theorem V13_v148 (c : Dev nD) : V13 m ρ c main_v148 = kMat2 (m ((c : Thread nD τ).loc main_arg7)) :=
  (after6_v148 (W12 m ρ c)).trans (congrArg kMat2 (W12_arg7 m ρ c))
theorem V13_v152 (c : Dev nD) : V13 m ρ c main_v152 = kMat2 (m ((c : Thread nD τ).loc main_arg9)) :=
  (after6_v152 (W12 m ρ c)).trans (congrArg kMat2 (W12_arg9 m ρ c))
theorem V13_v157 (c : Dev nD) : V13 m ρ c main_v157 = kRow256 (kVec2 (m ((c : Thread nD τ).loc main_arg8))) :=
  (after6_v157 (W12 m ρ c)).trans (congrArg (fun a => kRow256 (kVec2 a)) (W12_arg8 m ρ c))

/-! ## Region 7 reads: the previous region's pre-normalisation array, the batch mean and variance out of its block sums, the scale and shift rows -/

theorem V15_v158_0 (c : Dev nD) : V15 m ρ c main_v158_0 = V14 m ρ c main_v158_0 :=
  W15_keep m ρ c main_v158_0 (by decide)
theorem V15_v171 (c : Dev nD) : V15 m ρ c main_v171 = kMean256 (V14 m ρ c main_v158_1) :=
  after7_v171 (W14 m ρ c)
theorem V15_v172 (c : Dev nD) : V15 m ρ c main_v172 = kVar256 (V14 m ρ c main_v158_1) (V14 m ρ c main_v158_2) :=
  after7_v172 (W14 m ρ c)
theorem V15_v173 (c : Dev nD) : V15 m ρ c main_v173 = kRow256 (kVec2 (m ((c : Thread nD τ).loc main_arg10))) :=
  (after7_v173 (W14 m ρ c)).trans (congrArg kRow256 (W14_v154 m ρ c))
theorem V15_v174 (c : Dev nD) : V15 m ρ c main_v174 = kRow256 (kVec2 (m ((c : Thread nD τ).loc main_arg11))) :=
  (after7_v174 (W14 m ρ c)).trans (congrArg kRow256 (W14_v156 m ρ c))

/-! ## Region 8 reads: the aggregated features, the features, two weight matrices, the shift row -/

theorem V17_v190 (c : Dev nD) : V17 m ρ c main_v190 = kAgg256 (V16 m ρ c main_v175) (kSrc (m ((c : Thread nD τ).loc main_arg1))) (kDst (m ((c : Thread nD τ).loc main_arg1))) (kDegInv (kDst (m ((c : Thread nD τ).loc main_arg1)))) :=
  (after8_v190 (W16 m ρ c)).trans (by rw [W16_v1 m ρ c, W16_v3 m ρ c, W16_v11 m ρ c])
theorem V17_v175 (c : Dev nD) : V17 m ρ c main_v175 = V16 m ρ c main_v175 :=
  W17_keep m ρ c main_v175 (by decide)
theorem V17_arg12 (c : Dev nD) : V17 m ρ c main_arg12 = (m ((c : Thread nD τ).loc main_arg12)) :=
  W17_arg12 m ρ c
theorem V17_arg14 (c : Dev nD) : V17 m ρ c main_arg14 = (m ((c : Thread nD τ).loc main_arg14)) :=
  W17_arg14 m ρ c
theorem V17_v191 (c : Dev nD) : V17 m ρ c main_v191 = kRow128 (m ((c : Thread nD τ).loc main_arg13)) :=
  (after8_v191 (W16 m ρ c)).trans (congrArg kRow128 (W16_arg13 m ρ c))

/-! ## Region 9 reads: region 8's pre-normalisation array, the batch mean and variance, the scale and shift rows, the two head matrices and their shift rows -/

theorem V19_v192_0 (c : Dev nD) : V19 m ρ c main_v192_0 = V18 m ρ c main_v192_0 :=
  W19_keep m ρ c main_v192_0 (by decide)
theorem V19_v205 (c : Dev nD) : V19 m ρ c main_v205 = kMean128 (V18 m ρ c main_v192_1) :=
  after9_v205 (W18 m ρ c)
theorem V19_v206 (c : Dev nD) : V19 m ρ c main_v206 = kVar128 (V18 m ρ c main_v192_1) (V18 m ρ c main_v192_2) :=
  after9_v206 (W18 m ρ c)
theorem V19_v207 (c : Dev nD) : V19 m ρ c main_v207 = kRow128 (m ((c : Thread nD τ).loc main_arg15)) :=
  (after9_v207 (W18 m ρ c)).trans (congrArg kRow128 (W18_arg15 m ρ c))
theorem V19_v208 (c : Dev nD) : V19 m ρ c main_v208 = kRow128 (m ((c : Thread nD τ).loc main_arg16)) :=
  (after9_v208 (W18 m ρ c)).trans (congrArg kRow128 (W18_arg16 m ρ c))
theorem V19_arg17 (c : Dev nD) : V19 m ρ c main_arg17 = (m ((c : Thread nD τ).loc main_arg17)) :=
  W19_arg17 m ρ c
theorem V19_v209 (c : Dev nD) : V19 m ρ c main_v209 = kRow64 (m ((c : Thread nD τ).loc main_arg18)) :=
  (after9_v209 (W18 m ρ c)).trans (congrArg kRow64 (W18_arg18 m ρ c))
theorem V19_arg19 (c : Dev nD) : V19 m ρ c main_arg19 = (m ((c : Thread nD τ).loc main_arg19)) :=
  W19_arg19 m ρ c
theorem V19_v210 (c : Dev nD) : V19 m ρ c main_v210 = kRow1 (m ((c : Thread nD τ).loc main_arg20)) :=
  (after9_v210 (W18 m ρ c)).trans (congrArg kRow1 (W18_arg20 m ρ c))

/-! ## The result: the last region's single output column, as a vector -/

theorem W21_v212 (c : Dev nD) : W21 m ρ c main_v212 = kOut (V20 m ρ c main_v211) :=
  after10_v212 (W20 m ρ c)

end Cert.KernelIdeal.KHost

end
-- ==== Proof.KSageSpec.lean ====
/-
  One dense layer with row normalisation, as a function of whole arrays, and the operations of a row block read at an index.

  For a feature matrix with rows of length Hin, two weight matrices Hin × Hout and a bias row, row i of the linear
  part is agg_i · wl + x_i · wr + bl, and the layer's value is that row divided by the larger of its Euclidean
  length and a fixed positive threshold. Both depend on row i of the two feature matrices alone, which is why a
  block of rows of the result is the same function of the same block of rows of the inputs. The second half reads
  the vector operations such a computation is made of at one index: a product of an R × K by a K × C matrix into a
  zero accumulator is the K-term sum of products; a sum along the second axis of an R × C matrix is the C-term sum
  of a row, one along the first axis the R-term sum of a column; the reshapes between a vector and a one-column or
  one-row matrix keep the entry; a one-column matrix spread over C columns repeats its entry along the row.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KSage

open Idealize.ShloMosaic Idealize.ShloMosaic.ValueIdx

/-! ## The layer on one row -/

/-- The threshold under the row length: the f32 word nearest to 1e-12. -/
def eps : EReal := Ideal.ofBits .f32 0x2B8CBCCC#32

/-- Entry j of a · wl + x · wr + bl for one row a of the aggregated features and one row x of the features. -/
def linRow {Hin Hout : ℕ} (a x : Fin Hin → EReal) (wl wr : (⟨2, ![Hin, Hout]⟩ : Shape).Idx → EReal)
    (bl : (⟨2, ![1, Hout]⟩ : Shape).Idx → EReal) (j : Fin Hout) : EReal :=
  (∑ k : Fin Hin, a k * wl (ix2 k j)) + (∑ k : Fin Hin, x k * wr (ix2 k j)) + bl (ix2 (0 : Fin 1) j)

/-- The row's Euclidean length, bounded below by the threshold. -/
def nrmRow {Hin Hout : ℕ} (a x : Fin Hin → EReal) (wl wr : (⟨2, ![Hin, Hout]⟩ : Shape).Idx → EReal)
    (bl : (⟨2, ![1, Hout]⟩ : Shape).Idx → EReal) : EReal :=
  max (Ideal.sqrt (∑ j : Fin Hout, linRow a x wl wr bl j * linRow a x wl wr bl j)) eps

/-- Entry j of the normalised row. -/
def preRow {Hin Hout : ℕ} (a x : Fin Hin → EReal) (wl wr : (⟨2, ![Hin, Hout]⟩ : Shape).Idx → EReal)
    (bl : (⟨2, ![1, Hout]⟩ : Shape).Idx → EReal) (j : Fin Hout) : EReal :=
  Ideal.div (linRow a x wl wr bl j) (nrmRow a x wl wr bl)

/-! ## The layer on a matrix of rows -/

/-- Row i of a matrix. -/
def rowOf {R C : ℕ} (A : (⟨2, ![R, C]⟩ : Shape).Idx → EReal) (i : Fin R) : Fin C → EReal := fun k => A (ix2 i k)

/-- Entry (i, j) of the linear part. -/
def lin {R Hin Hout : ℕ} (agg x : (⟨2, ![R, Hin]⟩ : Shape).Idx → EReal) (wl wr : (⟨2, ![Hin, Hout]⟩ : Shape).Idx → EReal)
    (bl : (⟨2, ![1, Hout]⟩ : Shape).Idx → EReal) (i : Fin R) (j : Fin Hout) : EReal :=
  linRow (rowOf agg i) (rowOf x i) wl wr bl j

/-- Entry (i, j) of the normalised layer. -/
def pre {R Hin Hout : ℕ} (agg x : (⟨2, ![R, Hin]⟩ : Shape).Idx → EReal) (wl wr : (⟨2, ![Hin, Hout]⟩ : Shape).Idx → EReal)
    (bl : (⟨2, ![1, Hout]⟩ : Shape).Idx → EReal) (i : Fin R) (j : Fin Hout) : EReal :=
  preRow (rowOf agg i) (rowOf x i) wl wr bl j

/-- The linear part written out: two Hin-term sums of products and the bias. -/
theorem lin_eq {R Hin Hout : ℕ} (agg x : (⟨2, ![R, Hin]⟩ : Shape).Idx → EReal) (wl wr : (⟨2, ![Hin, Hout]⟩ : Shape).Idx → EReal)
    (bl : (⟨2, ![1, Hout]⟩ : Shape).Idx → EReal) (i : Fin R) (j : Fin Hout) :
    lin agg x wl wr bl i j
      = (∑ k : Fin Hin, agg (ix2 i k) * wl (ix2 k j)) + (∑ k : Fin Hin, x (ix2 i k) * wr (ix2 k j)) + bl (ix2 (0 : Fin 1) j) := rfl

/-- The normalised layer written out: the linear part over the bounded row length. -/
theorem pre_eq {R Hin Hout : ℕ} (agg x : (⟨2, ![R, Hin]⟩ : Shape).Idx → EReal) (wl wr : (⟨2, ![Hin, Hout]⟩ : Shape).Idx → EReal)
    (bl : (⟨2, ![1, Hout]⟩ : Shape).Idx → EReal) (i : Fin R) (j : Fin Hout) :
    pre agg x wl wr bl i j
      = Ideal.div (lin agg x wl wr bl i j)
          (max (Ideal.sqrt (∑ j' : Fin Hout, lin agg x wl wr bl i j' * lin agg x wl wr bl i j')) eps) := rfl

/-- The whole layer as an array. -/
def preArr {R Hin Hout : ℕ} (agg x : (⟨2, ![R, Hin]⟩ : Shape).Idx → EReal) (wl wr : (⟨2, ![Hin, Hout]⟩ : Shape).Idx → EReal)
    (bl : (⟨2, ![1, Hout]⟩ : Shape).Idx → EReal) : (⟨2, ![R, Hout]⟩ : Shape).Idx → EReal :=
  fun y => pre agg x wl wr bl (y 0) (y 1)

theorem preArr_ix2 {R Hin Hout : ℕ} (agg x : (⟨2, ![R, Hin]⟩ : Shape).Idx → EReal) (wl wr : (⟨2, ![Hin, Hout]⟩ : Shape).Idx → EReal)
    (bl : (⟨2, ![1, Hout]⟩ : Shape).Idx → EReal) (i : Fin R) (j : Fin Hout) :
    preArr agg x wl wr bl (ix2 i j) = pre agg x wl wr bl i j := rfl

/-- A block of rows computes the same rows: if row r of the block is row i of the matrix for both feature
    matrices, the layer's row r of the block is the layer's row i of the matrix. -/
theorem pre_of_rows {R R' Hin Hout : ℕ} (agg x : (⟨2, ![R, Hin]⟩ : Shape).Idx → EReal) (agg' x' : (⟨2, ![R', Hin]⟩ : Shape).Idx → EReal)
    (wl wr : (⟨2, ![Hin, Hout]⟩ : Shape).Idx → EReal) (bl : (⟨2, ![1, Hout]⟩ : Shape).Idx → EReal) (r : Fin R) (i : Fin R')
    (ha : ∀ k : Fin Hin, agg (ix2 r k) = agg' (ix2 i k)) (hx : ∀ k : Fin Hin, x (ix2 r k) = x' (ix2 i k)) (j : Fin Hout) :
    pre agg x wl wr bl r j = pre agg' x' wl wr bl i j := by
  unfold pre
  rw [show rowOf agg r = rowOf agg' i from funext ha, show rowOf x r = rowOf x' i from funext hx]

/-! ## The sums over a block of rows -/

/-- Entry (b, 0, j) of the block sums: the sum over the B rows of block b, named by rows b, of a function of a row
    and a column. -/
def blockSums {R nB B Hout : ℕ} (rows : Fin nB → Fin B → Fin R) (f : Fin R → Fin Hout → EReal) :
    (⟨3, ![nB, 1, Hout]⟩ : Shape).Idx → EReal :=
  fun y => ∑ r : Fin B, f (rows (y 0) r) (y 2)

theorem blockSums_ix3 {R nB B Hout : ℕ} (rows : Fin nB → Fin B → Fin R) (f : Fin R → Fin Hout → EReal)
    (b : Fin nB) (u : Fin 1) (j : Fin Hout) : blockSums rows f (ix3 b u j) = ∑ r : Fin B, f (rows b r) j := rfl

/-- The layer's column sums inside each block of rows. -/
def sumArr {R nB B Hin Hout : ℕ} (rows : Fin nB → Fin B → Fin R) (agg x : (⟨2, ![R, Hin]⟩ : Shape).Idx → EReal)
    (wl wr : (⟨2, ![Hin, Hout]⟩ : Shape).Idx → EReal) (bl : (⟨2, ![1, Hout]⟩ : Shape).Idx → EReal) :
    (⟨3, ![nB, 1, Hout]⟩ : Shape).Idx → EReal :=
  blockSums rows (pre agg x wl wr bl)

/-- The column sums of the layer's squares inside each block of rows. -/
def sqArr {R nB B Hin Hout : ℕ} (rows : Fin nB → Fin B → Fin R) (agg x : (⟨2, ![R, Hin]⟩ : Shape).Idx → EReal)
    (wl wr : (⟨2, ![Hin, Hout]⟩ : Shape).Idx → EReal) (bl : (⟨2, ![1, Hout]⟩ : Shape).Idx → EReal) :
    (⟨3, ![nB, 1, Hout]⟩ : Shape).Idx → EReal :=
  blockSums rows fun i j => pre agg x wl wr bl i j * pre agg x wl wr bl i j

/-- Row 4000·b + r of the 100000 rows: row r of the b-th of the 25 blocks. -/
def rowAt (b : Fin 25) (r : Fin 4000) : Fin 100000 := ⟨4000 * b.val + r.val, by have := b.isLt; have := r.isLt; omega⟩

theorem rowAt_val (b : Fin 25) (r : Fin 4000) : (rowAt b r).val = 4000 * b.val + r.val := rfl

end Cert.KernelIdeal.KSage

end
-- ==== Proof.KBnSpec.lean ====
import proofs.«169498_j72670846649171_2_alg».proof.KernelIdeal
import Idealize.ShloMosaic.Lib.ValueIdx

/-! Batch normalisation followed by ReLU, as one function of whole arrays.

For a [100000, 256] array `pre` and four [1, 256] rows `mean`, `var`, `gamma`, `beta`, the entry at
row `p`, lane `q` is `max ((pre p q - mean q) * rsqrt (var q + ε) * gamma q + beta q) 0` over the
extended reals, with ε the literal the kernel carries. Every entry depends on its own entry of
`pre` and on lane `q` of the four rows only. -/

noncomputable section

namespace Cert.KernelIdeal.KBn

open Cert.KernelIdeal Idealize.ShloMosaic Idealize.ShloMosaic.ValueIdx

/-- The normalised, scaled, shifted and clamped entry at every index of the [100000, 256] array. -/
def bnRelu (pre : S100000x256.Idx → EReal) (mean var gamma beta : S1x256.Idx → EReal) : S100000x256.Idx → EReal :=
  fun i => max (((pre i - mean (@ix2 1 256 0 ⟨(i 1).val, idx2_lt1 i⟩))
      * Ideal.rsqrt (var (@ix2 1 256 0 ⟨(i 1).val, idx2_lt1 i⟩) + Ideal.ofBits .f32 0x3727C5AC#32))
      * gamma (@ix2 1 256 0 ⟨(i 1).val, idx2_lt1 i⟩) + beta (@ix2 1 256 0 ⟨(i 1).val, idx2_lt1 i⟩))
    (Ideal.ofBits .f32 0x00000000#32)

/-- The same entry with the index given by its row and lane. -/
theorem bnRelu_ix2 (pre : S100000x256.Idx → EReal) (mean var gamma beta : S1x256.Idx → EReal) (p : Fin 100000) (q : Fin 256) :
    bnRelu pre mean var gamma beta (ix2 p q)
      = max (((pre (ix2 p q) - mean (ix2 (0 : Fin 1) q)) * Ideal.rsqrt (var (ix2 (0 : Fin 1) q) + Ideal.ofBits .f32 0x3727C5AC#32))
          * gamma (ix2 (0 : Fin 1) q) + beta (ix2 (0 : Fin 1) q)) (Ideal.ofBits .f32 0x00000000#32) := rfl

end Cert.KernelIdeal.KBn

end
-- ==== Proof.KHeadSpec.lean ====
import proofs.«169498_j72670846649171_2_alg».proof.KernelIdeal
import Idealize.ShloMosaic.Lib.ValueIdx

/-! The last layer's batch normalisation fused with the two-layer head, as one function of whole arrays.

Row `r` of the [100000, 128] array `pre` is normalised lane by lane with the four [1, 128] rows
`mean`, `var`, `gamma`, `beta` (no clamp), mapped through the [128, 64] matrix `cw1` plus the row
`cb1`, clamped below at zero, and mapped through the [64, 1] matrix `cw2` plus `cb2`. Each output row
depends on its own row of `pre` only. -/

noncomputable section

namespace Cert.KernelIdeal.KHead

open Cert.KernelIdeal Idealize.ShloMosaic Idealize.ShloMosaic.ValueIdx
open scoped BigOperators

/-- The normalised entry of row `r`, lane `k`: the entry less the lane's mean, times the reciprocal
    square root of the lane's variance plus ε, times the lane's scale, plus the lane's shift. -/
def bnAt (pre : S100000x128.Idx → EReal) (mean var gamma beta : S1x128.Idx → EReal) (r : Fin 100000) (k : Fin 128) : EReal :=
  ((pre (ix2 r k) - mean (ix2 (0 : Fin 1) k)) * Ideal.rsqrt (var (ix2 (0 : Fin 1) k) + Ideal.ofBits .f32 0x3727C5AC#32))
    * gamma (ix2 (0 : Fin 1) k) + beta (ix2 (0 : Fin 1) k)

/-- The head on one normalised row: a 128-to-64 affine map, a clamp below at zero, a 64-to-1 affine map. -/
def headRow (pre : S100000x128.Idx → EReal) (mean var gamma beta : S1x128.Idx → EReal)
    (cw1 : S128x64.Idx → EReal) (cb1 : S1x64.Idx → EReal) (cw2 : S64x1.Idx → EReal) (cb2 : S1x1.Idx → EReal)
    (r : Fin 100000) (c : Fin 1) : EReal :=
  (∑ n : Fin 64, max ((∑ k : Fin 128, bnAt pre mean var gamma beta r k * cw1 (ix2 k n)) + cb1 (ix2 (0 : Fin 1) n))
      (Ideal.ofBits .f32 0x00000000#32) * cw2 (ix2 n c)) + cb2 (ix2 (0 : Fin 1) c)

/-- The [100000, 1] array of the head's values, row by row. -/
def bnHead (pre : S100000x128.Idx → EReal) (mean var gamma beta : S1x128.Idx → EReal)
    (cw1 : S128x64.Idx → EReal) (cb1 : S1x64.Idx → EReal) (cw2 : S64x1.Idx → EReal) (cb2 : S1x1.Idx → EReal) :
    S100000x1.Idx → EReal :=
  fun i => headRow pre mean var gamma beta cw1 cb1 cw2 cb2 ⟨(i 0).val, idx2_lt0 i⟩ ⟨(i 1).val, idx2_lt1 i⟩

theorem bnHead_ix2 (pre : S100000x128.Idx → EReal) (mean var gamma beta : S1x128.Idx → EReal)
    (cw1 : S128x64.Idx → EReal) (cb1 : S1x64.Idx → EReal) (cw2 : S64x1.Idx → EReal) (cb2 : S1x1.Idx → EReal)
    (r : Fin 100000) (c : Fin 1) :
    bnHead pre mean var gamma beta cw1 cb1 cw2 cb2 (ix2 r c) = headRow pre mean var gamma beta cw1 cb1 cw2 cb2 r c := rfl

end Cert.KernelIdeal.KHead

end
-- ==== Proof.KNet.lean ====
/-
  The kernel program's network as named functions of its argument arrays, on the extended reals: a layer is the
  neighbourhood mean (host), the row-normalised linear map with its per-block column sums (first kernel of the
  layer), the column mean and clamped variance out of those sums (host), and the standardise-and-rectify step
  (second kernel); the last layer's standardise step is fused with the two-layer head, whose single output column is
  then dropped (host).
-/
import proofs.«169498_j72670846649171_2_alg».proof.Proof.KHostDefs
import proofs.«169498_j72670846649171_2_alg».proof.Proof.KSageSpec
import proofs.«169498_j72670846649171_2_alg».proof.Proof.KBnSpec
import proofs.«169498_j72670846649171_2_alg».proof.Proof.KHeadSpec

noncomputable section

namespace Cert.KernelIdeal.KNet

open Idealize.ShloMosaic Cert.KernelIdeal Cert.KernelIdeal.KHost Cert.KernelIdeal.KSage Cert.KernelIdeal.KBn Cert.KernelIdeal.KHead

/-- Extended-real arrays of a shape. -/
abbrev Arr (S : Shape) : Type := S.Idx → EReal

/-- The neighbourhood mean of 12-wide features. -/
def kA12 (x : Arr S100000x12) (e : IVec S2x800000 32) : Arr S100000x12 :=
  kAgg12 (F := Ideal) x (kSrc e) (kDst e) (kDegInv (F := Ideal) (kDst e))

/-- The neighbourhood mean of 256-wide features. -/
def kA256 (h : Arr S100000x256) (e : IVec S2x800000 32) : Arr S100000x256 :=
  kAgg256 (F := Ideal) h (kSrc e) (kDst e) (kDegInv (F := Ideal) (kDst e))

/-- Layer 0: 12 features to 256. -/
def kLayer0 (x : Arr S100000x12) (e : IVec S2x800000 32) (wl : Arr S12x256) (bl : Arr S256) (wr : Arr S12x256) (g b : Arr S256) :
    Arr S100000x256 :=
  bnRelu (preArr (R := 100000) (kA12 x e) x wl wr (kRow256 (F := Ideal) bl))
    (kMean256 (F := Ideal) (sumArr (R := 100000) rowAt (kA12 x e) x wl wr (kRow256 (F := Ideal) bl)))
    (kVar256 (F := Ideal) (sumArr (R := 100000) rowAt (kA12 x e) x wl wr (kRow256 (F := Ideal) bl))
      (sqArr (R := 100000) rowAt (kA12 x e) x wl wr (kRow256 (F := Ideal) bl)))
    (kRow256 (F := Ideal) g) (kRow256 (F := Ideal) b)

/-- A middle layer: 256 features to 256. -/
def kLayer256 (h : Arr S100000x256) (e : IVec S2x800000 32) (wl : Arr S256x256) (bl : Arr S256) (wr : Arr S256x256) (g b : Arr S256) :
    Arr S100000x256 :=
  bnRelu (preArr (R := 100000) (kA256 h e) h wl wr (kRow256 (F := Ideal) bl))
    (kMean256 (F := Ideal) (sumArr (R := 100000) rowAt (kA256 h e) h wl wr (kRow256 (F := Ideal) bl)))
    (kVar256 (F := Ideal) (sumArr (R := 100000) rowAt (kA256 h e) h wl wr (kRow256 (F := Ideal) bl))
      (sqArr (R := 100000) rowAt (kA256 h e) h wl wr (kRow256 (F := Ideal) bl)))
    (kRow256 (F := Ideal) g) (kRow256 (F := Ideal) b)

/-- The last layer (256 features to 128, no rectifier) fused with the head, and the output column dropped. -/
def kTail (h : Arr S100000x256) (e : IVec S2x800000 32) (wl : Arr S256x128) (bl : Arr S128) (wr : Arr S256x128) (g b : Arr S128)
    (cw1 : Arr S128x64) (cb1 : Arr S64) (cw2 : Arr S64x1) (cb2 : Arr S1) : Arr S100000 :=
  kOut (F := Ideal)
    (bnHead (preArr (R := 100000) (kA256 h e) h wl wr (kRow128 (F := Ideal) bl))
      (kMean128 (F := Ideal) (sumArr (R := 100000) rowAt (kA256 h e) h wl wr (kRow128 (F := Ideal) bl)))
      (kVar128 (F := Ideal) (sumArr (R := 100000) rowAt (kA256 h e) h wl wr (kRow128 (F := Ideal) bl))
        (sqArr (R := 100000) rowAt (kA256 h e) h wl wr (kRow128 (F := Ideal) bl)))
      (kRow128 (F := Ideal) g) (kRow128 (F := Ideal) b) cw1 (kRow64 (F := Ideal) cb1) cw2 (kRow1 (F := Ideal) cb2))

/-- The whole kernel-side network. -/
def kNet (x : Arr S100000x12) (e : IVec S2x800000 32) (wl0 : Arr S12x256) (bl0 : Arr S256) (wr0 : Arr S12x256) (g0 be0 : Arr S256)
    (wlm : Arr S3x256x256) (blm : Arr S3x256) (wrm : Arr S3x256x256) (gm bem : Arr S3x256)
    (wl4 : Arr S256x128) (bl4 : Arr S128) (wr4 : Arr S256x128) (g4 be4 : Arr S128)
    (cw1 : Arr S128x64) (cb1 : Arr S64) (cw2 : Arr S64x1) (cb2 : Arr S1) : Arr S100000 :=
  let h0 := kLayer0 x e wl0 bl0 wr0 g0 be0
  let h1 := kLayer256 h0 e (kMat0 (F := Ideal) wlm) (kVec0 (F := Ideal) blm) (kMat0 (F := Ideal) wrm) (kVec0 (F := Ideal) gm) (kVec0 (F := Ideal) bem)
  let h2 := kLayer256 h1 e (kMat1 (F := Ideal) wlm) (kVec1 (F := Ideal) blm) (kMat1 (F := Ideal) wrm) (kVec1 (F := Ideal) gm) (kVec1 (F := Ideal) bem)
  let h3 := kLayer256 h2 e (kMat2 (F := Ideal) wlm) (kVec2 (F := Ideal) blm) (kMat2 (F := Ideal) wrm) (kVec2 (F := Ideal) gm) (kVec2 (F := Ideal) bem)
  kTail h3 e wl4 bl4 wr4 g4 be4 cw1 cb1 cw2 cb2

end Cert.KernelIdeal.KNet

end
-- ==== Proof.KSageOps.lean ====
/-
  The vector operations of a dense row-block computation, read at one index of their result, over the extended reals.

  A product of an R × K matrix by a K × C matrix accumulated into zero is, at (p, q), the K-term sum of the products
  of row p of the first by column q of the second. A sum along the second axis of an R × C matrix is, at row r, the
  C-term sum of that row; a sum along the first axis is, at column c, the R-term sum of that column. Reshaping a
  vector into a one-column matrix, or into a 1 × 1 × C array, keeps each entry, and spreading a one-column matrix
  over C columns repeats each row's entry along the row.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KSage

open Idealize.ShloMosaic Idealize.ShloMosaic.ValueIdx

/-! ## A matrix product into a zero accumulator -/

section Matmul
variable {R K C : ℕ}

/-- On the first operand's row axis the operand index is the result's row. -/
theorem lhsIdx_row (D : DotDims ⟨2, ![R, K]⟩ ⟨2, ![K, C]⟩ ⟨2, ![R, C]⟩) (hlb : D.lhsBatch = [])
    (hln : D.lhsNonContracting = [0]) (j : (⟨2, ![R, C]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![R, C]⟩ : Shape).rank) (hb : b < (⟨2, ![R, C]⟩ : Shape).rank), a = b →
      (j ⟨a, ha⟩).val = (j ⟨b, hb⟩).val := fun a b ha hb h => by subst h; rfl
  exact key _ _ _ _ (by simp [hlb, hln])

/-- On the second operand's column axis the operand index is the result's column. -/
theorem rhsIdx_col (D : DotDims ⟨2, ![R, K]⟩ ⟨2, ![K, C]⟩ ⟨2, ![R, C]⟩) (hlb : D.lhsBatch = []) (hrb : D.rhsBatch = [])
    (hln : D.lhsNonContracting = [0]) (hrn : D.rhsNonContracting = [1]) (j : (⟨2, ![R, C]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![R, C]⟩ : Shape).rank) (hb : b < (⟨2, ![R, C]⟩ : Shape).rank), a = b →
      (j ⟨a, ha⟩).val = (j ⟨b, hb⟩).val := fun a b ha hb h => by subst h; rfl
  exact key _ _ _ _ (by simp [hlb, hln, hrn])

/-- A rows-by-columns product into the zero accumulator, at (p, q): the sum over the shared axis of the products. -/
theorem matmul_zero_ix2 {φ₁ φ₂ : FTy} (D : DotDims ⟨2, ![R, K]⟩ ⟨2, ![K, C]⟩ ⟨2, ![R, C]⟩)
    (hlc : D.lhsContracting = [1]) (hrc : D.rhsContracting = [0]) (hlb : D.lhsBatch = []) (hrb : D.rhsBatch = [])
    (hln : D.lhsNonContracting = [0]) (hrn : D.rhsNonContracting = [1])
    (prec : Option ContractPrecision) (lhs : FVec Ideal ⟨2, ![R, K]⟩ φ₁) (rhs : FVec Ideal ⟨2, ![K, C]⟩ φ₂)
    (p : Fin R) (q : Fin C) :
    matmul D prec lhs rhs (constant (F := Ideal) ⟨2, ![R, C]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have e := D.size_contr 0 (by rw [hlc]; exact Nat.one_pos)
    rw [e]
    simp [hlc]
  show FloatOps.matmul D prec lhs rhs (constant (F := Ideal) ⟨2, ![R, C]⟩ .f32 0x00000000#32) (ix2 p q) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_col D hlb hrb hln hrn _ _)
  rw [el, er]

end Matmul

/-! ## Sums along one axis of a matrix -/

section Sums
variable {R C : ℕ} {φ : FTy}

/-- The sum along the second axis, at row r: the sum of the row's C entries. -/
theorem sumLanes_ix1 (src : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (r : Fin R) :
    multiReduction .add [1] ⟨1, ![R]⟩ src acc h hφ hacc (ix1 r) = ∑ k : Fin C, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The sum along the first axis, at column c: the sum of the column's R entries. -/
theorem sumRows_ix1 (src : FVec Ideal ⟨2, ![R, C]⟩ φ) (acc : BitVec φ.bits)
    (h : (⟨2, ![R, C]⟩ : Shape).Reduces [0] ⟨1, ![C]⟩) (hφ : FKind.Formats φ) (hacc : acc = FKind.add.neutral φ hφ) (c : Fin C) :
    multiReduction .add [0] ⟨1, ![C]⟩ src acc h hφ hacc (ix1 c) = ∑ r : Fin R, src (ix2 r c) := by
  refine (Ideal.multiReduction_add_single src acc h hφ hacc (ix1 c)).trans ?_
  refine Finset.sum_congr rfl fun k _ => congrArg src (funext fun a => Fin.ext ?_)
  match a with
  | ⟨0, _⟩ => rfl
  | ⟨1, _⟩ => rfl

end Sums

/-! ## Reshapes and a column spread along rows -/

section Layout
variable {α : Type}

/-- A vector of a entries as a one-column matrix: entry (i, 0) is entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector of a entries as a 1 × 1 × a array: entry (0, 0, i) is entry i. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A one-column matrix spread over b columns: entry (p, c) is the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

end Cert.KernelIdeal.KSage

end
-- ==== Proof.KSage0Pay.lean ====
/-
  Layer block 0 of the network (feature width 12 to 256): what one row block of 4000 rows computes, entry by entry.

  The body forms agg · wl + x · wr + bl on the block's rows, divides each row by the larger of its Euclidean length
  and the threshold, stores that block, and stores the column sums of the block and of its squares. Read at an
  index over the extended reals (where a change of float format is the identity) these are the specification's
  normalised layer on the block's rows and its two 4000-term column sums. Since a row of the layer depends on the
  same row of the two feature matrices only, the block of point b agrees with rows 4000·b … 4000·b + 3999 of the
  whole-array function, and the two sums with its block sums at block b.
-/
import proofs.«169498_j72670846649171_2_alg».proof.Proof.Gen.KernelIdeal.Skeleton
import proofs.«169498_j72670846649171_2_alg».proof.Proof.KSageSpec
import proofs.«169498_j72670846649171_2_alg».proof.Proof.KSageOps

noncomputable section

open scoped BigOperators

namespace Cert.KernelIdeal.KSage

open Idealize.ShloMosaic Idealize.ShloMosaic.ValueIdx
open Cert.KernelIdeal Cert.KernelIdeal.Gen

/-! ## Region 0: the body's values at an index -/

/-- The linear part of one block of 4000 rows, as the body computes it: two matrix products into zero
    accumulators, added, plus the bias row spread over the rows. -/
def lin0 (a x : FVec Ideal S4000x12 .f32) (wl wr : FVec Ideal S12x256 .f32) (bl : FVec Ideal S1x256 .f32) : FVec Ideal S4000x256 .f32 :=
  addf (addf (matmul dot_S4000x12_S12x256_S4000x256_1_0_0_1_n_n none (truncf .bf16 a bitsLt_bf16_f32) (truncf .bf16 wl bitsLt_bf16_f32) (constant S4000x256 .f32 0x00000000#32))
      (matmul dot_S4000x12_S12x256_S4000x256_1_0_0_1_n_n none (truncf .bf16 x bitsLt_bf16_f32) (truncf .bf16 wr bitsLt_bf16_f32) (constant S4000x256 .f32 0x00000000#32)))
    (broadcastTo S4000x256 bl broadcasts_S1x256_S4000x256)

/-- At (p, q) it is the linear part of the specification on the block's rows: the format changes are the identity
    on extended reals. -/
theorem lin0_ix2 (a x : FVec Ideal S4000x12 .f32) (wl wr : FVec Ideal S12x256 .f32) (bl : FVec Ideal S1x256 .f32) (p : Fin 4000) (q : Fin 256) :
    lin0 a x wl wr bl (ix2 p q) = lin a x wl wr bl p q := by
  unfold lin0
  rw [addf_apply, addf_apply, matmul_zero_ix2 _ rfl rfl rfl rfl rfl rfl, matmul_zero_ix2 _ rfl rfl rfl rfl rfl rfl,
    broadcastTo_1b_ab_apply]
  rfl

/-- The body's quotient: the linear part over the row length bounded below, with the identity reshapes removed. -/
theorem k0_pay1_eq (a x : FVec Ideal S4000x12 .f32) (wl wr : FVec Ideal S12x256 .f32) (bl : FVec Ideal S1x256 .f32) :
    k0_pay1 a x wl wr bl
      = divf (lin0 a x wl wr bl)
          (broadcastTo S4000x256
            (maximumf
              (sqrt (shapeCast S4000x1
                (multiReduction .add [1] S4000 (mulf (lin0 a x wl wr bl) (lin0 a x wl wr bl)) 0x00000000#32
                  reduces_S4000x256_S4000 (.inl rfl) rfl) shapeCasts_S4000_S4000x1))
              (broadcast S4000x1 (Scalar.ofBits .f32 0x2B8CBCCC#32)))
            broadcasts_S4000x1_S4000x256) := by
  unfold k0_pay1 lin0
  simp only [shapeCast_self]

/-- The quotient at (p, q) is the normalised layer of the block's rows. -/
theorem k0_pay1_ix2 (a x : FVec Ideal S4000x12 .f32) (wl wr : FVec Ideal S12x256 .f32) (bl : FVec Ideal S1x256 .f32) (p : Fin 4000) (q : Fin 256) :
    k0_pay1 (F := Ideal) a x wl wr bl (ix2 p q) = pre a x wl wr bl p q := by
  rw [k0_pay1_eq, divf_apply, broadcastTo_a1_ab_apply, maximumf_apply, broadcast_apply]
  show Ideal.div _ (max (Ideal.sqrt (shapeCast S4000x1 _ shapeCasts_S4000_S4000x1 (ix2 p (0 : Fin 1)))) _) = _
  rw [shapeCast_a_a1_apply]
  have hA : lin0 a x wl wr bl (ix2 p q) = lin a x wl wr bl p q := lin0_ix2 a x wl wr bl p q
  have hB : multiReduction .add [1] S4000 (mulf (lin0 a x wl wr bl) (lin0 a x wl wr bl)) 0x00000000#32
      reduces_S4000x256_S4000 (.inl rfl) rfl (ix1 p)
        = ∑ j : Fin 256, lin a x wl wr bl p j * lin a x wl wr bl p j :=
    (sumLanes_ix1 _ _ _ _ _ p).trans (Finset.sum_congr rfl fun j _ => by rw [mulf_apply, lin0_ix2])
  exact congrArg₂ Ideal.div hA (congrArg (fun s => max (Ideal.sqrt s) eps) hB)

/-- What the body stores in the layer's block: the normalised layer of the block's rows. -/
theorem k0_pay2_ix2 (a x : FVec Ideal S4000x12 .f32) (wl wr : FVec Ideal S12x256 .f32) (bl : FVec Ideal S1x256 .f32) (p : Fin 4000) (q : Fin 256) :
    k0_pay2 (F := Ideal) a x wl wr bl (ix2 p q) = pre a x wl wr bl p q :=
  k0_pay1_ix2 a x wl wr bl p q

/-- What the body stores in the block-sum window: the column sums of the block's 4000 normalised rows. -/
theorem k0_pay3_ix3 (a x : FVec Ideal S4000x12 .f32) (wl wr : FVec Ideal S12x256 .f32) (bl : FVec Ideal S1x256 .f32) (u v : Fin 1) (q : Fin 256) :
    k0_pay3 (F := Ideal) a x wl wr bl (ix3 u v q) = ∑ r : Fin 4000, pre a x wl wr bl r q := by
  unfold k0_pay3
  rw [shapeCast_a_11a_apply]
  refine (sumRows_ix1 _ _ _ _ _ q).trans ?_
  exact Finset.sum_congr rfl fun r _ => k0_pay1_ix2 a x wl wr bl r q

/-- What the body stores in the square-sum window: the column sums of the squares of the block's normalised rows. -/
theorem k0_pay4_ix3 (a x : FVec Ideal S4000x12 .f32) (wl wr : FVec Ideal S12x256 .f32) (bl : FVec Ideal S1x256 .f32) (u v : Fin 1) (q : Fin 256) :
    k0_pay4 (F := Ideal) a x wl wr bl (ix3 u v q) = ∑ r : Fin 4000, pre a x wl wr bl r q * pre a x wl wr bl r q := by
  unfold k0_pay4
  rw [shapeCast_a_11a_apply]
  refine (sumRows_ix1 _ _ _ _ _ q).trans ?_
  refine Finset.sum_congr rfl fun r _ => ?_
  rw [mulf_apply, k0_pay1_ix2]

/-! ## Region 0: one grid point's three stores against the whole arrays

The block of point b holds rows 4000·b … 4000·b + 3999 of the two feature arrays and the whole of the two weight
matrices and of the bias row. Then each entry the body stores is the entry of the whole-array function at the matching
index: same column, row 4000·b + r for the layer, block b for the two sums. -/

theorem point0_5 (A X : S100000x12.Idx → EReal) (WL WR : S12x256.Idx → EReal) (BL : S1x256.Idx → EReal) (b : Fin 25)
    (a x : FVec Ideal S4000x12 .f32) (wl wr : FVec Ideal S12x256 .f32) (bl : FVec Ideal S1x256 .f32)
    (ha : ∀ (r : Fin 4000) (k : Fin 12), a (ix2 r k) = A (ix2 (rowAt b r) k))
    (hx : ∀ (r : Fin 4000) (k : Fin 12), x (ix2 r k) = X (ix2 (rowAt b r) k))
    (hwl : wl = WL) (hwr : wr = WR) (hbl : bl = BL)
    (y : S4000x256.Idx) (i : S100000x256.Idx) (hi0 : (i 0).val = 4000 * b.val + (y 0).val) (hi1 : (i 1).val = (y 1).val) :
    k0_pay2 (F := Ideal) a x wl wr bl y = preArr A X WL WR BL i := by
  subst hwl hwr hbl
  obtain ⟨r, q, rfl⟩ : ∃ (r : Fin 4000) (q : Fin 256), y = ix2 r q := ⟨y 0, y 1, eq_ix2 y⟩
  obtain ⟨i0, i1, rfl⟩ : ∃ (i0 : Fin 100000) (i1 : Fin 256), i = ix2 i0 i1 := ⟨i 0, i 1, eq_ix2 i⟩
  obtain rfl : i0 = rowAt b r := Fin.ext hi0
  obtain rfl : i1 = q := Fin.ext hi1
  rw [k0_pay2_ix2, preArr_ix2]
  exact pre_of_rows a x A X wl wr bl r (rowAt b r) (ha r) (hx r) i1

theorem point0_6 (A X : S100000x12.Idx → EReal) (WL WR : S12x256.Idx → EReal) (BL : S1x256.Idx → EReal) (b : Fin 25)
    (a x : FVec Ideal S4000x12 .f32) (wl wr : FVec Ideal S12x256 .f32) (bl : FVec Ideal S1x256 .f32)
    (ha : ∀ (r : Fin 4000) (k : Fin 12), a (ix2 r k) = A (ix2 (rowAt b r) k))
    (hx : ∀ (r : Fin 4000) (k : Fin 12), x (ix2 r k) = X (ix2 (rowAt b r) k))
    (hwl : wl = WL) (hwr : wr = WR) (hbl : bl = BL)
    (y : S1x1x256.Idx) (i : S25x1x256.Idx) (hi0 : (i 0).val = b.val) (hi2 : (i 2).val = (y 2).val) :
    k0_pay3 (F := Ideal) a x wl wr bl y = sumArr rowAt A X WL WR BL i := by
  subst hwl hwr hbl
  obtain ⟨u, v, q, rfl⟩ : ∃ (u v : Fin 1) (q : Fin 256), y = ix3 u v q := ⟨y 0, y 1, y 2, eq_ix3 y⟩
  obtain ⟨i0, i1, i2, rfl⟩ : ∃ (i0 : Fin 25) (i1 : Fin 1) (i2 : Fin 256), i = ix3 i0 i1 i2 := ⟨i 0, i 1, i 2, eq_ix3 i⟩
  obtain rfl : i0 = b := Fin.ext hi0
  obtain rfl : i2 = q := Fin.ext hi2
  rw [k0_pay3_ix3]
  show _ = ∑ r : Fin 4000, pre A X wl wr bl (rowAt i0 r) i2
  exact Finset.sum_congr rfl fun r _ => pre_of_rows a x A X wl wr bl r (rowAt i0 r) (ha r) (hx r) i2

theorem point0_7 (A X : S100000x12.Idx → EReal) (WL WR : S12x256.Idx → EReal) (BL : S1x256.Idx → EReal) (b : Fin 25)
    (a x : FVec Ideal S4000x12 .f32) (wl wr : FVec Ideal S12x256 .f32) (bl : FVec Ideal S1x256 .f32)
    (ha : ∀ (r : Fin 4000) (k : Fin 12), a (ix2 r k) = A (ix2 (rowAt b r) k))
    (hx : ∀ (r : Fin 4000) (k : Fin 12), x (ix2 r k) = X (ix2 (rowAt b r) k))
    (hwl : wl = WL) (hwr : wr = WR) (hbl : bl = BL)
    (y : S1x1x256.Idx) (i : S25x1x256.Idx) (hi0 : (i 0).val = b.val) (hi2 : (i 2).val = (y 2).val) :
    k0_pay4 (F := Ideal) a x wl wr bl y = sqArr rowAt A X WL WR BL i := by
  subst hwl hwr hbl
  obtain ⟨u, v, q, rfl⟩ : ∃ (u v : Fin 1) (q : Fin 256), y = ix3 u v q := ⟨y 0, y 1, y 2, eq_ix3 y⟩
  obtain ⟨i0, i1, i2, rfl⟩ : ∃ (i0 : Fin 25) (i1 : Fin 1) (i2 : Fin 256), i = ix3 i0 i1 i2 := ⟨i 0, i 1, i 2, eq_ix3 i⟩
  obtain rfl : i0 = b := Fin.ext hi0
  obtain rfl : i2 = q := Fin.ext hi2
  rw [k0_pay4_ix3]
  show _ = ∑ r : Fin 4000, pre A X wl wr bl (rowAt i0 r) i2 * pre A X wl wr bl (rowAt i0 r) i2
  exact Finset.sum_congr rfl fun r _ => by rw [pre_of_rows a x A X wl wr bl r (rowAt i0 r) (ha r) (hx r) i2]

end Cert.KernelIdeal.KSage

end
-- ==== Proof.KSage0Arr.lean ====
/-
  Layer block 0 of the network (feature width 12 to 256): the three result arrays after the 25 grid points.

  Point t of the grid reads rows 4000·t … 4000·t + 3999 of the two feature arrays and the whole of the two weight
  matrices and of the bias row, and writes back block t of the layer's array and entry block t of the two arrays
  of sums. What it writes is the matching block of ONE function of the five whole input arrays — the normalised
  layer, its column sums inside each block of rows, and the column sums of its squares —, and the 25 blocks cover
  each result array, so after the last point each result array is that function.
-/
import proofs.«169498_j72670846649171_2_alg».proof.Proof.Gen.KernelIdeal.Frame
import proofs.«169498_j72670846649171_2_alg».proof.Proof.KSage0Pay
import Idealize.ShloMosaic.Lib.Pipeline.Value

noncomputable section

open scoped BigOperators

namespace Cert.KernelIdeal.KSage

open Idealize.ShloMosaic Idealize.ShloMosaic.TcCoe Idealize.ShloMosaic.ValueIdx Idealize.SL.Sem
open Idealize.ShloMosaic.Pipeline (Dat)
open Cert.KernelIdeal Cert.KernelIdeal.Gen

theorem hzero2_0 : (![0, 0] : Fin 2 → Nat) = fun _ => 0 := funext fun a => by fin_cases a <;> rfl
theorem hzero3_0 : (![0, 0, 0] : Fin 3 → Nat) = fun _ => 0 := funext fun a => by fin_cases a <;> rfl

variable (V : (c : Dev nD) → (b : Ref sig .tc) → Buf (Elt Ideal) ((c : Thread nD τ).loc b))

/-! ## Region 0: the three results as functions of the arrays the region finds -/

/-- The normalised layer of the region's five input arrays. -/
abbrev pre0 (c : Dev nD) : S100000x256.Idx → EReal :=
  preArr (R := 100000) (Hin := 12) (Hout := 256) (V c main_v24) (V c main_arg0) (V c main_arg2) (V c main_arg4) (V c main_v25)

/-- Its column sums inside each of the 25 blocks of 4000 rows. -/
abbrev sum0 (c : Dev nD) : S25x1x256.Idx → EReal :=
  sumArr (R := 100000) (nB := 25) (B := 4000) (Hin := 12) (Hout := 256) rowAt (V c main_v24) (V c main_arg0) (V c main_arg2) (V c main_arg4) (V c main_v25)

/-- The column sums of its squares inside each block. -/
abbrev sq0 (c : Dev nD) : S25x1x256.Idx → EReal :=
  sqArr (R := 100000) (nB := 25) (B := 4000) (Hin := 12) (Hout := 256) rowAt (V c main_v24) (V c main_arg0) (V c main_arg2) (V c main_arg4) (V c main_v25)

/-! ## The grid: point t works on block t -/

/-- A grid point as a block number. -/
def pt0 (t : Fin cfg0.N) : Fin 25 := ⟨t.val, lt_of_lt_of_eq t.isLt N_0⟩

/-- The block index of every window at every point, decided over the 25 points: the row-blocked windows sit at block
    (t, 0) or (t, 0, 0), the weights and the bias at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-! ## The input windows' blocks as parts of the arrays -/

/-- Window 0's block at point t is rows 4000·t … 4000·t + 3999 of the aggregated features. -/
theorem iblk0_0_apply (c : Dev nD) (t : Fin cfg0.N) (r : Fin 4000) (j : Fin 12) :
    (iblk0 V c 0 t : FVec Ideal S4000x12 .f32) (ix2 r j) = (V c main_v24 : S100000x12.Idx → EReal) (ix2 (rowAt (pt0 t) r) j) := by
  have e0 := (idx0 t).1
  have e1 := (idx0 t).2.1
  unfold iblk0
  rw [View.read_apply]
  show V c main_v24 _ = V c main_v24 _
  refine congrArg (V c main_v24) (funext fun a => Fin.ext ?_)
  match a with
  | ⟨0, _⟩ => show win0_0.index t (0 : Fin 2) * 4000 + 1 * r.val = 4000 * t.val + r.val; rw [e0]; omega
  | ⟨1, _⟩ => show win0_0.index t (1 : Fin 2) * 12 + 1 * j.val = j.val; rw [e1]; omega

/-- Window 1's block at point t is rows 4000·t … 4000·t + 3999 of the features. -/
theorem iblk0_1_apply (c : Dev nD) (t : Fin cfg0.N) (r : Fin 4000) (j : Fin 12) :
    (iblk0 V c 1 t : FVec Ideal S4000x12 .f32) (ix2 r j) = (V c main_arg0 : S100000x12.Idx → EReal) (ix2 (rowAt (pt0 t) r) j) := by
  have e0 := (idx0 t).2.2.1
  have e1 := (idx0 t).2.2.2.1
  unfold iblk0
  rw [View.read_apply]
  show V c main_arg0 _ = V c main_arg0 _
  refine congrArg (V c main_arg0) (funext fun a => Fin.ext ?_)
  match a with
  | ⟨0, _⟩ => show win0_1.index t (0 : Fin 2) * 4000 + 1 * r.val = 4000 * t.val + r.val; rw [e0]; omega
  | ⟨1, _⟩ => show win0_1.index t (1 : Fin 2) * 12 + 1 * j.val = j.val; rw [e1]; omega

/-- Window 2's block at every point is the whole of the first weight matrix. -/
theorem iblk0_2_eq (c : Dev nD) (t : Fin cfg0.N) :
    (iblk0 V c 2 t : FVec Ideal S12x256 .f32) = (V c main_arg2 : S12x256.Idx → EReal) := by
  have e0 := (idx0 t).2.2.2.2.1
  have e1 := (idx0 t).2.2.2.2.2.1
  funext y
  unfold iblk0
  rw [View.read_apply]
  show V c main_arg2 _ = V c main_arg2 y
  refine congrArg (V c main_arg2) (funext fun a => Fin.ext ?_)
  match a with
  | ⟨0, _⟩ => show win0_2.index t (0 : Fin 2) * 12 + 1 * (y 0).val = (y 0).val; rw [e0]; omega
  | ⟨1, _⟩ => show win0_2.index t (1 : Fin 2) * 256 + 1 * (y 1).val = (y 1).val; rw [e1]; omega

/-- Window 3's block at every point is the whole of the second weight matrix. -/
theorem iblk0_3_eq (c : Dev nD) (t : Fin cfg0.N) :
    (iblk0 V c 3 t : FVec Ideal S12x256 .f32) = (V c main_arg4 : S12x256.Idx → EReal) := by
  have e0 := (idx0 t).2.2.2.2.2.2.1
  have e1 := (idx0 t).2.2.2.2.2.2.2.1
  funext y
  unfold iblk0
  rw [View.read_apply]
  show V c main_arg4 _ = V c main_arg4 y
  refine congrArg (V c main_arg4) (funext fun a => Fin.ext ?_)
  match a with
  | ⟨0, _⟩ => show win0_3.index t (0 : Fin 2) * 12 + 1 * (y 0).val = (y 0).val; rw [e0]; omega
  | ⟨1, _⟩ => show win0_3.index t (1 : Fin 2) * 256 + 1 * (y 1).val = (y 1).val; rw [e1]; omega

/-- Window 4's block at every point is the whole of the bias row. -/
theorem iblk0_4_eq (c : Dev nD) (t : Fin cfg0.N) :
    (iblk0 V c 4 t : FVec Ideal S1x256 .f32) = (V c main_v25 : S1x256.Idx → EReal) := by
  have e0 := (idx0 t).2.2.2.2.2.2.2.2.1
  have e1 := (idx0 t).2.2.2.2.2.2.2.2.2.1
  funext y
  unfold iblk0
  rw [View.read_apply]
  show V c main_v25 _ = V c main_v25 y
  refine congrArg (V c main_v25) (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-! ## Window 5: the layer -/

/-- What point t writes back through window 5 is block t of the layer of the whole arrays. -/
theorem flushed0_5_eq (c : Dev nD) (t : Fin cfg0.N) :
    (dat0 V c).flushed 5 t = ((cfg0.win 5).blk t).view.read (Elt Ideal) (pre0 V c) := by
  have e0 := (idx0 t).2.2.2.2.2.2.2.2.2.2.1
  have e1 := (idx0 t).2.2.2.2.2.2.2.2.2.2.2.1
  show (cfg0.win 5).cut (grid0.coords t) ((dat0 V c).after 5 t) = _
  rw [after0_5]
  unfold out0_5
  rw [View.canon_unit_zero hzero2_0]
  simp only [View.ld_unit_zero (S := S4000x12) hzero2_0, View.ld_unit_zero (S := S12x256) hzero2_0, View.ld_unit_zero (S := S1x256) hzero2_0]
  funext y
  show k0_pay2 (iblk0 V c 0 t) (iblk0 V c 1 t) (iblk0 V c 2 t) (iblk0 V c 3 t) (iblk0 V c 4 t) y
    = pre0 V c (((cfg0.win 5).blk t).view.emb y)
  refine point0_5 (V c main_v24) (V c main_arg0) (V c main_arg2) (V c main_arg4) (V c main_v25) (pt0 t) _ _ _ _ _
    (iblk0_0_apply V c t) (iblk0_1_apply V c t) (iblk0_2_eq V c t) (iblk0_3_eq V c t) (iblk0_4_eq V c t) y _ ?_ ?_
  · show win0_5.index t (0 : Fin 2) * 4000 + 1 * (y 0).val = 4000 * t.val + (y 0).val
    rw [e0]; omega
  · show win0_5.index t (1 : Fin 2) * 256 + 1 * (y 1).val = (y 1).val
    rw [e1]; omega

theorem mem_blk0_5 (t : Fin cfg0.N) (i : S100000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v26_0).slice (win0_5.rect t)).set ↔ _
  rw [View.set_slice_whole, Rect.mem_set_unit]
  exact Iff.rfl

/-- Every row of the array lies in the block of point ⌊row / 4000⌋. -/
theorem cover0_5_all (i : S100000x256.Idx) : ∃ t : Fin cfg0.N, (cfg0.win 5).flush t = true ∧ i ∈ ((cfg0.win 5).blk t).view.set := by
  have hN : cfg0.N = 25 := N_0
  have hi0 : (i 0).val < 100000 := (i 0).isLt
  have hi1 : (i 1).val < 256 := (i 1).isLt
  have hlt : (i 0).val / 4000 < cfg0.N := by rw [hN]; omega
  have e0 := (idx0 ⟨(i 0).val / 4000, hlt⟩).2.2.2.2.2.2.2.2.2.2.1
  have e1 := (idx0 ⟨(i 0).val / 4000, hlt⟩).2.2.2.2.2.2.2.2.2.2.2.1
  refine ⟨⟨(i 0).val / 4000, hlt⟩, flush0_5 _, ?_⟩
  rw [mem_blk0_5]
  intro a
  match a with
  | ⟨0, _⟩ =>
    show win0_5.index _ (0 : Fin 2) * 4000 ≤ (i 0).val ∧ (i 0).val < win0_5.index _ (0 : Fin 2) * 4000 + 4000
    rw [e0]; show (i 0).val / 4000 * 4000 ≤ (i 0).val ∧ (i 0).val < (i 0).val / 4000 * 4000 + 4000; omega
  | ⟨1, _⟩ =>
    show win0_5.index _ (1 : Fin 2) * 256 ≤ (i 1).val ∧ (i 1).val < win0_5.index _ (1 : Fin 2) * 256 + 256
    rw [e1]; omega

/-- After the region the layer's array holds the normalised layer of the five input arrays. -/
theorem arr0_5 (c : Dev nD) : (dat0 V c).arrAt 5 cfg0.N = pre0 V c :=
  (dat0 V c).arrAt_eq_of_cover 5 (pre0 V c) (fun t _ => flushed0_5_eq V c t) cover0_5_all

/-! ## Window 6: the block sums -/

/-- What point t writes back through window 6 is block t of the whole-array function. -/
theorem flushed0_6_eq (c : Dev nD) (t : Fin cfg0.N) :
    (dat0 V c).flushed 6 t = ((cfg0.win 6).blk t).view.read (Elt Ideal) (sum0 V c) := by
  have e0 := (idx0 t).2.2.2.2.2.2.2.2.2.2.2.2.1
  have e2 := (idx0 t).2.2.2.2.2.2.2.2.2.2.2.2.2.2.1
  show (cfg0.win 6).cut (grid0.coords t) ((dat0 V c).after 6 t) = _
  rw [after0_6]
  unfold out0_6
  rw [View.canon_unit_zero hzero3_0]
  simp only [View.ld_unit_zero (S := S4000x12) hzero2_0, View.ld_unit_zero (S := S12x256) hzero2_0, View.ld_unit_zero (S := S1x256) hzero2_0]
  funext y
  show k0_pay3 (iblk0 V c 0 t) (iblk0 V c 1 t) (iblk0 V c 2 t) (iblk0 V c 3 t) (iblk0 V c 4 t) y
    = sum0 V c (((cfg0.win 6).blk t).view.emb y)
  refine point0_6 (V c main_v24) (V c main_arg0) (V c main_arg2) (V c main_arg4) (V c main_v25) (pt0 t) _ _ _ _ _
    (iblk0_0_apply V c t) (iblk0_1_apply V c t) (iblk0_2_eq V c t) (iblk0_3_eq V c t) (iblk0_4_eq V c t) y _ ?_ ?_
  · show win0_6.index t (0 : Fin 3) * 1 + 1 * (y 0).val = t.val
    have hy : (y 0).val < 1 := (y 0).isLt
    rw [e0]; omega
  · show win0_6.index t (2 : Fin 3) * 256 + 1 * (y 2).val = (y 2).val
    rw [e2]; omega

theorem mem_blk0_6 (t : Fin cfg0.N) (i : S25x1x256.Idx) :
    i ∈ ((cfg0.win 6).blk t).view.set ↔ ∀ a : Fin 3, win0_6.index t a * S1x1x256.size a ≤ (i a).val ∧ (i a).val < win0_6.index t a * S1x1x256.size a + S1x1x256.size a := by
  show i ∈ ((View.whole main_v26_1).slice (win0_6.rect t)).set ↔ _
  rw [View.set_slice_whole, Rect.mem_set_unit]
  exact Iff.rfl

/-- Every entry of the [25, 1, 256] array lies in the block of the point its first coordinate names. -/
theorem cover0_6_all (i : S25x1x256.Idx) : ∃ t : Fin cfg0.N, (cfg0.win 6).flush t = true ∧ i ∈ ((cfg0.win 6).blk t).view.set := by
  have hN : cfg0.N = 25 := N_0
  have hi0 : (i 0).val < 25 := (i 0).isLt
  have hi1 : (i 1).val < 1 := (i 1).isLt
  have hi2 : (i 2).val < 256 := (i 2).isLt
  have e0 := (idx0 ⟨(i 0).val, by rw [hN]; exact hi0⟩).2.2.2.2.2.2.2.2.2.2.2.2.1
  have e1 := (idx0 ⟨(i 0).val, by rw [hN]; exact hi0⟩).2.2.2.2.2.2.2.2.2.2.2.2.2.1
  have e2 := (idx0 ⟨(i 0).val, by rw [hN]; exact hi0⟩).2.2.2.2.2.2.2.2.2.2.2.2.2.2.1
  refine ⟨⟨(i 0).val, by rw [hN]; exact hi0⟩, flush0_6 _, ?_⟩
  rw [mem_blk0_6]
  intro a
  match a with
  | ⟨0, _⟩ =>
    show win0_6.index _ (0 : Fin 3) * 1 ≤ (i 0).val ∧ (i 0).val < win0_6.index _ (0 : Fin 3) * 1 + 1
    rw [e0]; show (i 0).val * 1 ≤ (i 0).val ∧ (i 0).val < (i 0).val * 1 + 1; omega
  | ⟨1, _⟩ =>
    show win0_6.index _ (1 : Fin 3) * 1 ≤ (i 1).val ∧ (i 1).val < win0_6.index _ (1 : Fin 3) * 1 + 1
    rw [e1]; omega
  | ⟨2, _⟩ =>
    show win0_6.index _ (2 : Fin 3) * 256 ≤ (i 2).val ∧ (i 2).val < win0_6.index _ (2 : Fin 3) * 256 + 256
    rw [e2]; omega

/-- After the region the block-sum array holds the layer's column sums inside each block. -/
theorem arr0_6 (c : Dev nD) : (dat0 V c).arrAt 6 cfg0.N = sum0 V c :=
  (dat0 V c).arrAt_eq_of_cover 6 (sum0 V c) (fun t _ => flushed0_6_eq V c t) cover0_6_all

/-! ## Window 7: the block sums of squares -/

/-- What point t writes back through window 7 is block t of the whole-array function. -/
theorem flushed0_7_eq (c : Dev nD) (t : Fin cfg0.N) :
    (dat0 V c).flushed 7 t = ((cfg0.win 7).blk t).view.read (Elt Ideal) (sq0 V c) := by
  have e0 := (idx0 t).2.2.2.2.2.2.2.2.2.2.2.2.2.2.2.1
  have e2 := (idx0 t).2.2.2.2.2.2.2.2.2.2.2.2.2.2.2.2.2
  show (cfg0.win 7).cut (grid0.coords t) ((dat0 V c).after 7 t) = _
  rw [after0_7]
  unfold out0_7
  rw [View.canon_unit_zero hzero3_0]
  simp only [View.ld_unit_zero (S := S4000x12) hzero2_0, View.ld_unit_zero (S := S12x256) hzero2_0, View.ld_unit_zero (S := S1x256) hzero2_0]
  funext y
  show k0_pay4 (iblk0 V c 0 t) (iblk0 V c 1 t) (iblk0 V c 2 t) (iblk0 V c 3 t) (iblk0 V c 4 t) y
    = sq0 V c (((cfg0.win 7).blk t).view.emb y)
  refine point0_7 (V c main_v24) (V c main_arg0) (V c main_arg2) (V c main_arg4) (V c main_v25) (pt0 t) _ _ _ _ _
    (iblk0_0_apply V c t) (iblk0_1_apply V c t) (iblk0_2_eq V c t) (iblk0_3_eq V c t) (iblk0_4_eq V c t) y _ ?_ ?_
  · show win0_7.index t (0 : Fin 3) * 1 + 1 * (y 0).val = t.val
    have hy : (y 0).val < 1 := (y 0).isLt
    rw [e0]; omega
  · show win0_7.index t (2 : Fin 3) * 256 + 1 * (y 2).val = (y 2).val
    rw [e2]; omega

theorem mem_blk0_7 (t : Fin cfg0.N) (i : S25x1x256.Idx) :
    i ∈ ((cfg0.win 7).blk t).view.set ↔ ∀ a : Fin 3, win0_7.index t a * S1x1x256.size a ≤ (i a).val ∧ (i a).val < win0_7.index t a * S1x1x256.size a + S1x1x256.size a := by
  show i ∈ ((View.whole main_v26_2).slice (win0_7.rect t)).set ↔ _
  rw [View.set_slice_whole, Rect.mem_set_unit]
  exact Iff.rfl

/-- Every entry of the [25, 1, 256] array lies in the block of the point its first coordinate names. -/
theorem cover0_7_all (i : S25x1x256.Idx) : ∃ t : Fin cfg0.N, (cfg0.win 7).flush t = true ∧ i ∈ ((cfg0.win 7).blk t).view.set := by
  have hN : cfg0.N = 25 := N_0
  have hi0 : (i 0).val < 25 := (i 0).isLt
  have hi1 : (i 1).val < 1 := (i 1).isLt
  have hi2 : (i 2).val < 256 := (i 2).isLt
  have e0 := (idx0 ⟨(i 0).val, by rw [hN]; exact hi0⟩).2.2.2.2.2.2.2.2.2.2.2.2.2.2.2.1
  have e1 := (idx0 ⟨(i 0).val, by rw [hN]; exact hi0⟩).2.2.2.2.2.2.2.2.2.2.2.2.2.2.2.2.1
  have e2 := (idx0 ⟨(i 0).val, by rw [hN]; exact hi0⟩).2.2.2.2.2.2.2.2.2.2.2.2.2.2.2.2.2
  refine ⟨⟨(i 0).val, by rw [hN]; exact hi0⟩, flush0_7 _, ?_⟩
  rw [mem_blk0_7]
  intro a
  match a with
  | ⟨0, _⟩ =>
    show win0_7.index _ (0 : Fin 3) * 1 ≤ (i 0).val ∧ (i 0).val < win0_7.index _ (0 : Fin 3) * 1 + 1
    rw [e0]; show (i 0).val * 1 ≤ (i 0).val ∧ (i 0).val < (i 0).val * 1 + 1; omega
  | ⟨1, _⟩ =>
    show win0_7.index _ (1 : Fin 3) * 1 ≤ (i 1).val ∧ (i 1).val < win0_7.index _ (1 : Fin 3) * 1 + 1
    rw [e1]; omega
  | ⟨2, _⟩ =>
    show win0_7.index _ (2 : Fin 3) * 256 ≤ (i 2).val ∧ (i 2).val < win0_7.index _ (2 : Fin 3) * 256 + 256
    rw [e2]; omega

/-- After the region the square-sum array holds the column sums of the layer's squares inside each block. -/
theorem arr0_7 (c : Dev nD) : (dat0 V c).arrAt 7 cfg0.N = sq0 V c :=
  (dat0 V c).arrAt_eq_of_cover 7 (sq0 V c) (fun t _ => flushed0_7_eq V c t) cover0_7_all

end Cert.KernelIdeal.KSage

end
-- ==== Proof.KSage2Pay.lean ====
/-
  Layer block 2 of the network (feature width 256 to 256): what one row block of 4000 rows computes, entry by entry.

  The body forms agg · wl + x · wr + bl on the block's rows, divides each row by the larger of its Euclidean length
  and the threshold, stores that block, and stores the column sums of the block and of its squares. Read at an
  index over the extended reals (where a change of float format is the identity) these are the specification's
  normalised layer on the block's rows and its two 4000-term column sums. Since a row of the layer depends on the
  same row of the two feature matrices only, the block of point b agrees with rows 4000·b … 4000·b + 3999 of the
  whole-array function, and the two sums with its block sums at block b.
-/
import proofs.«169498_j72670846649171_2_alg».proof.Proof.Gen.KernelIdeal.Skeleton
import proofs.«169498_j72670846649171_2_alg».proof.Proof.KSageSpec
import proofs.«169498_j72670846649171_2_alg».proof.Proof.KSageOps

noncomputable section

open scoped BigOperators

namespace Cert.KernelIdeal.KSage

open Idealize.ShloMosaic Idealize.ShloMosaic.ValueIdx
open Cert.KernelIdeal Cert.KernelIdeal.Gen

/-! ## Region 2: the body's values at an index -/

/-- The linear part of one block of 4000 rows, as the body computes it: two matrix products into zero
    accumulators, added, plus the bias row spread over the rows. -/
def lin2 (a x : FVec Ideal S4000x256 .bf16) (wl wr : FVec Ideal S256x256 .f32) (bl : FVec Ideal S1x256 .f32) : FVec Ideal S4000x256 .f32 :=
  addf (addf (matmul dot_S4000x256_S256x256_S4000x256_1_0_0_1_n_n none a (truncf .bf16 wl bitsLt_bf16_f32) (constant S4000x256 .f32 0x00000000#32))
      (matmul dot_S4000x256_S256x256_S4000x256_1_0_0_1_n_n none x (truncf .bf16 wr bitsLt_bf16_f32) (constant S4000x256 .f32 0x00000000#32)))
    (broadcastTo S4000x256 bl broadcasts_S1x256_S4000x256)

/-- At (p, q) it is the linear part of the specification on the block's rows: the format changes are the identity
    on extended reals. -/
theorem lin2_ix2 (a x : FVec Ideal S4000x256 .bf16) (wl wr : FVec Ideal S256x256 .f32) (bl : FVec Ideal S1x256 .f32) (p : Fin 4000) (q : Fin 256) :
    lin2 a x wl wr bl (ix2 p q) = lin a x wl wr bl p q := by
  unfold lin2
  rw [addf_apply, addf_apply, matmul_zero_ix2 _ rfl rfl rfl rfl rfl rfl, matmul_zero_ix2 _ rfl rfl rfl rfl rfl rfl,
    broadcastTo_1b_ab_apply]
  rfl

/-- The body's quotient: the linear part over the row length bounded below, with the identity reshapes removed. -/
theorem k2_pay1_eq (a x : FVec Ideal S4000x256 .bf16) (wl wr : FVec Ideal S256x256 .f32) (bl : FVec Ideal S1x256 .f32) :
    k2_pay1 a x wl wr bl
      = divf (lin2 a x wl wr bl)
          (broadcastTo S4000x256
            (maximumf
              (sqrt (shapeCast S4000x1
                (multiReduction .add [1] S4000 (mulf (lin2 a x wl wr bl) (lin2 a x wl wr bl)) 0x00000000#32
                  reduces_S4000x256_S4000 (.inl rfl) rfl) shapeCasts_S4000_S4000x1))
              (broadcast S4000x1 (Scalar.ofBits .f32 0x2B8CBCCC#32)))
            broadcasts_S4000x1_S4000x256) := by
  unfold k2_pay1 lin2
  simp only [shapeCast_self]

/-- The quotient at (p, q) is the normalised layer of the block's rows. -/
theorem k2_pay1_ix2 (a x : FVec Ideal S4000x256 .bf16) (wl wr : FVec Ideal S256x256 .f32) (bl : FVec Ideal S1x256 .f32) (p : Fin 4000) (q : Fin 256) :
    k2_pay1 (F := Ideal) a x wl wr bl (ix2 p q) = pre a x wl wr bl p q := by
  rw [k2_pay1_eq, divf_apply, broadcastTo_a1_ab_apply, maximumf_apply, broadcast_apply]
  show Ideal.div _ (max (Ideal.sqrt (shapeCast S4000x1 _ shapeCasts_S4000_S4000x1 (ix2 p (0 : Fin 1)))) _) = _
  rw [shapeCast_a_a1_apply]
  have hA : lin2 a x wl wr bl (ix2 p q) = lin a x wl wr bl p q := lin2_ix2 a x wl wr bl p q
  have hB : multiReduction .add [1] S4000 (mulf (lin2 a x wl wr bl) (lin2 a x wl wr bl)) 0x00000000#32
      reduces_S4000x256_S4000 (.inl rfl) rfl (ix1 p)
        = ∑ j : Fin 256, lin a x wl wr bl p j * lin a x wl wr bl p j :=
    (sumLanes_ix1 _ _ _ _ _ p).trans (Finset.sum_congr rfl fun j _ => by rw [mulf_apply, lin2_ix2])
  exact congrArg₂ Ideal.div hA (congrArg (fun s => max (Ideal.sqrt s) eps) hB)

/-- What the body stores in the layer's block: the normalised layer of the block's rows. -/
theorem k2_pay2_ix2 (a x : FVec Ideal S4000x256 .bf16) (wl wr : FVec Ideal S256x256 .f32) (bl : FVec Ideal S1x256 .f32) (p : Fin 4000) (q : Fin 256) :
    k2_pay2 (F := Ideal) a x wl wr bl (ix2 p q) = pre a x wl wr bl p q :=
  k2_pay1_ix2 a x wl wr bl p q

/-- What the body stores in the block-sum window: the column sums of the block's 4000 normalised rows. -/
theorem k2_pay3_ix3 (a x : FVec Ideal S4000x256 .bf16) (wl wr : FVec Ideal S256x256 .f32) (bl : FVec Ideal S1x256 .f32) (u v : Fin 1) (q : Fin 256) :
    k2_pay3 (F := Ideal) a x wl wr bl (ix3 u v q) = ∑ r : Fin 4000, pre a x wl wr bl r q := by
  unfold k2_pay3
  rw [shapeCast_a_11a_apply]
  refine (sumRows_ix1 _ _ _ _ _ q).trans ?_
  exact Finset.sum_congr rfl fun r _ => k2_pay1_ix2 a x wl wr bl r q

/-- What the body stores in the square-sum window: the column sums of the squares of the block's normalised rows. -/
theorem k2_pay4_ix3 (a x : FVec Ideal S4000x256 .bf16) (wl wr : FVec Ideal S256x256 .f32) (bl : FVec Ideal S1x256 .f32) (u v : Fin 1) (q : Fin 256) :
    k2_pay4 (F := Ideal) a x wl wr bl (ix3 u v q) = ∑ r : Fin 4000, pre a x wl wr bl r q * pre a x wl wr bl r q := by
  unfold k2_pay4
  rw [shapeCast_a_11a_apply]
  refine (sumRows_ix1 _ _ _ _ _ q).trans ?_
  refine Finset.sum_congr rfl fun r _ => ?_
  rw [mulf_apply, k2_pay1_ix2]

/-! ## Region 2: one grid point's three stores against the whole arrays

The block of point b holds rows 4000·b … 4000·b + 3999 of the two feature arrays and the whole of the two weight
matrices and of the bias row. Then each entry the body stores is the entry of the whole-array function at the matching
index: same column, row 4000·b + r for the layer, block b for the two sums. -/

theorem point2_5 (A X : S100000x256.Idx → EReal) (WL WR : S256x256.Idx → EReal) (BL : S1x256.Idx → EReal) (b : Fin 25)
    (a x : FVec Ideal S4000x256 .bf16) (wl wr : FVec Ideal S256x256 .f32) (bl : FVec Ideal S1x256 .f32)
    (ha : ∀ (r : Fin 4000) (k : Fin 256), a (ix2 r k) = A (ix2 (rowAt b r) k))
    (hx : ∀ (r : Fin 4000) (k : Fin 256), x (ix2 r k) = X (ix2 (rowAt b r) k))
    (hwl : wl = WL) (hwr : wr = WR) (hbl : bl = BL)
    (y : S4000x256.Idx) (i : S100000x256.Idx) (hi0 : (i 0).val = 4000 * b.val + (y 0).val) (hi1 : (i 1).val = (y 1).val) :
    k2_pay2 (F := Ideal) a x wl wr bl y = preArr A X WL WR BL i := by
  subst hwl hwr hbl
  obtain ⟨r, q, rfl⟩ : ∃ (r : Fin 4000) (q : Fin 256), y = ix2 r q := ⟨y 0, y 1, eq_ix2 y⟩
  obtain ⟨i0, i1, rfl⟩ : ∃ (i0 : Fin 100000) (i1 : Fin 256), i = ix2 i0 i1 := ⟨i 0, i 1, eq_ix2 i⟩
  obtain rfl : i0 = rowAt b r := Fin.ext hi0
  obtain rfl : i1 = q := Fin.ext hi1
  rw [k2_pay2_ix2, preArr_ix2]
  exact pre_of_rows a x A X wl wr bl r (rowAt b r) (ha r) (hx r) i1

theorem point2_6 (A X : S100000x256.Idx → EReal) (WL WR : S256x256.Idx → EReal) (BL : S1x256.Idx → EReal) (b : Fin 25)
    (a x : FVec Ideal S4000x256 .bf16) (wl wr : FVec Ideal S256x256 .f32) (bl : FVec Ideal S1x256 .f32)
    (ha : ∀ (r : Fin 4000) (k : Fin 256), a (ix2 r k) = A (ix2 (rowAt b r) k))
    (hx : ∀ (r : Fin 4000) (k : Fin 256), x (ix2 r k) = X (ix2 (rowAt b r) k))
    (hwl : wl = WL) (hwr : wr = WR) (hbl : bl = BL)
    (y : S1x1x256.Idx) (i : S25x1x256.Idx) (hi0 : (i 0).val = b.val) (hi2 : (i 2).val = (y 2).val) :
    k2_pay3 (F := Ideal) a x wl wr bl y = sumArr rowAt A X WL WR BL i := by
  subst hwl hwr hbl
  obtain ⟨u, v, q, rfl⟩ : ∃ (u v : Fin 1) (q : Fin 256), y = ix3 u v q := ⟨y 0, y 1, y 2, eq_ix3 y⟩
  obtain ⟨i0, i1, i2, rfl⟩ : ∃ (i0 : Fin 25) (i1 : Fin 1) (i2 : Fin 256), i = ix3 i0 i1 i2 := ⟨i 0, i 1, i 2, eq_ix3 i⟩
  obtain rfl : i0 = b := Fin.ext hi0
  obtain rfl : i2 = q := Fin.ext hi2
  rw [k2_pay3_ix3]
  show _ = ∑ r : Fin 4000, pre A X wl wr bl (rowAt i0 r) i2
  exact Finset.sum_congr rfl fun r _ => pre_of_rows a x A X wl wr bl r (rowAt i0 r) (ha r) (hx r) i2

theorem point2_7 (A X : S100000x256.Idx → EReal) (WL WR : S256x256.Idx → EReal) (BL : S1x256.Idx → EReal) (b : Fin 25)
    (a x : FVec Ideal S4000x256 .bf16) (wl wr : FVec Ideal S256x256 .f32) (bl : FVec Ideal S1x256 .f32)
    (ha : ∀ (r : Fin 4000) (k : Fin 256), a (ix2 r k) = A (ix2 (rowAt b r) k))
    (hx : ∀ (r : Fin 4000) (k : Fin 256), x (ix2 r k) = X (ix2 (rowAt b r) k))
    (hwl : wl = WL) (hwr : wr = WR) (hbl : bl = BL)
    (y : S1x1x256.Idx) (i : S25x1x256.Idx) (hi0 : (i 0).val = b.val) (hi2 : (i 2).val = (y 2).val) :
    k2_pay4 (F := Ideal) a x wl wr bl y = sqArr rowAt A X WL WR BL i := by
  subst hwl hwr hbl
  obtain ⟨u, v, q, rfl⟩ : ∃ (u v : Fin 1) (q : Fin 256), y = ix3 u v q := ⟨y 0, y 1, y 2, eq_ix3 y⟩
  obtain ⟨i0, i1, i2, rfl⟩ : ∃ (i0 : Fin 25) (i1 : Fin 1) (i2 : Fin 256), i = ix3 i0 i1 i2 := ⟨i 0, i 1, i 2, eq_ix3 i⟩
  obtain rfl : i0 = b := Fin.ext hi0
  obtain rfl : i2 = q := Fin.ext hi2
  rw [k2_pay4_ix3]
  show _ = ∑ r : Fin 4000, pre A X wl wr bl (rowAt i0 r) i2 * pre A X wl wr bl (rowAt i0 r) i2
  exact Finset.sum_congr rfl fun r _ => by rw [pre_of_rows a x A X wl wr bl r (rowAt i0 r) (ha r) (hx r) i2]

end Cert.KernelIdeal.KSage

end
-- ==== Proof.KSage2Arr.lean ====
/-
  Layer block 2 of the network (feature width 256 to 256): the three result arrays after the 25 grid points.

  Point t of the grid reads rows 4000·t … 4000·t + 3999 of the two feature arrays and the whole of the two weight
  matrices and of the bias row, and writes back block t of the layer's array and entry block t of the two arrays
  of sums. What it writes is the matching block of ONE function of the five whole input arrays — the normalised
  layer, its column sums inside each block of rows, and the column sums of its squares —, and the 25 blocks cover
  each result array, so after the last point each result array is that function.
-/
import proofs.«169498_j72670846649171_2_alg».proof.Proof.Gen.KernelIdeal.Frame
import proofs.«169498_j72670846649171_2_alg».proof.Proof.KSage2Pay
import Idealize.ShloMosaic.Lib.Pipeline.Value

noncomputable section

open scoped BigOperators

namespace Cert.KernelIdeal.KSage

open Idealize.ShloMosaic Idealize.ShloMosaic.TcCoe Idealize.ShloMosaic.ValueIdx Idealize.SL.Sem
open Idealize.ShloMosaic.Pipeline (Dat)
open Cert.KernelIdeal Cert.KernelIdeal.Gen

theorem hzero2_2 : (![0, 0] : Fin 2 → Nat) = fun _ => 0 := funext fun a => by fin_cases a <;> rfl
theorem hzero3_2 : (![0, 0, 0] : Fin 3 → Nat) = fun _ => 0 := funext fun a => by fin_cases a <;> rfl

variable (V : (c : Dev nD) → (b : Ref sig .tc) → Buf (Elt Ideal) ((c : Thread nD τ).loc b))

/-! ## Region 2: the three results as functions of the arrays the region finds -/

/-- The normalised layer of the region's five input arrays. -/
abbrev pre2 (c : Dev nD) : S100000x256.Idx → EReal :=
  preArr (R := 100000) (Hin := 256) (Hout := 256) (V c main_v58) (V c main_v43) (V c main_v60) (V c main_v64) (V c main_v69)

/-- Its column sums inside each of the 25 blocks of 4000 rows. -/
abbrev sum2 (c : Dev nD) : S25x1x256.Idx → EReal :=
  sumArr (R := 100000) (nB := 25) (B := 4000) (Hin := 256) (Hout := 256) rowAt (V c main_v58) (V c main_v43) (V c main_v60) (V c main_v64) (V c main_v69)

/-- The column sums of its squares inside each block. -/
abbrev sq2 (c : Dev nD) : S25x1x256.Idx → EReal :=
  sqArr (R := 100000) (nB := 25) (B := 4000) (Hin := 256) (Hout := 256) rowAt (V c main_v58) (V c main_v43) (V c main_v60) (V c main_v64) (V c main_v69)

/-! ## The grid: point t works on block t -/

/-- A grid point as a block number. -/
def pt2 (t : Fin cfg2.N) : Fin 25 := ⟨t.val, lt_of_lt_of_eq t.isLt N_2⟩

/-- The block index of every window at every point, decided over the 25 points: the row-blocked windows sit at block
    (t, 0) or (t, 0, 0), the weights and the bias at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 3) = t.val ∧ win2_6.index t (1 : Fin 3) = 0 ∧ win2_6.index t (2 : Fin 3) = 0
    ∧ win2_7.index t (0 : Fin 3) = t.val ∧ win2_7.index t (1 : Fin 3) = 0 ∧ win2_7.index t (2 : Fin 3) = 0 :=
  (by decide +kernel : ∀ t : Fin grid2.N, _)

/-! ## The input windows' blocks as parts of the arrays -/

/-- Window 0's block at point t is rows 4000·t … 4000·t + 3999 of the aggregated features. -/
theorem iblk2_0_apply (c : Dev nD) (t : Fin cfg2.N) (r : Fin 4000) (j : Fin 256) :
    (iblk2 V c 0 t : FVec Ideal S4000x256 .bf16) (ix2 r j) = (V c main_v58 : S100000x256.Idx → EReal) (ix2 (rowAt (pt2 t) r) j) := by
  have e0 := (idx2 t).1
  have e1 := (idx2 t).2.1
  unfold iblk2
  rw [View.read_apply]
  show V c main_v58 _ = V c main_v58 _
  refine congrArg (V c main_v58) (funext fun a => Fin.ext ?_)
  match a with
  | ⟨0, _⟩ => show win2_0.index t (0 : Fin 2) * 4000 + 1 * r.val = 4000 * t.val + r.val; rw [e0]; omega
  | ⟨1, _⟩ => show win2_0.index t (1 : Fin 2) * 256 + 1 * j.val = j.val; rw [e1]; omega

/-- Window 1's block at point t is rows 4000·t … 4000·t + 3999 of the features. -/
theorem iblk2_1_apply (c : Dev nD) (t : Fin cfg2.N) (r : Fin 4000) (j : Fin 256) :
    (iblk2 V c 1 t : FVec Ideal S4000x256 .bf16) (ix2 r j) = (V c main_v43 : S100000x256.Idx → EReal) (ix2 (rowAt (pt2 t) r) j) := by
  have e0 := (idx2 t).2.2.1
  have e1 := (idx2 t).2.2.2.1
  unfold iblk2
  rw [View.read_apply]
  show V c main_v43 _ = V c main_v43 _
  refine congrArg (V c main_v43) (funext fun a => Fin.ext ?_)
  match a with
  | ⟨0, _⟩ => show win2_1.index t (0 : Fin 2) * 4000 + 1 * r.val = 4000 * t.val + r.val; rw [e0]; omega
  | ⟨1, _⟩ => show win2_1.index t (1 : Fin 2) * 256 + 1 * j.val = j.val; rw [e1]; omega

/-- Window 2's block at every point is the whole of the first weight matrix. -/
theorem iblk2_2_eq (c : Dev nD) (t : Fin cfg2.N) :
    (iblk2 V c 2 t : FVec Ideal S256x256 .f32) = (V c main_v60 : S256x256.Idx → EReal) := by
  have e0 := (idx2 t).2.2.2.2.1
  have e1 := (idx2 t).2.2.2.2.2.1
  funext y
  unfold iblk2
  rw [View.read_apply]
  show V c main_v60 _ = V c main_v60 y
  refine congrArg (V c main_v60) (funext fun a => Fin.ext ?_)
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega

/-- Window 3's block at every point is the whole of the second weight matrix. -/
theorem iblk2_3_eq (c : Dev nD) (t : Fin cfg2.N) :
    (iblk2 V c 3 t : FVec Ideal S256x256 .f32) = (V c main_v64 : S256x256.Idx → EReal) := by
  have e0 := (idx2 t).2.2.2.2.2.2.1
  have e1 := (idx2 t).2.2.2.2.2.2.2.1
  funext y
  unfold iblk2
  rw [View.read_apply]
  show V c main_v64 _ = V c main_v64 y
  refine congrArg (V c main_v64) (funext fun a => Fin.ext ?_)
  match a with
  | ⟨0, _⟩ => show win2_3.index t (0 : Fin 2) * 256 + 1 * (y 0).val = (y 0).val; rw [e0]; omega
  | ⟨1, _⟩ => show win2_3.index t (1 : Fin 2) * 256 + 1 * (y 1).val = (y 1).val; rw [e1]; omega

/-- Window 4's block at every point is the whole of the bias row. -/
theorem iblk2_4_eq (c : Dev nD) (t : Fin cfg2.N) :
    (iblk2 V c 4 t : FVec Ideal S1x256 .f32) = (V c main_v69 : S1x256.Idx → EReal) := by
  have e0 := (idx2 t).2.2.2.2.2.2.2.2.1
  have e1 := (idx2 t).2.2.2.2.2.2.2.2.2.1
  funext y
  unfold iblk2
  rw [View.read_apply]
  show V c main_v69 _ = V c main_v69 y
  refine congrArg (V c main_v69) (funext fun a => Fin.ext ?_)
  match a with
  | ⟨0, _⟩ => show win2_4.index t (0 : Fin 2) * 1 + 1 * (y 0).val = (y 0).val; rw [e0]; omega
  | ⟨1, _⟩ => show win2_4.index t (1 : Fin 2) * 256 + 1 * (y 1).val = (y 1).val; rw [e1]; omega

/-! ## Window 5: the layer -/

/-- What point t writes back through window 5 is block t of the layer of the whole arrays. -/
theorem flushed2_5_eq (c : Dev nD) (t : Fin cfg2.N) :
    (dat2 V c).flushed 5 t = ((cfg2.win 5).blk t).view.read (Elt Ideal) (pre2 V c) := by
  have e0 := (idx2 t).2.2.2.2.2.2.2.2.2.2.1
  have e1 := (idx2 t).2.2.2.2.2.2.2.2.2.2.2.1
  show (cfg2.win 5).cut (grid2.coords t) ((dat2 V c).after 5 t) = _
  rw [after2_5]
  unfold out2_5
  rw [View.canon_unit_zero hzero2_2]
  simp only [View.ld_unit_zero (S := S4000x256) hzero2_2, View.ld_unit_zero (S := S256x256) hzero2_2, View.ld_unit_zero (S := S1x256) hzero2_2]
  funext y
  show k2_pay2 (iblk2 V c 0 t) (iblk2 V c 1 t) (iblk2 V c 2 t) (iblk2 V c 3 t) (iblk2 V c 4 t) y
    = pre2 V c (((cfg2.win 5).blk t).view.emb y)
  refine point2_5 (V c main_v58) (V c main_v43) (V c main_v60) (V c main_v64) (V c main_v69) (pt2 t) _ _ _ _ _
    (iblk2_0_apply V c t) (iblk2_1_apply V c t) (iblk2_2_eq V c t) (iblk2_3_eq V c t) (iblk2_4_eq V c t) y _ ?_ ?_
  · show win2_5.index t (0 : Fin 2) * 4000 + 1 * (y 0).val = 4000 * t.val + (y 0).val
    rw [e0]; omega
  · show win2_5.index t (1 : Fin 2) * 256 + 1 * (y 1).val = (y 1).val
    rw [e1]; omega

theorem mem_blk2_5 (t : Fin cfg2.N) (i : S100000x256.Idx) :
    i ∈ ((cfg2.win 5).blk t).view.set ↔ ∀ a : Fin 2, win2_5.index t a * S4000x256.size a ≤ (i a).val ∧ (i a).val < win2_5.index t a * S4000x256.size a + S4000x256.size a := by
  show i ∈ ((View.whole main_v70_0).slice (win2_5.rect t)).set ↔ _
  rw [View.set_slice_whole, Rect.mem_set_unit]
  exact Iff.rfl

/-- Every row of the array lies in the block of point ⌊row / 4000⌋. -/
theorem cover2_5_all (i : S100000x256.Idx) : ∃ t : Fin cfg2.N, (cfg2.win 5).flush t = true ∧ i ∈ ((cfg2.win 5).blk t).view.set := by
  have hN : cfg2.N = 25 := N_2
  have hi0 : (i 0).val < 100000 := (i 0).isLt
  have hi1 : (i 1).val < 256 := (i 1).isLt
  have hlt : (i 0).val / 4000 < cfg2.N := by rw [hN]; omega
  have e0 := (idx2 ⟨(i 0).val / 4000, hlt⟩).2.2.2.2.2.2.2.2.2.2.1
  have e1 := (idx2 ⟨(i 0).val / 4000, hlt⟩).2.2.2.2.2.2.2.2.2.2.2.1
  refine ⟨⟨(i 0).val / 4000, hlt⟩, flush2_5 _, ?_⟩
  rw [mem_blk2_5]
  intro a
  match a with
  | ⟨0, _⟩ =>
    show win2_5.index _ (0 : Fin 2) * 4000 ≤ (i 0).val ∧ (i 0).val < win2_5.index _ (0 : Fin 2) * 4000 + 4000
    rw [e0]; show (i 0).val / 4000 * 4000 ≤ (i 0).val ∧ (i 0).val < (i 0).val / 4000 * 4000 + 4000; omega
  | ⟨1, _⟩ =>
    show win2_5.index _ (1 : Fin 2) * 256 ≤ (i 1).val ∧ (i 1).val < win2_5.index _ (1 : Fin 2) * 256 + 256
    rw [e1]; omega

/-- After the region the layer's array holds the normalised layer of the five input arrays. -/
theorem arr2_5 (c : Dev nD) : (dat2 V c).arrAt 5 cfg2.N = pre2 V c :=
  (dat2 V c).arrAt_eq_of_cover 5 (pre2 V c) (fun t _ => flushed2_5_eq V c t) cover2_5_all

/-! ## Window 6: the block sums -/

/-- What point t writes back through window 6 is block t of the whole-array function. -/
theorem flushed2_6_eq (c : Dev nD) (t : Fin cfg2.N) :
    (dat2 V c).flushed 6 t = ((cfg2.win 6).blk t).view.read (Elt Ideal) (sum2 V c) := by
  have e0 := (idx2 t).2.2.2.2.2.2.2.2.2.2.2.2.1
  have e2 := (idx2 t).2.2.2.2.2.2.2.2.2.2.2.2.2.2.1
  show (cfg2.win 6).cut (grid2.coords t) ((dat2 V c).after 6 t) = _
  rw [after2_6]
  unfold out2_6
  rw [View.canon_unit_zero hzero3_2]
  simp only [View.ld_unit_zero (S := S4000x256) hzero2_2, View.ld_unit_zero (S := S256x256) hzero2_2, View.ld_unit_zero (S := S1x256) hzero2_2]
  funext y
  show k2_pay3 (iblk2 V c 0 t) (iblk2 V c 1 t) (iblk2 V c 2 t) (iblk2 V c 3 t) (iblk2 V c 4 t) y
    = sum2 V c (((cfg2.win 6).blk t).view.emb y)
  refine point2_6 (V c main_v58) (V c main_v43) (V c main_v60) (V c main_v64) (V c main_v69) (pt2 t) _ _ _ _ _
    (iblk2_0_apply V c t) (iblk2_1_apply V c t) (iblk2_2_eq V c t) (iblk2_3_eq V c t) (iblk2_4_eq V c t) y _ ?_ ?_
  · show win2_6.index t (0 : Fin 3) * 1 + 1 * (y 0).val = t.val
    have hy : (y 0).val < 1 := (y 0).isLt
    rw [e0]; omega
  · show win2_6.index t (2 : Fin 3) * 256 + 1 * (y 2).val = (y 2).val
    rw [e2]; omega

theorem mem_blk2_6 (t : Fin cfg2.N) (i : S25x1x256.Idx) :
    i ∈ ((cfg2.win 6).blk t).view.set ↔ ∀ a : Fin 3, win2_6.index t a * S1x1x256.size a ≤ (i a).val ∧ (i a).val < win2_6.index t a * S1x1x256.size a + S1x1x256.size a := by
  show i ∈ ((View.whole main_v70_1).slice (win2_6.rect t)).set ↔ _
  rw [View.set_slice_whole, Rect.mem_set_unit]
  exact Iff.rfl

/-- Every entry of the [25, 1, 256] array lies in the block of the point its first coordinate names. -/
theorem cover2_6_all (i : S25x1x256.Idx) : ∃ t : Fin cfg2.N, (cfg2.win 6).flush t = true ∧ i ∈ ((cfg2.win 6).blk t).view.set := by
  have hN : cfg2.N = 25 := N_2
  have hi0 : (i 0).val < 25 := (i 0).isLt
  have hi1 : (i 1).val < 1 := (i 1).isLt
  have hi2 : (i 2).val < 256 := (i 2).isLt
  have e0 := (idx2 ⟨(i 0).val, by rw [hN]; exact hi0⟩).2.2.2.2.2.2.2.2.2.2.2.2.1
  have e1 := (idx2 ⟨(i 0).val, by rw [hN]; exact hi0⟩).2.2.2.2.2.2.2.2.2.2.2.2.2.1
  have e2 := (idx2 ⟨(i 0).val, by rw [hN]; exact hi0⟩).2.2.2.2.2.2.2.2.2.2.2.2.2.2.1
  refine ⟨⟨(i 0).val, by rw [hN]; exact hi0⟩, flush2_6 _, ?_⟩
  rw [mem_blk2_6]
  intro a
  match a with
  | ⟨0, _⟩ =>
    show win2_6.index _ (0 : Fin 3) * 1 ≤ (i 0).val ∧ (i 0).val < win2_6.index _ (0 : Fin 3) * 1 + 1
    rw [e0]; show (i 0).val * 1 ≤ (i 0).val ∧ (i 0).val < (i 0).val * 1 + 1; omega
  | ⟨1, _⟩ =>
    show win2_6.index _ (1 : Fin 3) * 1 ≤ (i 1).val ∧ (i 1).val < win2_6.index _ (1 : Fin 3) * 1 + 1
    rw [e1]; omega
  | ⟨2, _⟩ =>
    show win2_6.index _ (2 : Fin 3) * 256 ≤ (i 2).val ∧ (i 2).val < win2_6.index _ (2 : Fin 3) * 256 + 256
    rw [e2]; omega

/-- After the region the block-sum array holds the layer's column sums inside each block. -/
theorem arr2_6 (c : Dev nD) : (dat2 V c).arrAt 6 cfg2.N = sum2 V c :=
  (dat2 V c).arrAt_eq_of_cover 6 (sum2 V c) (fun t _ => flushed2_6_eq V c t) cover2_6_all

/-! ## Window 7: the block sums of squares -/

/-- What point t writes back through window 7 is block t of the whole-array function. -/
theorem flushed2_7_eq (c : Dev nD) (t : Fin cfg2.N) :
    (dat2 V c).flushed 7 t = ((cfg2.win 7).blk t).view.read (Elt Ideal) (sq2 V c) := by
  have e0 := (idx2 t).2.2.2.2.2.2.2.2.2.2.2.2.2.2.2.1
  have e2 := (idx2 t).2.2.2.2.2.2.2.2.2.2.2.2.2.2.2.2.2
  show (cfg2.win 7).cut (grid2.coords t) ((dat2 V c).after 7 t) = _
  rw [after2_7]
  unfold out2_7
  rw [View.canon_unit_zero hzero3_2]
  simp only [View.ld_unit_zero (S := S4000x256) hzero2_2, View.ld_unit_zero (S := S256x256) hzero2_2, View.ld_unit_zero (S := S1x256) hzero2_2]
  funext y
  show k2_pay4 (iblk2 V c 0 t) (iblk2 V c 1 t) (iblk2 V c 2 t) (iblk2 V c 3 t) (iblk2 V c 4 t) y
    = sq2 V c (((cfg2.win 7).blk t).view.emb y)
  refine point2_7 (V c main_v58) (V c main_v43) (V c main_v60) (V c main_v64) (V c main_v69) (pt2 t) _ _ _ _ _
    (iblk2_0_apply V c t) (iblk2_1_apply V c t) (iblk2_2_eq V c t) (iblk2_3_eq V c t) (iblk2_4_eq V c t) y _ ?_ ?_
  · show win2_7.index t (0 : Fin 3) * 1 + 1 * (y 0).val = t.val
    have hy : (y 0).val < 1 := (y 0).isLt
    rw [e0]; omega
  · show win2_7.index t (2 : Fin 3) * 256 + 1 * (y 2).val = (y 2).val
    rw [e2]; omega

theorem mem_blk2_7 (t : Fin cfg2.N) (i : S25x1x256.Idx) :
    i ∈ ((cfg2.win 7).blk t).view.set ↔ ∀ a : Fin 3, win2_7.index t a * S1x1x256.size a ≤ (i a).val ∧ (i a).val < win2_7.index t a * S1x1x256.size a + S1x1x256.size a := by
  show i ∈ ((View.whole main_v70_2).slice (win2_7.rect t)).set ↔ _
  rw [View.set_slice_whole, Rect.mem_set_unit]
  exact Iff.rfl

/-- Every entry of the [25, 1, 256] array lies in the block of the point its first coordinate names. -/
theorem cover2_7_all (i : S25x1x256.Idx) : ∃ t : Fin cfg2.N, (cfg2.win 7).flush t = true ∧ i ∈ ((cfg2.win 7).blk t).view.set := by
  have hN : cfg2.N = 25 := N_2
  have hi0 : (i 0).val < 25 := (i 0).isLt
  have hi1 : (i 1).val < 1 := (i 1).isLt
  have hi2 : (i 2).val < 256 := (i 2).isLt
  have e0 := (idx2 ⟨(i 0).val, by rw [hN]; exact hi0⟩).2.2.2.2.2.2.2.2.2.2.2.2.2.2.2.1
  have e1 := (idx2 ⟨(i 0).val, by rw [hN]; exact hi0⟩).2.2.2.2.2.2.2.2.2.2.2.2.2.2.2.2.1
  have e2 := (idx2 ⟨(i 0).val, by rw [hN]; exact hi0⟩).2.2.2.2.2.2.2.2.2.2.2.2.2.2.2.2.2
  refine ⟨⟨(i 0).val, by rw [hN]; exact hi0⟩, flush2_7 _, ?_⟩
  rw [mem_blk2_7]
  intro a
  match a with
  | ⟨0, _⟩ =>
    show win2_7.index _ (0 : Fin 3) * 1 ≤ (i 0).val ∧ (i 0).val < win2_7.index _ (0 : Fin 3) * 1 + 1
    rw [e0]; show (i 0).val * 1 ≤ (i 0).val ∧ (i 0).val < (i 0).val * 1 + 1; omega
  | ⟨1, _⟩ =>
    show win2_7.index _ (1 : Fin 3) * 1 ≤ (i 1).val ∧ (i 1).val < win2_7.index _ (1 : Fin 3) * 1 + 1
    rw [e1]; omega
  | ⟨2, _⟩ =>
    show win2_7.index _ (2 : Fin 3) * 256 ≤ (i 2).val ∧ (i 2).val < win2_7.index _ (2 : Fin 3) * 256 + 256
    rw [e2]; omega

/-- After the region the square-sum array holds the column sums of the layer's squares inside each block. -/
theorem arr2_7 (c : Dev nD) : (dat2 V c).arrAt 7 cfg2.N = sq2 V c :=
  (dat2 V c).arrAt_eq_of_cover 7 (sq2 V c) (fun t _ => flushed2_7_eq V c t) cover2_7_all

end Cert.KernelIdeal.KSage

end
-- ==== Proof.KSage4Pay.lean ====
/-
  Layer block 4 of the network (feature width 256 to 256): what one row block of 4000 rows computes, entry by entry.

  The body forms agg · wl + x · wr + bl on the block's rows, divides each row by the larger of its Euclidean length
  and the threshold, stores that block, and stores the column sums of the block and of its squares. Read at an
  index over the extended reals (where a change of float format is the identity) these are the specification's
  normalised layer on the block's rows and its two 4000-term column sums. Since a row of the layer depends on the
  same row of the two feature matrices only, the block of point b agrees with rows 4000·b … 4000·b + 3999 of the
  whole-array function, and the two sums with its block sums at block b.
-/
import proofs.«169498_j72670846649171_2_alg».proof.Proof.Gen.KernelIdeal.Skeleton
import proofs.«169498_j72670846649171_2_alg».proof.Proof.KSageSpec
import proofs.«169498_j72670846649171_2_alg».proof.Proof.KSageOps

noncomputable section

open scoped BigOperators

namespace Cert.KernelIdeal.KSage

open Idealize.ShloMosaic Idealize.ShloMosaic.ValueIdx
open Cert.KernelIdeal Cert.KernelIdeal.Gen

/-! ## Region 4: the body's values at an index -/

/-- The linear part of one block of 4000 rows, as the body computes it: two matrix products into zero
    accumulators, added, plus the bias row spread over the rows. -/
def lin4 (a x : FVec Ideal S4000x256 .bf16) (wl wr : FVec Ideal S256x256 .f32) (bl : FVec Ideal S1x256 .f32) : FVec Ideal S4000x256 .f32 :=
  addf (addf (matmul dot_S4000x256_S256x256_S4000x256_1_0_0_1_n_n none a (truncf .bf16 wl bitsLt_bf16_f32) (constant S4000x256 .f32 0x00000000#32))
      (matmul dot_S4000x256_S256x256_S4000x256_1_0_0_1_n_n none x (truncf .bf16 wr bitsLt_bf16_f32) (constant S4000x256 .f32 0x00000000#32)))
    (broadcastTo S4000x256 bl broadcasts_S1x256_S4000x256)

/-- At (p, q) it is the linear part of the specification on the block's rows: the format changes are the identity
    on extended reals. -/
theorem lin4_ix2 (a x : FVec Ideal S4000x256 .bf16) (wl wr : FVec Ideal S256x256 .f32) (bl : FVec Ideal S1x256 .f32) (p : Fin 4000) (q : Fin 256) :
    lin4 a x wl wr bl (ix2 p q) = lin a x wl wr bl p q := by
  unfold lin4
  rw [addf_apply, addf_apply, matmul_zero_ix2 _ rfl rfl rfl rfl rfl rfl, matmul_zero_ix2 _ rfl rfl rfl rfl rfl rfl,
    broadcastTo_1b_ab_apply]
  rfl

/-- The body's quotient: the linear part over the row length bounded below, with the identity reshapes removed. -/
theorem k4_pay1_eq (a x : FVec Ideal S4000x256 .bf16) (wl wr : FVec Ideal S256x256 .f32) (bl : FVec Ideal S1x256 .f32) :
    k4_pay1 a x wl wr bl
      = divf (lin4 a x wl wr bl)
          (broadcastTo S4000x256
            (maximumf
              (sqrt (shapeCast S4000x1
                (multiReduction .add [1] S4000 (mulf (lin4 a x wl wr bl) (lin4 a x wl wr bl)) 0x00000000#32
                  reduces_S4000x256_S4000 (.inl rfl) rfl) shapeCasts_S4000_S4000x1))
              (broadcast S4000x1 (Scalar.ofBits .f32 0x2B8CBCCC#32)))
            broadcasts_S4000x1_S4000x256) := by
  unfold k4_pay1 lin4
  simp only [shapeCast_self]

/-- The quotient at (p, q) is the normalised layer of the block's rows. -/
theorem k4_pay1_ix2 (a x : FVec Ideal S4000x256 .bf16) (wl wr : FVec Ideal S256x256 .f32) (bl : FVec Ideal S1x256 .f32) (p : Fin 4000) (q : Fin 256) :
    k4_pay1 (F := Ideal) a x wl wr bl (ix2 p q) = pre a x wl wr bl p q := by
  rw [k4_pay1_eq, divf_apply, broadcastTo_a1_ab_apply, maximumf_apply, broadcast_apply]
  show Ideal.div _ (max (Ideal.sqrt (shapeCast S4000x1 _ shapeCasts_S4000_S4000x1 (ix2 p (0 : Fin 1)))) _) = _
  rw [shapeCast_a_a1_apply]
  have hA : lin4 a x wl wr bl (ix2 p q) = lin a x wl wr bl p q := lin4_ix2 a x wl wr bl p q
  have hB : multiReduction .add [1] S4000 (mulf (lin4 a x wl wr bl) (lin4 a x wl wr bl)) 0x00000000#32
      reduces_S4000x256_S4000 (.inl rfl) rfl (ix1 p)
        = ∑ j : Fin 256, lin a x wl wr bl p j * lin a x wl wr bl p j :=
    (sumLanes_ix1 _ _ _ _ _ p).trans (Finset.sum_congr rfl fun j _ => by rw [mulf_apply, lin4_ix2])
  exact congrArg₂ Ideal.div hA (congrArg (fun s => max (Ideal.sqrt s) eps) hB)

/-- What the body stores in the layer's block: the normalised layer of the block's rows. -/
theorem k4_pay2_ix2 (a x : FVec Ideal S4000x256 .bf16) (wl wr : FVec Ideal S256x256 .f32) (bl : FVec Ideal S1x256 .f32) (p : Fin 4000) (q : Fin 256) :
    k4_pay2 (F := Ideal) a x wl wr bl (ix2 p q) = pre a x wl wr bl p q :=
  k4_pay1_ix2 a x wl wr bl p q

/-- What the body stores in the block-sum window: the column sums of the block's 4000 normalised rows. -/
theorem k4_pay3_ix3 (a x : FVec Ideal S4000x256 .bf16) (wl wr : FVec Ideal S256x256 .f32) (bl : FVec Ideal S1x256 .f32) (u v : Fin 1) (q : Fin 256) :
    k4_pay3 (F := Ideal) a x wl wr bl (ix3 u v q) = ∑ r : Fin 4000, pre a x wl wr bl r q := by
  unfold k4_pay3
  rw [shapeCast_a_11a_apply]
  refine (sumRows_ix1 _ _ _ _ _ q).trans ?_
  exact Finset.sum_congr rfl fun r _ => k4_pay1_ix2 a x wl wr bl r q

/-- What the body stores in the square-sum window: the column sums of the squares of the block's normalised rows. -/
theorem k4_pay4_ix3 (a x : FVec Ideal S4000x256 .bf16) (wl wr : FVec Ideal S256x256 .f32) (bl : FVec Ideal S1x256 .f32) (u v : Fin 1) (q : Fin 256) :
    k4_pay4 (F := Ideal) a x wl wr bl (ix3 u v q) = ∑ r : Fin 4000, pre a x wl wr bl r q * pre a x wl wr bl r q := by
  unfold k4_pay4
  rw [shapeCast_a_11a_apply]
  refine (sumRows_ix1 _ _ _ _ _ q).trans ?_
  refine Finset.sum_congr rfl fun r _ => ?_
  rw [mulf_apply, k4_pay1_ix2]

/-! ## Region 4: one grid point's three stores against the whole arrays

The block of point b holds rows 4000·b … 4000·b + 3999 of the two feature arrays and the whole of the two weight
matrices and of the bias row. Then each entry the body stores is the entry of the whole-array function at the matching
index: same column, row 4000·b + r for the layer, block b for the two sums. -/

theorem point4_5 (A X : S100000x256.Idx → EReal) (WL WR : S256x256.Idx → EReal) (BL : S1x256.Idx → EReal) (b : Fin 25)
    (a x : FVec Ideal S4000x256 .bf16) (wl wr : FVec Ideal S256x256 .f32) (bl : FVec Ideal S1x256 .f32)
    (ha : ∀ (r : Fin 4000) (k : Fin 256), a (ix2 r k) = A (ix2 (rowAt b r) k))
    (hx : ∀ (r : Fin 4000) (k : Fin 256), x (ix2 r k) = X (ix2 (rowAt b r) k))
    (hwl : wl = WL) (hwr : wr = WR) (hbl : bl = BL)
    (y : S4000x256.Idx) (i : S100000x256.Idx) (hi0 : (i 0).val = 4000 * b.val + (y 0).val) (hi1 : (i 1).val = (y 1).val) :
    k4_pay2 (F := Ideal) a x wl wr bl y = preArr A X WL WR BL i := by
  subst hwl hwr hbl
  obtain ⟨r, q, rfl⟩ : ∃ (r : Fin 4000) (q : Fin 256), y = ix2 r q := ⟨y 0, y 1, eq_ix2 y⟩
  obtain ⟨i0, i1, rfl⟩ : ∃ (i0 : Fin 100000) (i1 : Fin 256), i = ix2 i0 i1 := ⟨i 0, i 1, eq_ix2 i⟩
  obtain rfl : i0 = rowAt b r := Fin.ext hi0
  obtain rfl : i1 = q := Fin.ext hi1
  rw [k4_pay2_ix2, preArr_ix2]
  exact pre_of_rows a x A X wl wr bl r (rowAt b r) (ha r) (hx r) i1

theorem point4_6 (A X : S100000x256.Idx → EReal) (WL WR : S256x256.Idx → EReal) (BL : S1x256.Idx → EReal) (b : Fin 25)
    (a x : FVec Ideal S4000x256 .bf16) (wl wr : FVec Ideal S256x256 .f32) (bl : FVec Ideal S1x256 .f32)
    (ha : ∀ (r : Fin 4000) (k : Fin 256), a (ix2 r k) = A (ix2 (rowAt b r) k))
    (hx : ∀ (r : Fin 4000) (k : Fin 256), x (ix2 r k) = X (ix2 (rowAt b r) k))
    (hwl : wl = WL) (hwr : wr = WR) (hbl : bl = BL)
    (y : S1x1x256.Idx) (i : S25x1x256.Idx) (hi0 : (i 0).val = b.val) (hi2 : (i 2).val = (y 2).val) :
    k4_pay3 (F := Ideal) a x wl wr bl y = sumArr rowAt A X WL WR BL i := by
  subst hwl hwr hbl
  obtain ⟨u, v, q, rfl⟩ : ∃ (u v : Fin 1) (q : Fin 256), y = ix3 u v q := ⟨y 0, y 1, y 2, eq_ix3 y⟩
  obtain ⟨i0, i1, i2, rfl⟩ : ∃ (i0 : Fin 25) (i1 : Fin 1) (i2 : Fin 256), i = ix3 i0 i1 i2 := ⟨i 0, i 1, i 2, eq_ix3 i⟩
  obtain rfl : i0 = b := Fin.ext hi0
  obtain rfl : i2 = q := Fin.ext hi2
  rw [k4_pay3_ix3]
  show _ = ∑ r : Fin 4000, pre A X wl wr bl (rowAt i0 r) i2
  exact Finset.sum_congr rfl fun r _ => pre_of_rows a x A X wl wr bl r (rowAt i0 r) (ha r) (hx r) i2

theorem point4_7 (A X : S100000x256.Idx → EReal) (WL WR : S256x256.Idx → EReal) (BL : S1x256.Idx → EReal) (b : Fin 25)
    (a x : FVec Ideal S4000x256 .bf16) (wl wr : FVec Ideal S256x256 .f32) (bl : FVec Ideal S1x256 .f32)
    (ha : ∀ (r : Fin 4000) (k : Fin 256), a (ix2 r k) = A (ix2 (rowAt b r) k))
    (hx : ∀ (r : Fin 4000) (k : Fin 256), x (ix2 r k) = X (ix2 (rowAt b r) k))
    (hwl : wl = WL) (hwr : wr = WR) (hbl : bl = BL)
    (y : S1x1x256.Idx) (i : S25x1x256.Idx) (hi0 : (i 0).val = b.val) (hi2 : (i 2).val = (y 2).val) :
    k4_pay4 (F := Ideal) a x wl wr bl y = sqArr rowAt A X WL WR BL i := by
  subst hwl hwr hbl
  obtain ⟨u, v, q, rfl⟩ : ∃ (u v : Fin 1) (q : Fin 256), y = ix3 u v q := ⟨y 0, y 1, y 2, eq_ix3 y⟩
  obtain ⟨i0, i1, i2, rfl⟩ : ∃ (i0 : Fin 25) (i1 : Fin 1) (i2 : Fin 256), i = ix3 i0 i1 i2 := ⟨i 0, i 1, i 2, eq_ix3 i⟩
  obtain rfl : i0 = b := Fin.ext hi0
  obtain rfl : i2 = q := Fin.ext hi2
  rw [k4_pay4_ix3]
  show _ = ∑ r : Fin 4000, pre A X wl wr bl (rowAt i0 r) i2 * pre A X wl wr bl (rowAt i0 r) i2
  exact Finset.sum_congr rfl fun r _ => by rw [pre_of_rows a x A X wl wr bl r (rowAt i0 r) (ha r) (hx r) i2]

end Cert.KernelIdeal.KSage

end
-- ==== Proof.KSage4Arr.lean ====
/-
  Layer block 4 of the network (feature width 256 to 256): the three result arrays after the 25 grid points.

  Point t of the grid reads rows 4000·t … 4000·t + 3999 of the two feature arrays and the whole of the two weight
  matrices and of the bias row, and writes back block t of the layer's array and entry block t of the two arrays
  of sums. What it writes is the matching block of ONE function of the five whole input arrays — the normalised
  layer, its column sums inside each block of rows, and the column sums of its squares —, and the 25 blocks cover
  each result array, so after the last point each result array is that function.
-/
import proofs.«169498_j72670846649171_2_alg».proof.Proof.Gen.KernelIdeal.Frame
import proofs.«169498_j72670846649171_2_alg».proof.Proof.KSage4Pay
import Idealize.ShloMosaic.Lib.Pipeline.Value

noncomputable section

open scoped BigOperators

namespace Cert.KernelIdeal.KSage

open Idealize.ShloMosaic Idealize.ShloMosaic.TcCoe Idealize.ShloMosaic.ValueIdx Idealize.SL.Sem
open Idealize.ShloMosaic.Pipeline (Dat)
open Cert.KernelIdeal Cert.KernelIdeal.Gen

theorem hzero2_4 : (![0, 0] : Fin 2 → Nat) = fun _ => 0 := funext fun a => by fin_cases a <;> rfl
theorem hzero3_4 : (![0, 0, 0] : Fin 3 → Nat) = fun _ => 0 := funext fun a => by fin_cases a <;> rfl

variable (V : (c : Dev nD) → (b : Ref sig .tc) → Buf (Elt Ideal) ((c : Thread nD τ).loc b))

/-! ## Region 4: the three results as functions of the arrays the region finds -/

/-- The normalised layer of the region's five input arrays. -/
abbrev pre4 (c : Dev nD) : S100000x256.Idx → EReal :=
  preArr (R := 100000) (Hin := 256) (Hout := 256) (V c main_v102) (V c main_v87) (V c main_v104) (V c main_v108) (V c main_v113)

/-- Its column sums inside each of the 25 blocks of 4000 rows. -/
abbrev sum4 (c : Dev nD) : S25x1x256.Idx → EReal :=
  sumArr (R := 100000) (nB := 25) (B := 4000) (Hin := 256) (Hout := 256) rowAt (V c main_v102) (V c main_v87) (V c main_v104) (V c main_v108) (V c main_v113)

/-- The column sums of its squares inside each block. -/
abbrev sq4 (c : Dev nD) : S25x1x256.Idx → EReal :=
  sqArr (R := 100000) (nB := 25) (B := 4000) (Hin := 256) (Hout := 256) rowAt (V c main_v102) (V c main_v87) (V c main_v104) (V c main_v108) (V c main_v113)

/-! ## The grid: point t works on block t -/

/-- A grid point as a block number. -/
def pt4 (t : Fin cfg4.N) : Fin 25 := ⟨t.val, lt_of_lt_of_eq t.isLt N_4⟩

/-- The block index of every window at every point, decided over the 25 points: the row-blocked windows sit at block
    (t, 0) or (t, 0, 0), the weights and the bias at block (0, 0). -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 3) = t.val ∧ win4_6.index t (1 : Fin 3) = 0 ∧ win4_6.index t (2 : Fin 3) = 0
    ∧ win4_7.index t (0 : Fin 3) = t.val ∧ win4_7.index t (1 : Fin 3) = 0 ∧ win4_7.index t (2 : Fin 3) = 0 :=
  (by decide +kernel : ∀ t : Fin grid4.N, _)

/-! ## The input windows' blocks as parts of the arrays -/

/-- Window 0's block at point t is rows 4000·t … 4000·t + 3999 of the aggregated features. -/
theorem iblk4_0_apply (c : Dev nD) (t : Fin cfg4.N) (r : Fin 4000) (j : Fin 256) :
    (iblk4 V c 0 t : FVec Ideal S4000x256 .bf16) (ix2 r j) = (V c main_v102 : S100000x256.Idx → EReal) (ix2 (rowAt (pt4 t) r) j) := by
  have e0 := (idx4 t).1
  have e1 := (idx4 t).2.1
  unfold iblk4
  rw [View.read_apply]
  show V c main_v102 _ = V c main_v102 _
  refine congrArg (V c main_v102) (funext fun a => Fin.ext ?_)
  match a with
  | ⟨0, _⟩ => show win4_0.index t (0 : Fin 2) * 4000 + 1 * r.val = 4000 * t.val + r.val; rw [e0]; omega
  | ⟨1, _⟩ => show win4_0.index t (1 : Fin 2) * 256 + 1 * j.val = j.val; rw [e1]; omega

/-- Window 1's block at point t is rows 4000·t … 4000·t + 3999 of the features. -/
theorem iblk4_1_apply (c : Dev nD) (t : Fin cfg4.N) (r : Fin 4000) (j : Fin 256) :
    (iblk4 V c 1 t : FVec Ideal S4000x256 .bf16) (ix2 r j) = (V c main_v87 : S100000x256.Idx → EReal) (ix2 (rowAt (pt4 t) r) j) := by
  have e0 := (idx4 t).2.2.1
  have e1 := (idx4 t).2.2.2.1
  unfold iblk4
  rw [View.read_apply]
  show V c main_v87 _ = V c main_v87 _
  refine congrArg (V c main_v87) (funext fun a => Fin.ext ?_)
  match a with
  | ⟨0, _⟩ => show win4_1.index t (0 : Fin 2) * 4000 + 1 * r.val = 4000 * t.val + r.val; rw [e0]; omega
  | ⟨1, _⟩ => show win4_1.index t (1 : Fin 2) * 256 + 1 * j.val = j.val; rw [e1]; omega

/-- Window 2's block at every point is the whole of the first weight matrix. -/
theorem iblk4_2_eq (c : Dev nD) (t : Fin cfg4.N) :
    (iblk4 V c 2 t : FVec Ideal S256x256 .f32) = (V c main_v104 : S256x256.Idx → EReal) := by
  have e0 := (idx4 t).2.2.2.2.1
  have e1 := (idx4 t).2.2.2.2.2.1
  funext y
  unfold iblk4
  rw [View.read_apply]
  show V c main_v104 _ = V c main_v104 y
  refine congrArg (V c main_v104) (funext fun a => Fin.ext ?_)
  match a with
  | ⟨0, _⟩ => show win4_2.index t (0 : Fin 2) * 256 + 1 * (y 0).val = (y 0).val; rw [e0]; omega
  | ⟨1, _⟩ => show win4_2.index t (1 : Fin 2) * 256 + 1 * (y 1).val = (y 1).val; rw [e1]; omega

/-- Window 3's block at every point is the whole of the second weight matrix. -/
theorem iblk4_3_eq (c : Dev nD) (t : Fin cfg4.N) :
    (iblk4 V c 3 t : FVec Ideal S256x256 .f32) = (V c main_v108 : S256x256.Idx → EReal) := by
  have e0 := (idx4 t).2.2.2.2.2.2.1
  have e1 := (idx4 t).2.2.2.2.2.2.2.1
  funext y
  unfold iblk4
  rw [View.read_apply]
  show V c main_v108 _ = V c main_v108 y
  refine congrArg (V c main_v108) (funext fun a => Fin.ext ?_)
  match a with
  | ⟨0, _⟩ => show win4_3.index t (0 : Fin 2) * 256 + 1 * (y 0).val = (y 0).val; rw [e0]; omega
  | ⟨1, _⟩ => show win4_3.index t (1 : Fin 2) * 256 + 1 * (y 1).val = (y 1).val; rw [e1]; omega

/-- Window 4's block at every point is the whole of the bias row. -/
theorem iblk4_4_eq (c : Dev nD) (t : Fin cfg4.N) :
    (iblk4 V c 4 t : FVec Ideal S1x256 .f32) = (V c main_v113 : S1x256.Idx → EReal) := by
  have e0 := (idx4 t).2.2.2.2.2.2.2.2.1
  have e1 := (idx4 t).2.2.2.2.2.2.2.2.2.1
  funext y
  unfold iblk4
  rw [View.read_apply]
  show V c main_v113 _ = V c main_v113 y
  refine congrArg (V c main_v113) (funext fun a => Fin.ext ?_)
  match a with
  | ⟨0, _⟩ => show win4_4.index t (0 : Fin 2) * 1 + 1 * (y 0).val = (y 0).val; rw [e0]; omega
  | ⟨1, _⟩ => show win4_4.index t (1 : Fin 2) * 256 + 1 * (y 1).val = (y 1).val; rw [e1]; omega

/-! ## Window 5: the layer -/

/-- What point t writes back through window 5 is block t of the layer of the whole arrays. -/
theorem flushed4_5_eq (c : Dev nD) (t : Fin cfg4.N) :
    (dat4 V c).flushed 5 t = ((cfg4.win 5).blk t).view.read (Elt Ideal) (pre4 V c) := by
  have e0 := (idx4 t).2.2.2.2.2.2.2.2.2.2.1
  have e1 := (idx4 t).2.2.2.2.2.2.2.2.2.2.2.1
  show (cfg4.win 5).cut (grid4.coords t) ((dat4 V c).after 5 t) = _
  rw [after4_5]
  unfold out4_5
  rw [View.canon_unit_zero hzero2_4]
  simp only [View.ld_unit_zero (S := S4000x256) hzero2_4, View.ld_unit_zero (S := S256x256) hzero2_4, View.ld_unit_zero (S := S1x256) hzero2_4]
  funext y
  show k4_pay2 (iblk4 V c 0 t) (iblk4 V c 1 t) (iblk4 V c 2 t) (iblk4 V c 3 t) (iblk4 V c 4 t) y
    = pre4 V c (((cfg4.win 5).blk t).view.emb y)
  refine point4_5 (V c main_v102) (V c main_v87) (V c main_v104) (V c main_v108) (V c main_v113) (pt4 t) _ _ _ _ _
    (iblk4_0_apply V c t) (iblk4_1_apply V c t) (iblk4_2_eq V c t) (iblk4_3_eq V c t) (iblk4_4_eq V c t) y _ ?_ ?_
  · show win4_5.index t (0 : Fin 2) * 4000 + 1 * (y 0).val = 4000 * t.val + (y 0).val
    rw [e0]; omega
  · show win4_5.index t (1 : Fin 2) * 256 + 1 * (y 1).val = (y 1).val
    rw [e1]; omega

theorem mem_blk4_5 (t : Fin cfg4.N) (i : S100000x256.Idx) :
    i ∈ ((cfg4.win 5).blk t).view.set ↔ ∀ a : Fin 2, win4_5.index t a * S4000x256.size a ≤ (i a).val ∧ (i a).val < win4_5.index t a * S4000x256.size a + S4000x256.size a := by
  show i ∈ ((View.whole main_v114_0).slice (win4_5.rect t)).set ↔ _
  rw [View.set_slice_whole, Rect.mem_set_unit]
  exact Iff.rfl

/-- Every row of the array lies in the block of point ⌊row / 4000⌋. -/
theorem cover4_5_all (i : S100000x256.Idx) : ∃ t : Fin cfg4.N, (cfg4.win 5).flush t = true ∧ i ∈ ((cfg4.win 5).blk t).view.set := by
  have hN : cfg4.N = 25 := N_4
  have hi0 : (i 0).val < 100000 := (i 0).isLt
  have hi1 : (i 1).val < 256 := (i 1).isLt
  have hlt : (i 0).val / 4000 < cfg4.N := by rw [hN]; omega
  have e0 := (idx4 ⟨(i 0).val / 4000, hlt⟩).2.2.2.2.2.2.2.2.2.2.1
  have e1 := (idx4 ⟨(i 0).val / 4000, hlt⟩).2.2.2.2.2.2.2.2.2.2.2.1
  refine ⟨⟨(i 0).val / 4000, hlt⟩, flush4_5 _, ?_⟩
  rw [mem_blk4_5]
  intro a
  match a with
  | ⟨0, _⟩ =>
    show win4_5.index _ (0 : Fin 2) * 4000 ≤ (i 0).val ∧ (i 0).val < win4_5.index _ (0 : Fin 2) * 4000 + 4000
    rw [e0]; show (i 0).val / 4000 * 4000 ≤ (i 0).val ∧ (i 0).val < (i 0).val / 4000 * 4000 + 4000; omega
  | ⟨1, _⟩ =>
    show win4_5.index _ (1 : Fin 2) * 256 ≤ (i 1).val ∧ (i 1).val < win4_5.index _ (1 : Fin 2) * 256 + 256
    rw [e1]; omega

/-- After the region the layer's array holds the normalised layer of the five input arrays. -/
theorem arr4_5 (c : Dev nD) : (dat4 V c).arrAt 5 cfg4.N = pre4 V c :=
  (dat4 V c).arrAt_eq_of_cover 5 (pre4 V c) (fun t _ => flushed4_5_eq V c t) cover4_5_all

/-! ## Window 6: the block sums -/

/-- What point t writes back through window 6 is block t of the whole-array function. -/
theorem flushed4_6_eq (c : Dev nD) (t : Fin cfg4.N) :
    (dat4 V c).flushed 6 t = ((cfg4.win 6).blk t).view.read (Elt Ideal) (sum4 V c) := by
  have e0 := (idx4 t).2.2.2.2.2.2.2.2.2.2.2.2.1
  have e2 := (idx4 t).2.2.2.2.2.2.2.2.2.2.2.2.2.2.1
  show (cfg4.win 6).cut (grid4.coords t) ((dat4 V c).after 6 t) = _
  rw [after4_6]
  unfold out4_6
  rw [View.canon_unit_zero hzero3_4]
  simp only [View.ld_unit_zero (S := S4000x256) hzero2_4, View.ld_unit_zero (S := S256x256) hzero2_4, View.ld_unit_zero (S := S1x256) hzero2_4]
  funext y
  show k4_pay3 (iblk4 V c 0 t) (iblk4 V c 1 t) (iblk4 V c 2 t) (iblk4 V c 3 t) (iblk4 V c 4 t) y
    = sum4 V c (((cfg4.win 6).blk t).view.emb y)
  refine point4_6 (V c main_v102) (V c main_v87) (V c main_v104) (V c main_v108) (V c main_v113) (pt4 t) _ _ _ _ _
    (iblk4_0_apply V c t) (iblk4_1_apply V c t) (iblk4_2_eq V c t) (iblk4_3_eq V c t) (iblk4_4_eq V c t) y _ ?_ ?_
  · show win4_6.index t (0 : Fin 3) * 1 + 1 * (y 0).val = t.val
    have hy : (y 0).val < 1 := (y 0).isLt
    rw [e0]; omega
  · show win4_6.index t (2 : Fin 3) * 256 + 1 * (y 2).val = (y 2).val
    rw [e2]; omega

theorem mem_blk4_6 (t : Fin cfg4.N) (i : S25x1x256.Idx) :
    i ∈ ((cfg4.win 6).blk t).view.set ↔ ∀ a : Fin 3, win4_6.index t a * S1x1x256.size a ≤ (i a).val ∧ (i a).val < win4_6.index t a * S1x1x256.size a + S1x1x256.size a := by
  show i ∈ ((View.whole main_v114_1).slice (win4_6.rect t)).set ↔ _
  rw [View.set_slice_whole, Rect.mem_set_unit]
  exact Iff.rfl

/-- Every entry of the [25, 1, 256] array lies in the block of the point its first coordinate names. -/
theorem cover4_6_all (i : S25x1x256.Idx) : ∃ t : Fin cfg4.N, (cfg4.win 6).flush t = true ∧ i ∈ ((cfg4.win 6).blk t).view.set := by
  have hN : cfg4.N = 25 := N_4
  have hi0 : (i 0).val < 25 := (i 0).isLt
  have hi1 : (i 1).val < 1 := (i 1).isLt
  have hi2 : (i 2).val < 256 := (i 2).isLt
  have e0 := (idx4 ⟨(i 0).val, by rw [hN]; exact hi0⟩).2.2.2.2.2.2.2.2.2.2.2.2.1
  have e1 := (idx4 ⟨(i 0).val, by rw [hN]; exact hi0⟩).2.2.2.2.2.2.2.2.2.2.2.2.2.1
  have e2 := (idx4 ⟨(i 0).val, by rw [hN]; exact hi0⟩).2.2.2.2.2.2.2.2.2.2.2.2.2.2.1
  refine ⟨⟨(i 0).val, by rw [hN]; exact hi0⟩, flush4_6 _, ?_⟩
  rw [mem_blk4_6]
  intro a
  match a with
  | ⟨0, _⟩ =>
    show win4_6.index _ (0 : Fin 3) * 1 ≤ (i 0).val ∧ (i 0).val < win4_6.index _ (0 : Fin 3) * 1 + 1
    rw [e0]; show (i 0).val * 1 ≤ (i 0).val ∧ (i 0).val < (i 0).val * 1 + 1; omega
  | ⟨1, _⟩ =>
    show win4_6.index _ (1 : Fin 3) * 1 ≤ (i 1).val ∧ (i 1).val < win4_6.index _ (1 : Fin 3) * 1 + 1
    rw [e1]; omega
  | ⟨2, _⟩ =>
    show win4_6.index _ (2 : Fin 3) * 256 ≤ (i 2).val ∧ (i 2).val < win4_6.index _ (2 : Fin 3) * 256 + 256
    rw [e2]; omega

/-- After the region the block-sum array holds the layer's column sums inside each block. -/
theorem arr4_6 (c : Dev nD) : (dat4 V c).arrAt 6 cfg4.N = sum4 V c :=
  (dat4 V c).arrAt_eq_of_cover 6 (sum4 V c) (fun t _ => flushed4_6_eq V c t) cover4_6_all

/-! ## Window 7: the block sums of squares -/

/-- What point t writes back through window 7 is block t of the whole-array function. -/
theorem flushed4_7_eq (c : Dev nD) (t : Fin cfg4.N) :
    (dat4 V c).flushed 7 t = ((cfg4.win 7).blk t).view.read (Elt Ideal) (sq4 V c) := by
  have e0 := (idx4 t).2.2.2.2.2.2.2.2.2.2.2.2.2.2.2.1
  have e2 := (idx4 t).2.2.2.2.2.2.2.2.2.2.2.2.2.2.2.2.2
  show (cfg4.win 7).cut (grid4.coords t) ((dat4 V c).after 7 t) = _
  rw [after4_7]
  unfold out4_7
  rw [View.canon_unit_zero hzero3_4]
  simp only [View.ld_unit_zero (S := S4000x256) hzero2_4, View.ld_unit_zero (S := S256x256) hzero2_4, View.ld_unit_zero (S := S1x256) hzero2_4]
  funext y
  show k4_pay4 (iblk4 V c 0 t) (iblk4 V c 1 t) (iblk4 V c 2 t) (iblk4 V c 3 t) (iblk4 V c 4 t) y
    = sq4 V c (((cfg4.win 7).blk t).view.emb y)
  refine point4_7 (V c main_v102) (V c main_v87) (V c main_v104) (V c main_v108) (V c main_v113) (pt4 t) _ _ _ _ _
    (iblk4_0_apply V c t) (iblk4_1_apply V c t) (iblk4_2_eq V c t) (iblk4_3_eq V c t) (iblk4_4_eq V c t) y _ ?_ ?_
  · show win4_7.index t (0 : Fin 3) * 1 + 1 * (y 0).val = t.val
    have hy : (y 0).val < 1 := (y 0).isLt
    rw [e0]; omega
  · show win4_7.index t (2 : Fin 3) * 256 + 1 * (y 2).val = (y 2).val
    rw [e2]; omega

theorem mem_blk4_7 (t : Fin cfg4.N) (i : S25x1x256.Idx) :
    i ∈ ((cfg4.win 7).blk t).view.set ↔ ∀ a : Fin 3, win4_7.index t a * S1x1x256.size a ≤ (i a).val ∧ (i a).val < win4_7.index t a * S1x1x256.size a + S1x1x256.size a := by
  show i ∈ ((View.whole main_v114_2).slice (win4_7.rect t)).set ↔ _
  rw [View.set_slice_whole, Rect.mem_set_unit]
  exact Iff.rfl

/-- Every entry of the [25, 1, 256] array lies in the block of the point its first coordinate names. -/
theorem cover4_7_all (i : S25x1x256.Idx) : ∃ t : Fin cfg4.N, (cfg4.win 7).flush t = true ∧ i ∈ ((cfg4.win 7).blk t).view.set := by
  have hN : cfg4.N = 25 := N_4
  have hi0 : (i 0).val < 25 := (i 0).isLt
  have hi1 : (i 1).val < 1 := (i 1).isLt
  have hi2 : (i 2).val < 256 := (i 2).isLt
  have e0 := (idx4 ⟨(i 0).val, by rw [hN]; exact hi0⟩).2.2.2.2.2.2.2.2.2.2.2.2.2.2.2.1
  have e1 := (idx4 ⟨(i 0).val, by rw [hN]; exact hi0⟩).2.2.2.2.2.2.2.2.2.2.2.2.2.2.2.2.1
  have e2 := (idx4 ⟨(i 0).val, by rw [hN]; exact hi0⟩).2.2.2.2.2.2.2.2.2.2.2.2.2.2.2.2.2
  refine ⟨⟨(i 0).val, by rw [hN]; exact hi0⟩, flush4_7 _, ?_⟩
  rw [mem_blk4_7]
  intro a
  match a with
  | ⟨0, _⟩ =>
    show win4_7.index _ (0 : Fin 3) * 1 ≤ (i 0).val ∧ (i 0).val < win4_7.index _ (0 : Fin 3) * 1 + 1
    rw [e0]; show (i 0).val * 1 ≤ (i 0).val ∧ (i 0).val < (i 0).val * 1 + 1; omega
  | ⟨1, _⟩ =>
    show win4_7.index _ (1 : Fin 3) * 1 ≤ (i 1).val ∧ (i 1).val < win4_7.index _ (1 : Fin 3) * 1 + 1
    rw [e1]; omega
  | ⟨2, _⟩ =>
    show win4_7.index _ (2 : Fin 3) * 256 ≤ (i 2).val ∧ (i 2).val < win4_7.index _ (2 : Fin 3) * 256 + 256
    rw [e2]; omega

/-- After the region the square-sum array holds the column sums of the layer's squares inside each block. -/
theorem arr4_7 (c : Dev nD) : (dat4 V c).arrAt 7 cfg4.N = sq4 V c :=
  (dat4 V c).arrAt_eq_of_cover 7 (sq4 V c) (fun t _ => flushed4_7_eq V c t) cover4_7_all

end Cert.KernelIdeal.KSage

end
-- ==== Proof.KSage6Pay.lean ====
/-
  Layer block 6 of the network (feature width 256 to 256): what one row block of 4000 rows computes, entry by entry.

  The body forms agg · wl + x · wr + bl on the block's rows, divides each row by the larger of its Euclidean length
  and the threshold, stores that block, and stores the column sums of the block and of its squares. Read at an
  index over the extended reals (where a change of float format is the identity) these are the specification's
  normalised layer on the block's rows and its two 4000-term column sums. Since a row of the layer depends on the
  same row of the two feature matrices only, the block of point b agrees with rows 4000·b … 4000·b + 3999 of the
  whole-array function, and the two sums with its block sums at block b.
-/
import proofs.«169498_j72670846649171_2_alg».proof.Proof.Gen.KernelIdeal.Skeleton
import proofs.«169498_j72670846649171_2_alg».proof.Proof.KSageSpec
import proofs.«169498_j72670846649171_2_alg».proof.Proof.KSageOps

noncomputable section

open scoped BigOperators

namespace Cert.KernelIdeal.KSage

open Idealize.ShloMosaic Idealize.ShloMosaic.ValueIdx
open Cert.KernelIdeal Cert.KernelIdeal.Gen

/-! ## Region 6: the body's values at an index -/

/-- The linear part of one block of 4000 rows, as the body computes it: two matrix products into zero
    accumulators, added, plus the bias row spread over the rows. -/
def lin6 (a x : FVec Ideal S4000x256 .bf16) (wl wr : FVec Ideal S256x256 .f32) (bl : FVec Ideal S1x256 .f32) : FVec Ideal S4000x256 .f32 :=
  addf (addf (matmul dot_S4000x256_S256x256_S4000x256_1_0_0_1_n_n none a (truncf .bf16 wl bitsLt_bf16_f32) (constant S4000x256 .f32 0x00000000#32))
      (matmul dot_S4000x256_S256x256_S4000x256_1_0_0_1_n_n none x (truncf .bf16 wr bitsLt_bf16_f32) (constant S4000x256 .f32 0x00000000#32)))
    (broadcastTo S4000x256 bl broadcasts_S1x256_S4000x256)

/-- At (p, q) it is the linear part of the specification on the block's rows: the format changes are the identity
    on extended reals. -/
theorem lin6_ix2 (a x : FVec Ideal S4000x256 .bf16) (wl wr : FVec Ideal S256x256 .f32) (bl : FVec Ideal S1x256 .f32) (p : Fin 4000) (q : Fin 256) :
    lin6 a x wl wr bl (ix2 p q) = lin a x wl wr bl p q := by
  unfold lin6
  rw [addf_apply, addf_apply, matmul_zero_ix2 _ rfl rfl rfl rfl rfl rfl, matmul_zero_ix2 _ rfl rfl rfl rfl rfl rfl,
    broadcastTo_1b_ab_apply]
  rfl

/-- The body's quotient: the linear part over the row length bounded below, with the identity reshapes removed. -/
theorem k6_pay1_eq (a x : FVec Ideal S4000x256 .bf16) (wl wr : FVec Ideal S256x256 .f32) (bl : FVec Ideal S1x256 .f32) :
    k6_pay1 a x wl wr bl
      = divf (lin6 a x wl wr bl)
          (broadcastTo S4000x256
            (maximumf
              (sqrt (shapeCast S4000x1
                (multiReduction .add [1] S4000 (mulf (lin6 a x wl wr bl) (lin6 a x wl wr bl)) 0x00000000#32
                  reduces_S4000x256_S4000 (.inl rfl) rfl) shapeCasts_S4000_S4000x1))
              (broadcast S4000x1 (Scalar.ofBits .f32 0x2B8CBCCC#32)))
            broadcasts_S4000x1_S4000x256) := by
  unfold k6_pay1 lin6
  simp only [shapeCast_self]

/-- The quotient at (p, q) is the normalised layer of the block's rows. -/
theorem k6_pay1_ix2 (a x : FVec Ideal S4000x256 .bf16) (wl wr : FVec Ideal S256x256 .f32) (bl : FVec Ideal S1x256 .f32) (p : Fin 4000) (q : Fin 256) :
    k6_pay1 (F := Ideal) a x wl wr bl (ix2 p q) = pre a x wl wr bl p q := by
  rw [k6_pay1_eq, divf_apply, broadcastTo_a1_ab_apply, maximumf_apply, broadcast_apply]
  show Ideal.div _ (max (Ideal.sqrt (shapeCast S4000x1 _ shapeCasts_S4000_S4000x1 (ix2 p (0 : Fin 1)))) _) = _
  rw [shapeCast_a_a1_apply]
  have hA : lin6 a x wl wr bl (ix2 p q) = lin a x wl wr bl p q := lin6_ix2 a x wl wr bl p q
  have hB : multiReduction .add [1] S4000 (mulf (lin6 a x wl wr bl) (lin6 a x wl wr bl)) 0x00000000#32
      reduces_S4000x256_S4000 (.inl rfl) rfl (ix1 p)
        = ∑ j : Fin 256, lin a x wl wr bl p j * lin a x wl wr bl p j :=
    (sumLanes_ix1 _ _ _ _ _ p).trans (Finset.sum_congr rfl fun j _ => by rw [mulf_apply, lin6_ix2])
  exact congrArg₂ Ideal.div hA (congrArg (fun s => max (Ideal.sqrt s) eps) hB)

/-- What the body stores in the layer's block: the normalised layer of the block's rows. -/
theorem k6_pay2_ix2 (a x : FVec Ideal S4000x256 .bf16) (wl wr : FVec Ideal S256x256 .f32) (bl : FVec Ideal S1x256 .f32) (p : Fin 4000) (q : Fin 256) :
    k6_pay2 (F := Ideal) a x wl wr bl (ix2 p q) = pre a x wl wr bl p q :=
  k6_pay1_ix2 a x wl wr bl p q

/-- What the body stores in the block-sum window: the column sums of the block's 4000 normalised rows. -/
theorem k6_pay3_ix3 (a x : FVec Ideal S4000x256 .bf16) (wl wr : FVec Ideal S256x256 .f32) (bl : FVec Ideal S1x256 .f32) (u v : Fin 1) (q : Fin 256) :
    k6_pay3 (F := Ideal) a x wl wr bl (ix3 u v q) = ∑ r : Fin 4000, pre a x wl wr bl r q := by
  unfold k6_pay3
  rw [shapeCast_a_11a_apply]
  refine (sumRows_ix1 _ _ _ _ _ q).trans ?_
  exact Finset.sum_congr rfl fun r _ => k6_pay1_ix2 a x wl wr bl r q

/-- What the body stores in the square-sum window: the column sums of the squares of the block's normalised rows. -/
theorem k6_pay4_ix3 (a x : FVec Ideal S4000x256 .bf16) (wl wr : FVec Ideal S256x256 .f32) (bl : FVec Ideal S1x256 .f32) (u v : Fin 1) (q : Fin 256) :
    k6_pay4 (F := Ideal) a x wl wr bl (ix3 u v q) = ∑ r : Fin 4000, pre a x wl wr bl r q * pre a x wl wr bl r q := by
  unfold k6_pay4
  rw [shapeCast_a_11a_apply]
  refine (sumRows_ix1 _ _ _ _ _ q).trans ?_
  refine Finset.sum_congr rfl fun r _ => ?_
  rw [mulf_apply, k6_pay1_ix2]

/-! ## Region 6: one grid point's three stores against the whole arrays

The block of point b holds rows 4000·b … 4000·b + 3999 of the two feature arrays and the whole of the two weight
matrices and of the bias row. Then each entry the body stores is the entry of the whole-array function at the matching
index: same column, row 4000·b + r for the layer, block b for the two sums. -/

theorem point6_5 (A X : S100000x256.Idx → EReal) (WL WR : S256x256.Idx → EReal) (BL : S1x256.Idx → EReal) (b : Fin 25)
    (a x : FVec Ideal S4000x256 .bf16) (wl wr : FVec Ideal S256x256 .f32) (bl : FVec Ideal S1x256 .f32)
    (ha : ∀ (r : Fin 4000) (k : Fin 256), a (ix2 r k) = A (ix2 (rowAt b r) k))
    (hx : ∀ (r : Fin 4000) (k : Fin 256), x (ix2 r k) = X (ix2 (rowAt b r) k))
    (hwl : wl = WL) (hwr : wr = WR) (hbl : bl = BL)
    (y : S4000x256.Idx) (i : S100000x256.Idx) (hi0 : (i 0).val = 4000 * b.val + (y 0).val) (hi1 : (i 1).val = (y 1).val) :
    k6_pay2 (F := Ideal) a x wl wr bl y = preArr A X WL WR BL i := by
  subst hwl hwr hbl
  obtain ⟨r, q, rfl⟩ : ∃ (r : Fin 4000) (q : Fin 256), y = ix2 r q := ⟨y 0, y 1, eq_ix2 y⟩
  obtain ⟨i0, i1, rfl⟩ : ∃ (i0 : Fin 100000) (i1 : Fin 256), i = ix2 i0 i1 := ⟨i 0, i 1, eq_ix2 i⟩
  obtain rfl : i0 = rowAt b r := Fin.ext hi0
  obtain rfl : i1 = q := Fin.ext hi1
  rw [k6_pay2_ix2, preArr_ix2]
  exact pre_of_rows a x A X wl wr bl r (rowAt b r) (ha r) (hx r) i1

theorem point6_6 (A X : S100000x256.Idx → EReal) (WL WR : S256x256.Idx → EReal) (BL : S1x256.Idx → EReal) (b : Fin 25)
    (a x : FVec Ideal S4000x256 .bf16) (wl wr : FVec Ideal S256x256 .f32) (bl : FVec Ideal S1x256 .f32)
    (ha : ∀ (r : Fin 4000) (k : Fin 256), a (ix2 r k) = A (ix2 (rowAt b r) k))
    (hx : ∀ (r : Fin 4000) (k : Fin 256), x (ix2 r k) = X (ix2 (rowAt b r) k))
    (hwl : wl = WL) (hwr : wr = WR) (hbl : bl = BL)
    (y : S1x1x256.Idx) (i : S25x1x256.Idx) (hi0 : (i 0).val = b.val) (hi2 : (i 2).val = (y 2).val) :
    k6_pay3 (F := Ideal) a x wl wr bl y = sumArr rowAt A X WL WR BL i := by
  subst hwl hwr hbl
  obtain ⟨u, v, q, rfl⟩ : ∃ (u v : Fin 1) (q : Fin 256), y = ix3 u v q := ⟨y 0, y 1, y 2, eq_ix3 y⟩
  obtain ⟨i0, i1, i2, rfl⟩ : ∃ (i0 : Fin 25) (i1 : Fin 1) (i2 : Fin 256), i = ix3 i0 i1 i2 := ⟨i 0, i 1, i 2, eq_ix3 i⟩
  obtain rfl : i0 = b := Fin.ext hi0
  obtain rfl : i2 = q := Fin.ext hi2
  rw [k6_pay3_ix3]
  show _ = ∑ r : Fin 4000, pre A X wl wr bl (rowAt i0 r) i2
  exact Finset.sum_congr rfl fun r _ => pre_of_rows a x A X wl wr bl r (rowAt i0 r) (ha r) (hx r) i2

theorem point6_7 (A X : S100000x256.Idx → EReal) (WL WR : S256x256.Idx → EReal) (BL : S1x256.Idx → EReal) (b : Fin 25)
    (a x : FVec Ideal S4000x256 .bf16) (wl wr : FVec Ideal S256x256 .f32) (bl : FVec Ideal S1x256 .f32)
    (ha : ∀ (r : Fin 4000) (k : Fin 256), a (ix2 r k) = A (ix2 (rowAt b r) k))
    (hx : ∀ (r : Fin 4000) (k : Fin 256), x (ix2 r k) = X (ix2 (rowAt b r) k))
    (hwl : wl = WL) (hwr : wr = WR) (hbl : bl = BL)
    (y : S1x1x256.Idx) (i : S25x1x256.Idx) (hi0 : (i 0).val = b.val) (hi2 : (i 2).val = (y 2).val) :
    k6_pay4 (F := Ideal) a x wl wr bl y = sqArr rowAt A X WL WR BL i := by
  subst hwl hwr hbl
  obtain ⟨u, v, q, rfl⟩ : ∃ (u v : Fin 1) (q : Fin 256), y = ix3 u v q := ⟨y 0, y 1, y 2, eq_ix3 y⟩
  obtain ⟨i0, i1, i2, rfl⟩ : ∃ (i0 : Fin 25) (i1 : Fin 1) (i2 : Fin 256), i = ix3 i0 i1 i2 := ⟨i 0, i 1, i 2, eq_ix3 i⟩
  obtain rfl : i0 = b := Fin.ext hi0
  obtain rfl : i2 = q := Fin.ext hi2
  rw [k6_pay4_ix3]
  show _ = ∑ r : Fin 4000, pre A X wl wr bl (rowAt i0 r) i2 * pre A X wl wr bl (rowAt i0 r) i2
  exact Finset.sum_congr rfl fun r _ => by rw [pre_of_rows a x A X wl wr bl r (rowAt i0 r) (ha r) (hx r) i2]

end Cert.KernelIdeal.KSage

end
-- ==== Proof.KSage6Arr.lean ====
/-
  Layer block 6 of the network (feature width 256 to 256): the three result arrays after the 25 grid points.

  Point t of the grid reads rows 4000·t … 4000·t + 3999 of the two feature arrays and the whole of the two weight
  matrices and of the bias row, and writes back block t of the layer's array and entry block t of the two arrays
  of sums. What it writes is the matching block of ONE function of the five whole input arrays — the normalised
  layer, its column sums inside each block of rows, and the column sums of its squares —, and the 25 blocks cover
  each result array, so after the last point each result array is that function.
-/
import proofs.«169498_j72670846649171_2_alg».proof.Proof.Gen.KernelIdeal.Frame
import proofs.«169498_j72670846649171_2_alg».proof.Proof.KSage6Pay
import Idealize.ShloMosaic.Lib.Pipeline.Value

noncomputable section

open scoped BigOperators

namespace Cert.KernelIdeal.KSage

open Idealize.ShloMosaic Idealize.ShloMosaic.TcCoe Idealize.ShloMosaic.ValueIdx Idealize.SL.Sem
open Idealize.ShloMosaic.Pipeline (Dat)
open Cert.KernelIdeal Cert.KernelIdeal.Gen

theorem hzero2_6 : (![0, 0] : Fin 2 → Nat) = fun _ => 0 := funext fun a => by fin_cases a <;> rfl
theorem hzero3_6 : (![0, 0, 0] : Fin 3 → Nat) = fun _ => 0 := funext fun a => by fin_cases a <;> rfl

variable (V : (c : Dev nD) → (b : Ref sig .tc) → Buf (Elt Ideal) ((c : Thread nD τ).loc b))

/-! ## Region 6: the three results as functions of the arrays the region finds -/

/-- The normalised layer of the region's five input arrays. -/
abbrev pre6 (c : Dev nD) : S100000x256.Idx → EReal :=
  preArr (R := 100000) (Hin := 256) (Hout := 256) (V c main_v146) (V c main_v131) (V c main_v148) (V c main_v152) (V c main_v157)

/-- Its column sums inside each of the 25 blocks of 4000 rows. -/
abbrev sum6 (c : Dev nD) : S25x1x256.Idx → EReal :=
  sumArr (R := 100000) (nB := 25) (B := 4000) (Hin := 256) (Hout := 256) rowAt (V c main_v146) (V c main_v131) (V c main_v148) (V c main_v152) (V c main_v157)

/-- The column sums of its squares inside each block. -/
abbrev sq6 (c : Dev nD) : S25x1x256.Idx → EReal :=
  sqArr (R := 100000) (nB := 25) (B := 4000) (Hin := 256) (Hout := 256) rowAt (V c main_v146) (V c main_v131) (V c main_v148) (V c main_v152) (V c main_v157)

/-! ## The grid: point t works on block t -/

/-- A grid point as a block number. -/
def pt6 (t : Fin cfg6.N) : Fin 25 := ⟨t.val, lt_of_lt_of_eq t.isLt N_6⟩

/-- The block index of every window at every point, decided over the 25 points: the row-blocked windows sit at block
    (t, 0) or (t, 0, 0), the weights and the bias at block (0, 0). -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 3) = t.val ∧ win6_6.index t (1 : Fin 3) = 0 ∧ win6_6.index t (2 : Fin 3) = 0
    ∧ win6_7.index t (0 : Fin 3) = t.val ∧ win6_7.index t (1 : Fin 3) = 0 ∧ win6_7.index t (2 : Fin 3) = 0 :=
  (by decide +kernel : ∀ t : Fin grid6.N, _)

/-! ## The input windows' blocks as parts of the arrays -/

/-- Window 0's block at point t is rows 4000·t … 4000·t + 3999 of the aggregated features. -/
theorem iblk6_0_apply (c : Dev nD) (t : Fin cfg6.N) (r : Fin 4000) (j : Fin 256) :
    (iblk6 V c 0 t : FVec Ideal S4000x256 .bf16) (ix2 r j) = (V c main_v146 : S100000x256.Idx → EReal) (ix2 (rowAt (pt6 t) r) j) := by
  have e0 := (idx6 t).1
  have e1 := (idx6 t).2.1
  unfold iblk6
  rw [View.read_apply]
  show V c main_v146 _ = V c main_v146 _
  refine congrArg (V c main_v146) (funext fun a => Fin.ext ?_)
  match a with
  | ⟨0, _⟩ => show win6_0.index t (0 : Fin 2) * 4000 + 1 * r.val = 4000 * t.val + r.val; rw [e0]; omega
  | ⟨1, _⟩ => show win6_0.index t (1 : Fin 2) * 256 + 1 * j.val = j.val; rw [e1]; omega

/-- Window 1's block at point t is rows 4000·t … 4000·t + 3999 of the features. -/
theorem iblk6_1_apply (c : Dev nD) (t : Fin cfg6.N) (r : Fin 4000) (j : Fin 256) :
    (iblk6 V c 1 t : FVec Ideal S4000x256 .bf16) (ix2 r j) = (V c main_v131 : S100000x256.Idx → EReal) (ix2 (rowAt (pt6 t) r) j) := by
  have e0 := (idx6 t).2.2.1
  have e1 := (idx6 t).2.2.2.1
  unfold iblk6
  rw [View.read_apply]
  show V c main_v131 _ = V c main_v131 _
  refine congrArg (V c main_v131) (funext fun a => Fin.ext ?_)
  match a with
  | ⟨0, _⟩ => show win6_1.index t (0 : Fin 2) * 4000 + 1 * r.val = 4000 * t.val + r.val; rw [e0]; omega
  | ⟨1, _⟩ => show win6_1.index t (1 : Fin 2) * 256 + 1 * j.val = j.val; rw [e1]; omega

/-- Window 2's block at every point is the whole of the first weight matrix. -/
theorem iblk6_2_eq (c : Dev nD) (t : Fin cfg6.N) :
    (iblk6 V c 2 t : FVec Ideal S256x256 .f32) = (V c main_v148 : S256x256.Idx → EReal) := by
  have e0 := (idx6 t).2.2.2.2.1
  have e1 := (idx6 t).2.2.2.2.2.1
  funext y
  unfold iblk6
  rw [View.read_apply]
  show V c main_v148 _ = V c main_v148 y
  refine congrArg (V c main_v148) (funext fun a => Fin.ext ?_)
  match a with
  | ⟨0, _⟩ => show win6_2.index t (0 : Fin 2) * 256 + 1 * (y 0).val = (y 0).val; rw [e0]; omega
  | ⟨1, _⟩ => show win6_2.index t (1 : Fin 2) * 256 + 1 * (y 1).val = (y 1).val; rw [e1]; omega

/-- Window 3's block at every point is the whole of the second weight matrix. -/
theorem iblk6_3_eq (c : Dev nD) (t : Fin cfg6.N) :
    (iblk6 V c 3 t : FVec Ideal S256x256 .f32) = (V c main_v152 : S256x256.Idx → EReal) := by
  have e0 := (idx6 t).2.2.2.2.2.2.1
  have e1 := (idx6 t).2.2.2.2.2.2.2.1
  funext y
  unfold iblk6
  rw [View.read_apply]
  show V c main_v152 _ = V c main_v152 y
  refine congrArg (V c main_v152) (funext fun a => Fin.ext ?_)
  match a with
  | ⟨0, _⟩ => show win6_3.index t (0 : Fin 2) * 256 + 1 * (y 0).val = (y 0).val; rw [e0]; omega
  | ⟨1, _⟩ => show win6_3.index t (1 : Fin 2) * 256 + 1 * (y 1).val = (y 1).val; rw [e1]; omega

/-- Window 4's block at every point is the whole of the bias row. -/
theorem iblk6_4_eq (c : Dev nD) (t : Fin cfg6.N) :
    (iblk6 V c 4 t : FVec Ideal S1x256 .f32) = (V c main_v157 : S1x256.Idx → EReal) := by
  have e0 := (idx6 t).2.2.2.2.2.2.2.2.1
  have e1 := (idx6 t).2.2.2.2.2.2.2.2.2.1
  funext y
  unfold iblk6
  rw [View.read_apply]
  show V c main_v157 _ = V c main_v157 y
  refine congrArg (V c main_v157) (funext fun a => Fin.ext ?_)
  match a with
  | ⟨0, _⟩ => show win6_4.index t (0 : Fin 2) * 1 + 1 * (y 0).val = (y 0).val; rw [e0]; omega
  | ⟨1, _⟩ => show win6_4.index t (1 : Fin 2) * 256 + 1 * (y 1).val = (y 1).val; rw [e1]; omega

/-! ## Window 5: the layer -/

/-- What point t writes back through window 5 is block t of the layer of the whole arrays. -/
theorem flushed6_5_eq (c : Dev nD) (t : Fin cfg6.N) :
    (dat6 V c).flushed 5 t = ((cfg6.win 5).blk t).view.read (Elt Ideal) (pre6 V c) := by
  have e0 := (idx6 t).2.2.2.2.2.2.2.2.2.2.1
  have e1 := (idx6 t).2.2.2.2.2.2.2.2.2.2.2.1
  show (cfg6.win 5).cut (grid6.coords t) ((dat6 V c).after 5 t) = _
  rw [after6_5]
  unfold out6_5
  rw [View.canon_unit_zero hzero2_6]
  simp only [View.ld_unit_zero (S := S4000x256) hzero2_6, View.ld_unit_zero (S := S256x256) hzero2_6, View.ld_unit_zero (S := S1x256) hzero2_6]
  funext y
  show k6_pay2 (iblk6 V c 0 t) (iblk6 V c 1 t) (iblk6 V c 2 t) (iblk6 V c 3 t) (iblk6 V c 4 t) y
    = pre6 V c (((cfg6.win 5).blk t).view.emb y)
  refine point6_5 (V c main_v146) (V c main_v131) (V c main_v148) (V c main_v152) (V c main_v157) (pt6 t) _ _ _ _ _
    (iblk6_0_apply V c t) (iblk6_1_apply V c t) (iblk6_2_eq V c t) (iblk6_3_eq V c t) (iblk6_4_eq V c t) y _ ?_ ?_
  · show win6_5.index t (0 : Fin 2) * 4000 + 1 * (y 0).val = 4000 * t.val + (y 0).val
    rw [e0]; omega
  · show win6_5.index t (1 : Fin 2) * 256 + 1 * (y 1).val = (y 1).val
    rw [e1]; omega

theorem mem_blk6_5 (t : Fin cfg6.N) (i : S100000x256.Idx) :
    i ∈ ((cfg6.win 5).blk t).view.set ↔ ∀ a : Fin 2, win6_5.index t a * S4000x256.size a ≤ (i a).val ∧ (i a).val < win6_5.index t a * S4000x256.size a + S4000x256.size a := by
  show i ∈ ((View.whole main_v158_0).slice (win6_5.rect t)).set ↔ _
  rw [View.set_slice_whole, Rect.mem_set_unit]
  exact Iff.rfl

/-- Every row of the array lies in the block of point ⌊row / 4000⌋. -/
theorem cover6_5_all (i : S100000x256.Idx) : ∃ t : Fin cfg6.N, (cfg6.win 5).flush t = true ∧ i ∈ ((cfg6.win 5).blk t).view.set := by
  have hN : cfg6.N = 25 := N_6
  have hi0 : (i 0).val < 100000 := (i 0).isLt
  have hi1 : (i 1).val < 256 := (i 1).isLt
  have hlt : (i 0).val / 4000 < cfg6.N := by rw [hN]; omega
  have e0 := (idx6 ⟨(i 0).val / 4000, hlt⟩).2.2.2.2.2.2.2.2.2.2.1
  have e1 := (idx6 ⟨(i 0).val / 4000, hlt⟩).2.2.2.2.2.2.2.2.2.2.2.1
  refine ⟨⟨(i 0).val / 4000, hlt⟩, flush6_5 _, ?_⟩
  rw [mem_blk6_5]
  intro a
  match a with
  | ⟨0, _⟩ =>
    show win6_5.index _ (0 : Fin 2) * 4000 ≤ (i 0).val ∧ (i 0).val < win6_5.index _ (0 : Fin 2) * 4000 + 4000
    rw [e0]; show (i 0).val / 4000 * 4000 ≤ (i 0).val ∧ (i 0).val < (i 0).val / 4000 * 4000 + 4000; omega
  | ⟨1, _⟩ =>
    show win6_5.index _ (1 : Fin 2) * 256 ≤ (i 1).val ∧ (i 1).val < win6_5.index _ (1 : Fin 2) * 256 + 256
    rw [e1]; omega

/-- After the region the layer's array holds the normalised layer of the five input arrays. -/
theorem arr6_5 (c : Dev nD) : (dat6 V c).arrAt 5 cfg6.N = pre6 V c :=
  (dat6 V c).arrAt_eq_of_cover 5 (pre6 V c) (fun t _ => flushed6_5_eq V c t) cover6_5_all

/-! ## Window 6: the block sums -/

/-- What point t writes back through window 6 is block t of the whole-array function. -/
theorem flushed6_6_eq (c : Dev nD) (t : Fin cfg6.N) :
    (dat6 V c).flushed 6 t = ((cfg6.win 6).blk t).view.read (Elt Ideal) (sum6 V c) := by
  have e0 := (idx6 t).2.2.2.2.2.2.2.2.2.2.2.2.1
  have e2 := (idx6 t).2.2.2.2.2.2.2.2.2.2.2.2.2.2.1
  show (cfg6.win 6).cut (grid6.coords t) ((dat6 V c).after 6 t) = _
  rw [after6_6]
  unfold out6_6
  rw [View.canon_unit_zero hzero3_6]
  simp only [View.ld_unit_zero (S := S4000x256) hzero2_6, View.ld_unit_zero (S := S256x256) hzero2_6, View.ld_unit_zero (S := S1x256) hzero2_6]
  funext y
  show k6_pay3 (iblk6 V c 0 t) (iblk6 V c 1 t) (iblk6 V c 2 t) (iblk6 V c 3 t) (iblk6 V c 4 t) y
    = sum6 V c (((cfg6.win 6).blk t).view.emb y)
  refine point6_6 (V c main_v146) (V c main_v131) (V c main_v148) (V c main_v152) (V c main_v157) (pt6 t) _ _ _ _ _
    (iblk6_0_apply V c t) (iblk6_1_apply V c t) (iblk6_2_eq V c t) (iblk6_3_eq V c t) (iblk6_4_eq V c t) y _ ?_ ?_
  · show win6_6.index t (0 : Fin 3) * 1 + 1 * (y 0).val = t.val
    have hy : (y 0).val < 1 := (y 0).isLt
    rw [e0]; omega
  · show win6_6.index t (2 : Fin 3) * 256 + 1 * (y 2).val = (y 2).val
    rw [e2]; omega

theorem mem_blk6_6 (t : Fin cfg6.N) (i : S25x1x256.Idx) :
    i ∈ ((cfg6.win 6).blk t).view.set ↔ ∀ a : Fin 3, win6_6.index t a * S1x1x256.size a ≤ (i a).val ∧ (i a).val < win6_6.index t a * S1x1x256.size a + S1x1x256.size a := by
  show i ∈ ((View.whole main_v158_1).slice (win6_6.rect t)).set ↔ _
  rw [View.set_slice_whole, Rect.mem_set_unit]
  exact Iff.rfl

/-- Every entry of the [25, 1, 256] array lies in the block of the point its first coordinate names. -/
theorem cover6_6_all (i : S25x1x256.Idx) : ∃ t : Fin cfg6.N, (cfg6.win 6).flush t = true ∧ i ∈ ((cfg6.win 6).blk t).view.set := by
  have hN : cfg6.N = 25 := N_6
  have hi0 : (i 0).val < 25 := (i 0).isLt
  have hi1 : (i 1).val < 1 := (i 1).isLt
  have hi2 : (i 2).val < 256 := (i 2).isLt
  have e0 := (idx6 ⟨(i 0).val, by rw [hN]; exact hi0⟩).2.2.2.2.2.2.2.2.2.2.2.2.1
  have e1 := (idx6 ⟨(i 0).val, by rw [hN]; exact hi0⟩).2.2.2.2.2.2.2.2.2.2.2.2.2.1
  have e2 := (idx6 ⟨(i 0).val, by rw [hN]; exact hi0⟩).2.2.2.2.2.2.2.2.2.2.2.2.2.2.1
  refine ⟨⟨(i 0).val, by rw [hN]; exact hi0⟩, flush6_6 _, ?_⟩
  rw [mem_blk6_6]
  intro a
  match a with
  | ⟨0, _⟩ =>
    show win6_6.index _ (0 : Fin 3) * 1 ≤ (i 0).val ∧ (i 0).val < win6_6.index _ (0 : Fin 3) * 1 + 1
    rw [e0]; show (i 0).val * 1 ≤ (i 0).val ∧ (i 0).val < (i 0).val * 1 + 1; omega
  | ⟨1, _⟩ =>
    show win6_6.index _ (1 : Fin 3) * 1 ≤ (i 1).val ∧ (i 1).val < win6_6.index _ (1 : Fin 3) * 1 + 1
    rw [e1]; omega
  | ⟨2, _⟩ =>
    show win6_6.index _ (2 : Fin 3) * 256 ≤ (i 2).val ∧ (i 2).val < win6_6.index _ (2 : Fin 3) * 256 + 256
    rw [e2]; omega

/-- After the region the block-sum array holds the layer's column sums inside each block. -/
theorem arr6_6 (c : Dev nD) : (dat6 V c).arrAt 6 cfg6.N = sum6 V c :=
  (dat6 V c).arrAt_eq_of_cover 6 (sum6 V c) (fun t _ => flushed6_6_eq V c t) cover6_6_all

/-! ## Window 7: the block sums of squares -/

/-- What point t writes back through window 7 is block t of the whole-array function. -/
theorem flushed6_7_eq (c : Dev nD) (t : Fin cfg6.N) :
    (dat6 V c).flushed 7 t = ((cfg6.win 7).blk t).view.read (Elt Ideal) (sq6 V c) := by
  have e0 := (idx6 t).2.2.2.2.2.2.2.2.2.2.2.2.2.2.2.1
  have e2 := (idx6 t).2.2.2.2.2.2.2.2.2.2.2.2.2.2.2.2.2
  show (cfg6.win 7).cut (grid6.coords t) ((dat6 V c).after 7 t) = _
  rw [after6_7]
  unfold out6_7
  rw [View.canon_unit_zero hzero3_6]
  simp only [View.ld_unit_zero (S := S4000x256) hzero2_6, View.ld_unit_zero (S := S256x256) hzero2_6, View.ld_unit_zero (S := S1x256) hzero2_6]
  funext y
  show k6_pay4 (iblk6 V c 0 t) (iblk6 V c 1 t) (iblk6 V c 2 t) (iblk6 V c 3 t) (iblk6 V c 4 t) y
    = sq6 V c (((cfg6.win 7).blk t).view.emb y)
  refine point6_7 (V c main_v146) (V c main_v131) (V c main_v148) (V c main_v152) (V c main_v157) (pt6 t) _ _ _ _ _
    (iblk6_0_apply V c t) (iblk6_1_apply V c t) (iblk6_2_eq V c t) (iblk6_3_eq V c t) (iblk6_4_eq V c t) y _ ?_ ?_
  · show win6_7.index t (0 : Fin 3) * 1 + 1 * (y 0).val = t.val
    have hy : (y 0).val < 1 := (y 0).isLt
    rw [e0]; omega
  · show win6_7.index t (2 : Fin 3) * 256 + 1 * (y 2).val = (y 2).val
    rw [e2]; omega

theorem mem_blk6_7 (t : Fin cfg6.N) (i : S25x1x256.Idx) :
    i ∈ ((cfg6.win 7).blk t).view.set ↔ ∀ a : Fin 3, win6_7.index t a * S1x1x256.size a ≤ (i a).val ∧ (i a).val < win6_7.index t a * S1x1x256.size a + S1x1x256.size a := by
  show i ∈ ((View.whole main_v158_2).slice (win6_7.rect t)).set ↔ _
  rw [View.set_slice_whole, Rect.mem_set_unit]
  exact Iff.rfl

/-- Every entry of the [25, 1, 256] array lies in the block of the point its first coordinate names. -/
theorem cover6_7_all (i : S25x1x256.Idx) : ∃ t : Fin cfg6.N, (cfg6.win 7).flush t = true ∧ i ∈ ((cfg6.win 7).blk t).view.set := by
  have hN : cfg6.N = 25 := N_6
  have hi0 : (i 0).val < 25 := (i 0).isLt
  have hi1 : (i 1).val < 1 := (i 1).isLt
  have hi2 : (i 2).val < 256 := (i 2).isLt
  have e0 := (idx6 ⟨(i 0).val, by rw [hN]; exact hi0⟩).2.2.2.2.2.2.2.2.2.2.2.2.2.2.2.1
  have e1 := (idx6 ⟨(i 0).val, by rw [hN]; exact hi0⟩).2.2.2.2.2.2.2.2.2.2.2.2.2.2.2.2.1
  have e2 := (idx6 ⟨(i 0).val, by rw [hN]; exact hi0⟩).2.2.2.2.2.2.2.2.2.2.2.2.2.2.2.2.2
  refine ⟨⟨(i 0).val, by rw [hN]; exact hi0⟩, flush6_7 _, ?_⟩
  rw [mem_blk6_7]
  intro a
  match a with
  | ⟨0, _⟩ =>
    show win6_7.index _ (0 : Fin 3) * 1 ≤ (i 0).val ∧ (i 0).val < win6_7.index _ (0 : Fin 3) * 1 + 1
    rw [e0]; show (i 0).val * 1 ≤ (i 0).val ∧ (i 0).val < (i 0).val * 1 + 1; omega
  | ⟨1, _⟩ =>
    show win6_7.index _ (1 : Fin 3) * 1 ≤ (i 1).val ∧ (i 1).val < win6_7.index _ (1 : Fin 3) * 1 + 1
    rw [e1]; omega
  | ⟨2, _⟩ =>
    show win6_7.index _ (2 : Fin 3) * 256 ≤ (i 2).val ∧ (i 2).val < win6_7.index _ (2 : Fin 3) * 256 + 256
    rw [e2]; omega

/-- After the region the square-sum array holds the column sums of the layer's squares inside each block. -/
theorem arr6_7 (c : Dev nD) : (dat6 V c).arrAt 7 cfg6.N = sq6 V c :=
  (dat6 V c).arrAt_eq_of_cover 7 (sq6 V c) (fun t _ => flushed6_7_eq V c t) cover6_7_all

end Cert.KernelIdeal.KSage

end
-- ==== Proof.KSage8Pay.lean ====
/-
  Layer block 8 of the network (feature width 256 to 128): what one row block of 4000 rows computes, entry by entry.

  The body forms agg · wl + x · wr + bl on the block's rows, divides each row by the larger of its Euclidean length
  and the threshold, stores that block, and stores the column sums of the block and of its squares. Read at an
  index over the extended reals (where a change of float format is the identity) these are the specification's
  normalised layer on the block's rows and its two 4000-term column sums. Since a row of the layer depends on the
  same row of the two feature matrices only, the block of point b agrees with rows 4000·b … 4000·b + 3999 of the
  whole-array function, and the two sums with its block sums at block b.
-/
import proofs.«169498_j72670846649171_2_alg».proof.Proof.Gen.KernelIdeal.Skeleton
import proofs.«169498_j72670846649171_2_alg».proof.Proof.KSageSpec
import proofs.«169498_j72670846649171_2_alg».proof.Proof.KSageOps

noncomputable section

open scoped BigOperators

namespace Cert.KernelIdeal.KSage

open Idealize.ShloMosaic Idealize.ShloMosaic.ValueIdx
open Cert.KernelIdeal Cert.KernelIdeal.Gen

/-! ## Region 8: the body's values at an index -/

/-- The linear part of one block of 4000 rows, as the body computes it: two matrix products into zero
    accumulators, added, plus the bias row spread over the rows. -/
def lin8 (a x : FVec Ideal S4000x256 .bf16) (wl wr : FVec Ideal S256x128 .f32) (bl : FVec Ideal S1x128 .f32) : FVec Ideal S4000x128 .f32 :=
  addf (addf (matmul dot_S4000x256_S256x128_S4000x128_1_0_0_1_n_n none a (truncf .bf16 wl bitsLt_bf16_f32) (constant S4000x128 .f32 0x00000000#32))
      (matmul dot_S4000x256_S256x128_S4000x128_1_0_0_1_n_n none x (truncf .bf16 wr bitsLt_bf16_f32) (constant S4000x128 .f32 0x00000000#32)))
    (broadcastTo S4000x128 bl broadcasts_S1x128_S4000x128)

/-- At (p, q) it is the linear part of the specification on the block's rows: the format changes are the identity
    on extended reals. -/
theorem lin8_ix2 (a x : FVec Ideal S4000x256 .bf16) (wl wr : FVec Ideal S256x128 .f32) (bl : FVec Ideal S1x128 .f32) (p : Fin 4000) (q : Fin 128) :
    lin8 a x wl wr bl (ix2 p q) = lin a x wl wr bl p q := by
  unfold lin8
  rw [addf_apply, addf_apply, matmul_zero_ix2 _ rfl rfl rfl rfl rfl rfl, matmul_zero_ix2 _ rfl rfl rfl rfl rfl rfl,
    broadcastTo_1b_ab_apply]
  rfl

/-- The body's quotient: the linear part over the row length bounded below, with the identity reshapes removed. -/
theorem k8_pay1_eq (a x : FVec Ideal S4000x256 .bf16) (wl wr : FVec Ideal S256x128 .f32) (bl : FVec Ideal S1x128 .f32) :
    k8_pay1 a x wl wr bl
      = divf (lin8 a x wl wr bl)
          (broadcastTo S4000x128
            (maximumf
              (sqrt (shapeCast S4000x1
                (multiReduction .add [1] S4000 (mulf (lin8 a x wl wr bl) (lin8 a x wl wr bl)) 0x00000000#32
                  reduces_S4000x128_S4000 (.inl rfl) rfl) shapeCasts_S4000_S4000x1))
              (broadcast S4000x1 (Scalar.ofBits .f32 0x2B8CBCCC#32)))
            broadcasts_S4000x1_S4000x128) := by
  unfold k8_pay1 lin8
  simp only [shapeCast_self]

/-- The quotient at (p, q) is the normalised layer of the block's rows. -/
theorem k8_pay1_ix2 (a x : FVec Ideal S4000x256 .bf16) (wl wr : FVec Ideal S256x128 .f32) (bl : FVec Ideal S1x128 .f32) (p : Fin 4000) (q : Fin 128) :
    k8_pay1 (F := Ideal) a x wl wr bl (ix2 p q) = pre a x wl wr bl p q := by
  rw [k8_pay1_eq, divf_apply, broadcastTo_a1_ab_apply, maximumf_apply, broadcast_apply]
  show Ideal.div _ (max (Ideal.sqrt (shapeCast S4000x1 _ shapeCasts_S4000_S4000x1 (ix2 p (0 : Fin 1)))) _) = _
  rw [shapeCast_a_a1_apply]
  have hA : lin8 a x wl wr bl (ix2 p q) = lin a x wl wr bl p q := lin8_ix2 a x wl wr bl p q
  have hB : multiReduction .add [1] S4000 (mulf (lin8 a x wl wr bl) (lin8 a x wl wr bl)) 0x00000000#32
      reduces_S4000x128_S4000 (.inl rfl) rfl (ix1 p)
        = ∑ j : Fin 128, lin a x wl wr bl p j * lin a x wl wr bl p j :=
    (sumLanes_ix1 _ _ _ _ _ p).trans (Finset.sum_congr rfl fun j _ => by rw [mulf_apply, lin8_ix2])
  exact congrArg₂ Ideal.div hA (congrArg (fun s => max (Ideal.sqrt s) eps) hB)

/-- What the body stores in the layer's block: the normalised layer of the block's rows. -/
theorem k8_pay2_ix2 (a x : FVec Ideal S4000x256 .bf16) (wl wr : FVec Ideal S256x128 .f32) (bl : FVec Ideal S1x128 .f32) (p : Fin 4000) (q : Fin 128) :
    k8_pay2 (F := Ideal) a x wl wr bl (ix2 p q) = pre a x wl wr bl p q :=
  k8_pay1_ix2 a x wl wr bl p q

/-- What the body stores in the block-sum window: the column sums of the block's 4000 normalised rows. -/
theorem k8_pay3_ix3 (a x : FVec Ideal S4000x256 .bf16) (wl wr : FVec Ideal S256x128 .f32) (bl : FVec Ideal S1x128 .f32) (u v : Fin 1) (q : Fin 128) :
    k8_pay3 (F := Ideal) a x wl wr bl (ix3 u v q) = ∑ r : Fin 4000, pre a x wl wr bl r q := by
  unfold k8_pay3
  rw [shapeCast_a_11a_apply]
  refine (sumRows_ix1 _ _ _ _ _ q).trans ?_
  exact Finset.sum_congr rfl fun r _ => k8_pay1_ix2 a x wl wr bl r q

/-- What the body stores in the square-sum window: the column sums of the squares of the block's normalised rows. -/
theorem k8_pay4_ix3 (a x : FVec Ideal S4000x256 .bf16) (wl wr : FVec Ideal S256x128 .f32) (bl : FVec Ideal S1x128 .f32) (u v : Fin 1) (q : Fin 128) :
    k8_pay4 (F := Ideal) a x wl wr bl (ix3 u v q) = ∑ r : Fin 4000, pre a x wl wr bl r q * pre a x wl wr bl r q := by
  unfold k8_pay4
  rw [shapeCast_a_11a_apply]
  refine (sumRows_ix1 _ _ _ _ _ q).trans ?_
  refine Finset.sum_congr rfl fun r _ => ?_
  rw [mulf_apply, k8_pay1_ix2]

/-! ## Region 8: one grid point's three stores against the whole arrays

The block of point b holds rows 4000·b … 4000·b + 3999 of the two feature arrays and the whole of the two weight
matrices and of the bias row. Then each entry the body stores is the entry of the whole-array function at the matching
index: same column, row 4000·b + r for the layer, block b for the two sums. -/

theorem point8_5 (A X : S100000x256.Idx → EReal) (WL WR : S256x128.Idx → EReal) (BL : S1x128.Idx → EReal) (b : Fin 25)
    (a x : FVec Ideal S4000x256 .bf16) (wl wr : FVec Ideal S256x128 .f32) (bl : FVec Ideal S1x128 .f32)
    (ha : ∀ (r : Fin 4000) (k : Fin 256), a (ix2 r k) = A (ix2 (rowAt b r) k))
    (hx : ∀ (r : Fin 4000) (k : Fin 256), x (ix2 r k) = X (ix2 (rowAt b r) k))
    (hwl : wl = WL) (hwr : wr = WR) (hbl : bl = BL)
    (y : S4000x128.Idx) (i : S100000x128.Idx) (hi0 : (i 0).val = 4000 * b.val + (y 0).val) (hi1 : (i 1).val = (y 1).val) :
    k8_pay2 (F := Ideal) a x wl wr bl y = preArr A X WL WR BL i := by
  subst hwl hwr hbl
  obtain ⟨r, q, rfl⟩ : ∃ (r : Fin 4000) (q : Fin 128), y = ix2 r q := ⟨y 0, y 1, eq_ix2 y⟩
  obtain ⟨i0, i1, rfl⟩ : ∃ (i0 : Fin 100000) (i1 : Fin 128), i = ix2 i0 i1 := ⟨i 0, i 1, eq_ix2 i⟩
  obtain rfl : i0 = rowAt b r := Fin.ext hi0
  obtain rfl : i1 = q := Fin.ext hi1
  rw [k8_pay2_ix2, preArr_ix2]
  exact pre_of_rows a x A X wl wr bl r (rowAt b r) (ha r) (hx r) i1

theorem point8_6 (A X : S100000x256.Idx → EReal) (WL WR : S256x128.Idx → EReal) (BL : S1x128.Idx → EReal) (b : Fin 25)
    (a x : FVec Ideal S4000x256 .bf16) (wl wr : FVec Ideal S256x128 .f32) (bl : FVec Ideal S1x128 .f32)
    (ha : ∀ (r : Fin 4000) (k : Fin 256), a (ix2 r k) = A (ix2 (rowAt b r) k))
    (hx : ∀ (r : Fin 4000) (k : Fin 256), x (ix2 r k) = X (ix2 (rowAt b r) k))
    (hwl : wl = WL) (hwr : wr = WR) (hbl : bl = BL)
    (y : S1x1x128.Idx) (i : S25x1x128.Idx) (hi0 : (i 0).val = b.val) (hi2 : (i 2).val = (y 2).val) :
    k8_pay3 (F := Ideal) a x wl wr bl y = sumArr rowAt A X WL WR BL i := by
  subst hwl hwr hbl
  obtain ⟨u, v, q, rfl⟩ : ∃ (u v : Fin 1) (q : Fin 128), y = ix3 u v q := ⟨y 0, y 1, y 2, eq_ix3 y⟩
  obtain ⟨i0, i1, i2, rfl⟩ : ∃ (i0 : Fin 25) (i1 : Fin 1) (i2 : Fin 128), i = ix3 i0 i1 i2 := ⟨i 0, i 1, i 2, eq_ix3 i⟩
  obtain rfl : i0 = b := Fin.ext hi0
  obtain rfl : i2 = q := Fin.ext hi2
  rw [k8_pay3_ix3]
  show _ = ∑ r : Fin 4000, pre A X wl wr bl (rowAt i0 r) i2
  exact Finset.sum_congr rfl fun r _ => pre_of_rows a x A X wl wr bl r (rowAt i0 r) (ha r) (hx r) i2

theorem point8_7 (A X : S100000x256.Idx → EReal) (WL WR : S256x128.Idx → EReal) (BL : S1x128.Idx → EReal) (b : Fin 25)
    (a x : FVec Ideal S4000x256 .bf16) (wl wr : FVec Ideal S256x128 .f32) (bl : FVec Ideal S1x128 .f32)
    (ha : ∀ (r : Fin 4000) (k : Fin 256), a (ix2 r k) = A (ix2 (rowAt b r) k))
    (hx : ∀ (r : Fin 4000) (k : Fin 256), x (ix2 r k) = X (ix2 (rowAt b r) k))
    (hwl : wl = WL) (hwr : wr = WR) (hbl : bl = BL)
    (y : S1x1x128.Idx) (i : S25x1x128.Idx) (hi0 : (i 0).val = b.val) (hi2 : (i 2).val = (y 2).val) :
    k8_pay4 (F := Ideal) a x wl wr bl y = sqArr rowAt A X WL WR BL i := by
  subst hwl hwr hbl
  obtain ⟨u, v, q, rfl⟩ : ∃ (u v : Fin 1) (q : Fin 128), y = ix3 u v q := ⟨y 0, y 1, y 2, eq_ix3 y⟩
  obtain ⟨i0, i1, i2, rfl⟩ : ∃ (i0 : Fin 25) (i1 : Fin 1) (i2 : Fin 128), i = ix3 i0 i1 i2 := ⟨i 0, i 1, i 2, eq_ix3 i⟩
  obtain rfl : i0 = b := Fin.ext hi0
  obtain rfl : i2 = q := Fin.ext hi2
  rw [k8_pay4_ix3]
  show _ = ∑ r : Fin 4000, pre A X wl wr bl (rowAt i0 r) i2 * pre A X wl wr bl (rowAt i0 r) i2
  exact Finset.sum_congr rfl fun r _ => by rw [pre_of_rows a x A X wl wr bl r (rowAt i0 r) (ha r) (hx r) i2]

end Cert.KernelIdeal.KSage

end
-- ==== Proof.KSage8Arr.lean ====
/-
  Layer block 8 of the network (feature width 256 to 128): the three result arrays after the 25 grid points.

  Point t of the grid reads rows 4000·t … 4000·t + 3999 of the two feature arrays and the whole of the two weight
  matrices and of the bias row, and writes back block t of the layer's array and entry block t of the two arrays
  of sums. What it writes is the matching block of ONE function of the five whole input arrays — the normalised
  layer, its column sums inside each block of rows, and the column sums of its squares —, and the 25 blocks cover
  each result array, so after the last point each result array is that function.
-/
import proofs.«169498_j72670846649171_2_alg».proof.Proof.Gen.KernelIdeal.Frame
import proofs.«169498_j72670846649171_2_alg».proof.Proof.KSage8Pay
import Idealize.ShloMosaic.Lib.Pipeline.Value

noncomputable section

open scoped BigOperators

namespace Cert.KernelIdeal.KSage

open Idealize.ShloMosaic Idealize.ShloMosaic.TcCoe Idealize.ShloMosaic.ValueIdx Idealize.SL.Sem
open Idealize.ShloMosaic.Pipeline (Dat)
open Cert.KernelIdeal Cert.KernelIdeal.Gen

theorem hzero2_8 : (![0, 0] : Fin 2 → Nat) = fun _ => 0 := funext fun a => by fin_cases a <;> rfl
theorem hzero3_8 : (![0, 0, 0] : Fin 3 → Nat) = fun _ => 0 := funext fun a => by fin_cases a <;> rfl

variable (V : (c : Dev nD) → (b : Ref sig .tc) → Buf (Elt Ideal) ((c : Thread nD τ).loc b))

/-! ## Region 8: the three results as functions of the arrays the region finds -/

/-- The normalised layer of the region's five input arrays. -/
abbrev pre8 (c : Dev nD) : S100000x128.Idx → EReal :=
  preArr (R := 100000) (Hin := 256) (Hout := 128) (V c main_v190) (V c main_v175) (V c main_arg12) (V c main_arg14) (V c main_v191)

/-- Its column sums inside each of the 25 blocks of 4000 rows. -/
abbrev sum8 (c : Dev nD) : S25x1x128.Idx → EReal :=
  sumArr (R := 100000) (nB := 25) (B := 4000) (Hin := 256) (Hout := 128) rowAt (V c main_v190) (V c main_v175) (V c main_arg12) (V c main_arg14) (V c main_v191)

/-- The column sums of its squares inside each block. -/
abbrev sq8 (c : Dev nD) : S25x1x128.Idx → EReal :=
  sqArr (R := 100000) (nB := 25) (B := 4000) (Hin := 256) (Hout := 128) rowAt (V c main_v190) (V c main_v175) (V c main_arg12) (V c main_arg14) (V c main_v191)

/-! ## The grid: point t works on block t -/

/-- A grid point as a block number. -/
def pt8 (t : Fin cfg8.N) : Fin 25 := ⟨t.val, lt_of_lt_of_eq t.isLt N_8⟩

/-- The block index of every window at every point, decided over the 25 points: the row-blocked windows sit at block
    (t, 0) or (t, 0, 0), the weights and the bias at block (0, 0). -/
theorem idx8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 3) = t.val ∧ win8_6.index t (1 : Fin 3) = 0 ∧ win8_6.index t (2 : Fin 3) = 0
    ∧ win8_7.index t (0 : Fin 3) = t.val ∧ win8_7.index t (1 : Fin 3) = 0 ∧ win8_7.index t (2 : Fin 3) = 0 :=
  (by decide +kernel : ∀ t : Fin grid8.N, _)

/-! ## The input windows' blocks as parts of the arrays -/

/-- Window 0's block at point t is rows 4000·t … 4000·t + 3999 of the aggregated features. -/
theorem iblk8_0_apply (c : Dev nD) (t : Fin cfg8.N) (r : Fin 4000) (j : Fin 256) :
    (iblk8 V c 0 t : FVec Ideal S4000x256 .bf16) (ix2 r j) = (V c main_v190 : S100000x256.Idx → EReal) (ix2 (rowAt (pt8 t) r) j) := by
  have e0 := (idx8 t).1
  have e1 := (idx8 t).2.1
  unfold iblk8
  rw [View.read_apply]
  show V c main_v190 _ = V c main_v190 _
  refine congrArg (V c main_v190) (funext fun a => Fin.ext ?_)
  match a with
  | ⟨0, _⟩ => show win8_0.index t (0 : Fin 2) * 4000 + 1 * r.val = 4000 * t.val + r.val; rw [e0]; omega
  | ⟨1, _⟩ => show win8_0.index t (1 : Fin 2) * 256 + 1 * j.val = j.val; rw [e1]; omega

/-- Window 1's block at point t is rows 4000·t … 4000·t + 3999 of the features. -/
theorem iblk8_1_apply (c : Dev nD) (t : Fin cfg8.N) (r : Fin 4000) (j : Fin 256) :
    (iblk8 V c 1 t : FVec Ideal S4000x256 .bf16) (ix2 r j) = (V c main_v175 : S100000x256.Idx → EReal) (ix2 (rowAt (pt8 t) r) j) := by
  have e0 := (idx8 t).2.2.1
  have e1 := (idx8 t).2.2.2.1
  unfold iblk8
  rw [View.read_apply]
  show V c main_v175 _ = V c main_v175 _
  refine congrArg (V c main_v175) (funext fun a => Fin.ext ?_)
  match a with
  | ⟨0, _⟩ => show win8_1.index t (0 : Fin 2) * 4000 + 1 * r.val = 4000 * t.val + r.val; rw [e0]; omega
  | ⟨1, _⟩ => show win8_1.index t (1 : Fin 2) * 256 + 1 * j.val = j.val; rw [e1]; omega

/-- Window 2's block at every point is the whole of the first weight matrix. -/
theorem iblk8_2_eq (c : Dev nD) (t : Fin cfg8.N) :
    (iblk8 V c 2 t : FVec Ideal S256x128 .f32) = (V c main_arg12 : S256x128.Idx → EReal) := by
  have e0 := (idx8 t).2.2.2.2.1
  have e1 := (idx8 t).2.2.2.2.2.1
  funext y
  unfold iblk8
  rw [View.read_apply]
  show V c main_arg12 _ = V c main_arg12 y
  refine congrArg (V c main_arg12) (funext fun a => Fin.ext ?_)
  match a with
  | ⟨0, _⟩ => show win8_2.index t (0 : Fin 2) * 256 + 1 * (y 0).val = (y 0).val; rw [e0]; omega
  | ⟨1, _⟩ => show win8_2.index t (1 : Fin 2) * 128 + 1 * (y 1).val = (y 1).val; rw [e1]; omega

/-- Window 3's block at every point is the whole of the second weight matrix. -/
theorem iblk8_3_eq (c : Dev nD) (t : Fin cfg8.N) :
    (iblk8 V c 3 t : FVec Ideal S256x128 .f32) = (V c main_arg14 : S256x128.Idx → EReal) := by
  have e0 := (idx8 t).2.2.2.2.2.2.1
  have e1 := (idx8 t).2.2.2.2.2.2.2.1
  funext y
  unfold iblk8
  rw [View.read_apply]
  show V c main_arg14 _ = V c main_arg14 y
  refine congrArg (V c main_arg14) (funext fun a => Fin.ext ?_)
  match a with
  | ⟨0, _⟩ => show win8_3.index t (0 : Fin 2) * 256 + 1 * (y 0).val = (y 0).val; rw [e0]; omega
  | ⟨1, _⟩ => show win8_3.index t (1 : Fin 2) * 128 + 1 * (y 1).val = (y 1).val; rw [e1]; omega

/-- Window 4's block at every point is the whole of the bias row. -/
theorem iblk8_4_eq (c : Dev nD) (t : Fin cfg8.N) :
    (iblk8 V c 4 t : FVec Ideal S1x128 .f32) = (V c main_v191 : S1x128.Idx → EReal) := by
  have e0 := (idx8 t).2.2.2.2.2.2.2.2.1
  have e1 := (idx8 t).2.2.2.2.2.2.2.2.2.1
  funext y
  unfold iblk8
  rw [View.read_apply]
  show V c main_v191 _ = V c main_v191 y
  refine congrArg (V c main_v191) (funext fun a => Fin.ext ?_)
  match a with
  | ⟨0, _⟩ => show win8_4.index t (0 : Fin 2) * 1 + 1 * (y 0).val = (y 0).val; rw [e0]; omega
  | ⟨1, _⟩ => show win8_4.index t (1 : Fin 2) * 128 + 1 * (y 1).val = (y 1).val; rw [e1]; omega

/-! ## Window 5: the layer -/

/-- What point t writes back through window 5 is block t of the layer of the whole arrays. -/
theorem flushed8_5_eq (c : Dev nD) (t : Fin cfg8.N) :
    (dat8 V c).flushed 5 t = ((cfg8.win 5).blk t).view.read (Elt Ideal) (pre8 V c) := by
  have e0 := (idx8 t).2.2.2.2.2.2.2.2.2.2.1
  have e1 := (idx8 t).2.2.2.2.2.2.2.2.2.2.2.1
  show (cfg8.win 5).cut (grid8.coords t) ((dat8 V c).after 5 t) = _
  rw [after8_5]
  unfold out8_5
  rw [View.canon_unit_zero hzero2_8]
  simp only [View.ld_unit_zero (S := S4000x256) hzero2_8, View.ld_unit_zero (S := S256x128) hzero2_8, View.ld_unit_zero (S := S1x128) hzero2_8]
  funext y
  show k8_pay2 (iblk8 V c 0 t) (iblk8 V c 1 t) (iblk8 V c 2 t) (iblk8 V c 3 t) (iblk8 V c 4 t) y
    = pre8 V c (((cfg8.win 5).blk t).view.emb y)
  refine point8_5 (V c main_v190) (V c main_v175) (V c main_arg12) (V c main_arg14) (V c main_v191) (pt8 t) _ _ _ _ _
    (iblk8_0_apply V c t) (iblk8_1_apply V c t) (iblk8_2_eq V c t) (iblk8_3_eq V c t) (iblk8_4_eq V c t) y _ ?_ ?_
  · show win8_5.index t (0 : Fin 2) * 4000 + 1 * (y 0).val = 4000 * t.val + (y 0).val
    rw [e0]; omega
  · show win8_5.index t (1 : Fin 2) * 128 + 1 * (y 1).val = (y 1).val
    rw [e1]; omega

theorem mem_blk8_5 (t : Fin cfg8.N) (i : S100000x128.Idx) :
    i ∈ ((cfg8.win 5).blk t).view.set ↔ ∀ a : Fin 2, win8_5.index t a * S4000x128.size a ≤ (i a).val ∧ (i a).val < win8_5.index t a * S4000x128.size a + S4000x128.size a := by
  show i ∈ ((View.whole main_v192_0).slice (win8_5.rect t)).set ↔ _
  rw [View.set_slice_whole, Rect.mem_set_unit]
  exact Iff.rfl

/-- Every row of the array lies in the block of point ⌊row / 4000⌋. -/
theorem cover8_5_all (i : S100000x128.Idx) : ∃ t : Fin cfg8.N, (cfg8.win 5).flush t = true ∧ i ∈ ((cfg8.win 5).blk t).view.set := by
  have hN : cfg8.N = 25 := N_8
  have hi0 : (i 0).val < 100000 := (i 0).isLt
  have hi1 : (i 1).val < 128 := (i 1).isLt
  have hlt : (i 0).val / 4000 < cfg8.N := by rw [hN]; omega
  have e0 := (idx8 ⟨(i 0).val / 4000, hlt⟩).2.2.2.2.2.2.2.2.2.2.1
  have e1 := (idx8 ⟨(i 0).val / 4000, hlt⟩).2.2.2.2.2.2.2.2.2.2.2.1
  refine ⟨⟨(i 0).val / 4000, hlt⟩, flush8_5 _, ?_⟩
  rw [mem_blk8_5]
  intro a
  match a with
  | ⟨0, _⟩ =>
    show win8_5.index _ (0 : Fin 2) * 4000 ≤ (i 0).val ∧ (i 0).val < win8_5.index _ (0 : Fin 2) * 4000 + 4000
    rw [e0]; show (i 0).val / 4000 * 4000 ≤ (i 0).val ∧ (i 0).val < (i 0).val / 4000 * 4000 + 4000; omega
  | ⟨1, _⟩ =>
    show win8_5.index _ (1 : Fin 2) * 128 ≤ (i 1).val ∧ (i 1).val < win8_5.index _ (1 : Fin 2) * 128 + 128
    rw [e1]; omega

/-- After the region the layer's array holds the normalised layer of the five input arrays. -/
theorem arr8_5 (c : Dev nD) : (dat8 V c).arrAt 5 cfg8.N = pre8 V c :=
  (dat8 V c).arrAt_eq_of_cover 5 (pre8 V c) (fun t _ => flushed8_5_eq V c t) cover8_5_all

/-! ## Window 6: the block sums -/

/-- What point t writes back through window 6 is block t of the whole-array function. -/
theorem flushed8_6_eq (c : Dev nD) (t : Fin cfg8.N) :
    (dat8 V c).flushed 6 t = ((cfg8.win 6).blk t).view.read (Elt Ideal) (sum8 V c) := by
  have e0 := (idx8 t).2.2.2.2.2.2.2.2.2.2.2.2.1
  have e2 := (idx8 t).2.2.2.2.2.2.2.2.2.2.2.2.2.2.1
  show (cfg8.win 6).cut (grid8.coords t) ((dat8 V c).after 6 t) = _
  rw [after8_6]
  unfold out8_6
  rw [View.canon_unit_zero hzero3_8]
  simp only [View.ld_unit_zero (S := S4000x256) hzero2_8, View.ld_unit_zero (S := S256x128) hzero2_8, View.ld_unit_zero (S := S1x128) hzero2_8]
  funext y
  show k8_pay3 (iblk8 V c 0 t) (iblk8 V c 1 t) (iblk8 V c 2 t) (iblk8 V c 3 t) (iblk8 V c 4 t) y
    = sum8 V c (((cfg8.win 6).blk t).view.emb y)
  refine point8_6 (V c main_v190) (V c main_v175) (V c main_arg12) (V c main_arg14) (V c main_v191) (pt8 t) _ _ _ _ _
    (iblk8_0_apply V c t) (iblk8_1_apply V c t) (iblk8_2_eq V c t) (iblk8_3_eq V c t) (iblk8_4_eq V c t) y _ ?_ ?_
  · show win8_6.index t (0 : Fin 3) * 1 + 1 * (y 0).val = t.val
    have hy : (y 0).val < 1 := (y 0).isLt
    rw [e0]; omega
  · show win8_6.index t (2 : Fin 3) * 128 + 1 * (y 2).val = (y 2).val
    rw [e2]; omega

theorem mem_blk8_6 (t : Fin cfg8.N) (i : S25x1x128.Idx) :
    i ∈ ((cfg8.win 6).blk t).view.set ↔ ∀ a : Fin 3, win8_6.index t a * S1x1x128.size a ≤ (i a).val ∧ (i a).val < win8_6.index t a * S1x1x128.size a + S1x1x128.size a := by
  show i ∈ ((View.whole main_v192_1).slice (win8_6.rect t)).set ↔ _
  rw [View.set_slice_whole, Rect.mem_set_unit]
  exact Iff.rfl

/-- Every entry of the [25, 1, 128] array lies in the block of the point its first coordinate names. -/
theorem cover8_6_all (i : S25x1x128.Idx) : ∃ t : Fin cfg8.N, (cfg8.win 6).flush t = true ∧ i ∈ ((cfg8.win 6).blk t).view.set := by
  have hN : cfg8.N = 25 := N_8
  have hi0 : (i 0).val < 25 := (i 0).isLt
  have hi1 : (i 1).val < 1 := (i 1).isLt
  have hi2 : (i 2).val < 128 := (i 2).isLt
  have e0 := (idx8 ⟨(i 0).val, by rw [hN]; exact hi0⟩).2.2.2.2.2.2.2.2.2.2.2.2.1
  have e1 := (idx8 ⟨(i 0).val, by rw [hN]; exact hi0⟩).2.2.2.2.2.2.2.2.2.2.2.2.2.1
  have e2 := (idx8 ⟨(i 0).val, by rw [hN]; exact hi0⟩).2.2.2.2.2.2.2.2.2.2.2.2.2.2.1
  refine ⟨⟨(i 0).val, by rw [hN]; exact hi0⟩, flush8_6 _, ?_⟩
  rw [mem_blk8_6]
  intro a
  match a with
  | ⟨0, _⟩ =>
    show win8_6.index _ (0 : Fin 3) * 1 ≤ (i 0).val ∧ (i 0).val < win8_6.index _ (0 : Fin 3) * 1 + 1
    rw [e0]; show (i 0).val * 1 ≤ (i 0).val ∧ (i 0).val < (i 0).val * 1 + 1; omega
  | ⟨1, _⟩ =>
    show win8_6.index _ (1 : Fin 3) * 1 ≤ (i 1).val ∧ (i 1).val < win8_6.index _ (1 : Fin 3) * 1 + 1
    rw [e1]; omega
  | ⟨2, _⟩ =>
    show win8_6.index _ (2 : Fin 3) * 128 ≤ (i 2).val ∧ (i 2).val < win8_6.index _ (2 : Fin 3) * 128 + 128
    rw [e2]; omega

/-- After the region the block-sum array holds the layer's column sums inside each block. -/
theorem arr8_6 (c : Dev nD) : (dat8 V c).arrAt 6 cfg8.N = sum8 V c :=
  (dat8 V c).arrAt_eq_of_cover 6 (sum8 V c) (fun t _ => flushed8_6_eq V c t) cover8_6_all

/-! ## Window 7: the block sums of squares -/

/-- What point t writes back through window 7 is block t of the whole-array function. -/
theorem flushed8_7_eq (c : Dev nD) (t : Fin cfg8.N) :
    (dat8 V c).flushed 7 t = ((cfg8.win 7).blk t).view.read (Elt Ideal) (sq8 V c) := by
  have e0 := (idx8 t).2.2.2.2.2.2.2.2.2.2.2.2.2.2.2.1
  have e2 := (idx8 t).2.2.2.2.2.2.2.2.2.2.2.2.2.2.2.2.2
  show (cfg8.win 7).cut (grid8.coords t) ((dat8 V c).after 7 t) = _
  rw [after8_7]
  unfold out8_7
  rw [View.canon_unit_zero hzero3_8]
  simp only [View.ld_unit_zero (S := S4000x256) hzero2_8, View.ld_unit_zero (S := S256x128) hzero2_8, View.ld_unit_zero (S := S1x128) hzero2_8]
  funext y
  show k8_pay4 (iblk8 V c 0 t) (iblk8 V c 1 t) (iblk8 V c 2 t) (iblk8 V c 3 t) (iblk8 V c 4 t) y
    = sq8 V c (((cfg8.win 7).blk t).view.emb y)
  refine point8_7 (V c main_v190) (V c main_v175) (V c main_arg12) (V c main_arg14) (V c main_v191) (pt8 t) _ _ _ _ _
    (iblk8_0_apply V c t) (iblk8_1_apply V c t) (iblk8_2_eq V c t) (iblk8_3_eq V c t) (iblk8_4_eq V c t) y _ ?_ ?_
  · show win8_7.index t (0 : Fin 3) * 1 + 1 * (y 0).val = t.val
    have hy : (y 0).val < 1 := (y 0).isLt
    rw [e0]; omega
  · show win8_7.index t (2 : Fin 3) * 128 + 1 * (y 2).val = (y 2).val
    rw [e2]; omega

theorem mem_blk8_7 (t : Fin cfg8.N) (i : S25x1x128.Idx) :
    i ∈ ((cfg8.win 7).blk t).view.set ↔ ∀ a : Fin 3, win8_7.index t a * S1x1x128.size a ≤ (i a).val ∧ (i a).val < win8_7.index t a * S1x1x128.size a + S1x1x128.size a := by
  show i ∈ ((View.whole main_v192_2).slice (win8_7.rect t)).set ↔ _
  rw [View.set_slice_whole, Rect.mem_set_unit]
  exact Iff.rfl

/-- Every entry of the [25, 1, 128] array lies in the block of the point its first coordinate names. -/
theorem cover8_7_all (i : S25x1x128.Idx) : ∃ t : Fin cfg8.N, (cfg8.win 7).flush t = true ∧ i ∈ ((cfg8.win 7).blk t).view.set := by
  have hN : cfg8.N = 25 := N_8
  have hi0 : (i 0).val < 25 := (i 0).isLt
  have hi1 : (i 1).val < 1 := (i 1).isLt
  have hi2 : (i 2).val < 128 := (i 2).isLt
  have e0 := (idx8 ⟨(i 0).val, by rw [hN]; exact hi0⟩).2.2.2.2.2.2.2.2.2.2.2.2.2.2.2.1
  have e1 := (idx8 ⟨(i 0).val, by rw [hN]; exact hi0⟩).2.2.2.2.2.2.2.2.2.2.2.2.2.2.2.2.1
  have e2 := (idx8 ⟨(i 0).val, by rw [hN]; exact hi0⟩).2.2.2.2.2.2.2.2.2.2.2.2.2.2.2.2.2
  refine ⟨⟨(i 0).val, by rw [hN]; exact hi0⟩, flush8_7 _, ?_⟩
  rw [mem_blk8_7]
  intro a
  match a with
  | ⟨0, _⟩ =>
    show win8_7.index _ (0 : Fin 3) * 1 ≤ (i 0).val ∧ (i 0).val < win8_7.index _ (0 : Fin 3) * 1 + 1
    rw [e0]; show (i 0).val * 1 ≤ (i 0).val ∧ (i 0).val < (i 0).val * 1 + 1; omega
  | ⟨1, _⟩ =>
    show win8_7.index _ (1 : Fin 3) * 1 ≤ (i 1).val ∧ (i 1).val < win8_7.index _ (1 : Fin 3) * 1 + 1
    rw [e1]; omega
  | ⟨2, _⟩ =>
    show win8_7.index _ (2 : Fin 3) * 128 ≤ (i 2).val ∧ (i 2).val < win8_7.index _ (2 : Fin 3) * 128 + 128
    rw [e2]; omega

/-- After the region the square-sum array holds the column sums of the layer's squares inside each block. -/
theorem arr8_7 (c : Dev nD) : (dat8 V c).arrAt 7 cfg8.N = sq8 V c :=
  (dat8 V c).arrAt_eq_of_cover 7 (sq8 V c) (fun t _ => flushed8_7_eq V c t) cover8_7_all

end Cert.KernelIdeal.KSage

end
-- ==== Proof.KBn1a.lean ====
import proofs.«169498_j72670846649171_2_alg».proof.Proof.Gen.KernelIdeal.Skeleton
import proofs.«169498_j72670846649171_2_alg».proof.Proof.Gen.KernelIdeal.Points
import proofs.«169498_j72670846649171_2_alg».proof.Proof.Gen.KernelIdeal.Launch
import proofs.«169498_j72670846649171_2_alg».proof.Proof.KBnSpec
import Idealize.ShloMosaic.Lib.Pipeline.Value
import Idealize.ShloMosaic.Lib.ValueIdx
import Idealize.ShloMosaic.Lib.ValueLayout
import Idealize.ShloMosaic.Lib.Decide

noncomputable section

namespace Cert.KernelIdeal.KBn

open Cert.KernelIdeal Cert.KernelIdeal.Gen Idealize.ShloMosaic Idealize.ShloMosaic.TcCoe Idealize.SL.Sem
open Idealize.ShloMosaic.Pipeline (Dat)
open Idealize.ShloMosaic.ValueIdx

/-! Region 1 (batch normalisation and ReLU over row blocks of 4000): the body's value at an entry, and
where each window's block sits in its array.

Each of the 25 grid points reads rows `4000 t … 4000 t + 3999` of the [100000, 256] input and the four
[1, 256] rows whole, and writes back the same rows of the output. The body is pointwise, so its value at
an entry of a block is the whole-array function at the entry's place in the array; the 25 output blocks
tile the output array. -/

/-- The body's value at row `p`, lane `q` of a block: the row entry less the lane's mean, times the
    reciprocal square root of the lane's variance plus ε, times the lane's scale, plus the lane's
    shift, clamped below at zero. The format changes are identities on extended reals. -/
theorem pay1_apply (v0 : Vec Ideal S1x256 .f32) (v5 : Vec Ideal S4000x256 .bf16) (v8 v14 v18 : Vec Ideal S1x256 .f32)
    (p : Fin 4000) (q : Fin 256) :
    k1_pay1 (F := Ideal) v0 v5 v8 v14 v18 (ix2 p q) =
      max (((v5 (ix2 p q) - v8 (ix2 (0 : Fin 1) q)) * Ideal.rsqrt (v0 (ix2 (0 : Fin 1) q) + Ideal.ofBits .f32 0x3727C5AC#32))
          * v14 (ix2 (0 : Fin 1) q) + v18 (ix2 (0 : Fin 1) q)) (Ideal.ofBits .f32 0x00000000#32) := by
  unfold k1_pay1
  simp only [shapeCast_self]
  rw [truncf_apply, maximumf_apply, addf_apply, mulf_apply, mulf_apply, subf_apply, extf_apply, broadcast_apply]
  rw [broadcastTo_1b_ab_apply, broadcastTo_1b_ab_apply, broadcastTo_1b_ab_apply, broadcastTo_1b_ab_apply]
  rfl

/-- If a block holds rows `4000 T … 4000 T + 3999` of `pre` and the four row blocks hold the four
    rows, the body's value at `(p, q)` is the whole-array function at row `4000 T + p`, lane `q`. -/
theorem point1_eq (x0 : Vec Ideal S4000x256 .bf16) (x1 x2 x3 x4 : Vec Ideal S1x256 .f32)
    (pre : S100000x256.Idx → EReal) (mean var gamma beta : S1x256.Idx → EReal) (T : Nat) (hT : T < 25)
    (h0 : ∀ (p : Fin 4000) (q : Fin 256), x0 (ix2 p q) = pre (ix2 (⟨T * 4000 + p.val, by omega⟩ : Fin 100000) q))
    (h1 : ∀ q : Fin 256, x1 (ix2 (0 : Fin 1) q) = mean (ix2 (0 : Fin 1) q))
    (h2 : ∀ q : Fin 256, x2 (ix2 (0 : Fin 1) q) = var (ix2 (0 : Fin 1) q))
    (h3 : ∀ q : Fin 256, x3 (ix2 (0 : Fin 1) q) = gamma (ix2 (0 : Fin 1) q))
    (h4 : ∀ q : Fin 256, x4 (ix2 (0 : Fin 1) q) = beta (ix2 (0 : Fin 1) q))
    (p : Fin 4000) (q : Fin 256) :
    k1_pay1 (F := Ideal) x2 x0 x1 x3 x4 (ix2 p q)
      = bnRelu pre mean var gamma beta (ix2 (⟨T * 4000 + p.val, by omega⟩ : Fin 100000) q) := by
  rw [pay1_apply, bnRelu_ix2, h0, h1, h2, h3, h4]

/-- The printed index maps over the grid: the row-block windows (the input and the output) sit at block
    `t` of axis 0, and the four row windows at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

theorem hz1 : (![0, 0] : Fin 2 → Nat) = fun _ => 0 := funext fun a => by fin_cases a <;> rfl

/-- The input row block at point `t` holds rows `4000 t … 4000 t + 3999` of the array. -/
theorem read1_0 (c : Dev nD) (t : Fin cfg1.N) (p : Fin 4000) (q : Fin 256) :
    (((cfg1.win 0).blk t).view.read (Elt Ideal) (V c (Pipeline.arrRef spec1 0)) : Vec Ideal S4000x256 .bf16) (ix2 p q)
      = (V c main_v26_0 : S100000x256.Idx → EReal) (ix2 (⟨t.val * 4000 + p.val, by have := t.isLt; have := p.isLt; have hN : cfg1.N = 25 := N_1; omega⟩ : Fin 100000) q) := by
  obtain ⟨e0, e1, -⟩ := idx_facts1 t
  rw [View.read_apply]
  show V c main_v26_0 _ = V c main_v26_0 _
  refine congrArg _ ?_
  funext a
  apply Fin.ext
  match a with
  | ⟨0, _⟩ => show win1_0.index t 0 * 4000 + 1 * p.val = t.val * 4000 + p.val; rw [e0]; omega
  | ⟨1, _⟩ => show win1_0.index t 1 * 256 + 1 * q.val = q.val; rw [e1]; omega

/-- Window 1's block at every point is the whole [1, 256] row. -/
theorem read1_1 (c : Dev nD) (t : Fin cfg1.N) (q : Fin 256) :
    (((cfg1.win 1).blk t).view.read (Elt Ideal) (V c (Pipeline.arrRef spec1 1)) : Vec Ideal S1x256 .f32) (ix2 (0 : Fin 1) q)
      = (V c main_v39 : S1x256.Idx → EReal) (ix2 (0 : Fin 1) q) := by
  obtain ⟨e00, e01, e10, e11, e20, e21, e30, e31, e40, e41, e50, e51⟩ := idx_facts1 t
  rw [View.read_apply]
  show V c main_v39 _ = V c main_v39 _
  refine congrArg _ ?_
  funext a
  apply Fin.ext
  match a with
  | ⟨0, _⟩ => show win1_1.index t 0 * 1 + 1 * 0 = 0; rw [e10]
  | ⟨1, _⟩ => show win1_1.index t 1 * 256 + 1 * q.val = q.val; rw [e11]; omega

/-- Window 2's block at every point is the whole [1, 256] row. -/
theorem read1_2 (c : Dev nD) (t : Fin cfg1.N) (q : Fin 256) :
    (((cfg1.win 2).blk t).view.read (Elt Ideal) (V c (Pipeline.arrRef spec1 2)) : Vec Ideal S1x256 .f32) (ix2 (0 : Fin 1) q)
      = (V c main_v40 : S1x256.Idx → EReal) (ix2 (0 : Fin 1) q) := by
  obtain ⟨e00, e01, e10, e11, e20, e21, e30, e31, e40, e41, e50, e51⟩ := idx_facts1 t
  rw [View.read_apply]
  show V c main_v40 _ = V c main_v40 _
  refine congrArg _ ?_
  funext a
  apply Fin.ext
  match a with
  | ⟨0, _⟩ => show win1_2.index t 0 * 1 + 1 * 0 = 0; rw [e20]
  | ⟨1, _⟩ => show win1_2.index t 1 * 256 + 1 * q.val = q.val; rw [e21]; omega

/-- Window 3's block at every point is the whole [1, 256] row. -/
theorem read1_3 (c : Dev nD) (t : Fin cfg1.N) (q : Fin 256) :
    (((cfg1.win 3).blk t).view.read (Elt Ideal) (V c (Pipeline.arrRef spec1 3)) : Vec Ideal S1x256 .f32) (ix2 (0 : Fin 1) q)
      = (V c main_v41 : S1x256.Idx → EReal) (ix2 (0 : Fin 1) q) := by
  obtain ⟨e00, e01, e10, e11, e20, e21, e30, e31, e40, e41, e50, e51⟩ := idx_facts1 t
  rw [View.read_apply]
  show V c main_v41 _ = V c main_v41 _
  refine congrArg _ ?_
  funext a
  apply Fin.ext
  match a with
  | ⟨0, _⟩ => show win1_3.index t 0 * 1 + 1 * 0 = 0; rw [e30]
  | ⟨1, _⟩ => show win1_3.index t 1 * 256 + 1 * q.val = q.val; rw [e31]; omega

/-- Window 4's block at every point is the whole [1, 256] row. -/
theorem read1_4 (c : Dev nD) (t : Fin cfg1.N) (q : Fin 256) :
    (((cfg1.win 4).blk t).view.read (Elt Ideal) (V c (Pipeline.arrRef spec1 4)) : Vec Ideal S1x256 .f32) (ix2 (0 : Fin 1) q)
      = (V c main_v42 : S1x256.Idx → EReal) (ix2 (0 : Fin 1) q) := by
  obtain ⟨e00, e01, e10, e11, e20, e21, e30, e31, e40, e41, e50, e51⟩ := idx_facts1 t
  rw [View.read_apply]
  show V c main_v42 _ = V c main_v42 _
  refine congrArg _ ?_
  funext a
  apply Fin.ext
  match a with
  | ⟨0, _⟩ => show win1_4.index t 0 * 1 + 1 * 0 = 0; rw [e40]
  | ⟨1, _⟩ => show win1_4.index t 1 * 256 + 1 * q.val = q.val; rw [e41]; omega

/-- Where the output block's entry `(p, q)` sits in the array: row `4000 t + p`, lane `q`. -/
theorem emb1_5 (t : Fin cfg1.N) (p : Fin 4000) (q : Fin 256) :
    (((cfg1.win 5).blk t).view.emb (ix2 p q) : S100000x256.Idx)
      = ix2 (⟨t.val * 4000 + p.val, by have := t.isLt; have := p.isLt; have hN : cfg1.N = 25 := N_1; omega⟩ : Fin 100000) q := by
  obtain ⟨e00, e01, e10, e11, e20, e21, e30, e31, e40, e41, e50, e51⟩ := idx_facts1 t
  funext a
  apply Fin.ext
  match a with
  | ⟨0, _⟩ => show win1_5.index t 0 * 4000 + 1 * p.val = t.val * 4000 + p.val; rw [e50]; omega
  | ⟨1, _⟩ => show win1_5.index t 1 * 256 + 1 * q.val = q.val; rw [e51]; omega

/-- An index of the array is in point `t`'s output block iff each coordinate is in the block's range. -/
theorem mem_blk1 (t : Fin cfg1.N) (i : S100000x256.Idx) :
    i ∈ ((cfg1.win 5).blk t).view.set ↔ ∀ a : Fin 2, win1_5.index t a * S4000x256.size a ≤ (i a).val ∧ (i a).val < win1_5.index t a * S4000x256.size a + S4000x256.size a := by
  show i ∈ ((View.whole main_v43).slice (win1_5.rect t)).set ↔ _
  rw [View.set_slice_whole, Rect.mem_set_unit]
  exact Iff.rfl

/-- Every row lies in the output block of the point `row / 4000`: the 25 blocks tile the array. -/
theorem cover1 (i : S100000x256.Idx) :
    ∃ t : Fin cfg1.N, (cfg1.win 5).flush t = true ∧ i ∈ ((cfg1.win 5).blk t).view.set := by
  have hN : cfg1.N = 25 := N_1
  have h0 : (i 0).val < 100000 := idx2_lt0 i
  have h1 : (i 1).val < 256 := idx2_lt1 i
  obtain ⟨e00, e01, e10, e11, e20, e21, e30, e31, e40, e41, e50, e51⟩ := idx_facts1 (⟨(i 0).val / 4000, by rw [hN]; omega⟩ : Fin cfg1.N)
  refine ⟨⟨(i 0).val / 4000, by rw [hN]; omega⟩, flush1_5 _, ?_⟩
  rw [mem_blk1]
  intro a
  match a with
  | ⟨0, _⟩ =>
    show win1_5.index _ 0 * 4000 ≤ (i 0).val ∧ (i 0).val < win1_5.index _ 0 * 4000 + 4000
    rw [e50]
    show (i 0).val / 4000 * 4000 ≤ (i 0).val ∧ (i 0).val < (i 0).val / 4000 * 4000 + 4000
    omega
  | ⟨1, _⟩ =>
    show win1_5.index _ 1 * 256 ≤ (i 1).val ∧ (i 1).val < win1_5.index _ 1 * 256 + 256
    rw [e51]
    omega

end Cert.KernelIdeal.KBn

end
-- ==== Proof.KBn1.lean ====
import proofs.«169498_j72670846649171_2_alg».proof.Proof.Gen.KernelIdeal.Frame
import proofs.«169498_j72670846649171_2_alg».proof.Proof.KBn1a

noncomputable section

namespace Cert.KernelIdeal.KBn

open Cert.KernelIdeal Cert.KernelIdeal.Gen Idealize.ShloMosaic Idealize.ShloMosaic.TcCoe Idealize.SL.Sem
open Idealize.ShloMosaic.Pipeline (Dat)
open Idealize.ShloMosaic.ValueIdx

/-! Region 1 read as a function of whole arrays: what each grid point writes back is its row block of
batch normalisation and ReLU of the region's input arrays, and the 25 row blocks tile the output, so the
output array after the region is that function entry by entry. -/

variable (V : (c : Dev nD) → (b : Ref sig .tc) → Buf (Elt Ideal) ((c : Thread nD τ).loc b))

/-- What point `t` writes back is block `t` of the whole-array function of the region's input arrays. -/
theorem flushed1_eq (c : Dev nD) (t : Fin cfg1.N) :
    (dat1 V c).flushed 5 t = ((cfg1.win 5).blk t).view.read (Elt Ideal)
      (bnRelu (V c main_v26_0) (V c main_v39) (V c main_v40) (V c main_v41) (V c main_v42)) := by
  show (cfg1.win 5).cut (grid1.coords t) ((dat1 V c).after 5 t) = _
  rw [after1_5]
  unfold out1_5
  rw [View.canon_unit_zero hz1]
  simp only [View.ld_unit_zero (S := S4000x256) hz1, View.ld_unit_zero (S := S1x256) hz1]
  funext j
  obtain ⟨p, q, rfl⟩ : ∃ (p : Fin 4000) (q : Fin 256), j = ix2 p q := ⟨j 0, j 1, eq_ix2 j⟩
  show k1_pay1 (iblk1 V c 2 t) (iblk1 V c 0 t) (iblk1 V c 1 t) (iblk1 V c 3 t) (iblk1 V c 4 t) (ix2 p q)
    = bnRelu (V c main_v26_0) (V c main_v39) (V c main_v40) (V c main_v41) (V c main_v42) (((cfg1.win 5).blk t).view.emb (ix2 p q))
  rw [emb1_5]
  exact point1_eq (iblk1 V c 0 t) (iblk1 V c 1 t) (iblk1 V c 2 t) (iblk1 V c 3 t) (iblk1 V c 4 t)
    (V c main_v26_0) (V c main_v39) (V c main_v40) (V c main_v41) (V c main_v42) t.val
    (by have := t.isLt; have hN : cfg1.N = 25 := N_1; omega)
    (fun p q => read1_0 V c t p q) (fun q => read1_1 V c t q) (fun q => read1_2 V c t q)
    (fun q => read1_3 V c t q) (fun q => read1_4 V c t q) p q

/-- THE ARRAY after the region: batch normalisation and ReLU of the region's input arrays, entry by entry. -/
theorem arr1 (c : Dev nD) :
    (dat1 V c).arrAt 5 cfg1.N
      = bnRelu (V c main_v26_0) (V c main_v39) (V c main_v40) (V c main_v41) (V c main_v42) :=
  (dat1 V c).arrAt_eq_of_cover 5 _ (fun t _ => flushed1_eq V c t) cover1

end Cert.KernelIdeal.KBn

end
-- ==== Proof.KBn3a.lean ====
import proofs.«169498_j72670846649171_2_alg».proof.Proof.Gen.KernelIdeal.Skeleton
import proofs.«169498_j72670846649171_2_alg».proof.Proof.Gen.KernelIdeal.Points
import proofs.«169498_j72670846649171_2_alg».proof.Proof.Gen.KernelIdeal.Launch
import proofs.«169498_j72670846649171_2_alg».proof.Proof.KBnSpec
import Idealize.ShloMosaic.Lib.Pipeline.Value
import Idealize.ShloMosaic.Lib.ValueIdx
import Idealize.ShloMosaic.Lib.ValueLayout
import Idealize.ShloMosaic.Lib.Decide

noncomputable section

namespace Cert.KernelIdeal.KBn

open Cert.KernelIdeal Cert.KernelIdeal.Gen Idealize.ShloMosaic Idealize.ShloMosaic.TcCoe Idealize.SL.Sem
open Idealize.ShloMosaic.Pipeline (Dat)
open Idealize.ShloMosaic.ValueIdx

/-! Region 3 (batch normalisation and ReLU over row blocks of 4000): the body's value at an entry, and
where each window's block sits in its array.

Each of the 25 grid points reads rows `4000 t … 4000 t + 3999` of the [100000, 256] input and the four
[1, 256] rows whole, and writes back the same rows of the output. The body is pointwise, so its value at
an entry of a block is the whole-array function at the entry's place in the array; the 25 output blocks
tile the output array. -/

/-- The body's value at row `p`, lane `q` of a block: the row entry less the lane's mean, times the
    reciprocal square root of the lane's variance plus ε, times the lane's scale, plus the lane's
    shift, clamped below at zero. The format changes are identities on extended reals. -/
theorem pay3_apply (v0 : Vec Ideal S1x256 .f32) (v5 : Vec Ideal S4000x256 .bf16) (v8 v14 v18 : Vec Ideal S1x256 .f32)
    (p : Fin 4000) (q : Fin 256) :
    k3_pay1 (F := Ideal) v0 v5 v8 v14 v18 (ix2 p q) =
      max (((v5 (ix2 p q) - v8 (ix2 (0 : Fin 1) q)) * Ideal.rsqrt (v0 (ix2 (0 : Fin 1) q) + Ideal.ofBits .f32 0x3727C5AC#32))
          * v14 (ix2 (0 : Fin 1) q) + v18 (ix2 (0 : Fin 1) q)) (Ideal.ofBits .f32 0x00000000#32) := by
  unfold k3_pay1
  simp only [shapeCast_self]
  rw [truncf_apply, maximumf_apply, addf_apply, mulf_apply, mulf_apply, subf_apply, extf_apply, broadcast_apply]
  rw [broadcastTo_1b_ab_apply, broadcastTo_1b_ab_apply, broadcastTo_1b_ab_apply, broadcastTo_1b_ab_apply]
  rfl

/-- If a block holds rows `4000 T … 4000 T + 3999` of `pre` and the four row blocks hold the four
    rows, the body's value at `(p, q)` is the whole-array function at row `4000 T + p`, lane `q`. -/
theorem point3_eq (x0 : Vec Ideal S4000x256 .bf16) (x1 x2 x3 x4 : Vec Ideal S1x256 .f32)
    (pre : S100000x256.Idx → EReal) (mean var gamma beta : S1x256.Idx → EReal) (T : Nat) (hT : T < 25)
    (h0 : ∀ (p : Fin 4000) (q : Fin 256), x0 (ix2 p q) = pre (ix2 (⟨T * 4000 + p.val, by omega⟩ : Fin 100000) q))
    (h1 : ∀ q : Fin 256, x1 (ix2 (0 : Fin 1) q) = mean (ix2 (0 : Fin 1) q))
    (h2 : ∀ q : Fin 256, x2 (ix2 (0 : Fin 1) q) = var (ix2 (0 : Fin 1) q))
    (h3 : ∀ q : Fin 256, x3 (ix2 (0 : Fin 1) q) = gamma (ix2 (0 : Fin 1) q))
    (h4 : ∀ q : Fin 256, x4 (ix2 (0 : Fin 1) q) = beta (ix2 (0 : Fin 1) q))
    (p : Fin 4000) (q : Fin 256) :
    k3_pay1 (F := Ideal) x2 x0 x1 x3 x4 (ix2 p q)
      = bnRelu pre mean var gamma beta (ix2 (⟨T * 4000 + p.val, by omega⟩ : Fin 100000) q) := by
  rw [pay3_apply, bnRelu_ix2, h0, h1, h2, h3, h4]

/-- The printed index maps over the grid: the row-block windows (the input and the output) sit at block
    `t` of axis 0, and the four row windows at block 0. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

theorem hz3 : (![0, 0] : Fin 2 → Nat) = fun _ => 0 := funext fun a => by fin_cases a <;> rfl

/-- The input row block at point `t` holds rows `4000 t … 4000 t + 3999` of the array. -/
theorem read3_0 (c : Dev nD) (t : Fin cfg3.N) (p : Fin 4000) (q : Fin 256) :
    (((cfg3.win 0).blk t).view.read (Elt Ideal) (V c (Pipeline.arrRef spec3 0)) : Vec Ideal S4000x256 .bf16) (ix2 p q)
      = (V c main_v70_0 : S100000x256.Idx → EReal) (ix2 (⟨t.val * 4000 + p.val, by have := t.isLt; have := p.isLt; have hN : cfg3.N = 25 := N_3; omega⟩ : Fin 100000) q) := by
  obtain ⟨e0, e1, -⟩ := idx_facts3 t
  rw [View.read_apply]
  show V c main_v70_0 _ = V c main_v70_0 _
  refine congrArg _ ?_
  funext a
  apply Fin.ext
  match a with
  | ⟨0, _⟩ => show win3_0.index t 0 * 4000 + 1 * p.val = t.val * 4000 + p.val; rw [e0]; omega
  | ⟨1, _⟩ => show win3_0.index t 1 * 256 + 1 * q.val = q.val; rw [e1]; omega

/-- Window 1's block at every point is the whole [1, 256] row. -/
theorem read3_1 (c : Dev nD) (t : Fin cfg3.N) (q : Fin 256) :
    (((cfg3.win 1).blk t).view.read (Elt Ideal) (V c (Pipeline.arrRef spec3 1)) : Vec Ideal S1x256 .f32) (ix2 (0 : Fin 1) q)
      = (V c main_v83 : S1x256.Idx → EReal) (ix2 (0 : Fin 1) q) := by
  obtain ⟨e00, e01, e10, e11, e20, e21, e30, e31, e40, e41, e50, e51⟩ := idx_facts3 t
  rw [View.read_apply]
  show V c main_v83 _ = V c main_v83 _
  refine congrArg _ ?_
  funext a
  apply Fin.ext
  match a with
  | ⟨0, _⟩ => show win3_1.index t 0 * 1 + 1 * 0 = 0; rw [e10]
  | ⟨1, _⟩ => show win3_1.index t 1 * 256 + 1 * q.val = q.val; rw [e11]; omega

/-- Window 2's block at every point is the whole [1, 256] row. -/
theorem read3_2 (c : Dev nD) (t : Fin cfg3.N) (q : Fin 256) :
    (((cfg3.win 2).blk t).view.read (Elt Ideal) (V c (Pipeline.arrRef spec3 2)) : Vec Ideal S1x256 .f32) (ix2 (0 : Fin 1) q)
      = (V c main_v84 : S1x256.Idx → EReal) (ix2 (0 : Fin 1) q) := by
  obtain ⟨e00, e01, e10, e11, e20, e21, e30, e31, e40, e41, e50, e51⟩ := idx_facts3 t
  rw [View.read_apply]
  show V c main_v84 _ = V c main_v84 _
  refine congrArg _ ?_
  funext a
  apply Fin.ext
  match a with
  | ⟨0, _⟩ => show win3_2.index t 0 * 1 + 1 * 0 = 0; rw [e20]
  | ⟨1, _⟩ => show win3_2.index t 1 * 256 + 1 * q.val = q.val; rw [e21]; omega

/-- Window 3's block at every point is the whole [1, 256] row. -/
theorem read3_3 (c : Dev nD) (t : Fin cfg3.N) (q : Fin 256) :
    (((cfg3.win 3).blk t).view.read (Elt Ideal) (V c (Pipeline.arrRef spec3 3)) : Vec Ideal S1x256 .f32) (ix2 (0 : Fin 1) q)
      = (V c main_v85 : S1x256.Idx → EReal) (ix2 (0 : Fin 1) q) := by
  obtain ⟨e00, e01, e10, e11, e20, e21, e30, e31, e40, e41, e50, e51⟩ := idx_facts3 t
  rw [View.read_apply]
  show V c main_v85 _ = V c main_v85 _
  refine congrArg _ ?_
  funext a
  apply Fin.ext
  match a with
  | ⟨0, _⟩ => show win3_3.index t 0 * 1 + 1 * 0 = 0; rw [e30]
  | ⟨1, _⟩ => show win3_3.index t 1 * 256 + 1 * q.val = q.val; rw [e31]; omega

/-- Window 4's block at every point is the whole [1, 256] row. -/
theorem read3_4 (c : Dev nD) (t : Fin cfg3.N) (q : Fin 256) :
    (((cfg3.win 4).blk t).view.read (Elt Ideal) (V c (Pipeline.arrRef spec3 4)) : Vec Ideal S1x256 .f32) (ix2 (0 : Fin 1) q)
      = (V c main_v86 : S1x256.Idx → EReal) (ix2 (0 : Fin 1) q) := by
  obtain ⟨e00, e01, e10, e11, e20, e21, e30, e31, e40, e41, e50, e51⟩ := idx_facts3 t
  rw [View.read_apply]
  show V c main_v86 _ = V c main_v86 _
  refine congrArg _ ?_
  funext a
  apply Fin.ext
  match a with
  | ⟨0, _⟩ => show win3_4.index t 0 * 1 + 1 * 0 = 0; rw [e40]
  | ⟨1, _⟩ => show win3_4.index t 1 * 256 + 1 * q.val = q.val; rw [e41]; omega

/-- Where the output block's entry `(p, q)` sits in the array: row `4000 t + p`, lane `q`. -/
theorem emb3_5 (t : Fin cfg3.N) (p : Fin 4000) (q : Fin 256) :
    (((cfg3.win 5).blk t).view.emb (ix2 p q) : S100000x256.Idx)
      = ix2 (⟨t.val * 4000 + p.val, by have := t.isLt; have := p.isLt; have hN : cfg3.N = 25 := N_3; omega⟩ : Fin 100000) q := by
  obtain ⟨e00, e01, e10, e11, e20, e21, e30, e31, e40, e41, e50, e51⟩ := idx_facts3 t
  funext a
  apply Fin.ext
  match a with
  | ⟨0, _⟩ => show win3_5.index t 0 * 4000 + 1 * p.val = t.val * 4000 + p.val; rw [e50]; omega
  | ⟨1, _⟩ => show win3_5.index t 1 * 256 + 1 * q.val = q.val; rw [e51]; omega

/-- An index of the array is in point `t`'s output block iff each coordinate is in the block's range. -/
theorem mem_blk3 (t : Fin cfg3.N) (i : S100000x256.Idx) :
    i ∈ ((cfg3.win 5).blk t).view.set ↔ ∀ a : Fin 2, win3_5.index t a * S4000x256.size a ≤ (i a).val ∧ (i a).val < win3_5.index t a * S4000x256.size a + S4000x256.size a := by
  show i ∈ ((View.whole main_v87).slice (win3_5.rect t)).set ↔ _
  rw [View.set_slice_whole, Rect.mem_set_unit]
  exact Iff.rfl

/-- Every row lies in the output block of the point `row / 4000`: the 25 blocks tile the array. -/
theorem cover3 (i : S100000x256.Idx) :
    ∃ t : Fin cfg3.N, (cfg3.win 5).flush t = true ∧ i ∈ ((cfg3.win 5).blk t).view.set := by
  have hN : cfg3.N = 25 := N_3
  have h0 : (i 0).val < 100000 := idx2_lt0 i
  have h1 : (i 1).val < 256 := idx2_lt1 i
  obtain ⟨e00, e01, e10, e11, e20, e21, e30, e31, e40, e41, e50, e51⟩ := idx_facts3 (⟨(i 0).val / 4000, by rw [hN]; omega⟩ : Fin cfg3.N)
  refine ⟨⟨(i 0).val / 4000, by rw [hN]; omega⟩, flush3_5 _, ?_⟩
  rw [mem_blk3]
  intro a
  match a with
  | ⟨0, _⟩ =>
    show win3_5.index _ 0 * 4000 ≤ (i 0).val ∧ (i 0).val < win3_5.index _ 0 * 4000 + 4000
    rw [e50]
    show (i 0).val / 4000 * 4000 ≤ (i 0).val ∧ (i 0).val < (i 0).val / 4000 * 4000 + 4000
    omega
  | ⟨1, _⟩ =>
    show win3_5.index _ 1 * 256 ≤ (i 1).val ∧ (i 1).val < win3_5.index _ 1 * 256 + 256
    rw [e51]
    omega

end Cert.KernelIdeal.KBn

end
-- ==== Proof.KBn3.lean ====
import proofs.«169498_j72670846649171_2_alg».proof.Proof.Gen.KernelIdeal.Frame
import proofs.«169498_j72670846649171_2_alg».proof.Proof.KBn3a

noncomputable section

namespace Cert.KernelIdeal.KBn

open Cert.KernelIdeal Cert.KernelIdeal.Gen Idealize.ShloMosaic Idealize.ShloMosaic.TcCoe Idealize.SL.Sem
open Idealize.ShloMosaic.Pipeline (Dat)
open Idealize.ShloMosaic.ValueIdx

/-! Region 3 read as a function of whole arrays: what each grid point writes back is its row block of
batch normalisation and ReLU of the region's input arrays, and the 25 row blocks tile the output, so the
output array after the region is that function entry by entry. -/

variable (V : (c : Dev nD) → (b : Ref sig .tc) → Buf (Elt Ideal) ((c : Thread nD τ).loc b))

/-- What point `t` writes back is block `t` of the whole-array function of the region's input arrays. -/
theorem flushed3_eq (c : Dev nD) (t : Fin cfg3.N) :
    (dat3 V c).flushed 5 t = ((cfg3.win 5).blk t).view.read (Elt Ideal)
      (bnRelu (V c main_v70_0) (V c main_v83) (V c main_v84) (V c main_v85) (V c main_v86)) := by
  show (cfg3.win 5).cut (grid3.coords t) ((dat3 V c).after 5 t) = _
  rw [after3_5]
  unfold out3_5
  rw [View.canon_unit_zero hz3]
  simp only [View.ld_unit_zero (S := S4000x256) hz3, View.ld_unit_zero (S := S1x256) hz3]
  funext j
  obtain ⟨p, q, rfl⟩ : ∃ (p : Fin 4000) (q : Fin 256), j = ix2 p q := ⟨j 0, j 1, eq_ix2 j⟩
  show k3_pay1 (iblk3 V c 2 t) (iblk3 V c 0 t) (iblk3 V c 1 t) (iblk3 V c 3 t) (iblk3 V c 4 t) (ix2 p q)
    = bnRelu (V c main_v70_0) (V c main_v83) (V c main_v84) (V c main_v85) (V c main_v86) (((cfg3.win 5).blk t).view.emb (ix2 p q))
  rw [emb3_5]
  exact point3_eq (iblk3 V c 0 t) (iblk3 V c 1 t) (iblk3 V c 2 t) (iblk3 V c 3 t) (iblk3 V c 4 t)
    (V c main_v70_0) (V c main_v83) (V c main_v84) (V c main_v85) (V c main_v86) t.val
    (by have := t.isLt; have hN : cfg3.N = 25 := N_3; omega)
    (fun p q => read3_0 V c t p q) (fun q => read3_1 V c t q) (fun q => read3_2 V c t q)
    (fun q => read3_3 V c t q) (fun q => read3_4 V c t q) p q

/-- THE ARRAY after the region: batch normalisation and ReLU of the region's input arrays, entry by entry. -/
theorem arr3 (c : Dev nD) :
    (dat3 V c).arrAt 5 cfg3.N
      = bnRelu (V c main_v70_0) (V c main_v83) (V c main_v84) (V c main_v85) (V c main_v86) :=
  (dat3 V c).arrAt_eq_of_cover 5 _ (fun t _ => flushed3_eq V c t) cover3

end Cert.KernelIdeal.KBn

end
-- ==== Proof.KBn5a.lean ====
import proofs.«169498_j72670846649171_2_alg».proof.Proof.Gen.KernelIdeal.Skeleton
import proofs.«169498_j72670846649171_2_alg».proof.Proof.Gen.KernelIdeal.Points
import proofs.«169498_j72670846649171_2_alg».proof.Proof.Gen.KernelIdeal.Launch
import proofs.«169498_j72670846649171_2_alg».proof.Proof.KBnSpec
import Idealize.ShloMosaic.Lib.Pipeline.Value
import Idealize.ShloMosaic.Lib.ValueIdx
import Idealize.ShloMosaic.Lib.ValueLayout
import Idealize.ShloMosaic.Lib.Decide

noncomputable section

namespace Cert.KernelIdeal.KBn

open Cert.KernelIdeal Cert.KernelIdeal.Gen Idealize.ShloMosaic Idealize.ShloMosaic.TcCoe Idealize.SL.Sem
open Idealize.ShloMosaic.Pipeline (Dat)
open Idealize.ShloMosaic.ValueIdx

/-! Region 5 (batch normalisation and ReLU over row blocks of 4000): the body's value at an entry, and
where each window's block sits in its array.

Each of the 25 grid points reads rows `4000 t … 4000 t + 3999` of the [100000, 256] input and the four
[1, 256] rows whole, and writes back the same rows of the output. The body is pointwise, so its value at
an entry of a block is the whole-array function at the entry's place in the array; the 25 output blocks
tile the output array. -/

/-- The body's value at row `p`, lane `q` of a block: the row entry less the lane's mean, times the
    reciprocal square root of the lane's variance plus ε, times the lane's scale, plus the lane's
    shift, clamped below at zero. The format changes are identities on extended reals. -/
theorem pay5_apply (v0 : Vec Ideal S1x256 .f32) (v5 : Vec Ideal S4000x256 .bf16) (v8 v14 v18 : Vec Ideal S1x256 .f32)
    (p : Fin 4000) (q : Fin 256) :
    k5_pay1 (F := Ideal) v0 v5 v8 v14 v18 (ix2 p q) =
      max (((v5 (ix2 p q) - v8 (ix2 (0 : Fin 1) q)) * Ideal.rsqrt (v0 (ix2 (0 : Fin 1) q) + Ideal.ofBits .f32 0x3727C5AC#32))
          * v14 (ix2 (0 : Fin 1) q) + v18 (ix2 (0 : Fin 1) q)) (Ideal.ofBits .f32 0x00000000#32) := by
  unfold k5_pay1
  simp only [shapeCast_self]
  rw [truncf_apply, maximumf_apply, addf_apply, mulf_apply, mulf_apply, subf_apply, extf_apply, broadcast_apply]
  rw [broadcastTo_1b_ab_apply, broadcastTo_1b_ab_apply, broadcastTo_1b_ab_apply, broadcastTo_1b_ab_apply]
  rfl

/-- If a block holds rows `4000 T … 4000 T + 3999` of `pre` and the four row blocks hold the four
    rows, the body's value at `(p, q)` is the whole-array function at row `4000 T + p`, lane `q`. -/
theorem point5_eq (x0 : Vec Ideal S4000x256 .bf16) (x1 x2 x3 x4 : Vec Ideal S1x256 .f32)
    (pre : S100000x256.Idx → EReal) (mean var gamma beta : S1x256.Idx → EReal) (T : Nat) (hT : T < 25)
    (h0 : ∀ (p : Fin 4000) (q : Fin 256), x0 (ix2 p q) = pre (ix2 (⟨T * 4000 + p.val, by omega⟩ : Fin 100000) q))
    (h1 : ∀ q : Fin 256, x1 (ix2 (0 : Fin 1) q) = mean (ix2 (0 : Fin 1) q))
    (h2 : ∀ q : Fin 256, x2 (ix2 (0 : Fin 1) q) = var (ix2 (0 : Fin 1) q))
    (h3 : ∀ q : Fin 256, x3 (ix2 (0 : Fin 1) q) = gamma (ix2 (0 : Fin 1) q))
    (h4 : ∀ q : Fin 256, x4 (ix2 (0 : Fin 1) q) = beta (ix2 (0 : Fin 1) q))
    (p : Fin 4000) (q : Fin 256) :
    k5_pay1 (F := Ideal) x2 x0 x1 x3 x4 (ix2 p q)
      = bnRelu pre mean var gamma beta (ix2 (⟨T * 4000 + p.val, by omega⟩ : Fin 100000) q) := by
  rw [pay5_apply, bnRelu_ix2, h0, h1, h2, h3, h4]

/-- The printed index maps over the grid: the row-block windows (the input and the output) sit at block
    `t` of axis 0, and the four row windows at block 0. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

variable (V : (c : Dev nD) → (b : Ref sig .tc) → Buf (Elt Ideal) ((c : Thread nD τ).loc b))

theorem hz5 : (![0, 0] : Fin 2 → Nat) = fun _ => 0 := funext fun a => by fin_cases a <;> rfl

/-- The input row block at point `t` holds rows `4000 t … 4000 t + 3999` of the array. -/
theorem read5_0 (c : Dev nD) (t : Fin cfg5.N) (p : Fin 4000) (q : Fin 256) :
    (((cfg5.win 0).blk t).view.read (Elt Ideal) (V c (Pipeline.arrRef spec5 0)) : Vec Ideal S4000x256 .bf16) (ix2 p q)
      = (V c main_v114_0 : S100000x256.Idx → EReal) (ix2 (⟨t.val * 4000 + p.val, by have := t.isLt; have := p.isLt; have hN : cfg5.N = 25 := N_5; omega⟩ : Fin 100000) q) := by
  obtain ⟨e0, e1, -⟩ := idx_facts5 t
  rw [View.read_apply]
  show V c main_v114_0 _ = V c main_v114_0 _
  refine congrArg _ ?_
  funext a
  apply Fin.ext
  match a with
  | ⟨0, _⟩ => show win5_0.index t 0 * 4000 + 1 * p.val = t.val * 4000 + p.val; rw [e0]; omega
  | ⟨1, _⟩ => show win5_0.index t 1 * 256 + 1 * q.val = q.val; rw [e1]; omega

/-- Window 1's block at every point is the whole [1, 256] row. -/
theorem read5_1 (c : Dev nD) (t : Fin cfg5.N) (q : Fin 256) :
    (((cfg5.win 1).blk t).view.read (Elt Ideal) (V c (Pipeline.arrRef spec5 1)) : Vec Ideal S1x256 .f32) (ix2 (0 : Fin 1) q)
      = (V c main_v127 : S1x256.Idx → EReal) (ix2 (0 : Fin 1) q) := by
  obtain ⟨e00, e01, e10, e11, e20, e21, e30, e31, e40, e41, e50, e51⟩ := idx_facts5 t
  rw [View.read_apply]
  show V c main_v127 _ = V c main_v127 _
  refine congrArg _ ?_
  funext a
  apply Fin.ext
  match a with
  | ⟨0, _⟩ => show win5_1.index t 0 * 1 + 1 * 0 = 0; rw [e10]
  | ⟨1, _⟩ => show win5_1.index t 1 * 256 + 1 * q.val = q.val; rw [e11]; omega

/-- Window 2's block at every point is the whole [1, 256] row. -/
theorem read5_2 (c : Dev nD) (t : Fin cfg5.N) (q : Fin 256) :
    (((cfg5.win 2).blk t).view.read (Elt Ideal) (V c (Pipeline.arrRef spec5 2)) : Vec Ideal S1x256 .f32) (ix2 (0 : Fin 1) q)
      = (V c main_v128 : S1x256.Idx → EReal) (ix2 (0 : Fin 1) q) := by
  obtain ⟨e00, e01, e10, e11, e20, e21, e30, e31, e40, e41, e50, e51⟩ := idx_facts5 t
  rw [View.read_apply]
  show V c main_v128 _ = V c main_v128 _
  refine congrArg _ ?_
  funext a
  apply Fin.ext
  match a with
  | ⟨0, _⟩ => show win5_2.index t 0 * 1 + 1 * 0 = 0; rw [e20]
  | ⟨1, _⟩ => show win5_2.index t 1 * 256 + 1 * q.val = q.val; rw [e21]; omega

/-- Window 3's block at every point is the whole [1, 256] row. -/
theorem read5_3 (c : Dev nD) (t : Fin cfg5.N) (q : Fin 256) :
    (((cfg5.win 3).blk t).view.read (Elt Ideal) (V c (Pipeline.arrRef spec5 3)) : Vec Ideal S1x256 .f32) (ix2 (0 : Fin 1) q)
      = (V c main_v129 : S1x256.Idx → EReal) (ix2 (0 : Fin 1) q) := by
  obtain ⟨e00, e01, e10, e11, e20, e21, e30, e31, e40, e41, e50, e51⟩ := idx_facts5 t
  rw [View.read_apply]
  show V c main_v129 _ = V c main_v129 _
  refine congrArg _ ?_
  funext a
  apply Fin.ext
  match a with
  | ⟨0, _⟩ => show win5_3.index t 0 * 1 + 1 * 0 = 0; rw [e30]
  | ⟨1, _⟩ => show win5_3.index t 1 * 256 + 1 * q.val = q.val; rw [e31]; omega

/-- Window 4's block at every point is the whole [1, 256] row. -/
theorem read5_4 (c : Dev nD) (t : Fin cfg5.N) (q : Fin 256) :
    (((cfg5.win 4).blk t).view.read (Elt Ideal) (V c (Pipeline.arrRef spec5 4)) : Vec Ideal S1x256 .f32) (ix2 (0 : Fin 1) q)
      = (V c main_v130 : S1x256.Idx → EReal) (ix2 (0 : Fin 1) q) := by
  obtain ⟨e00, e01, e10, e11, e20, e21, e30, e31, e40, e41, e50, e51⟩ := idx_facts5 t
  rw [View.read_apply]
  show V c main_v130 _ = V c main_v130 _
  refine congrArg _ ?_
  funext a
  apply Fin.ext
  match a with
  | ⟨0, _⟩ => show win5_4.index t 0 * 1 + 1 * 0 = 0; rw [e40]
  | ⟨1, _⟩ => show win5_4.index t 1 * 256 + 1 * q.val = q.val; rw [e41]; omega

/-- Where the output block's entry `(p, q)` sits in the array: row `4000 t + p`, lane `q`. -/
theorem emb5_5 (t : Fin cfg5.N) (p : Fin 4000) (q : Fin 256) :
    (((cfg5.win 5).blk t).view.emb (ix2 p q) : S100000x256.Idx)
      = ix2 (⟨t.val * 4000 + p.val, by have := t.isLt; have := p.isLt; have hN : cfg5.N = 25 := N_5; omega⟩ : Fin 100000) q := by
  obtain ⟨e00, e01, e10, e11, e20, e21, e30, e31, e40, e41, e50, e51⟩ := idx_facts5 t
  funext a
  apply Fin.ext
  match a with
  | ⟨0, _⟩ => show win5_5.index t 0 * 4000 + 1 * p.val = t.val * 4000 + p.val; rw [e50]; omega
  | ⟨1, _⟩ => show win5_5.index t 1 * 256 + 1 * q.val = q.val; rw [e51]; omega

/-- An index of the array is in point `t`'s output block iff each coordinate is in the block's range. -/
theorem mem_blk5 (t : Fin cfg5.N) (i : S100000x256.Idx) :
    i ∈ ((cfg5.win 5).blk t).view.set ↔ ∀ a : Fin 2, win5_5.index t a * S4000x256.size a ≤ (i a).val ∧ (i a).val < win5_5.index t a * S4000x256.size a + S4000x256.size a := by
  show i ∈ ((View.whole main_v131).slice (win5_5.rect t)).set ↔ _
  rw [View.set_slice_whole, Rect.mem_set_unit]
  exact Iff.rfl

/-- Every row lies in the output block of the point `row / 4000`: the 25 blocks tile the array. -/
theorem cover5 (i : S100000x256.Idx) :
    ∃ t : Fin cfg5.N, (cfg5.win 5).flush t = true ∧ i ∈ ((cfg5.win 5).blk t).view.set := by
  have hN : cfg5.N = 25 := N_5
  have h0 : (i 0).val < 100000 := idx2_lt0 i
  have h1 : (i 1).val < 256 := idx2_lt1 i
  obtain ⟨e00, e01, e10, e11, e20, e21, e30, e31, e40, e41, e50, e51⟩ := idx_facts5 (⟨(i 0).val / 4000, by rw [hN]; omega⟩ : Fin cfg5.N)
  refine ⟨⟨(i 0).val / 4000, by rw [hN]; omega⟩, flush5_5 _, ?_⟩
  rw [mem_blk5]
  intro a
  match a with
  | ⟨0, _⟩ =>
    show win5_5.index _ 0 * 4000 ≤ (i 0).val ∧ (i 0).val < win5_5.index _ 0 * 4000 + 4000
    rw [e50]
    show (i 0).val / 4000 * 4000 ≤ (i 0).val ∧ (i 0).val < (i 0).val / 4000 * 4000 + 4000
    omega
  | ⟨1, _⟩ =>
    show win5_5.index _ 1 * 256 ≤ (i 1).val ∧ (i 1).val < win5_5.index _ 1 * 256 + 256
    rw [e51]
    omega

end Cert.KernelIdeal.KBn

end
-- ==== Proof.KBn5.lean ====
import proofs.«169498_j72670846649171_2_alg».proof.Proof.Gen.KernelIdeal.Frame
import proofs.«169498_j72670846649171_2_alg».proof.Proof.KBn5a

noncomputable section

namespace Cert.KernelIdeal.KBn

open Cert.KernelIdeal Cert.KernelIdeal.Gen Idealize.ShloMosaic Idealize.ShloMosaic.TcCoe Idealize.SL.Sem
open Idealize.ShloMosaic.Pipeline (Dat)
open Idealize.ShloMosaic.ValueIdx

/-! Region 5 read as a function of whole arrays: what each grid point writes back is its row block of
batch normalisation and ReLU of the region's input arrays, and the 25 row blocks tile the output, so the
output array after the region is that function entry by entry. -/

variable (V : (c : Dev nD) → (b : Ref sig .tc) → Buf (Elt Ideal) ((c : Thread nD τ).loc b))

/-- What point `t` writes back is block `t` of the whole-array function of the region's input arrays. -/
theorem flushed5_eq (c : Dev nD) (t : Fin cfg5.N) :
    (dat5 V c).flushed 5 t = ((cfg5.win 5).blk t).view.read (Elt Ideal)
      (bnRelu (V c main_v114_0) (V c main_v127) (V c main_v128) (V c main_v129) (V c main_v130)) := by
  show (cfg5.win 5).cut (grid5.coords t) ((dat5 V c).after 5 t) = _
  rw [after5_5]
  unfold out5_5
  rw [View.canon_unit_zero hz5]
  simp only [View.ld_unit_zero (S := S4000x256) hz5, View.ld_unit_zero (S := S1x256) hz5]
  funext j
  obtain ⟨p, q, rfl⟩ : ∃ (p : Fin 4000) (q : Fin 256), j = ix2 p q := ⟨j 0, j 1, eq_ix2 j⟩
  show k5_pay1 (iblk5 V c 2 t) (iblk5 V c 0 t) (iblk5 V c 1 t) (iblk5 V c 3 t) (iblk5 V c 4 t) (ix2 p q)
    = bnRelu (V c main_v114_0) (V c main_v127) (V c main_v128) (V c main_v129) (V c main_v130) (((cfg5.win 5).blk t).view.emb (ix2 p q))
  rw [emb5_5]
  exact point5_eq (iblk5 V c 0 t) (iblk5 V c 1 t) (iblk5 V c 2 t) (iblk5 V c 3 t) (iblk5 V c 4 t)
    (V c main_v114_0) (V c main_v127) (V c main_v128) (V c main_v129) (V c main_v130) t.val
    (by have := t.isLt; have hN : cfg5.N = 25 := N_5; omega)
    (fun p q => read5_0 V c t p q) (fun q => read5_1 V c t q) (fun q => read5_2 V c t q)
    (fun q => read5_3 V c t q) (fun q => read5_4 V c t q) p q

/-- THE ARRAY after the region: batch normalisation and ReLU of the region's input arrays, entry by entry. -/
theorem arr5 (c : Dev nD) :
    (dat5 V c).arrAt 5 cfg5.N
      = bnRelu (V c main_v114_0) (V c main_v127) (V c main_v128) (V c main_v129) (V c main_v130) :=
  (dat5 V c).arrAt_eq_of_cover 5 _ (fun t _ => flushed5_eq V c t) cover5

end Cert.KernelIdeal.KBn

end
-- ==== Proof.KBn7a.lean ====
import proofs.«169498_j72670846649171_2_alg».proof.Proof.Gen.KernelIdeal.Skeleton
import proofs.«169498_j72670846649171_2_alg».proof.Proof.Gen.KernelIdeal.Points
import proofs.«169498_j72670846649171_2_alg».proof.Proof.Gen.KernelIdeal.Launch
import proofs.«169498_j72670846649171_2_alg».proof.Proof.KBnSpec
import Idealize.ShloMosaic.Lib.Pipeline.Value
import Idealize.ShloMosaic.Lib.ValueIdx
import Idealize.ShloMosaic.Lib.ValueLayout
import Idealize.ShloMosaic.Lib.Decide

noncomputable section

namespace Cert.KernelIdeal.KBn

open Cert.KernelIdeal Cert.KernelIdeal.Gen Idealize.ShloMosaic Idealize.ShloMosaic.TcCoe Idealize.SL.Sem
open Idealize.ShloMosaic.Pipeline (Dat)
open Idealize.ShloMosaic.ValueIdx

/-! Region 7 (batch normalisation and ReLU over row blocks of 4000): the body's value at an entry, and
where each window's block sits in its array.

Each of the 25 grid points reads rows `4000 t … 4000 t + 3999` of the [100000, 256] input and the four
[1, 256] rows whole, and writes back the same rows of the output. The body is pointwise, so its value at
an entry of a block is the whole-array function at the entry's place in the array; the 25 output blocks
tile the output array. -/

/-- The body's value at row `p`, lane `q` of a block: the row entry less the lane's mean, times the
    reciprocal square root of the lane's variance plus ε, times the lane's scale, plus the lane's
    shift, clamped below at zero. The format changes are identities on extended reals. -/
theorem pay7_apply (v0 : Vec Ideal S1x256 .f32) (v5 : Vec Ideal S4000x256 .bf16) (v8 v14 v18 : Vec Ideal S1x256 .f32)
    (p : Fin 4000) (q : Fin 256) :
    k7_pay1 (F := Ideal) v0 v5 v8 v14 v18 (ix2 p q) =
      max (((v5 (ix2 p q) - v8 (ix2 (0 : Fin 1) q)) * Ideal.rsqrt (v0 (ix2 (0 : Fin 1) q) + Ideal.ofBits .f32 0x3727C5AC#32))
          * v14 (ix2 (0 : Fin 1) q) + v18 (ix2 (0 : Fin 1) q)) (Ideal.ofBits .f32 0x00000000#32) := by
  unfold k7_pay1
  simp only [shapeCast_self]
  rw [truncf_apply, maximumf_apply, addf_apply, mulf_apply, mulf_apply, subf_apply, extf_apply, broadcast_apply]
  rw [broadcastTo_1b_ab_apply, broadcastTo_1b_ab_apply, broadcastTo_1b_ab_apply, broadcastTo_1b_ab_apply]
  rfl

/-- If a block holds rows `4000 T … 4000 T + 3999` of `pre` and the four row blocks hold the four
    rows, the body's value at `(p, q)` is the whole-array function at row `4000 T + p`, lane `q`. -/
theorem point7_eq (x0 : Vec Ideal S4000x256 .bf16) (x1 x2 x3 x4 : Vec Ideal S1x256 .f32)
    (pre : S100000x256.Idx → EReal) (mean var gamma beta : S1x256.Idx → EReal) (T : Nat) (hT : T < 25)
    (h0 : ∀ (p : Fin 4000) (q : Fin 256), x0 (ix2 p q) = pre (ix2 (⟨T * 4000 + p.val, by omega⟩ : Fin 100000) q))
    (h1 : ∀ q : Fin 256, x1 (ix2 (0 : Fin 1) q) = mean (ix2 (0 : Fin 1) q))
    (h2 : ∀ q : Fin 256, x2 (ix2 (0 : Fin 1) q) = var (ix2 (0 : Fin 1) q))
    (h3 : ∀ q : Fin 256, x3 (ix2 (0 : Fin 1) q) = gamma (ix2 (0 : Fin 1) q))
    (h4 : ∀ q : Fin 256, x4 (ix2 (0 : Fin 1) q) = beta (ix2 (0 : Fin 1) q))
    (p : Fin 4000) (q : Fin 256) :
    k7_pay1 (F := Ideal) x2 x0 x1 x3 x4 (ix2 p q)
      = bnRelu pre mean var gamma beta (ix2 (⟨T * 4000 + p.val, by omega⟩ : Fin 100000) q) := by
  rw [pay7_apply, bnRelu_ix2, h0, h1, h2, h3, h4]

/-- The printed index maps over the grid: the row-block windows (the input and the output) sit at block
    `t` of axis 0, and the four row windows at block 0. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

variable (V : (c : Dev nD) → (b : Ref sig .tc) → Buf (Elt Ideal) ((c : Thread nD τ).loc b))

theorem hz7 : (![0, 0] : Fin 2 → Nat) = fun _ => 0 := funext fun a => by fin_cases a <;> rfl

/-- The input row block at point `t` holds rows `4000 t … 4000 t + 3999` of the array. -/
theorem read7_0 (c : Dev nD) (t : Fin cfg7.N) (p : Fin 4000) (q : Fin 256) :
    (((cfg7.win 0).blk t).view.read (Elt Ideal) (V c (Pipeline.arrRef spec7 0)) : Vec Ideal S4000x256 .bf16) (ix2 p q)
      = (V c main_v158_0 : S100000x256.Idx → EReal) (ix2 (⟨t.val * 4000 + p.val, by have := t.isLt; have := p.isLt; have hN : cfg7.N = 25 := N_7; omega⟩ : Fin 100000) q) := by
  obtain ⟨e0, e1, -⟩ := idx_facts7 t
  rw [View.read_apply]
  show V c main_v158_0 _ = V c main_v158_0 _
  refine congrArg _ ?_
  funext a
  apply Fin.ext
  match a with
  | ⟨0, _⟩ => show win7_0.index t 0 * 4000 + 1 * p.val = t.val * 4000 + p.val; rw [e0]; omega
  | ⟨1, _⟩ => show win7_0.index t 1 * 256 + 1 * q.val = q.val; rw [e1]; omega

/-- Window 1's block at every point is the whole [1, 256] row. -/
theorem read7_1 (c : Dev nD) (t : Fin cfg7.N) (q : Fin 256) :
    (((cfg7.win 1).blk t).view.read (Elt Ideal) (V c (Pipeline.arrRef spec7 1)) : Vec Ideal S1x256 .f32) (ix2 (0 : Fin 1) q)
      = (V c main_v171 : S1x256.Idx → EReal) (ix2 (0 : Fin 1) q) := by
  obtain ⟨e00, e01, e10, e11, e20, e21, e30, e31, e40, e41, e50, e51⟩ := idx_facts7 t
  rw [View.read_apply]
  show V c main_v171 _ = V c main_v171 _
  refine congrArg _ ?_
  funext a
  apply Fin.ext
  match a with
  | ⟨0, _⟩ => show win7_1.index t 0 * 1 + 1 * 0 = 0; rw [e10]
  | ⟨1, _⟩ => show win7_1.index t 1 * 256 + 1 * q.val = q.val; rw [e11]; omega

/-- Window 2's block at every point is the whole [1, 256] row. -/
theorem read7_2 (c : Dev nD) (t : Fin cfg7.N) (q : Fin 256) :
    (((cfg7.win 2).blk t).view.read (Elt Ideal) (V c (Pipeline.arrRef spec7 2)) : Vec Ideal S1x256 .f32) (ix2 (0 : Fin 1) q)
      = (V c main_v172 : S1x256.Idx → EReal) (ix2 (0 : Fin 1) q) := by
  obtain ⟨e00, e01, e10, e11, e20, e21, e30, e31, e40, e41, e50, e51⟩ := idx_facts7 t
  rw [View.read_apply]
  show V c main_v172 _ = V c main_v172 _
  refine congrArg _ ?_
  funext a
  apply Fin.ext
  match a with
  | ⟨0, _⟩ => show win7_2.index t 0 * 1 + 1 * 0 = 0; rw [e20]
  | ⟨1, _⟩ => show win7_2.index t 1 * 256 + 1 * q.val = q.val; rw [e21]; omega

/-- Window 3's block at every point is the whole [1, 256] row. -/
theorem read7_3 (c : Dev nD) (t : Fin cfg7.N) (q : Fin 256) :
    (((cfg7.win 3).blk t).view.read (Elt Ideal) (V c (Pipeline.arrRef spec7 3)) : Vec Ideal S1x256 .f32) (ix2 (0 : Fin 1) q)
      = (V c main_v173 : S1x256.Idx → EReal) (ix2 (0 : Fin 1) q) := by
  obtain ⟨e00, e01, e10, e11, e20, e21, e30, e31, e40, e41, e50, e51⟩ := idx_facts7 t
  rw [View.read_apply]
  show V c main_v173 _ = V c main_v173 _
  refine congrArg _ ?_
  funext a
  apply Fin.ext
  match a with
  | ⟨0, _⟩ => show win7_3.index t 0 * 1 + 1 * 0 = 0; rw [e30]
  | ⟨1, _⟩ => show win7_3.index t 1 * 256 + 1 * q.val = q.val; rw [e31]; omega

/-- Window 4's block at every point is the whole [1, 256] row. -/
theorem read7_4 (c : Dev nD) (t : Fin cfg7.N) (q : Fin 256) :
    (((cfg7.win 4).blk t).view.read (Elt Ideal) (V c (Pipeline.arrRef spec7 4)) : Vec Ideal S1x256 .f32) (ix2 (0 : Fin 1) q)
      = (V c main_v174 : S1x256.Idx → EReal) (ix2 (0 : Fin 1) q) := by
  obtain ⟨e00, e01, e10, e11, e20, e21, e30, e31, e40, e41, e50, e51⟩ := idx_facts7 t
  rw [View.read_apply]
  show V c main_v174 _ = V c main_v174 _
  refine congrArg _ ?_
  funext a
  apply Fin.ext
  match a with
  | ⟨0, _⟩ => show win7_4.index t 0 * 1 + 1 * 0 = 0; rw [e40]
  | ⟨1, _⟩ => show win7_4.index t 1 * 256 + 1 * q.val = q.val; rw [e41]; omega

/-- Where the output block's entry `(p, q)` sits in the array: row `4000 t + p`, lane `q`. -/
theorem emb7_5 (t : Fin cfg7.N) (p : Fin 4000) (q : Fin 256) :
    (((cfg7.win 5).blk t).view.emb (ix2 p q) : S100000x256.Idx)
      = ix2 (⟨t.val * 4000 + p.val, by have := t.isLt; have := p.isLt; have hN : cfg7.N = 25 := N_7; omega⟩ : Fin 100000) q := by
  obtain ⟨e00, e01, e10, e11, e20, e21, e30, e31, e40, e41, e50, e51⟩ := idx_facts7 t
  funext a
  apply Fin.ext
  match a with
  | ⟨0, _⟩ => show win7_5.index t 0 * 4000 + 1 * p.val = t.val * 4000 + p.val; rw [e50]; omega
  | ⟨1, _⟩ => show win7_5.index t 1 * 256 + 1 * q.val = q.val; rw [e51]; omega

/-- An index of the array is in point `t`'s output block iff each coordinate is in the block's range. -/
theorem mem_blk7 (t : Fin cfg7.N) (i : S100000x256.Idx) :
    i ∈ ((cfg7.win 5).blk t).view.set ↔ ∀ a : Fin 2, win7_5.index t a * S4000x256.size a ≤ (i a).val ∧ (i a).val < win7_5.index t a * S4000x256.size a + S4000x256.size a := by
  show i ∈ ((View.whole main_v175).slice (win7_5.rect t)).set ↔ _
  rw [View.set_slice_whole, Rect.mem_set_unit]
  exact Iff.rfl

/-- Every row lies in the output block of the point `row / 4000`: the 25 blocks tile the array. -/
theorem cover7 (i : S100000x256.Idx) :
    ∃ t : Fin cfg7.N, (cfg7.win 5).flush t = true ∧ i ∈ ((cfg7.win 5).blk t).view.set := by
  have hN : cfg7.N = 25 := N_7
  have h0 : (i 0).val < 100000 := idx2_lt0 i
  have h1 : (i 1).val < 256 := idx2_lt1 i
  obtain ⟨e00, e01, e10, e11, e20, e21, e30, e31, e40, e41, e50, e51⟩ := idx_facts7 (⟨(i 0).val / 4000, by rw [hN]; omega⟩ : Fin cfg7.N)
  refine ⟨⟨(i 0).val / 4000, by rw [hN]; omega⟩, flush7_5 _, ?_⟩
  rw [mem_blk7]
  intro a
  match a with
  | ⟨0, _⟩ =>
    show win7_5.index _ 0 * 4000 ≤ (i 0).val ∧ (i 0).val < win7_5.index _ 0 * 4000 + 4000
    rw [e50]
    show (i 0).val / 4000 * 4000 ≤ (i 0).val ∧ (i 0).val < (i 0).val / 4000 * 4000 + 4000
    omega
  | ⟨1, _⟩ =>
    show win7_5.index _ 1 * 256 ≤ (i 1).val ∧ (i 1).val < win7_5.index _ 1 * 256 + 256
    rw [e51]
    omega

end Cert.KernelIdeal.KBn

end
-- ==== Proof.KBn7.lean ====
import proofs.«169498_j72670846649171_2_alg».proof.Proof.Gen.KernelIdeal.Frame
import proofs.«169498_j72670846649171_2_alg».proof.Proof.KBn7a

noncomputable section

namespace Cert.KernelIdeal.KBn

open Cert.KernelIdeal Cert.KernelIdeal.Gen Idealize.ShloMosaic Idealize.ShloMosaic.TcCoe Idealize.SL.Sem
open Idealize.ShloMosaic.Pipeline (Dat)
open Idealize.ShloMosaic.ValueIdx

/-! Region 7 read as a function of whole arrays: what each grid point writes back is its row block of
batch normalisation and ReLU of the region's input arrays, and the 25 row blocks tile the output, so the
output array after the region is that function entry by entry. -/

variable (V : (c : Dev nD) → (b : Ref sig .tc) → Buf (Elt Ideal) ((c : Thread nD τ).loc b))

/-- What point `t` writes back is block `t` of the whole-array function of the region's input arrays. -/
theorem flushed7_eq (c : Dev nD) (t : Fin cfg7.N) :
    (dat7 V c).flushed 5 t = ((cfg7.win 5).blk t).view.read (Elt Ideal)
      (bnRelu (V c main_v158_0) (V c main_v171) (V c main_v172) (V c main_v173) (V c main_v174)) := by
  show (cfg7.win 5).cut (grid7.coords t) ((dat7 V c).after 5 t) = _
  rw [after7_5]
  unfold out7_5
  rw [View.canon_unit_zero hz7]
  simp only [View.ld_unit_zero (S := S4000x256) hz7, View.ld_unit_zero (S := S1x256) hz7]
  funext j
  obtain ⟨p, q, rfl⟩ : ∃ (p : Fin 4000) (q : Fin 256), j = ix2 p q := ⟨j 0, j 1, eq_ix2 j⟩
  show k7_pay1 (iblk7 V c 2 t) (iblk7 V c 0 t) (iblk7 V c 1 t) (iblk7 V c 3 t) (iblk7 V c 4 t) (ix2 p q)
    = bnRelu (V c main_v158_0) (V c main_v171) (V c main_v172) (V c main_v173) (V c main_v174) (((cfg7.win 5).blk t).view.emb (ix2 p q))
  rw [emb7_5]
  exact point7_eq (iblk7 V c 0 t) (iblk7 V c 1 t) (iblk7 V c 2 t) (iblk7 V c 3 t) (iblk7 V c 4 t)
    (V c main_v158_0) (V c main_v171) (V c main_v172) (V c main_v173) (V c main_v174) t.val
    (by have := t.isLt; have hN : cfg7.N = 25 := N_7; omega)
    (fun p q => read7_0 V c t p q) (fun q => read7_1 V c t q) (fun q => read7_2 V c t q)
    (fun q => read7_3 V c t q) (fun q => read7_4 V c t q) p q

/-- THE ARRAY after the region: batch normalisation and ReLU of the region's input arrays, entry by entry. -/
theorem arr7 (c : Dev nD) :
    (dat7 V c).arrAt 5 cfg7.N
      = bnRelu (V c main_v158_0) (V c main_v171) (V c main_v172) (V c main_v173) (V c main_v174) :=
  (dat7 V c).arrAt_eq_of_cover 5 _ (fun t _ => flushed7_eq V c t) cover7

end Cert.KernelIdeal.KBn

end
-- ==== Proof.KHead9a.lean ====
import proofs.«169498_j72670846649171_2_alg».proof.Proof.Gen.KernelIdeal.Skeleton
import proofs.«169498_j72670846649171_2_alg».proof.Proof.Gen.KernelIdeal.Points
import proofs.«169498_j72670846649171_2_alg».proof.Proof.Gen.KernelIdeal.Launch
import proofs.«169498_j72670846649171_2_alg».proof.Proof.KHeadSpec
import Idealize.ShloMosaic.Lib.Pipeline.Value
import Idealize.ShloMosaic.Lib.ValueIdx
import Idealize.ShloMosaic.Lib.ValueLayout
import Idealize.ShloMosaic.Lib.Decide
import Idealize.ShloMosaic.PureOps.Ideal.Laws

noncomputable section

namespace Cert.KernelIdeal.KHead

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! Region 9 (the last layer's batch normalisation fused with the two-layer head, over row blocks of 4000):
the body's value at an entry, and where each window's block sits in its array.

Each of the 25 grid points reads rows `4000 t … 4000 t + 3999` of the [100000, 128] input and the eight
small arrays whole, and writes back the same rows of the [100000, 1] output. A product into a zero
accumulator read at an entry is the sum over the contracted coordinate, so the body's value at row `p`
of a block is the head's value at row `4000 t + p` of the array; the 25 output blocks tile the output. -/

/-- The product of an [m, k] by a [k, n] matrix into a zero accumulator, read at row `a`, column `b`:
    the sum over the contracted coordinate of the products of the entries. -/
theorem matmul_zero_ix2 {m k n : Nat} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂) (a : Fin m) (b : Fin n) :
    matmul d prec A B (constant (F := Ideal) ⟨2, ![m, n]⟩ .f32 0x00000000#32) (ix2 a b) = ∑ c : Fin k, A (ix2 a c) * B (ix2 c b) := by
  subst hd
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The normalised block entry the first product reads, at row `p`, lane `k`. -/
theorem pay9_apply (v0 : Vec Ideal S1x128 .f32) (v5 : Vec Ideal S4000x128 .bf16) (v8 v14 v18 : Vec Ideal S1x128 .f32)
    (v23 : Vec Ideal S128x64 .f32) (v26 : Vec Ideal S1x64 .f32) (v32 : Vec Ideal S64x1 .f32) (v36 : Vec Ideal S1x1 .f32)
    (p : Fin 4000) (c : Fin 1) :
    k9_pay1 (F := Ideal) (k9_pay2 v0 v5 v8 v14 v18 v23 v26 v32) v36 (ix2 p c) =
      (∑ n : Fin 64, max ((∑ k : Fin 128,
            (((v5 (ix2 p k) - v8 (ix2 (0 : Fin 1) k)) * Ideal.rsqrt (v0 (ix2 (0 : Fin 1) k) + Ideal.ofBits .f32 0x3727C5AC#32))
              * v14 (ix2 (0 : Fin 1) k) + v18 (ix2 (0 : Fin 1) k)) * v23 (ix2 k n)) + v26 (ix2 (0 : Fin 1) n))
          (Ideal.ofBits .f32 0x00000000#32) * v32 (ix2 n c)) + v36 (ix2 (0 : Fin 1) c) := by
  unfold k9_pay1
  simp only [shapeCast_self]
  rw [addf_apply, broadcastTo_1b_ab_apply]
  refine congrArg (· + v36 (ix2 (0 : Fin 1) c)) ?_
  unfold k9_pay2
  simp only [shapeCast_self]
  refine (matmul_zero_ix2 dot_S4000x64_S64x1_S4000x1_1_0_0_1_n_n _ rfl none _ _ p c).trans ?_
  refine Finset.sum_congr rfl fun n _ => ?_
  rw [truncf_apply, truncf_apply, maximumf_apply, addf_apply, broadcast_apply, broadcastTo_1b_ab_apply]
  refine congrArg (fun z => max (z + v26 (ix2 (0 : Fin 1) n)) (Ideal.ofBits .f32 0x00000000#32) * v32 (ix2 n c)) ?_
  refine (matmul_zero_ix2 dot_S4000x128_S128x64_S4000x64_1_0_0_1_n_n _ rfl none _ _ p n).trans ?_
  refine Finset.sum_congr rfl fun k _ => ?_
  rw [truncf_apply, truncf_apply, addf_apply, mulf_apply, mulf_apply, subf_apply, extf_apply]
  rw [broadcastTo_1b_ab_apply, broadcastTo_1b_ab_apply, broadcastTo_1b_ab_apply, broadcastTo_1b_ab_apply]
  rfl

/-- If a block holds rows `4000 T … 4000 T + 3999` of `pre` and the other blocks hold their whole
    arrays, the body's value at row `p` is the head's value at row `4000 T + p`. -/
theorem point9_eq (x0 : Vec Ideal S4000x128 .bf16) (x1 x2 x3 x4 : Vec Ideal S1x128 .f32)
    (x5 : Vec Ideal S128x64 .f32) (x6 : Vec Ideal S1x64 .f32) (x7 : Vec Ideal S64x1 .f32) (x8 : Vec Ideal S1x1 .f32)
    (pre : S100000x128.Idx → EReal) (mean var gamma beta : S1x128.Idx → EReal)
    (cw1 : S128x64.Idx → EReal) (cb1 : S1x64.Idx → EReal) (cw2 : S64x1.Idx → EReal) (cb2 : S1x1.Idx → EReal)
    (T : Nat) (hT : T < 25)
    (h0 : ∀ (p : Fin 4000) (k : Fin 128), x0 (ix2 p k) = pre (ix2 (⟨T * 4000 + p.val, by omega⟩ : Fin 100000) k))
    (h1 : x1 = mean) (h2 : x2 = var) (h3 : x3 = gamma) (h4 : x4 = beta)
    (h5 : x5 = cw1) (h6 : x6 = cb1) (h7 : x7 = cw2) (h8 : x8 = cb2)
    (p : Fin 4000) (c : Fin 1) :
    k9_pay1 (F := Ideal) (k9_pay2 x2 x0 x1 x3 x4 x5 x6 x7) x8 (ix2 p c)
      = bnHead pre mean var gamma beta cw1 cb1 cw2 cb2 (ix2 (⟨T * 4000 + p.val, by omega⟩ : Fin 100000) c) := by
  subst h1 h2 h3 h4 h5 h6 h7 h8
  rw [pay9_apply, bnHead_ix2]
  unfold headRow bnAt
  simp only [h0]

theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0
    ∧ win9_8.index t (0 : Fin 2) = 0 ∧ win9_8.index t (1 : Fin 2) = 0
    ∧ win9_9.index t (0 : Fin 2) = t.val ∧ win9_9.index t (1 : Fin 2) = 0 :=
  (by decide +kernel : ∀ t : Fin grid9.N, _)

variable (V : (c : Dev nD) → (b : Ref sig .tc) → Buf (Elt Ideal) ((c : Thread nD τ).loc b))

theorem hz9 : (![0, 0] : Fin 2 → Nat) = fun _ => 0 := funext fun a => by fin_cases a <;> rfl

/-- The input row block at point `t` holds rows `4000 t … 4000 t + 3999` of the array. -/
theorem read9_0 (c : Dev nD) (t : Fin cfg9.N) (p : Fin 4000) (k : Fin 128) :
    (((cfg9.win 0).blk t).view.read (Elt Ideal) (V c (Pipeline.arrRef spec9 0)) : Vec Ideal S4000x128 .bf16) (ix2 p k)
      = (V c main_v192_0 : S100000x128.Idx → EReal) (ix2 (⟨t.val * 4000 + p.val, by have := t.isLt; have := p.isLt; have hN : cfg9.N = 25 := N_9; omega⟩ : Fin 100000) k) := by
  obtain ⟨e00, e01, e10, e11, e20, e21, e30, e31, e40, e41, e50, e51, e60, e61, e70, e71, e80, e81, e90, e91⟩ := idx_facts9 t
  rw [View.read_apply]
  show V c main_v192_0 _ = V c main_v192_0 _
  refine congrArg _ ?_
  funext a
  apply Fin.ext
  match a with
  | ⟨0, _⟩ => show win9_0.index t 0 * 4000 + 1 * p.val = t.val * 4000 + p.val; rw [e00]; omega
  | ⟨1, _⟩ => show win9_0.index t 1 * 128 + 1 * k.val = k.val; rw [e01]; omega

/-- Window 1's block at every point is its whole [1, 128] array. -/
theorem read9_1 (c : Dev nD) (t : Fin cfg9.N) :
    (((cfg9.win 1).blk t).view.read (Elt Ideal) (V c (Pipeline.arrRef spec9 1)) : Vec Ideal S1x128 .f32)
      = (V c main_v205 : S1x128.Idx → EReal) := by
  obtain ⟨e00, e01, e10, e11, e20, e21, e30, e31, e40, e41, e50, e51, e60, e61, e70, e71, e80, e81, e90, e91⟩ := idx_facts9 t
  funext j
  obtain ⟨p, q, rfl⟩ : ∃ (p : Fin 1) (q : Fin 128), j = ix2 p q := ⟨j 0, j 1, eq_ix2 j⟩
  rw [View.read_apply]
  show V c main_v205 _ = V c main_v205 _
  refine congrArg _ ?_
  funext a
  apply Fin.ext
  match a with
  | ⟨0, _⟩ => show win9_1.index t 0 * 1 + 1 * p.val = p.val; rw [e10]; omega
  | ⟨1, _⟩ => show win9_1.index t 1 * 128 + 1 * q.val = q.val; rw [e11]; omega

/-- Window 2's block at every point is its whole [1, 128] array. -/
theorem read9_2 (c : Dev nD) (t : Fin cfg9.N) :
    (((cfg9.win 2).blk t).view.read (Elt Ideal) (V c (Pipeline.arrRef spec9 2)) : Vec Ideal S1x128 .f32)
      = (V c main_v206 : S1x128.Idx → EReal) := by
  obtain ⟨e00, e01, e10, e11, e20, e21, e30, e31, e40, e41, e50, e51, e60, e61, e70, e71, e80, e81, e90, e91⟩ := idx_facts9 t
  funext j
  obtain ⟨p, q, rfl⟩ : ∃ (p : Fin 1) (q : Fin 128), j = ix2 p q := ⟨j 0, j 1, eq_ix2 j⟩
  rw [View.read_apply]
  show V c main_v206 _ = V c main_v206 _
  refine congrArg _ ?_
  funext a
  apply Fin.ext
  match a with
  | ⟨0, _⟩ => show win9_2.index t 0 * 1 + 1 * p.val = p.val; rw [e20]; omega
  | ⟨1, _⟩ => show win9_2.index t 1 * 128 + 1 * q.val = q.val; rw [e21]; omega

/-- Window 3's block at every point is its whole [1, 128] array. -/
theorem read9_3 (c : Dev nD) (t : Fin cfg9.N) :
    (((cfg9.win 3).blk t).view.read (Elt Ideal) (V c (Pipeline.arrRef spec9 3)) : Vec Ideal S1x128 .f32)
      = (V c main_v207 : S1x128.Idx → EReal) := by
  obtain ⟨e00, e01, e10, e11, e20, e21, e30, e31, e40, e41, e50, e51, e60, e61, e70, e71, e80, e81, e90, e91⟩ := idx_facts9 t
  funext j
  obtain ⟨p, q, rfl⟩ : ∃ (p : Fin 1) (q : Fin 128), j = ix2 p q := ⟨j 0, j 1, eq_ix2 j⟩
  rw [View.read_apply]
  show V c main_v207 _ = V c main_v207 _
  refine congrArg _ ?_
  funext a
  apply Fin.ext
  match a with
  | ⟨0, _⟩ => show win9_3.index t 0 * 1 + 1 * p.val = p.val; rw [e30]; omega
  | ⟨1, _⟩ => show win9_3.index t 1 * 128 + 1 * q.val = q.val; rw [e31]; omega

/-- Window 4's block at every point is its whole [1, 128] array. -/
theorem read9_4 (c : Dev nD) (t : Fin cfg9.N) :
    (((cfg9.win 4).blk t).view.read (Elt Ideal) (V c (Pipeline.arrRef spec9 4)) : Vec Ideal S1x128 .f32)
      = (V c main_v208 : S1x128.Idx → EReal) := by
  obtain ⟨e00, e01, e10, e11, e20, e21, e30, e31, e40, e41, e50, e51, e60, e61, e70, e71, e80, e81, e90, e91⟩ := idx_facts9 t
  funext j
  obtain ⟨p, q, rfl⟩ : ∃ (p : Fin 1) (q : Fin 128), j = ix2 p q := ⟨j 0, j 1, eq_ix2 j⟩
  rw [View.read_apply]
  show V c main_v208 _ = V c main_v208 _
  refine congrArg _ ?_
  funext a
  apply Fin.ext
  match a with
  | ⟨0, _⟩ => show win9_4.index t 0 * 1 + 1 * p.val = p.val; rw [e40]; omega
  | ⟨1, _⟩ => show win9_4.index t 1 * 128 + 1 * q.val = q.val; rw [e41]; omega

/-- Window 5's block at every point is its whole [128, 64] array. -/
theorem read9_5 (c : Dev nD) (t : Fin cfg9.N) :
    (((cfg9.win 5).blk t).view.read (Elt Ideal) (V c (Pipeline.arrRef spec9 5)) : Vec Ideal S128x64 .f32)
      = (V c main_arg17 : S128x64.Idx → EReal) := by
  obtain ⟨e00, e01, e10, e11, e20, e21, e30, e31, e40, e41, e50, e51, e60, e61, e70, e71, e80, e81, e90, e91⟩ := idx_facts9 t
  funext j
  obtain ⟨p, q, rfl⟩ : ∃ (p : Fin 128) (q : Fin 64), j = ix2 p q := ⟨j 0, j 1, eq_ix2 j⟩
  rw [View.read_apply]
  show V c main_arg17 _ = V c main_arg17 _
  refine congrArg _ ?_
  funext a
  apply Fin.ext
  match a with
  | ⟨0, _⟩ => show win9_5.index t 0 * 128 + 1 * p.val = p.val; rw [e50]; omega
  | ⟨1, _⟩ => show win9_5.index t 1 * 64 + 1 * q.val = q.val; rw [e51]; omega

/-- Window 6's block at every point is its whole [1, 64] array. -/
theorem read9_6 (c : Dev nD) (t : Fin cfg9.N) :
    (((cfg9.win 6).blk t).view.read (Elt Ideal) (V c (Pipeline.arrRef spec9 6)) : Vec Ideal S1x64 .f32)
      = (V c main_v209 : S1x64.Idx → EReal) := by
  obtain ⟨e00, e01, e10, e11, e20, e21, e30, e31, e40, e41, e50, e51, e60, e61, e70, e71, e80, e81, e90, e91⟩ := idx_facts9 t
  funext j
  obtain ⟨p, q, rfl⟩ : ∃ (p : Fin 1) (q : Fin 64), j = ix2 p q := ⟨j 0, j 1, eq_ix2 j⟩
  rw [View.read_apply]
  show V c main_v209 _ = V c main_v209 _
  refine congrArg _ ?_
  funext a
  apply Fin.ext
  match a with
  | ⟨0, _⟩ => show win9_6.index t 0 * 1 + 1 * p.val = p.val; rw [e60]; omega
  | ⟨1, _⟩ => show win9_6.index t 1 * 64 + 1 * q.val = q.val; rw [e61]; omega

/-- Window 7's block at every point is its whole [64, 1] array. -/
theorem read9_7 (c : Dev nD) (t : Fin cfg9.N) :
    (((cfg9.win 7).blk t).view.read (Elt Ideal) (V c (Pipeline.arrRef spec9 7)) : Vec Ideal S64x1 .f32)
      = (V c main_arg19 : S64x1.Idx → EReal) := by
  obtain ⟨e00, e01, e10, e11, e20, e21, e30, e31, e40, e41, e50, e51, e60, e61, e70, e71, e80, e81, e90, e91⟩ := idx_facts9 t
  funext j
  obtain ⟨p, q, rfl⟩ : ∃ (p : Fin 64) (q : Fin 1), j = ix2 p q := ⟨j 0, j 1, eq_ix2 j⟩
  rw [View.read_apply]
  show V c main_arg19 _ = V c main_arg19 _
  refine congrArg _ ?_
  funext a
  apply Fin.ext
  match a with
  | ⟨0, _⟩ => show win9_7.index t 0 * 64 + 1 * p.val = p.val; rw [e70]; omega
  | ⟨1, _⟩ => show win9_7.index t 1 * 1 + 1 * q.val = q.val; rw [e71]; omega

/-- Window 8's block at every point is its whole [1, 1] array. -/
theorem read9_8 (c : Dev nD) (t : Fin cfg9.N) :
    (((cfg9.win 8).blk t).view.read (Elt Ideal) (V c (Pipeline.arrRef spec9 8)) : Vec Ideal S1x1 .f32)
      = (V c main_v210 : S1x1.Idx → EReal) := by
  obtain ⟨e00, e01, e10, e11, e20, e21, e30, e31, e40, e41, e50, e51, e60, e61, e70, e71, e80, e81, e90, e91⟩ := idx_facts9 t
  funext j
  obtain ⟨p, q, rfl⟩ : ∃ (p : Fin 1) (q : Fin 1), j = ix2 p q := ⟨j 0, j 1, eq_ix2 j⟩
  rw [View.read_apply]
  show V c main_v210 _ = V c main_v210 _
  refine congrArg _ ?_
  funext a
  apply Fin.ext
  match a with
  | ⟨0, _⟩ => show win9_8.index t 0 * 1 + 1 * p.val = p.val; rw [e80]; omega
  | ⟨1, _⟩ => show win9_8.index t 1 * 1 + 1 * q.val = q.val; rw [e81]; omega

/-- Where the output block's entry `(p, c)` sits in the array: row `4000 t + p`. -/
theorem emb9_9 (t : Fin cfg9.N) (p : Fin 4000) (c : Fin 1) :
    (((cfg9.win 9).blk t).view.emb (ix2 p c) : S100000x1.Idx)
      = ix2 (⟨t.val * 4000 + p.val, by have := t.isLt; have := p.isLt; have hN : cfg9.N = 25 := N_9; omega⟩ : Fin 100000) c := by
  obtain ⟨e00, e01, e10, e11, e20, e21, e30, e31, e40, e41, e50, e51, e60, e61, e70, e71, e80, e81, e90, e91⟩ := idx_facts9 t
  funext a
  apply Fin.ext
  match a with
  | ⟨0, _⟩ => show win9_9.index t 0 * 4000 + 1 * p.val = t.val * 4000 + p.val; rw [e90]; omega
  | ⟨1, _⟩ => show win9_9.index t 1 * 1 + 1 * c.val = c.val; rw [e91]; omega

/-- An index of the array is in point `t`'s output block iff each coordinate is in the block's range. -/
theorem mem_blk9 (t : Fin cfg9.N) (i : S100000x1.Idx) :
    i ∈ ((cfg9.win 9).blk t).view.set ↔ ∀ a : Fin 2, win9_9.index t a * S4000x1.size a ≤ (i a).val ∧ (i a).val < win9_9.index t a * S4000x1.size a + S4000x1.size a := by
  show i ∈ ((View.whole main_v211).slice (win9_9.rect t)).set ↔ _
  rw [View.set_slice_whole, Rect.mem_set_unit]
  exact Iff.rfl

/-- Every row lies in the output block of the point `row / 4000`: the 25 blocks tile the array. -/
theorem cover9 (i : S100000x1.Idx) :
    ∃ t : Fin cfg9.N, (cfg9.win 9).flush t = true ∧ i ∈ ((cfg9.win 9).blk t).view.set := by
  have hN : cfg9.N = 25 := N_9
  have h0 : (i 0).val < 100000 := idx2_lt0 i
  have h1 : (i 1).val < 1 := idx2_lt1 i
  obtain ⟨e00, e01, e10, e11, e20, e21, e30, e31, e40, e41, e50, e51, e60, e61, e70, e71, e80, e81, e90, e91⟩ := idx_facts9 (⟨(i 0).val / 4000, by rw [hN]; omega⟩ : Fin cfg9.N)
  refine ⟨⟨(i 0).val / 4000, by rw [hN]; omega⟩, flush9_9 _, ?_⟩
  rw [mem_blk9]
  intro a
  match a with
  | ⟨0, _⟩ =>
    show win9_9.index _ 0 * 4000 ≤ (i 0).val ∧ (i 0).val < win9_9.index _ 0 * 4000 + 4000
    rw [e90]
    show (i 0).val / 4000 * 4000 ≤ (i 0).val ∧ (i 0).val < (i 0).val / 4000 * 4000 + 4000
    omega
  | ⟨1, _⟩ =>
    show win9_9.index _ 1 * 1 ≤ (i 1).val ∧ (i 1).val < win9_9.index _ 1 * 1 + 1
    rw [e91]
    omega

end Cert.KernelIdeal.KHead

end
-- ==== Proof.KHead9.lean ====
import proofs.«169498_j72670846649171_2_alg».proof.Proof.Gen.KernelIdeal.Frame
import proofs.«169498_j72670846649171_2_alg».proof.Proof.KHead9a

noncomputable section

namespace Cert.KernelIdeal.KHead

open Cert.KernelIdeal Cert.KernelIdeal.Gen Idealize.ShloMosaic Idealize.ShloMosaic.TcCoe Idealize.SL.Sem
open Idealize.ShloMosaic.Pipeline (Dat)
open Idealize.ShloMosaic.ValueIdx

/-! Region 9 read as a function of whole arrays: what each grid point writes back is its row block of the
head's values of the region's input arrays, and the 25 row blocks tile the [100000, 1] output, so the
output array after the region is the head's value row by row. -/

variable (V : (c : Dev nD) → (b : Ref sig .tc) → Buf (Elt Ideal) ((c : Thread nD τ).loc b))

/-- What point `t` writes back is block `t` of the head's values of the region's input arrays. -/
theorem flushed9_eq (c : Dev nD) (t : Fin cfg9.N) :
    (dat9 V c).flushed 9 t = ((cfg9.win 9).blk t).view.read (Elt Ideal)
      (bnHead (V c main_v192_0) (V c main_v205) (V c main_v206) (V c main_v207) (V c main_v208)
        (V c main_arg17) (V c main_v209) (V c main_arg19) (V c main_v210)) := by
  show (cfg9.win 9).cut (grid9.coords t) ((dat9 V c).after 9 t) = _
  rw [after9_9]
  unfold out9_9
  rw [View.canon_unit_zero hz9]
  simp only [View.ld_unit_zero (S := S4000x128) hz9, View.ld_unit_zero (S := S1x128) hz9,
    View.ld_unit_zero (S := S128x64) hz9, View.ld_unit_zero (S := S1x64) hz9, View.ld_unit_zero (S := S64x1) hz9,
    View.ld_unit_zero (S := S1x1) hz9]
  funext j
  obtain ⟨p, q, rfl⟩ : ∃ (p : Fin 4000) (q : Fin 1), j = ix2 p q := ⟨j 0, j 1, eq_ix2 j⟩
  show k9_pay1 (k9_pay2 (iblk9 V c 2 t) (iblk9 V c 0 t) (iblk9 V c 1 t) (iblk9 V c 3 t) (iblk9 V c 4 t)
        (iblk9 V c 5 t) (iblk9 V c 6 t) (iblk9 V c 7 t)) (iblk9 V c 8 t) (ix2 p q)
    = bnHead (V c main_v192_0) (V c main_v205) (V c main_v206) (V c main_v207) (V c main_v208)
        (V c main_arg17) (V c main_v209) (V c main_arg19) (V c main_v210) (((cfg9.win 9).blk t).view.emb (ix2 p q))
  rw [emb9_9]
  exact point9_eq (iblk9 V c 0 t) (iblk9 V c 1 t) (iblk9 V c 2 t) (iblk9 V c 3 t) (iblk9 V c 4 t)
    (iblk9 V c 5 t) (iblk9 V c 6 t) (iblk9 V c 7 t) (iblk9 V c 8 t)
    (V c main_v192_0) (V c main_v205) (V c main_v206) (V c main_v207) (V c main_v208)
    (V c main_arg17) (V c main_v209) (V c main_arg19) (V c main_v210) t.val
    (by have := t.isLt; have hN : cfg9.N = 25 := N_9; omega)
    (fun p k => read9_0 V c t p k) (read9_1 V c t) (read9_2 V c t) (read9_3 V c t) (read9_4 V c t)
    (read9_5 V c t) (read9_6 V c t) (read9_7 V c t) (read9_8 V c t) p q

/-- THE ARRAY after the region: the head's value of every row of the normalised last layer. -/
theorem arr9 (c : Dev nD) :
    (dat9 V c).arrAt 9 cfg9.N
      = bnHead (V c main_v192_0) (V c main_v205) (V c main_v206) (V c main_v207) (V c main_v208)
          (V c main_arg17) (V c main_v209) (V c main_arg19) (V c main_v210) :=
  (dat9 V c).arrAt_eq_of_cover 9 _ (fun t _ => flushed9_eq V c t) cover9

end Cert.KernelIdeal.KHead

end
-- ==== Proof.KVal.lean ====
/- The kernel program's result as the kernel-side network of its argument arrays.

   Layer by layer: a linear region leaves the row-normalised linear map of the aggregated features
   and its per-block column sums; the host turns the sums into the batch mean and clamped variance;
   the next region standardises, scales, shifts and clamps.  The last standardisation is fused with
   the two-layer head, and the host drops the single output column.  Every step is the whole-array
   reading of that region or stretch, composed; no arithmetic is done here. -/
import proofs.«169498_j72670846649171_2_alg».proof.Proof.Gen.KernelIdeal.Frame
import proofs.«169498_j72670846649171_2_alg».proof.Proof.KHost
import proofs.«169498_j72670846649171_2_alg».proof.Proof.KNet
import proofs.«169498_j72670846649171_2_alg».proof.Proof.KSage0Arr
import proofs.«169498_j72670846649171_2_alg».proof.Proof.KSage2Arr
import proofs.«169498_j72670846649171_2_alg».proof.Proof.KSage4Arr
import proofs.«169498_j72670846649171_2_alg».proof.Proof.KSage6Arr
import proofs.«169498_j72670846649171_2_alg».proof.Proof.KSage8Arr
import proofs.«169498_j72670846649171_2_alg».proof.Proof.KBn1
import proofs.«169498_j72670846649171_2_alg».proof.Proof.KBn3
import proofs.«169498_j72670846649171_2_alg».proof.Proof.KBn5
import proofs.«169498_j72670846649171_2_alg».proof.Proof.KBn7
import proofs.«169498_j72670846649171_2_alg».proof.Proof.KHead9

set_option maxRecDepth 16384

noncomputable section

namespace Cert.KernelIdeal.KVal

open Idealize.ShloMosaic Idealize.ShloMosaic.TcCoe Idealize.SL.Sem
open Cert.KernelIdeal Cert.KernelIdeal.Gen Cert.KernelIdeal.KHost Cert.KernelIdeal.KNet
open Cert.KernelIdeal.KSage (preArr sumArr sqArr rowAt)
open Cert.KernelIdeal.KBn (bnRelu)
open Cert.KernelIdeal.KHead (bnHead)

variable (m : (ℓ : Loc nD τ sig) → Buf (Elt Ideal) ℓ) (ρ : Dev nD → PrngReg)

/-! ## Layer 0: regions 0 and 1 -/

/-- What region 0 leaves in its first output: the row-normalised linear map of the aggregated features and the features. -/
theorem pre0 (c : Dev nD) : V2 m ρ c main_v26_0 = preArr (R := 100000) (Hin := 12) (Hout := 256) (kAgg12 (F := Ideal) (m ((c : Thread nD τ).loc main_arg0)) (kSrc (m ((c : Thread nD τ).loc main_arg1))) (kDst (m ((c : Thread nD τ).loc main_arg1))) (kDegInv (F := Ideal) (kDst (m ((c : Thread nD τ).loc main_arg1))))) (m ((c : Thread nD τ).loc main_arg0)) (m ((c : Thread nD τ).loc main_arg2)) (m ((c : Thread nD τ).loc main_arg4)) (kRow256 (F := Ideal) (m ((c : Thread nD τ).loc main_arg3))) :=
  calc V2 m ρ c main_v26_0
    _ = (dat0 (V1 m ρ) c).arrAt 5 cfg0.N := (hF0 m ρ c 5).symm
    _ = preArr (R := 100000) (Hin := 12) (Hout := 256) (V1 m ρ c main_v24) (V1 m ρ c main_arg0) (V1 m ρ c main_arg2) (V1 m ρ c main_arg4) (V1 m ρ c main_v25) := KSage.arr0_5 (V1 m ρ) c
    _ = preArr (R := 100000) (Hin := 12) (Hout := 256) (kAgg12 (F := Ideal) (m ((c : Thread nD τ).loc main_arg0)) (kSrc (m ((c : Thread nD τ).loc main_arg1))) (kDst (m ((c : Thread nD τ).loc main_arg1))) (kDegInv (F := Ideal) (kDst (m ((c : Thread nD τ).loc main_arg1))))) (m ((c : Thread nD τ).loc main_arg0)) (m ((c : Thread nD τ).loc main_arg2)) (m ((c : Thread nD τ).loc main_arg4)) (kRow256 (F := Ideal) (m ((c : Thread nD τ).loc main_arg3))) := by rw [V1_v24 m ρ c, V1_arg0 m ρ c, V1_arg2 m ρ c, V1_arg4 m ρ c, V1_v25 m ρ c]

/-- Its second output: the column sums of that array inside each block of rows. -/
theorem sum0 (c : Dev nD) : V2 m ρ c main_v26_1 = sumArr (R := 100000) (nB := 25) (B := 4000) (Hin := 12) (Hout := 256) rowAt (kAgg12 (F := Ideal) (m ((c : Thread nD τ).loc main_arg0)) (kSrc (m ((c : Thread nD τ).loc main_arg1))) (kDst (m ((c : Thread nD τ).loc main_arg1))) (kDegInv (F := Ideal) (kDst (m ((c : Thread nD τ).loc main_arg1))))) (m ((c : Thread nD τ).loc main_arg0)) (m ((c : Thread nD τ).loc main_arg2)) (m ((c : Thread nD τ).loc main_arg4)) (kRow256 (F := Ideal) (m ((c : Thread nD τ).loc main_arg3))) :=
  calc V2 m ρ c main_v26_1
    _ = (dat0 (V1 m ρ) c).arrAt 6 cfg0.N := (hF0 m ρ c 6).symm
    _ = sumArr (R := 100000) (nB := 25) (B := 4000) (Hin := 12) (Hout := 256) rowAt (V1 m ρ c main_v24) (V1 m ρ c main_arg0) (V1 m ρ c main_arg2) (V1 m ρ c main_arg4) (V1 m ρ c main_v25) := KSage.arr0_6 (V1 m ρ) c
    _ = sumArr (R := 100000) (nB := 25) (B := 4000) (Hin := 12) (Hout := 256) rowAt (kAgg12 (F := Ideal) (m ((c : Thread nD τ).loc main_arg0)) (kSrc (m ((c : Thread nD τ).loc main_arg1))) (kDst (m ((c : Thread nD τ).loc main_arg1))) (kDegInv (F := Ideal) (kDst (m ((c : Thread nD τ).loc main_arg1))))) (m ((c : Thread nD τ).loc main_arg0)) (m ((c : Thread nD τ).loc main_arg2)) (m ((c : Thread nD τ).loc main_arg4)) (kRow256 (F := Ideal) (m ((c : Thread nD τ).loc main_arg3))) := by rw [V1_v24 m ρ c, V1_arg0 m ρ c, V1_arg2 m ρ c, V1_arg4 m ρ c, V1_v25 m ρ c]

/-- Its third output: the column sums of the squares inside each block of rows. -/
theorem sq0 (c : Dev nD) : V2 m ρ c main_v26_2 = sqArr (R := 100000) (nB := 25) (B := 4000) (Hin := 12) (Hout := 256) rowAt (kAgg12 (F := Ideal) (m ((c : Thread nD τ).loc main_arg0)) (kSrc (m ((c : Thread nD τ).loc main_arg1))) (kDst (m ((c : Thread nD τ).loc main_arg1))) (kDegInv (F := Ideal) (kDst (m ((c : Thread nD τ).loc main_arg1))))) (m ((c : Thread nD τ).loc main_arg0)) (m ((c : Thread nD τ).loc main_arg2)) (m ((c : Thread nD τ).loc main_arg4)) (kRow256 (F := Ideal) (m ((c : Thread nD τ).loc main_arg3))) :=
  calc V2 m ρ c main_v26_2
    _ = (dat0 (V1 m ρ) c).arrAt 7 cfg0.N := (hF0 m ρ c 7).symm
    _ = sqArr (R := 100000) (nB := 25) (B := 4000) (Hin := 12) (Hout := 256) rowAt (V1 m ρ c main_v24) (V1 m ρ c main_arg0) (V1 m ρ c main_arg2) (V1 m ρ c main_arg4) (V1 m ρ c main_v25) := KSage.arr0_7 (V1 m ρ) c
    _ = sqArr (R := 100000) (nB := 25) (B := 4000) (Hin := 12) (Hout := 256) rowAt (kAgg12 (F := Ideal) (m ((c : Thread nD τ).loc main_arg0)) (kSrc (m ((c : Thread nD τ).loc main_arg1))) (kDst (m ((c : Thread nD τ).loc main_arg1))) (kDegInv (F := Ideal) (kDst (m ((c : Thread nD τ).loc main_arg1))))) (m ((c : Thread nD τ).loc main_arg0)) (m ((c : Thread nD τ).loc main_arg2)) (m ((c : Thread nD τ).loc main_arg4)) (kRow256 (F := Ideal) (m ((c : Thread nD τ).loc main_arg3))) := by rw [V1_v24 m ρ c, V1_arg0 m ρ c, V1_arg2 m ρ c, V1_arg4 m ρ c, V1_v25 m ρ c]

/-- What region 1 leaves: the layer. -/
theorem out0 (c : Dev nD) : V4 m ρ c main_v43 = kLayer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  calc V4 m ρ c main_v43
    _ = (dat1 (V3 m ρ) c).arrAt 5 cfg1.N := (hF1 m ρ c 5).symm
    _ = bnRelu (V3 m ρ c main_v26_0) (V3 m ρ c main_v39) (V3 m ρ c main_v40) (V3 m ρ c main_v41) (V3 m ρ c main_v42) :=
        KBn.arr1 (V3 m ρ) c
    _ = bnRelu (preArr (R := 100000) (Hin := 12) (Hout := 256) (kAgg12 (F := Ideal) (m ((c : Thread nD τ).loc main_arg0)) (kSrc (m ((c : Thread nD τ).loc main_arg1))) (kDst (m ((c : Thread nD τ).loc main_arg1))) (kDegInv (F := Ideal) (kDst (m ((c : Thread nD τ).loc main_arg1))))) (m ((c : Thread nD τ).loc main_arg0)) (m ((c : Thread nD τ).loc main_arg2)) (m ((c : Thread nD τ).loc main_arg4)) (kRow256 (F := Ideal) (m ((c : Thread nD τ).loc main_arg3)))) (kMean256 (F := Ideal) (sumArr (R := 100000) (nB := 25) (B := 4000) (Hin := 12) (Hout := 256) rowAt (kAgg12 (F := Ideal) (m ((c : Thread nD τ).loc main_arg0)) (kSrc (m ((c : Thread nD τ).loc main_arg1))) (kDst (m ((c : Thread nD τ).loc main_arg1))) (kDegInv (F := Ideal) (kDst (m ((c : Thread nD τ).loc main_arg1))))) (m ((c : Thread nD τ).loc main_arg0)) (m ((c : Thread nD τ).loc main_arg2)) (m ((c : Thread nD τ).loc main_arg4)) (kRow256 (F := Ideal) (m ((c : Thread nD τ).loc main_arg3))))) (kVar256 (F := Ideal) (sumArr (R := 100000) (nB := 25) (B := 4000) (Hin := 12) (Hout := 256) rowAt (kAgg12 (F := Ideal) (m ((c : Thread nD τ).loc main_arg0)) (kSrc (m ((c : Thread nD τ).loc main_arg1))) (kDst (m ((c : Thread nD τ).loc main_arg1))) (kDegInv (F := Ideal) (kDst (m ((c : Thread nD τ).loc main_arg1))))) (m ((c : Thread nD τ).loc main_arg0)) (m ((c : Thread nD τ).loc main_arg2)) (m ((c : Thread nD τ).loc main_arg4)) (kRow256 (F := Ideal) (m ((c : Thread nD τ).loc main_arg3)))) (sqArr (R := 100000) (nB := 25) (B := 4000) (Hin := 12) (Hout := 256) rowAt (kAgg12 (F := Ideal) (m ((c : Thread nD τ).loc main_arg0)) (kSrc (m ((c : Thread nD τ).loc main_arg1))) (kDst (m ((c : Thread nD τ).loc main_arg1))) (kDegInv (F := Ideal) (kDst (m ((c : Thread nD τ).loc main_arg1))))) (m ((c : Thread nD τ).loc main_arg0)) (m ((c : Thread nD τ).loc main_arg2)) (m ((c : Thread nD τ).loc main_arg4)) (kRow256 (F := Ideal) (m ((c : Thread nD τ).loc main_arg3))))) (kRow256 (F := Ideal) (m ((c : Thread nD τ).loc main_arg5))) (kRow256 (F := Ideal) (m ((c : Thread nD τ).loc main_arg6))) := by
        rw [V3_v26_0 m ρ c, V3_v39 m ρ c, V3_v40 m ρ c, V3_v41 m ρ c, V3_v42 m ρ c,
          pre0 m ρ c, sum0 m ρ c, sq0 m ρ c]
    _ = kLayer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := rfl

/-! ## Layer 1: regions 2 and 3 -/

/-- What region 2 leaves in its first output: the row-normalised linear map of the aggregated features and the features. -/
theorem pre2 (c : Dev nD) : V6 m ρ c main_v70_0 = preArr (R := 100000) (Hin := 256) (Hout := 256) (kAgg256 (F := Ideal) (V4 m ρ c main_v43) (kSrc (m ((c : Thread nD τ).loc main_arg1))) (kDst (m ((c : Thread nD τ).loc main_arg1))) (kDegInv (F := Ideal) (kDst (m ((c : Thread nD τ).loc main_arg1))))) (V4 m ρ c main_v43) (kMat0 (F := Ideal) (m ((c : Thread nD τ).loc main_arg7))) (kMat0 (F := Ideal) (m ((c : Thread nD τ).loc main_arg9))) (kRow256 (F := Ideal) (kVec0 (F := Ideal) (m ((c : Thread nD τ).loc main_arg8)))) :=
  calc V6 m ρ c main_v70_0
    _ = (dat2 (V5 m ρ) c).arrAt 5 cfg2.N := (hF2 m ρ c 5).symm
    _ = preArr (R := 100000) (Hin := 256) (Hout := 256) (V5 m ρ c main_v58) (V5 m ρ c main_v43) (V5 m ρ c main_v60) (V5 m ρ c main_v64) (V5 m ρ c main_v69) := KSage.arr2_5 (V5 m ρ) c
    _ = preArr (R := 100000) (Hin := 256) (Hout := 256) (kAgg256 (F := Ideal) (V4 m ρ c main_v43) (kSrc (m ((c : Thread nD τ).loc main_arg1))) (kDst (m ((c : Thread nD τ).loc main_arg1))) (kDegInv (F := Ideal) (kDst (m ((c : Thread nD τ).loc main_arg1))))) (V4 m ρ c main_v43) (kMat0 (F := Ideal) (m ((c : Thread nD τ).loc main_arg7))) (kMat0 (F := Ideal) (m ((c : Thread nD τ).loc main_arg9))) (kRow256 (F := Ideal) (kVec0 (F := Ideal) (m ((c : Thread nD τ).loc main_arg8)))) := by rw [V5_v58 m ρ c, V5_v43 m ρ c, V5_v60 m ρ c, V5_v64 m ρ c, V5_v69 m ρ c]

/-- Its second output: the column sums of that array inside each block of rows. -/
theorem sum2 (c : Dev nD) : V6 m ρ c main_v70_1 = sumArr (R := 100000) (nB := 25) (B := 4000) (Hin := 256) (Hout := 256) rowAt (kAgg256 (F := Ideal) (V4 m ρ c main_v43) (kSrc (m ((c : Thread nD τ).loc main_arg1))) (kDst (m ((c : Thread nD τ).loc main_arg1))) (kDegInv (F := Ideal) (kDst (m ((c : Thread nD τ).loc main_arg1))))) (V4 m ρ c main_v43) (kMat0 (F := Ideal) (m ((c : Thread nD τ).loc main_arg7))) (kMat0 (F := Ideal) (m ((c : Thread nD τ).loc main_arg9))) (kRow256 (F := Ideal) (kVec0 (F := Ideal) (m ((c : Thread nD τ).loc main_arg8)))) :=
  calc V6 m ρ c main_v70_1
    _ = (dat2 (V5 m ρ) c).arrAt 6 cfg2.N := (hF2 m ρ c 6).symm
    _ = sumArr (R := 100000) (nB := 25) (B := 4000) (Hin := 256) (Hout := 256) rowAt (V5 m ρ c main_v58) (V5 m ρ c main_v43) (V5 m ρ c main_v60) (V5 m ρ c main_v64) (V5 m ρ c main_v69) := KSage.arr2_6 (V5 m ρ) c
    _ = sumArr (R := 100000) (nB := 25) (B := 4000) (Hin := 256) (Hout := 256) rowAt (kAgg256 (F := Ideal) (V4 m ρ c main_v43) (kSrc (m ((c : Thread nD τ).loc main_arg1))) (kDst (m ((c : Thread nD τ).loc main_arg1))) (kDegInv (F := Ideal) (kDst (m ((c : Thread nD τ).loc main_arg1))))) (V4 m ρ c main_v43) (kMat0 (F := Ideal) (m ((c : Thread nD τ).loc main_arg7))) (kMat0 (F := Ideal) (m ((c : Thread nD τ).loc main_arg9))) (kRow256 (F := Ideal) (kVec0 (F := Ideal) (m ((c : Thread nD τ).loc main_arg8)))) := by rw [V5_v58 m ρ c, V5_v43 m ρ c, V5_v60 m ρ c, V5_v64 m ρ c, V5_v69 m ρ c]

/-- Its third output: the column sums of the squares inside each block of rows. -/
theorem sq2 (c : Dev nD) : V6 m ρ c main_v70_2 = sqArr (R := 100000) (nB := 25) (B := 4000) (Hin := 256) (Hout := 256) rowAt (kAgg256 (F := Ideal) (V4 m ρ c main_v43) (kSrc (m ((c : Thread nD τ).loc main_arg1))) (kDst (m ((c : Thread nD τ).loc main_arg1))) (kDegInv (F := Ideal) (kDst (m ((c : Thread nD τ).loc main_arg1))))) (V4 m ρ c main_v43) (kMat0 (F := Ideal) (m ((c : Thread nD τ).loc main_arg7))) (kMat0 (F := Ideal) (m ((c : Thread nD τ).loc main_arg9))) (kRow256 (F := Ideal) (kVec0 (F := Ideal) (m ((c : Thread nD τ).loc main_arg8)))) :=
  calc V6 m ρ c main_v70_2
    _ = (dat2 (V5 m ρ) c).arrAt 7 cfg2.N := (hF2 m ρ c 7).symm
    _ = sqArr (R := 100000) (nB := 25) (B := 4000) (Hin := 256) (Hout := 256) rowAt (V5 m ρ c main_v58) (V5 m ρ c main_v43) (V5 m ρ c main_v60) (V5 m ρ c main_v64) (V5 m ρ c main_v69) := KSage.arr2_7 (V5 m ρ) c
    _ = sqArr (R := 100000) (nB := 25) (B := 4000) (Hin := 256) (Hout := 256) rowAt (kAgg256 (F := Ideal) (V4 m ρ c main_v43) (kSrc (m ((c : Thread nD τ).loc main_arg1))) (kDst (m ((c : Thread nD τ).loc main_arg1))) (kDegInv (F := Ideal) (kDst (m ((c : Thread nD τ).loc main_arg1))))) (V4 m ρ c main_v43) (kMat0 (F := Ideal) (m ((c : Thread nD τ).loc main_arg7))) (kMat0 (F := Ideal) (m ((c : Thread nD τ).loc main_arg9))) (kRow256 (F := Ideal) (kVec0 (F := Ideal) (m ((c : Thread nD τ).loc main_arg8)))) := by rw [V5_v58 m ρ c, V5_v43 m ρ c, V5_v60 m ρ c, V5_v64 m ρ c, V5_v69 m ρ c]

/-- What region 3 leaves: the layer. -/
theorem out1 (c : Dev nD) : V8 m ρ c main_v87 = kLayer256 (V4 m ρ c main_v43) (m ((c : Thread nD τ).loc main_arg1)) (kMat0 (F := Ideal) (m ((c : Thread nD τ).loc main_arg7))) (kVec0 (F := Ideal) (m ((c : Thread nD τ).loc main_arg8))) (kMat0 (F := Ideal) (m ((c : Thread nD τ).loc main_arg9))) (kVec0 (F := Ideal) (m ((c : Thread nD τ).loc main_arg10))) (kVec0 (F := Ideal) (m ((c : Thread nD τ).loc main_arg11))) :=
  calc V8 m ρ c main_v87
    _ = (dat3 (V7 m ρ) c).arrAt 5 cfg3.N := (hF3 m ρ c 5).symm
    _ = bnRelu (V7 m ρ c main_v70_0) (V7 m ρ c main_v83) (V7 m ρ c main_v84) (V7 m ρ c main_v85) (V7 m ρ c main_v86) :=
        KBn.arr3 (V7 m ρ) c
    _ = bnRelu (preArr (R := 100000) (Hin := 256) (Hout := 256) (kAgg256 (F := Ideal) (V4 m ρ c main_v43) (kSrc (m ((c : Thread nD τ).loc main_arg1))) (kDst (m ((c : Thread nD τ).loc main_arg1))) (kDegInv (F := Ideal) (kDst (m ((c : Thread nD τ).loc main_arg1))))) (V4 m ρ c main_v43) (kMat0 (F := Ideal) (m ((c : Thread nD τ).loc main_arg7))) (kMat0 (F := Ideal) (m ((c : Thread nD τ).loc main_arg9))) (kRow256 (F := Ideal) (kVec0 (F := Ideal) (m ((c : Thread nD τ).loc main_arg8))))) (kMean256 (F := Ideal) (sumArr (R := 100000) (nB := 25) (B := 4000) (Hin := 256) (Hout := 256) rowAt (kAgg256 (F := Ideal) (V4 m ρ c main_v43) (kSrc (m ((c : Thread nD τ).loc main_arg1))) (kDst (m ((c : Thread nD τ).loc main_arg1))) (kDegInv (F := Ideal) (kDst (m ((c : Thread nD τ).loc main_arg1))))) (V4 m ρ c main_v43) (kMat0 (F := Ideal) (m ((c : Thread nD τ).loc main_arg7))) (kMat0 (F := Ideal) (m ((c : Thread nD τ).loc main_arg9))) (kRow256 (F := Ideal) (kVec0 (F := Ideal) (m ((c : Thread nD τ).loc main_arg8)))))) (kVar256 (F := Ideal) (sumArr (R := 100000) (nB := 25) (B := 4000) (Hin := 256) (Hout := 256) rowAt (kAgg256 (F := Ideal) (V4 m ρ c main_v43) (kSrc (m ((c : Thread nD τ).loc main_arg1))) (kDst (m ((c : Thread nD τ).loc main_arg1))) (kDegInv (F := Ideal) (kDst (m ((c : Thread nD τ).loc main_arg1))))) (V4 m ρ c main_v43) (kMat0 (F := Ideal) (m ((c : Thread nD τ).loc main_arg7))) (kMat0 (F := Ideal) (m ((c : Thread nD τ).loc main_arg9))) (kRow256 (F := Ideal) (kVec0 (F := Ideal) (m ((c : Thread nD τ).loc main_arg8))))) (sqArr (R := 100000) (nB := 25) (B := 4000) (Hin := 256) (Hout := 256) rowAt (kAgg256 (F := Ideal) (V4 m ρ c main_v43) (kSrc (m ((c : Thread nD τ).loc main_arg1))) (kDst (m ((c : Thread nD τ).loc main_arg1))) (kDegInv (F := Ideal) (kDst (m ((c : Thread nD τ).loc main_arg1))))) (V4 m ρ c main_v43) (kMat0 (F := Ideal) (m ((c : Thread nD τ).loc main_arg7))) (kMat0 (F := Ideal) (m ((c : Thread nD τ).loc main_arg9))) (kRow256 (F := Ideal) (kVec0 (F := Ideal) (m ((c : Thread nD τ).loc main_arg8)))))) (kRow256 (F := Ideal) (kVec0 (F := Ideal) (m ((c : Thread nD τ).loc main_arg10)))) (kRow256 (F := Ideal) (kVec0 (F := Ideal) (m ((c : Thread nD τ).loc main_arg11)))) := by
        rw [V7_v70_0 m ρ c, V7_v83 m ρ c, V7_v84 m ρ c, V7_v85 m ρ c, V7_v86 m ρ c,
          pre2 m ρ c, sum2 m ρ c, sq2 m ρ c]
    _ = kLayer256 (V4 m ρ c main_v43) (m ((c : Thread nD τ).loc main_arg1)) (kMat0 (F := Ideal) (m ((c : Thread nD τ).loc main_arg7))) (kVec0 (F := Ideal) (m ((c : Thread nD τ).loc main_arg8))) (kMat0 (F := Ideal) (m ((c : Thread nD τ).loc main_arg9))) (kVec0 (F := Ideal) (m ((c : Thread nD τ).loc main_arg10))) (kVec0 (F := Ideal) (m ((c : Thread nD τ).loc main_arg11))) := rfl

/-! ## Layer 2: regions 4 and 5 -/

/-- What region 4 leaves in its first output: the row-normalised linear map of the aggregated features and the features. -/
theorem pre4 (c : Dev nD) : V10 m ρ c main_v114_0 = preArr (R := 100000) (Hin := 256) (Hout := 256) (kAgg256 (F := Ideal) (V8 m ρ c main_v87) (kSrc (m ((c : Thread nD τ).loc main_arg1))) (kDst (m ((c : Thread nD τ).loc main_arg1))) (kDegInv (F := Ideal) (kDst (m ((c : Thread nD τ).loc main_arg1))))) (V8 m ρ c main_v87) (kMat1 (F := Ideal) (m ((c : Thread nD τ).loc main_arg7))) (kMat1 (F := Ideal) (m ((c : Thread nD τ).loc main_arg9))) (kRow256 (F := Ideal) (kVec1 (F := Ideal) (m ((c : Thread nD τ).loc main_arg8)))) :=
  calc V10 m ρ c main_v114_0
    _ = (dat4 (V9 m ρ) c).arrAt 5 cfg4.N := (hF4 m ρ c 5).symm
    _ = preArr (R := 100000) (Hin := 256) (Hout := 256) (V9 m ρ c main_v102) (V9 m ρ c main_v87) (V9 m ρ c main_v104) (V9 m ρ c main_v108) (V9 m ρ c main_v113) := KSage.arr4_5 (V9 m ρ) c
    _ = preArr (R := 100000) (Hin := 256) (Hout := 256) (kAgg256 (F := Ideal) (V8 m ρ c main_v87) (kSrc (m ((c : Thread nD τ).loc main_arg1))) (kDst (m ((c : Thread nD τ).loc main_arg1))) (kDegInv (F := Ideal) (kDst (m ((c : Thread nD τ).loc main_arg1))))) (V8 m ρ c main_v87) (kMat1 (F := Ideal) (m ((c : Thread nD τ).loc main_arg7))) (kMat1 (F := Ideal) (m ((c : Thread nD τ).loc main_arg9))) (kRow256 (F := Ideal) (kVec1 (F := Ideal) (m ((c : Thread nD τ).loc main_arg8)))) := by rw [V9_v102 m ρ c, V9_v87 m ρ c, V9_v104 m ρ c, V9_v108 m ρ c, V9_v113 m ρ c]

/-- Its second output: the column sums of that array inside each block of rows. -/
theorem sum4 (c : Dev nD) : V10 m ρ c main_v114_1 = sumArr (R := 100000) (nB := 25) (B := 4000) (Hin := 256) (Hout := 256) rowAt (kAgg256 (F := Ideal) (V8 m ρ c main_v87) (kSrc (m ((c : Thread nD τ).loc main_arg1))) (kDst (m ((c : Thread nD τ).loc main_arg1))) (kDegInv (F := Ideal) (kDst (m ((c : Thread nD τ).loc main_arg1))))) (V8 m ρ c main_v87) (kMat1 (F := Ideal) (m ((c : Thread nD τ).loc main_arg7))) (kMat1 (F := Ideal) (m ((c : Thread nD τ).loc main_arg9))) (kRow256 (F := Ideal) (kVec1 (F := Ideal) (m ((c : Thread nD τ).loc main_arg8)))) :=
  calc V10 m ρ c main_v114_1
    _ = (dat4 (V9 m ρ) c).arrAt 6 cfg4.N := (hF4 m ρ c 6).symm
    _ = sumArr (R := 100000) (nB := 25) (B := 4000) (Hin := 256) (Hout := 256) rowAt (V9 m ρ c main_v102) (V9 m ρ c main_v87) (V9 m ρ c main_v104) (V9 m ρ c main_v108) (V9 m ρ c main_v113) := KSage.arr4_6 (V9 m ρ) c
    _ = sumArr (R := 100000) (nB := 25) (B := 4000) (Hin := 256) (Hout := 256) rowAt (kAgg256 (F := Ideal) (V8 m ρ c main_v87) (kSrc (m ((c : Thread nD τ).loc main_arg1))) (kDst (m ((c : Thread nD τ).loc main_arg1))) (kDegInv (F := Ideal) (kDst (m ((c : Thread nD τ).loc main_arg1))))) (V8 m ρ c main_v87) (kMat1 (F := Ideal) (m ((c : Thread nD τ).loc main_arg7))) (kMat1 (F := Ideal) (m ((c : Thread nD τ).loc main_arg9))) (kRow256 (F := Ideal) (kVec1 (F := Ideal) (m ((c : Thread nD τ).loc main_arg8)))) := by rw [V9_v102 m ρ c, V9_v87 m ρ c, V9_v104 m ρ c, V9_v108 m ρ c, V9_v113 m ρ c]

/-- Its third output: the column sums of the squares inside each block of rows. -/
theorem sq4 (c : Dev nD) : V10 m ρ c main_v114_2 = sqArr (R := 100000) (nB := 25) (B := 4000) (Hin := 256) (Hout := 256) rowAt (kAgg256 (F := Ideal) (V8 m ρ c main_v87) (kSrc (m ((c : Thread nD τ).loc main_arg1))) (kDst (m ((c : Thread nD τ).loc main_arg1))) (kDegInv (F := Ideal) (kDst (m ((c : Thread nD τ).loc main_arg1))))) (V8 m ρ c main_v87) (kMat1 (F := Ideal) (m ((c : Thread nD τ).loc main_arg7))) (kMat1 (F := Ideal) (m ((c : Thread nD τ).loc main_arg9))) (kRow256 (F := Ideal) (kVec1 (F := Ideal) (m ((c : Thread nD τ).loc main_arg8)))) :=
  calc V10 m ρ c main_v114_2
    _ = (dat4 (V9 m ρ) c).arrAt 7 cfg4.N := (hF4 m ρ c 7).symm
    _ = sqArr (R := 100000) (nB := 25) (B := 4000) (Hin := 256) (Hout := 256) rowAt (V9 m ρ c main_v102) (V9 m ρ c main_v87) (V9 m ρ c main_v104) (V9 m ρ c main_v108) (V9 m ρ c main_v113) := KSage.arr4_7 (V9 m ρ) c
    _ = sqArr (R := 100000) (nB := 25) (B := 4000) (Hin := 256) (Hout := 256) rowAt (kAgg256 (F := Ideal) (V8 m ρ c main_v87) (kSrc (m ((c : Thread nD τ).loc main_arg1))) (kDst (m ((c : Thread nD τ).loc main_arg1))) (kDegInv (F := Ideal) (kDst (m ((c : Thread nD τ).loc main_arg1))))) (V8 m ρ c main_v87) (kMat1 (F := Ideal) (m ((c : Thread nD τ).loc main_arg7))) (kMat1 (F := Ideal) (m ((c : Thread nD τ).loc main_arg9))) (kRow256 (F := Ideal) (kVec1 (F := Ideal) (m ((c : Thread nD τ).loc main_arg8)))) := by rw [V9_v102 m ρ c, V9_v87 m ρ c, V9_v104 m ρ c, V9_v108 m ρ c, V9_v113 m ρ c]

/-- What region 5 leaves: the layer. -/
theorem out2 (c : Dev nD) : V12 m ρ c main_v131 = kLayer256 (V8 m ρ c main_v87) (m ((c : Thread nD τ).loc main_arg1)) (kMat1 (F := Ideal) (m ((c : Thread nD τ).loc main_arg7))) (kVec1 (F := Ideal) (m ((c : Thread nD τ).loc main_arg8))) (kMat1 (F := Ideal) (m ((c : Thread nD τ).loc main_arg9))) (kVec1 (F := Ideal) (m ((c : Thread nD τ).loc main_arg10))) (kVec1 (F := Ideal) (m ((c : Thread nD τ).loc main_arg11))) :=
  calc V12 m ρ c main_v131
    _ = (dat5 (V11 m ρ) c).arrAt 5 cfg5.N := (hF5 m ρ c 5).symm
    _ = bnRelu (V11 m ρ c main_v114_0) (V11 m ρ c main_v127) (V11 m ρ c main_v128) (V11 m ρ c main_v129) (V11 m ρ c main_v130) :=
        KBn.arr5 (V11 m ρ) c
    _ = bnRelu (preArr (R := 100000) (Hin := 256) (Hout := 256) (kAgg256 (F := Ideal) (V8 m ρ c main_v87) (kSrc (m ((c : Thread nD τ).loc main_arg1))) (kDst (m ((c : Thread nD τ).loc main_arg1))) (kDegInv (F := Ideal) (kDst (m ((c : Thread nD τ).loc main_arg1))))) (V8 m ρ c main_v87) (kMat1 (F := Ideal) (m ((c : Thread nD τ).loc main_arg7))) (kMat1 (F := Ideal) (m ((c : Thread nD τ).loc main_arg9))) (kRow256 (F := Ideal) (kVec1 (F := Ideal) (m ((c : Thread nD τ).loc main_arg8))))) (kMean256 (F := Ideal) (sumArr (R := 100000) (nB := 25) (B := 4000) (Hin := 256) (Hout := 256) rowAt (kAgg256 (F := Ideal) (V8 m ρ c main_v87) (kSrc (m ((c : Thread nD τ).loc main_arg1))) (kDst (m ((c : Thread nD τ).loc main_arg1))) (kDegInv (F := Ideal) (kDst (m ((c : Thread nD τ).loc main_arg1))))) (V8 m ρ c main_v87) (kMat1 (F := Ideal) (m ((c : Thread nD τ).loc main_arg7))) (kMat1 (F := Ideal) (m ((c : Thread nD τ).loc main_arg9))) (kRow256 (F := Ideal) (kVec1 (F := Ideal) (m ((c : Thread nD τ).loc main_arg8)))))) (kVar256 (F := Ideal) (sumArr (R := 100000) (nB := 25) (B := 4000) (Hin := 256) (Hout := 256) rowAt (kAgg256 (F := Ideal) (V8 m ρ c main_v87) (kSrc (m ((c : Thread nD τ).loc main_arg1))) (kDst (m ((c : Thread nD τ).loc main_arg1))) (kDegInv (F := Ideal) (kDst (m ((c : Thread nD τ).loc main_arg1))))) (V8 m ρ c main_v87) (kMat1 (F := Ideal) (m ((c : Thread nD τ).loc main_arg7))) (kMat1 (F := Ideal) (m ((c : Thread nD τ).loc main_arg9))) (kRow256 (F := Ideal) (kVec1 (F := Ideal) (m ((c : Thread nD τ).loc main_arg8))))) (sqArr (R := 100000) (nB := 25) (B := 4000) (Hin := 256) (Hout := 256) rowAt (kAgg256 (F := Ideal) (V8 m ρ c main_v87) (kSrc (m ((c : Thread nD τ).loc main_arg1))) (kDst (m ((c : Thread nD τ).loc main_arg1))) (kDegInv (F := Ideal) (kDst (m ((c : Thread nD τ).loc main_arg1))))) (V8 m ρ c main_v87) (kMat1 (F := Ideal) (m ((c : Thread nD τ).loc main_arg7))) (kMat1 (F := Ideal) (m ((c : Thread nD τ).loc main_arg9))) (kRow256 (F := Ideal) (kVec1 (F := Ideal) (m ((c : Thread nD τ).loc main_arg8)))))) (kRow256 (F := Ideal) (kVec1 (F := Ideal) (m ((c : Thread nD τ).loc main_arg10)))) (kRow256 (F := Ideal) (kVec1 (F := Ideal) (m ((c : Thread nD τ).loc main_arg11)))) := by
        rw [V11_v114_0 m ρ c, V11_v127 m ρ c, V11_v128 m ρ c, V11_v129 m ρ c, V11_v130 m ρ c,
          pre4 m ρ c, sum4 m ρ c, sq4 m ρ c]
    _ = kLayer256 (V8 m ρ c main_v87) (m ((c : Thread nD τ).loc main_arg1)) (kMat1 (F := Ideal) (m ((c : Thread nD τ).loc main_arg7))) (kVec1 (F := Ideal) (m ((c : Thread nD τ).loc main_arg8))) (kMat1 (F := Ideal) (m ((c : Thread nD τ).loc main_arg9))) (kVec1 (F := Ideal) (m ((c : Thread nD τ).loc main_arg10))) (kVec1 (F := Ideal) (m ((c : Thread nD τ).loc main_arg11))) := rfl

/-! ## Layer 3: regions 6 and 7 -/

/-- What region 6 leaves in its first output: the row-normalised linear map of the aggregated features and the features. -/
theorem pre6 (c : Dev nD) : V14 m ρ c main_v158_0 = preArr (R := 100000) (Hin := 256) (Hout := 256) (kAgg256 (F := Ideal) (V12 m ρ c main_v131) (kSrc (m ((c : Thread nD τ).loc main_arg1))) (kDst (m ((c : Thread nD τ).loc main_arg1))) (kDegInv (F := Ideal) (kDst (m ((c : Thread nD τ).loc main_arg1))))) (V12 m ρ c main_v131) (kMat2 (F := Ideal) (m ((c : Thread nD τ).loc main_arg7))) (kMat2 (F := Ideal) (m ((c : Thread nD τ).loc main_arg9))) (kRow256 (F := Ideal) (kVec2 (F := Ideal) (m ((c : Thread nD τ).loc main_arg8)))) :=
  calc V14 m ρ c main_v158_0
    _ = (dat6 (V13 m ρ) c).arrAt 5 cfg6.N := (hF6 m ρ c 5).symm
    _ = preArr (R := 100000) (Hin := 256) (Hout := 256) (V13 m ρ c main_v146) (V13 m ρ c main_v131) (V13 m ρ c main_v148) (V13 m ρ c main_v152) (V13 m ρ c main_v157) := KSage.arr6_5 (V13 m ρ) c
    _ = preArr (R := 100000) (Hin := 256) (Hout := 256) (kAgg256 (F := Ideal) (V12 m ρ c main_v131) (kSrc (m ((c : Thread nD τ).loc main_arg1))) (kDst (m ((c : Thread nD τ).loc main_arg1))) (kDegInv (F := Ideal) (kDst (m ((c : Thread nD τ).loc main_arg1))))) (V12 m ρ c main_v131) (kMat2 (F := Ideal) (m ((c : Thread nD τ).loc main_arg7))) (kMat2 (F := Ideal) (m ((c : Thread nD τ).loc main_arg9))) (kRow256 (F := Ideal) (kVec2 (F := Ideal) (m ((c : Thread nD τ).loc main_arg8)))) := by rw [V13_v146 m ρ c, V13_v131 m ρ c, V13_v148 m ρ c, V13_v152 m ρ c, V13_v157 m ρ c]

/-- Its second output: the column sums of that array inside each block of rows. -/
theorem sum6 (c : Dev nD) : V14 m ρ c main_v158_1 = sumArr (R := 100000) (nB := 25) (B := 4000) (Hin := 256) (Hout := 256) rowAt (kAgg256 (F := Ideal) (V12 m ρ c main_v131) (kSrc (m ((c : Thread nD τ).loc main_arg1))) (kDst (m ((c : Thread nD τ).loc main_arg1))) (kDegInv (F := Ideal) (kDst (m ((c : Thread nD τ).loc main_arg1))))) (V12 m ρ c main_v131) (kMat2 (F := Ideal) (m ((c : Thread nD τ).loc main_arg7))) (kMat2 (F := Ideal) (m ((c : Thread nD τ).loc main_arg9))) (kRow256 (F := Ideal) (kVec2 (F := Ideal) (m ((c : Thread nD τ).loc main_arg8)))) :=
  calc V14 m ρ c main_v158_1
    _ = (dat6 (V13 m ρ) c).arrAt 6 cfg6.N := (hF6 m ρ c 6).symm
    _ = sumArr (R := 100000) (nB := 25) (B := 4000) (Hin := 256) (Hout := 256) rowAt (V13 m ρ c main_v146) (V13 m ρ c main_v131) (V13 m ρ c main_v148) (V13 m ρ c main_v152) (V13 m ρ c main_v157) := KSage.arr6_6 (V13 m ρ) c
    _ = sumArr (R := 100000) (nB := 25) (B := 4000) (Hin := 256) (Hout := 256) rowAt (kAgg256 (F := Ideal) (V12 m ρ c main_v131) (kSrc (m ((c : Thread nD τ).loc main_arg1))) (kDst (m ((c : Thread nD τ).loc main_arg1))) (kDegInv (F := Ideal) (kDst (m ((c : Thread nD τ).loc main_arg1))))) (V12 m ρ c main_v131) (kMat2 (F := Ideal) (m ((c : Thread nD τ).loc main_arg7))) (kMat2 (F := Ideal) (m ((c : Thread nD τ).loc main_arg9))) (kRow256 (F := Ideal) (kVec2 (F := Ideal) (m ((c : Thread nD τ).loc main_arg8)))) := by rw [V13_v146 m ρ c, V13_v131 m ρ c, V13_v148 m ρ c, V13_v152 m ρ c, V13_v157 m ρ c]

/-- Its third output: the column sums of the squares inside each block of rows. -/
theorem sq6 (c : Dev nD) : V14 m ρ c main_v158_2 = sqArr (R := 100000) (nB := 25) (B := 4000) (Hin := 256) (Hout := 256) rowAt (kAgg256 (F := Ideal) (V12 m ρ c main_v131) (kSrc (m ((c : Thread nD τ).loc main_arg1))) (kDst (m ((c : Thread nD τ).loc main_arg1))) (kDegInv (F := Ideal) (kDst (m ((c : Thread nD τ).loc main_arg1))))) (V12 m ρ c main_v131) (kMat2 (F := Ideal) (m ((c : Thread nD τ).loc main_arg7))) (kMat2 (F := Ideal) (m ((c : Thread nD τ).loc main_arg9))) (kRow256 (F := Ideal) (kVec2 (F := Ideal) (m ((c : Thread nD τ).loc main_arg8)))) :=
  calc V14 m ρ c main_v158_2
    _ = (dat6 (V13 m ρ) c).arrAt 7 cfg6.N := (hF6 m ρ c 7).symm
    _ = sqArr (R := 100000) (nB := 25) (B := 4000) (Hin := 256) (Hout := 256) rowAt (V13 m ρ c main_v146) (V13 m ρ c main_v131) (V13 m ρ c main_v148) (V13 m ρ c main_v152) (V13 m ρ c main_v157) := KSage.arr6_7 (V13 m ρ) c
    _ = sqArr (R := 100000) (nB := 25) (B := 4000) (Hin := 256) (Hout := 256) rowAt (kAgg256 (F := Ideal) (V12 m ρ c main_v131) (kSrc (m ((c : Thread nD τ).loc main_arg1))) (kDst (m ((c : Thread nD τ).loc main_arg1))) (kDegInv (F := Ideal) (kDst (m ((c : Thread nD τ).loc main_arg1))))) (V12 m ρ c main_v131) (kMat2 (F := Ideal) (m ((c : Thread nD τ).loc main_arg7))) (kMat2 (F := Ideal) (m ((c : Thread nD τ).loc main_arg9))) (kRow256 (F := Ideal) (kVec2 (F := Ideal) (m ((c : Thread nD τ).loc main_arg8)))) := by rw [V13_v146 m ρ c, V13_v131 m ρ c, V13_v148 m ρ c, V13_v152 m ρ c, V13_v157 m ρ c]

/-- What region 7 leaves: the layer. -/
theorem out3 (c : Dev nD) : V16 m ρ c main_v175 = kLayer256 (V12 m ρ c main_v131) (m ((c : Thread nD τ).loc main_arg1)) (kMat2 (F := Ideal) (m ((c : Thread nD τ).loc main_arg7))) (kVec2 (F := Ideal) (m ((c : Thread nD τ).loc main_arg8))) (kMat2 (F := Ideal) (m ((c : Thread nD τ).loc main_arg9))) (kVec2 (F := Ideal) (m ((c : Thread nD τ).loc main_arg10))) (kVec2 (F := Ideal) (m ((c : Thread nD τ).loc main_arg11))) :=
  calc V16 m ρ c main_v175
    _ = (dat7 (V15 m ρ) c).arrAt 5 cfg7.N := (hF7 m ρ c 5).symm
    _ = bnRelu (V15 m ρ c main_v158_0) (V15 m ρ c main_v171) (V15 m ρ c main_v172) (V15 m ρ c main_v173) (V15 m ρ c main_v174) :=
        KBn.arr7 (V15 m ρ) c
    _ = bnRelu (preArr (R := 100000) (Hin := 256) (Hout := 256) (kAgg256 (F := Ideal) (V12 m ρ c main_v131) (kSrc (m ((c : Thread nD τ).loc main_arg1))) (kDst (m ((c : Thread nD τ).loc main_arg1))) (kDegInv (F := Ideal) (kDst (m ((c : Thread nD τ).loc main_arg1))))) (V12 m ρ c main_v131) (kMat2 (F := Ideal) (m ((c : Thread nD τ).loc main_arg7))) (kMat2 (F := Ideal) (m ((c : Thread nD τ).loc main_arg9))) (kRow256 (F := Ideal) (kVec2 (F := Ideal) (m ((c : Thread nD τ).loc main_arg8))))) (kMean256 (F := Ideal) (sumArr (R := 100000) (nB := 25) (B := 4000) (Hin := 256) (Hout := 256) rowAt (kAgg256 (F := Ideal) (V12 m ρ c main_v131) (kSrc (m ((c : Thread nD τ).loc main_arg1))) (kDst (m ((c : Thread nD τ).loc main_arg1))) (kDegInv (F := Ideal) (kDst (m ((c : Thread nD τ).loc main_arg1))))) (V12 m ρ c main_v131) (kMat2 (F := Ideal) (m ((c : Thread nD τ).loc main_arg7))) (kMat2 (F := Ideal) (m ((c : Thread nD τ).loc main_arg9))) (kRow256 (F := Ideal) (kVec2 (F := Ideal) (m ((c : Thread nD τ).loc main_arg8)))))) (kVar256 (F := Ideal) (sumArr (R := 100000) (nB := 25) (B := 4000) (Hin := 256) (Hout := 256) rowAt (kAgg256 (F := Ideal) (V12 m ρ c main_v131) (kSrc (m ((c : Thread nD τ).loc main_arg1))) (kDst (m ((c : Thread nD τ).loc main_arg1))) (kDegInv (F := Ideal) (kDst (m ((c : Thread nD τ).loc main_arg1))))) (V12 m ρ c main_v131) (kMat2 (F := Ideal) (m ((c : Thread nD τ).loc main_arg7))) (kMat2 (F := Ideal) (m ((c : Thread nD τ).loc main_arg9))) (kRow256 (F := Ideal) (kVec2 (F := Ideal) (m ((c : Thread nD τ).loc main_arg8))))) (sqArr (R := 100000) (nB := 25) (B := 4000) (Hin := 256) (Hout := 256) rowAt (kAgg256 (F := Ideal) (V12 m ρ c main_v131) (kSrc (m ((c : Thread nD τ).loc main_arg1))) (kDst (m ((c : Thread nD τ).loc main_arg1))) (kDegInv (F := Ideal) (kDst (m ((c : Thread nD τ).loc main_arg1))))) (V12 m ρ c main_v131) (kMat2 (F := Ideal) (m ((c : Thread nD τ).loc main_arg7))) (kMat2 (F := Ideal) (m ((c : Thread nD τ).loc main_arg9))) (kRow256 (F := Ideal) (kVec2 (F := Ideal) (m ((c : Thread nD τ).loc main_arg8)))))) (kRow256 (F := Ideal) (kVec2 (F := Ideal) (m ((c : Thread nD τ).loc main_arg10)))) (kRow256 (F := Ideal) (kVec2 (F := Ideal) (m ((c : Thread nD τ).loc main_arg11)))) := by
        rw [V15_v158_0 m ρ c, V15_v171 m ρ c, V15_v172 m ρ c, V15_v173 m ρ c, V15_v174 m ρ c,
          pre6 m ρ c, sum6 m ρ c, sq6 m ρ c]
    _ = kLayer256 (V12 m ρ c main_v131) (m ((c : Thread nD τ).loc main_arg1)) (kMat2 (F := Ideal) (m ((c : Thread nD τ).loc main_arg7))) (kVec2 (F := Ideal) (m ((c : Thread nD τ).loc main_arg8))) (kMat2 (F := Ideal) (m ((c : Thread nD τ).loc main_arg9))) (kVec2 (F := Ideal) (m ((c : Thread nD τ).loc main_arg10))) (kVec2 (F := Ideal) (m ((c : Thread nD τ).loc main_arg11))) := rfl

/-! ## The last layer and the head: regions 8 and 9, and the final reshape -/

theorem pre8 (c : Dev nD) : V18 m ρ c main_v192_0 = preArr (R := 100000) (Hin := 256) (Hout := 128) (kAgg256 (F := Ideal) (V16 m ρ c main_v175) (kSrc (m ((c : Thread nD τ).loc main_arg1))) (kDst (m ((c : Thread nD τ).loc main_arg1))) (kDegInv (F := Ideal) (kDst (m ((c : Thread nD τ).loc main_arg1))))) (V16 m ρ c main_v175) (m ((c : Thread nD τ).loc main_arg12)) (m ((c : Thread nD τ).loc main_arg14)) (kRow128 (F := Ideal) (m ((c : Thread nD τ).loc main_arg13))) :=
  calc V18 m ρ c main_v192_0
    _ = (dat8 (V17 m ρ) c).arrAt 5 cfg8.N := (hF8 m ρ c 5).symm
    _ = preArr (R := 100000) (Hin := 256) (Hout := 128) (V17 m ρ c main_v190) (V17 m ρ c main_v175) (V17 m ρ c main_arg12) (V17 m ρ c main_arg14) (V17 m ρ c main_v191) := KSage.arr8_5 (V17 m ρ) c
    _ = preArr (R := 100000) (Hin := 256) (Hout := 128) (kAgg256 (F := Ideal) (V16 m ρ c main_v175) (kSrc (m ((c : Thread nD τ).loc main_arg1))) (kDst (m ((c : Thread nD τ).loc main_arg1))) (kDegInv (F := Ideal) (kDst (m ((c : Thread nD τ).loc main_arg1))))) (V16 m ρ c main_v175) (m ((c : Thread nD τ).loc main_arg12)) (m ((c : Thread nD τ).loc main_arg14)) (kRow128 (F := Ideal) (m ((c : Thread nD τ).loc main_arg13))) := by rw [V17_v190 m ρ c, V17_v175 m ρ c, V17_arg12 m ρ c, V17_arg14 m ρ c, V17_v191 m ρ c]

theorem sum8 (c : Dev nD) : V18 m ρ c main_v192_1 = sumArr (R := 100000) (nB := 25) (B := 4000) (Hin := 256) (Hout := 128) rowAt (kAgg256 (F := Ideal) (V16 m ρ c main_v175) (kSrc (m ((c : Thread nD τ).loc main_arg1))) (kDst (m ((c : Thread nD τ).loc main_arg1))) (kDegInv (F := Ideal) (kDst (m ((c : Thread nD τ).loc main_arg1))))) (V16 m ρ c main_v175) (m ((c : Thread nD τ).loc main_arg12)) (m ((c : Thread nD τ).loc main_arg14)) (kRow128 (F := Ideal) (m ((c : Thread nD τ).loc main_arg13))) :=
  calc V18 m ρ c main_v192_1
    _ = (dat8 (V17 m ρ) c).arrAt 6 cfg8.N := (hF8 m ρ c 6).symm
    _ = sumArr (R := 100000) (nB := 25) (B := 4000) (Hin := 256) (Hout := 128) rowAt (V17 m ρ c main_v190) (V17 m ρ c main_v175) (V17 m ρ c main_arg12) (V17 m ρ c main_arg14) (V17 m ρ c main_v191) := KSage.arr8_6 (V17 m ρ) c
    _ = sumArr (R := 100000) (nB := 25) (B := 4000) (Hin := 256) (Hout := 128) rowAt (kAgg256 (F := Ideal) (V16 m ρ c main_v175) (kSrc (m ((c : Thread nD τ).loc main_arg1))) (kDst (m ((c : Thread nD τ).loc main_arg1))) (kDegInv (F := Ideal) (kDst (m ((c : Thread nD τ).loc main_arg1))))) (V16 m ρ c main_v175) (m ((c : Thread nD τ).loc main_arg12)) (m ((c : Thread nD τ).loc main_arg14)) (kRow128 (F := Ideal) (m ((c : Thread nD τ).loc main_arg13))) := by rw [V17_v190 m ρ c, V17_v175 m ρ c, V17_arg12 m ρ c, V17_arg14 m ρ c, V17_v191 m ρ c]

theorem sq8 (c : Dev nD) : V18 m ρ c main_v192_2 = sqArr (R := 100000) (nB := 25) (B := 4000) (Hin := 256) (Hout := 128) rowAt (kAgg256 (F := Ideal) (V16 m ρ c main_v175) (kSrc (m ((c : Thread nD τ).loc main_arg1))) (kDst (m ((c : Thread nD τ).loc main_arg1))) (kDegInv (F := Ideal) (kDst (m ((c : Thread nD τ).loc main_arg1))))) (V16 m ρ c main_v175) (m ((c : Thread nD τ).loc main_arg12)) (m ((c : Thread nD τ).loc main_arg14)) (kRow128 (F := Ideal) (m ((c : Thread nD τ).loc main_arg13))) :=
  calc V18 m ρ c main_v192_2
    _ = (dat8 (V17 m ρ) c).arrAt 7 cfg8.N := (hF8 m ρ c 7).symm
    _ = sqArr (R := 100000) (nB := 25) (B := 4000) (Hin := 256) (Hout := 128) rowAt (V17 m ρ c main_v190) (V17 m ρ c main_v175) (V17 m ρ c main_arg12) (V17 m ρ c main_arg14) (V17 m ρ c main_v191) := KSage.arr8_7 (V17 m ρ) c
    _ = sqArr (R := 100000) (nB := 25) (B := 4000) (Hin := 256) (Hout := 128) rowAt (kAgg256 (F := Ideal) (V16 m ρ c main_v175) (kSrc (m ((c : Thread nD τ).loc main_arg1))) (kDst (m ((c : Thread nD τ).loc main_arg1))) (kDegInv (F := Ideal) (kDst (m ((c : Thread nD τ).loc main_arg1))))) (V16 m ρ c main_v175) (m ((c : Thread nD τ).loc main_arg12)) (m ((c : Thread nD τ).loc main_arg14)) (kRow128 (F := Ideal) (m ((c : Thread nD τ).loc main_arg13))) := by rw [V17_v190 m ρ c, V17_v175 m ρ c, V17_arg12 m ρ c, V17_arg14 m ρ c, V17_v191 m ρ c]

/-- The result buffer: the head of the standardised last layer, its single column as a vector. -/
theorem out4 (c : Dev nD) : W21 m ρ c main_v212 = kTail (V16 m ρ c main_v175) (m ((c : Thread nD τ).loc main_arg1)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  calc W21 m ρ c main_v212
    _ = kOut (F := Ideal) (V20 m ρ c main_v211) := W21_v212 m ρ c
    _ = kOut (F := Ideal) ((dat9 (V19 m ρ) c).arrAt 9 cfg9.N) := congrArg (kOut (F := Ideal)) (hF9 m ρ c 9).symm
    _ = kOut (F := Ideal) (bnHead (V19 m ρ c main_v192_0) (V19 m ρ c main_v205) (V19 m ρ c main_v206) (V19 m ρ c main_v207) (V19 m ρ c main_v208)
          (V19 m ρ c main_arg17) (V19 m ρ c main_v209) (V19 m ρ c main_arg19) (V19 m ρ c main_v210)) :=
        congrArg (kOut (F := Ideal)) (KHead.arr9 (V19 m ρ) c)
    _ = kOut (F := Ideal) (bnHead (preArr (R := 100000) (Hin := 256) (Hout := 128) (kAgg256 (F := Ideal) (V16 m ρ c main_v175) (kSrc (m ((c : Thread nD τ).loc main_arg1))) (kDst (m ((c : Thread nD τ).loc main_arg1))) (kDegInv (F := Ideal) (kDst (m ((c : Thread nD τ).loc main_arg1))))) (V16 m ρ c main_v175) (m ((c : Thread nD τ).loc main_arg12)) (m ((c : Thread nD τ).loc main_arg14)) (kRow128 (F := Ideal) (m ((c : Thread nD τ).loc main_arg13)))) (kMean128 (F := Ideal) (sumArr (R := 100000) (nB := 25) (B := 4000) (Hin := 256) (Hout := 128) rowAt (kAgg256 (F := Ideal) (V16 m ρ c main_v175) (kSrc (m ((c : Thread nD τ).loc main_arg1))) (kDst (m ((c : Thread nD τ).loc main_arg1))) (kDegInv (F := Ideal) (kDst (m ((c : Thread nD τ).loc main_arg1))))) (V16 m ρ c main_v175) (m ((c : Thread nD τ).loc main_arg12)) (m ((c : Thread nD τ).loc main_arg14)) (kRow128 (F := Ideal) (m ((c : Thread nD τ).loc main_arg13))))) (kVar128 (F := Ideal) (sumArr (R := 100000) (nB := 25) (B := 4000) (Hin := 256) (Hout := 128) rowAt (kAgg256 (F := Ideal) (V16 m ρ c main_v175) (kSrc (m ((c : Thread nD τ).loc main_arg1))) (kDst (m ((c : Thread nD τ).loc main_arg1))) (kDegInv (F := Ideal) (kDst (m ((c : Thread nD τ).loc main_arg1))))) (V16 m ρ c main_v175) (m ((c : Thread nD τ).loc main_arg12)) (m ((c : Thread nD τ).loc main_arg14)) (kRow128 (F := Ideal) (m ((c : Thread nD τ).loc main_arg13)))) (sqArr (R := 100000) (nB := 25) (B := 4000) (Hin := 256) (Hout := 128) rowAt (kAgg256 (F := Ideal) (V16 m ρ c main_v175) (kSrc (m ((c : Thread nD τ).loc main_arg1))) (kDst (m ((c : Thread nD τ).loc main_arg1))) (kDegInv (F := Ideal) (kDst (m ((c : Thread nD τ).loc main_arg1))))) (V16 m ρ c main_v175) (m ((c : Thread nD τ).loc main_arg12)) (m ((c : Thread nD τ).loc main_arg14)) (kRow128 (F := Ideal) (m ((c : Thread nD τ).loc main_arg13))))) (kRow128 (F := Ideal) (m ((c : Thread nD τ).loc main_arg15))) (kRow128 (F := Ideal) (m ((c : Thread nD τ).loc main_arg16)))
          (m ((c : Thread nD τ).loc main_arg17)) (kRow64 (F := Ideal) (m ((c : Thread nD τ).loc main_arg18))) (m ((c : Thread nD τ).loc main_arg19)) (kRow1 (F := Ideal) (m ((c : Thread nD τ).loc main_arg20)))) := by
        rw [V19_v192_0 m ρ c, V19_v205 m ρ c, V19_v206 m ρ c, V19_v207 m ρ c, V19_v208 m ρ c, V19_arg17 m ρ c, V19_v209 m ρ c, V19_arg19 m ρ c, V19_v210 m ρ c,
          pre8 m ρ c, sum8 m ρ c, sq8 m ρ c]
    _ = kTail (V16 m ρ c main_v175) (m ((c : Thread nD τ).loc main_arg1)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := rfl

/-- The result buffer holds the kernel-side network of the 21 argument arrays. -/
theorem value (c : Dev nD) : W21 m ρ c main_v212 = kNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [out4 m ρ c, out3 m ρ c, out2 m ρ c, out1 m ρ c, out0 m ρ c]
  rfl

end Cert.KernelIdeal.KVal

end
-- ==== Proof.LibStats.lean ====
/-
  Sums over blocks of rows, the two formulas for a population variance, and which extended reals are finite.

  A batch statistic over `m * n` rows may be accumulated block by block (`m` blocks of `n` rows) or in one pass:
  in a commutative monoid the two sums agree.  The population variance of finitely many REAL numbers is
  both the mean of the squared deviations and the mean of the squares minus the squared mean, and it is never
  negative, so clamping the second form at zero changes nothing.  On the extended reals these identities need the
  numbers to be finite (a product distributes over a sum only away from the infinities), so the last part collects
  the closure properties of "finite" under the arithmetic the two programs use.
-/
import Idealize.ShloMosaic.PureOps.Ideal

noncomputable section

namespace Cert.LibStats

open Idealize.ShloMosaic

/-! ## Sums block by block -/

/-- A sum over `m * n` consecutive indices, taken as `m` blocks of `n`: row `n * b + r` is row `r` of block `b`. -/
theorem sum_blocks {M : Type*} [AddCommMonoid M] (m n : ℕ) (g : Fin (m * n) → M)
    (h : ∀ (b : Fin m) (r : Fin n), n * (b : ℕ) + (r : ℕ) < m * n) :
    ∑ b : Fin m, ∑ r : Fin n, g ⟨n * (b : ℕ) + (r : ℕ), h b r⟩ = ∑ i, g i := by
  rw [← Fintype.sum_prod_type' (f := fun (b : Fin m) (r : Fin n) => g ⟨n * (b : ℕ) + (r : ℕ), h b r⟩)]
  refine Fintype.sum_equiv finProdFinEquiv _ _ (fun p => ?_)
  refine congrArg g (Fin.ext ?_)
  simp [finProdFinEquiv, Nat.add_comm]

/-! ## Coercions -/

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two variance formulas, over the reals -/

/-- Mean of squares minus squared mean is the mean of squared deviations. -/
theorem var_forms {ι : Type*} [Fintype ι] (p : ι → ℝ) (N : ℝ) (hN : (Fintype.card ι : ℝ) = N) (hN0 : N ≠ 0) :
    (∑ i, p i * p i) / N - (∑ i, p i) / N * ((∑ i, p i) / N)
      = (∑ i, (p i - (∑ i, p i) / N) * (p i - (∑ i, p i) / N)) / N := by
  have h1 : ∑ i, (p i - (∑ i, p i) / N) * (p i - (∑ i, p i) / N)
      = (∑ i, p i * p i) - 2 * ((∑ i, p i) / N) * (∑ i, p i) + N * (((∑ i, p i) / N) * ((∑ i, p i) / N)) := by
    have : ∀ i, (p i - (∑ i, p i) / N) * (p i - (∑ i, p i) / N)
        = p i * p i - 2 * ((∑ i, p i) / N) * p i + ((∑ i, p i) / N) * ((∑ i, p i) / N) := fun i => by ring
    simp only [this, Finset.sum_add_distrib, Finset.sum_sub_distrib, ← Finset.mul_sum, Finset.sum_const, Finset.card_univ,
      nsmul_eq_mul, hN]
    ring
  rw [h1]
  field_simp
  ring

/-- The mean of squared deviations is not negative. -/
theorem var_nonneg {ι : Type*} [Fintype ι] (p : ι → ℝ) (μ N : ℝ) (hN : 0 < N) :
    0 ≤ (∑ i, (p i - μ) * (p i - μ)) / N :=
  div_nonneg (Finset.sum_nonneg fun i _ => mul_self_nonneg _) hN.le

/-- Clamping "mean of squares minus squared mean" at zero leaves the mean of squared deviations. -/
theorem var_clamped {ι : Type*} [Fintype ι] (p : ι → ℝ) (N : ℝ) (hN : (Fintype.card ι : ℝ) = N) (hN0 : 0 < N) :
    max ((∑ i, p i * p i) / N - (∑ i, p i) / N * ((∑ i, p i) / N)) 0
      = (∑ i, (p i - (∑ i, p i) / N) * (p i - (∑ i, p i) / N)) / N := by
  rw [var_forms p N hN hN0.ne']
  exact max_eq_left (var_nonneg p _ N hN0)

/-! ## Finite extended reals -/

/-- An extended real that is a real number. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} : IsFin x → IsFin y → IsFin (x + y)
  | ⟨a, ha⟩, ⟨b, hb⟩ => ⟨a + b, by rw [ha, hb, EReal.coe_add]⟩
theorem IsFin.sub {x y : EReal} : IsFin x → IsFin y → IsFin (x - y)
  | ⟨a, ha⟩, ⟨b, hb⟩ => ⟨a - b, by rw [ha, hb, EReal.coe_sub]⟩
theorem IsFin.mul {x y : EReal} : IsFin x → IsFin y → IsFin (x * y)
  | ⟨a, ha⟩, ⟨b, hb⟩ => ⟨a * b, by rw [ha, hb, EReal.coe_mul]⟩
theorem IsFin.max {x y : EReal} : IsFin x → IsFin y → IsFin (max x y)
  | ⟨a, ha⟩, ⟨b, hb⟩ => ⟨Max.max a b, by rw [ha, hb]; exact (EReal.coe_strictMono.monotone.map_max).symm⟩
theorem IsFin.sum {ι : Type*} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))

/-- A quotient by a nonzero real is the real quotient. -/
theorem div_coe_coe (a b : ℝ) (hb : b ≠ 0) : Ideal.div (a : EReal) (b : EReal) = ((a / b : ℝ) : EReal) := by
  rw [Ideal.div_coe hb, ← EReal.coe_mul, mul_one_div]

theorem IsFin.div {x y : EReal} : IsFin x → IsFin y → y ≠ 0 → IsFin (Ideal.div x y)
  | ⟨a, ha⟩, ⟨b, hb⟩, h0 => ⟨a / b, by
      subst ha hb
      exact div_coe_coe a b (by rintro rfl; exact h0 rfl)⟩

/-- The square root of a nonnegative real. -/
theorem sqrt_coe (r : ℝ) (hr : 0 ≤ r) : Ideal.sqrt (r : EReal) = ((Real.sqrt r : ℝ) : EReal) := by
  show (if r < 0 then (⊥ : EReal) else (Real.sqrt r : EReal)) = _
  rw [if_neg (not_lt.mpr hr)]

/-- The reciprocal square root of a positive real. -/
theorem rsqrt_coe (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-! ## The variance formulas on finite extended reals -/

theorem coe_max (a b : ℝ) : ((Max.max a b : ℝ) : EReal) = Max.max (a : EReal) (b : EReal) :=
  EReal.coe_strictMono.monotone.map_max

/-- Finitely many finite extended reals are the coercions of reals. -/
theorem exists_real {ι : Type*} (x : ι → EReal) (hx : ∀ i, IsFin (x i)) : ∃ p : ι → ℝ, x = fun i => (p i : EReal) :=
  ⟨fun i => (hx i).choose, funext fun i => (hx i).choose_spec⟩

/-- For finite entries, "mean of squares minus squared mean, clamped at zero" is the mean of squared deviations. -/
theorem var_clamped_ereal {ι : Type*} [Fintype ι] (x : ι → EReal) (hx : ∀ i, IsFin (x i)) (N : ℝ)
    (hN : (Fintype.card ι : ℝ) = N) (hN0 : 0 < N) :
    Max.max (Ideal.div (∑ i, x i * x i) (N : EReal)
        - Ideal.div (∑ i, x i) (N : EReal) * Ideal.div (∑ i, x i) (N : EReal)) 0
      = Ideal.div (∑ i, (x i - Ideal.div (∑ i, x i) (N : EReal)) * (x i - Ideal.div (∑ i, x i) (N : EReal))) (N : EReal) := by
  obtain ⟨p, rfl⟩ := exists_real x hx
  simp only [← EReal.coe_mul, ← coe_sum, div_coe_coe _ _ hN0.ne', ← EReal.coe_sub]
  rw [← EReal.coe_zero, ← coe_max, var_clamped p N hN hN0]

/-! ## Signs -/

/-- A nonnegative real, as an extended real. -/
def IsNonneg (x : EReal) : Prop := ∃ r : ℝ, 0 ≤ r ∧ x = (r : EReal)
/-- A positive real, as an extended real. -/
def IsPos (x : EReal) : Prop := ∃ r : ℝ, 0 < r ∧ x = (r : EReal)

theorem IsNonneg.isFin {x : EReal} : IsNonneg x → IsFin x | ⟨r, _, h⟩ => ⟨r, h⟩
theorem IsPos.isFin {x : EReal} : IsPos x → IsFin x | ⟨r, _, h⟩ => ⟨r, h⟩
theorem IsPos.isNonneg {x : EReal} : IsPos x → IsNonneg x | ⟨r, h0, h⟩ => ⟨r, h0.le, h⟩
theorem IsPos.ne_zero {x : EReal} : IsPos x → x ≠ 0
  | ⟨r, h0, h⟩ => by rw [h]; exact_mod_cast h0.ne'
theorem IsNonneg.zero : IsNonneg 0 := ⟨0, le_rfl, rfl⟩
theorem IsFin.mul_self_nonneg {x : EReal} : IsFin x → IsNonneg (x * x)
  | ⟨a, ha⟩ => ⟨a * a, _root_.mul_self_nonneg a, by rw [ha, EReal.coe_mul]⟩
theorem IsNonneg.add {x y : EReal} : IsNonneg x → IsNonneg y → IsNonneg (x + y)
  | ⟨a, ha0, ha⟩, ⟨b, hb0, hb⟩ => ⟨a + b, add_nonneg ha0 hb0, by rw [ha, hb, EReal.coe_add]⟩
theorem IsNonneg.add_pos {x y : EReal} : IsNonneg x → IsPos y → IsPos (x + y)
  | ⟨a, ha0, ha⟩, ⟨b, hb0, hb⟩ => ⟨a + b, add_pos_of_nonneg_of_pos ha0 hb0, by rw [ha, hb, EReal.coe_add]⟩
theorem IsNonneg.sum {ι : Type*} (s : Finset ι) (f : ι → EReal) (h : ∀ i ∈ s, IsNonneg (f i)) : IsNonneg (∑ i ∈ s, f i) := by
  classical
  induction s using Finset.induction_on with
  | empty => simpa using IsNonneg.zero
  | insert a s ha ih =>
    rw [Finset.sum_insert ha]
    exact (h a (Finset.mem_insert_self a s)).add (ih fun i hi => h i (Finset.mem_insert_of_mem hi))
theorem IsNonneg.sqrt {x : EReal} : IsNonneg x → IsNonneg (Ideal.sqrt x)
  | ⟨a, ha0, ha⟩ => ⟨Real.sqrt a, Real.sqrt_nonneg a, by rw [ha, sqrt_coe a ha0]⟩
theorem IsNonneg.max_pos {x y : EReal} : IsNonneg x → IsPos y → IsPos (Max.max x y)
  | ⟨a, _, ha⟩, ⟨b, hb0, hb⟩ => ⟨Max.max a b, lt_max_of_lt_right hb0, by rw [ha, hb, coe_max]⟩
theorem IsFin.max_zero_nonneg {x : EReal} : IsFin x → IsNonneg (Max.max x 0)
  | ⟨a, ha⟩ => ⟨Max.max a 0, le_max_right a 0, by rw [ha, ← EReal.coe_zero, coe_max]⟩
theorem IsPos.rsqrt {x : EReal} : IsPos x → IsFin (Ideal.rsqrt x)
  | ⟨a, ha0, ha⟩ => ⟨(Real.sqrt a)⁻¹, by rw [ha, rsqrt_coe a ha0]⟩
theorem IsNonneg.div_pos {x y : EReal} : IsNonneg x → IsPos y → IsNonneg (Ideal.div x y)
  | ⟨a, ha0, ha⟩, ⟨b, hb0, hb⟩ => ⟨a / b, div_nonneg ha0 hb0.le, by rw [ha, hb, div_coe_coe a b hb0.ne']⟩
theorem IsFin.div_pos {x y : EReal} (hx : IsFin x) (hy : IsPos y) : IsFin (Ideal.div x y) :=
  hx.div hy.isFin hy.ne_zero

/-- Multiplying by the reciprocal of a nonzero divisor is dividing by it. -/
theorem mul_one_div (x y : EReal) (hy : y ≠ 0) : x * Ideal.div 1 y = Ideal.div x y := by
  rw [Ideal.div, Ideal.div, if_neg hy, if_neg hy, one_mul]

end Cert.LibStats

end
-- ==== Proof.LibLayer.lean ====
/-
  One layer of the network, index by index on the extended reals, in the two arrangements the programs use, and
  why they agree.

  A layer takes node features `h` and neighbourhood means `a` (both rows × input features), forms the linear map
  `a · wl + bl + h · wr`, scales every row to unit Euclidean norm (the norm guarded from below by a small positive
  constant), and standardises every column by its mean and population variance over all rows (the variance guarded
  by another small positive constant under a reciprocal square root), followed by a gain and an offset.  One program
  adds the bias last, and gets the variance as "mean of squares minus squared mean", clamped at zero; the other adds
  the bias in the middle and averages the squared deviations.  The first difference is the commutativity of
  addition; the second is an identity between real numbers, so it needs every normalised entry to be finite, which
  follows from the inputs being finite because each row is divided by a positive finite number.
-/
import proofs.«169498_j72670846649171_2_alg».proof.Proof.LibStats

noncomputable section

namespace Cert.LibLayer

open Idealize.ShloMosaic Cert.LibStats

variable {ι κ μ : Type*} [Fintype ι] [Fintype κ] [Fintype μ]

/-! ## The neighbourhood mean -/

/-- Multiplying a neighbourhood sum by the reciprocal of the guarded degree is dividing by the guarded degree:
    the guard `max d 1` is never zero. -/
theorem mean_of_sum (s d : EReal) : s * Ideal.div 1 (Max.max d 1) = Ideal.div s (Max.max d 1) :=
  mul_one_div s _ (lt_of_lt_of_le zero_lt_one (le_max_right d 1)).ne'

/-- A degree (a finite sum of ones) guarded from below by one is a positive real. -/
theorem guarded_pos {d : EReal} (hd : IsNonneg d) : IsPos (Max.max d 1) :=
  hd.max_pos ⟨1, one_pos, rfl⟩

/-! ## The linear map -/

/-- Bias added in the middle. -/
def linMid (a h : ι → κ → EReal) (wl wr : κ → μ → EReal) (bl : μ → EReal) : ι → μ → EReal :=
  fun i j => (∑ k, a i k * wl k j + bl j) + ∑ k, h i k * wr k j

/-- Bias added last. -/
def linLast (a h : ι → κ → EReal) (wl wr : κ → μ → EReal) (bl : μ → EReal) : ι → μ → EReal :=
  fun i j => (∑ k, a i k * wl k j + ∑ k, h i k * wr k j) + bl j

theorem linLast_eq_linMid (a h : ι → κ → EReal) (wl wr : κ → μ → EReal) (bl : μ → EReal) :
    linLast a h wl wr bl = linMid a h wl wr bl := by
  funext i j
  exact add_right_comm _ _ _

theorem linMid_fin {a h : ι → κ → EReal} {wl wr : κ → μ → EReal} {bl : μ → EReal}
    (ha : ∀ i k, IsFin (a i k)) (hh : ∀ i k, IsFin (h i k)) (hwl : ∀ k j, IsFin (wl k j)) (hwr : ∀ k j, IsFin (wr k j))
    (hbl : ∀ j, IsFin (bl j)) (i : ι) (j : μ) : IsFin (linMid a h wl wr bl i j) :=
  ((IsFin.sum _ _ fun k _ => (ha i k).mul (hwl k j)).add (hbl j)).add (IsFin.sum _ _ fun k _ => (hh i k).mul (hwr k j))

/-! ## Rows scaled to unit norm -/

/-- The guarded Euclidean norm of a row. -/
def rowNorm (e2 : EReal) (o : ι → μ → EReal) : ι → EReal :=
  fun i => Max.max (Ideal.sqrt (∑ j, o i j * o i j)) e2

/-- Every row divided by its guarded norm. -/
def unitRows (e2 : EReal) (o : ι → μ → EReal) : ι → μ → EReal :=
  fun i j => Ideal.div (o i j) (rowNorm e2 o i)

theorem rowNorm_pos {e2 : EReal} (he2 : IsPos e2) {o : ι → μ → EReal} (ho : ∀ i j, IsFin (o i j)) (i : ι) :
    IsPos (rowNorm e2 o i) :=
  (IsNonneg.sqrt (IsNonneg.sum _ _ fun j _ => (ho i j).mul_self_nonneg)).max_pos he2

theorem unitRows_fin {e2 : EReal} (he2 : IsPos e2) {o : ι → μ → EReal} (ho : ∀ i j, IsFin (o i j)) (i : ι) (j : μ) :
    IsFin (unitRows e2 o i j) :=
  (ho i j).div_pos (rowNorm_pos he2 ho i)

/-! ## Column statistics -/

/-- The column mean over all rows (`n` is the number of rows, as an extended real). -/
def colMean (n : EReal) (p : ι → μ → EReal) : μ → EReal := fun j => Ideal.div (∑ i, p i j) n

/-- The mean of squared deviations. -/
def varDev (n : EReal) (p : ι → μ → EReal) : μ → EReal :=
  fun j => Ideal.div (∑ i, (p i j - colMean n p j) * (p i j - colMean n p j)) n

/-- Mean of squares minus squared mean, clamped at zero. -/
def varSq (n : EReal) (p : ι → μ → EReal) : μ → EReal :=
  fun j => Max.max (Ideal.div (∑ i, p i j * p i j) n - colMean n p j * colMean n p j) 0

theorem varSq_eq_varDev (N : ℝ) (hN : (Fintype.card ι : ℝ) = N) (hN0 : 0 < N) {p : ι → μ → EReal}
    (hp : ∀ i j, IsFin (p i j)) : varSq (N : EReal) p = varDev (N : EReal) p := by
  funext j
  exact var_clamped_ereal (fun i => p i j) (fun i => hp i j) N hN hN0

theorem colMean_fin (N : ℝ) (hN0 : 0 < N) {p : ι → μ → EReal} (hp : ∀ i j, IsFin (p i j)) (j : μ) :
    IsFin (colMean (N : EReal) p j) :=
  (IsFin.sum _ _ fun i _ => hp i j).div_pos ⟨N, hN0, rfl⟩

theorem varDev_nonneg (N : ℝ) (hN0 : 0 < N) {p : ι → μ → EReal} (hp : ∀ i j, IsFin (p i j)) (j : μ) :
    IsNonneg (varDev (N : EReal) p j) :=
  (IsNonneg.sum _ _ fun i _ => ((hp i j).sub (colMean_fin N hN0 hp j)).mul_self_nonneg).div_pos ⟨N, hN0, rfl⟩

/-! ## Standardised columns -/

/-- Centre by `m`, scale by the reciprocal square root of the guarded variance `v + e1`, then gain and offset. -/
def standardise (e1 : EReal) (p : ι → μ → EReal) (m v g b : μ → EReal) : ι → μ → EReal :=
  fun i j => (p i j - m j) * Ideal.rsqrt (v j + e1) * g j + b j

theorem standardise_fin {e1 : EReal} (he1 : IsPos e1) {p : ι → μ → EReal} {m v g b : μ → EReal}
    (hp : ∀ i j, IsFin (p i j)) (hm : ∀ j, IsFin (m j)) (hv : ∀ j, IsNonneg (v j)) (hg : ∀ j, IsFin (g j))
    (hb : ∀ j, IsFin (b j)) (i : ι) (j : μ) : IsFin (standardise e1 p m v g b i j) :=
  ((((hp i j).sub (hm j)).mul ((hv j).add_pos he1).rsqrt).mul (hg j)).add (hb j)

/-- The positive part. -/
def reluPart (y : ι → μ → EReal) : ι → μ → EReal := fun i j => Max.max (y i j) 0

theorem reluPart_fin {y : ι → μ → EReal} (hy : ∀ i j, IsFin (y i j)) (i : ι) (j : μ) : IsFin (reluPart y i j) :=
  (hy i j).max IsFin.zero

/-! ## A whole layer -/

/-- The layer with the bias in the middle and the variance as the mean of squared deviations. -/
def layerDev (e1 e2 n : EReal) (a h : ι → κ → EReal) (wl wr : κ → μ → EReal) (bl g b : μ → EReal) : ι → μ → EReal :=
  standardise e1 (unitRows e2 (linMid a h wl wr bl)) (colMean n (unitRows e2 (linMid a h wl wr bl)))
    (varDev n (unitRows e2 (linMid a h wl wr bl))) g b

/-- The layer with the bias last and the variance as clamped "mean of squares minus squared mean". -/
def layerSq (e1 e2 n : EReal) (a h : ι → κ → EReal) (wl wr : κ → μ → EReal) (bl g b : μ → EReal) : ι → μ → EReal :=
  standardise e1 (unitRows e2 (linLast a h wl wr bl)) (colMean n (unitRows e2 (linLast a h wl wr bl)))
    (varSq n (unitRows e2 (linLast a h wl wr bl))) g b

section
variable {e1 e2 : EReal} (he1 : IsPos e1) (he2 : IsPos e2) (N : ℝ) (hN : (Fintype.card ι : ℝ) = N) (hN0 : 0 < N)
  {a h : ι → κ → EReal} {wl wr : κ → μ → EReal} {bl g b : μ → EReal}
  (ha : ∀ i k, IsFin (a i k)) (hh : ∀ i k, IsFin (h i k)) (hwl : ∀ k j, IsFin (wl k j)) (hwr : ∀ k j, IsFin (wr k j))
  (hbl : ∀ j, IsFin (bl j)) (hg : ∀ j, IsFin (g j)) (hb : ∀ j, IsFin (b j))

include he2 hN hN0 ha hh hwl hwr hbl in
/-- On finite inputs the two arrangements of a layer are one function. -/
theorem layerSq_eq_layerDev : layerSq e1 e2 (N : EReal) a h wl wr bl g b = layerDev e1 e2 (N : EReal) a h wl wr bl g b := by
  unfold layerSq layerDev
  rw [linLast_eq_linMid, varSq_eq_varDev N hN hN0 (unitRows_fin he2 (linMid_fin ha hh hwl hwr hbl))]

include he1 he2 hN0 ha hh hwl hwr hbl hg hb in
/-- On finite inputs a layer's output is finite. -/
theorem layerDev_fin (i : ι) (j : μ) : IsFin (layerDev e1 e2 (N : EReal) a h wl wr bl g b i j) :=
  standardise_fin he1 (unitRows_fin he2 (linMid_fin ha hh hwl hwr hbl))
    (colMean_fin N hN0 (unitRows_fin he2 (linMid_fin ha hh hwl hwr hbl)))
    (varDev_nonneg N hN0 (unitRows_fin he2 (linMid_fin ha hh hwl hwr hbl))) hg hb i j
end

end Cert.LibLayer

end
-- ==== Proof.Consts.lean ====
/-
  The float constants the two programs spell, as the extended reals their bit patterns denote: zero, one, the
  row count 100000, and the two small positive guards (about 1e-5 under the reciprocal square root and about
  1e-12 under the norm), of which only positivity and finiteness matter.
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = ((1 : ℝ) : EReal) := by
  simp [Ideal.ofBits, Ideal.ieee, -EReal.coe_mul]; norm_num

/-- The pattern of `100000.0` denotes the real `100000`. -/
theorem ofBits_100000 : Ideal.ofBits .f32 0x47C35000#32 = ((100000 : ℝ) : EReal) := by
  simp [Ideal.ofBits, Ideal.ieee, -EReal.coe_mul]; norm_num

/-- The guard under the reciprocal square root is a positive real. -/
theorem ofBits_epsBn : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The guard under the norm is a positive real. -/
theorem ofBits_epsNorm : ∃ e : ℝ, 0 < e ∧ Ideal.ofBits .f32 0x2B8CBCCC#32 = (e : EReal) := by
  refine ⟨9223372 * (2 : ℝ) ^ (-63 : ℤ), by positivity, ?_⟩
  simp [Ideal.ofBits, Ideal.ieee, -EReal.coe_mul]

end Cert.Consts

end
-- ==== Proof.KLayer.lean ====
/-
  The kernel's standardise step on top of its row-normalised linear map, entry by entry: with the column mean and the
  clamped variance computed from per-block sums (25 blocks of 4000 rows, added up), the result is the layer function
  of LibLayer in its "bias last, mean of squares minus squared mean" arrangement; the rectified form is its positive
  part.  The per-block sums of a column, added over the blocks, are the column's sum over all rows.
-/
import proofs.«169498_j72670846649171_2_alg».proof.Proof.KSageSpec
import proofs.«169498_j72670846649171_2_alg».proof.Proof.KBnSpec
import proofs.«169498_j72670846649171_2_alg».proof.Proof.KHeadSpec
import proofs.«169498_j72670846649171_2_alg».proof.Proof.LibStats
import proofs.«169498_j72670846649171_2_alg».proof.Proof.LibLayer
import proofs.«169498_j72670846649171_2_alg».proof.Proof.Consts

noncomputable section
namespace Cert.Bridge
open Idealize.ShloMosaic Idealize.ShloMosaic.ValueIdx Cert.LibStats Cert.LibLayer Cert.KernelIdeal.KSage

/-- A two-axis array as a function of its row and column. -/
abbrev M {R C : ℕ} (A : (⟨2, ![R, C]⟩ : Shape).Idx → EReal) : Fin R → Fin C → EReal := fun i j => A (ix2 i j)
/-- A one-row array as a function of its column. -/
abbrev Rw {C : ℕ} (v : (⟨2, ![1, C]⟩ : Shape).Idx → EReal) : Fin C → EReal := fun j => v (ix2 (0 : Fin 1) j)
/-- A vector as a function of its index. -/
abbrev Vv {C : ℕ} (v : (⟨1, ![C]⟩ : Shape).Idx → EReal) : Fin C → EReal := fun j => v (ix1 j)
/-- The row count as a real. -/
abbrev nRows : EReal := ((100000 : ℝ) : EReal)
/-- The guard under the reciprocal square root. -/
abbrev epsBn : EReal := Ideal.ofBits .f32 0x3727C5AC#32
/-- The guard under the norm. -/
abbrev epsNorm : EReal := Ideal.ofBits .f32 0x2B8CBCCC#32

/-- The per-block sums of a column, added over the 25 blocks, are the column's sum over all 100000 rows. -/
theorem sum_rowAt (f : Fin 100000 → EReal) : ∑ b : Fin 25, ∑ r : Fin 4000, f (rowAt b r) = ∑ i, f i :=
  sum_blocks 25 4000 f (fun b r => (rowAt b r).isLt)

section
variable {Hin Hout : ℕ} (a h : (⟨2, ![100000, Hin]⟩ : Shape).Idx → EReal) (wl wr : (⟨2, ![Hin, Hout]⟩ : Shape).Idx → EReal)
  (blr mean var gr br : (⟨2, ![1, Hout]⟩ : Shape).Idx → EReal)
  (hmean : ∀ j : Fin Hout, mean (ix2 (0 : Fin 1) j)
    = Ideal.div (∑ b : Fin 25, sumArr (R := 100000) rowAt a h wl wr blr (ix3 b (0 : Fin 1) j)) nRows)
  (hvar : ∀ j : Fin Hout, var (ix2 (0 : Fin 1) j)
    = Max.max (Ideal.div (∑ b : Fin 25, sqArr (R := 100000) rowAt a h wl wr blr (ix3 b (0 : Fin 1) j)) nRows
        - mean (ix2 (0 : Fin 1) j) * mean (ix2 (0 : Fin 1) j)) 0)

include hmean in
theorem mean_eq (j : Fin Hout) :
    mean (ix2 (0 : Fin 1) j) = colMean nRows (unitRows epsNorm (linLast (M a) (M h) (M wl) (M wr) (Rw blr))) j := by
  rw [hmean j]
  exact congrArg (Ideal.div · nRows) (sum_rowAt fun i => unitRows epsNorm (linLast (M a) (M h) (M wl) (M wr) (Rw blr)) i j)

include hmean hvar in
theorem var_eq (j : Fin Hout) :
    var (ix2 (0 : Fin 1) j) = varSq nRows (unitRows epsNorm (linLast (M a) (M h) (M wl) (M wr) (Rw blr))) j := by
  rw [hvar j, mean_eq a h wl wr blr mean hmean j]
  unfold varSq
  refine congrArg (fun s => Max.max (Ideal.div s nRows - _) 0) ?_
  exact sum_rowAt fun i => unitRows epsNorm (linLast (M a) (M h) (M wl) (M wr) (Rw blr)) i j
      * unitRows epsNorm (linLast (M a) (M h) (M wl) (M wr) (Rw blr)) i j

include hmean hvar in
/-- The kernel's standardised entry is the layer function in its "bias last, squares minus squared mean" arrangement. -/
theorem kStd (i : Fin 100000) (j : Fin Hout) :
    ((preArr a h wl wr blr (ix2 i j) - mean (ix2 (0 : Fin 1) j)) * Ideal.rsqrt (var (ix2 (0 : Fin 1) j) + epsBn))
        * gr (ix2 (0 : Fin 1) j) + br (ix2 (0 : Fin 1) j)
      = layerSq epsBn epsNorm nRows (M a) (M h) (M wl) (M wr) (Rw blr) (Rw gr) (Rw br) i j := by
  rw [mean_eq a h wl wr blr mean hmean j, var_eq a h wl wr blr mean var hmean hvar j]
  rfl
end

open Cert.KernelIdeal.KBn in
/-- The rectified 256-wide form. -/
theorem kBnRelu_ix2 {Hin : ℕ} (a h : (⟨2, ![100000, Hin]⟩ : Shape).Idx → EReal) (wl wr : (⟨2, ![Hin, 256]⟩ : Shape).Idx → EReal)
    (blr mean var gr br : (⟨2, ![1, 256]⟩ : Shape).Idx → EReal)
    (hmean : ∀ j : Fin 256, mean (ix2 (0 : Fin 1) j)
      = Ideal.div (∑ b : Fin 25, sumArr (R := 100000) rowAt a h wl wr blr (ix3 b (0 : Fin 1) j)) nRows)
    (hvar : ∀ j : Fin 256, var (ix2 (0 : Fin 1) j)
      = Max.max (Ideal.div (∑ b : Fin 25, sqArr (R := 100000) rowAt a h wl wr blr (ix3 b (0 : Fin 1) j)) nRows
          - mean (ix2 (0 : Fin 1) j) * mean (ix2 (0 : Fin 1) j)) 0)
    (i : Fin 100000) (j : Fin 256) :
    bnRelu (preArr a h wl wr blr) mean var gr br (ix2 i j)
      = reluPart (layerSq epsBn epsNorm nRows (M a) (M h) (M wl) (M wr) (Rw blr) (Rw gr) (Rw br)) i j := by
  rw [bnRelu_ix2, kStd a h wl wr blr mean var gr br hmean hvar i j, Cert.Consts.ofBits_zero]
  rfl

open Cert.KernelIdeal.KHead in
/-- The 128-wide form without rectifier (the entry the head's first product reads). -/
theorem kBnAt {Hin : ℕ} (a h : (⟨2, ![100000, Hin]⟩ : Shape).Idx → EReal) (wl wr : (⟨2, ![Hin, 128]⟩ : Shape).Idx → EReal)
    (blr mean var gr br : (⟨2, ![1, 128]⟩ : Shape).Idx → EReal)
    (hmean : ∀ j : Fin 128, mean (ix2 (0 : Fin 1) j)
      = Ideal.div (∑ b : Fin 25, sumArr (R := 100000) rowAt a h wl wr blr (ix3 b (0 : Fin 1) j)) nRows)
    (hvar : ∀ j : Fin 128, var (ix2 (0 : Fin 1) j)
      = Max.max (Ideal.div (∑ b : Fin 25, sqArr (R := 100000) rowAt a h wl wr blr (ix3 b (0 : Fin 1) j)) nRows
          - mean (ix2 (0 : Fin 1) j) * mean (ix2 (0 : Fin 1) j)) 0)
    (i : Fin 100000) (k : Fin 128) :
    bnAt (preArr a h wl wr blr) mean var gr br i k
      = layerSq epsBn epsNorm nRows (M a) (M h) (M wl) (M wr) (Rw blr) (Rw gr) (Rw br) i k := by
  unfold bnAt
  exact kStd a h wl wr blr mean var gr br hmean hvar i k

end Cert.Bridge
end
-- ==== Proof.LibHostRead.lean ====
/-
  Host operations on matrices read at one index of their result, over the extended reals.

  A host product of an R × K matrix by a K × C matrix is, at (p, q), the K-term sum of the products of row p of the
  first by column q of the second.  A host sum along the second axis of an R × C matrix is, at row r, the initial
  value plus the C-term sum of that row; along the first axis, at column c, the initial value plus the R-term sum of
  that column.  Spreading a scalar, a vector along the columns of every row, or a vector along the rows of every
  column, repeats the entry it came from.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.LibHostRead

open Idealize.ShloMosaic Idealize.ShloMosaic.ValueIdx

/-! ## A matrix product -/

section Dot
variable {R K C : ℕ}

/-- On the first operand's row axis the operand index is the result's row. -/
theorem lhsIdx_row (D : DotDims ⟨2, ![R, K]⟩ ⟨2, ![K, C]⟩ ⟨2, ![R, C]⟩) (hlb : D.lhsBatch = [])
    (hln : D.lhsNonContracting = [0]) (j : (⟨2, ![R, C]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![R, C]⟩ : Shape).rank) (hb : b < (⟨2, ![R, C]⟩ : Shape).rank), a = b →
      (j ⟨a, ha⟩).val = (j ⟨b, hb⟩).val := fun a b ha hb h => by subst h; rfl
  exact key _ _ _ _ (by simp [hlb, hln])

/-- On the second operand's column axis the operand index is the result's column. -/
theorem rhsIdx_col (D : DotDims ⟨2, ![R, K]⟩ ⟨2, ![K, C]⟩ ⟨2, ![R, C]⟩) (hlb : D.lhsBatch = []) (hrb : D.rhsBatch = [])
    (hln : D.lhsNonContracting = [0]) (hrn : D.rhsNonContracting = [1]) (j : (⟨2, ![R, C]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![R, C]⟩ : Shape).rank) (hb : b < (⟨2, ![R, C]⟩ : Shape).rank), a = b →
      (j ⟨a, ha⟩).val = (j ⟨b, hb⟩).val := fun a b ha hb h => by subst h; rfl
  exact key _ _ _ _ (by simp [hlb, hln, hrn])

/-- A host rows-by-columns product at (p, q): the sum over the shared axis of the products. -/
theorem dotGeneral_ix2 {φ₁ φ₂ : FTy} (D : DotDims ⟨2, ![R, K]⟩ ⟨2, ![K, C]⟩ ⟨2, ![R, C]⟩)
    (hlc : D.lhsContracting = [1]) (hrc : D.rhsContracting = [0]) (hlb : D.lhsBatch = []) (hrb : D.rhsBatch = [])
    (hln : D.lhsNonContracting = [0]) (hrn : D.rhsNonContracting = [1])
    (prec : Option ContractPrecision) (lhs : FVec Ideal ⟨2, ![R, K]⟩ φ₁) (rhs : FVec Ideal ⟨2, ![K, C]⟩ φ₂)
    (p : Fin R) (q : Fin C) :
    Host.dotGeneral D prec lhs rhs (ix2 p q) = ∑ k : Fin K, lhs (ix2 p k) * rhs (ix2 k q) := by
  have hr : D.contr.rank = 1 := by rw [D.rank_contr, hlc]; rfl
  have hs : D.contr.size ⟨0, by omega⟩ = K := by
    have e := D.size_contr 0 (by rw [hlc]; exact Nat.one_pos)
    rw [e]
    simp [hlc]
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_col D hlb hrb hln hrn _ _)
  rw [el, er]

end Dot

/-! ## Host sums along one axis of a matrix -/

section Sums
variable {R C : ℕ} {φ : FTy}

/-- The host sum along the second axis, at row r. -/
theorem reduceAdd_lanes_ix1 (x : FVec Ideal ⟨2, ![R, C]⟩ φ) (init : EReal)
    (h : (⟨2, ![R, C]⟩ : Shape).ReducesTo [1] ⟨1, ![R]⟩)
    (hr : (⟨2, ![R, C]⟩ : Shape).Reduces [1] ⟨1, ![R]⟩) (r : Fin R) :
    Ideal.hostReduceAdd h x init (ix1 r) = init + ∑ k : Fin C, x (ix2 r k) := by
  rw [Ideal.hostReduceAdd_single h hr]
  refine congrArg (_ + ·) (Finset.sum_congr rfl fun k _ => congrArg x (funext fun a => Fin.ext ?_))
  match a with
  | ⟨0, _⟩ => rfl
  | ⟨1, _⟩ => rfl

/-- The host sum along the first axis, at column c. -/
theorem reduceAdd_rows_ix1 (x : FVec Ideal ⟨2, ![R, C]⟩ φ) (init : EReal)
    (h : (⟨2, ![R, C]⟩ : Shape).ReducesTo [0] ⟨1, ![C]⟩)
    (hr : (⟨2, ![R, C]⟩ : Shape).Reduces [0] ⟨1, ![C]⟩) (c : Fin C) :
    Ideal.hostReduceAdd h x init (ix1 c) = init + ∑ r : Fin R, x (ix2 r c) := by
  rw [Ideal.hostReduceAdd_single h hr]
  refine congrArg (_ + ·) (Finset.sum_congr rfl fun k _ => congrArg x (funext fun a => Fin.ext ?_))
  match a with
  | ⟨0, _⟩ => rfl
  | ⟨1, _⟩ => rfl

end Sums

/-! ## Spreading along an axis -/

section Spread
variable {α : Type} {R C : ℕ}

/-- A vector of C entries laid along the columns of every one of R rows: entry (p, q) is entry q. -/
theorem spread_cols_ix2 (v : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (q : Fin C) :
    broadcastInDim ⟨2, ![R, C]⟩ ![0, 1] h2 (broadcastInDim ⟨2, ![1, C]⟩ ![1] h1 v) (ix2 p q) = v (ix1 q) := by
  rw [broadcastInDim_apply _ h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if C = 1 then 0 else q.val
      split
      · have := q.isLt; omega
      · rfl)]
  exact broadcastInDim_apply _ h1 v (ix2 (0 : Fin 1) q) (ix1 q) (fun a => by
    match a with
    | ⟨0, _⟩ =>
      show q.val = if C = 1 then 0 else q.val
      split
      · have := q.isLt; omega
      · rfl)

/-- A vector of R entries laid along the rows of every one of C columns: entry (p, q) is entry p. -/
theorem spread_rows_ix2 (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (q : Fin C) :
    broadcastInDim ⟨2, ![R, C]⟩ ![0, 1] h2 (broadcastInDim ⟨2, ![R, 1]⟩ ![0] h1 v) (ix2 p q) = v (ix1 p) := by
  rw [broadcastInDim_apply _ h2 _ (ix2 p q) (ix2 p (0 : Fin 1)) (fun a => by
    match a with
    | ⟨0, _⟩ =>
      show p.val = if R = 1 then 0 else p.val
      split
      · have := p.isLt; omega
      · rfl
    | ⟨1, _⟩ => show (0 : ℕ) = if (1 : ℕ) = 1 then 0 else q.val; rw [if_pos rfl])]
  exact broadcastInDim_apply _ h1 v (ix2 p (0 : Fin 1)) (ix1 p) (fun a => by
    match a with
    | ⟨0, _⟩ =>
      show p.val = if R = 1 then 0 else p.val
      split
      · have := p.isLt; omega
      · rfl)

/-- A one-column matrix spread over C columns: entry (p, q) is the column's entry p. -/
theorem spread_col_ix2 (w : (⟨2, ![R, 1]⟩ : Shape).Idx → α)
    (h2 : (⟨2, ![R, 1]⟩ : Shape).BroadcastsInDim ⟨2, ![R, C]⟩ ![0, 1]) (p : Fin R) (q : Fin C) :
    broadcastInDim ⟨2, ![R, C]⟩ ![0, 1] h2 w (ix2 p q) = w (ix2 p (0 : Fin 1)) :=
  broadcastInDim_apply _ h2 _ (ix2 p q) (ix2 p (0 : Fin 1)) (fun a => by
    match a with
    | ⟨0, _⟩ =>
      show p.val = if R = 1 then 0 else p.val
      split
      · have := p.isLt; omega
      · rfl
    | ⟨1, _⟩ => show (0 : ℕ) = if (1 : ℕ) = 1 then 0 else q.val; rw [if_pos rfl])

/-- A vector as a one-row matrix: entry (0, q) is entry q. -/
theorem row_ix2 (v : (⟨1, ![C]⟩ : Shape).Idx → α)
    (h1 : (⟨1, ![C]⟩ : Shape).BroadcastsInDim ⟨2, ![1, C]⟩ ![1]) (u : Fin 1) (q : Fin C) :
    broadcastInDim ⟨2, ![1, C]⟩ ![1] h1 v (ix2 u q) = v (ix1 q) :=
  broadcastInDim_apply _ h1 v (ix2 u q) (ix1 q) (fun a => by
    match a with
    | ⟨0, _⟩ =>
      show q.val = if C = 1 then 0 else q.val
      split
      · have := q.isLt; omega
      · rfl)

/-- A one-row matrix spread over R rows: entry (p, q) is the row's entry q. -/
theorem spread_row_ix2 (w : (⟨2, ![1, C]⟩ : Shape).Idx → α)
    (h2 : (⟨2, ![1, C]⟩ : Shape).BroadcastsInDim ⟨2, ![R, C]⟩ ![0, 1]) (p : Fin R) (q : Fin C) :
    broadcastInDim ⟨2, ![R, C]⟩ ![0, 1] h2 w (ix2 p q) = w (ix2 (0 : Fin 1) q) :=
  broadcastInDim_apply _ h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if C = 1 then 0 else q.val
      split
      · have := q.isLt; omega
      · rfl)

/-- A vector as a one-column matrix: entry (p, 0) is entry p. -/
theorem column_ix2 (v : (⟨1, ![R]⟩ : Shape).Idx → α)
    (h1 : (⟨1, ![R]⟩ : Shape).BroadcastsInDim ⟨2, ![R, 1]⟩ ![0]) (p : Fin R) (u : Fin 1) :
    broadcastInDim ⟨2, ![R, 1]⟩ ![0] h1 v (ix2 p u) = v (ix1 p) :=
  broadcastInDim_apply _ h1 v (ix2 p u) (ix1 p) (fun a => by
    match a with
    | ⟨0, _⟩ =>
      show p.val = if R = 1 then 0 else p.val
      split
      · have := p.isLt; omega
      · rfl)

end Spread

end Cert.LibHostRead

end
-- ==== Proof.KHostRead.lean ====
/- The named host functions of the kernel program read entry by entry, over the extended reals.

   A vector laid out as a one-row matrix reads the vector's entry; the single output column read as
   a vector reads the column's entry; a layer of a stacked parameter reads the stack at that layer.
   The batch mean of a column is the sum of the 25 block sums divided by the number of rows, and the
   clamped variance is the larger of zero and the mean of the squares less the square of the mean. -/
import proofs.«169498_j72670846649171_2_alg».proof.Proof.KHostDefs
import proofs.«169498_j72670846649171_2_alg».proof.Proof.LibHostRead
import proofs.«169498_j72670846649171_2_alg».proof.Proof.Consts
import proofs.«169498_j72670846649171_2_alg».proof.Proof.LibStats

noncomputable section

open scoped BigOperators

namespace Cert.KernelIdeal.KHost

open Idealize.ShloMosaic Idealize.ShloMosaic.ValueIdx Cert.KernelIdeal Cert.KernelIdeal.Gen

/-! ## Reshapes: rows, the output column, the layers of a stack -/

/-- A vector of 256 entries as a one-row matrix: entry (0, j) is entry j. -/
theorem kRow256_ix (v : FVec Ideal S256 .f32) (u : Fin 1) (j : Fin 256) : kRow256 v (ix2 u j) = v (ix1 j) := by
  unfold kRow256
  refine shapeCast_apply v _ (ix2 u j) (ix1 j) ?_
  rw [Shape.rowMajor_val_one, Shape.rowMajor_val_two]
  show j.val = u.val * 256 + j.val
  have := u.isLt; omega

theorem kRow128_ix (v : FVec Ideal S128 .f32) (u : Fin 1) (j : Fin 128) : kRow128 v (ix2 u j) = v (ix1 j) := by
  unfold kRow128
  refine shapeCast_apply v _ (ix2 u j) (ix1 j) ?_
  rw [Shape.rowMajor_val_one, Shape.rowMajor_val_two]
  show j.val = u.val * 128 + j.val
  have := u.isLt; omega

theorem kRow64_ix (v : FVec Ideal S64 .f32) (u : Fin 1) (j : Fin 64) : kRow64 v (ix2 u j) = v (ix1 j) := by
  unfold kRow64
  refine shapeCast_apply v _ (ix2 u j) (ix1 j) ?_
  rw [Shape.rowMajor_val_one, Shape.rowMajor_val_two]
  show j.val = u.val * 64 + j.val
  have := u.isLt; omega

theorem kRow1_ix (v : FVec Ideal S1 .f32) (u : Fin 1) (j : Fin 1) : kRow1 v (ix2 u j) = v (ix1 j) := by
  unfold kRow1
  refine shapeCast_apply v _ (ix2 u j) (ix1 j) ?_
  rw [Shape.rowMajor_val_one, Shape.rowMajor_val_two]
  show j.val = u.val * 1 + j.val
  have := u.isLt; omega

/-- The single output column as a vector: entry i is entry (i, 0). -/
theorem kOut_ix (o : FVec Ideal S100000x1 .f32) (i : Fin 100000) (u : Fin 1) : kOut o (ix1 i) = o (ix2 i u) := by
  unfold kOut
  refine shapeCast_apply o _ (ix1 i) (ix2 i u) ?_
  rw [Shape.rowMajor_val_one, Shape.rowMajor_val_two]
  show i.val * 1 + u.val = i.val
  have := u.isLt; omega

/-- Layer 0 of three stacked matrices: entry (i, j) is entry (0, i, j) of the stack. -/
theorem kMat0_ix (a : FVec Ideal S3x256x256 .f32) (i j : Fin 256) : kMat0 a (ix2 i j) = a (ix3 (0 : Fin 3) i j) := by
  unfold kMat0
  refine (shapeCast_apply _ _ (ix2 i j) (ix3 (0 : Fin 1) i j) ?_).trans ?_
  · rw [Shape.rowMajor_val_two, Shape.rowMajor_val_three]
    show ((0 : ℕ) * 256 + i.val) * 256 + j.val = i.val * 256 + j.val
    omega
  · refine extractStridedSlice_apply _ a _ (ix3 (0 : Fin 1) i j) (ix3 (0 : Fin 3) i j) fun b => ?_
    match b with
    | ⟨0, _⟩ => rfl
    | ⟨1, _⟩ => show i.val = 0 + i.val; omega
    | ⟨2, _⟩ => show j.val = 0 + j.val; omega

/-- Layer 0 of three stacked vectors: entry j is entry (0, j) of the stack. -/
theorem kVec0_ix (a : FVec Ideal S3x256 .f32) (j : Fin 256) : kVec0 a (ix1 j) = a (ix2 (0 : Fin 3) j) := by
  unfold kVec0
  refine (shapeCast_apply _ _ (ix1 j) (ix2 (0 : Fin 1) j) ?_).trans ?_
  · rw [Shape.rowMajor_val_one, Shape.rowMajor_val_two]
    show (0 : ℕ) * 256 + j.val = j.val
    omega
  · refine extractStridedSlice_apply _ a _ (ix2 (0 : Fin 1) j) (ix2 (0 : Fin 3) j) fun b => ?_
    match b with
    | ⟨0, _⟩ => rfl
    | ⟨1, _⟩ => show j.val = 0 + j.val; omega

/-- Layer 1 of three stacked matrices: entry (i, j) is entry (1, i, j) of the stack. -/
theorem kMat1_ix (a : FVec Ideal S3x256x256 .f32) (i j : Fin 256) : kMat1 a (ix2 i j) = a (ix3 (1 : Fin 3) i j) := by
  unfold kMat1
  refine (shapeCast_apply _ _ (ix2 i j) (ix3 (0 : Fin 1) i j) ?_).trans ?_
  · rw [Shape.rowMajor_val_two, Shape.rowMajor_val_three]
    show ((0 : ℕ) * 256 + i.val) * 256 + j.val = i.val * 256 + j.val
    omega
  · refine extractStridedSlice_apply _ a _ (ix3 (0 : Fin 1) i j) (ix3 (1 : Fin 3) i j) fun b => ?_
    match b with
    | ⟨0, _⟩ => rfl
    | ⟨1, _⟩ => show i.val = 0 + i.val; omega
    | ⟨2, _⟩ => show j.val = 0 + j.val; omega

/-- Layer 1 of three stacked vectors: entry j is entry (1, j) of the stack. -/
theorem kVec1_ix (a : FVec Ideal S3x256 .f32) (j : Fin 256) : kVec1 a (ix1 j) = a (ix2 (1 : Fin 3) j) := by
  unfold kVec1
  refine (shapeCast_apply _ _ (ix1 j) (ix2 (0 : Fin 1) j) ?_).trans ?_
  · rw [Shape.rowMajor_val_one, Shape.rowMajor_val_two]
    show (0 : ℕ) * 256 + j.val = j.val
    omega
  · refine extractStridedSlice_apply _ a _ (ix2 (0 : Fin 1) j) (ix2 (1 : Fin 3) j) fun b => ?_
    match b with
    | ⟨0, _⟩ => rfl
    | ⟨1, _⟩ => show j.val = 0 + j.val; omega

/-- Layer 2 of three stacked matrices: entry (i, j) is entry (2, i, j) of the stack. -/
theorem kMat2_ix (a : FVec Ideal S3x256x256 .f32) (i j : Fin 256) : kMat2 a (ix2 i j) = a (ix3 (2 : Fin 3) i j) := by
  unfold kMat2
  refine (shapeCast_apply _ _ (ix2 i j) (ix3 (0 : Fin 1) i j) ?_).trans ?_
  · rw [Shape.rowMajor_val_two, Shape.rowMajor_val_three]
    show ((0 : ℕ) * 256 + i.val) * 256 + j.val = i.val * 256 + j.val
    omega
  · refine extractStridedSlice_apply _ a _ (ix3 (0 : Fin 1) i j) (ix3 (2 : Fin 3) i j) fun b => ?_
    match b with
    | ⟨0, _⟩ => rfl
    | ⟨1, _⟩ => show i.val = 0 + i.val; omega
    | ⟨2, _⟩ => show j.val = 0 + j.val; omega

/-- Layer 2 of three stacked vectors: entry j is entry (2, j) of the stack. -/
theorem kVec2_ix (a : FVec Ideal S3x256 .f32) (j : Fin 256) : kVec2 a (ix1 j) = a (ix2 (2 : Fin 3) j) := by
  unfold kVec2
  refine (shapeCast_apply _ _ (ix1 j) (ix2 (0 : Fin 1) j) ?_).trans ?_
  · rw [Shape.rowMajor_val_one, Shape.rowMajor_val_two]
    show (0 : ℕ) * 256 + j.val = j.val
    omega
  · refine extractStridedSlice_apply _ a _ (ix2 (0 : Fin 1) j) (ix2 (2 : Fin 3) j) fun b => ?_
    match b with
    | ⟨0, _⟩ => rfl
    | ⟨1, _⟩ => show j.val = 0 + j.val; omega

/-! ## Batch statistics out of the block sums, 256 columns -/

/-- The sum over the 25 blocks of the block sums of a column. -/
theorem blockSum256_ix (s : FVec Ideal S25x1x256 .f32) (u : Fin 1) (j : Fin 256) :
    Host.reduceAdd s (constant (F := Ideal) S_ .f32 0x00000000#32) reducesTo_S25x1x256_S1x256_d0 h_S_ (ix2 u j)
      = ∑ b : Fin 25, s (ix3 b (0 : Fin 1) j) := by
  rw [hostReduceAdd_apply, Ideal.hostReduceAdd_single _ (by decide : S25x1x256.Reduces [0] S1x256)]
  show Ideal.ofBits .f32 0x00000000#32 + _ = _
  rw [Cert.Consts.ofBits_zero, zero_add]
  refine Finset.sum_congr rfl fun b _ => congrArg s (funext fun a => Fin.ext ?_)
  match a with
  | ⟨0, _⟩ => rfl
  | ⟨1, _⟩ => show u.val = 0; have := u.isLt; omega
  | ⟨2, _⟩ => rfl

/-- The column mean: the block sums added up, over the number of rows. -/
theorem kMeanVec256_ix (s1 : FVec Ideal S25x1x256 .f32) (j : Fin 256) :
    kMeanVec256 s1 (ix1 j) = Ideal.div (∑ b : Fin 25, s1 (ix3 b (0 : Fin 1) j)) ((100000 : ℝ) : EReal) := by
  unfold kMeanVec256
  rw [hostDivf_apply, broadcastInDim_scalar_apply]
  show Ideal.div _ (Ideal.ofBits .f32 0x47C35000#32) = _
  rw [Cert.Consts.ofBits_100000]
  refine congrArg (Ideal.div · _) ?_
  refine (shapeCast_apply _ _ (ix1 j) (ix2 (0 : Fin 1) j) ?_).trans (blockSum256_ix s1 0 j)
  rw [Shape.rowMajor_val_one, Shape.rowMajor_val_two]
  show (0 : ℕ) * 256 + j.val = j.val
  omega

/-- The clamped column variance: the mean of the squares less the square of the mean, or zero where that is negative. -/
theorem kVarVec256_ix (s1 s2 : FVec Ideal S25x1x256 .f32) (j : Fin 256) :
    kVarVec256 s1 s2 (ix1 j)
      = max (Ideal.div (∑ b : Fin 25, s2 (ix3 b (0 : Fin 1) j)) ((100000 : ℝ) : EReal) - kMeanVec256 s1 (ix1 j) * kMeanVec256 s1 (ix1 j)) 0 := by
  unfold kVarVec256
  show max (Ideal.div _ _ - kMeanVec256 s1 (ix1 j) * kMeanVec256 s1 (ix1 j)) _ = _
  rw [broadcastInDim_scalar_apply, broadcastInDim_scalar_apply]
  show max (Ideal.div _ (Ideal.ofBits .f32 0x47C35000#32) - _) (Ideal.ofBits .f32 0x00000000#32) = _
  rw [Cert.Consts.ofBits_100000, Cert.Consts.ofBits_zero]
  refine congrArg (fun t => max (Ideal.div t _ - _) 0) ?_
  refine (shapeCast_apply _ _ (ix1 j) (ix2 (0 : Fin 1) j) ?_).trans (blockSum256_ix s2 0 j)
  rw [Shape.rowMajor_val_one, Shape.rowMajor_val_two]
  show (0 : ℕ) * 256 + j.val = j.val
  omega

/-- The column means as a row. -/
theorem kMean256_ix (s1 : FVec Ideal S25x1x256 .f32) (u : Fin 1) (j : Fin 256) :
    kMean256 s1 (ix2 u j) = Ideal.div (∑ b : Fin 25, s1 (ix3 b (0 : Fin 1) j)) ((100000 : ℝ) : EReal) := by
  unfold kMean256
  refine (shapeCast_apply _ _ (ix2 u j) (ix1 j) ?_).trans (kMeanVec256_ix s1 j)
  rw [Shape.rowMajor_val_one, Shape.rowMajor_val_two]
  show j.val = u.val * 256 + j.val
  have := u.isLt; omega

/-- The clamped column variances as a row. -/
theorem kVar256_ix (s1 s2 : FVec Ideal S25x1x256 .f32) (u : Fin 1) (j : Fin 256) :
    kVar256 s1 s2 (ix2 u j)
      = max (Ideal.div (∑ b : Fin 25, s2 (ix3 b (0 : Fin 1) j)) ((100000 : ℝ) : EReal) - kMean256 s1 (ix2 u j) * kMean256 s1 (ix2 u j)) 0 := by
  rw [kMean256_ix, ← kMeanVec256_ix s1 j]
  unfold kVar256
  refine (shapeCast_apply _ _ (ix2 u j) (ix1 j) ?_).trans (kVarVec256_ix s1 s2 j)
  rw [Shape.rowMajor_val_one, Shape.rowMajor_val_two]
  show j.val = u.val * 256 + j.val
  have := u.isLt; omega

/-! ## Batch statistics out of the block sums, 128 columns -/

/-- The sum over the 25 blocks of the block sums of a column. -/
theorem blockSum128_ix (s : FVec Ideal S25x1x128 .f32) (u : Fin 1) (j : Fin 128) :
    Host.reduceAdd s (constant (F := Ideal) S_ .f32 0x00000000#32) reducesTo_S25x1x128_S1x128_d0 h_S_ (ix2 u j)
      = ∑ b : Fin 25, s (ix3 b (0 : Fin 1) j) := by
  rw [hostReduceAdd_apply, Ideal.hostReduceAdd_single _ (by decide : S25x1x128.Reduces [0] S1x128)]
  show Ideal.ofBits .f32 0x00000000#32 + _ = _
  rw [Cert.Consts.ofBits_zero, zero_add]
  refine Finset.sum_congr rfl fun b _ => congrArg s (funext fun a => Fin.ext ?_)
  match a with
  | ⟨0, _⟩ => rfl
  | ⟨1, _⟩ => show u.val = 0; have := u.isLt; omega
  | ⟨2, _⟩ => rfl

/-- The column mean: the block sums added up, over the number of rows. -/
theorem kMeanVec128_ix (s1 : FVec Ideal S25x1x128 .f32) (j : Fin 128) :
    kMeanVec128 s1 (ix1 j) = Ideal.div (∑ b : Fin 25, s1 (ix3 b (0 : Fin 1) j)) ((100000 : ℝ) : EReal) := by
  unfold kMeanVec128
  rw [hostDivf_apply, broadcastInDim_scalar_apply]
  show Ideal.div _ (Ideal.ofBits .f32 0x47C35000#32) = _
  rw [Cert.Consts.ofBits_100000]
  refine congrArg (Ideal.div · _) ?_
  refine (shapeCast_apply _ _ (ix1 j) (ix2 (0 : Fin 1) j) ?_).trans (blockSum128_ix s1 0 j)
  rw [Shape.rowMajor_val_one, Shape.rowMajor_val_two]
  show (0 : ℕ) * 128 + j.val = j.val
  omega

/-- The clamped column variance: the mean of the squares less the square of the mean, or zero where that is negative. -/
theorem kVarVec128_ix (s1 s2 : FVec Ideal S25x1x128 .f32) (j : Fin 128) :
    kVarVec128 s1 s2 (ix1 j)
      = max (Ideal.div (∑ b : Fin 25, s2 (ix3 b (0 : Fin 1) j)) ((100000 : ℝ) : EReal) - kMeanVec128 s1 (ix1 j) * kMeanVec128 s1 (ix1 j)) 0 := by
  unfold kVarVec128
  show max (Ideal.div _ _ - kMeanVec128 s1 (ix1 j) * kMeanVec128 s1 (ix1 j)) _ = _
  rw [broadcastInDim_scalar_apply, broadcastInDim_scalar_apply]
  show max (Ideal.div _ (Ideal.ofBits .f32 0x47C35000#32) - _) (Ideal.ofBits .f32 0x00000000#32) = _
  rw [Cert.Consts.ofBits_100000, Cert.Consts.ofBits_zero]
  refine congrArg (fun t => max (Ideal.div t _ - _) 0) ?_
  refine (shapeCast_apply _ _ (ix1 j) (ix2 (0 : Fin 1) j) ?_).trans (blockSum128_ix s2 0 j)
  rw [Shape.rowMajor_val_one, Shape.rowMajor_val_two]
  show (0 : ℕ) * 128 + j.val = j.val
  omega

/-- The column means as a row. -/
theorem kMean128_ix (s1 : FVec Ideal S25x1x128 .f32) (u : Fin 1) (j : Fin 128) :
    kMean128 s1 (ix2 u j) = Ideal.div (∑ b : Fin 25, s1 (ix3 b (0 : Fin 1) j)) ((100000 : ℝ) : EReal) := by
  unfold kMean128
  refine (shapeCast_apply _ _ (ix2 u j) (ix1 j) ?_).trans (kMeanVec128_ix s1 j)
  rw [Shape.rowMajor_val_one, Shape.rowMajor_val_two]
  show j.val = u.val * 128 + j.val
  have := u.isLt; omega

/-- The clamped column variances as a row. -/
theorem kVar128_ix (s1 s2 : FVec Ideal S25x1x128 .f32) (u : Fin 1) (j : Fin 128) :
    kVar128 s1 s2 (ix2 u j)
      = max (Ideal.div (∑ b : Fin 25, s2 (ix3 b (0 : Fin 1) j)) ((100000 : ℝ) : EReal) - kMean128 s1 (ix2 u j) * kMean128 s1 (ix2 u j)) 0 := by
  rw [kMean128_ix, ← kMeanVec128_ix s1 j]
  unfold kVar128
  refine (shapeCast_apply _ _ (ix2 u j) (ix1 j) ?_).trans (kVarVec128_ix s1 s2 j)
  rw [Shape.rowMajor_val_one, Shape.rowMajor_val_two]
  show j.val = u.val * 128 + j.val
  have := u.isLt; omega

end Cert.KernelIdeal.KHost

end
-- ==== Proof.RefSpec.lean ====
/-
  The reference network as named functions of its argument arrays: each definition is the composition, in program
  order, of the host operations the reference program performs for that step — the edge endpoints, the guarded
  in-degree, the neighbourhood mean, the linear map, the row normalisation, the batch standardisation, the
  rectifier, and the two-layer head — so that the program's result is `net` of the arguments and each step can be
  read index by index on its own.
-/
import proofs.«169498_j72670846649171_2_alg».proof.ReferenceIdeal

noncomputable section

namespace Cert.ReferenceIdeal.RefSpec

open Idealize.ShloMosaic Cert.ReferenceIdeal
open Facts₀ Facts

/-- Float arrays of a shape. -/
abbrev VF (F : FTy → Type) (S : Shape) : Type := (⟨S, .f32⟩ : BufTy).Contents (Elt F)
/-- 32-bit integer arrays of a shape. -/
abbrev VI (F : FTy → Type) (S : Shape) : Type := (⟨S, .i32⟩ : BufTy).Contents (Elt F)

variable {F : FTy → Type} [FloatOps F] [Facts]

/-- The source node of every edge (row 0 of the edge list), a negative id wrapped once by the node count, as a column. -/
def srcIdx (ei : VI F S2x800000) : VI F S800000x1 :=
  let v : VI F S800000 := shapeCast S800000 (extractStridedSlice S1x800000 ![0, 0] ei slices_S2x800000_S1x800000_0_0) shapeCasts_S1x800000_S800000
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 100000#32))) v)

/-- The destination node of every edge (row 1 of the edge list), as a column. -/
def dstIdx (ei : VI F S2x800000) : VI F S800000x1 :=
  broadcastInDim S800000x1 ![0] bcast_S800000_S800000x1_0
    (shapeCast S800000 (extractStridedSlice S1x800000 ![1, 0] ei slices_S2x800000_S1x800000_1_0) shapeCasts_S1x800000_S800000)

/-- The in-degree of every node (ones summed along the edges into their destinations), guarded from below by one. -/
def degMax (ei : VI F S2x800000) : VF F S100000 :=
  maximumf
    (Host.scatterAdd scatter_S100000_S800000x1_S800000_n_0_0_1
      (broadcastInDim S100000 ![] bcast_S_S100000 (constant S_ .f32 0x00000000#32)) (dstIdx ei)
      (broadcastInDim S800000 ![] bcast_S_S800000 (constant S_ .f32 0x3F800000#32)))
    (broadcastInDim S100000 ![] bcast_S_S100000 (constant S_ .f32 0x3F800000#32))

/-- The mean over incoming edges of the source rows of a [100000, 12] array: rows gathered along the edges, summed
    into their destination rows, divided by the guarded in-degree. -/
def agg12 (h : VF F S100000x12) (ei : VI F S2x800000) : VF F S100000x12 :=
  Host.divf
    (Host.scatterAdd scatter_S100000x12_S800000x1_S800000x12_1_0_0_1
      (broadcastInDim S100000x12 ![] bcast_S_S100000x12 (constant S_ .f32 0x00000000#32)) (dstIdx ei)
      (Host.gather gather_S100000x12_S800000x1_S800000x12_1_0_n_n_0_1_112 h (srcIdx ei)))
    (broadcastInDim S100000x12 ![0, 1] bcast_S100000x1_S100000x12_0_1
      (broadcastInDim S100000x1 ![0] bcast_S100000_S100000x1_0 (degMax ei)))

/-- The mean over incoming edges of the source rows of a [100000, 256] array: rows gathered along the edges, summed
    into their destination rows, divided by the guarded in-degree. -/
def agg256 (h : VF F S100000x256) (ei : VI F S2x800000) : VF F S100000x256 :=
  Host.divf
    (Host.scatterAdd scatter_S100000x256_S800000x1_S800000x256_1_0_0_1
      (broadcastInDim S100000x256 ![] bcast_S_S100000x256 (constant S_ .f32 0x00000000#32)) (dstIdx ei)
      (Host.gather gather_S100000x256_S800000x1_S800000x256_1_0_n_n_0_1_1256 h (srcIdx ei)))
    (broadcastInDim S100000x256 ![0, 1] bcast_S100000x1_S100000x256_0_1
      (broadcastInDim S100000x1 ![0] bcast_S100000_S100000x1_0 (degMax ei)))

/-- The linear map of a layer: neighbourhood means times `wl`, plus the bias, plus the features times `wr`. -/
def lin0 (a h : VF F S100000x12) (wl : VF F S12x256) (bl : VF F S256) (wr : VF F S12x256) : VF F S100000x256 :=
  addf (addf (Host.dotGeneral dot_S100000x12_S12x256_S100000x256_1_0_0_1_n_n none a wl)
      (broadcastInDim S100000x256 ![0, 1] bcast_S1x256_S100000x256_0_1 (broadcastInDim S1x256 ![1] bcast_S256_S1x256_1 bl)))
    (Host.dotGeneral dot_S100000x12_S12x256_S100000x256_1_0_0_1_n_n none h wr)

/-- The linear map of a layer: neighbourhood means times `wl`, plus the bias, plus the features times `wr`. -/
def lin256 (a h : VF F S100000x256) (wl : VF F S256x256) (bl : VF F S256) (wr : VF F S256x256) : VF F S100000x256 :=
  addf (addf (Host.dotGeneral dot_S100000x256_S256x256_S100000x256_1_0_0_1_n_n none a wl)
      (broadcastInDim S100000x256 ![0, 1] bcast_S1x256_S100000x256_0_1 (broadcastInDim S1x256 ![1] bcast_S256_S1x256_1 bl)))
    (Host.dotGeneral dot_S100000x256_S256x256_S100000x256_1_0_0_1_n_n none h wr)

/-- The linear map of a layer: neighbourhood means times `wl`, plus the bias, plus the features times `wr`. -/
def lin4 (a h : VF F S100000x256) (wl : VF F S256x128) (bl : VF F S128) (wr : VF F S256x128) : VF F S100000x128 :=
  addf (addf (Host.dotGeneral dot_S100000x256_S256x128_S100000x128_1_0_0_1_n_n none a wl)
      (broadcastInDim S100000x128 ![0, 1] bcast_S1x128_S100000x128_0_1 (broadcastInDim S1x128 ![1] bcast_S128_S1x128_1 bl)))
    (Host.dotGeneral dot_S100000x256_S256x128_S100000x128_1_0_0_1_n_n none h wr)

/-- The population variance of every column of a [100000, 256] array, as the reference's library routine computes it:
    the mean of the squared deviations from the column mean, the divisor `100000 - 0` checked positive. -/
def var256 (p : VF F S100000x256) : VF F S256 :=
  let m : VF F S1x256 := Host.divf (broadcastInDim S1x256 ![1] bcast_S256_S1x256_1 (Host.reduceAdd p (constant S_ .f32 0x00000000#32) reducesTo_S100000x256_S256_d0 h_S_))
    (broadcastInDim S1x256 ![] bcast_S_S1x256 (constant S_ .f32 0x47C35000#32))
  let d : VF F S100000x256 := subf p (broadcastInDim S100000x256 ![0, 1] bcast_S1x256_S100000x256_0_1 m)
  let n : VF F S_ := subf (constant S_ .f32 0x47C35000#32) (sitofp .f32 (constantI S_ 32 0#32))
  select (broadcastInDim S256 ![] bcast_S_S256 (cmpf .ogt n (constant S_ .f32 0x00000000#32)))
    (Host.divf (Host.reduceAdd (mulf d d) (constant S_ .f32 0x00000000#32) reducesTo_S100000x256_S256_d0 h_S_) (broadcastInDim S256 ![] bcast_S_S256 n))
    (broadcastInDim S256 ![] bcast_S_S256 (id (constant S_ .f32 0x7FC00000#32)))

/-- Rows scaled to unit norm (the norm guarded from below). -/
def unit256 (o : VF F S100000x256) : VF F S100000x256 :=
  Host.divf o (broadcastInDim S100000x256 ![0, 1] bcast_S100000x1_S100000x256_0_1
    (maximumf (Host.sqrt (broadcastInDim S100000x1 ![0] bcast_S100000_S100000x1_0
        (Host.reduceAdd (mulf o o) (constant S_ .f32 0x00000000#32) reducesTo_S100000x256_S100000_d1 h_S_)))
      (broadcastInDim S100000x1 ![] bcast_S_S100000x1 (constant S_ .f32 0x2B8CBCCC#32))))

/-- Columns standardised by their batch mean and variance, then gain `g` and offset `b`. -/
def bn256 (p : VF F S100000x256) (g b : VF F S256) : VF F S100000x256 :=
  let mean : VF F S256 := Host.divf (Host.reduceAdd p (constant S_ .f32 0x00000000#32) reducesTo_S100000x256_S256_d0 h_S_)
    (broadcastInDim S256 ![] bcast_S_S256 (constant S_ .f32 0x47C35000#32))
  let row (v : VF F S256) : VF F S100000x256 := broadcastInDim S100000x256 ![0, 1] bcast_S1x256_S100000x256_0_1 (broadcastInDim S1x256 ![1] bcast_S256_S1x256_1 v)
  addf (mulf (mulf (subf p (row mean))
      (row (Host.rsqrt (addf (var256 p) (broadcastInDim S256 ![] bcast_S_S256 (constant S_ .f32 0x3727C5AC#32))))))
    (row g)) (row b)

/-- The population variance of every column of a [100000, 128] array, as the reference's library routine computes it:
    the mean of the squared deviations from the column mean, the divisor `100000 - 0` checked positive. -/
def var128 (p : VF F S100000x128) : VF F S128 :=
  let m : VF F S1x128 := Host.divf (broadcastInDim S1x128 ![1] bcast_S128_S1x128_1 (Host.reduceAdd p (constant S_ .f32 0x00000000#32) reducesTo_S100000x128_S128_d0 h_S_))
    (broadcastInDim S1x128 ![] bcast_S_S1x128 (constant S_ .f32 0x47C35000#32))
  let d : VF F S100000x128 := subf p (broadcastInDim S100000x128 ![0, 1] bcast_S1x128_S100000x128_0_1 m)
  let n : VF F S_ := subf (constant S_ .f32 0x47C35000#32) (sitofp .f32 (constantI S_ 32 0#32))
  select (broadcastInDim S128 ![] bcast_S_S128 (cmpf .ogt n (constant S_ .f32 0x00000000#32)))
    (Host.divf (Host.reduceAdd (mulf d d) (constant S_ .f32 0x00000000#32) reducesTo_S100000x128_S128_d0 h_S_) (broadcastInDim S128 ![] bcast_S_S128 n))
    (broadcastInDim S128 ![] bcast_S_S128 (id (constant S_ .f32 0x7FC00000#32)))

/-- Rows scaled to unit norm (the norm guarded from below). -/
def unit128 (o : VF F S100000x128) : VF F S100000x128 :=
  Host.divf o (broadcastInDim S100000x128 ![0, 1] bcast_S100000x1_S100000x128_0_1
    (maximumf (Host.sqrt (broadcastInDim S100000x1 ![0] bcast_S100000_S100000x1_0
        (Host.reduceAdd (mulf o o) (constant S_ .f32 0x00000000#32) reducesTo_S100000x128_S100000_d1 h_S_)))
      (broadcastInDim S100000x1 ![] bcast_S_S100000x1 (constant S_ .f32 0x2B8CBCCC#32))))

/-- Columns standardised by their batch mean and variance, then gain `g` and offset `b`. -/
def bn128 (p : VF F S100000x128) (g b : VF F S128) : VF F S100000x128 :=
  let mean : VF F S128 := Host.divf (Host.reduceAdd p (constant S_ .f32 0x00000000#32) reducesTo_S100000x128_S128_d0 h_S_)
    (broadcastInDim S128 ![] bcast_S_S128 (constant S_ .f32 0x47C35000#32))
  let row (v : VF F S128) : VF F S100000x128 := broadcastInDim S100000x128 ![0, 1] bcast_S1x128_S100000x128_0_1 (broadcastInDim S1x128 ![1] bcast_S128_S1x128_1 v)
  addf (mulf (mulf (subf p (row mean))
      (row (Host.rsqrt (addf (var128 p) (broadcastInDim S128 ![] bcast_S_S128 (constant S_ .f32 0x3727C5AC#32))))))
    (row g)) (row b)

/-- The rectifier on a [100000, 256] array. -/
def relu256 (y : VF F S100000x256) : VF F S100000x256 :=
  maximumf y (broadcastInDim S100000x256 ![] bcast_S_S100000x256 (constant S_ .f32 0x00000000#32))

/-- Layer 0: 12 input features to 256. -/
def layer0 (x : VF F S100000x12) (ei : VI F S2x800000) (wl : VF F S12x256) (bl : VF F S256) (wr : VF F S12x256) (g b : VF F S256) :
    VF F S100000x256 :=
  relu256 (bn256 (unit256 (lin0 (agg12 x ei) x wl bl wr)) g b)

/-- A middle layer: 256 features to 256. -/
def layer256 (h : VF F S100000x256) (ei : VI F S2x800000) (wl : VF F S256x256) (bl : VF F S256) (wr : VF F S256x256) (g b : VF F S256) :
    VF F S100000x256 :=
  relu256 (bn256 (unit256 (lin256 (agg256 h ei) h wl bl wr)) g b)

/-- The last layer, 256 features to 128, without rectifier. -/
def layer4 (h : VF F S100000x256) (ei : VI F S2x800000) (wl : VF F S256x128) (bl : VF F S128) (wr : VF F S256x128) (g b : VF F S128) :
    VF F S100000x128 :=
  bn128 (unit128 (lin4 (agg256 h ei) h wl bl wr)) g b

/-- The head: 128 to 64 with rectifier, 64 to 1, and the single column dropped. -/
def head (h : VF F S100000x128) (cw1 : VF F S128x64) (cb1 : VF F S64) (cw2 : VF F S64x1) (cb2 : VF F S1) : VF F S100000 :=
  shapeCast S100000
    (addf (Host.dotGeneral dot_S100000x64_S64x1_S100000x1_1_0_0_1_n_n none
        (maximumf (addf (Host.dotGeneral dot_S100000x128_S128x64_S100000x64_1_0_0_1_n_n none h cw1)
            (broadcastInDim S100000x64 ![0, 1] bcast_S1x64_S100000x64_0_1 (broadcastInDim S1x64 ![1] bcast_S64_S1x64_1 cb1)))
          (broadcastInDim S100000x64 ![] bcast_S_S100000x64 (constant S_ .f32 0x00000000#32))) cw2)
      (broadcastInDim S100000x1 ![0, 1] bcast_S1x1_S100000x1_0_1 (broadcastInDim S1x1 ![1] bcast_S1_S1x1_1 cb2)))
    shapeCasts_S100000x1_S100000

/-- Slice `i` of a stack of three 256 × 256 matrices / three 256-vectors (the middle layers' parameters). -/
def mat0 (w : VF F S3x256x256) : VF F S256x256 := shapeCast S256x256 (extractStridedSlice S1x256x256 ![0, 0, 0] w slices_S3x256x256_S1x256x256_0_0_0) shapeCasts_S1x256x256_S256x256
def mat1 (w : VF F S3x256x256) : VF F S256x256 := shapeCast S256x256 (extractStridedSlice S1x256x256 ![1, 0, 0] w slices_S3x256x256_S1x256x256_1_0_0) shapeCasts_S1x256x256_S256x256
def mat2 (w : VF F S3x256x256) : VF F S256x256 := shapeCast S256x256 (extractStridedSlice S1x256x256 ![2, 0, 0] w slices_S3x256x256_S1x256x256_2_0_0) shapeCasts_S1x256x256_S256x256
def vec0 (w : VF F S3x256) : VF F S256 := shapeCast S256 (extractStridedSlice S1x256 ![0, 0] w slices_S3x256_S1x256_0_0) shapeCasts_S1x256_S256
def vec1 (w : VF F S3x256) : VF F S256 := shapeCast S256 (extractStridedSlice S1x256 ![1, 0] w slices_S3x256_S1x256_1_0) shapeCasts_S1x256_S256
def vec2 (w : VF F S3x256) : VF F S256 := shapeCast S256 (extractStridedSlice S1x256 ![2, 0] w slices_S3x256_S1x256_2_0) shapeCasts_S1x256_S256

/-- The whole reference network. -/
def net (x : VF F S100000x12) (ei : VI F S2x800000) (wl0 : VF F S12x256) (bl0 : VF F S256) (wr0 : VF F S12x256) (g0 be0 : VF F S256)
    (wlm : VF F S3x256x256) (blm : VF F S3x256) (wrm : VF F S3x256x256) (gm bem : VF F S3x256)
    (wl4 : VF F S256x128) (bl4 : VF F S128) (wr4 : VF F S256x128) (g4 be4 : VF F S128)
    (cw1 : VF F S128x64) (cb1 : VF F S64) (cw2 : VF F S64x1) (cb2 : VF F S1) : VF F S100000 :=
  let h0 := layer0 x ei wl0 bl0 wr0 g0 be0
  let h1 := layer256 h0 ei (mat0 wlm) (vec0 blm) (mat0 wrm) (vec0 gm) (vec0 bem)
  let h2 := layer256 h1 ei (mat1 wlm) (vec1 blm) (mat1 wrm) (vec1 gm) (vec1 bem)
  let h3 := layer256 h2 ei (mat2 wlm) (vec2 blm) (mat2 wrm) (vec2 gm) (vec2 bem)
  head (layer4 h3 ei wl4 bl4 wr4 g4 be4) cw1 cb1 cw2 cb2

end Cert.ReferenceIdeal.RefSpec

end
-- ==== Proof.KAggEq.lean ====
/- The kernel program's mean aggregation along the edges is the reference's.

   Both add, at every target node, the feature rows gathered at the sources of its incoming edges.
   The reference divides that sum by the in-degree clamped below by one; the kernel multiplies it
   by the reciprocal of the clamped degree.  A clamped degree is never zero, so the two agree.  The
   sum along the edges is carried as one value throughout: it is the same term on both sides.
   With finite features the aggregate is finite: a finite sum of finite entries over a positive
   real. -/
import proofs.«169498_j72670846649171_2_alg».proof.Proof.KHostDefs
import proofs.«169498_j72670846649171_2_alg».proof.Proof.RefSpec
import proofs.«169498_j72670846649171_2_alg».proof.Proof.Gen.ReferenceIdeal
import proofs.«169498_j72670846649171_2_alg».proof.Proof.LibHostRead
import proofs.«169498_j72670846649171_2_alg».proof.Proof.LibLayer
import proofs.«169498_j72670846649171_2_alg».proof.Proof.LibStats
import proofs.«169498_j72670846649171_2_alg».proof.Proof.Consts
import Idealize.ShloMosaic.Lib.IdealHost

noncomputable section

open scoped BigOperators

namespace Cert.KernelIdeal.KHost

open Idealize.ShloMosaic Idealize.ShloMosaic.ValueIdx Cert.KernelIdeal Cert.KernelIdeal.Gen
open Cert.LibStats Cert.LibHostRead Cert.LibLayer
open Cert.ReferenceIdeal (RefSpec.srcIdx RefSpec.dstIdx RefSpec.degMax RefSpec.agg12 RefSpec.agg256 RefSpec.mat0 RefSpec.mat1 RefSpec.mat2 RefSpec.vec0 RefSpec.vec1 RefSpec.vec2)

/-! ## The index columns and the layers of the stacked parameters are the same terms -/

theorem kDst_eq (e : IVec S2x800000 32) :
    broadcastInDim S800000x1 ![0] bcast_S800000_S800000x1_0 (kDst e) = RefSpec.dstIdx (F := Ideal) e := rfl
theorem kSrc_eq (e : IVec S2x800000 32) : kIdx (kSrc e) = RefSpec.srcIdx (F := Ideal) e := rfl
theorem kMat0_eq (w : FVec Ideal S3x256x256 .f32) : kMat0 w = RefSpec.mat0 (F := Ideal) w := rfl
theorem kMat1_eq (w : FVec Ideal S3x256x256 .f32) : kMat1 w = RefSpec.mat1 (F := Ideal) w := rfl
theorem kMat2_eq (w : FVec Ideal S3x256x256 .f32) : kMat2 w = RefSpec.mat2 (F := Ideal) w := rfl
theorem kVec0_eq (w : FVec Ideal S3x256 .f32) : kVec0 w = RefSpec.vec0 (F := Ideal) w := rfl
theorem kVec1_eq (w : FVec Ideal S3x256 .f32) : kVec1 w = RefSpec.vec1 (F := Ideal) w := rfl
theorem kVec2_eq (w : FVec Ideal S3x256 .f32) : kVec2 w = RefSpec.vec2 (F := Ideal) w := rfl

/-- The clamped degree is the same term. -/
theorem kDegMax_eq (e : IVec S2x800000 32) :
    maximumf (kDeg (F := Ideal) (kDst e)) (broadcastInDim S100000 ![] bcast_S_S100000 (constant (F := Ideal) S_ .f32 0x3F800000#32))
      = RefSpec.degMax (F := Ideal) e := rfl

/-! ## Over the extended reals widening and narrowing change nothing; entries of products and maxima -/

theorem extf_ideal {s : Shape} {φ : FTy} (ψ : FTy) (x : FVec Ideal s φ) (h : φ.bits < ψ.bits) :
    extf (F := Ideal) ψ x h = x := rfl
theorem truncf_ideal {s : Shape} {φ : FTy} (ψ : FTy) (x : FVec Ideal s φ) (h : ψ.bits < φ.bits) :
    truncf (F := Ideal) ψ x h = x := rfl
theorem mulf_ix {s : Shape} {φ : FTy} (x y : FVec Ideal s φ) (i : s.Idx) : mulf x y i = x i * y i := rfl
theorem maximumf_ix {s : Shape} {φ : FTy} (x y : FVec Ideal s φ) (i : s.Idx) : maximumf x y i = max (x i) (y i) := rfl

/-! ## The degree -/

/-- The reciprocal clamped degree at a node. -/
theorem kDegInv_ix (d : IVec S800000 32) (p : Fin 100000) :
    kDegInv (F := Ideal) d (ix1 p) = Ideal.div 1 (max (kDeg (F := Ideal) d (ix1 p)) 1) := by
  unfold kDegInv
  rw [hostDivf_apply, maximumf_ix, broadcastInDim_scalar_apply]
  show Ideal.div (Ideal.ofBits .f32 0x3F800000#32) (max _ (Ideal.ofBits .f32 0x3F800000#32)) = _
  rw [Ideal.ofBits_one_f32]

/-- The host's accumulating scatter at an entry, over the extended reals: the operand's entry plus the sum of the
    updates that land there. -/
theorem scatterAdd_ix {s si u : Shape} {w : Nat} {φ : FTy} (D : ScatterDims s si u) (x : FVec Ideal s φ) (idx : IVec si w)
    (upd : FVec Ideal u φ) (i : s.Idx) :
    Host.scatterAdd D x idx upd i = x i + ∑ j ∈ Finset.univ.filter (fun j => D.resultIdx? j idx = some i), upd j := rfl

/-- The degree of a node is a sum of ones: a nonnegative real. -/
theorem kDeg_nonneg (d : IVec S800000 32) (p : Fin 100000) : IsNonneg (kDeg (F := Ideal) d (ix1 p)) := by
  unfold kDeg
  rw [scatterAdd_ix]
  refine IsNonneg.add ?_ (IsNonneg.sum _ _ fun j _ => ?_)
  · rw [broadcastInDim_scalar_apply]
    show IsNonneg (Ideal.ofBits .f32 0x00000000#32)
    rw [Cert.Consts.ofBits_zero]
    exact IsNonneg.zero
  · rw [broadcastInDim_scalar_apply]
    show IsNonneg (Ideal.ofBits .f32 0x3F800000#32)
    rw [Cert.Consts.ofBits_one]
    exact ⟨1, zero_le_one, rfl⟩

/-- A gathered entry is an entry of the operand. -/
theorem gather_ix {s si t : Shape} {w : Nat} {α : Type} (D : GatherDims s si t) (x : s.Idx → α) (idx : IVec si w) (j : t.Idx) :
    Host.gather D x idx j = x (D.operandIdx j idx) := rfl

/-! ## 256 columns -/

/-- The feature rows gathered at the sources of the edges and added up at their targets. -/
def kSum256 (h : FVec Ideal S100000x256 .f32) (e : IVec S2x800000 32) : FVec Ideal S100000x256 .f32 :=
  Host.scatterAdd scatter_S100000x256_S800000x1_S800000x256_1_0_0_1
    (broadcastInDim S100000x256 ![] bcast_S_S100000x256 (constant (F := Ideal) S_ .f32 0x00000000#32))
    (broadcastInDim S800000x1 ![0] bcast_S800000_S800000x1_0 (kDst e))
    (Host.gather gather_S100000x256_S800000x1_S800000x256_1_0_n_n_0_1_1256 h (kIdx (kSrc e)))

/-- The kernel's aggregate at a row and column: the sum along the edges times the reciprocal clamped degree. -/
theorem kAgg256_ix (h : FVec Ideal S100000x256 .bf16) (e : IVec S2x800000 32) (p : Fin 100000) (q : Fin 256) :
    kAgg256 (F := Ideal) h (kSrc e) (kDst e) (kDegInv (kDst e)) (ix2 p q)
      = kSum256 h e (ix2 p q) * Ideal.div 1 (max (kDeg (F := Ideal) (kDst e) (ix1 p)) 1) := by
  unfold kAgg256
  rw [truncf_ideal, extf_ideal, mulf_ix, spread_rows_ix2, kDegInv_ix]
  rfl

/-- The reference's aggregate at a row and column: the same sum over the clamped degree. -/
theorem refAgg256_ix (h : FVec Ideal S100000x256 .f32) (e : IVec S2x800000 32) (p : Fin 100000) (q : Fin 256) :
    RefSpec.agg256 (F := Ideal) h e (ix2 p q)
      = Ideal.div (kSum256 h e (ix2 p q)) (max (kDeg (F := Ideal) (kDst e) (ix1 p)) 1) := by
  unfold RefSpec.agg256
  rw [hostDivf_apply, spread_rows_ix2, ← kDegMax_eq, maximumf_ix, broadcastInDim_scalar_apply]
  show Ideal.div _ (max _ (Ideal.ofBits .f32 0x3F800000#32)) = _
  rw [Ideal.ofBits_one_f32]
  rfl

/-- The two aggregates agree as whole arrays. -/
theorem kAgg256_eq (h : FVec Ideal S100000x256 .bf16) (e : IVec S2x800000 32) :
    kAgg256 (F := Ideal) h (kSrc e) (kDst e) (kDegInv (kDst e)) = RefSpec.agg256 (F := Ideal) h e := by
  funext i
  obtain ⟨p, q, rfl⟩ : ∃ (p : Fin 100000) (q : Fin 256), i = ix2 p q := ⟨i 0, i 1, eq_ix2 i⟩
  rw [kAgg256_ix, refAgg256_ix, mean_of_sum]

/-- With finite features the sum along the edges is finite. -/
theorem kSum256_fin {h : FVec Ideal S100000x256 .f32} (hh : ∀ i, IsFin (h i)) (e : IVec S2x800000 32) (i : S100000x256.Idx) :
    IsFin (kSum256 h e i) := by
  unfold kSum256
  rw [scatterAdd_ix]
  refine IsFin.add ?_ (IsFin.sum _ _ fun j _ => by rw [gather_ix]; exact hh _)
  rw [broadcastInDim_scalar_apply]
  show IsFin (Ideal.ofBits .f32 0x00000000#32)
  rw [Cert.Consts.ofBits_zero]
  exact IsFin.zero

/-- With finite features the aggregate is finite. -/
theorem agg256_fin {h : FVec Ideal S100000x256 .f32} (hh : ∀ i, IsFin (h i)) (e : IVec S2x800000 32) (i : S100000x256.Idx) :
    IsFin (RefSpec.agg256 (F := Ideal) h e i) := by
  obtain ⟨p, q, rfl⟩ : ∃ (p : Fin 100000) (q : Fin 256), i = ix2 p q := ⟨i 0, i 1, eq_ix2 i⟩
  rw [refAgg256_ix]
  exact (kSum256_fin hh e _).div_pos (guarded_pos (kDeg_nonneg _ p))

/-! ## 12 columns -/

/-- The feature rows gathered at the sources of the edges and added up at their targets. -/
def kSum12 (h : FVec Ideal S100000x12 .f32) (e : IVec S2x800000 32) : FVec Ideal S100000x12 .f32 :=
  Host.scatterAdd scatter_S100000x12_S800000x1_S800000x12_1_0_0_1
    (broadcastInDim S100000x12 ![] bcast_S_S100000x12 (constant (F := Ideal) S_ .f32 0x00000000#32))
    (broadcastInDim S800000x1 ![0] bcast_S800000_S800000x1_0 (kDst e))
    (Host.gather gather_S100000x12_S800000x1_S800000x12_1_0_n_n_0_1_112 h (kIdx (kSrc e)))

/-- The kernel's aggregate at a row and column: the sum along the edges times the reciprocal clamped degree. -/
theorem kAgg12_ix (h : FVec Ideal S100000x12 .f32) (e : IVec S2x800000 32) (p : Fin 100000) (q : Fin 12) :
    kAgg12 (F := Ideal) h (kSrc e) (kDst e) (kDegInv (kDst e)) (ix2 p q)
      = kSum12 h e (ix2 p q) * Ideal.div 1 (max (kDeg (F := Ideal) (kDst e) (ix1 p)) 1) := by
  unfold kAgg12
  rw [mulf_ix, spread_rows_ix2, kDegInv_ix]
  rfl

/-- The reference's aggregate at a row and column: the same sum over the clamped degree. -/
theorem refAgg12_ix (h : FVec Ideal S100000x12 .f32) (e : IVec S2x800000 32) (p : Fin 100000) (q : Fin 12) :
    RefSpec.agg12 (F := Ideal) h e (ix2 p q)
      = Ideal.div (kSum12 h e (ix2 p q)) (max (kDeg (F := Ideal) (kDst e) (ix1 p)) 1) := by
  unfold RefSpec.agg12
  rw [hostDivf_apply, spread_rows_ix2, ← kDegMax_eq, maximumf_ix, broadcastInDim_scalar_apply]
  show Ideal.div _ (max _ (Ideal.ofBits .f32 0x3F800000#32)) = _
  rw [Ideal.ofBits_one_f32]
  rfl

/-- The two aggregates agree as whole arrays. -/
theorem kAgg12_eq (h : FVec Ideal S100000x12 .f32) (e : IVec S2x800000 32) :
    kAgg12 (F := Ideal) h (kSrc e) (kDst e) (kDegInv (kDst e)) = RefSpec.agg12 (F := Ideal) h e := by
  funext i
  obtain ⟨p, q, rfl⟩ : ∃ (p : Fin 100000) (q : Fin 12), i = ix2 p q := ⟨i 0, i 1, eq_ix2 i⟩
  rw [kAgg12_ix, refAgg12_ix, mean_of_sum]

/-- With finite features the sum along the edges is finite. -/
theorem kSum12_fin {h : FVec Ideal S100000x12 .f32} (hh : ∀ i, IsFin (h i)) (e : IVec S2x800000 32) (i : S100000x12.Idx) :
    IsFin (kSum12 h e i) := by
  unfold kSum12
  rw [scatterAdd_ix]
  refine IsFin.add ?_ (IsFin.sum _ _ fun j _ => by rw [gather_ix]; exact hh _)
  rw [broadcastInDim_scalar_apply]
  show IsFin (Ideal.ofBits .f32 0x00000000#32)
  rw [Cert.Consts.ofBits_zero]
  exact IsFin.zero

/-- With finite features the aggregate is finite. -/
theorem agg12_fin {h : FVec Ideal S100000x12 .f32} (hh : ∀ i, IsFin (h i)) (e : IVec S2x800000 32) (i : S100000x12.Idx) :
    IsFin (RefSpec.agg12 (F := Ideal) h e i) := by
  obtain ⟨p, q, rfl⟩ : ∃ (p : Fin 100000) (q : Fin 12), i = ix2 p q := ⟨i 0, i 1, eq_ix2 i⟩
  rw [refAgg12_ix]
  exact (kSum12_fin hh e _).div_pos (guarded_pos (kDeg_nonneg _ p))

end Cert.KernelIdeal.KHost

end
-- ==== Proof.RefRead.lean ====
/-
  The reference's steps on 256-wide features read index by index on the extended reals: the linear map is the
  two row-by-column sums plus the bias, the row normalisation divides by the guarded root of the row's sum of
  squares, the library variance routine returns the mean of squared deviations from the column mean (its divisor,
  the row count minus a zero offset, is the row count and passes the routine's positivity check), the batch
  standardisation centres, scales by the reciprocal root of the guarded variance, and applies gain and offset, and
  the rectifier is the positive part.  Together a middle layer, entry by entry, is the layer function of LibLayer
  applied to the neighbourhood means and the features.
-/
import proofs.«169498_j72670846649171_2_alg».proof.Proof.RefSpec
import proofs.«169498_j72670846649171_2_alg».proof.Proof.LibLayer
import proofs.«169498_j72670846649171_2_alg».proof.Proof.LibHostRead
import proofs.«169498_j72670846649171_2_alg».proof.Proof.Consts

noncomputable section

namespace Cert.ReferenceIdeal.RefSpec

open Idealize.ShloMosaic Cert.ReferenceIdeal
open Facts₀ Facts

/-! # Reading at an index -/
section Read
open Idealize.ShloMosaic.ValueIdx Cert.LibHostRead Cert.LibStats Cert.LibLayer
variable [Facts]

/-- A [R, C] array as a function of its row and column. -/
abbrev M {R C : ℕ} (A : FVec Ideal ⟨2, ![R, C]⟩ .f32) : Fin R → Fin C → EReal := fun i j => A (ix2 i j)
/-- A [C] array as a function of its index. -/
abbrev Vv {C : ℕ} (v : FVec Ideal ⟨1, ![C]⟩ .f32) : Fin C → EReal := fun j => v (ix1 j)

/-- The row count, as the constant the programs spell and as a real. -/
abbrev nRows : EReal := ((100000 : ℝ) : EReal)

theorem lin256_ix2 (a h : FVec Ideal S100000x256 .f32) (wl : FVec Ideal S256x256 .f32) (bl : FVec Ideal S256 .f32) (wr : FVec Ideal S256x256 .f32)
    (i : Fin 100000) (j : Fin 256) :
    lin256 (F := Ideal) a h wl bl wr (ix2 i j) = linMid (M a) (M h) (M wl) (M wr) (Vv bl) i j := by
  unfold lin256
  simp only [addf, Ideal.addf_def]
  rw [dotGeneral_ix2 _ rfl rfl rfl rfl rfl rfl, dotGeneral_ix2 _ rfl rfl rfl rfl rfl rfl, spread_cols_ix2]
  rfl

theorem unit256_ix2 (o : FVec Ideal S100000x256 .f32) (i : Fin 100000) (j : Fin 256) :
    unit256 (F := Ideal) o (ix2 i j) = unitRows (Ideal.ofBits .f32 0x2B8CBCCC#32) (M o) i j := by
  unfold unit256
  simp only [Host.divf, Ideal.hostDivf_def]
  rw [spread_col_ix2]
  simp only [maximumf, Ideal.maximumf_def, Host.sqrt, Ideal.hostUnary_sqrt_def]
  rw [column_ix2, broadcastInDim_scalar_apply, hostReduceAdd_apply, reduceAdd_lanes_ix1 _ _ _ (by decide)]
  simp only [mulf, Ideal.mulf_def, constant, Ideal.ofBits_def, Cert.Consts.ofBits_zero, zero_add]
  rfl

theorem hN_sub : Ideal.ofBits .f32 0x47C35000#32 - FloatOps.sitofp (F := Ideal) .f32 (0#32 : BitVec 32) = nRows := by
  rw [Cert.Consts.ofBits_100000]
  show ((100000 : ℝ) : EReal) - (((0#32 : BitVec 32).toInt : ℝ) : EReal) = _
  simp

theorem hN_pos : FloatOps.cmpf (F := Ideal) .ogt nRows (Ideal.ofBits .f32 0x00000000#32) = 1#1 := by
  rw [Cert.Consts.ofBits_zero]
  show BitVec.ofBool (decide ((0 : EReal) < ((100000 : ℝ) : EReal))) = 1#1
  rw [decide_eq_true (by exact_mod_cast (by norm_num : (0 : ℝ) < 100000))]
  rfl

/-- The divisor of the variance routine: the row count minus a zero offset. -/
theorem nScalar : (subf (constant S_ .f32 0x47C35000#32) (sitofp .f32 (constantI S_ 32 0#32)) : FVec Ideal S_ .f32) = fun _ => nRows :=
  funext fun _ => hN_sub

/-- The routine's check that its divisor is positive succeeds. -/
theorem nCond : (cmpf (F := Ideal) (φ := .f32) .ogt (fun _ => nRows) (constant S_ .f32 0x00000000#32) : IVec S_ 1) = fun _ => 1#1 :=
  funext fun _ => hN_pos

theorem colMean256_ix1 (p : FVec Ideal S100000x256 .f32) (j : Fin 256) :
    Host.divf (Host.reduceAdd p (constant (F := Ideal) S_ .f32 0x00000000#32) reducesTo_S100000x256_S256_d0 h_S_)
      (broadcastInDim S256 ![] bcast_S_S256 (constant S_ .f32 0x47C35000#32)) (ix1 j) = colMean nRows (M p) j := by
  have hr0 : S100000x256.Reduces [0] S256 := by decide
  rw [hostDivf_apply, broadcastInDim_scalar_apply, hostReduceAdd_apply, reduceAdd_rows_ix1 _ _ _ hr0]
  simp only [constant, Ideal.ofBits_def, Cert.Consts.ofBits_zero, zero_add, Cert.Consts.ofBits_100000]
  rfl

theorem var256_ix1 (p : FVec Ideal S100000x256 .f32) (j : Fin 256) :
    var256 (F := Ideal) p (ix1 j) = varDev nRows (M p) j := by
  have hr0 : S100000x256.Reduces [0] S256 := by decide
  unfold var256
  simp only [nScalar, nCond, select, Scalar.select]
  rw [broadcastInDim_scalar_apply, if_pos (by decide : (1#1 : BitVec 1) = 1), hostDivf_apply, broadcastInDim_scalar_apply, hostReduceAdd_apply,
    reduceAdd_rows_ix1 _ _ _ hr0]
  simp only [constant, Ideal.ofBits_def, Cert.Consts.ofBits_zero, Cert.Consts.ofBits_100000, zero_add, mulf, Ideal.mulf_def, subf, Ideal.subf_def]
  unfold varDev
  refine congrArg (Ideal.div · nRows) (Finset.sum_congr rfl fun i _ => ?_)
  rw [spread_row_ix2, hostDivf_apply, row_ix2, broadcastInDim_scalar_apply, hostReduceAdd_apply, reduceAdd_rows_ix1 _ _ _ hr0]
  simp only [constant, Ideal.ofBits_def, Cert.Consts.ofBits_zero, Cert.Consts.ofBits_100000, zero_add]
  rfl

theorem bn256_ix2 (p : FVec Ideal S100000x256 .f32) (g b : FVec Ideal S256 .f32) (i : Fin 100000) (j : Fin 256) :
    bn256 (F := Ideal) p g b (ix2 i j)
      = standardise (Ideal.ofBits .f32 0x3727C5AC#32) (M p) (colMean nRows (M p)) (varDev nRows (M p)) (Vv g) (Vv b) i j := by
  unfold bn256
  simp only [addf, mulf, subf, Ideal.addf_def, Ideal.mulf_def, Ideal.subf_def]
  rw [spread_cols_ix2, spread_cols_ix2, spread_cols_ix2, spread_cols_ix2, colMean256_ix1]
  simp only [Host.rsqrt, Ideal.hostUnary_rsqrt_def, addf, Ideal.addf_def]
  rw [broadcastInDim_scalar_apply, var256_ix1]
  simp only [constant, Ideal.ofBits_def]
  rfl

theorem relu256_ix2 (y : FVec Ideal S100000x256 .f32) (i : Fin 100000) (j : Fin 256) :
    relu256 (F := Ideal) y (ix2 i j) = reluPart (M y) i j := by
  unfold relu256
  simp only [maximumf, Ideal.maximumf_def]
  rw [broadcastInDim_scalar_apply]
  simp only [constant, Ideal.ofBits_def, Cert.Consts.ofBits_zero]
  rfl

theorem layer256_ix2 (h : FVec Ideal S100000x256 .f32) (ei : IVec S2x800000 32) (wl : FVec Ideal S256x256 .f32) (bl : FVec Ideal S256 .f32)
    (wr : FVec Ideal S256x256 .f32) (g b : FVec Ideal S256 .f32) (i : Fin 100000) (j : Fin 256) :
    layer256 (F := Ideal) h ei wl bl wr g b (ix2 i j)
      = reluPart (layerDev (Ideal.ofBits .f32 0x3727C5AC#32) (Ideal.ofBits .f32 0x2B8CBCCC#32) nRows
          (M (agg256 (F := Ideal) h ei)) (M h) (M wl) (M wr) (Vv bl) (Vv g) (Vv b)) i j := by
  unfold layer256
  rw [relu256_ix2]
  have e1 : M (unit256 (F := Ideal) (lin256 (F := Ideal) (agg256 (F := Ideal) h ei) h wl bl wr))
      = unitRows (Ideal.ofBits .f32 0x2B8CBCCC#32) (linMid (M (agg256 (F := Ideal) h ei)) (M h) (M wl) (M wr) (Vv bl)) := by
    funext i j
    rw [show M (unit256 (F := Ideal) (lin256 (F := Ideal) (agg256 (F := Ideal) h ei) h wl bl wr)) i j = _ from unit256_ix2 _ i j]
    have e2 : M (lin256 (F := Ideal) (agg256 (F := Ideal) h ei) h wl bl wr)
        = linMid (M (agg256 (F := Ideal) h ei)) (M h) (M wl) (M wr) (Vv bl) := by
      funext i j
      exact lin256_ix2 _ _ _ _ _ i j
    rw [e2]
  have e3 : M (bn256 (F := Ideal) (unit256 (F := Ideal) (lin256 (F := Ideal) (agg256 (F := Ideal) h ei) h wl bl wr)) g b)
      = layerDev (Ideal.ofBits .f32 0x3727C5AC#32) (Ideal.ofBits .f32 0x2B8CBCCC#32) nRows
          (M (agg256 (F := Ideal) h ei)) (M h) (M wl) (M wr) (Vv bl) (Vv g) (Vv b) := by
    funext i j
    rw [show M (bn256 (F := Ideal) _ g b) i j = _ from bn256_ix2 _ g b i j, e1]
    rfl
  rw [e3]

end Read

end Cert.ReferenceIdeal.RefSpec

end
-- ==== Proof.RefRead0.lean ====
/- The first layer (12 input features, 256 output features) of the reference network read at a row and a column:
   the same sums and quotients as a middle layer, over 12 terms in the two products. -/
import proofs.«169498_j72670846649171_2_alg».proof.Proof.RefRead

noncomputable section

namespace Cert.ReferenceIdeal.RefSpec

open Idealize.ShloMosaic Cert.ReferenceIdeal
open Facts₀ Facts

section Read0
open Idealize.ShloMosaic.ValueIdx Cert.LibHostRead Cert.LibStats Cert.LibLayer
variable [Facts]

/-- The first layer's linear map at a row and a column: two sums over the 12 input features and the bias. -/
theorem lin0_ix2 (a h : FVec Ideal S100000x12 .f32) (wl : FVec Ideal S12x256 .f32) (bl : FVec Ideal S256 .f32) (wr : FVec Ideal S12x256 .f32)
    (i : Fin 100000) (j : Fin 256) :
    lin0 (F := Ideal) a h wl bl wr (ix2 i j) = linMid (M a) (M h) (M wl) (M wr) (Vv bl) i j := by
  unfold lin0
  simp only [addf, Ideal.addf_def]
  rw [dotGeneral_ix2 _ rfl rfl rfl rfl rfl rfl, dotGeneral_ix2 _ rfl rfl rfl rfl rfl rfl, spread_cols_ix2]
  rfl

/-- The first layer at a row and a column: the positive part of the standardised, row-normalised linear map. -/
theorem layer0_ix2 (h : FVec Ideal S100000x12 .f32) (ei : IVec S2x800000 32) (wl : FVec Ideal S12x256 .f32) (bl : FVec Ideal S256 .f32)
    (wr : FVec Ideal S12x256 .f32) (g b : FVec Ideal S256 .f32) (i : Fin 100000) (j : Fin 256) :
    layer0 (F := Ideal) h ei wl bl wr g b (ix2 i j)
      = reluPart (layerDev (Ideal.ofBits .f32 0x3727C5AC#32) (Ideal.ofBits .f32 0x2B8CBCCC#32) nRows
          (M (agg12 (F := Ideal) h ei)) (M h) (M wl) (M wr) (Vv bl) (Vv g) (Vv b)) i j := by
  unfold layer0
  rw [relu256_ix2]
  have e1 : M (unit256 (F := Ideal) (lin0 (F := Ideal) (agg12 (F := Ideal) h ei) h wl bl wr))
      = unitRows (Ideal.ofBits .f32 0x2B8CBCCC#32) (linMid (M (agg12 (F := Ideal) h ei)) (M h) (M wl) (M wr) (Vv bl)) := by
    funext i j
    rw [show M (unit256 (F := Ideal) (lin0 (F := Ideal) (agg12 (F := Ideal) h ei) h wl bl wr)) i j = _ from unit256_ix2 _ i j]
    have e2 : M (lin0 (F := Ideal) (agg12 (F := Ideal) h ei) h wl bl wr)
        = linMid (M (agg12 (F := Ideal) h ei)) (M h) (M wl) (M wr) (Vv bl) := by
      funext i j
      exact lin0_ix2 _ _ _ _ _ i j
    rw [e2]
  have e3 : M (bn256 (F := Ideal) (unit256 (F := Ideal) (lin0 (F := Ideal) (agg12 (F := Ideal) h ei) h wl bl wr)) g b)
      = layerDev (Ideal.ofBits .f32 0x3727C5AC#32) (Ideal.ofBits .f32 0x2B8CBCCC#32) nRows
          (M (agg12 (F := Ideal) h ei)) (M h) (M wl) (M wr) (Vv bl) (Vv g) (Vv b) := by
    funext i j
    rw [show M (bn256 (F := Ideal) _ g b) i j = _ from bn256_ix2 _ g b i j, e1]
    rfl
  rw [e3]

end Read0

end Cert.ReferenceIdeal.RefSpec

end
-- ==== Proof.Bridge0.lean ====
/-
  The first layer of the kernel program (12 input features) is the reference's first layer, as whole arrays, whenever
  the features and the parameters are finite; and the layer's output is then finite.  Entry by entry both sides are the
  layer function of LibLayer over 12-term products — the kernel's with the bias last and the variance as the clamped
  mean of squares less the squared mean, out of per-block sums; the reference's with the bias in the middle and the
  variance as the mean of squared deviations — of the same neighbourhood means, features and parameters, and on finite
  inputs the two arrangements agree.
-/
import proofs.«169498_j72670846649171_2_alg».proof.Proof.KNet
import proofs.«169498_j72670846649171_2_alg».proof.Proof.KLayer
import proofs.«169498_j72670846649171_2_alg».proof.Proof.KHostRead
import proofs.«169498_j72670846649171_2_alg».proof.Proof.KAggEq
import proofs.«169498_j72670846649171_2_alg».proof.Proof.RefRead0

noncomputable section

namespace Cert.Bridge

open Idealize.ShloMosaic Idealize.ShloMosaic.ValueIdx Cert.LibStats Cert.LibLayer
open Cert.KernelIdeal.KHost Cert.KernelIdeal.KNet

/-- The number of rows, as a real. -/
theorem card_rows0 : (Fintype.card (Fin 100000) : ℝ) = 100000 := by simp

/-- The guard under the reciprocal square root is a positive real. -/
theorem epsBn_pos0 : IsPos epsBn := Cert.Consts.ofBits_epsBn
/-- The guard under the norm is a positive real. -/
theorem epsNorm_pos0 : IsPos epsNorm := Cert.Consts.ofBits_epsNorm

/-- A vector reshaped to one row, read along the row, is the vector. -/
theorem rw_row256_0 (v : Arr Cert.KernelIdeal.S256) : Rw (kRow256 (F := Ideal) v) = Vv v :=
  funext fun j => kRow256_ix v 0 j

section
variable (x : Arr Cert.KernelIdeal.S100000x12) (e : IVec Cert.KernelIdeal.S2x800000 32)
  (wl wr : Arr Cert.KernelIdeal.S12x256) (bl g b : Arr Cert.KernelIdeal.S256)
  (hx : ∀ i, IsFin (x i)) (hwl : ∀ i, IsFin (wl i)) (hwr : ∀ i, IsFin (wr i))
  (hbl : ∀ i, IsFin (bl i)) (hg : ∀ i, IsFin (g i)) (hb : ∀ i, IsFin (b i))

include hx hwl hwr hbl in
/-- The kernel's first layer is the reference's. -/
theorem layer0_eq :
    kLayer0 x e wl bl wr g b = Cert.ReferenceIdeal.RefSpec.layer0 (F := Ideal) x e wl bl wr g b := by
  funext i
  obtain ⟨p, q, rfl⟩ : ∃ (p : Fin 100000) (q : Fin 256), i = ix2 p q := ⟨i 0, i 1, eq_ix2 i⟩
  unfold kLayer0
  rw [kBnRelu_ix2 _ _ _ _ _ _ _ _ _ (fun j => kMean256_ix _ 0 j) (fun j => kVar256_ix _ _ 0 j) p q,
    Cert.ReferenceIdeal.RefSpec.layer0_ix2, rw_row256_0, rw_row256_0, rw_row256_0]
  have hA : kA12 x e = Cert.ReferenceIdeal.RefSpec.agg12 (F := Ideal) x e := kAgg12_eq x e
  rw [hA]
  exact congrFun (congrFun (congrArg reluPart
    (layerSq_eq_layerDev epsNorm_pos0 100000 card_rows0 (by norm_num)
      (fun i k => agg12_fin hx e (ix2 i k)) (fun i k => hx (ix2 i k)) (fun k j => hwl (ix2 k j)) (fun k j => hwr (ix2 k j))
      (fun j => hbl (ix1 j)))) p) q

include hx hwl hwr hbl hg hb in
/-- The first layer's output is finite. -/
theorem layer0_fin (i : Cert.KernelIdeal.S100000x256.Idx) :
    IsFin (Cert.ReferenceIdeal.RefSpec.layer0 (F := Ideal) x e wl bl wr g b i) := by
  obtain ⟨p, q, rfl⟩ : ∃ (p : Fin 100000) (q : Fin 256), i = ix2 p q := ⟨i 0, i 1, eq_ix2 i⟩
  rw [Cert.ReferenceIdeal.RefSpec.layer0_ix2]
  exact reluPart_fin (layerDev_fin epsBn_pos0 epsNorm_pos0 100000 (by norm_num)
    (fun i k => agg12_fin hx e (ix2 i k)) (fun i k => hx (ix2 i k)) (fun k j => hwl (ix2 k j)) (fun k j => hwr (ix2 k j))
    (fun j => hbl (ix1 j)) (fun j => hg (ix1 j)) (fun j => hb (ix1 j))) p q
end

end Cert.Bridge

end
-- ==== Proof.Bridge256.lean ====
/-
  A middle layer of the kernel program is the reference's middle layer, as whole arrays, whenever the features and
  the parameters are finite; and the layer's output is then finite again.  Entry by entry both sides are the layer
  function of LibLayer — the kernel's in the "bias last, mean of squares minus squared mean" arrangement over its
  per-block sums, the reference's in the "bias in the middle, mean of squared deviations" arrangement — of the same
  neighbourhood means, features and parameters, and on finite inputs the two arrangements agree.
-/
import proofs.«169498_j72670846649171_2_alg».proof.Proof.KNet
import proofs.«169498_j72670846649171_2_alg».proof.Proof.KLayer
import proofs.«169498_j72670846649171_2_alg».proof.Proof.KHostRead
import proofs.«169498_j72670846649171_2_alg».proof.Proof.KAggEq
import proofs.«169498_j72670846649171_2_alg».proof.Proof.RefRead

noncomputable section

namespace Cert.Bridge

open Idealize.ShloMosaic Idealize.ShloMosaic.ValueIdx Cert.LibStats Cert.LibLayer
open Cert.KernelIdeal.KHost Cert.KernelIdeal.KNet

/-- The number of rows, as a real. -/
theorem card_rows : (Fintype.card (Fin 100000) : ℝ) = 100000 := by simp

theorem epsBn_pos : IsPos epsBn := Cert.Consts.ofBits_epsBn
theorem epsNorm_pos : IsPos epsNorm := Cert.Consts.ofBits_epsNorm

/-- A vector reshaped to one row, read along the row, is the vector. -/
theorem rw_row256 (v : Arr Cert.KernelIdeal.S256) : Rw (kRow256 (F := Ideal) v) = Vv v :=
  funext fun j => kRow256_ix v 0 j

section
variable (h : Arr Cert.KernelIdeal.S100000x256) (e : IVec Cert.KernelIdeal.S2x800000 32)
  (wl wr : Arr Cert.KernelIdeal.S256x256) (bl g b : Arr Cert.KernelIdeal.S256)
  (hh : ∀ i, IsFin (h i)) (hwl : ∀ i, IsFin (wl i)) (hwr : ∀ i, IsFin (wr i))
  (hbl : ∀ i, IsFin (bl i)) (hg : ∀ i, IsFin (g i)) (hb : ∀ i, IsFin (b i))

include hh hwl hwr hbl in
/-- The kernel's middle layer is the reference's. -/
theorem layer256_eq :
    kLayer256 h e wl bl wr g b = Cert.ReferenceIdeal.RefSpec.layer256 (F := Ideal) h e wl bl wr g b := by
  funext i
  obtain ⟨p, q, rfl⟩ : ∃ (p : Fin 100000) (q : Fin 256), i = ix2 p q := ⟨i 0, i 1, eq_ix2 i⟩
  unfold kLayer256
  rw [kBnRelu_ix2 _ _ _ _ _ _ _ _ _ (fun j => kMean256_ix _ 0 j) (fun j => kVar256_ix _ _ 0 j) p q,
    Cert.ReferenceIdeal.RefSpec.layer256_ix2, rw_row256, rw_row256, rw_row256]
  have hA : kA256 h e = Cert.ReferenceIdeal.RefSpec.agg256 (F := Ideal) h e := kAgg256_eq h e
  rw [hA]
  exact congrFun (congrFun (congrArg reluPart
    (layerSq_eq_layerDev epsNorm_pos 100000 card_rows (by norm_num)
      (fun i k => agg256_fin hh e (ix2 i k)) (fun i k => hh (ix2 i k)) (fun k j => hwl (ix2 k j)) (fun k j => hwr (ix2 k j))
      (fun j => hbl (ix1 j)))) p) q

include hh hwl hwr hbl hg hb in
/-- A middle layer's output is finite. -/
theorem layer256_fin (i : Cert.KernelIdeal.S100000x256.Idx) :
    IsFin (Cert.ReferenceIdeal.RefSpec.layer256 (F := Ideal) h e wl bl wr g b i) := by
  obtain ⟨p, q, rfl⟩ : ∃ (p : Fin 100000) (q : Fin 256), i = ix2 p q := ⟨i 0, i 1, eq_ix2 i⟩
  rw [Cert.ReferenceIdeal.RefSpec.layer256_ix2]
  exact reluPart_fin (layerDev_fin epsBn_pos epsNorm_pos 100000 (by norm_num)
    (fun i k => agg256_fin hh e (ix2 i k)) (fun i k => hh (ix2 i k)) (fun k j => hwl (ix2 k j)) (fun k j => hwr (ix2 k j))
    (fun j => hbl (ix1 j)) (fun j => hg (ix1 j)) (fun j => hb (ix1 j))) p q
end

end Cert.Bridge

end
-- ==== Proof.RefRead4.lean ====
/- The last layer (256 input features, 128 output features) of the reference network read at a row and a column:
   the linear map, the row normalisation, the column mean and variance, the standardisation; no positive part. -/
import proofs.«169498_j72670846649171_2_alg».proof.Proof.RefRead

noncomputable section

namespace Cert.ReferenceIdeal.RefSpec

open Idealize.ShloMosaic Cert.ReferenceIdeal
open Facts₀ Facts

section Read4
open Idealize.ShloMosaic.ValueIdx Cert.LibHostRead Cert.LibStats Cert.LibLayer
variable [Facts]

/-- The last layer's linear map at a row and a column. -/
theorem lin4_ix2 (a h : FVec Ideal S100000x256 .f32) (wl : FVec Ideal S256x128 .f32) (bl : FVec Ideal S128 .f32) (wr : FVec Ideal S256x128 .f32)
    (i : Fin 100000) (j : Fin 128) :
    lin4 (F := Ideal) a h wl bl wr (ix2 i j) = linMid (M a) (M h) (M wl) (M wr) (Vv bl) i j := by
  unfold lin4
  simp only [addf, Ideal.addf_def]
  rw [dotGeneral_ix2 _ rfl rfl rfl rfl rfl rfl, dotGeneral_ix2 _ rfl rfl rfl rfl rfl rfl, spread_cols_ix2]
  rfl

theorem unit128_ix2 (o : FVec Ideal S100000x128 .f32) (i : Fin 100000) (j : Fin 128) :
    unit128 (F := Ideal) o (ix2 i j) = unitRows (Ideal.ofBits .f32 0x2B8CBCCC#32) (M o) i j := by
  unfold unit128
  simp only [Host.divf, Ideal.hostDivf_def]
  rw [spread_col_ix2]
  simp only [maximumf, Ideal.maximumf_def, Host.sqrt, Ideal.hostUnary_sqrt_def]
  rw [column_ix2, broadcastInDim_scalar_apply, hostReduceAdd_apply, reduceAdd_lanes_ix1 _ _ _ (by decide)]
  simp only [mulf, Ideal.mulf_def, constant, Ideal.ofBits_def, Cert.Consts.ofBits_zero, zero_add]
  rfl

theorem colMean128_ix1 (p : FVec Ideal S100000x128 .f32) (j : Fin 128) :
    Host.divf (Host.reduceAdd p (constant (F := Ideal) S_ .f32 0x00000000#32) reducesTo_S100000x128_S128_d0 h_S_)
      (broadcastInDim S128 ![] bcast_S_S128 (constant S_ .f32 0x47C35000#32)) (ix1 j) = colMean nRows (M p) j := by
  have hr0 : S100000x128.Reduces [0] S128 := by decide
  rw [hostDivf_apply, broadcastInDim_scalar_apply, hostReduceAdd_apply, reduceAdd_rows_ix1 _ _ _ hr0]
  simp only [constant, Ideal.ofBits_def, Cert.Consts.ofBits_zero, zero_add, Cert.Consts.ofBits_100000]
  rfl

theorem var128_ix1 (p : FVec Ideal S100000x128 .f32) (j : Fin 128) :
    var128 (F := Ideal) p (ix1 j) = varDev nRows (M p) j := by
  have hr0 : S100000x128.Reduces [0] S128 := by decide
  unfold var128
  simp only [nScalar, nCond, select, Scalar.select]
  rw [broadcastInDim_scalar_apply, if_pos (by decide : (1#1 : BitVec 1) = 1), hostDivf_apply, broadcastInDim_scalar_apply, hostReduceAdd_apply,
    reduceAdd_rows_ix1 _ _ _ hr0]
  simp only [constant, Ideal.ofBits_def, Cert.Consts.ofBits_zero, Cert.Consts.ofBits_100000, zero_add, mulf, Ideal.mulf_def, subf, Ideal.subf_def]
  unfold varDev
  refine congrArg (Ideal.div · nRows) (Finset.sum_congr rfl fun i _ => ?_)
  rw [spread_row_ix2, hostDivf_apply, row_ix2, broadcastInDim_scalar_apply, hostReduceAdd_apply, reduceAdd_rows_ix1 _ _ _ hr0]
  simp only [constant, Ideal.ofBits_def, Cert.Consts.ofBits_zero, Cert.Consts.ofBits_100000, zero_add]
  rfl

theorem bn128_ix2 (p : FVec Ideal S100000x128 .f32) (g b : FVec Ideal S128 .f32) (i : Fin 100000) (j : Fin 128) :
    bn128 (F := Ideal) p g b (ix2 i j)
      = standardise (Ideal.ofBits .f32 0x3727C5AC#32) (M p) (colMean nRows (M p)) (varDev nRows (M p)) (Vv g) (Vv b) i j := by
  unfold bn128
  simp only [addf, mulf, subf, Ideal.addf_def, Ideal.mulf_def, Ideal.subf_def]
  rw [spread_cols_ix2, spread_cols_ix2, spread_cols_ix2, spread_cols_ix2, colMean128_ix1]
  simp only [Host.rsqrt, Ideal.hostUnary_rsqrt_def, addf, Ideal.addf_def]
  rw [broadcastInDim_scalar_apply, var128_ix1]
  simp only [constant, Ideal.ofBits_def]
  rfl

/-- The last layer at a row and a column: the standardised, row-normalised linear map, no positive part taken. -/
theorem layer4_ix2 (h : FVec Ideal S100000x256 .f32) (ei : IVec S2x800000 32) (wl : FVec Ideal S256x128 .f32) (bl : FVec Ideal S128 .f32)
    (wr : FVec Ideal S256x128 .f32) (g b : FVec Ideal S128 .f32) (i : Fin 100000) (j : Fin 128) :
    layer4 (F := Ideal) h ei wl bl wr g b (ix2 i j)
      = layerDev (Ideal.ofBits .f32 0x3727C5AC#32) (Ideal.ofBits .f32 0x2B8CBCCC#32) nRows
          (M (agg256 (F := Ideal) h ei)) (M h) (M wl) (M wr) (Vv bl) (Vv g) (Vv b) i j := by
  unfold layer4
  have e1 : M (unit128 (F := Ideal) (lin4 (F := Ideal) (agg256 (F := Ideal) h ei) h wl bl wr))
      = unitRows (Ideal.ofBits .f32 0x2B8CBCCC#32) (linMid (M (agg256 (F := Ideal) h ei)) (M h) (M wl) (M wr) (Vv bl)) := by
    funext i j
    rw [show M (unit128 (F := Ideal) (lin4 (F := Ideal) (agg256 (F := Ideal) h ei) h wl bl wr)) i j = _ from unit128_ix2 _ i j]
    have e2 : M (lin4 (F := Ideal) (agg256 (F := Ideal) h ei) h wl bl wr)
        = linMid (M (agg256 (F := Ideal) h ei)) (M h) (M wl) (M wr) (Vv bl) := by
      funext i j
      exact lin4_ix2 _ _ _ _ _ i j
    rw [e2]
  have e3 : M (bn128 (F := Ideal) (unit128 (F := Ideal) (lin4 (F := Ideal) (agg256 (F := Ideal) h ei) h wl bl wr)) g b)
      = layerDev (Ideal.ofBits .f32 0x3727C5AC#32) (Ideal.ofBits .f32 0x2B8CBCCC#32) nRows
          (M (agg256 (F := Ideal) h ei)) (M h) (M wl) (M wr) (Vv bl) (Vv g) (Vv b) := by
    funext i j
    rw [show M (bn128 (F := Ideal) _ g b) i j = _ from bn128_ix2 _ g b i j, e1]
    rfl
  exact congrFun (congrFun e3 i) j

end Read4

end Cert.ReferenceIdeal.RefSpec

end
-- ==== Proof.RefReadHead.lean ====
/- The head of the reference network read at a row: a hidden layer of 64 units with positive part, one output unit,
   and the [100000, 1] result read as a vector of 100000 entries. -/
import proofs.«169498_j72670846649171_2_alg».proof.Proof.RefRead

noncomputable section

namespace Cert.ReferenceIdeal.RefSpec

open Idealize.ShloMosaic Cert.ReferenceIdeal
open Facts₀ Facts

section ReadHead
open Idealize.ShloMosaic.ValueIdx Cert.LibHostRead Cert.LibStats Cert.LibLayer
variable [Facts]

/-- The head at a row: the 64 hidden units' positive parts, weighted and summed, plus the output bias; the single
    output column is read as a vector. -/
theorem head_ix1 (h : FVec Ideal S100000x128 .f32) (cw1 : FVec Ideal S128x64 .f32) (cb1 : FVec Ideal S64 .f32)
    (cw2 : FVec Ideal S64x1 .f32) (cb2 : FVec Ideal S1 .f32) (i : Fin 100000) :
    head (F := Ideal) h cw1 cb1 cw2 cb2 (ix1 i)
      = (∑ n : Fin 64, max ((∑ k : Fin 128, h (ix2 i k) * cw1 (ix2 k n)) + cb1 (ix1 n)) 0 * cw2 (ix2 n (0 : Fin 1)))
          + cb2 (ix1 (0 : Fin 1)) := by
  unfold head
  rw [shapeCast_apply _ _ (ix1 i) (ix2 i (0 : Fin 1)) (by
    rw [Shape.rowMajor_val_two, Shape.rowMajor_val_one]; show i.val * 1 + 0 = i.val; omega)]
  simp only [addf, Ideal.addf_def]
  rw [dotGeneral_ix2 _ rfl rfl rfl rfl rfl rfl, spread_cols_ix2]
  refine congrArg (· + cb2 (ix1 (0 : Fin 1))) (Finset.sum_congr rfl fun n _ => ?_)
  simp only [maximumf, Ideal.maximumf_def, addf, Ideal.addf_def]
  rw [dotGeneral_ix2 _ rfl rfl rfl rfl rfl rfl, spread_cols_ix2, broadcastInDim_scalar_apply]
  simp only [constant, Ideal.ofBits_def, Cert.Consts.ofBits_zero]

end ReadHead

end Cert.ReferenceIdeal.RefSpec

end
-- ==== Proof.Bridge4.lean ====
/-
  The last layer of the kernel program fused with the two-layer head, its single output column read as a vector, is
  the reference's head applied to the reference's last layer, whenever the features and the last layer's parameters are
  finite.  At a row both sides are the same two nested sums — 128 standardised entries against the first weight
  matrix, a bias, the positive part, 64 of those against the second weight column, a bias.  The standardised entries
  are the layer function of LibLayer in the kernel's arrangement (bias last, variance as the clamped mean of squares
  less the squared mean, out of per-block sums) on one side and in the reference's arrangement (bias in the middle,
  variance as the mean of squared deviations) on the other, and on finite inputs the two arrangements agree.
-/
import proofs.«169498_j72670846649171_2_alg».proof.Proof.KNet
import proofs.«169498_j72670846649171_2_alg».proof.Proof.KLayer
import proofs.«169498_j72670846649171_2_alg».proof.Proof.KHostRead
import proofs.«169498_j72670846649171_2_alg».proof.Proof.KAggEq
import proofs.«169498_j72670846649171_2_alg».proof.Proof.RefRead4
import proofs.«169498_j72670846649171_2_alg».proof.Proof.RefReadHead

noncomputable section

namespace Cert.Bridge

open Idealize.ShloMosaic Idealize.ShloMosaic.ValueIdx Cert.LibStats Cert.LibLayer
open Cert.KernelIdeal.KHost Cert.KernelIdeal.KNet Cert.KernelIdeal.KHead
open scoped BigOperators

/-- The number of rows, as a real. -/
theorem card_rows4 : (Fintype.card (Fin 100000) : ℝ) = 100000 := by simp

/-- The guard under the norm is a positive real. -/
theorem epsNorm_pos4 : IsPos epsNorm := Cert.Consts.ofBits_epsNorm

/-- A vector of 128 entries reshaped to one row, read along the row, is the vector. -/
theorem rw_row128 (v : Arr Cert.KernelIdeal.S128) : Rw (kRow128 (F := Ideal) v) = Vv v :=
  funext fun j => kRow128_ix v 0 j

section
variable (h : Arr Cert.KernelIdeal.S100000x256) (e : IVec Cert.KernelIdeal.S2x800000 32)
  (wl wr : Arr Cert.KernelIdeal.S256x128) (bl g b : Arr Cert.KernelIdeal.S128)
  (cw1 : Arr Cert.KernelIdeal.S128x64) (cb1 : Arr Cert.KernelIdeal.S64) (cw2 : Arr Cert.KernelIdeal.S64x1) (cb2 : Arr Cert.KernelIdeal.S1)
  (hh : ∀ i, IsFin (h i)) (hwl : ∀ i, IsFin (wl i)) (hwr : ∀ i, IsFin (wr i)) (hbl : ∀ i, IsFin (bl i))

include hh hwl hwr hbl in
/-- A standardised entry of the kernel's last layer is the reference's last layer at that entry. -/
theorem last_entry (p : Fin 100000) (k : Fin 128) :
    bnAt (Cert.KernelIdeal.KSage.preArr (R := 100000) (kA256 h e) h wl wr (kRow128 (F := Ideal) bl))
        (kMean128 (F := Ideal) (Cert.KernelIdeal.KSage.sumArr (R := 100000) Cert.KernelIdeal.KSage.rowAt (kA256 h e) h wl wr (kRow128 (F := Ideal) bl)))
        (kVar128 (F := Ideal) (Cert.KernelIdeal.KSage.sumArr (R := 100000) Cert.KernelIdeal.KSage.rowAt (kA256 h e) h wl wr (kRow128 (F := Ideal) bl))
          (Cert.KernelIdeal.KSage.sqArr (R := 100000) Cert.KernelIdeal.KSage.rowAt (kA256 h e) h wl wr (kRow128 (F := Ideal) bl)))
        (kRow128 (F := Ideal) g) (kRow128 (F := Ideal) b) p k
      = Cert.ReferenceIdeal.RefSpec.layer4 (F := Ideal) h e wl bl wr g b (ix2 p k) := by
  rw [kBnAt _ _ _ _ _ _ _ _ _ (fun j => kMean128_ix _ 0 j) (fun j => kVar128_ix _ _ 0 j) p k,
    Cert.ReferenceIdeal.RefSpec.layer4_ix2, rw_row128, rw_row128, rw_row128]
  have hA : kA256 h e = Cert.ReferenceIdeal.RefSpec.agg256 (F := Ideal) h e := kAgg256_eq h e
  rw [hA]
  exact congrFun (congrFun
    (layerSq_eq_layerDev epsNorm_pos4 100000 card_rows4 (by norm_num)
      (fun i k => agg256_fin hh e (ix2 i k)) (fun i k => hh (ix2 i k)) (fun k j => hwl (ix2 k j)) (fun k j => hwr (ix2 k j))
      (fun j => hbl (ix1 j))) p) k

include hh hwl hwr hbl in
/-- The kernel's fused last layer and head is the reference's head of its last layer. -/
theorem tail_eq :
    kTail h e wl bl wr g b cw1 cb1 cw2 cb2
      = Cert.ReferenceIdeal.RefSpec.head (F := Ideal) (Cert.ReferenceIdeal.RefSpec.layer4 (F := Ideal) h e wl bl wr g b) cw1 cb1 cw2 cb2 := by
  funext i
  obtain ⟨p, rfl⟩ : ∃ p : Fin 100000, i = ix1 p := ⟨i 0, eq_ix1 i⟩
  unfold kTail
  rw [kOut_ix _ p (0 : Fin 1), bnHead_ix2, Cert.ReferenceIdeal.RefSpec.head_ix1]
  unfold headRow
  rw [kRow1_ix, Cert.Consts.ofBits_zero]
  refine congrArg (· + cb2 (ix1 (0 : Fin 1))) (Finset.sum_congr rfl fun n _ => ?_)
  rw [kRow64_ix]
  refine congrArg (fun z => max (z + cb1 (ix1 n)) 0 * cw2 (ix2 n (0 : Fin 1))) (Finset.sum_congr rfl fun k _ => ?_)
  rw [last_entry h e wl wr bl g b hh hwl hwr hbl p k]
end

end Cert.Bridge

end
-- ==== Proof.NetEq.lean ====
/-
  The kernel program's network is the reference's network, as whole arrays, whenever every float argument is finite:
  layer by layer the two agree and the layer's output is finite, which is what the next layer asks; the slices of the
  stacked middle-layer parameters are the same arrays on both sides and finite when the stack is.
-/
import proofs.«169498_j72670846649171_2_alg».proof.Proof.Bridge0
import proofs.«169498_j72670846649171_2_alg».proof.Proof.Bridge256
import proofs.«169498_j72670846649171_2_alg».proof.Proof.Bridge4

noncomputable section

namespace Cert.Bridge

open Idealize.ShloMosaic Idealize.ShloMosaic.ValueIdx Cert.LibStats
open Cert.KernelIdeal.KHost Cert.KernelIdeal.KNet

/-- A slice of a finite stack of matrices is finite. -/
theorem mat_fin (w : Arr Cert.KernelIdeal.S3x256x256) (hw : ∀ i, IsFin (w i)) :
    (∀ i, IsFin (kMat0 (F := Ideal) w i)) ∧ (∀ i, IsFin (kMat1 (F := Ideal) w i)) ∧ (∀ i, IsFin (kMat2 (F := Ideal) w i)) := by
  refine ⟨fun i => ?_, fun i => ?_, fun i => ?_⟩ <;>
    obtain ⟨p, q, rfl⟩ : ∃ (p : Fin 256) (q : Fin 256), i = ix2 p q := ⟨i 0, i 1, eq_ix2 i⟩
  · rw [kMat0_ix]; exact hw _
  · rw [kMat1_ix]; exact hw _
  · rw [kMat2_ix]; exact hw _

/-- A slice of a finite stack of vectors is finite. -/
theorem vec_fin (w : Arr Cert.KernelIdeal.S3x256) (hw : ∀ i, IsFin (w i)) :
    (∀ i, IsFin (kVec0 (F := Ideal) w i)) ∧ (∀ i, IsFin (kVec1 (F := Ideal) w i)) ∧ (∀ i, IsFin (kVec2 (F := Ideal) w i)) := by
  refine ⟨fun i => ?_, fun i => ?_, fun i => ?_⟩ <;>
    obtain ⟨q, rfl⟩ : ∃ q : Fin 256, i = ix1 q := ⟨i 0, eq_ix1 i⟩
  · rw [kVec0_ix]; exact hw _
  · rw [kVec1_ix]; exact hw _
  · rw [kVec2_ix]; exact hw _

/-- On finite arguments the two networks are one function. -/
theorem net_eq (x : Arr Cert.KernelIdeal.S100000x12) (e : IVec Cert.KernelIdeal.S2x800000 32)
    (wl0 : Arr Cert.KernelIdeal.S12x256) (bl0 : Arr Cert.KernelIdeal.S256) (wr0 : Arr Cert.KernelIdeal.S12x256) (g0 be0 : Arr Cert.KernelIdeal.S256)
    (wlm : Arr Cert.KernelIdeal.S3x256x256) (blm : Arr Cert.KernelIdeal.S3x256) (wrm : Arr Cert.KernelIdeal.S3x256x256) (gm bem : Arr Cert.KernelIdeal.S3x256)
    (wl4 : Arr Cert.KernelIdeal.S256x128) (bl4 : Arr Cert.KernelIdeal.S128) (wr4 : Arr Cert.KernelIdeal.S256x128) (g4 be4 : Arr Cert.KernelIdeal.S128)
    (cw1 : Arr Cert.KernelIdeal.S128x64) (cb1 : Arr Cert.KernelIdeal.S64) (cw2 : Arr Cert.KernelIdeal.S64x1) (cb2 : Arr Cert.KernelIdeal.S1)
    (hx : ∀ i, IsFin (x i)) (hwl0 : ∀ i, IsFin (wl0 i)) (hbl0 : ∀ i, IsFin (bl0 i)) (hwr0 : ∀ i, IsFin (wr0 i))
    (hg0 : ∀ i, IsFin (g0 i)) (hbe0 : ∀ i, IsFin (be0 i))
    (hwlm : ∀ i, IsFin (wlm i)) (hblm : ∀ i, IsFin (blm i)) (hwrm : ∀ i, IsFin (wrm i)) (hgm : ∀ i, IsFin (gm i)) (hbem : ∀ i, IsFin (bem i))
    (hwl4 : ∀ i, IsFin (wl4 i)) (hbl4 : ∀ i, IsFin (bl4 i)) (hwr4 : ∀ i, IsFin (wr4 i)) (hg4 : ∀ i, IsFin (g4 i)) (hbe4 : ∀ i, IsFin (be4 i)) :
    kNet x e wl0 bl0 wr0 g0 be0 wlm blm wrm gm bem wl4 bl4 wr4 g4 be4 cw1 cb1 cw2 cb2
      = Cert.ReferenceIdeal.RefSpec.net (F := Ideal) x e wl0 bl0 wr0 g0 be0 wlm blm wrm gm bem wl4 bl4 wr4 g4 be4 cw1 cb1 cw2 cb2 := by
  obtain ⟨hwl_0, hwl_1, hwl_2⟩ := mat_fin wlm hwlm
  obtain ⟨hwr_0, hwr_1, hwr_2⟩ := mat_fin wrm hwrm
  obtain ⟨hbl_0, hbl_1, hbl_2⟩ := vec_fin blm hblm
  obtain ⟨hg_0, hg_1, hg_2⟩ := vec_fin gm hgm
  obtain ⟨hb_0, hb_1, hb_2⟩ := vec_fin bem hbem
  unfold kNet Cert.ReferenceIdeal.RefSpec.net
  simp only []
  have e0 := layer0_eq x e wl0 wr0 bl0 g0 be0 hx hwl0 hwr0 hbl0
  have f0 := layer0_fin x e wl0 wr0 bl0 g0 be0 hx hwl0 hwr0 hbl0 hg0 hbe0
  rw [e0]
  have e1 := layer256_eq _ e _ _ _ (kVec0 (F := Ideal) gm) (kVec0 (F := Ideal) bem) f0 hwl_0 hwr_0 hbl_0
  have f1 := layer256_fin _ e _ _ _ _ _ f0 hwl_0 hwr_0 hbl_0 hg_0 hb_0
  rw [e1]
  have e2 := layer256_eq _ e _ _ _ (kVec1 (F := Ideal) gm) (kVec1 (F := Ideal) bem) f1 hwl_1 hwr_1 hbl_1
  have f2 := layer256_fin _ e _ _ _ _ _ f1 hwl_1 hwr_1 hbl_1 hg_1 hb_1
  rw [e2]
  have e3 := layer256_eq _ e _ _ _ (kVec2 (F := Ideal) gm) (kVec2 (F := Ideal) bem) f2 hwl_2 hwr_2 hbl_2
  have f3 := layer256_fin _ e _ _ _ _ _ f2 hwl_2 hwr_2 hbl_2 hg_2 hb_2
  rw [e3]
  exact tail_eq _ e wl4 wr4 bl4 g4 be4 cw1 cb1 cw2 cb2 f3 hwl4 hwr4 hbl4

end Cert.Bridge

end
-- ==== Proof.PreFin.lean ====
/- The precondition read back: the predicate compares the absolute value of every float argument with +∞ entry by
   entry, folds each comparison by "and", and conjoins the folds; when the result is 1 every entry of every float
   argument is a real number. -/
import proofs.«169498_j72670846649171_2_alg».proof.Defs
import proofs.«169498_j72670846649171_2_alg».proof.Proof.Gen.Pre_finite_inputs
import proofs.«169498_j72670846649171_2_alg».proof.Proof.LibStats
import Idealize.ShloMosaic.Lib.ReduceAll
import Idealize.ShloMosaic.Lib.ValueIdx
import Idealize.ShloMosaic.PureOps.Ideal

noncomputable section

namespace Cert.PreFin

open Idealize.ShloMosaic Cert.Pre_finite_inputs Cert.Pre_finite_inputs.Gen

/-- A rank-zero array has one index. -/
instance : Subsingleton Cert.Pre_finite_inputs.S_.Idx := ⟨fun a b => funext fun d => d.elim0⟩

/-- The f32 pattern the predicate compares against is +∞. -/
theorem ofBits_inf : Ideal.ofBits .f32 0x7F800000#32 = (⊤ : EReal) := by simp [Ideal.ofBits, Ideal.ieee]

/-- An extended real whose absolute value is below +∞ is a real number. -/
theorem isFin_of_abs_lt (x : EReal) (h : Ideal.cmp .olt (max x (-x)) ⊤ = 1#1) : Cert.LibStats.IsFin x := by
  induction x using EReal.rec with
  | bot => simp [Ideal.cmp] at h
  | top => simp [Ideal.cmp] at h
  | coe r => exact ⟨r, rfl⟩

/-- One test of the predicate: if the fold by "and" of the comparisons |x i| < +∞ is 1, every entry of x is real. -/
theorem test_fin {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
          (constantI S_ 1 1#1) hr hu j = 1#1) (i : s.Idx) : Cert.LibStats.IsFin (x i) := by
  have h := Host.reduce_andi_all _ _ hr hu j e i
  apply isFin_of_abs_lt
  rw [← ofBits_inf]
  exact h

set_option maxRecDepth 8192 in
/-- The predicate at the ideal values: if it is 1, every entry of every float argument is a real number. -/
theorem fn_fin (a0 : FVec Ideal S100000x12 .f32) (a1 : IVec S2x800000 32) (a2 : FVec Ideal S12x256 .f32) (a3 : FVec Ideal S256 .f32) (a4 : FVec Ideal S12x256 .f32) (a5 : FVec Ideal S256 .f32) (a6 : FVec Ideal S256 .f32) (a7 : FVec Ideal S3x256x256 .f32) (a8 : FVec Ideal S3x256 .f32) (a9 : FVec Ideal S3x256x256 .f32) (a10 : FVec Ideal S3x256 .f32) (a11 : FVec Ideal S3x256 .f32) (a12 : FVec Ideal S256x128 .f32) (a13 : FVec Ideal S128 .f32) (a14 : FVec Ideal S256x128 .f32) (a15 : FVec Ideal S128 .f32) (a16 : FVec Ideal S128 .f32) (a17 : FVec Ideal S128x64 .f32) (a18 : FVec Ideal S64 .f32) (a19 : FVec Ideal S64x1 .f32) (a20 : FVec Ideal S1 .f32)
    (h : Cert.Pre_finite_inputs.fn (F := Ideal) a0 a1 a2 a3 a4 a5 a6 a7 a8 a9 a10 a11 a12 a13 a14 a15 a16 a17 a18 a19 a20 = fun _ => 1#1) :
    (∀ i, Cert.LibStats.IsFin (a0 i)) ∧ (∀ i, Cert.LibStats.IsFin (a2 i)) ∧ (∀ i, Cert.LibStats.IsFin (a3 i)) ∧ (∀ i, Cert.LibStats.IsFin (a4 i)) ∧ (∀ i, Cert.LibStats.IsFin (a5 i)) ∧ (∀ i, Cert.LibStats.IsFin (a6 i)) ∧ (∀ i, Cert.LibStats.IsFin (a7 i)) ∧ (∀ i, Cert.LibStats.IsFin (a8 i)) ∧ (∀ i, Cert.LibStats.IsFin (a9 i)) ∧ (∀ i, Cert.LibStats.IsFin (a10 i)) ∧ (∀ i, Cert.LibStats.IsFin (a11 i)) ∧ (∀ i, Cert.LibStats.IsFin (a12 i)) ∧ (∀ i, Cert.LibStats.IsFin (a13 i)) ∧ (∀ i, Cert.LibStats.IsFin (a14 i)) ∧ (∀ i, Cert.LibStats.IsFin (a15 i)) ∧ (∀ i, Cert.LibStats.IsFin (a16 i)) ∧ (∀ i, Cert.LibStats.IsFin (a17 i)) ∧ (∀ i, Cert.LibStats.IsFin (a18 i)) ∧ (∀ i, Cert.LibStats.IsFin (a19 i)) ∧ (∀ i, Cert.LibStats.IsFin (a20 i)) := by
  have h0 := congrFun h ValueIdx.ix0
  dsimp only [fn, fn_part1, fn_part2, fn_part3, fn_part4, fn_part5] at h0
  simp only [andi, IntOp.andi_eq_one] at h0
  obtain ⟨⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩, h20⟩ := h0
  exact ⟨test_fin _ _ _ _ _ h0, test_fin _ _ _ _ _ h2, test_fin _ _ _ _ _ h3, test_fin _ _ _ _ _ h4, test_fin _ _ _ _ _ h5, test_fin _ _ _ _ _ h6, test_fin _ _ _ _ _ h7, test_fin _ _ _ _ _ h8, test_fin _ _ _ _ _ h9, test_fin _ _ _ _ _ h10, test_fin _ _ _ _ _ h11, test_fin _ _ _ _ _ h12, test_fin _ _ _ _ _ h13, test_fin _ _ _ _ _ h14, test_fin _ _ _ _ _ h15, test_fin _ _ _ _ _ h16, test_fin _ _ _ _ _ h17, test_fin _ _ _ _ _ h18, test_fin _ _ _ _ _ h19, test_fin _ _ _ _ _ h20⟩

/-- Under the kernel's precondition every entry of every float argument array, on every device, is a real number. -/
theorem pre_args (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, Cert.LibStats.IsFin (m ((c.tc : Thread Cert.KernelIdeal.nD Cert.KernelIdeal.τ).loc Cert.KernelIdeal.main_arg0) i))
    ∧ (∀ i, Cert.LibStats.IsFin (m ((c.tc : Thread Cert.KernelIdeal.nD Cert.KernelIdeal.τ).loc Cert.KernelIdeal.main_arg2) i))
    ∧ (∀ i, Cert.LibStats.IsFin (m ((c.tc : Thread Cert.KernelIdeal.nD Cert.KernelIdeal.τ).loc Cert.KernelIdeal.main_arg3) i))
    ∧ (∀ i, Cert.LibStats.IsFin (m ((c.tc : Thread Cert.KernelIdeal.nD Cert.KernelIdeal.τ).loc Cert.KernelIdeal.main_arg4) i))
    ∧ (∀ i, Cert.LibStats.IsFin (m ((c.tc : Thread Cert.KernelIdeal.nD Cert.KernelIdeal.τ).loc Cert.KernelIdeal.main_arg5) i))
    ∧ (∀ i, Cert.LibStats.IsFin (m ((c.tc : Thread Cert.KernelIdeal.nD Cert.KernelIdeal.τ).loc Cert.KernelIdeal.main_arg6) i))
    ∧ (∀ i, Cert.LibStats.IsFin (m ((c.tc : Thread Cert.KernelIdeal.nD Cert.KernelIdeal.τ).loc Cert.KernelIdeal.main_arg7) i))
    ∧ (∀ i, Cert.LibStats.IsFin (m ((c.tc : Thread Cert.KernelIdeal.nD Cert.KernelIdeal.τ).loc Cert.KernelIdeal.main_arg8) i))
    ∧ (∀ i, Cert.LibStats.IsFin (m ((c.tc : Thread Cert.KernelIdeal.nD Cert.KernelIdeal.τ).loc Cert.KernelIdeal.main_arg9) i))
    ∧ (∀ i, Cert.LibStats.IsFin (m ((c.tc : Thread Cert.KernelIdeal.nD Cert.KernelIdeal.τ).loc Cert.KernelIdeal.main_arg10) i))
    ∧ (∀ i, Cert.LibStats.IsFin (m ((c.tc : Thread Cert.KernelIdeal.nD Cert.KernelIdeal.τ).loc Cert.KernelIdeal.main_arg11) i))
    ∧ (∀ i, Cert.LibStats.IsFin (m ((c.tc : Thread Cert.KernelIdeal.nD Cert.KernelIdeal.τ).loc Cert.KernelIdeal.main_arg12) i))
    ∧ (∀ i, Cert.LibStats.IsFin (m ((c.tc : Thread Cert.KernelIdeal.nD Cert.KernelIdeal.τ).loc Cert.KernelIdeal.main_arg13) i))
    ∧ (∀ i, Cert.LibStats.IsFin (m ((c.tc : Thread Cert.KernelIdeal.nD Cert.KernelIdeal.τ).loc Cert.KernelIdeal.main_arg14) i))
    ∧ (∀ i, Cert.LibStats.IsFin (m ((c.tc : Thread Cert.KernelIdeal.nD Cert.KernelIdeal.τ).loc Cert.KernelIdeal.main_arg15) i))
    ∧ (∀ i, Cert.LibStats.IsFin (m ((c.tc : Thread Cert.KernelIdeal.nD Cert.KernelIdeal.τ).loc Cert.KernelIdeal.main_arg16) i))
    ∧ (∀ i, Cert.LibStats.IsFin (m ((c.tc : Thread Cert.KernelIdeal.nD Cert.KernelIdeal.τ).loc Cert.KernelIdeal.main_arg17) i))
    ∧ (∀ i, Cert.LibStats.IsFin (m ((c.tc : Thread Cert.KernelIdeal.nD Cert.KernelIdeal.τ).loc Cert.KernelIdeal.main_arg18) i))
    ∧ (∀ i, Cert.LibStats.IsFin (m ((c.tc : Thread Cert.KernelIdeal.nD Cert.KernelIdeal.τ).loc Cert.KernelIdeal.main_arg19) i))
    ∧ (∀ i, Cert.LibStats.IsFin (m ((c.tc : Thread Cert.KernelIdeal.nD Cert.KernelIdeal.τ).loc Cert.KernelIdeal.main_arg20) i)) :=
  fn_fin _ _ _ _ _ _ _ _ _ _ _ _ _ _ _ _ _ _ _ _ _ (hpre c)

theorem pre_arg0 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg0) i) :=
  (pre_args m hpre c).1
theorem pre_arg2 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg2) i) :=
  (pre_args m hpre c).2.1
theorem pre_arg3 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg3) i) :=
  (pre_args m hpre c).2.2.1
theorem pre_arg4 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg4) i) :=
  (pre_args m hpre c).2.2.2.1
theorem pre_arg5 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg5) i) :=
  (pre_args m hpre c).2.2.2.2.1
theorem pre_arg6 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg6) i) :=
  (pre_args m hpre c).2.2.2.2.2.1
theorem pre_arg7 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg7) i) :=
  (pre_args m hpre c).2.2.2.2.2.2.1
theorem pre_arg8 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg8) i) :=
  (pre_args m hpre c).2.2.2.2.2.2.2.1
theorem pre_arg9 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg9) i) :=
  (pre_args m hpre c).2.2.2.2.2.2.2.2.1
theorem pre_arg10 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg10) i) :=
  (pre_args m hpre c).2.2.2.2.2.2.2.2.2.1
theorem pre_arg11 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg11) i) :=
  (pre_args m hpre c).2.2.2.2.2.2.2.2.2.2.1
theorem pre_arg12 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg12) i) :=
  (pre_args m hpre c).2.2.2.2.2.2.2.2.2.2.2.1
theorem pre_arg13 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg13) i) :=
  (pre_args m hpre c).2.2.2.2.2.2.2.2.2.2.2.2.1
theorem pre_arg14 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg14) i) :=
  (pre_args m hpre c).2.2.2.2.2.2.2.2.2.2.2.2.2.1
theorem pre_arg15 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg15) i) :=
  (pre_args m hpre c).2.2.2.2.2.2.2.2.2.2.2.2.2.2.1
theorem pre_arg16 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg16) i) :=
  (pre_args m hpre c).2.2.2.2.2.2.2.2.2.2.2.2.2.2.2.1
theorem pre_arg17 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg17) i) :=
  (pre_args m hpre c).2.2.2.2.2.2.2.2.2.2.2.2.2.2.2.2.1
theorem pre_arg18 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg18) i) :=
  (pre_args m hpre c).2.2.2.2.2.2.2.2.2.2.2.2.2.2.2.2.2.1
theorem pre_arg19 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg19) i) :=
  (pre_args m hpre c).2.2.2.2.2.2.2.2.2.2.2.2.2.2.2.2.2.2.1
theorem pre_arg20 (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, Cert.LibStats.IsFin (m ((c.tc : Thread Cert.KernelIdeal.nD Cert.KernelIdeal.τ).loc Cert.KernelIdeal.main_arg20) i) :=
  (pre_args m hpre c).2.2.2.2.2.2.2.2.2.2.2.2.2.2.2.2.2.2.2

end Cert.PreFin

end
-- ==== Proof.RefRun0.lean ====
/- The reference program's entry function as a list of its host operations (the outlined functions' operations
   listed at their call sites, over each call's own buffers), cut into short stretches; the program equals the
   list run in order, and so every weakly fair execution terminates with each buffer at the fold of the
   operations' results over the launch contents. -/
import proofs.«169498_j72670846649171_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 … 1: towards `main_v1`. -/
abbrev sg0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000 ]

theorem sg0_sub : (sg0 : List (HloOp τ sig (Elt F))).Forall fun op => op.bufs ⊆ tcRefs τ sig :=
  ⟨unary_bufs_sub .., reshape_bufs_sub ..⟩
theorem sg0_fresh : (sg0 : List (HloOp τ sig (Elt F))).Forall fun op => op.fresh = ∅ :=
  ⟨rfl, rfl⟩

/-- Operations 2 … 3: towards `main_v3`. -/
abbrev sg1 : List (HloOp τ sig (Elt F)) :=
  [ unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

theorem sg1_sub : (sg1 : List (HloOp τ sig (Elt F))).Forall fun op => op.bufs ⊆ tcRefs τ sig :=
  ⟨unary_bufs_sub .., reshape_bufs_sub ..⟩
theorem sg1_fresh : (sg1 : List (HloOp τ sig (Elt F))).Forall fun op => op.fresh = ∅ :=
  ⟨rfl, rfl⟩

/-- Operations 4 … 9: towards `main_v7`. -/
abbrev sg2 : List (HloOp τ sig (Elt F)) :=
  [ nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)) ]

theorem sg2_sub : (sg2 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
theorem sg2_fresh : (sg2 : List (HloOp τ sig (Elt F))).Forall fun op => op.fresh = ∅ :=
  ⟨rfl, rfl, rfl, rfl, rfl, rfl⟩

/-- Operations 10 … 17: towards `main_v13`. -/
abbrev sg3 : List (HloOp τ sig (Elt F)) :=
  [ nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_v1 main_v8 main_v9 (cmpi .slt : (⟨S800000, .i32⟩ : BufTy).Contents (Elt F) → (⟨S800000, .i32⟩ : BufTy).Contents (Elt F) → (⟨S800000, .i1⟩ : BufTy).Contents (Elt F)),
    nullary main_c_1 (constantI S_ 32 100000#32),
    unary main_c_1 main_v10 (broadcastInDim S800000 ![] bcast_S_S800000 : (⟨S_, .i32⟩ : BufTy).Contents (Elt F) → (⟨S800000, .i32⟩ : BufTy).Contents (Elt F)),
    binary main_v1 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_v1 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)) ]

theorem sg3_sub : (sg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem sg3_fresh : (sg3 : List (HloOp τ sig (Elt F))).Forall fun op => op.fresh = ∅ :=
  ⟨rfl, rfl, rfl, rfl, rfl, rfl, rfl, rfl⟩

/-- Operations 18 … 28: towards `main_v22`. -/
abbrev sg4 : List (HloOp τ sig (Elt F)) :=
  [ binary main_arg0 main_v13 main_v14 ((fun x i => Host.gather gather_S100000x12_S800000x1_S800000x12_1_0_n_n_0_1_112 x i) : (⟨S100000x12, .f32⟩ : BufTy).Contents (Elt F) → (⟨S800000x1, .i32⟩ : BufTy).Contents (Elt F) → (⟨S800000x12, .f32⟩ : BufTy).Contents (Elt F)),
    nullary main_cst_2 (constant S_ .f32 0x00000000#32),
    unary main_cst_2 main_v15 (broadcastInDim S100000x12 ![] bcast_S_S100000x12 : (⟨S_, .f32⟩ : BufTy).Contents (Elt F) → (⟨S100000x12, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S100000x12_S800000x1_S800000x12_1_0_0_1 x i u) : (⟨S100000x12, .f32⟩ : BufTy).Contents (Elt F) → (⟨S800000x1, .i32⟩ : BufTy).Contents (Elt F) → (⟨S800000x12, .f32⟩ : BufTy).Contents (Elt F) → (⟨S100000x12, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v7 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x12 ![0, 1] bcast_S100000x1_S100000x12_0_1 : (⟨S100000x1, .f32⟩ : BufTy).Contents (Elt F) → (⟨S100000x12, .f32⟩ : BufTy).Contents (Elt F)),
    binary main_v17 main_v21 main_v22 (Host.divf : (⟨S100000x12, .f32⟩ : BufTy).Contents (Elt F) → (⟨S100000x12, .f32⟩ : BufTy).Contents (Elt F) → (⟨S100000x12, .f32⟩ : BufTy).Contents (Elt F)) ]

theorem sg4_sub : (sg4 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem sg4_fresh : (sg4 : List (HloOp τ sig (Elt F))).Forall fun op => op.fresh = ∅ :=
  ⟨rfl, rfl, rfl, rfl, rfl, rfl, rfl, rfl, rfl, rfl, rfl⟩

/-- Operations 29 … 34: towards `main_v28`. -/
abbrev sg5 : List (HloOp τ sig (Elt F)) :=
  [ binary main_v22 main_arg2 main_v23 ((fun l r => Host.dotGeneral dot_S100000x12_S12x256_S100000x256_1_0_0_1_n_n none l r) : (⟨S100000x12, .f32⟩ : BufTy).Contents (Elt F) → (⟨S12x256, .f32⟩ : BufTy).Contents (Elt F) → (⟨S100000x256, .f32⟩ : BufTy).Contents (Elt F)),
    unary main_arg3 main_v24 (broadcastInDim S1x256 ![1] bcast_S256_S1x256_1 : (⟨S256, .f32⟩ : BufTy).Contents (Elt F) → (⟨S1x256, .f32⟩ : BufTy).Contents (Elt F)),
    unary main_v24 main_v25 (broadcastInDim S100000x256 ![0, 1] bcast_S1x256_S100000x256_0_1 : (⟨S1x256, .f32⟩ : BufTy).Contents (Elt F) → (⟨S100000x256, .f32⟩ : BufTy).Contents (Elt F)),
    binary main_v23 main_v25 main_v26 (addf : (⟨S100000x256, .f32⟩ : BufTy).Contents (Elt F) → (⟨S100000x256, .f32⟩ : BufTy).Contents (Elt F) → (⟨S100000x256, .f32⟩ : BufTy).Contents (Elt F)),
    binary main_arg0 main_arg4 main_v27 ((fun l r => Host.dotGeneral dot_S100000x12_S12x256_S100000x256_1_0_0_1_n_n none l r) : (⟨S100000x12, .f32⟩ : BufTy).Contents (Elt F) → (⟨S12x256, .f32⟩ : BufTy).Contents (Elt F) → (⟨S100000x256, .f32⟩ : BufTy).Contents (Elt F)),
    binary main_v26 main_v27 main_v28 (addf : (⟨S100000x256, .f32⟩ : BufTy).Contents (Elt F) → (⟨S100000x256, .f32⟩ : BufTy).Contents (Elt F) → (⟨S100000x256, .f32⟩ : BufTy).Contents (Elt F)) ]

theorem sg5_sub : (sg5 : List (HloOp τ sig (Elt F))).Forall fun op => op.bufs ⊆ tcRefs τ sig :=
  ⟨binary_bufs_sub .., unary_bufs_sub .., unary_bufs_sub .., binary_bufs_sub .., binary_bufs_sub .., binary_bufs_sub ..⟩
theorem sg5_fresh : (sg5 : List (HloOp τ sig (Elt F))).Forall fun op => op.fresh = ∅ :=
  ⟨rfl, rfl, rfl, rfl, rfl, rfl⟩

/-- Operations 35 … 44: towards `main_v36`. -/
abbrev sg6 : List (HloOp τ sig (Elt F)) :=
  [ binary main_v28 main_v28 main_v29 (mulf : (⟨S100000x256, .f32⟩ : BufTy).Contents (Elt F) → (⟨S100000x256, .f32⟩ : BufTy).Contents (Elt F) → (⟨S100000x256, .f32⟩ : BufTy).Contents (Elt F)),
    nullary main_cst_4 (constant S_ .f32 0x00000000#32),
    binary main_v29 main_cst_4 main_v30 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v30 main_v31 (broadcastInDim S100000x1 ![0] bcast_S100000_S100000x1_0 : (⟨S100000, .f32⟩ : BufTy).Contents (Elt F) → (⟨S100000x1, .f32⟩ : BufTy).Contents (Elt F)),
    unary main_v31 main_v32 (Host.sqrt : (⟨S100000x1, .f32⟩ : BufTy).Contents (Elt F) → (⟨S100000x1, .f32⟩ : BufTy).Contents (Elt F)),
    nullary main_cst_5 (constant S_ .f32 0x2B8CBCCC#32),
    unary main_cst_5 main_v33 (broadcastInDim S100000x1 ![] bcast_S_S100000x1 : (⟨S_, .f32⟩ : BufTy).Contents (Elt F) → (⟨S100000x1, .f32⟩ : BufTy).Contents (Elt F)),
    binary main_v32 main_v33 main_v34 (maximumf : (⟨S100000x1, .f32⟩ : BufTy).Contents (Elt F) → (⟨S100000x1, .f32⟩ : BufTy).Contents (Elt F) → (⟨S100000x1, .f32⟩ : BufTy).Contents (Elt F)),
    unary main_v34 main_v35 (broadcastInDim S100000x256 ![0, 1] bcast_S100000x1_S100000x256_0_1 : (⟨S100000x1, .f32⟩ : BufTy).Contents (Elt F) → (⟨S100000x256, .f32⟩ : BufTy).Contents (Elt F)),
    binary main_v28 main_v35 main_v36 (Host.divf : (⟨S100000x256, .f32⟩ : BufTy).Contents (Elt F) → (⟨S100000x256, .f32⟩ : BufTy).Contents (Elt F) → (⟨S100000x256, .f32⟩ : BufTy).Contents (Elt F)) ]

theorem sg6_sub : (sg6 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem sg6_fresh : (sg6 : List (HloOp τ sig (Elt F))).Forall fun op => op.fresh = ∅ :=
  ⟨rfl, rfl, rfl, rfl, rfl, rfl, rfl, rfl, rfl, rfl⟩

/-- Operations 45 … 49: towards `main_v39`. -/
abbrev sg7 : List (HloOp τ sig (Elt F)) :=
  [ nullary main_cst_6 (constant S_ .f32 0x00000000#32),
    binary main_v36 main_cst_6 main_v37 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_7 (constant S_ .f32 0x47C35000#32),
    unary main_cst_7 main_v38 (broadcastInDim S256 ![] bcast_S_S256 : (⟨S_, .f32⟩ : BufTy).Contents (Elt F) → (⟨S256, .f32⟩ : BufTy).Contents (Elt F)),
    binary main_v37 main_v38 main_v39 (Host.divf : (⟨S256, .f32⟩ : BufTy).Contents (Elt F) → (⟨S256, .f32⟩ : BufTy).Contents (Elt F) → (⟨S256, .f32⟩ : BufTy).Contents (Elt F)) ]

theorem sg7_sub : (sg7 : List (HloOp τ sig (Elt F))).Forall fun op => op.bufs ⊆ tcRefs τ sig :=
  ⟨nullary_bufs_sub .., binary_bufs_sub .., nullary_bufs_sub .., unary_bufs_sub .., binary_bufs_sub ..⟩
theorem sg7_fresh : (sg7 : List (HloOp τ sig (Elt F))).Forall fun op => op.fresh = ∅ :=
  ⟨rfl, rfl, rfl, rfl, rfl⟩

/-- Operations 50 … 72: towards `main_v40`. -/
abbrev sg8 : List (HloOp τ sig (Elt F)) :=
  [ nullary main_c_8 (constantI S_ 32 0#32),
    TRef.nullary main_call0.cst (constant S_ .f32 0x00000000#32),
    TRef.binary (.of main_v36) main_call0.cst main_call0.v0 (fun x v => Host.reduceAdd x v reducesTo_S100000x256_S256_d0 h_S_),
    TRef.unary main_call0.v0 main_call0.v1 (broadcastInDim S1x256 ![1] bcast_S256_S1x256_1),
    TRef.nullary main_call0.cst_0 (constant S_ .f32 0x47C35000#32),
    TRef.unary main_call0.cst_0 main_call0.v2 (broadcastInDim S1x256 ![] bcast_S_S1x256),
    TRef.binary main_call0.v1 main_call0.v2 main_call0.v3 Host.divf,
    TRef.unary main_call0.v3 main_call0.v4 (broadcastInDim S100000x256 ![0, 1] bcast_S1x256_S100000x256_0_1),
    TRef.binary (.of main_v36) main_call0.v4 main_call0.v5 subf,
    TRef.binary main_call0.v5 main_call0.v5 main_call0.v6 mulf,
    TRef.unary (.of main_c_8) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x256_S256_d0 h_S_),
    TRef.unary main_call0.v8 main_call0.v10 (broadcastInDim S256 ![] bcast_S_S256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S256 ![] bcast_S_S256),
    TRef.ternary main_call0.v12 main_call0.v11 main_call0.call0.v1 main_call0.call0.v2 (fun p a b => select (broadcastInDim S256 ![] bcast_S_S256 p) a b) ]

theorem sg8_sub : (sg8 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem sg8_fresh : (sg8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Operations 73 … 80: towards `main_v55`. -/
abbrev sg9 : List (HloOp τ sig (Elt F)) :=
  [ unary main_v39 main_v41 (broadcastInDim S1x256 ![1] bcast_S256_S1x256_1 : (⟨S256, .f32⟩ : BufTy).Contents (Elt F) → (⟨S1x256, .f32⟩ : BufTy).Contents (Elt F)),
    unary main_v41 main_v42 (broadcastInDim S100000x256 ![0, 1] bcast_S1x256_S100000x256_0_1 : (⟨S1x256, .f32⟩ : BufTy).Contents (Elt F) → (⟨S100000x256, .f32⟩ : BufTy).Contents (Elt F)),
    binary main_v36 main_v42 main_v43 (subf : (⟨S100000x256, .f32⟩ : BufTy).Contents (Elt F) → (⟨S100000x256, .f32⟩ : BufTy).Contents (Elt F) → (⟨S100000x256, .f32⟩ : BufTy).Contents (Elt F)),
    nullary main_cst_9 (constant S_ .f32 0x3727C5AC#32),
    unary main_cst_9 main_v44 (broadcastInDim S256 ![] bcast_S_S256 : (⟨S_, .f32⟩ : BufTy).Contents (Elt F) → (⟨S256, .f32⟩ : BufTy).Contents (Elt F)),
    binary main_v40 main_v44 main_v45 (addf : (⟨S256, .f32⟩ : BufTy).Contents (Elt F) → (⟨S256, .f32⟩ : BufTy).Contents (Elt F) → (⟨S256, .f32⟩ : BufTy).Contents (Elt F)),
    unary main_v45 main_v46 (Host.rsqrt : (⟨S256, .f32⟩ : BufTy).Contents (Elt F) → (⟨S256, .f32⟩ : BufTy).Contents (Elt F)),
    unary main_v46 main_v47 (broadcastInDim S1x256 ![1] bcast_S256_S1x256_1 : (⟨S256, .f32⟩ : BufTy).Contents (Elt F) → (⟨S1x256, .f32⟩ : BufTy).Contents (Elt F)) ]

theorem sg9_sub : (sg9 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub ..⟩
theorem sg9_fresh : (sg9 : List (HloOp τ sig (Elt F))).Forall fun op => op.fresh = ∅ :=
  ⟨rfl, rfl, rfl, rfl, rfl, rfl, rfl, rfl⟩

/-- Operations 81 … 88: towards `main_v55`. -/
abbrev sg10 : List (HloOp τ sig (Elt F)) :=
  [ unary main_v47 main_v48 (broadcastInDim S100000x256 ![0, 1] bcast_S1x256_S100000x256_0_1 : (⟨S1x256, .f32⟩ : BufTy).Contents (Elt F) → (⟨S100000x256, .f32⟩ : BufTy).Contents (Elt F)),
    binary main_v43 main_v48 main_v49 (mulf : (⟨S100000x256, .f32⟩ : BufTy).Contents (Elt F) → (⟨S100000x256, .f32⟩ : BufTy).Contents (Elt F) → (⟨S100000x256, .f32⟩ : BufTy).Contents (Elt F)),
    unary main_arg5 main_v50 (broadcastInDim S1x256 ![1] bcast_S256_S1x256_1 : (⟨S256, .f32⟩ : BufTy).Contents (Elt F) → (⟨S1x256, .f32⟩ : BufTy).Contents (Elt F)),
    unary main_v50 main_v51 (broadcastInDim S100000x256 ![0, 1] bcast_S1x256_S100000x256_0_1 : (⟨S1x256, .f32⟩ : BufTy).Contents (Elt F) → (⟨S100000x256, .f32⟩ : BufTy).Contents (Elt F)),
    binary main_v49 main_v51 main_v52 (mulf : (⟨S100000x256, .f32⟩ : BufTy).Contents (Elt F) → (⟨S100000x256, .f32⟩ : BufTy).Contents (Elt F) → (⟨S100000x256, .f32⟩ : BufTy).Contents (Elt F)),
    unary main_arg6 main_v53 (broadcastInDim S1x256 ![1] bcast_S256_S1x256_1 : (⟨S256, .f32⟩ : BufTy).Contents (Elt F) → (⟨S1x256, .f32⟩ : BufTy).Contents (Elt F)),
    unary main_v53 main_v54 (broadcastInDim S100000x256 ![0, 1] bcast_S1x256_S100000x256_0_1 : (⟨S1x256, .f32⟩ : BufTy).Contents (Elt F) → (⟨S100000x256, .f32⟩ : BufTy).Contents (Elt F)),
    binary main_v52 main_v54 main_v55 (addf : (⟨S100000x256, .f32⟩ : BufTy).Contents (Elt F) → (⟨S100000x256, .f32⟩ : BufTy).Contents (Elt F) → (⟨S100000x256, .f32⟩ : BufTy).Contents (Elt F)) ]

theorem sg10_sub : (sg10 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub ..⟩
theorem sg10_fresh : (sg10 : List (HloOp τ sig (Elt F))).Forall fun op => op.fresh = ∅ :=
  ⟨rfl, rfl, rfl, rfl, rfl, rfl, rfl, rfl⟩

/-- Operations 89 … 91: towards `main_v56`. -/
abbrev sg11 : List (HloOp τ sig (Elt F)) :=
  [ TRef.nullary main_call1.cst (constant S_ .f32 0x00000000#32),
    TRef.unary main_call1.cst main_call1.v0 (broadcastInDim S100000x256 ![] bcast_S_S100000x256),
    TRef.binary (.of main_v55) main_call1.v0 main_call1.v1 maximumf ]

theorem sg11_sub : (sg11 : List (HloOp τ sig (Elt F))).Forall fun op => op.bufs ⊆ tcRefs τ sig :=
  ⟨nullary_bufs_sub .., unary_bufs_sub .., binary_bufs_sub ..⟩
theorem sg11_fresh : (sg11 : List (HloOp τ sig (Elt F))).Forall fun op => op.fresh = ∅ :=
  ⟨rfl, rfl, rfl⟩

/-- Operations 92 … 93: towards `main_v58`. -/
abbrev sg12 : List (HloOp τ sig (Elt F)) :=
  [ unary main_arg7 main_v57 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v57 main_v58 rfl shapeCasts_S1x256x256_S256x256 ]

theorem sg12_sub : (sg12 : List (HloOp τ sig (Elt F))).Forall fun op => op.bufs ⊆ tcRefs τ sig :=
  ⟨unary_bufs_sub .., reshape_bufs_sub ..⟩
theorem sg12_fresh : (sg12 : List (HloOp τ sig (Elt F))).Forall fun op => op.fresh = ∅ :=
  ⟨rfl, rfl⟩

/-- Operations 94 … 95: towards `main_v60`. -/
abbrev sg13 : List (HloOp τ sig (Elt F)) :=
  [ unary main_arg8 main_v59 ((extractStridedSlice S1x256 ![0, 0] · slices_S3x256_S1x256_0_0) : (⟨S3x256, .f32⟩ : BufTy).Contents (Elt F) → (⟨S1x256, .f32⟩ : BufTy).Contents (Elt F)),
    reshape main_v59 main_v60 rfl shapeCasts_S1x256_S256 ]

theorem sg13_sub : (sg13 : List (HloOp τ sig (Elt F))).Forall fun op => op.bufs ⊆ tcRefs τ sig :=
  ⟨unary_bufs_sub .., reshape_bufs_sub ..⟩
theorem sg13_fresh : (sg13 : List (HloOp τ sig (Elt F))).Forall fun op => op.fresh = ∅ :=
  ⟨rfl, rfl⟩

/-- Operations 96 … 97: towards `main_v62`. -/
abbrev sg14 : List (HloOp τ sig (Elt F)) :=
  [ unary main_arg9 main_v61 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v61 main_v62 rfl shapeCasts_S1x256x256_S256x256 ]

theorem sg14_sub : (sg14 : List (HloOp τ sig (Elt F))).Forall fun op => op.bufs ⊆ tcRefs τ sig :=
  ⟨unary_bufs_sub .., reshape_bufs_sub ..⟩
theorem sg14_fresh : (sg14 : List (HloOp τ sig (Elt F))).Forall fun op => op.fresh = ∅ :=
  ⟨rfl, rfl⟩

/-- Operations 98 … 99: towards `main_v64`. -/
abbrev sg15 : List (HloOp τ sig (Elt F)) :=
  [ unary main_arg10 main_v63 ((extractStridedSlice S1x256 ![0, 0] · slices_S3x256_S1x256_0_0) : (⟨S3x256, .f32⟩ : BufTy).Contents (Elt F) → (⟨S1x256, .f32⟩ : BufTy).Contents (Elt F)),
    reshape main_v63 main_v64 rfl shapeCasts_S1x256_S256 ]

theorem sg15_sub : (sg15 : List (HloOp τ sig (Elt F))).Forall fun op => op.bufs ⊆ tcRefs τ sig :=
  ⟨unary_bufs_sub .., reshape_bufs_sub ..⟩
theorem sg15_fresh : (sg15 : List (HloOp τ sig (Elt F))).Forall fun op => op.fresh = ∅ :=
  ⟨rfl, rfl⟩

/-- Operations 100 … 101: towards `main_v66`. -/
abbrev sg16 : List (HloOp τ sig (Elt F)) :=
  [ unary main_arg11 main_v65 ((extractStridedSlice S1x256 ![0, 0] · slices_S3x256_S1x256_0_0) : (⟨S3x256, .f32⟩ : BufTy).Contents (Elt F) → (⟨S1x256, .f32⟩ : BufTy).Contents (Elt F)),
    reshape main_v65 main_v66 rfl shapeCasts_S1x256_S256 ]

theorem sg16_sub : (sg16 : List (HloOp τ sig (Elt F))).Forall fun op => op.bufs ⊆ tcRefs τ sig :=
  ⟨unary_bufs_sub .., reshape_bufs_sub ..⟩
theorem sg16_fresh : (sg16 : List (HloOp τ sig (Elt F))).Forall fun op => op.fresh = ∅ :=
  ⟨rfl, rfl⟩

/-- Operations 102 … 107: towards `main_v70`. -/
abbrev sg17 : List (HloOp τ sig (Elt F)) :=
  [ nullary main_cst_10 (constant S_ .f32 0x3F800000#32),
    unary main_cst_10 main_v67 (broadcastInDim S800000 ![] bcast_S_S800000 : (⟨S_, .f32⟩ : BufTy).Contents (Elt F) → (⟨S800000, .f32⟩ : BufTy).Contents (Elt F)),
    nullary main_cst_11 (constant S_ .f32 0x00000000#32),
    unary main_cst_11 main_v68 (broadcastInDim S100000 ![] bcast_S_S100000 : (⟨S_, .f32⟩ : BufTy).Contents (Elt F) → (⟨S100000, .f32⟩ : BufTy).Contents (Elt F)),
    unary main_v3 main_v69 (broadcastInDim S800000x1 ![0] bcast_S800000_S800000x1_0 : (⟨S800000, .i32⟩ : BufTy).Contents (Elt F) → (⟨S800000x1, .i32⟩ : BufTy).Contents (Elt F)),
    ternary main_v68 main_v69 main_v67 main_v70 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)) ]

theorem sg17_sub : (sg17 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
theorem sg17_fresh : (sg17 : List (HloOp τ sig (Elt F))).Forall fun op => op.fresh = ∅ :=
  ⟨rfl, rfl, rfl, rfl, rfl, rfl⟩

/-- Operations 108 … 115: towards `main_v76`. -/
abbrev sg18 : List (HloOp τ sig (Elt F)) :=
  [ nullary main_c_12 (constantI S_ 32 0#32),
    unary main_c_12 main_v71 (broadcastInDim S800000 ![] bcast_S_S800000 : (⟨S_, .i32⟩ : BufTy).Contents (Elt F) → (⟨S800000, .i32⟩ : BufTy).Contents (Elt F)),
    binary main_v1 main_v71 main_v72 (cmpi .slt : (⟨S800000, .i32⟩ : BufTy).Contents (Elt F) → (⟨S800000, .i32⟩ : BufTy).Contents (Elt F) → (⟨S800000, .i1⟩ : BufTy).Contents (Elt F)),
    nullary main_c_13 (constantI S_ 32 100000#32),
    unary main_c_13 main_v73 (broadcastInDim S800000 ![] bcast_S_S800000 : (⟨S_, .i32⟩ : BufTy).Contents (Elt F) → (⟨S800000, .i32⟩ : BufTy).Contents (Elt F)),
    binary main_v1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)) ]

theorem sg18_sub : (sg18 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem sg18_fresh : (sg18 : List (HloOp τ sig (Elt F))).Forall fun op => op.fresh = ∅ :=
  ⟨rfl, rfl, rfl, rfl, rfl, rfl, rfl, rfl⟩

/-- Operations 116 … 126: towards `main_v85`. -/
abbrev sg19 : List (HloOp τ sig (Elt F)) :=
  [ binary main_v56 main_v76 main_v77 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_14 (constant S_ .f32 0x00000000#32),
    unary main_cst_14 main_v78 (broadcastInDim S100000x256 ![] bcast_S_S100000x256 : (⟨S_, .f32⟩ : BufTy).Contents (Elt F) → (⟨S100000x256, .f32⟩ : BufTy).Contents (Elt F)),
    unary main_v3 main_v79 (broadcastInDim S800000x1 ![0] bcast_S800000_S800000x1_0 : (⟨S800000, .i32⟩ : BufTy).Contents (Elt F) → (⟨S800000x1, .i32⟩ : BufTy).Contents (Elt F)),
    ternary main_v78 main_v79 main_v77 main_v80 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    nullary main_cst_15 (constant S_ .f32 0x3F800000#32),
    unary main_cst_15 main_v81 (broadcastInDim S100000 ![] bcast_S_S100000 : (⟨S_, .f32⟩ : BufTy).Contents (Elt F) → (⟨S100000, .f32⟩ : BufTy).Contents (Elt F)),
    binary main_v70 main_v81 main_v82 (maximumf : (⟨S100000, .f32⟩ : BufTy).Contents (Elt F) → (⟨S100000, .f32⟩ : BufTy).Contents (Elt F) → (⟨S100000, .f32⟩ : BufTy).Contents (Elt F)),
    unary main_v82 main_v83 (broadcastInDim S100000x1 ![0] bcast_S100000_S100000x1_0 : (⟨S100000, .f32⟩ : BufTy).Contents (Elt F) → (⟨S100000x1, .f32⟩ : BufTy).Contents (Elt F)),
    unary main_v83 main_v84 (broadcastInDim S100000x256 ![0, 1] bcast_S100000x1_S100000x256_0_1 : (⟨S100000x1, .f32⟩ : BufTy).Contents (Elt F) → (⟨S100000x256, .f32⟩ : BufTy).Contents (Elt F)),
    binary main_v80 main_v84 main_v85 (Host.divf : (⟨S100000x256, .f32⟩ : BufTy).Contents (Elt F) → (⟨S100000x256, .f32⟩ : BufTy).Contents (Elt F) → (⟨S100000x256, .f32⟩ : BufTy).Contents (Elt F)) ]

theorem sg19_sub : (sg19 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem sg19_fresh : (sg19 : List (HloOp τ sig (Elt F))).Forall fun op => op.fresh = ∅ :=
  ⟨rfl, rfl, rfl, rfl, rfl, rfl, rfl, rfl, rfl, rfl, rfl⟩

/-- Operations 127 … 132: towards `main_v91`. -/
abbrev sg20 : List (HloOp τ sig (Elt F)) :=
  [ binary main_v85 main_v58 main_v86 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v60 main_v87 (broadcastInDim S1x256 ![1] bcast_S256_S1x256_1 : (⟨S256, .f32⟩ : BufTy).Contents (Elt F) → (⟨S1x256, .f32⟩ : BufTy).Contents (Elt F)),
    unary main_v87 main_v88 (broadcastInDim S100000x256 ![0, 1] bcast_S1x256_S100000x256_0_1 : (⟨S1x256, .f32⟩ : BufTy).Contents (Elt F) → (⟨S100000x256, .f32⟩ : BufTy).Contents (Elt F)),
    binary main_v86 main_v88 main_v89 (addf : (⟨S100000x256, .f32⟩ : BufTy).Contents (Elt F) → (⟨S100000x256, .f32⟩ : BufTy).Contents (Elt F) → (⟨S100000x256, .f32⟩ : BufTy).Contents (Elt F)),
    binary main_v56 main_v62 main_v90 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_v89 main_v90 main_v91 (addf : (⟨S100000x256, .f32⟩ : BufTy).Contents (Elt F) → (⟨S100000x256, .f32⟩ : BufTy).Contents (Elt F) → (⟨S100000x256, .f32⟩ : BufTy).Contents (Elt F)) ]

theorem sg20_sub : (sg20 : List (HloOp τ sig (Elt F))).Forall fun op => op.bufs ⊆ tcRefs τ sig :=
  ⟨binary_bufs_sub .., unary_bufs_sub .., unary_bufs_sub .., binary_bufs_sub .., binary_bufs_sub .., binary_bufs_sub ..⟩
theorem sg20_fresh : (sg20 : List (HloOp τ sig (Elt F))).Forall fun op => op.fresh = ∅ :=
  ⟨rfl, rfl, rfl, rfl, rfl, rfl⟩

/-- Operations 133 … 142: towards `main_v99`. -/
abbrev sg21 : List (HloOp τ sig (Elt F)) :=
  [ binary main_v91 main_v91 main_v92 (mulf : (⟨S100000x256, .f32⟩ : BufTy).Contents (Elt F) → (⟨S100000x256, .f32⟩ : BufTy).Contents (Elt F) → (⟨S100000x256, .f32⟩ : BufTy).Contents (Elt F)),
    nullary main_cst_16 (constant S_ .f32 0x00000000#32),
    binary main_v92 main_cst_16 main_v93 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v93 main_v94 (broadcastInDim S100000x1 ![0] bcast_S100000_S100000x1_0 : (⟨S100000, .f32⟩ : BufTy).Contents (Elt F) → (⟨S100000x1, .f32⟩ : BufTy).Contents (Elt F)),
    unary main_v94 main_v95 (Host.sqrt : (⟨S100000x1, .f32⟩ : BufTy).Contents (Elt F) → (⟨S100000x1, .f32⟩ : BufTy).Contents (Elt F)),
    nullary main_cst_17 (constant S_ .f32 0x2B8CBCCC#32),
    unary main_cst_17 main_v96 (broadcastInDim S100000x1 ![] bcast_S_S100000x1 : (⟨S_, .f32⟩ : BufTy).Contents (Elt F) → (⟨S100000x1, .f32⟩ : BufTy).Contents (Elt F)),
    binary main_v95 main_v96 main_v97 (maximumf : (⟨S100000x1, .f32⟩ : BufTy).Contents (Elt F) → (⟨S100000x1, .f32⟩ : BufTy).Contents (Elt F) → (⟨S100000x1, .f32⟩ : BufTy).Contents (Elt F)),
    unary main_v97 main_v98 (broadcastInDim S100000x256 ![0, 1] bcast_S100000x1_S100000x256_0_1 : (⟨S100000x1, .f32⟩ : BufTy).Contents (Elt F) → (⟨S100000x256, .f32⟩ : BufTy).Contents (Elt F)),
    binary main_v91 main_v98 main_v99 (Host.divf : (⟨S100000x256, .f32⟩ : BufTy).Contents (Elt F) → (⟨S100000x256, .f32⟩ : BufTy).Contents (Elt F) → (⟨S100000x256, .f32⟩ : BufTy).Contents (Elt F)) ]

theorem sg21_sub : (sg21 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem sg21_fresh : (sg21 : List (HloOp τ sig (Elt F))).Forall fun op => op.fresh = ∅ :=
  ⟨rfl, rfl, rfl, rfl, rfl, rfl, rfl, rfl, rfl, rfl⟩

/-- Operations 143 … 147: towards `main_v102`. -/
abbrev sg22 : List (HloOp τ sig (Elt F)) :=
  [ nullary main_cst_18 (constant S_ .f32 0x00000000#32),
    binary main_v99 main_cst_18 main_v100 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_19 (constant S_ .f32 0x47C35000#32),
    unary main_cst_19 main_v101 (broadcastInDim S256 ![] bcast_S_S256 : (⟨S_, .f32⟩ : BufTy).Contents (Elt F) → (⟨S256, .f32⟩ : BufTy).Contents (Elt F)),
    binary main_v100 main_v101 main_v102 (Host.divf : (⟨S256, .f32⟩ : BufTy).Contents (Elt F) → (⟨S256, .f32⟩ : BufTy).Contents (Elt F) → (⟨S256, .f32⟩ : BufTy).Contents (Elt F)) ]

theorem sg22_sub : (sg22 : List (HloOp τ sig (Elt F))).Forall fun op => op.bufs ⊆ tcRefs τ sig :=
  ⟨nullary_bufs_sub .., binary_bufs_sub .., nullary_bufs_sub .., unary_bufs_sub .., binary_bufs_sub ..⟩
theorem sg22_fresh : (sg22 : List (HloOp τ sig (Elt F))).Forall fun op => op.fresh = ∅ :=
  ⟨rfl, rfl, rfl, rfl, rfl⟩

/-- Operations 148 … 170: towards `main_v103`. -/
abbrev sg23 : List (HloOp τ sig (Elt F)) :=
  [ nullary main_c_20 (constantI S_ 32 0#32),
    TRef.nullary main_call2.cst (constant S_ .f32 0x00000000#32),
    TRef.binary (.of main_v99) main_call2.cst main_call2.v0 (fun x v => Host.reduceAdd x v reducesTo_S100000x256_S256_d0 h_S_),
    TRef.unary main_call2.v0 main_call2.v1 (broadcastInDim S1x256 ![1] bcast_S256_S1x256_1),
    TRef.nullary main_call2.cst_0 (constant S_ .f32 0x47C35000#32),
    TRef.unary main_call2.cst_0 main_call2.v2 (broadcastInDim S1x256 ![] bcast_S_S1x256),
    TRef.binary main_call2.v1 main_call2.v2 main_call2.v3 Host.divf,
    TRef.unary main_call2.v3 main_call2.v4 (broadcastInDim S100000x256 ![0, 1] bcast_S1x256_S100000x256_0_1),
    TRef.binary (.of main_v99) main_call2.v4 main_call2.v5 subf,
    TRef.binary main_call2.v5 main_call2.v5 main_call2.v6 mulf,
    TRef.unary (.of main_c_20) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x256_S256_d0 h_S_),
    TRef.unary main_call2.v8 main_call2.v10 (broadcastInDim S256 ![] bcast_S_S256),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S256 ![] bcast_S_S256),
    TRef.ternary main_call2.v12 main_call2.v11 main_call2.call0.v1 main_call2.call0.v2 (fun p a b => select (broadcastInDim S256 ![] bcast_S_S256 p) a b) ]

theorem sg23_sub : (sg23 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem sg23_fresh : (sg23 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Operations 171 … 186: towards `main_v118`. -/
abbrev sg24 : List (HloOp τ sig (Elt F)) :=
  [ unary main_v102 main_v104 (broadcastInDim S1x256 ![1] bcast_S256_S1x256_1 : (⟨S256, .f32⟩ : BufTy).Contents (Elt F) → (⟨S1x256, .f32⟩ : BufTy).Contents (Elt F)),
    unary main_v104 main_v105 (broadcastInDim S100000x256 ![0, 1] bcast_S1x256_S100000x256_0_1 : (⟨S1x256, .f32⟩ : BufTy).Contents (Elt F) → (⟨S100000x256, .f32⟩ : BufTy).Contents (Elt F)),
    binary main_v99 main_v105 main_v106 (subf : (⟨S100000x256, .f32⟩ : BufTy).Contents (Elt F) → (⟨S100000x256, .f32⟩ : BufTy).Contents (Elt F) → (⟨S100000x256, .f32⟩ : BufTy).Contents (Elt F)),
    nullary main_cst_21 (constant S_ .f32 0x3727C5AC#32),
    unary main_cst_21 main_v107 (broadcastInDim S256 ![] bcast_S_S256 : (⟨S_, .f32⟩ : BufTy).Contents (Elt F) → (⟨S256, .f32⟩ : BufTy).Contents (Elt F)),
    binary main_v103 main_v107 main_v108 (addf : (⟨S256, .f32⟩ : BufTy).Contents (Elt F) → (⟨S256, .f32⟩ : BufTy).Contents (Elt F) → (⟨S256, .f32⟩ : BufTy).Contents (Elt F)),
    unary main_v108 main_v109 (Host.rsqrt : (⟨S256, .f32⟩ : BufTy).Contents (Elt F) → (⟨S256, .f32⟩ : BufTy).Contents (Elt F)),
    unary main_v109 main_v110 (broadcastInDim S1x256 ![1] bcast_S256_S1x256_1 : (⟨S256, .f32⟩ : BufTy).Contents (Elt F) → (⟨S1x256, .f32⟩ : BufTy).Contents (Elt F)),
    unary main_v110 main_v111 (broadcastInDim S100000x256 ![0, 1] bcast_S1x256_S100000x256_0_1 : (⟨S1x256, .f32⟩ : BufTy).Contents (Elt F) → (⟨S100000x256, .f32⟩ : BufTy).Contents (Elt F)),
    binary main_v106 main_v111 main_v112 (mulf : (⟨S100000x256, .f32⟩ : BufTy).Contents (Elt F) → (⟨S100000x256, .f32⟩ : BufTy).Contents (Elt F) → (⟨S100000x256, .f32⟩ : BufTy).Contents (Elt F)),
    unary main_v64 main_v113 (broadcastInDim S1x256 ![1] bcast_S256_S1x256_1 : (⟨S256, .f32⟩ : BufTy).Contents (Elt F) → (⟨S1x256, .f32⟩ : BufTy).Contents (Elt F)),
    unary main_v113 main_v114 (broadcastInDim S100000x256 ![0, 1] bcast_S1x256_S100000x256_0_1 : (⟨S1x256, .f32⟩ : BufTy).Contents (Elt F) → (⟨S100000x256, .f32⟩ : BufTy).Contents (Elt F)),
    binary main_v112 main_v114 main_v115 (mulf : (⟨S100000x256, .f32⟩ : BufTy).Contents (Elt F) → (⟨S100000x256, .f32⟩ : BufTy).Contents (Elt F) → (⟨S100000x256, .f32⟩ : BufTy).Contents (Elt F)),
    unary main_v66 main_v116 (broadcastInDim S1x256 ![1] bcast_S256_S1x256_1 : (⟨S256, .f32⟩ : BufTy).Contents (Elt F) → (⟨S1x256, .f32⟩ : BufTy).Contents (Elt F)),
    unary main_v116 main_v117 (broadcastInDim S100000x256 ![0, 1] bcast_S1x256_S100000x256_0_1 : (⟨S1x256, .f32⟩ : BufTy).Contents (Elt F) → (⟨S100000x256, .f32⟩ : BufTy).Contents (Elt F)),
    binary main_v115 main_v117 main_v118 (addf : (⟨S100000x256, .f32⟩ : BufTy).Contents (Elt F) → (⟨S100000x256, .f32⟩ : BufTy).Contents (Elt F) → (⟨S100000x256, .f32⟩ : BufTy).Contents (Elt F)) ]

theorem sg24_sub : (sg24 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem sg24_fresh : (sg24 : List (HloOp τ sig (Elt F))).Forall fun op => op.fresh = ∅ :=
  ⟨rfl, rfl, rfl, rfl, rfl, rfl, rfl, rfl, rfl, rfl, rfl, rfl, rfl, rfl, rfl, rfl⟩

/-- Operations 187 … 189: towards `main_v119`. -/
abbrev sg25 : List (HloOp τ sig (Elt F)) :=
  [ TRef.nullary main_call3.cst (constant S_ .f32 0x00000000#32),
    TRef.unary main_call3.cst main_call3.v0 (broadcastInDim S100000x256 ![] bcast_S_S100000x256),
    TRef.binary (.of main_v118) main_call3.v0 main_call3.v1 maximumf ]

theorem sg25_sub : (sg25 : List (HloOp τ sig (Elt F))).Forall fun op => op.bufs ⊆ tcRefs τ sig :=
  ⟨nullary_bufs_sub .., unary_bufs_sub .., binary_bufs_sub ..⟩
theorem sg25_fresh : (sg25 : List (HloOp τ sig (Elt F))).Forall fun op => op.fresh = ∅ :=
  ⟨rfl, rfl, rfl⟩

/-- Operations 190 … 191: towards `main_v121`. -/
abbrev sg26 : List (HloOp τ sig (Elt F)) :=
  [ unary main_arg7 main_v120 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v120 main_v121 rfl shapeCasts_S1x256x256_S256x256 ]

theorem sg26_sub : (sg26 : List (HloOp τ sig (Elt F))).Forall fun op => op.bufs ⊆ tcRefs τ sig :=
  ⟨unary_bufs_sub .., reshape_bufs_sub ..⟩
theorem sg26_fresh : (sg26 : List (HloOp τ sig (Elt F))).Forall fun op => op.fresh = ∅ :=
  ⟨rfl, rfl⟩

/-- Operations 192 … 193: towards `main_v123`. -/
abbrev sg27 : List (HloOp τ sig (Elt F)) :=
  [ unary main_arg8 main_v122 ((extractStridedSlice S1x256 ![1, 0] · slices_S3x256_S1x256_1_0) : (⟨S3x256, .f32⟩ : BufTy).Contents (Elt F) → (⟨S1x256, .f32⟩ : BufTy).Contents (Elt F)),
    reshape main_v122 main_v123 rfl shapeCasts_S1x256_S256 ]

theorem sg27_sub : (sg27 : List (HloOp τ sig (Elt F))).Forall fun op => op.bufs ⊆ tcRefs τ sig :=
  ⟨unary_bufs_sub .., reshape_bufs_sub ..⟩
theorem sg27_fresh : (sg27 : List (HloOp τ sig (Elt F))).Forall fun op => op.fresh = ∅ :=
  ⟨rfl, rfl⟩

/-- Operations 194 … 195: towards `main_v125`. -/
abbrev sg28 : List (HloOp τ sig (Elt F)) :=
  [ unary main_arg9 main_v124 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v124 main_v125 rfl shapeCasts_S1x256x256_S256x256 ]

theorem sg28_sub : (sg28 : List (HloOp τ sig (Elt F))).Forall fun op => op.bufs ⊆ tcRefs τ sig :=
  ⟨unary_bufs_sub .., reshape_bufs_sub ..⟩
theorem sg28_fresh : (sg28 : List (HloOp τ sig (Elt F))).Forall fun op => op.fresh = ∅ :=
  ⟨rfl, rfl⟩

/-- Operations 196 … 197: towards `main_v127`. -/
abbrev sg29 : List (HloOp τ sig (Elt F)) :=
  [ unary main_arg10 main_v126 ((extractStridedSlice S1x256 ![1, 0] · slices_S3x256_S1x256_1_0) : (⟨S3x256, .f32⟩ : BufTy).Contents (Elt F) → (⟨S1x256, .f32⟩ : BufTy).Contents (Elt F)),
    reshape main_v126 main_v127 rfl shapeCasts_S1x256_S256 ]

theorem sg29_sub : (sg29 : List (HloOp τ sig (Elt F))).Forall fun op => op.bufs ⊆ tcRefs τ sig :=
  ⟨unary_bufs_sub .., reshape_bufs_sub ..⟩
theorem sg29_fresh : (sg29 : List (HloOp τ sig (Elt F))).Forall fun op => op.fresh = ∅ :=
  ⟨rfl, rfl⟩

/-- Operations 198 … 199: towards `main_v129`. -/
abbrev sg30 : List (HloOp τ sig (Elt F)) :=
  [ unary main_arg11 main_v128 ((extractStridedSlice S1x256 ![1, 0] · slices_S3x256_S1x256_1_0) : (⟨S3x256, .f32⟩ : BufTy).Contents (Elt F) → (⟨S1x256, .f32⟩ : BufTy).Contents (Elt F)),
    reshape main_v128 main_v129 rfl shapeCasts_S1x256_S256 ]

theorem sg30_sub : (sg30 : List (HloOp τ sig (Elt F))).Forall fun op => op.bufs ⊆ tcRefs τ sig :=
  ⟨unary_bufs_sub .., reshape_bufs_sub ..⟩
theorem sg30_fresh : (sg30 : List (HloOp τ sig (Elt F))).Forall fun op => op.fresh = ∅ :=
  ⟨rfl, rfl⟩

/-- Operations 200 … 205: towards `main_v133`. -/
abbrev sg31 : List (HloOp τ sig (Elt F)) :=
  [ nullary main_cst_22 (constant S_ .f32 0x3F800000#32),
    unary main_cst_22 main_v130 (broadcastInDim S800000 ![] bcast_S_S800000 : (⟨S_, .f32⟩ : BufTy).Contents (Elt F) → (⟨S800000, .f32⟩ : BufTy).Contents (Elt F)),
    nullary main_cst_23 (constant S_ .f32 0x00000000#32),
    unary main_cst_23 main_v131 (broadcastInDim S100000 ![] bcast_S_S100000 : (⟨S_, .f32⟩ : BufTy).Contents (Elt F) → (⟨S100000, .f32⟩ : BufTy).Contents (Elt F)),
    unary main_v3 main_v132 (broadcastInDim S800000x1 ![0] bcast_S800000_S800000x1_0 : (⟨S800000, .i32⟩ : BufTy).Contents (Elt F) → (⟨S800000x1, .i32⟩ : BufTy).Contents (Elt F)),
    ternary main_v131 main_v132 main_v130 main_v133 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)) ]

theorem sg31_sub : (sg31 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
theorem sg31_fresh : (sg31 : List (HloOp τ sig (Elt F))).Forall fun op => op.fresh = ∅ :=
  ⟨rfl, rfl, rfl, rfl, rfl, rfl⟩

/-- Operations 206 … 213: towards `main_v139`. -/
abbrev sg32 : List (HloOp τ sig (Elt F)) :=
  [ nullary main_c_24 (constantI S_ 32 0#32),
    unary main_c_24 main_v134 (broadcastInDim S800000 ![] bcast_S_S800000 : (⟨S_, .i32⟩ : BufTy).Contents (Elt F) → (⟨S800000, .i32⟩ : BufTy).Contents (Elt F)),
    binary main_v1 main_v134 main_v135 (cmpi .slt : (⟨S800000, .i32⟩ : BufTy).Contents (Elt F) → (⟨S800000, .i32⟩ : BufTy).Contents (Elt F) → (⟨S800000, .i1⟩ : BufTy).Contents (Elt F)),
    nullary main_c_25 (constantI S_ 32 100000#32),
    unary main_c_25 main_v136 (broadcastInDim S800000 ![] bcast_S_S800000 : (⟨S_, .i32⟩ : BufTy).Contents (Elt F) → (⟨S800000, .i32⟩ : BufTy).Contents (Elt F)),
    binary main_v1 main_v136 main_v137 (addi : (⟨S800000, .i32⟩ : BufTy).Contents (Elt F) → (⟨S800000, .i32⟩ : BufTy).Contents (Elt F) → (⟨S800000, .i32⟩ : BufTy).Contents (Elt F)),
    ternary main_v135 main_v137 main_v1 main_v138 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v138 main_v139 (broadcastInDim S800000x1 ![0] bcast_S800000_S800000x1_0 : (⟨S800000, .i32⟩ : BufTy).Contents (Elt F) → (⟨S800000x1, .i32⟩ : BufTy).Contents (Elt F)) ]

theorem sg32_sub : (sg32 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem sg32_fresh : (sg32 : List (HloOp τ sig (Elt F))).Forall fun op => op.fresh = ∅ :=
  ⟨rfl, rfl, rfl, rfl, rfl, rfl, rfl, rfl⟩

/-- Operations 214 … 224: towards `main_v148`. -/
abbrev sg33 : List (HloOp τ sig (Elt F)) :=
  [ binary main_v119 main_v139 main_v140 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_26 (constant S_ .f32 0x00000000#32),
    unary main_cst_26 main_v141 (broadcastInDim S100000x256 ![] bcast_S_S100000x256 : (⟨S_, .f32⟩ : BufTy).Contents (Elt F) → (⟨S100000x256, .f32⟩ : BufTy).Contents (Elt F)),
    unary main_v3 main_v142 (broadcastInDim S800000x1 ![0] bcast_S800000_S800000x1_0 : (⟨S800000, .i32⟩ : BufTy).Contents (Elt F) → (⟨S800000x1, .i32⟩ : BufTy).Contents (Elt F)),
    ternary main_v141 main_v142 main_v140 main_v143 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    nullary main_cst_27 (constant S_ .f32 0x3F800000#32),
    unary main_cst_27 main_v144 (broadcastInDim S100000 ![] bcast_S_S100000 : (⟨S_, .f32⟩ : BufTy).Contents (Elt F) → (⟨S100000, .f32⟩ : BufTy).Contents (Elt F)),
    binary main_v133 main_v144 main_v145 (maximumf : (⟨S100000, .f32⟩ : BufTy).Contents (Elt F) → (⟨S100000, .f32⟩ : BufTy).Contents (Elt F) → (⟨S100000, .f32⟩ : BufTy).Contents (Elt F)),
    unary main_v145 main_v146 (broadcastInDim S100000x1 ![0] bcast_S100000_S100000x1_0 : (⟨S100000, .f32⟩ : BufTy).Contents (Elt F) → (⟨S100000x1, .f32⟩ : BufTy).Contents (Elt F)),
    unary main_v146 main_v147 (broadcastInDim S100000x256 ![0, 1] bcast_S100000x1_S100000x256_0_1 : (⟨S100000x1, .f32⟩ : BufTy).Contents (Elt F) → (⟨S100000x256, .f32⟩ : BufTy).Contents (Elt F)),
    binary main_v143 main_v147 main_v148 (Host.divf : (⟨S100000x256, .f32⟩ : BufTy).Contents (Elt F) → (⟨S100000x256, .f32⟩ : BufTy).Contents (Elt F) → (⟨S100000x256, .f32⟩ : BufTy).Contents (Elt F)) ]

theorem sg33_sub : (sg33 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem sg33_fresh : (sg33 : List (HloOp τ sig (Elt F))).Forall fun op => op.fresh = ∅ :=
  ⟨rfl, rfl, rfl, rfl, rfl, rfl, rfl, rfl, rfl, rfl, rfl⟩

/-- Operations 225 … 225: towards `main_v154`. -/
abbrev sg34 : List (HloOp τ sig (Elt F)) :=
  [ binary main_v148 main_v121 main_v149 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)) ]

theorem sg34_sub : (sg34 : List (HloOp τ sig (Elt F))).Forall fun op => op.bufs ⊆ tcRefs τ sig :=
  binary_bufs_sub ..
theorem sg34_fresh : (sg34 : List (HloOp τ sig (Elt F))).Forall fun op => op.fresh = ∅ :=
  rfl

/-- Operations 226 … 230: towards `main_v154`. -/
abbrev sg35 : List (HloOp τ sig (Elt F)) :=
  [ unary main_v123 main_v150 (broadcastInDim S1x256 ![1] bcast_S256_S1x256_1 : (⟨S256, .f32⟩ : BufTy).Contents (Elt F) → (⟨S1x256, .f32⟩ : BufTy).Contents (Elt F)),
    unary main_v150 main_v151 (broadcastInDim S100000x256 ![0, 1] bcast_S1x256_S100000x256_0_1 : (⟨S1x256, .f32⟩ : BufTy).Contents (Elt F) → (⟨S100000x256, .f32⟩ : BufTy).Contents (Elt F)),
    binary main_v149 main_v151 main_v152 (addf : (⟨S100000x256, .f32⟩ : BufTy).Contents (Elt F) → (⟨S100000x256, .f32⟩ : BufTy).Contents (Elt F) → (⟨S100000x256, .f32⟩ : BufTy).Contents (Elt F)),
    binary main_v119 main_v125 main_v153 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_v152 main_v153 main_v154 (addf : (⟨S100000x256, .f32⟩ : BufTy).Contents (Elt F) → (⟨S100000x256, .f32⟩ : BufTy).Contents (Elt F) → (⟨S100000x256, .f32⟩ : BufTy).Contents (Elt F)) ]

theorem sg35_sub : (sg35 : List (HloOp τ sig (Elt F))).Forall fun op => op.bufs ⊆ tcRefs τ sig :=
  ⟨unary_bufs_sub .., unary_bufs_sub .., binary_bufs_sub .., binary_bufs_sub .., binary_bufs_sub ..⟩
theorem sg35_fresh : (sg35 : List (HloOp τ sig (Elt F))).Forall fun op => op.fresh = ∅ :=
  ⟨rfl, rfl, rfl, rfl, rfl⟩

/-- Operations 231 … 240: towards `main_v162`. -/
abbrev sg36 : List (HloOp τ sig (Elt F)) :=
  [ binary main_v154 main_v154 main_v155 (mulf : (⟨S100000x256, .f32⟩ : BufTy).Contents (Elt F) → (⟨S100000x256, .f32⟩ : BufTy).Contents (Elt F) → (⟨S100000x256, .f32⟩ : BufTy).Contents (Elt F)),
    nullary main_cst_28 (constant S_ .f32 0x00000000#32),
    binary main_v155 main_cst_28 main_v156 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v156 main_v157 (broadcastInDim S100000x1 ![0] bcast_S100000_S100000x1_0 : (⟨S100000, .f32⟩ : BufTy).Contents (Elt F) → (⟨S100000x1, .f32⟩ : BufTy).Contents (Elt F)),
    unary main_v157 main_v158 (Host.sqrt : (⟨S100000x1, .f32⟩ : BufTy).Contents (Elt F) → (⟨S100000x1, .f32⟩ : BufTy).Contents (Elt F)),
    nullary main_cst_29 (constant S_ .f32 0x2B8CBCCC#32),
    unary main_cst_29 main_v159 (broadcastInDim S100000x1 ![] bcast_S_S100000x1 : (⟨S_, .f32⟩ : BufTy).Contents (Elt F) → (⟨S100000x1, .f32⟩ : BufTy).Contents (Elt F)),
    binary main_v158 main_v159 main_v160 (maximumf : (⟨S100000x1, .f32⟩ : BufTy).Contents (Elt F) → (⟨S100000x1, .f32⟩ : BufTy).Contents (Elt F) → (⟨S100000x1, .f32⟩ : BufTy).Contents (Elt F)),
    unary main_v160 main_v161 (broadcastInDim S100000x256 ![0, 1] bcast_S100000x1_S100000x256_0_1 : (⟨S100000x1, .f32⟩ : BufTy).Contents (Elt F) → (⟨S100000x256, .f32⟩ : BufTy).Contents (Elt F)),
    binary main_v154 main_v161 main_v162 (Host.divf : (⟨S100000x256, .f32⟩ : BufTy).Contents (Elt F) → (⟨S100000x256, .f32⟩ : BufTy).Contents (Elt F) → (⟨S100000x256, .f32⟩ : BufTy).Contents (Elt F)) ]

theorem sg36_sub : (sg36 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem sg36_fresh : (sg36 : List (HloOp τ sig (Elt F))).Forall fun op => op.fresh = ∅ :=
  ⟨rfl, rfl, rfl, rfl, rfl, rfl, rfl, rfl, rfl, rfl⟩

/-- Operations 241 … 245: towards `main_v165`. -/
abbrev sg37 : List (HloOp τ sig (Elt F)) :=
  [ nullary main_cst_30 (constant S_ .f32 0x00000000#32),
    binary main_v162 main_cst_30 main_v163 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_31 (constant S_ .f32 0x47C35000#32),
    unary main_cst_31 main_v164 (broadcastInDim S256 ![] bcast_S_S256 : (⟨S_, .f32⟩ : BufTy).Contents (Elt F) → (⟨S256, .f32⟩ : BufTy).Contents (Elt F)),
    binary main_v163 main_v164 main_v165 (Host.divf : (⟨S256, .f32⟩ : BufTy).Contents (Elt F) → (⟨S256, .f32⟩ : BufTy).Contents (Elt F) → (⟨S256, .f32⟩ : BufTy).Contents (Elt F)) ]

theorem sg37_sub : (sg37 : List (HloOp τ sig (Elt F))).Forall fun op => op.bufs ⊆ tcRefs τ sig :=
  ⟨nullary_bufs_sub .., binary_bufs_sub .., nullary_bufs_sub .., unary_bufs_sub .., binary_bufs_sub ..⟩
theorem sg37_fresh : (sg37 : List (HloOp τ sig (Elt F))).Forall fun op => op.fresh = ∅ :=
  ⟨rfl, rfl, rfl, rfl, rfl⟩

/-- Operations 246 … 268: towards `main_v166`. -/
abbrev sg38 : List (HloOp τ sig (Elt F)) :=
  [ nullary main_c_32 (constantI S_ 32 0#32),
    TRef.nullary main_call4.cst (constant S_ .f32 0x00000000#32),
    TRef.binary (.of main_v162) main_call4.cst main_call4.v0 (fun x v => Host.reduceAdd x v reducesTo_S100000x256_S256_d0 h_S_),
    TRef.unary main_call4.v0 main_call4.v1 (broadcastInDim S1x256 ![1] bcast_S256_S1x256_1),
    TRef.nullary main_call4.cst_0 (constant S_ .f32 0x47C35000#32),
    TRef.unary main_call4.cst_0 main_call4.v2 (broadcastInDim S1x256 ![] bcast_S_S1x256),
    TRef.binary main_call4.v1 main_call4.v2 main_call4.v3 Host.divf,
    TRef.unary main_call4.v3 main_call4.v4 (broadcastInDim S100000x256 ![0, 1] bcast_S1x256_S100000x256_0_1),
    TRef.binary (.of main_v162) main_call4.v4 main_call4.v5 subf,
    TRef.binary main_call4.v5 main_call4.v5 main_call4.v6 mulf,
    TRef.unary (.of main_c_32) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x256_S256_d0 h_S_),
    TRef.unary main_call4.v8 main_call4.v10 (broadcastInDim S256 ![] bcast_S_S256),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S256 ![] bcast_S_S256),
    TRef.ternary main_call4.v12 main_call4.v11 main_call4.call0.v1 main_call4.call0.v2 (fun p a b => select (broadcastInDim S256 ![] bcast_S_S256 p) a b) ]

theorem sg38_sub : (sg38 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem sg38_fresh : (sg38 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Operations 269 … 284: towards `main_v181`. -/
abbrev sg39 : List (HloOp τ sig (Elt F)) :=
  [ unary main_v165 main_v167 (broadcastInDim S1x256 ![1] bcast_S256_S1x256_1 : (⟨S256, .f32⟩ : BufTy).Contents (Elt F) → (⟨S1x256, .f32⟩ : BufTy).Contents (Elt F)),
    unary main_v167 main_v168 (broadcastInDim S100000x256 ![0, 1] bcast_S1x256_S100000x256_0_1 : (⟨S1x256, .f32⟩ : BufTy).Contents (Elt F) → (⟨S100000x256, .f32⟩ : BufTy).Contents (Elt F)),
    binary main_v162 main_v168 main_v169 (subf : (⟨S100000x256, .f32⟩ : BufTy).Contents (Elt F) → (⟨S100000x256, .f32⟩ : BufTy).Contents (Elt F) → (⟨S100000x256, .f32⟩ : BufTy).Contents (Elt F)),
    nullary main_cst_33 (constant S_ .f32 0x3727C5AC#32),
    unary main_cst_33 main_v170 (broadcastInDim S256 ![] bcast_S_S256 : (⟨S_, .f32⟩ : BufTy).Contents (Elt F) → (⟨S256, .f32⟩ : BufTy).Contents (Elt F)),
    binary main_v166 main_v170 main_v171 (addf : (⟨S256, .f32⟩ : BufTy).Contents (Elt F) → (⟨S256, .f32⟩ : BufTy).Contents (Elt F) → (⟨S256, .f32⟩ : BufTy).Contents (Elt F)),
    unary main_v171 main_v172 (Host.rsqrt : (⟨S256, .f32⟩ : BufTy).Contents (Elt F) → (⟨S256, .f32⟩ : BufTy).Contents (Elt F)),
    unary main_v172 main_v173 (broadcastInDim S1x256 ![1] bcast_S256_S1x256_1 : (⟨S256, .f32⟩ : BufTy).Contents (Elt F) → (⟨S1x256, .f32⟩ : BufTy).Contents (Elt F)),
    unary main_v173 main_v174 (broadcastInDim S100000x256 ![0, 1] bcast_S1x256_S100000x256_0_1 : (⟨S1x256, .f32⟩ : BufTy).Contents (Elt F) → (⟨S100000x256, .f32⟩ : BufTy).Contents (Elt F)),
    binary main_v169 main_v174 main_v175 (mulf : (⟨S100000x256, .f32⟩ : BufTy).Contents (Elt F) → (⟨S100000x256, .f32⟩ : BufTy).Contents (Elt F) → (⟨S100000x256, .f32⟩ : BufTy).Contents (Elt F)),
    unary main_v127 main_v176 (broadcastInDim S1x256 ![1] bcast_S256_S1x256_1 : (⟨S256, .f32⟩ : BufTy).Contents (Elt F) → (⟨S1x256, .f32⟩ : BufTy).Contents (Elt F)),
    unary main_v176 main_v177 (broadcastInDim S100000x256 ![0, 1] bcast_S1x256_S100000x256_0_1 : (⟨S1x256, .f32⟩ : BufTy).Contents (Elt F) → (⟨S100000x256, .f32⟩ : BufTy).Contents (Elt F)),
    binary main_v175 main_v177 main_v178 (mulf : (⟨S100000x256, .f32⟩ : BufTy).Contents (Elt F) → (⟨S100000x256, .f32⟩ : BufTy).Contents (Elt F) → (⟨S100000x256, .f32⟩ : BufTy).Contents (Elt F)),
    unary main_v129 main_v179 (broadcastInDim S1x256 ![1] bcast_S256_S1x256_1 : (⟨S256, .f32⟩ : BufTy).Contents (Elt F) → (⟨S1x256, .f32⟩ : BufTy).Contents (Elt F)),
    unary main_v179 main_v180 (broadcastInDim S100000x256 ![0, 1] bcast_S1x256_S100000x256_0_1 : (⟨S1x256, .f32⟩ : BufTy).Contents (Elt F) → (⟨S100000x256, .f32⟩ : BufTy).Contents (Elt F)),
    binary main_v178 main_v180 main_v181 (addf : (⟨S100000x256, .f32⟩ : BufTy).Contents (Elt F) → (⟨S100000x256, .f32⟩ : BufTy).Contents (Elt F) → (⟨S100000x256, .f32⟩ : BufTy).Contents (Elt F)) ]

theorem sg39_sub : (sg39 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem sg39_fresh : (sg39 : List (HloOp τ sig (Elt F))).Forall fun op => op.fresh = ∅ :=
  ⟨rfl, rfl, rfl, rfl, rfl, rfl, rfl, rfl, rfl, rfl, rfl, rfl, rfl, rfl, rfl, rfl⟩

/-- Operations 285 … 287: towards `main_v182`. -/
abbrev sg40 : List (HloOp τ sig (Elt F)) :=
  [ TRef.nullary main_call5.cst (constant S_ .f32 0x00000000#32),
    TRef.unary main_call5.cst main_call5.v0 (broadcastInDim S100000x256 ![] bcast_S_S100000x256),
    TRef.binary (.of main_v181) main_call5.v0 main_call5.v1 maximumf ]

theorem sg40_sub : (sg40 : List (HloOp τ sig (Elt F))).Forall fun op => op.bufs ⊆ tcRefs τ sig :=
  ⟨nullary_bufs_sub .., unary_bufs_sub .., binary_bufs_sub ..⟩
theorem sg40_fresh : (sg40 : List (HloOp τ sig (Elt F))).Forall fun op => op.fresh = ∅ :=
  ⟨rfl, rfl, rfl⟩

/-- Operations 288 … 289: towards `main_v184`. -/
abbrev sg41 : List (HloOp τ sig (Elt F)) :=
  [ unary main_arg7 main_v183 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v183 main_v184 rfl shapeCasts_S1x256x256_S256x256 ]

theorem sg41_sub : (sg41 : List (HloOp τ sig (Elt F))).Forall fun op => op.bufs ⊆ tcRefs τ sig :=
  ⟨unary_bufs_sub .., reshape_bufs_sub ..⟩
theorem sg41_fresh : (sg41 : List (HloOp τ sig (Elt F))).Forall fun op => op.fresh = ∅ :=
  ⟨rfl, rfl⟩

/-- Operations 290 … 291: towards `main_v186`. -/
abbrev sg42 : List (HloOp τ sig (Elt F)) :=
  [ unary main_arg8 main_v185 ((extractStridedSlice S1x256 ![2, 0] · slices_S3x256_S1x256_2_0) : (⟨S3x256, .f32⟩ : BufTy).Contents (Elt F) → (⟨S1x256, .f32⟩ : BufTy).Contents (Elt F)),
    reshape main_v185 main_v186 rfl shapeCasts_S1x256_S256 ]

theorem sg42_sub : (sg42 : List (HloOp τ sig (Elt F))).Forall fun op => op.bufs ⊆ tcRefs τ sig :=
  ⟨unary_bufs_sub .., reshape_bufs_sub ..⟩
theorem sg42_fresh : (sg42 : List (HloOp τ sig (Elt F))).Forall fun op => op.fresh = ∅ :=
  ⟨rfl, rfl⟩

/-- Operations 292 … 293: towards `main_v188`. -/
abbrev sg43 : List (HloOp τ sig (Elt F)) :=
  [ unary main_arg9 main_v187 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v187 main_v188 rfl shapeCasts_S1x256x256_S256x256 ]

theorem sg43_sub : (sg43 : List (HloOp τ sig (Elt F))).Forall fun op => op.bufs ⊆ tcRefs τ sig :=
  ⟨unary_bufs_sub .., reshape_bufs_sub ..⟩
theorem sg43_fresh : (sg43 : List (HloOp τ sig (Elt F))).Forall fun op => op.fresh = ∅ :=
  ⟨rfl, rfl⟩

/-- Operations 294 … 295: towards `main_v190`. -/
abbrev sg44 : List (HloOp τ sig (Elt F)) :=
  [ unary main_arg10 main_v189 ((extractStridedSlice S1x256 ![2, 0] · slices_S3x256_S1x256_2_0) : (⟨S3x256, .f32⟩ : BufTy).Contents (Elt F) → (⟨S1x256, .f32⟩ : BufTy).Contents (Elt F)),
    reshape main_v189 main_v190 rfl shapeCasts_S1x256_S256 ]

theorem sg44_sub : (sg44 : List (HloOp τ sig (Elt F))).Forall fun op => op.bufs ⊆ tcRefs τ sig :=
  ⟨unary_bufs_sub .., reshape_bufs_sub ..⟩
theorem sg44_fresh : (sg44 : List (HloOp τ sig (Elt F))).Forall fun op => op.fresh = ∅ :=
  ⟨rfl, rfl⟩

/-- Operations 296 … 297: towards `main_v192`. -/
abbrev sg45 : List (HloOp τ sig (Elt F)) :=
  [ unary main_arg11 main_v191 ((extractStridedSlice S1x256 ![2, 0] · slices_S3x256_S1x256_2_0) : (⟨S3x256, .f32⟩ : BufTy).Contents (Elt F) → (⟨S1x256, .f32⟩ : BufTy).Contents (Elt F)),
    reshape main_v191 main_v192 rfl shapeCasts_S1x256_S256 ]

theorem sg45_sub : (sg45 : List (HloOp τ sig (Elt F))).Forall fun op => op.bufs ⊆ tcRefs τ sig :=
  ⟨unary_bufs_sub .., reshape_bufs_sub ..⟩
theorem sg45_fresh : (sg45 : List (HloOp τ sig (Elt F))).Forall fun op => op.fresh = ∅ :=
  ⟨rfl, rfl⟩

/-- Operations 298 … 303: towards `main_v196`. -/
abbrev sg46 : List (HloOp τ sig (Elt F)) :=
  [ nullary main_cst_34 (constant S_ .f32 0x3F800000#32),
    unary main_cst_34 main_v193 (broadcastInDim S800000 ![] bcast_S_S800000 : (⟨S_, .f32⟩ : BufTy).Contents (Elt F) → (⟨S800000, .f32⟩ : BufTy).Contents (Elt F)),
    nullary main_cst_35 (constant S_ .f32 0x00000000#32),
    unary main_cst_35 main_v194 (broadcastInDim S100000 ![] bcast_S_S100000 : (⟨S_, .f32⟩ : BufTy).Contents (Elt F) → (⟨S100000, .f32⟩ : BufTy).Contents (Elt F)),
    unary main_v3 main_v195 (broadcastInDim S800000x1 ![0] bcast_S800000_S800000x1_0 : (⟨S800000, .i32⟩ : BufTy).Contents (Elt F) → (⟨S800000x1, .i32⟩ : BufTy).Contents (Elt F)),
    ternary main_v194 main_v195 main_v193 main_v196 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)) ]

theorem sg46_sub : (sg46 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
theorem sg46_fresh : (sg46 : List (HloOp τ sig (Elt F))).Forall fun op => op.fresh = ∅ :=
  ⟨rfl, rfl, rfl, rfl, rfl, rfl⟩

/-- Operations 304 … 308: towards `main_v202`. -/
abbrev sg47 : List (HloOp τ sig (Elt F)) :=
  [ nullary main_c_36 (constantI S_ 32 0#32),
    unary main_c_36 main_v197 (broadcastInDim S800000 ![] bcast_S_S800000 : (⟨S_, .i32⟩ : BufTy).Contents (Elt F) → (⟨S800000, .i32⟩ : BufTy).Contents (Elt F)),
    binary main_v1 main_v197 main_v198 (cmpi .slt : (⟨S800000, .i32⟩ : BufTy).Contents (Elt F) → (⟨S800000, .i32⟩ : BufTy).Contents (Elt F) → (⟨S800000, .i1⟩ : BufTy).Contents (Elt F)),
    nullary main_c_37 (constantI S_ 32 100000#32),
    unary main_c_37 main_v199 (broadcastInDim S800000 ![] bcast_S_S800000 : (⟨S_, .i32⟩ : BufTy).Contents (Elt F) → (⟨S800000, .i32⟩ : BufTy).Contents (Elt F)) ]

theorem sg47_sub : (sg47 : List (HloOp τ sig (Elt F))).Forall fun op => op.bufs ⊆ tcRefs τ sig :=
  ⟨nullary_bufs_sub .., unary_bufs_sub .., binary_bufs_sub .., nullary_bufs_sub .., unary_bufs_sub ..⟩
theorem sg47_fresh : (sg47 : List (HloOp τ sig (Elt F))).Forall fun op => op.fresh = ∅ :=
  ⟨rfl, rfl, rfl, rfl, rfl⟩

/-- Operations 309 … 311: towards `main_v202`. -/
abbrev sg48 : List (HloOp τ sig (Elt F)) :=
  [ binary main_v1 main_v199 main_v200 (addi : (⟨S800000, .i32⟩ : BufTy).Contents (Elt F) → (⟨S800000, .i32⟩ : BufTy).Contents (Elt F) → (⟨S800000, .i32⟩ : BufTy).Contents (Elt F)),
    ternary main_v198 main_v200 main_v1 main_v201 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v201 main_v202 (broadcastInDim S800000x1 ![0] bcast_S800000_S800000x1_0 : (⟨S800000, .i32⟩ : BufTy).Contents (Elt F) → (⟨S800000x1, .i32⟩ : BufTy).Contents (Elt F)) ]

theorem sg48_sub : (sg48 : List (HloOp τ sig (Elt F))).Forall fun op => op.bufs ⊆ tcRefs τ sig :=
  ⟨binary_bufs_sub .., ternary_bufs_sub .., unary_bufs_sub ..⟩
theorem sg48_fresh : (sg48 : List (HloOp τ sig (Elt F))).Forall fun op => op.fresh = ∅ :=
  ⟨rfl, rfl, rfl⟩

/-- Operations 312 … 322: towards `main_v211`. -/
abbrev sg49 : List (HloOp τ sig (Elt F)) :=
  [ binary main_v182 main_v202 main_v203 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_38 (constant S_ .f32 0x00000000#32),
    unary main_cst_38 main_v204 (broadcastInDim S100000x256 ![] bcast_S_S100000x256 : (⟨S_, .f32⟩ : BufTy).Contents (Elt F) → (⟨S100000x256, .f32⟩ : BufTy).Contents (Elt F)),
    unary main_v3 main_v205 (broadcastInDim S800000x1 ![0] bcast_S800000_S800000x1_0 : (⟨S800000, .i32⟩ : BufTy).Contents (Elt F) → (⟨S800000x1, .i32⟩ : BufTy).Contents (Elt F)),
    ternary main_v204 main_v205 main_v203 main_v206 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    nullary main_cst_39 (constant S_ .f32 0x3F800000#32),
    unary main_cst_39 main_v207 (broadcastInDim S100000 ![] bcast_S_S100000 : (⟨S_, .f32⟩ : BufTy).Contents (Elt F) → (⟨S100000, .f32⟩ : BufTy).Contents (Elt F)),
    binary main_v196 main_v207 main_v208 (maximumf : (⟨S100000, .f32⟩ : BufTy).Contents (Elt F) → (⟨S100000, .f32⟩ : BufTy).Contents (Elt F) → (⟨S100000, .f32⟩ : BufTy).Contents (Elt F)),
    unary main_v208 main_v209 (broadcastInDim S100000x1 ![0] bcast_S100000_S100000x1_0 : (⟨S100000, .f32⟩ : BufTy).Contents (Elt F) → (⟨S100000x1, .f32⟩ : BufTy).Contents (Elt F)),
    unary main_v209 main_v210 (broadcastInDim S100000x256 ![0, 1] bcast_S100000x1_S100000x256_0_1 : (⟨S100000x1, .f32⟩ : BufTy).Contents (Elt F) → (⟨S100000x256, .f32⟩ : BufTy).Contents (Elt F)),
    binary main_v206 main_v210 main_v211 (Host.divf : (⟨S100000x256, .f32⟩ : BufTy).Contents (Elt F) → (⟨S100000x256, .f32⟩ : BufTy).Contents (Elt F) → (⟨S100000x256, .f32⟩ : BufTy).Contents (Elt F)) ]

theorem sg49_sub : (sg49 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem sg49_fresh : (sg49 : List (HloOp τ sig (Elt F))).Forall fun op => op.fresh = ∅ :=
  ⟨rfl, rfl, rfl, rfl, rfl, rfl, rfl, rfl, rfl, rfl, rfl⟩

/-- Operations 323 … 328: towards `main_v217`. -/
abbrev sg50 : List (HloOp τ sig (Elt F)) :=
  [ binary main_v211 main_v184 main_v212 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v186 main_v213 (broadcastInDim S1x256 ![1] bcast_S256_S1x256_1 : (⟨S256, .f32⟩ : BufTy).Contents (Elt F) → (⟨S1x256, .f32⟩ : BufTy).Contents (Elt F)),
    unary main_v213 main_v214 (broadcastInDim S100000x256 ![0, 1] bcast_S1x256_S100000x256_0_1 : (⟨S1x256, .f32⟩ : BufTy).Contents (Elt F) → (⟨S100000x256, .f32⟩ : BufTy).Contents (Elt F)),
    binary main_v212 main_v214 main_v215 (addf : (⟨S100000x256, .f32⟩ : BufTy).Contents (Elt F) → (⟨S100000x256, .f32⟩ : BufTy).Contents (Elt F) → (⟨S100000x256, .f32⟩ : BufTy).Contents (Elt F)),
    binary main_v182 main_v188 main_v216 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_v215 main_v216 main_v217 (addf : (⟨S100000x256, .f32⟩ : BufTy).Contents (Elt F) → (⟨S100000x256, .f32⟩ : BufTy).Contents (Elt F) → (⟨S100000x256, .f32⟩ : BufTy).Contents (Elt F)) ]

theorem sg50_sub : (sg50 : List (HloOp τ sig (Elt F))).Forall fun op => op.bufs ⊆ tcRefs τ sig :=
  ⟨binary_bufs_sub .., unary_bufs_sub .., unary_bufs_sub .., binary_bufs_sub .., binary_bufs_sub .., binary_bufs_sub ..⟩
theorem sg50_fresh : (sg50 : List (HloOp τ sig (Elt F))).Forall fun op => op.fresh = ∅ :=
  ⟨rfl, rfl, rfl, rfl, rfl, rfl⟩

/-- Operations 329 … 338: towards `main_v225`. -/
abbrev sg51 : List (HloOp τ sig (Elt F)) :=
  [ binary main_v217 main_v217 main_v218 (mulf : (⟨S100000x256, .f32⟩ : BufTy).Contents (Elt F) → (⟨S100000x256, .f32⟩ : BufTy).Contents (Elt F) → (⟨S100000x256, .f32⟩ : BufTy).Contents (Elt F)),
    nullary main_cst_40 (constant S_ .f32 0x00000000#32),
    binary main_v218 main_cst_40 main_v219 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v219 main_v220 (broadcastInDim S100000x1 ![0] bcast_S100000_S100000x1_0 : (⟨S100000, .f32⟩ : BufTy).Contents (Elt F) → (⟨S100000x1, .f32⟩ : BufTy).Contents (Elt F)),
    unary main_v220 main_v221 (Host.sqrt : (⟨S100000x1, .f32⟩ : BufTy).Contents (Elt F) → (⟨S100000x1, .f32⟩ : BufTy).Contents (Elt F)),
    nullary main_cst_41 (constant S_ .f32 0x2B8CBCCC#32),
    unary main_cst_41 main_v222 (broadcastInDim S100000x1 ![] bcast_S_S100000x1 : (⟨S_, .f32⟩ : BufTy).Contents (Elt F) → (⟨S100000x1, .f32⟩ : BufTy).Contents (Elt F)),
    binary main_v221 main_v222 main_v223 (maximumf : (⟨S100000x1, .f32⟩ : BufTy).Contents (Elt F) → (⟨S100000x1, .f32⟩ : BufTy).Contents (Elt F) → (⟨S100000x1, .f32⟩ : BufTy).Contents (Elt F)),
    unary main_v223 main_v224 (broadcastInDim S100000x256 ![0, 1] bcast_S100000x1_S100000x256_0_1 : (⟨S100000x1, .f32⟩ : BufTy).Contents (Elt F) → (⟨S100000x256, .f32⟩ : BufTy).Contents (Elt F)),
    binary main_v217 main_v224 main_v225 (Host.divf : (⟨S100000x256, .f32⟩ : BufTy).Contents (Elt F) → (⟨S100000x256, .f32⟩ : BufTy).Contents (Elt F) → (⟨S100000x256, .f32⟩ : BufTy).Contents (Elt F)) ]

theorem sg51_sub : (sg51 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem sg51_fresh : (sg51 : List (HloOp τ sig (Elt F))).Forall fun op => op.fresh = ∅ :=
  ⟨rfl, rfl, rfl, rfl, rfl, rfl, rfl, rfl, rfl, rfl⟩

/-- Operations 339 … 343: towards `main_v228`. -/
abbrev sg52 : List (HloOp τ sig (Elt F)) :=
  [ nullary main_cst_42 (constant S_ .f32 0x00000000#32),
    binary main_v225 main_cst_42 main_v226 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_43 (constant S_ .f32 0x47C35000#32),
    unary main_cst_43 main_v227 (broadcastInDim S256 ![] bcast_S_S256 : (⟨S_, .f32⟩ : BufTy).Contents (Elt F) → (⟨S256, .f32⟩ : BufTy).Contents (Elt F)),
    binary main_v226 main_v227 main_v228 (Host.divf : (⟨S256, .f32⟩ : BufTy).Contents (Elt F) → (⟨S256, .f32⟩ : BufTy).Contents (Elt F) → (⟨S256, .f32⟩ : BufTy).Contents (Elt F)) ]

theorem sg52_sub : (sg52 : List (HloOp τ sig (Elt F))).Forall fun op => op.bufs ⊆ tcRefs τ sig :=
  ⟨nullary_bufs_sub .., binary_bufs_sub .., nullary_bufs_sub .., unary_bufs_sub .., binary_bufs_sub ..⟩
theorem sg52_fresh : (sg52 : List (HloOp τ sig (Elt F))).Forall fun op => op.fresh = ∅ :=
  ⟨rfl, rfl, rfl, rfl, rfl⟩

/-- Operations 344 … 366: towards `main_v229`. -/
abbrev sg53 : List (HloOp τ sig (Elt F)) :=
  [ nullary main_c_44 (constantI S_ 32 0#32),
    TRef.nullary main_call6.cst (constant S_ .f32 0x00000000#32),
    TRef.binary (.of main_v225) main_call6.cst main_call6.v0 (fun x v => Host.reduceAdd x v reducesTo_S100000x256_S256_d0 h_S_),
    TRef.unary main_call6.v0 main_call6.v1 (broadcastInDim S1x256 ![1] bcast_S256_S1x256_1),
    TRef.nullary main_call6.cst_0 (constant S_ .f32 0x47C35000#32),
    TRef.unary main_call6.cst_0 main_call6.v2 (broadcastInDim S1x256 ![] bcast_S_S1x256),
    TRef.binary main_call6.v1 main_call6.v2 main_call6.v3 Host.divf,
    TRef.unary main_call6.v3 main_call6.v4 (broadcastInDim S100000x256 ![0, 1] bcast_S1x256_S100000x256_0_1),
    TRef.binary (.of main_v225) main_call6.v4 main_call6.v5 subf,
    TRef.binary main_call6.v5 main_call6.v5 main_call6.v6 mulf,
    TRef.unary (.of main_c_44) main_call6.v7 (sitofp .f32),
    TRef.nullary main_call6.cst_1 (constant S_ .f32 0x47C35000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100000x256_S256_d0 h_S_),
    TRef.unary main_call6.v8 main_call6.v10 (broadcastInDim S256 ![] bcast_S_S256),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S256 ![] bcast_S_S256),
    TRef.ternary main_call6.v12 main_call6.v11 main_call6.call0.v1 main_call6.call0.v2 (fun p a b => select (broadcastInDim S256 ![] bcast_S_S256 p) a b) ]

theorem sg53_sub : (sg53 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem sg53_fresh : (sg53 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Operations 367 … 382: towards `main_v244`. -/
abbrev sg54 : List (HloOp τ sig (Elt F)) :=
  [ unary main_v228 main_v230 (broadcastInDim S1x256 ![1] bcast_S256_S1x256_1 : (⟨S256, .f32⟩ : BufTy).Contents (Elt F) → (⟨S1x256, .f32⟩ : BufTy).Contents (Elt F)),
    unary main_v230 main_v231 (broadcastInDim S100000x256 ![0, 1] bcast_S1x256_S100000x256_0_1 : (⟨S1x256, .f32⟩ : BufTy).Contents (Elt F) → (⟨S100000x256, .f32⟩ : BufTy).Contents (Elt F)),
    binary main_v225 main_v231 main_v232 (subf : (⟨S100000x256, .f32⟩ : BufTy).Contents (Elt F) → (⟨S100000x256, .f32⟩ : BufTy).Contents (Elt F) → (⟨S100000x256, .f32⟩ : BufTy).Contents (Elt F)),
    nullary main_cst_45 (constant S_ .f32 0x3727C5AC#32),
    unary main_cst_45 main_v233 (broadcastInDim S256 ![] bcast_S_S256 : (⟨S_, .f32⟩ : BufTy).Contents (Elt F) → (⟨S256, .f32⟩ : BufTy).Contents (Elt F)),
    binary main_v229 main_v233 main_v234 (addf : (⟨S256, .f32⟩ : BufTy).Contents (Elt F) → (⟨S256, .f32⟩ : BufTy).Contents (Elt F) → (⟨S256, .f32⟩ : BufTy).Contents (Elt F)),
    unary main_v234 main_v235 (Host.rsqrt : (⟨S256, .f32⟩ : BufTy).Contents (Elt F) → (⟨S256, .f32⟩ : BufTy).Contents (Elt F)),
    unary main_v235 main_v236 (broadcastInDim S1x256 ![1] bcast_S256_S1x256_1 : (⟨S256, .f32⟩ : BufTy).Contents (Elt F) → (⟨S1x256, .f32⟩ : BufTy).Contents (Elt F)),
    unary main_v236 main_v237 (broadcastInDim S100000x256 ![0, 1] bcast_S1x256_S100000x256_0_1 : (⟨S1x256, .f32⟩ : BufTy).Contents (Elt F) → (⟨S100000x256, .f32⟩ : BufTy).Contents (Elt F)),
    binary main_v232 main_v237 main_v238 (mulf : (⟨S100000x256, .f32⟩ : BufTy).Contents (Elt F) → (⟨S100000x256, .f32⟩ : BufTy).Contents (Elt F) → (⟨S100000x256, .f32⟩ : BufTy).Contents (Elt F)),
    unary main_v190 main_v239 (broadcastInDim S1x256 ![1] bcast_S256_S1x256_1 : (⟨S256, .f32⟩ : BufTy).Contents (Elt F) → (⟨S1x256, .f32⟩ : BufTy).Contents (Elt F)),
    unary main_v239 main_v240 (broadcastInDim S100000x256 ![0, 1] bcast_S1x256_S100000x256_0_1 : (⟨S1x256, .f32⟩ : BufTy).Contents (Elt F) → (⟨S100000x256, .f32⟩ : BufTy).Contents (Elt F)),
    binary main_v238 main_v240 main_v241 (mulf : (⟨S100000x256, .f32⟩ : BufTy).Contents (Elt F) → (⟨S100000x256, .f32⟩ : BufTy).Contents (Elt F) → (⟨S100000x256, .f32⟩ : BufTy).Contents (Elt F)),
    unary main_v192 main_v242 (broadcastInDim S1x256 ![1] bcast_S256_S1x256_1 : (⟨S256, .f32⟩ : BufTy).Contents (Elt F) → (⟨S1x256, .f32⟩ : BufTy).Contents (Elt F)),
    unary main_v242 main_v243 (broadcastInDim S100000x256 ![0, 1] bcast_S1x256_S100000x256_0_1 : (⟨S1x256, .f32⟩ : BufTy).Contents (Elt F) → (⟨S100000x256, .f32⟩ : BufTy).Contents (Elt F)),
    binary main_v241 main_v243 main_v244 (addf : (⟨S100000x256, .f32⟩ : BufTy).Contents (Elt F) → (⟨S100000x256, .f32⟩ : BufTy).Contents (Elt F) → (⟨S100000x256, .f32⟩ : BufTy).Contents (Elt F)) ]

theorem sg54_sub : (sg54 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem sg54_fresh : (sg54 : List (HloOp τ sig (Elt F))).Forall fun op => op.fresh = ∅ :=
  ⟨rfl, rfl, rfl, rfl, rfl, rfl, rfl, rfl, rfl, rfl, rfl, rfl, rfl, rfl, rfl, rfl⟩

/-- Operations 383 … 385: towards `main_v245`. -/
abbrev sg55 : List (HloOp τ sig (Elt F)) :=
  [ TRef.nullary main_call7.cst (constant S_ .f32 0x00000000#32),
    TRef.unary main_call7.cst main_call7.v0 (broadcastInDim S100000x256 ![] bcast_S_S100000x256),
    TRef.binary (.of main_v244) main_call7.v0 main_call7.v1 maximumf ]

theorem sg55_sub : (sg55 : List (HloOp τ sig (Elt F))).Forall fun op => op.bufs ⊆ tcRefs τ sig :=
  ⟨nullary_bufs_sub .., unary_bufs_sub .., binary_bufs_sub ..⟩
theorem sg55_fresh : (sg55 : List (HloOp τ sig (Elt F))).Forall fun op => op.fresh = ∅ :=
  ⟨rfl, rfl, rfl⟩

/-- Operations 386 … 391: towards `main_v249`. -/
abbrev sg56 : List (HloOp τ sig (Elt F)) :=
  [ nullary main_cst_46 (constant S_ .f32 0x3F800000#32),
    unary main_cst_46 main_v246 (broadcastInDim S800000 ![] bcast_S_S800000 : (⟨S_, .f32⟩ : BufTy).Contents (Elt F) → (⟨S800000, .f32⟩ : BufTy).Contents (Elt F)),
    nullary main_cst_47 (constant S_ .f32 0x00000000#32),
    unary main_cst_47 main_v247 (broadcastInDim S100000 ![] bcast_S_S100000 : (⟨S_, .f32⟩ : BufTy).Contents (Elt F) → (⟨S100000, .f32⟩ : BufTy).Contents (Elt F)),
    unary main_v3 main_v248 (broadcastInDim S800000x1 ![0] bcast_S800000_S800000x1_0 : (⟨S800000, .i32⟩ : BufTy).Contents (Elt F) → (⟨S800000x1, .i32⟩ : BufTy).Contents (Elt F)),
    ternary main_v247 main_v248 main_v246 main_v249 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)) ]

theorem sg56_sub : (sg56 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
theorem sg56_fresh : (sg56 : List (HloOp τ sig (Elt F))).Forall fun op => op.fresh = ∅ :=
  ⟨rfl, rfl, rfl, rfl, rfl, rfl⟩

/-- Operations 392 … 399: towards `main_v255`. -/
abbrev sg57 : List (HloOp τ sig (Elt F)) :=
  [ nullary main_c_48 (constantI S_ 32 0#32),
    unary main_c_48 main_v250 (broadcastInDim S800000 ![] bcast_S_S800000 : (⟨S_, .i32⟩ : BufTy).Contents (Elt F) → (⟨S800000, .i32⟩ : BufTy).Contents (Elt F)),
    binary main_v1 main_v250 main_v251 (cmpi .slt : (⟨S800000, .i32⟩ : BufTy).Contents (Elt F) → (⟨S800000, .i32⟩ : BufTy).Contents (Elt F) → (⟨S800000, .i1⟩ : BufTy).Contents (Elt F)),
    nullary main_c_49 (constantI S_ 32 100000#32),
    unary main_c_49 main_v252 (broadcastInDim S800000 ![] bcast_S_S800000 : (⟨S_, .i32⟩ : BufTy).Contents (Elt F) → (⟨S800000, .i32⟩ : BufTy).Contents (Elt F)),
    binary main_v1 main_v252 main_v253 (addi : (⟨S800000, .i32⟩ : BufTy).Contents (Elt F) → (⟨S800000, .i32⟩ : BufTy).Contents (Elt F) → (⟨S800000, .i32⟩ : BufTy).Contents (Elt F)),
    ternary main_v251 main_v253 main_v1 main_v254 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v254 main_v255 (broadcastInDim S800000x1 ![0] bcast_S800000_S800000x1_0 : (⟨S800000, .i32⟩ : BufTy).Contents (Elt F) → (⟨S800000x1, .i32⟩ : BufTy).Contents (Elt F)) ]

theorem sg57_sub : (sg57 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem sg57_fresh : (sg57 : List (HloOp τ sig (Elt F))).Forall fun op => op.fresh = ∅ :=
  ⟨rfl, rfl, rfl, rfl, rfl, rfl, rfl, rfl⟩

/-- Operations 400 … 410: towards `main_v264`. -/
abbrev sg58 : List (HloOp τ sig (Elt F)) :=
  [ binary main_v245 main_v255 main_v256 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_50 (constant S_ .f32 0x00000000#32),
    unary main_cst_50 main_v257 (broadcastInDim S100000x256 ![] bcast_S_S100000x256 : (⟨S_, .f32⟩ : BufTy).Contents (Elt F) → (⟨S100000x256, .f32⟩ : BufTy).Contents (Elt F)),
    unary main_v3 main_v258 (broadcastInDim S800000x1 ![0] bcast_S800000_S800000x1_0 : (⟨S800000, .i32⟩ : BufTy).Contents (Elt F) → (⟨S800000x1, .i32⟩ : BufTy).Contents (Elt F)),
    ternary main_v257 main_v258 main_v256 main_v259 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    nullary main_cst_51 (constant S_ .f32 0x3F800000#32),
    unary main_cst_51 main_v260 (broadcastInDim S100000 ![] bcast_S_S100000 : (⟨S_, .f32⟩ : BufTy).Contents (Elt F) → (⟨S100000, .f32⟩ : BufTy).Contents (Elt F)),
    binary main_v249 main_v260 main_v261 (maximumf : (⟨S100000, .f32⟩ : BufTy).Contents (Elt F) → (⟨S100000, .f32⟩ : BufTy).Contents (Elt F) → (⟨S100000, .f32⟩ : BufTy).Contents (Elt F)),
    unary main_v261 main_v262 (broadcastInDim S100000x1 ![0] bcast_S100000_S100000x1_0 : (⟨S100000, .f32⟩ : BufTy).Contents (Elt F) → (⟨S100000x1, .f32⟩ : BufTy).Contents (Elt F)),
    unary main_v262 main_v263 (broadcastInDim S100000x256 ![0, 1] bcast_S100000x1_S100000x256_0_1 : (⟨S100000x1, .f32⟩ : BufTy).Contents (Elt F) → (⟨S100000x256, .f32⟩ : BufTy).Contents (Elt F)),
    binary main_v259 main_v263 main_v264 (Host.divf : (⟨S100000x256, .f32⟩ : BufTy).Contents (Elt F) → (⟨S100000x256, .f32⟩ : BufTy).Contents (Elt F) → (⟨S100000x256, .f32⟩ : BufTy).Contents (Elt F)) ]

theorem sg58_sub : (sg58 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem sg58_fresh : (sg58 : List (HloOp τ sig (Elt F))).Forall fun op => op.fresh = ∅ :=
  ⟨rfl, rfl, rfl, rfl, rfl, rfl, rfl, rfl, rfl, rfl, rfl⟩

/-- Operations 411 … 416: towards `main_v270`. -/
abbrev sg59 : List (HloOp τ sig (Elt F)) :=
  [ binary main_v264 main_arg12 main_v265 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg13 main_v266 (broadcastInDim S1x128 ![1] bcast_S128_S1x128_1 : (⟨S128, .f32⟩ : BufTy).Contents (Elt F) → (⟨S1x128, .f32⟩ : BufTy).Contents (Elt F)),
    unary main_v266 main_v267 (broadcastInDim S100000x128 ![0, 1] bcast_S1x128_S100000x128_0_1 : (⟨S1x128, .f32⟩ : BufTy).Contents (Elt F) → (⟨S100000x128, .f32⟩ : BufTy).Contents (Elt F)),
    binary main_v265 main_v267 main_v268 (addf : (⟨S100000x128, .f32⟩ : BufTy).Contents (Elt F) → (⟨S100000x128, .f32⟩ : BufTy).Contents (Elt F) → (⟨S100000x128, .f32⟩ : BufTy).Contents (Elt F)),
    binary main_v245 main_arg14 main_v269 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    binary main_v268 main_v269 main_v270 (addf : (⟨S100000x128, .f32⟩ : BufTy).Contents (Elt F) → (⟨S100000x128, .f32⟩ : BufTy).Contents (Elt F) → (⟨S100000x128, .f32⟩ : BufTy).Contents (Elt F)) ]

theorem sg59_sub : (sg59 : List (HloOp τ sig (Elt F))).Forall fun op => op.bufs ⊆ tcRefs τ sig :=
  ⟨binary_bufs_sub .., unary_bufs_sub .., unary_bufs_sub .., binary_bufs_sub .., binary_bufs_sub .., binary_bufs_sub ..⟩
theorem sg59_fresh : (sg59 : List (HloOp τ sig (Elt F))).Forall fun op => op.fresh = ∅ :=
  ⟨rfl, rfl, rfl, rfl, rfl, rfl⟩

/-- Operations 417 … 426: towards `main_v278`. -/
abbrev sg60 : List (HloOp τ sig (Elt F)) :=
  [ binary main_v270 main_v270 main_v271 (mulf : (⟨S100000x128, .f32⟩ : BufTy).Contents (Elt F) → (⟨S100000x128, .f32⟩ : BufTy).Contents (Elt F) → (⟨S100000x128, .f32⟩ : BufTy).Contents (Elt F)),
    nullary main_cst_52 (constant S_ .f32 0x00000000#32),
    binary main_v271 main_cst_52 main_v272 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v272 main_v273 (broadcastInDim S100000x1 ![0] bcast_S100000_S100000x1_0 : (⟨S100000, .f32⟩ : BufTy).Contents (Elt F) → (⟨S100000x1, .f32⟩ : BufTy).Contents (Elt F)),
    unary main_v273 main_v274 (Host.sqrt : (⟨S100000x1, .f32⟩ : BufTy).Contents (Elt F) → (⟨S100000x1, .f32⟩ : BufTy).Contents (Elt F)),
    nullary main_cst_53 (constant S_ .f32 0x2B8CBCCC#32),
    unary main_cst_53 main_v275 (broadcastInDim S100000x1 ![] bcast_S_S100000x1 : (⟨S_, .f32⟩ : BufTy).Contents (Elt F) → (⟨S100000x1, .f32⟩ : BufTy).Contents (Elt F)),
    binary main_v274 main_v275 main_v276 (maximumf : (⟨S100000x1, .f32⟩ : BufTy).Contents (Elt F) → (⟨S100000x1, .f32⟩ : BufTy).Contents (Elt F) → (⟨S100000x1, .f32⟩ : BufTy).Contents (Elt F)),
    unary main_v276 main_v277 (broadcastInDim S100000x128 ![0, 1] bcast_S100000x1_S100000x128_0_1 : (⟨S100000x1, .f32⟩ : BufTy).Contents (Elt F) → (⟨S100000x128, .f32⟩ : BufTy).Contents (Elt F)),
    binary main_v270 main_v277 main_v278 (Host.divf : (⟨S100000x128, .f32⟩ : BufTy).Contents (Elt F) → (⟨S100000x128, .f32⟩ : BufTy).Contents (Elt F) → (⟨S100000x128, .f32⟩ : BufTy).Contents (Elt F)) ]

theorem sg60_sub : (sg60 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem sg60_fresh : (sg60 : List (HloOp τ sig (Elt F))).Forall fun op => op.fresh = ∅ :=
  ⟨rfl, rfl, rfl, rfl, rfl, rfl, rfl, rfl, rfl, rfl⟩

/-- Operations 427 … 431: towards `main_v281`. -/
abbrev sg61 : List (HloOp τ sig (Elt F)) :=
  [ nullary main_cst_54 (constant S_ .f32 0x00000000#32),
    binary main_v278 main_cst_54 main_v279 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_55 (constant S_ .f32 0x47C35000#32),
    unary main_cst_55 main_v280 (broadcastInDim S128 ![] bcast_S_S128 : (⟨S_, .f32⟩ : BufTy).Contents (Elt F) → (⟨S128, .f32⟩ : BufTy).Contents (Elt F)),
    binary main_v279 main_v280 main_v281 (Host.divf : (⟨S128, .f32⟩ : BufTy).Contents (Elt F) → (⟨S128, .f32⟩ : BufTy).Contents (Elt F) → (⟨S128, .f32⟩ : BufTy).Contents (Elt F)) ]

theorem sg61_sub : (sg61 : List (HloOp τ sig (Elt F))).Forall fun op => op.bufs ⊆ tcRefs τ sig :=
  ⟨nullary_bufs_sub .., binary_bufs_sub .., nullary_bufs_sub .., unary_bufs_sub .., binary_bufs_sub ..⟩
theorem sg61_fresh : (sg61 : List (HloOp τ sig (Elt F))).Forall fun op => op.fresh = ∅ :=
  ⟨rfl, rfl, rfl, rfl, rfl⟩

/-- Operations 432 … 454: towards `main_v282`. -/
abbrev sg62 : List (HloOp τ sig (Elt F)) :=
  [ nullary main_c_56 (constantI S_ 32 0#32),
    TRef.nullary main_call8.cst (constant S_ .f32 0x00000000#32),
    TRef.binary (.of main_v278) main_call8.cst main_call8.v0 (fun x v => Host.reduceAdd x v reducesTo_S100000x128_S128_d0 h_S_),
    TRef.unary main_call8.v0 main_call8.v1 (broadcastInDim S1x128 ![1] bcast_S128_S1x128_1),
    TRef.nullary main_call8.cst_0 (constant S_ .f32 0x47C35000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S100000x128 ![0, 1] bcast_S1x128_S100000x128_0_1),
    TRef.binary (.of main_v278) main_call8.v4 main_call8.v5 subf,
    TRef.binary main_call8.v5 main_call8.v5 main_call8.v6 mulf,
    TRef.unary (.of main_c_56) main_call8.v7 (sitofp .f32),
    TRef.nullary main_call8.cst_1 (constant S_ .f32 0x47C35000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S100000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b) ]

theorem sg62_sub : (sg62 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem sg62_fresh : (sg62 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Operations 455 … 470: towards `main_v297`. -/
abbrev sg63 : List (HloOp τ sig (Elt F)) :=
  [ unary main_v281 main_v283 (broadcastInDim S1x128 ![1] bcast_S128_S1x128_1 : (⟨S128, .f32⟩ : BufTy).Contents (Elt F) → (⟨S1x128, .f32⟩ : BufTy).Contents (Elt F)),
    unary main_v283 main_v284 (broadcastInDim S100000x128 ![0, 1] bcast_S1x128_S100000x128_0_1 : (⟨S1x128, .f32⟩ : BufTy).Contents (Elt F) → (⟨S100000x128, .f32⟩ : BufTy).Contents (Elt F)),
    binary main_v278 main_v284 main_v285 (subf : (⟨S100000x128, .f32⟩ : BufTy).Contents (Elt F) → (⟨S100000x128, .f32⟩ : BufTy).Contents (Elt F) → (⟨S100000x128, .f32⟩ : BufTy).Contents (Elt F)),
    nullary main_cst_57 (constant S_ .f32 0x3727C5AC#32),
    unary main_cst_57 main_v286 (broadcastInDim S128 ![] bcast_S_S128 : (⟨S_, .f32⟩ : BufTy).Contents (Elt F) → (⟨S128, .f32⟩ : BufTy).Contents (Elt F)),
    binary main_v282 main_v286 main_v287 (addf : (⟨S128, .f32⟩ : BufTy).Contents (Elt F) → (⟨S128, .f32⟩ : BufTy).Contents (Elt F) → (⟨S128, .f32⟩ : BufTy).Contents (Elt F)),
    unary main_v287 main_v288 (Host.rsqrt : (⟨S128, .f32⟩ : BufTy).Contents (Elt F) → (⟨S128, .f32⟩ : BufTy).Contents (Elt F)),
    unary main_v288 main_v289 (broadcastInDim S1x128 ![1] bcast_S128_S1x128_1 : (⟨S128, .f32⟩ : BufTy).Contents (Elt F) → (⟨S1x128, .f32⟩ : BufTy).Contents (Elt F)),
    unary main_v289 main_v290 (broadcastInDim S100000x128 ![0, 1] bcast_S1x128_S100000x128_0_1 : (⟨S1x128, .f32⟩ : BufTy).Contents (Elt F) → (⟨S100000x128, .f32⟩ : BufTy).Contents (Elt F)),
    binary main_v285 main_v290 main_v291 (mulf : (⟨S100000x128, .f32⟩ : BufTy).Contents (Elt F) → (⟨S100000x128, .f32⟩ : BufTy).Contents (Elt F) → (⟨S100000x128, .f32⟩ : BufTy).Contents (Elt F)),
    unary main_arg15 main_v292 (broadcastInDim S1x128 ![1] bcast_S128_S1x128_1 : (⟨S128, .f32⟩ : BufTy).Contents (Elt F) → (⟨S1x128, .f32⟩ : BufTy).Contents (Elt F)),
    unary main_v292 main_v293 (broadcastInDim S100000x128 ![0, 1] bcast_S1x128_S100000x128_0_1 : (⟨S1x128, .f32⟩ : BufTy).Contents (Elt F) → (⟨S100000x128, .f32⟩ : BufTy).Contents (Elt F)),
    binary main_v291 main_v293 main_v294 (mulf : (⟨S100000x128, .f32⟩ : BufTy).Contents (Elt F) → (⟨S100000x128, .f32⟩ : BufTy).Contents (Elt F) → (⟨S100000x128, .f32⟩ : BufTy).Contents (Elt F)),
    unary main_arg16 main_v295 (broadcastInDim S1x128 ![1] bcast_S128_S1x128_1 : (⟨S128, .f32⟩ : BufTy).Contents (Elt F) → (⟨S1x128, .f32⟩ : BufTy).Contents (Elt F)),
    unary main_v295 main_v296 (broadcastInDim S100000x128 ![0, 1] bcast_S1x128_S100000x128_0_1 : (⟨S1x128, .f32⟩ : BufTy).Contents (Elt F) → (⟨S100000x128, .f32⟩ : BufTy).Contents (Elt F)),
    binary main_v294 main_v296 main_v297 (addf : (⟨S100000x128, .f32⟩ : BufTy).Contents (Elt F) → (⟨S100000x128, .f32⟩ : BufTy).Contents (Elt F) → (⟨S100000x128, .f32⟩ : BufTy).Contents (Elt F)) ]

theorem sg63_sub : (sg63 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem sg63_fresh : (sg63 : List (HloOp τ sig (Elt F))).Forall fun op => op.fresh = ∅ :=
  ⟨rfl, rfl, rfl, rfl, rfl, rfl, rfl, rfl, rfl, rfl, rfl, rfl, rfl, rfl, rfl, rfl⟩

/-- Operations 471 … 472: towards `main_v307`. -/
abbrev sg64 : List (HloOp τ sig (Elt F)) :=
  [ binary main_v297 main_arg17 main_v298 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg18 main_v299 (broadcastInDim S1x64 ![1] bcast_S64_S1x64_1 : (⟨S64, .f32⟩ : BufTy).Contents (Elt F) → (⟨S1x64, .f32⟩ : BufTy).Contents (Elt F)) ]

theorem sg64_sub : (sg64 : List (HloOp τ sig (Elt F))).Forall fun op => op.bufs ⊆ tcRefs τ sig :=
  ⟨binary_bufs_sub .., unary_bufs_sub ..⟩
theorem sg64_fresh : (sg64 : List (HloOp τ sig (Elt F))).Forall fun op => op.fresh = ∅ :=
  ⟨rfl, rfl⟩

/-- Operations 473 … 482: towards `main_v307`. -/
abbrev sg65 : List (HloOp τ sig (Elt F)) :=
  [ unary main_v299 main_v300 (broadcastInDim S100000x64 ![0, 1] bcast_S1x64_S100000x64_0_1 : (⟨S1x64, .f32⟩ : BufTy).Contents (Elt F) → (⟨S100000x64, .f32⟩ : BufTy).Contents (Elt F)),
    binary main_v298 main_v300 main_v301 (addf : (⟨S100000x64, .f32⟩ : BufTy).Contents (Elt F) → (⟨S100000x64, .f32⟩ : BufTy).Contents (Elt F) → (⟨S100000x64, .f32⟩ : BufTy).Contents (Elt F)),
    TRef.nullary main_call9.cst (constant S_ .f32 0x00000000#32),
    TRef.unary main_call9.cst main_call9.v0 (broadcastInDim S100000x64 ![] bcast_S_S100000x64),
    TRef.binary (.of main_v301) main_call9.v0 main_call9.v1 maximumf,
    binary main_v302 main_arg19 main_v303 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg20 main_v304 (broadcastInDim S1x1 ![1] bcast_S1_S1x1_1 : (⟨S1, .f32⟩ : BufTy).Contents (Elt F) → (⟨S1x1, .f32⟩ : BufTy).Contents (Elt F)),
    unary main_v304 main_v305 (broadcastInDim S100000x1 ![0, 1] bcast_S1x1_S100000x1_0_1 : (⟨S1x1, .f32⟩ : BufTy).Contents (Elt F) → (⟨S100000x1, .f32⟩ : BufTy).Contents (Elt F)),
    binary main_v303 main_v305 main_v306 (addf : (⟨S100000x1, .f32⟩ : BufTy).Contents (Elt F) → (⟨S100000x1, .f32⟩ : BufTy).Contents (Elt F) → (⟨S100000x1, .f32⟩ : BufTy).Contents (Elt F)),
    reshape main_v306 main_v307 rfl shapeCasts_S100000x1_S100000 ]

theorem sg65_sub : (sg65 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩
theorem sg65_fresh : (sg65 : List (HloOp τ sig (Elt F))).Forall fun op => op.fresh = ∅ :=
  ⟨rfl, rfl, rfl, rfl, rfl, rfl, rfl, rfl, rfl, rfl⟩

/-- The operations of the entry function's window 0. -/
abbrev ops_part0 : List (HloOp τ sig (Elt F)) :=
  sg0 ++ (sg1 ++ (sg2 ++ (sg3 ++ (sg4 ++ (sg5 ++ (sg6 ++ (sg7 ++ (sg8 ++ (sg9)))))))))

/-- The operations of the entry function's window 1. -/
abbrev ops_part1 : List (HloOp τ sig (Elt F)) :=
  sg10 ++ (sg11 ++ (sg12 ++ (sg13 ++ (sg14 ++ (sg15 ++ (sg16 ++ (sg17 ++ (sg18 ++ (sg19 ++ (sg20 ++ (sg21)))))))))))

/-- The operations of the entry function's window 2. -/
abbrev ops_part2 : List (HloOp τ sig (Elt F)) :=
  sg22 ++ (sg23 ++ (sg24 ++ (sg25 ++ (sg26 ++ (sg27 ++ (sg28 ++ (sg29 ++ (sg30 ++ (sg31 ++ (sg32 ++ (sg33 ++ (sg34))))))))))))

/-- The operations of the entry function's window 3. -/
abbrev ops_part3 : List (HloOp τ sig (Elt F)) :=
  sg35 ++ (sg36 ++ (sg37 ++ (sg38 ++ (sg39 ++ (sg40 ++ (sg41 ++ (sg42 ++ (sg43 ++ (sg44 ++ (sg45 ++ (sg46 ++ (sg47))))))))))))

/-- The operations of the entry function's window 4. -/
abbrev ops_part4 : List (HloOp τ sig (Elt F)) :=
  sg48 ++ (sg49 ++ (sg50 ++ (sg51 ++ (sg52 ++ (sg53 ++ (sg54 ++ (sg55 ++ (sg56))))))))

/-- The operations of the entry function's window 5. -/
abbrev ops_part5 : List (HloOp τ sig (Elt F)) :=
  sg57 ++ (sg58 ++ (sg59 ++ (sg60 ++ (sg61 ++ (sg62 ++ (sg63 ++ (sg64)))))))

/-- The operations of the entry function's window 6. -/
abbrev ops_part6 : List (HloOp τ sig (Elt F)) :=
  sg65

/-- All 483 operations, in order. -/
abbrev ops : List (HloOp τ sig (Elt F)) :=
  ops_part0 ++ (ops_part1 ++ (ops_part2 ++ (ops_part3 ++ (ops_part4 ++ (ops_part5 ++ (ops_part6))))))

set_option maxRecDepth 8192 in
set_option maxHeartbeats 4000000 in
/-- Window 0 is its operations run in order: the outlined functions unfold at their calls, and both sides
    are one chain of steps once sequencing is reassociated. -/
theorem main_part0_eq (c : Dev nD) : main_part0 (F := F) c = seq ops_part0 := by
  simp only [main_part0, fn_var.body, fn_where.body, fn_relu.body, fn_var_0.body, fn_where_1.body, fn_relu_2.body, seq, List.cons_append, List.nil_append, bind_assoc, pure_bind] <;> rfl

set_option maxRecDepth 8192 in
set_option maxHeartbeats 4000000 in
/-- Window 1 is its operations run in order: the outlined functions unfold at their calls, and both sides
    are one chain of steps once sequencing is reassociated. -/
theorem main_part1_eq (c : Dev nD) : main_part1 (F := F) c = seq ops_part1 := by
  simp only [main_part1, fn_var.body, fn_where.body, fn_relu.body, fn_var_0.body, fn_where_1.body, fn_relu_2.body, seq, List.cons_append, List.nil_append, bind_assoc, pure_bind] <;> rfl

set_option maxRecDepth 8192 in
set_option maxHeartbeats 4000000 in
/-- Window 2 is its operations run in order: the outlined functions unfold at their calls, and both sides
    are one chain of steps once sequencing is reassociated. -/
theorem main_part2_eq (c : Dev nD) : main_part2 (F := F) c = seq ops_part2 := by
  simp only [main_part2, fn_var.body, fn_where.body, fn_relu.body, fn_var_0.body, fn_where_1.body, fn_relu_2.body, seq, List.cons_append, List.nil_append, bind_assoc, pure_bind] <;> rfl

set_option maxRecDepth 8192 in
set_option maxHeartbeats 4000000 in
/-- Window 3 is its operations run in order: the outlined functions unfold at their calls, and both sides
    are one chain of steps once sequencing is reassociated. -/
theorem main_part3_eq (c : Dev nD) : main_part3 (F := F) c = seq ops_part3 := by
  simp only [main_part3, fn_var.body, fn_where.body, fn_relu.body, fn_var_0.body, fn_where_1.body, fn_relu_2.body, seq, List.cons_append, List.nil_append, bind_assoc, pure_bind] <;> rfl

set_option maxRecDepth 8192 in
set_option maxHeartbeats 4000000 in
/-- Window 4 is its operations run in order: the outlined functions unfold at their calls, and both sides
    are one chain of steps once sequencing is reassociated. -/
theorem main_part4_eq (c : Dev nD) : main_part4 (F := F) c = seq ops_part4 := by
  simp only [main_part4, fn_var.body, fn_where.body, fn_relu.body, fn_var_0.body, fn_where_1.body, fn_relu_2.body, seq, List.cons_append, List.nil_append, bind_assoc, pure_bind] <;> rfl

set_option maxRecDepth 8192 in
set_option maxHeartbeats 4000000 in
/-- Window 5 is its operations run in order: the outlined functions unfold at their calls, and both sides
    are one chain of steps once sequencing is reassociated. -/
theorem main_part5_eq (c : Dev nD) : main_part5 (F := F) c = seq ops_part5 := by
  simp only [main_part5, fn_var.body, fn_where.body, fn_relu.body, fn_var_0.body, fn_where_1.body, fn_relu_2.body, seq, List.cons_append, List.nil_append, bind_assoc, pure_bind] <;> rfl

set_option maxRecDepth 8192 in
set_option maxHeartbeats 4000000 in
/-- Window 6 is its operations run in order: the outlined functions unfold at their calls, and both sides
    are one chain of steps once sequencing is reassociated. -/
theorem main_part6_eq (c : Dev nD) : main_part6 (F := F) c = seq ops_part6 := by
  simp only [main_part6, fn_var.body, fn_where.body, fn_relu.body, fn_var_0.body, fn_where_1.body, fn_relu_2.body, seq, List.cons_append, List.nil_append, bind_assoc, pure_bind] <;> rfl

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_mem {op : HloOp τ sig (Elt F)} (h : op ∈ (ops : List (HloOp τ sig (Elt F)))) :
    op ∈ (sg0 : List (HloOp τ sig (Elt F))) ∨ op ∈ (sg1 : List (HloOp τ sig (Elt F))) ∨ op ∈ (sg2 : List (HloOp τ sig (Elt F))) ∨ op ∈ (sg3 : List (HloOp τ sig (Elt F))) ∨ op ∈ (sg4 : List (HloOp τ sig (Elt F))) ∨ op ∈ (sg5 : List (HloOp τ sig (Elt F))) ∨ op ∈ (sg6 : List (HloOp τ sig (Elt F))) ∨ op ∈ (sg7 : List (HloOp τ sig (Elt F))) ∨ op ∈ (sg8 : List (HloOp τ sig (Elt F))) ∨ op ∈ (sg9 : List (HloOp τ sig (Elt F))) ∨ op ∈ (sg10 : List (HloOp τ sig (Elt F))) ∨ op ∈ (sg11 : List (HloOp τ sig (Elt F))) ∨ op ∈ (sg12 : List (HloOp τ sig (Elt F))) ∨ op ∈ (sg13 : List (HloOp τ sig (Elt F))) ∨ op ∈ (sg14 : List (HloOp τ sig (Elt F))) ∨ op ∈ (sg15 : List (HloOp τ sig (Elt F))) ∨ op ∈ (sg16 : List (HloOp τ sig (Elt F))) ∨ op ∈ (sg17 : List (HloOp τ sig (Elt F))) ∨ op ∈ (sg18 : List (HloOp τ sig (Elt F))) ∨ op ∈ (sg19 : List (HloOp τ sig (Elt F))) ∨ op ∈ (sg20 : List (HloOp τ sig (Elt F))) ∨ op ∈ (sg21 : List (HloOp τ sig (Elt F))) ∨ op ∈ (sg22 : List (HloOp τ sig (Elt F))) ∨ op ∈ (sg23 : List (HloOp τ sig (Elt F))) ∨ op ∈ (sg24 : List (HloOp τ sig (Elt F))) ∨ op ∈ (sg25 : List (HloOp τ sig (Elt F))) ∨ op ∈ (sg26 : List (HloOp τ sig (Elt F))) ∨ op ∈ (sg27 : List (HloOp τ sig (Elt F))) ∨ op ∈ (sg28 : List (HloOp τ sig (Elt F))) ∨ op ∈ (sg29 : List (HloOp τ sig (Elt F))) ∨ op ∈ (sg30 : List (HloOp τ sig (Elt F))) ∨ op ∈ (sg31 : List (HloOp τ sig (Elt F))) ∨ op ∈ (sg32 : List (HloOp τ sig (Elt F))) ∨ op ∈ (sg33 : List (HloOp τ sig (Elt F))) ∨ op ∈ (sg34 : List (HloOp τ sig (Elt F))) ∨ op ∈ (sg35 : List (HloOp τ sig (Elt F))) ∨ op ∈ (sg36 : List (HloOp τ sig (Elt F))) ∨ op ∈ (sg37 : List (HloOp τ sig (Elt F))) ∨ op ∈ (sg38 : List (HloOp τ sig (Elt F))) ∨ op ∈ (sg39 : List (HloOp τ sig (Elt F))) ∨ op ∈ (sg40 : List (HloOp τ sig (Elt F))) ∨ op ∈ (sg41 : List (HloOp τ sig (Elt F))) ∨ op ∈ (sg42 : List (HloOp τ sig (Elt F))) ∨ op ∈ (sg43 : List (HloOp τ sig (Elt F))) ∨ op ∈ (sg44 : List (HloOp τ sig (Elt F))) ∨ op ∈ (sg45 : List (HloOp τ sig (Elt F))) ∨ op ∈ (sg46 : List (HloOp τ sig (Elt F))) ∨ op ∈ (sg47 : List (HloOp τ sig (Elt F))) ∨ op ∈ (sg48 : List (HloOp τ sig (Elt F))) ∨ op ∈ (sg49 : List (HloOp τ sig (Elt F))) ∨ op ∈ (sg50 : List (HloOp τ sig (Elt F))) ∨ op ∈ (sg51 : List (HloOp τ sig (Elt F))) ∨ op ∈ (sg52 : List (HloOp τ sig (Elt F))) ∨ op ∈ (sg53 : List (HloOp τ sig (Elt F))) ∨ op ∈ (sg54 : List (HloOp τ sig (Elt F))) ∨ op ∈ (sg55 : List (HloOp τ sig (Elt F))) ∨ op ∈ (sg56 : List (HloOp τ sig (Elt F))) ∨ op ∈ (sg57 : List (HloOp τ sig (Elt F))) ∨ op ∈ (sg58 : List (HloOp τ sig (Elt F))) ∨ op ∈ (sg59 : List (HloOp τ sig (Elt F))) ∨ op ∈ (sg60 : List (HloOp τ sig (Elt F))) ∨ op ∈ (sg61 : List (HloOp τ sig (Elt F))) ∨ op ∈ (sg62 : List (HloOp τ sig (Elt F))) ∨ op ∈ (sg63 : List (HloOp τ sig (Elt F))) ∨ op ∈ (sg64 : List (HloOp τ sig (Elt F))) ∨ op ∈ (sg65 : List (HloOp τ sig (Elt F))) := by
  simpa only [ops, ops_part0, ops_part1, ops_part2, ops_part3, ops_part4, ops_part5, ops_part6, List.mem_append, or_assoc] using h

theorem ops_sub : (ops : List (HloOp τ sig (Elt F))).Forall fun op => op.bufs ⊆ tcRefs τ sig :=
  List.forall_iff_forall_mem.mpr fun op h => by
    rcases ops_mem h with h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h
    exacts [List.forall_iff_forall_mem.mp sg0_sub op h, List.forall_iff_forall_mem.mp sg1_sub op h, List.forall_iff_forall_mem.mp sg2_sub op h, List.forall_iff_forall_mem.mp sg3_sub op h, List.forall_iff_forall_mem.mp sg4_sub op h, List.forall_iff_forall_mem.mp sg5_sub op h, List.forall_iff_forall_mem.mp sg6_sub op h, List.forall_iff_forall_mem.mp sg7_sub op h, List.forall_iff_forall_mem.mp sg8_sub op h, List.forall_iff_forall_mem.mp sg9_sub op h, List.forall_iff_forall_mem.mp sg10_sub op h, List.forall_iff_forall_mem.mp sg11_sub op h, List.forall_iff_forall_mem.mp sg12_sub op h, List.forall_iff_forall_mem.mp sg13_sub op h, List.forall_iff_forall_mem.mp sg14_sub op h, List.forall_iff_forall_mem.mp sg15_sub op h, List.forall_iff_forall_mem.mp sg16_sub op h, List.forall_iff_forall_mem.mp sg17_sub op h, List.forall_iff_forall_mem.mp sg18_sub op h, List.forall_iff_forall_mem.mp sg19_sub op h, List.forall_iff_forall_mem.mp sg20_sub op h, List.forall_iff_forall_mem.mp sg21_sub op h, List.forall_iff_forall_mem.mp sg22_sub op h, List.forall_iff_forall_mem.mp sg23_sub op h, List.forall_iff_forall_mem.mp sg24_sub op h, List.forall_iff_forall_mem.mp sg25_sub op h, List.forall_iff_forall_mem.mp sg26_sub op h, List.forall_iff_forall_mem.mp sg27_sub op h, List.forall_iff_forall_mem.mp sg28_sub op h, List.forall_iff_forall_mem.mp sg29_sub op h, List.forall_iff_forall_mem.mp sg30_sub op h, List.forall_iff_forall_mem.mp sg31_sub op h, List.forall_iff_forall_mem.mp sg32_sub op h, List.forall_iff_forall_mem.mp sg33_sub op h, List.forall_iff_forall_mem.mp sg34_sub op h, List.forall_iff_forall_mem.mp sg35_sub op h, List.forall_iff_forall_mem.mp sg36_sub op h, List.forall_iff_forall_mem.mp sg37_sub op h, List.forall_iff_forall_mem.mp sg38_sub op h, List.forall_iff_forall_mem.mp sg39_sub op h, List.forall_iff_forall_mem.mp sg40_sub op h, List.forall_iff_forall_mem.mp sg41_sub op h, List.forall_iff_forall_mem.mp sg42_sub op h, List.forall_iff_forall_mem.mp sg43_sub op h, List.forall_iff_forall_mem.mp sg44_sub op h, List.forall_iff_forall_mem.mp sg45_sub op h, List.forall_iff_forall_mem.mp sg46_sub op h, List.forall_iff_forall_mem.mp sg47_sub op h, List.forall_iff_forall_mem.mp sg48_sub op h, List.forall_iff_forall_mem.mp sg49_sub op h, List.forall_iff_forall_mem.mp sg50_sub op h, List.forall_iff_forall_mem.mp sg51_sub op h, List.forall_iff_forall_mem.mp sg52_sub op h, List.forall_iff_forall_mem.mp sg53_sub op h, List.forall_iff_forall_mem.mp sg54_sub op h, List.forall_iff_forall_mem.mp sg55_sub op h, List.forall_iff_forall_mem.mp sg56_sub op h, List.forall_iff_forall_mem.mp sg57_sub op h, List.forall_iff_forall_mem.mp sg58_sub op h, List.forall_iff_forall_mem.mp sg59_sub op h, List.forall_iff_forall_mem.mp sg60_sub op h, List.forall_iff_forall_mem.mp sg61_sub op h, List.forall_iff_forall_mem.mp sg62_sub op h, List.forall_iff_forall_mem.mp sg63_sub op h, List.forall_iff_forall_mem.mp sg64_sub op h, List.forall_iff_forall_mem.mp sg65_sub op h]

theorem ops_fresh : ∀ op ∈ (ops : List (HloOp τ sig (Elt F))), op.fresh = ∅ := fun op h => by
    rcases ops_mem h with h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h
    exacts [List.forall_iff_forall_mem.mp sg0_fresh op h, List.forall_iff_forall_mem.mp sg1_fresh op h, List.forall_iff_forall_mem.mp sg2_fresh op h, List.forall_iff_forall_mem.mp sg3_fresh op h, List.forall_iff_forall_mem.mp sg4_fresh op h, List.forall_iff_forall_mem.mp sg5_fresh op h, List.forall_iff_forall_mem.mp sg6_fresh op h, List.forall_iff_forall_mem.mp sg7_fresh op h, List.forall_iff_forall_mem.mp sg8_fresh op h, List.forall_iff_forall_mem.mp sg9_fresh op h, List.forall_iff_forall_mem.mp sg10_fresh op h, List.forall_iff_forall_mem.mp sg11_fresh op h, List.forall_iff_forall_mem.mp sg12_fresh op h, List.forall_iff_forall_mem.mp sg13_fresh op h, List.forall_iff_forall_mem.mp sg14_fresh op h, List.forall_iff_forall_mem.mp sg15_fresh op h, List.forall_iff_forall_mem.mp sg16_fresh op h, List.forall_iff_forall_mem.mp sg17_fresh op h, List.forall_iff_forall_mem.mp sg18_fresh op h, List.forall_iff_forall_mem.mp sg19_fresh op h, List.forall_iff_forall_mem.mp sg20_fresh op h, List.forall_iff_forall_mem.mp sg21_fresh op h, List.forall_iff_forall_mem.mp sg22_fresh op h, List.forall_iff_forall_mem.mp sg23_fresh op h, List.forall_iff_forall_mem.mp sg24_fresh op h, List.forall_iff_forall_mem.mp sg25_fresh op h, List.forall_iff_forall_mem.mp sg26_fresh op h, List.forall_iff_forall_mem.mp sg27_fresh op h, List.forall_iff_forall_mem.mp sg28_fresh op h, List.forall_iff_forall_mem.mp sg29_fresh op h, List.forall_iff_forall_mem.mp sg30_fresh op h, List.forall_iff_forall_mem.mp sg31_fresh op h, List.forall_iff_forall_mem.mp sg32_fresh op h, List.forall_iff_forall_mem.mp sg33_fresh op h, List.forall_iff_forall_mem.mp sg34_fresh op h, List.forall_iff_forall_mem.mp sg35_fresh op h, List.forall_iff_forall_mem.mp sg36_fresh op h, List.forall_iff_forall_mem.mp sg37_fresh op h, List.forall_iff_forall_mem.mp sg38_fresh op h, List.forall_iff_forall_mem.mp sg39_fresh op h, List.forall_iff_forall_mem.mp sg40_fresh op h, List.forall_iff_forall_mem.mp sg41_fresh op h, List.forall_iff_forall_mem.mp sg42_fresh op h, List.forall_iff_forall_mem.mp sg43_fresh op h, List.forall_iff_forall_mem.mp sg44_fresh op h, List.forall_iff_forall_mem.mp sg45_fresh op h, List.forall_iff_forall_mem.mp sg46_fresh op h, List.forall_iff_forall_mem.mp sg47_fresh op h, List.forall_iff_forall_mem.mp sg48_fresh op h, List.forall_iff_forall_mem.mp sg49_fresh op h, List.forall_iff_forall_mem.mp sg50_fresh op h, List.forall_iff_forall_mem.mp sg51_fresh op h, List.forall_iff_forall_mem.mp sg52_fresh op h, List.forall_iff_forall_mem.mp sg53_fresh op h, List.forall_iff_forall_mem.mp sg54_fresh op h, List.forall_iff_forall_mem.mp sg55_fresh op h, List.forall_iff_forall_mem.mp sg56_fresh op h, List.forall_iff_forall_mem.mp sg57_fresh op h, List.forall_iff_forall_mem.mp sg58_fresh op h, List.forall_iff_forall_mem.mp sg59_fresh op h, List.forall_iff_forall_mem.mp sg60_fresh op h, List.forall_iff_forall_mem.mp sg61_fresh op h, List.forall_iff_forall_mem.mp sg62_fresh op h, List.forall_iff_forall_mem.mp sg63_fresh op h, List.forall_iff_forall_mem.mp sg64_fresh op h, List.forall_iff_forall_mem.mp sg65_fresh op h]

/-- At the compiled mesh, for any float values, from any memory with zero counters: every weakly fair execution of
    the entry function terminates, and every final state has each buffer at the fold of the operations' results
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRunDefs.lean ====
/- The reference computation, stage by stage: each definition is the composition of the host operations
   of one stretch of the reference program, written over the stretch's inputs. -/
import proofs.«169498_j72670846649171_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge sources: row 0 of the edge table, as a vector. -/
def refSrc (e : (⟨S2x800000, .i32⟩ : BufTy).Contents (Elt F)) :
    (⟨S800000, .i32⟩ : BufTy).Contents (Elt F) :=
  (shapeCast S800000 (extractStridedSlice S1x800000 ![0, 0] e slices_S2x800000_S1x800000_0_0 : (⟨S1x800000, .i32⟩ : BufTy).Contents (Elt F)) shapeCasts_S1x800000_S800000 : (⟨S800000, .i32⟩ : BufTy).Contents (Elt F))

/-- The edge targets: row 1 of the edge table, as a vector. -/
def refDst (e : (⟨S2x800000, .i32⟩ : BufTy).Contents (Elt F)) :
    (⟨S800000, .i32⟩ : BufTy).Contents (Elt F) :=
  (shapeCast S800000 (extractStridedSlice S1x800000 ![1, 0] e slices_S2x800000_S1x800000_1_0 : (⟨S1x800000, .i32⟩ : BufTy).Contents (Elt F)) shapeCasts_S1x800000_S800000 : (⟨S800000, .i32⟩ : BufTy).Contents (Elt F))

/-- The in-degree of every node: ones summed along the targets. -/
def refDeg (dst : (⟨S800000, .i32⟩ : BufTy).Contents (Elt F)) :
    (⟨S100000, .f32⟩ : BufTy).Contents (Elt F) :=
  (Host.scatterAdd scatter_S100000_S800000x1_S800000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S800000x1 ![0] bcast_S800000_S800000x1_0 dst : (⟨S800000x1, .i32⟩ : BufTy).Contents (Elt F)) (broadcastInDim S800000 ![] bcast_S_S800000 (constant S_ .f32 0x3F800000#32 : (⟨S_, .f32⟩ : BufTy).Contents (Elt F)) : (⟨S800000, .f32⟩ : BufTy).Contents (Elt F)) : (⟨S100000, .f32⟩ : BufTy).Contents (Elt F))

/-- The sources as a gather index: a negative entry is shifted up by the node count. -/
def refSrcIdx (src : (⟨S800000, .i32⟩ : BufTy).Contents (Elt F)) :
    (⟨S800000x1, .i32⟩ : BufTy).Contents (Elt F) :=
  (broadcastInDim S800000x1 ![0] bcast_S800000_S800000x1_0 (select (cmpi .slt src (broadcastInDim S800000 ![] bcast_S_S800000 (constantI S_ 32 0#32 : (⟨S_, .i32⟩ : BufTy).Contents (Elt F)) : (⟨S800000, .i32⟩ : BufTy).Contents (Elt F)) : (⟨S800000, .i1⟩ : BufTy).Contents (Elt F)) (addi src (broadcastInDim S800000 ![] bcast_S_S800000 (constantI S_ 32 100000#32 : (⟨S_, .i32⟩ : BufTy).Contents (Elt F)) : (⟨S800000, .i32⟩ : BufTy).Contents (Elt F)) : (⟨S800000, .i32⟩ : BufTy).Contents (Elt F)) src : (⟨S800000, .i32⟩ : BufTy).Contents (Elt F)) : (⟨S800000x1, .i32⟩ : BufTy).Contents (Elt F))

/-- Mean aggregation: rows of `h` gathered at the sources, summed along the targets, divided by the degree clamped below by one. -/
def refAgg12 (h : (⟨S100000x12, .f32⟩ : BufTy).Contents (Elt F)) (sidx : (⟨S800000x1, .i32⟩ : BufTy).Contents (Elt F)) (dst : (⟨S800000, .i32⟩ : BufTy).Contents (Elt F)) (deg : (⟨S100000, .f32⟩ : BufTy).Contents (Elt F)) :
    (⟨S100000x12, .f32⟩ : BufTy).Contents (Elt F) :=
  (Host.divf (Host.scatterAdd scatter_S100000x12_S800000x1_S800000x12_1_0_0_1 (broadcastInDim S100000x12 ![] bcast_S_S100000x12 (constant S_ .f32 0x00000000#32 : (⟨S_, .f32⟩ : BufTy).Contents (Elt F)) : (⟨S100000x12, .f32⟩ : BufTy).Contents (Elt F)) (broadcastInDim S800000x1 ![0] bcast_S800000_S800000x1_0 dst : (⟨S800000x1, .i32⟩ : BufTy).Contents (Elt F)) (Host.gather gather_S100000x12_S800000x1_S800000x12_1_0_n_n_0_1_112 h sidx : (⟨S800000x12, .f32⟩ : BufTy).Contents (Elt F)) : (⟨S100000x12, .f32⟩ : BufTy).Contents (Elt F)) (broadcastInDim S100000x12 ![0, 1] bcast_S100000x1_S100000x12_0_1 (broadcastInDim S100000x1 ![0] bcast_S100000_S100000x1_0 (maximumf deg (broadcastInDim S100000 ![] bcast_S_S100000 (constant S_ .f32 0x3F800000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x12, .f32⟩ : BufTy).Contents (Elt F)) : (⟨S100000x12, .f32⟩ : BufTy).Contents (Elt F))

/-- The layer's affine map: aggregate times the left weight, plus the bias, plus `h` times the right weight. -/
def refPre12x256 (agg : (⟨S100000x12, .f32⟩ : BufTy).Contents (Elt F)) (wl : (⟨S12x256, .f32⟩ : BufTy).Contents (Elt F)) (bl : (⟨S256, .f32⟩ : BufTy).Contents (Elt F)) (h : (⟨S100000x12, .f32⟩ : BufTy).Contents (Elt F)) (wr : (⟨S12x256, .f32⟩ : BufTy).Contents (Elt F)) :
    (⟨S100000x256, .f32⟩ : BufTy).Contents (Elt F) :=
  (addf (addf (Host.dotGeneral dot_S100000x12_S12x256_S100000x256_1_0_0_1_n_n none agg wl : (⟨S100000x256, .f32⟩ : BufTy).Contents (Elt F)) (broadcastInDim S100000x256 ![0, 1] bcast_S1x256_S100000x256_0_1 (broadcastInDim S1x256 ![1] bcast_S256_S1x256_1 bl : (⟨S1x256, .f32⟩ : BufTy).Contents (Elt F)) : (⟨S100000x256, .f32⟩ : BufTy).Contents (Elt F)) : (⟨S100000x256, .f32⟩ : BufTy).Contents (Elt F)) (Host.dotGeneral dot_S100000x12_S12x256_S100000x256_1_0_0_1_n_n none h wr : (⟨S100000x256, .f32⟩ : BufTy).Contents (Elt F)) : (⟨S100000x256, .f32⟩ : BufTy).Contents (Elt F))

/-- Each row divided by its Euclidean norm clamped below by 1e-12. -/
def refRownorm256 (pre : (⟨S100000x256, .f32⟩ : BufTy).Contents (Elt F)) :
    (⟨S100000x256, .f32⟩ : BufTy).Contents (Elt F) :=
  (Host.divf pre (broadcastInDim S100000x256 ![0, 1] bcast_S100000x1_S100000x256_0_1 (maximumf (Host.sqrt (broadcastInDim S100000x1 ![0] bcast_S100000_S100000x1_0 (Host.reduceAdd (mulf pre pre : (⟨S100000x256, .f32⟩ : BufTy).Contents (Elt F)) (constant S_ .f32 0x00000000#32 : (⟨S_, .f32⟩ : BufTy).Contents (Elt F)) reducesTo_S100000x256_S100000_d1 h_S_ : (⟨S100000, .f32⟩ : BufTy).Contents (Elt F)) : (⟨S100000x1, .f32⟩ : BufTy).Contents (Elt F)) : (⟨S100000x1, .f32⟩ : BufTy).Contents (Elt F)) (broadcastInDim S100000x1 ![] bcast_S_S100000x1 (constant S_ .f32 0x2B8CBCCC#32 : (⟨S_, .f32⟩ : BufTy).Contents (Elt F)) : (⟨S100000x1, .f32⟩ : BufTy).Contents (Elt F)) : (⟨S100000x1, .f32⟩ : BufTy).Contents (Elt F)) : (⟨S100000x256, .f32⟩ : BufTy).Contents (Elt F)) : (⟨S100000x256, .f32⟩ : BufTy).Contents (Elt F))

/-- The column means over the 100000 rows. -/
def refMean256 (x : (⟨S100000x256, .f32⟩ : BufTy).Contents (Elt F)) :
    (⟨S256, .f32⟩ : BufTy).Contents (Elt F) :=
  (Host.divf (Host.reduceAdd x (constant S_ .f32 0x00000000#32 : (⟨S_, .f32⟩ : BufTy).Contents (Elt F)) reducesTo_S100000x256_S256_d0 h_S_ : (⟨S256, .f32⟩ : BufTy).Contents (Elt F)) (broadcastInDim S256 ![] bcast_S_S256 (constant S_ .f32 0x47C35000#32 : (⟨S_, .f32⟩ : BufTy).Contents (Elt F)) : (⟨S256, .f32⟩ : BufTy).Contents (Elt F)) : (⟨S256, .f32⟩ : BufTy).Contents (Elt F))

/-- The column variances over the 100000 rows: squared deviations from the column mean, summed and divided by 100000 - 0, selected where that divisor is positive. -/
def refVar256 (x : (⟨S100000x256, .f32⟩ : BufTy).Contents (Elt F)) :
    (⟨S256, .f32⟩ : BufTy).Contents (Elt F) :=
  (select (broadcastInDim S256 ![] bcast_S_S256 (cmpf .ogt (subf (constant S_ .f32 0x47C35000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf x (broadcastInDim S100000x256 ![0, 1] bcast_S1x256_S100000x256_0_1 (Host.divf (broadcastInDim S1x256 ![1] bcast_S256_S1x256_1 (Host.reduceAdd x (constant S_ .f32 0x00000000#32 : (⟨S_, .f32⟩ : BufTy).Contents (Elt F)) reducesTo_S100000x256_S256_d0 h_S_ : (⟨S256, .f32⟩ : BufTy).Contents (Elt F)) : (⟨S1x256, .f32⟩ : BufTy).Contents (Elt F)) (broadcastInDim S1x256 ![] bcast_S_S1x256 (constant S_ .f32 0x47C35000#32 : (⟨S_, .f32⟩ : BufTy).Contents (Elt F)) : (⟨S1x256, .f32⟩ : BufTy).Contents (Elt F)) : (⟨S1x256, .f32⟩ : BufTy).Contents (Elt F)) : (⟨S100000x256, .f32⟩ : BufTy).Contents (Elt F)) : (⟨S100000x256, .f32⟩ : BufTy).Contents (Elt F)) (subf x (broadcastInDim S100000x256 ![0, 1] bcast_S1x256_S100000x256_0_1 (Host.divf (broadcastInDim S1x256 ![1] bcast_S256_S1x256_1 (Host.reduceAdd x (constant S_ .f32 0x00000000#32 : (⟨S_, .f32⟩ : BufTy).Contents (Elt F)) reducesTo_S100000x256_S256_d0 h_S_ : (⟨S256, .f32⟩ : BufTy).Contents (Elt F)) : (⟨S1x256, .f32⟩ : BufTy).Contents (Elt F)) (broadcastInDim S1x256 ![] bcast_S_S1x256 (constant S_ .f32 0x47C35000#32 : (⟨S_, .f32⟩ : BufTy).Contents (Elt F)) : (⟨S1x256, .f32⟩ : BufTy).Contents (Elt F)) : (⟨S1x256, .f32⟩ : BufTy).Contents (Elt F)) : (⟨S100000x256, .f32⟩ : BufTy).Contents (Elt F)) : (⟨S100000x256, .f32⟩ : BufTy).Contents (Elt F)) : (⟨S100000x256, .f32⟩ : BufTy).Contents (Elt F)) (constant S_ .f32 0x00000000#32 : (⟨S_, .f32⟩ : BufTy).Contents (Elt F)) reducesTo_S100000x256_S256_d0 h_S_ : (⟨S256, .f32⟩ : BufTy).Contents (Elt F)) (broadcastInDim S256 ![] bcast_S_S256 (subf (constant S_ .f32 0x47C35000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) : (⟨S256, .f32⟩ : BufTy).Contents (Elt F)) : (⟨S256, .f32⟩ : BufTy).Contents (Elt F)) (broadcastInDim S256 ![] bcast_S_S256 ((constant S_ .f32 0x7FC00000#32 : (⟨S_, .f32⟩ : BufTy).Contents (Elt F)) : (⟨S_, .f32⟩ : BufTy).Contents (Elt F)) : (⟨S256, .f32⟩ : BufTy).Contents (Elt F)) : (⟨S256, .f32⟩ : BufTy).Contents (Elt F))

/-- Batch normalisation with given mean and variance: (x - mean) * rsqrt (var + 1e-5) * gamma + beta. -/
def refBn256 (mu : (⟨S256, .f32⟩ : BufTy).Contents (Elt F)) (x : (⟨S100000x256, .f32⟩ : BufTy).Contents (Elt F)) (va : (⟨S256, .f32⟩ : BufTy).Contents (Elt F)) (gamma : (⟨S256, .f32⟩ : BufTy).Contents (Elt F)) (beta : (⟨S256, .f32⟩ : BufTy).Contents (Elt F)) :
    (⟨S100000x256, .f32⟩ : BufTy).Contents (Elt F) :=
  (addf (mulf (mulf (subf x (broadcastInDim S100000x256 ![0, 1] bcast_S1x256_S100000x256_0_1 (broadcastInDim S1x256 ![1] bcast_S256_S1x256_1 mu : (⟨S1x256, .f32⟩ : BufTy).Contents (Elt F)) : (⟨S100000x256, .f32⟩ : BufTy).Contents (Elt F)) : (⟨S100000x256, .f32⟩ : BufTy).Contents (Elt F)) (broadcastInDim S100000x256 ![0, 1] bcast_S1x256_S100000x256_0_1 (broadcastInDim S1x256 ![1] bcast_S256_S1x256_1 (Host.rsqrt (addf va (broadcastInDim S256 ![] bcast_S_S256 (constant S_ .f32 0x3727C5AC#32 : (⟨S_, .f32⟩ : BufTy).Contents (Elt F)) : (⟨S256, .f32⟩ : BufTy).Contents (Elt F)) : (⟨S256, .f32⟩ : BufTy).Contents (Elt F)) : (⟨S256, .f32⟩ : BufTy).Contents (Elt F)) : (⟨S1x256, .f32⟩ : BufTy).Contents (Elt F)) : (⟨S100000x256, .f32⟩ : BufTy).Contents (Elt F)) : (⟨S100000x256, .f32⟩ : BufTy).Contents (Elt F)) (broadcastInDim S100000x256 ![0, 1] bcast_S1x256_S100000x256_0_1 (broadcastInDim S1x256 ![1] bcast_S256_S1x256_1 gamma : (⟨S1x256, .f32⟩ : BufTy).Contents (Elt F)) : (⟨S100000x256, .f32⟩ : BufTy).Contents (Elt F)) : (⟨S100000x256, .f32⟩ : BufTy).Contents (Elt F)) (broadcastInDim S100000x256 ![0, 1] bcast_S1x256_S100000x256_0_1 (broadcastInDim S1x256 ![1] bcast_S256_S1x256_1 beta : (⟨S1x256, .f32⟩ : BufTy).Contents (Elt F)) : (⟨S100000x256, .f32⟩ : BufTy).Contents (Elt F)) : (⟨S100000x256, .f32⟩ : BufTy).Contents (Elt F))

/-- The positive part, entry by entry. -/
def refRelu256 (x : (⟨S100000x256, .f32⟩ : BufTy).Contents (Elt F)) :
    (⟨S100000x256, .f32⟩ : BufTy).Contents (Elt F) :=
  (maximumf x (broadcastInDim S100000x256 ![] bcast_S_S100000x256 (constant S_ .f32 0x00000000#32 : (⟨S_, .f32⟩ : BufTy).Contents (Elt F)) : (⟨S100000x256, .f32⟩ : BufTy).Contents (Elt F)) : (⟨S100000x256, .f32⟩ : BufTy).Contents (Elt F))

/-- One 256×256 slice of a stack of three. -/
def refMat0 (w : (⟨S3x256x256, .f32⟩ : BufTy).Contents (Elt F)) :
    (⟨S256x256, .f32⟩ : BufTy).Contents (Elt F) :=
  (shapeCast S256x256 (extractStridedSlice S1x256x256 ![0, 0, 0] w slices_S3x256x256_S1x256x256_0_0_0 : (⟨S1x256x256, .f32⟩ : BufTy).Contents (Elt F)) shapeCasts_S1x256x256_S256x256 : (⟨S256x256, .f32⟩ : BufTy).Contents (Elt F))

/-- One length-256 slice of a stack of three. -/
def refVec0 (b : (⟨S3x256, .f32⟩ : BufTy).Contents (Elt F)) :
    (⟨S256, .f32⟩ : BufTy).Contents (Elt F) :=
  (shapeCast S256 (extractStridedSlice S1x256 ![0, 0] b slices_S3x256_S1x256_0_0 : (⟨S1x256, .f32⟩ : BufTy).Contents (Elt F)) shapeCasts_S1x256_S256 : (⟨S256, .f32⟩ : BufTy).Contents (Elt F))

/-- Mean aggregation: rows of `h` gathered at the sources, summed along the targets, divided by the degree clamped below by one. -/
def refAgg256 (h : (⟨S100000x256, .f32⟩ : BufTy).Contents (Elt F)) (sidx : (⟨S800000x1, .i32⟩ : BufTy).Contents (Elt F)) (dst : (⟨S800000, .i32⟩ : BufTy).Contents (Elt F)) (deg : (⟨S100000, .f32⟩ : BufTy).Contents (Elt F)) :
    (⟨S100000x256, .f32⟩ : BufTy).Contents (Elt F) :=
  (Host.divf (Host.scatterAdd scatter_S100000x256_S800000x1_S800000x256_1_0_0_1 (broadcastInDim S100000x256 ![] bcast_S_S100000x256 (constant S_ .f32 0x00000000#32 : (⟨S_, .f32⟩ : BufTy).Contents (Elt F)) : (⟨S100000x256, .f32⟩ : BufTy).Contents (Elt F)) (broadcastInDim S800000x1 ![0] bcast_S800000_S800000x1_0 dst : (⟨S800000x1, .i32⟩ : BufTy).Contents (Elt F)) (Host.gather gather_S100000x256_S800000x1_S800000x256_1_0_n_n_0_1_1256 h sidx : (⟨S800000x256, .f32⟩ : BufTy).Contents (Elt F)) : (⟨S100000x256, .f32⟩ : BufTy).Contents (Elt F)) (broadcastInDim S100000x256 ![0, 1] bcast_S100000x1_S100000x256_0_1 (broadcastInDim S100000x1 ![0] bcast_S100000_S100000x1_0 (maximumf deg (broadcastInDim S100000 ![] bcast_S_S100000 (constant S_ .f32 0x3F800000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x256, .f32⟩ : BufTy).Contents (Elt F)) : (⟨S100000x256, .f32⟩ : BufTy).Contents (Elt F))

/-- The layer's affine map: aggregate times the left weight, plus the bias, plus `h` times the right weight. -/
def refPre256x256 (agg : (⟨S100000x256, .f32⟩ : BufTy).Contents (Elt F)) (wl : (⟨S256x256, .f32⟩ : BufTy).Contents (Elt F)) (bl : (⟨S256, .f32⟩ : BufTy).Contents (Elt F)) (h : (⟨S100000x256, .f32⟩ : BufTy).Contents (Elt F)) (wr : (⟨S256x256, .f32⟩ : BufTy).Contents (Elt F)) :
    (⟨S100000x256, .f32⟩ : BufTy).Contents (Elt F) :=
  (addf (addf (Host.dotGeneral dot_S100000x256_S256x256_S100000x256_1_0_0_1_n_n none agg wl : (⟨S100000x256, .f32⟩ : BufTy).Contents (Elt F)) (broadcastInDim S100000x256 ![0, 1] bcast_S1x256_S100000x256_0_1 (broadcastInDim S1x256 ![1] bcast_S256_S1x256_1 bl : (⟨S1x256, .f32⟩ : BufTy).Contents (Elt F)) : (⟨S100000x256, .f32⟩ : BufTy).Contents (Elt F)) : (⟨S100000x256, .f32⟩ : BufTy).Contents (Elt F)) (Host.dotGeneral dot_S100000x256_S256x256_S100000x256_1_0_0_1_n_n none h wr : (⟨S100000x256, .f32⟩ : BufTy).Contents (Elt F)) : (⟨S100000x256, .f32⟩ : BufTy).Contents (Elt F))

/-- One 256×256 slice of a stack of three. -/
def refMat1 (w : (⟨S3x256x256, .f32⟩ : BufTy).Contents (Elt F)) :
    (⟨S256x256, .f32⟩ : BufTy).Contents (Elt F) :=
  (shapeCast S256x256 (extractStridedSlice S1x256x256 ![1, 0, 0] w slices_S3x256x256_S1x256x256_1_0_0 : (⟨S1x256x256, .f32⟩ : BufTy).Contents (Elt F)) shapeCasts_S1x256x256_S256x256 : (⟨S256x256, .f32⟩ : BufTy).Contents (Elt F))

/-- One length-256 slice of a stack of three. -/
def refVec1 (b : (⟨S3x256, .f32⟩ : BufTy).Contents (Elt F)) :
    (⟨S256, .f32⟩ : BufTy).Contents (Elt F) :=
  (shapeCast S256 (extractStridedSlice S1x256 ![1, 0] b slices_S3x256_S1x256_1_0 : (⟨S1x256, .f32⟩ : BufTy).Contents (Elt F)) shapeCasts_S1x256_S256 : (⟨S256, .f32⟩ : BufTy).Contents (Elt F))

/-- One 256×256 slice of a stack of three. -/
def refMat2 (w : (⟨S3x256x256, .f32⟩ : BufTy).Contents (Elt F)) :
    (⟨S256x256, .f32⟩ : BufTy).Contents (Elt F) :=
  (shapeCast S256x256 (extractStridedSlice S1x256x256 ![2, 0, 0] w slices_S3x256x256_S1x256x256_2_0_0 : (⟨S1x256x256, .f32⟩ : BufTy).Contents (Elt F)) shapeCasts_S1x256x256_S256x256 : (⟨S256x256, .f32⟩ : BufTy).Contents (Elt F))

/-- One length-256 slice of a stack of three. -/
def refVec2 (b : (⟨S3x256, .f32⟩ : BufTy).Contents (Elt F)) :
    (⟨S256, .f32⟩ : BufTy).Contents (Elt F) :=
  (shapeCast S256 (extractStridedSlice S1x256 ![2, 0] b slices_S3x256_S1x256_2_0 : (⟨S1x256, .f32⟩ : BufTy).Contents (Elt F)) shapeCasts_S1x256_S256 : (⟨S256, .f32⟩ : BufTy).Contents (Elt F))

/-- The layer's affine map: aggregate times the left weight, plus the bias, plus `h` times the right weight. -/
def refPre256x128 (agg : (⟨S100000x256, .f32⟩ : BufTy).Contents (Elt F)) (wl : (⟨S256x128, .f32⟩ : BufTy).Contents (Elt F)) (bl : (⟨S128, .f32⟩ : BufTy).Contents (Elt F)) (h : (⟨S100000x256, .f32⟩ : BufTy).Contents (Elt F)) (wr : (⟨S256x128, .f32⟩ : BufTy).Contents (Elt F)) :
    (⟨S100000x128, .f32⟩ : BufTy).Contents (Elt F) :=
  (addf (addf (Host.dotGeneral dot_S100000x256_S256x128_S100000x128_1_0_0_1_n_n none agg wl : (⟨S100000x128, .f32⟩ : BufTy).Contents (Elt F)) (broadcastInDim S100000x128 ![0, 1] bcast_S1x128_S100000x128_0_1 (broadcastInDim S1x128 ![1] bcast_S128_S1x128_1 bl : (⟨S1x128, .f32⟩ : BufTy).Contents (Elt F)) : (⟨S100000x128, .f32⟩ : BufTy).Contents (Elt F)) : (⟨S100000x128, .f32⟩ : BufTy).Contents (Elt F)) (Host.dotGeneral dot_S100000x256_S256x128_S100000x128_1_0_0_1_n_n none h wr : (⟨S100000x128, .f32⟩ : BufTy).Contents (Elt F)) : (⟨S100000x128, .f32⟩ : BufTy).Contents (Elt F))

/-- Each row divided by its Euclidean norm clamped below by 1e-12. -/
def refRownorm128 (pre : (⟨S100000x128, .f32⟩ : BufTy).Contents (Elt F)) :
    (⟨S100000x128, .f32⟩ : BufTy).Contents (Elt F) :=
  (Host.divf pre (broadcastInDim S100000x128 ![0, 1] bcast_S100000x1_S100000x128_0_1 (maximumf (Host.sqrt (broadcastInDim S100000x1 ![0] bcast_S100000_S100000x1_0 (Host.reduceAdd (mulf pre pre : (⟨S100000x128, .f32⟩ : BufTy).Contents (Elt F)) (constant S_ .f32 0x00000000#32 : (⟨S_, .f32⟩ : BufTy).Contents (Elt F)) reducesTo_S100000x128_S100000_d1 h_S_ : (⟨S100000, .f32⟩ : BufTy).Contents (Elt F)) : (⟨S100000x1, .f32⟩ : BufTy).Contents (Elt F)) : (⟨S100000x1, .f32⟩ : BufTy).Contents (Elt F)) (broadcastInDim S100000x1 ![] bcast_S_S100000x1 (constant S_ .f32 0x2B8CBCCC#32 : (⟨S_, .f32⟩ : BufTy).Contents (Elt F)) : (⟨S100000x1, .f32⟩ : BufTy).Contents (Elt F)) : (⟨S100000x1, .f32⟩ : BufTy).Contents (Elt F)) : (⟨S100000x128, .f32⟩ : BufTy).Contents (Elt F)) : (⟨S100000x128, .f32⟩ : BufTy).Contents (Elt F))

/-- The column means over the 100000 rows. -/
def refMean128 (x : (⟨S100000x128, .f32⟩ : BufTy).Contents (Elt F)) :
    (⟨S128, .f32⟩ : BufTy).Contents (Elt F) :=
  (Host.divf (Host.reduceAdd x (constant S_ .f32 0x00000000#32 : (⟨S_, .f32⟩ : BufTy).Contents (Elt F)) reducesTo_S100000x128_S128_d0 h_S_ : (⟨S128, .f32⟩ : BufTy).Contents (Elt F)) (broadcastInDim S128 ![] bcast_S_S128 (constant S_ .f32 0x47C35000#32 : (⟨S_, .f32⟩ : BufTy).Contents (Elt F)) : (⟨S128, .f32⟩ : BufTy).Contents (Elt F)) : (⟨S128, .f32⟩ : BufTy).Contents (Elt F))

/-- The column variances over the 100000 rows: squared deviations from the column mean, summed and divided by 100000 - 0, selected where that divisor is positive. -/
def refVar128 (x : (⟨S100000x128, .f32⟩ : BufTy).Contents (Elt F)) :
    (⟨S128, .f32⟩ : BufTy).Contents (Elt F) :=
  (select (broadcastInDim S128 ![] bcast_S_S128 (cmpf .ogt (subf (constant S_ .f32 0x47C35000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf x (broadcastInDim S100000x128 ![0, 1] bcast_S1x128_S100000x128_0_1 (Host.divf (broadcastInDim S1x128 ![1] bcast_S128_S1x128_1 (Host.reduceAdd x (constant S_ .f32 0x00000000#32 : (⟨S_, .f32⟩ : BufTy).Contents (Elt F)) reducesTo_S100000x128_S128_d0 h_S_ : (⟨S128, .f32⟩ : BufTy).Contents (Elt F)) : (⟨S1x128, .f32⟩ : BufTy).Contents (Elt F)) (broadcastInDim S1x128 ![] bcast_S_S1x128 (constant S_ .f32 0x47C35000#32 : (⟨S_, .f32⟩ : BufTy).Contents (Elt F)) : (⟨S1x128, .f32⟩ : BufTy).Contents (Elt F)) : (⟨S1x128, .f32⟩ : BufTy).Contents (Elt F)) : (⟨S100000x128, .f32⟩ : BufTy).Contents (Elt F)) : (⟨S100000x128, .f32⟩ : BufTy).Contents (Elt F)) (subf x (broadcastInDim S100000x128 ![0, 1] bcast_S1x128_S100000x128_0_1 (Host.divf (broadcastInDim S1x128 ![1] bcast_S128_S1x128_1 (Host.reduceAdd x (constant S_ .f32 0x00000000#32 : (⟨S_, .f32⟩ : BufTy).Contents (Elt F)) reducesTo_S100000x128_S128_d0 h_S_ : (⟨S128, .f32⟩ : BufTy).Contents (Elt F)) : (⟨S1x128, .f32⟩ : BufTy).Contents (Elt F)) (broadcastInDim S1x128 ![] bcast_S_S1x128 (constant S_ .f32 0x47C35000#32 : (⟨S_, .f32⟩ : BufTy).Contents (Elt F)) : (⟨S1x128, .f32⟩ : BufTy).Contents (Elt F)) : (⟨S1x128, .f32⟩ : BufTy).Contents (Elt F)) : (⟨S100000x128, .f32⟩ : BufTy).Contents (Elt F)) : (⟨S100000x128, .f32⟩ : BufTy).Contents (Elt F)) : (⟨S100000x128, .f32⟩ : BufTy).Contents (Elt F)) (constant S_ .f32 0x00000000#32 : (⟨S_, .f32⟩ : BufTy).Contents (Elt F)) reducesTo_S100000x128_S128_d0 h_S_ : (⟨S128, .f32⟩ : BufTy).Contents (Elt F)) (broadcastInDim S128 ![] bcast_S_S128 (subf (constant S_ .f32 0x47C35000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) : (⟨S128, .f32⟩ : BufTy).Contents (Elt F)) : (⟨S128, .f32⟩ : BufTy).Contents (Elt F)) (broadcastInDim S128 ![] bcast_S_S128 ((constant S_ .f32 0x7FC00000#32 : (⟨S_, .f32⟩ : BufTy).Contents (Elt F)) : (⟨S_, .f32⟩ : BufTy).Contents (Elt F)) : (⟨S128, .f32⟩ : BufTy).Contents (Elt F)) : (⟨S128, .f32⟩ : BufTy).Contents (Elt F))

/-- Batch normalisation with given mean and variance: (x - mean) * rsqrt (var + 1e-5) * gamma + beta. -/
def refBn128 (mu : (⟨S128, .f32⟩ : BufTy).Contents (Elt F)) (x : (⟨S100000x128, .f32⟩ : BufTy).Contents (Elt F)) (va : (⟨S128, .f32⟩ : BufTy).Contents (Elt F)) (gamma : (⟨S128, .f32⟩ : BufTy).Contents (Elt F)) (beta : (⟨S128, .f32⟩ : BufTy).Contents (Elt F)) :
    (⟨S100000x128, .f32⟩ : BufTy).Contents (Elt F) :=
  (addf (mulf (mulf (subf x (broadcastInDim S100000x128 ![0, 1] bcast_S1x128_S100000x128_0_1 (broadcastInDim S1x128 ![1] bcast_S128_S1x128_1 mu : (⟨S1x128, .f32⟩ : BufTy).Contents (Elt F)) : (⟨S100000x128, .f32⟩ : BufTy).Contents (Elt F)) : (⟨S100000x128, .f32⟩ : BufTy).Contents (Elt F)) (broadcastInDim S100000x128 ![0, 1] bcast_S1x128_S100000x128_0_1 (broadcastInDim S1x128 ![1] bcast_S128_S1x128_1 (Host.rsqrt (addf va (broadcastInDim S128 ![] bcast_S_S128 (constant S_ .f32 0x3727C5AC#32 : (⟨S_, .f32⟩ : BufTy).Contents (Elt F)) : (⟨S128, .f32⟩ : BufTy).Contents (Elt F)) : (⟨S128, .f32⟩ : BufTy).Contents (Elt F)) : (⟨S128, .f32⟩ : BufTy).Contents (Elt F)) : (⟨S1x128, .f32⟩ : BufTy).Contents (Elt F)) : (⟨S100000x128, .f32⟩ : BufTy).Contents (Elt F)) : (⟨S100000x128, .f32⟩ : BufTy).Contents (Elt F)) (broadcastInDim S100000x128 ![0, 1] bcast_S1x128_S100000x128_0_1 (broadcastInDim S1x128 ![1] bcast_S128_S1x128_1 gamma : (⟨S1x128, .f32⟩ : BufTy).Contents (Elt F)) : (⟨S100000x128, .f32⟩ : BufTy).Contents (Elt F)) : (⟨S100000x128, .f32⟩ : BufTy).Contents (Elt F)) (broadcastInDim S100000x128 ![0, 1] bcast_S1x128_S100000x128_0_1 (broadcastInDim S1x128 ![1] bcast_S128_S1x128_1 beta : (⟨S1x128, .f32⟩ : BufTy).Contents (Elt F)) : (⟨S100000x128, .f32⟩ : BufTy).Contents (Elt F)) : (⟨S100000x128, .f32⟩ : BufTy).Contents (Elt F))

/-- The classifier head: relu of an affine map, a second affine map, the one column read as a vector. -/
def refHead (h : (⟨S100000x128, .f32⟩ : BufTy).Contents (Elt F)) (cw1 : (⟨S128x64, .f32⟩ : BufTy).Contents (Elt F)) (cb1 : (⟨S64, .f32⟩ : BufTy).Contents (Elt F)) (cw2 : (⟨S64x1, .f32⟩ : BufTy).Contents (Elt F)) (cb2 : (⟨S1, .f32⟩ : BufTy).Contents (Elt F)) :
    (⟨S100000, .f32⟩ : BufTy).Contents (Elt F) :=
  (shapeCast S100000 (addf (Host.dotGeneral dot_S100000x64_S64x1_S100000x1_1_0_0_1_n_n none (maximumf (addf (Host.dotGeneral dot_S100000x128_S128x64_S100000x64_1_0_0_1_n_n none h cw1 : (⟨S100000x64, .f32⟩ : BufTy).Contents (Elt F)) (broadcastInDim S100000x64 ![0, 1] bcast_S1x64_S100000x64_0_1 (broadcastInDim S1x64 ![1] bcast_S64_S1x64_1 cb1 : (⟨S1x64, .f32⟩ : BufTy).Contents (Elt F)) : (⟨S100000x64, .f32⟩ : BufTy).Contents (Elt F)) : (⟨S100000x64, .f32⟩ : BufTy).Contents (Elt F)) (broadcastInDim S100000x64 ![] bcast_S_S100000x64 (constant S_ .f32 0x00000000#32 : (⟨S_, .f32⟩ : BufTy).Contents (Elt F)) : (⟨S100000x64, .f32⟩ : BufTy).Contents (Elt F)) : (⟨S100000x64, .f32⟩ : BufTy).Contents (Elt F)) cw2 : (⟨S100000x1, .f32⟩ : BufTy).Contents (Elt F)) (broadcastInDim S100000x1 ![0, 1] bcast_S1x1_S100000x1_0_1 (broadcastInDim S1x1 ![1] bcast_S1_S1x1_1 cb2 : (⟨S1x1, .f32⟩ : BufTy).Contents (Elt F)) : (⟨S100000x1, .f32⟩ : BufTy).Contents (Elt F)) : (⟨S100000x1, .f32⟩ : BufTy).Contents (Elt F)) shapeCasts_S100000x1_S100000 : (⟨S100000, .f32⟩ : BufTy).Contents (Elt F))

end Cert.ReferenceIdeal.RefRun

end
-- ==== Proof.RefRun1.lean ====
/- What each short stretch of the reference's operations leaves in the buffers: the buffers a stretch does not write
   keep their contents, and the stretch's result buffer holds the stage function of the stretch's inputs. -/
import proofs.«169498_j72670846649171_2_alg».proof.Proof.RefRun0
import proofs.«169498_j72670846649171_2_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lists one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The buffers that stretch 0 writes. -/
abbrev sg0_W : List (Ref sig .tc) := [main_v0, main_v1]
set_option maxRecDepth 8192 in
theorem sg0_writes : (sg0 : List (HloOp τ sig (Elt F))).Forall fun op => op.writes ⊆ (sg0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 0 does not write keeps its contents through it. -/
theorem sg0_keep (V : Valuation τ sig (Elt F)) (r : Ref sig .tc) (h : r ∉ sg0_W) :
    after sg0 V (no_index (Proc.devRef .tc r)) = V (Proc.devRef .tc r) :=
  after_of_writes_sub sg0 V sg0_writes h

/-- The buffers that stretch 1 writes. -/
abbrev sg1_W : List (Ref sig .tc) := [main_v2, main_v3]
set_option maxRecDepth 8192 in
theorem sg1_writes : (sg1 : List (HloOp τ sig (Elt F))).Forall fun op => op.writes ⊆ (sg1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 1 does not write keeps its contents through it. -/
theorem sg1_keep (V : Valuation τ sig (Elt F)) (r : Ref sig .tc) (h : r ∉ sg1_W) :
    after sg1 V (no_index (Proc.devRef .tc r)) = V (Proc.devRef .tc r) :=
  after_of_writes_sub sg1 V sg1_writes h

/-- The buffers that stretch 2 writes. -/
abbrev sg2_W : List (Ref sig .tc) := [main_cst, main_v4, main_cst_0, main_v5, main_v6, main_v7]
set_option maxRecDepth 8192 in
theorem sg2_writes : (sg2 : List (HloOp τ sig (Elt F))).Forall fun op => op.writes ⊆ (sg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 2 does not write keeps its contents through it. -/
theorem sg2_keep (V : Valuation τ sig (Elt F)) (r : Ref sig .tc) (h : r ∉ sg2_W) :
    after sg2 V (no_index (Proc.devRef .tc r)) = V (Proc.devRef .tc r) :=
  after_of_writes_sub sg2 V sg2_writes h

/-- The buffers that stretch 3 writes. -/
abbrev sg3_W : List (Ref sig .tc) := [main_c, main_v8, main_v9, main_c_1, main_v10, main_v11, main_v12, main_v13]
set_option maxRecDepth 8192 in
theorem sg3_writes : (sg3 : List (HloOp τ sig (Elt F))).Forall fun op => op.writes ⊆ (sg3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 3 does not write keeps its contents through it. -/
theorem sg3_keep (V : Valuation τ sig (Elt F)) (r : Ref sig .tc) (h : r ∉ sg3_W) :
    after sg3 V (no_index (Proc.devRef .tc r)) = V (Proc.devRef .tc r) :=
  after_of_writes_sub sg3 V sg3_writes h

/-- The buffers that stretch 4 writes. -/
abbrev sg4_W : List (Ref sig .tc) := [main_v14, main_cst_2, main_v15, main_v16, main_v17, main_cst_3, main_v18, main_v19, main_v20, main_v21, main_v22]
set_option maxRecDepth 8192 in
theorem sg4_writes : (sg4 : List (HloOp τ sig (Elt F))).Forall fun op => op.writes ⊆ (sg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 4 does not write keeps its contents through it. -/
theorem sg4_keep (V : Valuation τ sig (Elt F)) (r : Ref sig .tc) (h : r ∉ sg4_W) :
    after sg4 V (no_index (Proc.devRef .tc r)) = V (Proc.devRef .tc r) :=
  after_of_writes_sub sg4 V sg4_writes h

/-- The buffers that stretch 5 writes. -/
abbrev sg5_W : List (Ref sig .tc) := [main_v23, main_v24, main_v25, main_v26, main_v27, main_v28]
set_option maxRecDepth 8192 in
theorem sg5_writes : (sg5 : List (HloOp τ sig (Elt F))).Forall fun op => op.writes ⊆ (sg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 5 does not write keeps its contents through it. -/
theorem sg5_keep (V : Valuation τ sig (Elt F)) (r : Ref sig .tc) (h : r ∉ sg5_W) :
    after sg5 V (no_index (Proc.devRef .tc r)) = V (Proc.devRef .tc r) :=
  after_of_writes_sub sg5 V sg5_writes h

/-- The buffers that stretch 6 writes. -/
abbrev sg6_W : List (Ref sig .tc) := [main_v29, main_cst_4, main_v30, main_v31, main_v32, main_cst_5, main_v33, main_v34, main_v35, main_v36]
set_option maxRecDepth 8192 in
theorem sg6_writes : (sg6 : List (HloOp τ sig (Elt F))).Forall fun op => op.writes ⊆ (sg6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 6 does not write keeps its contents through it. -/
theorem sg6_keep (V : Valuation τ sig (Elt F)) (r : Ref sig .tc) (h : r ∉ sg6_W) :
    after sg6 V (no_index (Proc.devRef .tc r)) = V (Proc.devRef .tc r) :=
  after_of_writes_sub sg6 V sg6_writes h

/-- The buffers that stretch 7 writes. -/
abbrev sg7_W : List (Ref sig .tc) := [main_cst_6, main_v37, main_cst_7, main_v38, main_v39]
set_option maxRecDepth 8192 in
theorem sg7_writes : (sg7 : List (HloOp τ sig (Elt F))).Forall fun op => op.writes ⊆ (sg7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 7 does not write keeps its contents through it. -/
theorem sg7_keep (V : Valuation τ sig (Elt F)) (r : Ref sig .tc) (h : r ∉ sg7_W) :
    after sg7 V (no_index (Proc.devRef .tc r)) = V (Proc.devRef .tc r) :=
  after_of_writes_sub sg7 V sg7_writes h

/-- The buffers that stretch 8 writes. -/
abbrev sg8_W : List (Ref sig .tc) := [main_c_8, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v40]
set_option maxRecDepth 8192 in
theorem sg8_writes : (sg8 : List (HloOp τ sig (Elt F))).Forall fun op => op.writes ⊆ (sg8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 8 does not write keeps its contents through it. -/
theorem sg8_keep (V : Valuation τ sig (Elt F)) (r : Ref sig .tc) (h : r ∉ sg8_W) :
    after sg8 V (no_index (Proc.devRef .tc r)) = V (Proc.devRef .tc r) :=
  after_of_writes_sub sg8 V sg8_writes h

/-- The buffers that stretch 9 writes. -/
abbrev sg9_W : List (Ref sig .tc) := [main_v41, main_v42, main_v43, main_cst_9, main_v44, main_v45, main_v46, main_v47]
set_option maxRecDepth 8192 in
theorem sg9_writes : (sg9 : List (HloOp τ sig (Elt F))).Forall fun op => op.writes ⊆ (sg9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 9 does not write keeps its contents through it. -/
theorem sg9_keep (V : Valuation τ sig (Elt F)) (r : Ref sig .tc) (h : r ∉ sg9_W) :
    after sg9 V (no_index (Proc.devRef .tc r)) = V (Proc.devRef .tc r) :=
  after_of_writes_sub sg9 V sg9_writes h

/-- The buffers that stretch 10 writes. -/
abbrev sg10_W : List (Ref sig .tc) := [main_v48, main_v49, main_v50, main_v51, main_v52, main_v53, main_v54, main_v55]
set_option maxRecDepth 8192 in
theorem sg10_writes : (sg10 : List (HloOp τ sig (Elt F))).Forall fun op => op.writes ⊆ (sg10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 10 does not write keeps its contents through it. -/
theorem sg10_keep (V : Valuation τ sig (Elt F)) (r : Ref sig .tc) (h : r ∉ sg10_W) :
    after sg10 V (no_index (Proc.devRef .tc r)) = V (Proc.devRef .tc r) :=
  after_of_writes_sub sg10 V sg10_writes h

/-- The buffers that stretch 11 writes. -/
abbrev sg11_W : List (Ref sig .tc) := [main_call1_cst, main_call1_v0, main_v56]
set_option maxRecDepth 8192 in
theorem sg11_writes : (sg11 : List (HloOp τ sig (Elt F))).Forall fun op => op.writes ⊆ (sg11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 11 does not write keeps its contents through it. -/
theorem sg11_keep (V : Valuation τ sig (Elt F)) (r : Ref sig .tc) (h : r ∉ sg11_W) :
    after sg11 V (no_index (Proc.devRef .tc r)) = V (Proc.devRef .tc r) :=
  after_of_writes_sub sg11 V sg11_writes h

/-- The buffers that stretch 12 writes. -/
abbrev sg12_W : List (Ref sig .tc) := [main_v57, main_v58]
set_option maxRecDepth 8192 in
theorem sg12_writes : (sg12 : List (HloOp τ sig (Elt F))).Forall fun op => op.writes ⊆ (sg12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 12 does not write keeps its contents through it. -/
theorem sg12_keep (V : Valuation τ sig (Elt F)) (r : Ref sig .tc) (h : r ∉ sg12_W) :
    after sg12 V (no_index (Proc.devRef .tc r)) = V (Proc.devRef .tc r) :=
  after_of_writes_sub sg12 V sg12_writes h

/-- The buffers that stretch 13 writes. -/
abbrev sg13_W : List (Ref sig .tc) := [main_v59, main_v60]
set_option maxRecDepth 8192 in
theorem sg13_writes : (sg13 : List (HloOp τ sig (Elt F))).Forall fun op => op.writes ⊆ (sg13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 13 does not write keeps its contents through it. -/
theorem sg13_keep (V : Valuation τ sig (Elt F)) (r : Ref sig .tc) (h : r ∉ sg13_W) :
    after sg13 V (no_index (Proc.devRef .tc r)) = V (Proc.devRef .tc r) :=
  after_of_writes_sub sg13 V sg13_writes h

/-- The buffers that stretch 14 writes. -/
abbrev sg14_W : List (Ref sig .tc) := [main_v61, main_v62]
set_option maxRecDepth 8192 in
theorem sg14_writes : (sg14 : List (HloOp τ sig (Elt F))).Forall fun op => op.writes ⊆ (sg14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 14 does not write keeps its contents through it. -/
theorem sg14_keep (V : Valuation τ sig (Elt F)) (r : Ref sig .tc) (h : r ∉ sg14_W) :
    after sg14 V (no_index (Proc.devRef .tc r)) = V (Proc.devRef .tc r) :=
  after_of_writes_sub sg14 V sg14_writes h

/-- The buffers that stretch 15 writes. -/
abbrev sg15_W : List (Ref sig .tc) := [main_v63, main_v64]
set_option maxRecDepth 8192 in
theorem sg15_writes : (sg15 : List (HloOp τ sig (Elt F))).Forall fun op => op.writes ⊆ (sg15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 15 does not write keeps its contents through it. -/
theorem sg15_keep (V : Valuation τ sig (Elt F)) (r : Ref sig .tc) (h : r ∉ sg15_W) :
    after sg15 V (no_index (Proc.devRef .tc r)) = V (Proc.devRef .tc r) :=
  after_of_writes_sub sg15 V sg15_writes h

/-- The buffers that stretch 16 writes. -/
abbrev sg16_W : List (Ref sig .tc) := [main_v65, main_v66]
set_option maxRecDepth 8192 in
theorem sg16_writes : (sg16 : List (HloOp τ sig (Elt F))).Forall fun op => op.writes ⊆ (sg16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 16 does not write keeps its contents through it. -/
theorem sg16_keep (V : Valuation τ sig (Elt F)) (r : Ref sig .tc) (h : r ∉ sg16_W) :
    after sg16 V (no_index (Proc.devRef .tc r)) = V (Proc.devRef .tc r) :=
  after_of_writes_sub sg16 V sg16_writes h

/-- The buffers that stretch 17 writes. -/
abbrev sg17_W : List (Ref sig .tc) := [main_cst_10, main_v67, main_cst_11, main_v68, main_v69, main_v70]
set_option maxRecDepth 8192 in
theorem sg17_writes : (sg17 : List (HloOp τ sig (Elt F))).Forall fun op => op.writes ⊆ (sg17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 17 does not write keeps its contents through it. -/
theorem sg17_keep (V : Valuation τ sig (Elt F)) (r : Ref sig .tc) (h : r ∉ sg17_W) :
    after sg17 V (no_index (Proc.devRef .tc r)) = V (Proc.devRef .tc r) :=
  after_of_writes_sub sg17 V sg17_writes h

/-- The buffers that stretch 18 writes. -/
abbrev sg18_W : List (Ref sig .tc) := [main_c_12, main_v71, main_v72, main_c_13, main_v73, main_v74, main_v75, main_v76]
set_option maxRecDepth 8192 in
theorem sg18_writes : (sg18 : List (HloOp τ sig (Elt F))).Forall fun op => op.writes ⊆ (sg18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 18 does not write keeps its contents through it. -/
theorem sg18_keep (V : Valuation τ sig (Elt F)) (r : Ref sig .tc) (h : r ∉ sg18_W) :
    after sg18 V (no_index (Proc.devRef .tc r)) = V (Proc.devRef .tc r) :=
  after_of_writes_sub sg18 V sg18_writes h

/-- The buffers that stretch 19 writes. -/
abbrev sg19_W : List (Ref sig .tc) := [main_v77, main_cst_14, main_v78, main_v79, main_v80, main_cst_15, main_v81, main_v82, main_v83, main_v84, main_v85]
set_option maxRecDepth 8192 in
theorem sg19_writes : (sg19 : List (HloOp τ sig (Elt F))).Forall fun op => op.writes ⊆ (sg19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 19 does not write keeps its contents through it. -/
theorem sg19_keep (V : Valuation τ sig (Elt F)) (r : Ref sig .tc) (h : r ∉ sg19_W) :
    after sg19 V (no_index (Proc.devRef .tc r)) = V (Proc.devRef .tc r) :=
  after_of_writes_sub sg19 V sg19_writes h

/-- The buffers that stretch 20 writes. -/
abbrev sg20_W : List (Ref sig .tc) := [main_v86, main_v87, main_v88, main_v89, main_v90, main_v91]
set_option maxRecDepth 8192 in
theorem sg20_writes : (sg20 : List (HloOp τ sig (Elt F))).Forall fun op => op.writes ⊆ (sg20_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 20 does not write keeps its contents through it. -/
theorem sg20_keep (V : Valuation τ sig (Elt F)) (r : Ref sig .tc) (h : r ∉ sg20_W) :
    after sg20 V (no_index (Proc.devRef .tc r)) = V (Proc.devRef .tc r) :=
  after_of_writes_sub sg20 V sg20_writes h

/-- The buffers that stretch 21 writes. -/
abbrev sg21_W : List (Ref sig .tc) := [main_v92, main_cst_16, main_v93, main_v94, main_v95, main_cst_17, main_v96, main_v97, main_v98, main_v99]
set_option maxRecDepth 8192 in
theorem sg21_writes : (sg21 : List (HloOp τ sig (Elt F))).Forall fun op => op.writes ⊆ (sg21_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 21 does not write keeps its contents through it. -/
theorem sg21_keep (V : Valuation τ sig (Elt F)) (r : Ref sig .tc) (h : r ∉ sg21_W) :
    after sg21 V (no_index (Proc.devRef .tc r)) = V (Proc.devRef .tc r) :=
  after_of_writes_sub sg21 V sg21_writes h

/-- The buffers that stretch 22 writes. -/
abbrev sg22_W : List (Ref sig .tc) := [main_cst_18, main_v100, main_cst_19, main_v101, main_v102]
set_option maxRecDepth 8192 in
theorem sg22_writes : (sg22 : List (HloOp τ sig (Elt F))).Forall fun op => op.writes ⊆ (sg22_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 22 does not write keeps its contents through it. -/
theorem sg22_keep (V : Valuation τ sig (Elt F)) (r : Ref sig .tc) (h : r ∉ sg22_W) :
    after sg22 V (no_index (Proc.devRef .tc r)) = V (Proc.devRef .tc r) :=
  after_of_writes_sub sg22 V sg22_writes h

/-- The buffers that stretch 23 writes. -/
abbrev sg23_W : List (Ref sig .tc) := [main_c_20, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v103]
set_option maxRecDepth 8192 in
theorem sg23_writes : (sg23 : List (HloOp τ sig (Elt F))).Forall fun op => op.writes ⊆ (sg23_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 23 does not write keeps its contents through it. -/
theorem sg23_keep (V : Valuation τ sig (Elt F)) (r : Ref sig .tc) (h : r ∉ sg23_W) :
    after sg23 V (no_index (Proc.devRef .tc r)) = V (Proc.devRef .tc r) :=
  after_of_writes_sub sg23 V sg23_writes h

/-- The buffers that stretch 24 writes. -/
abbrev sg24_W : List (Ref sig .tc) := [main_v104, main_v105, main_v106, main_cst_21, main_v107, main_v108, main_v109, main_v110, main_v111, main_v112, main_v113, main_v114, main_v115, main_v116, main_v117, main_v118]
set_option maxRecDepth 8192 in
theorem sg24_writes : (sg24 : List (HloOp τ sig (Elt F))).Forall fun op => op.writes ⊆ (sg24_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 24 does not write keeps its contents through it. -/
theorem sg24_keep (V : Valuation τ sig (Elt F)) (r : Ref sig .tc) (h : r ∉ sg24_W) :
    after sg24 V (no_index (Proc.devRef .tc r)) = V (Proc.devRef .tc r) :=
  after_of_writes_sub sg24 V sg24_writes h

/-- The buffers that stretch 25 writes. -/
abbrev sg25_W : List (Ref sig .tc) := [main_call3_cst, main_call3_v0, main_v119]
set_option maxRecDepth 8192 in
theorem sg25_writes : (sg25 : List (HloOp τ sig (Elt F))).Forall fun op => op.writes ⊆ (sg25_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 25 does not write keeps its contents through it. -/
theorem sg25_keep (V : Valuation τ sig (Elt F)) (r : Ref sig .tc) (h : r ∉ sg25_W) :
    after sg25 V (no_index (Proc.devRef .tc r)) = V (Proc.devRef .tc r) :=
  after_of_writes_sub sg25 V sg25_writes h

/-- The buffers that stretch 26 writes. -/
abbrev sg26_W : List (Ref sig .tc) := [main_v120, main_v121]
set_option maxRecDepth 8192 in
theorem sg26_writes : (sg26 : List (HloOp τ sig (Elt F))).Forall fun op => op.writes ⊆ (sg26_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 26 does not write keeps its contents through it. -/
theorem sg26_keep (V : Valuation τ sig (Elt F)) (r : Ref sig .tc) (h : r ∉ sg26_W) :
    after sg26 V (no_index (Proc.devRef .tc r)) = V (Proc.devRef .tc r) :=
  after_of_writes_sub sg26 V sg26_writes h

/-- The buffers that stretch 27 writes. -/
abbrev sg27_W : List (Ref sig .tc) := [main_v122, main_v123]
set_option maxRecDepth 8192 in
theorem sg27_writes : (sg27 : List (HloOp τ sig (Elt F))).Forall fun op => op.writes ⊆ (sg27_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 27 does not write keeps its contents through it. -/
theorem sg27_keep (V : Valuation τ sig (Elt F)) (r : Ref sig .tc) (h : r ∉ sg27_W) :
    after sg27 V (no_index (Proc.devRef .tc r)) = V (Proc.devRef .tc r) :=
  after_of_writes_sub sg27 V sg27_writes h

/-- The buffers that stretch 28 writes. -/
abbrev sg28_W : List (Ref sig .tc) := [main_v124, main_v125]
set_option maxRecDepth 8192 in
theorem sg28_writes : (sg28 : List (HloOp τ sig (Elt F))).Forall fun op => op.writes ⊆ (sg28_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 28 does not write keeps its contents through it. -/
theorem sg28_keep (V : Valuation τ sig (Elt F)) (r : Ref sig .tc) (h : r ∉ sg28_W) :
    after sg28 V (no_index (Proc.devRef .tc r)) = V (Proc.devRef .tc r) :=
  after_of_writes_sub sg28 V sg28_writes h

/-- The buffers that stretch 29 writes. -/
abbrev sg29_W : List (Ref sig .tc) := [main_v126, main_v127]
set_option maxRecDepth 8192 in
theorem sg29_writes : (sg29 : List (HloOp τ sig (Elt F))).Forall fun op => op.writes ⊆ (sg29_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 29 does not write keeps its contents through it. -/
theorem sg29_keep (V : Valuation τ sig (Elt F)) (r : Ref sig .tc) (h : r ∉ sg29_W) :
    after sg29 V (no_index (Proc.devRef .tc r)) = V (Proc.devRef .tc r) :=
  after_of_writes_sub sg29 V sg29_writes h

/-- The buffers that stretch 30 writes. -/
abbrev sg30_W : List (Ref sig .tc) := [main_v128, main_v129]
set_option maxRecDepth 8192 in
theorem sg30_writes : (sg30 : List (HloOp τ sig (Elt F))).Forall fun op => op.writes ⊆ (sg30_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 30 does not write keeps its contents through it. -/
theorem sg30_keep (V : Valuation τ sig (Elt F)) (r : Ref sig .tc) (h : r ∉ sg30_W) :
    after sg30 V (no_index (Proc.devRef .tc r)) = V (Proc.devRef .tc r) :=
  after_of_writes_sub sg30 V sg30_writes h

/-- The buffers that stretch 31 writes. -/
abbrev sg31_W : List (Ref sig .tc) := [main_cst_22, main_v130, main_cst_23, main_v131, main_v132, main_v133]
set_option maxRecDepth 8192 in
theorem sg31_writes : (sg31 : List (HloOp τ sig (Elt F))).Forall fun op => op.writes ⊆ (sg31_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 31 does not write keeps its contents through it. -/
theorem sg31_keep (V : Valuation τ sig (Elt F)) (r : Ref sig .tc) (h : r ∉ sg31_W) :
    after sg31 V (no_index (Proc.devRef .tc r)) = V (Proc.devRef .tc r) :=
  after_of_writes_sub sg31 V sg31_writes h

/-- The buffers that stretch 32 writes. -/
abbrev sg32_W : List (Ref sig .tc) := [main_c_24, main_v134, main_v135, main_c_25, main_v136, main_v137, main_v138, main_v139]
set_option maxRecDepth 8192 in
theorem sg32_writes : (sg32 : List (HloOp τ sig (Elt F))).Forall fun op => op.writes ⊆ (sg32_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 32 does not write keeps its contents through it. -/
theorem sg32_keep (V : Valuation τ sig (Elt F)) (r : Ref sig .tc) (h : r ∉ sg32_W) :
    after sg32 V (no_index (Proc.devRef .tc r)) = V (Proc.devRef .tc r) :=
  after_of_writes_sub sg32 V sg32_writes h

/-- The buffers that stretch 33 writes. -/
abbrev sg33_W : List (Ref sig .tc) := [main_v140, main_cst_26, main_v141, main_v142, main_v143, main_cst_27, main_v144, main_v145, main_v146, main_v147, main_v148]
set_option maxRecDepth 8192 in
theorem sg33_writes : (sg33 : List (HloOp τ sig (Elt F))).Forall fun op => op.writes ⊆ (sg33_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 33 does not write keeps its contents through it. -/
theorem sg33_keep (V : Valuation τ sig (Elt F)) (r : Ref sig .tc) (h : r ∉ sg33_W) :
    after sg33 V (no_index (Proc.devRef .tc r)) = V (Proc.devRef .tc r) :=
  after_of_writes_sub sg33 V sg33_writes h

/-- The buffers that stretch 34 writes. -/
abbrev sg34_W : List (Ref sig .tc) := [main_v149]
set_option maxRecDepth 8192 in
theorem sg34_writes : (sg34 : List (HloOp τ sig (Elt F))).Forall fun op => op.writes ⊆ (sg34_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch 34 does not write keeps its contents through it. -/
theorem sg34_keep (V : Valuation τ sig (Elt F)) (r : Ref sig .tc) (h : r ∉ sg34_W) :
    after sg34 V (no_index (Proc.devRef .tc r)) = V (Proc.devRef .tc r) :=
  after_of_writes_sub sg34 V sg34_writes h

/-- The buffers that stretch 35 writes. -/
abbrev sg35_W : List (Ref sig .tc) := [main_v150, main_v151, main_v152, main_v153, main_v154]
set_option maxRecDepth 8192 in
theorem sg35_writes : (sg35 : List (HloOp τ sig (Elt F))).Forall fun op => op.writes ⊆ (sg35_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 35 does not write keeps its contents through it. -/
theorem sg35_keep (V : Valuation τ sig (Elt F)) (r : Ref sig .tc) (h : r ∉ sg35_W) :
    after sg35 V (no_index (Proc.devRef .tc r)) = V (Proc.devRef .tc r) :=
  after_of_writes_sub sg35 V sg35_writes h

/-- The buffers that stretch 36 writes. -/
abbrev sg36_W : List (Ref sig .tc) := [main_v155, main_cst_28, main_v156, main_v157, main_v158, main_cst_29, main_v159, main_v160, main_v161, main_v162]
set_option maxRecDepth 8192 in
theorem sg36_writes : (sg36 : List (HloOp τ sig (Elt F))).Forall fun op => op.writes ⊆ (sg36_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 36 does not write keeps its contents through it. -/
theorem sg36_keep (V : Valuation τ sig (Elt F)) (r : Ref sig .tc) (h : r ∉ sg36_W) :
    after sg36 V (no_index (Proc.devRef .tc r)) = V (Proc.devRef .tc r) :=
  after_of_writes_sub sg36 V sg36_writes h

/-- The buffers that stretch 37 writes. -/
abbrev sg37_W : List (Ref sig .tc) := [main_cst_30, main_v163, main_cst_31, main_v164, main_v165]
set_option maxRecDepth 8192 in
theorem sg37_writes : (sg37 : List (HloOp τ sig (Elt F))).Forall fun op => op.writes ⊆ (sg37_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 37 does not write keeps its contents through it. -/
theorem sg37_keep (V : Valuation τ sig (Elt F)) (r : Ref sig .tc) (h : r ∉ sg37_W) :
    after sg37 V (no_index (Proc.devRef .tc r)) = V (Proc.devRef .tc r) :=
  after_of_writes_sub sg37 V sg37_writes h

/-- The buffers that stretch 38 writes. -/
abbrev sg38_W : List (Ref sig .tc) := [main_c_32, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v166]
set_option maxRecDepth 8192 in
theorem sg38_writes : (sg38 : List (HloOp τ sig (Elt F))).Forall fun op => op.writes ⊆ (sg38_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 38 does not write keeps its contents through it. -/
theorem sg38_keep (V : Valuation τ sig (Elt F)) (r : Ref sig .tc) (h : r ∉ sg38_W) :
    after sg38 V (no_index (Proc.devRef .tc r)) = V (Proc.devRef .tc r) :=
  after_of_writes_sub sg38 V sg38_writes h

/-- The buffers that stretch 39 writes. -/
abbrev sg39_W : List (Ref sig .tc) := [main_v167, main_v168, main_v169, main_cst_33, main_v170, main_v171, main_v172, main_v173, main_v174, main_v175, main_v176, main_v177, main_v178, main_v179, main_v180, main_v181]
set_option maxRecDepth 8192 in
theorem sg39_writes : (sg39 : List (HloOp τ sig (Elt F))).Forall fun op => op.writes ⊆ (sg39_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 39 does not write keeps its contents through it. -/
theorem sg39_keep (V : Valuation τ sig (Elt F)) (r : Ref sig .tc) (h : r ∉ sg39_W) :
    after sg39 V (no_index (Proc.devRef .tc r)) = V (Proc.devRef .tc r) :=
  after_of_writes_sub sg39 V sg39_writes h

/-- The buffers that stretch 40 writes. -/
abbrev sg40_W : List (Ref sig .tc) := [main_call5_cst, main_call5_v0, main_v182]
set_option maxRecDepth 8192 in
theorem sg40_writes : (sg40 : List (HloOp τ sig (Elt F))).Forall fun op => op.writes ⊆ (sg40_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 40 does not write keeps its contents through it. -/
theorem sg40_keep (V : Valuation τ sig (Elt F)) (r : Ref sig .tc) (h : r ∉ sg40_W) :
    after sg40 V (no_index (Proc.devRef .tc r)) = V (Proc.devRef .tc r) :=
  after_of_writes_sub sg40 V sg40_writes h

/-- The buffers that stretch 41 writes. -/
abbrev sg41_W : List (Ref sig .tc) := [main_v183, main_v184]
set_option maxRecDepth 8192 in
theorem sg41_writes : (sg41 : List (HloOp τ sig (Elt F))).Forall fun op => op.writes ⊆ (sg41_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 41 does not write keeps its contents through it. -/
theorem sg41_keep (V : Valuation τ sig (Elt F)) (r : Ref sig .tc) (h : r ∉ sg41_W) :
    after sg41 V (no_index (Proc.devRef .tc r)) = V (Proc.devRef .tc r) :=
  after_of_writes_sub sg41 V sg41_writes h

/-- The buffers that stretch 42 writes. -/
abbrev sg42_W : List (Ref sig .tc) := [main_v185, main_v186]
set_option maxRecDepth 8192 in
theorem sg42_writes : (sg42 : List (HloOp τ sig (Elt F))).Forall fun op => op.writes ⊆ (sg42_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 42 does not write keeps its contents through it. -/
theorem sg42_keep (V : Valuation τ sig (Elt F)) (r : Ref sig .tc) (h : r ∉ sg42_W) :
    after sg42 V (no_index (Proc.devRef .tc r)) = V (Proc.devRef .tc r) :=
  after_of_writes_sub sg42 V sg42_writes h

/-- The buffers that stretch 43 writes. -/
abbrev sg43_W : List (Ref sig .tc) := [main_v187, main_v188]
set_option maxRecDepth 8192 in
theorem sg43_writes : (sg43 : List (HloOp τ sig (Elt F))).Forall fun op => op.writes ⊆ (sg43_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 43 does not write keeps its contents through it. -/
theorem sg43_keep (V : Valuation τ sig (Elt F)) (r : Ref sig .tc) (h : r ∉ sg43_W) :
    after sg43 V (no_index (Proc.devRef .tc r)) = V (Proc.devRef .tc r) :=
  after_of_writes_sub sg43 V sg43_writes h

/-- The buffers that stretch 44 writes. -/
abbrev sg44_W : List (Ref sig .tc) := [main_v189, main_v190]
set_option maxRecDepth 8192 in
theorem sg44_writes : (sg44 : List (HloOp τ sig (Elt F))).Forall fun op => op.writes ⊆ (sg44_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 44 does not write keeps its contents through it. -/
theorem sg44_keep (V : Valuation τ sig (Elt F)) (r : Ref sig .tc) (h : r ∉ sg44_W) :
    after sg44 V (no_index (Proc.devRef .tc r)) = V (Proc.devRef .tc r) :=
  after_of_writes_sub sg44 V sg44_writes h

/-- The buffers that stretch 45 writes. -/
abbrev sg45_W : List (Ref sig .tc) := [main_v191, main_v192]
set_option maxRecDepth 8192 in
theorem sg45_writes : (sg45 : List (HloOp τ sig (Elt F))).Forall fun op => op.writes ⊆ (sg45_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 45 does not write keeps its contents through it. -/
theorem sg45_keep (V : Valuation τ sig (Elt F)) (r : Ref sig .tc) (h : r ∉ sg45_W) :
    after sg45 V (no_index (Proc.devRef .tc r)) = V (Proc.devRef .tc r) :=
  after_of_writes_sub sg45 V sg45_writes h

/-- The buffers that stretch 46 writes. -/
abbrev sg46_W : List (Ref sig .tc) := [main_cst_34, main_v193, main_cst_35, main_v194, main_v195, main_v196]
set_option maxRecDepth 8192 in
theorem sg46_writes : (sg46 : List (HloOp τ sig (Elt F))).Forall fun op => op.writes ⊆ (sg46_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 46 does not write keeps its contents through it. -/
theorem sg46_keep (V : Valuation τ sig (Elt F)) (r : Ref sig .tc) (h : r ∉ sg46_W) :
    after sg46 V (no_index (Proc.devRef .tc r)) = V (Proc.devRef .tc r) :=
  after_of_writes_sub sg46 V sg46_writes h

/-- The buffers that stretch 47 writes. -/
abbrev sg47_W : List (Ref sig .tc) := [main_c_36, main_v197, main_v198, main_c_37, main_v199]
set_option maxRecDepth 8192 in
theorem sg47_writes : (sg47 : List (HloOp τ sig (Elt F))).Forall fun op => op.writes ⊆ (sg47_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 47 does not write keeps its contents through it. -/
theorem sg47_keep (V : Valuation τ sig (Elt F)) (r : Ref sig .tc) (h : r ∉ sg47_W) :
    after sg47 V (no_index (Proc.devRef .tc r)) = V (Proc.devRef .tc r) :=
  after_of_writes_sub sg47 V sg47_writes h

/-- The buffers that stretch 48 writes. -/
abbrev sg48_W : List (Ref sig .tc) := [main_v200, main_v201, main_v202]
set_option maxRecDepth 8192 in
theorem sg48_writes : (sg48 : List (HloOp τ sig (Elt F))).Forall fun op => op.writes ⊆ (sg48_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 48 does not write keeps its contents through it. -/
theorem sg48_keep (V : Valuation τ sig (Elt F)) (r : Ref sig .tc) (h : r ∉ sg48_W) :
    after sg48 V (no_index (Proc.devRef .tc r)) = V (Proc.devRef .tc r) :=
  after_of_writes_sub sg48 V sg48_writes h

/-- The buffers that stretch 49 writes. -/
abbrev sg49_W : List (Ref sig .tc) := [main_v203, main_cst_38, main_v204, main_v205, main_v206, main_cst_39, main_v207, main_v208, main_v209, main_v210, main_v211]
set_option maxRecDepth 8192 in
theorem sg49_writes : (sg49 : List (HloOp τ sig (Elt F))).Forall fun op => op.writes ⊆ (sg49_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 49 does not write keeps its contents through it. -/
theorem sg49_keep (V : Valuation τ sig (Elt F)) (r : Ref sig .tc) (h : r ∉ sg49_W) :
    after sg49 V (no_index (Proc.devRef .tc r)) = V (Proc.devRef .tc r) :=
  after_of_writes_sub sg49 V sg49_writes h

/-- The buffers that stretch 50 writes. -/
abbrev sg50_W : List (Ref sig .tc) := [main_v212, main_v213, main_v214, main_v215, main_v216, main_v217]
set_option maxRecDepth 8192 in
theorem sg50_writes : (sg50 : List (HloOp τ sig (Elt F))).Forall fun op => op.writes ⊆ (sg50_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 50 does not write keeps its contents through it. -/
theorem sg50_keep (V : Valuation τ sig (Elt F)) (r : Ref sig .tc) (h : r ∉ sg50_W) :
    after sg50 V (no_index (Proc.devRef .tc r)) = V (Proc.devRef .tc r) :=
  after_of_writes_sub sg50 V sg50_writes h

/-- The buffers that stretch 51 writes. -/
abbrev sg51_W : List (Ref sig .tc) := [main_v218, main_cst_40, main_v219, main_v220, main_v221, main_cst_41, main_v222, main_v223, main_v224, main_v225]
set_option maxRecDepth 8192 in
theorem sg51_writes : (sg51 : List (HloOp τ sig (Elt F))).Forall fun op => op.writes ⊆ (sg51_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 51 does not write keeps its contents through it. -/
theorem sg51_keep (V : Valuation τ sig (Elt F)) (r : Ref sig .tc) (h : r ∉ sg51_W) :
    after sg51 V (no_index (Proc.devRef .tc r)) = V (Proc.devRef .tc r) :=
  after_of_writes_sub sg51 V sg51_writes h

/-- The buffers that stretch 52 writes. -/
abbrev sg52_W : List (Ref sig .tc) := [main_cst_42, main_v226, main_cst_43, main_v227, main_v228]
set_option maxRecDepth 8192 in
theorem sg52_writes : (sg52 : List (HloOp τ sig (Elt F))).Forall fun op => op.writes ⊆ (sg52_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 52 does not write keeps its contents through it. -/
theorem sg52_keep (V : Valuation τ sig (Elt F)) (r : Ref sig .tc) (h : r ∉ sg52_W) :
    after sg52 V (no_index (Proc.devRef .tc r)) = V (Proc.devRef .tc r) :=
  after_of_writes_sub sg52 V sg52_writes h

/-- The buffers that stretch 53 writes. -/
abbrev sg53_W : List (Ref sig .tc) := [main_c_44, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v229]
set_option maxRecDepth 8192 in
theorem sg53_writes : (sg53 : List (HloOp τ sig (Elt F))).Forall fun op => op.writes ⊆ (sg53_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 53 does not write keeps its contents through it. -/
theorem sg53_keep (V : Valuation τ sig (Elt F)) (r : Ref sig .tc) (h : r ∉ sg53_W) :
    after sg53 V (no_index (Proc.devRef .tc r)) = V (Proc.devRef .tc r) :=
  after_of_writes_sub sg53 V sg53_writes h

/-- The buffers that stretch 54 writes. -/
abbrev sg54_W : List (Ref sig .tc) := [main_v230, main_v231, main_v232, main_cst_45, main_v233, main_v234, main_v235, main_v236, main_v237, main_v238, main_v239, main_v240, main_v241, main_v242, main_v243, main_v244]
set_option maxRecDepth 8192 in
theorem sg54_writes : (sg54 : List (HloOp τ sig (Elt F))).Forall fun op => op.writes ⊆ (sg54_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 54 does not write keeps its contents through it. -/
theorem sg54_keep (V : Valuation τ sig (Elt F)) (r : Ref sig .tc) (h : r ∉ sg54_W) :
    after sg54 V (no_index (Proc.devRef .tc r)) = V (Proc.devRef .tc r) :=
  after_of_writes_sub sg54 V sg54_writes h

/-- The buffers that stretch 55 writes. -/
abbrev sg55_W : List (Ref sig .tc) := [main_call7_cst, main_call7_v0, main_v245]
set_option maxRecDepth 8192 in
theorem sg55_writes : (sg55 : List (HloOp τ sig (Elt F))).Forall fun op => op.writes ⊆ (sg55_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 55 does not write keeps its contents through it. -/
theorem sg55_keep (V : Valuation τ sig (Elt F)) (r : Ref sig .tc) (h : r ∉ sg55_W) :
    after sg55 V (no_index (Proc.devRef .tc r)) = V (Proc.devRef .tc r) :=
  after_of_writes_sub sg55 V sg55_writes h

/-- The buffers that stretch 56 writes. -/
abbrev sg56_W : List (Ref sig .tc) := [main_cst_46, main_v246, main_cst_47, main_v247, main_v248, main_v249]
set_option maxRecDepth 8192 in
theorem sg56_writes : (sg56 : List (HloOp τ sig (Elt F))).Forall fun op => op.writes ⊆ (sg56_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 56 does not write keeps its contents through it. -/
theorem sg56_keep (V : Valuation τ sig (Elt F)) (r : Ref sig .tc) (h : r ∉ sg56_W) :
    after sg56 V (no_index (Proc.devRef .tc r)) = V (Proc.devRef .tc r) :=
  after_of_writes_sub sg56 V sg56_writes h

/-- The buffers that stretch 57 writes. -/
abbrev sg57_W : List (Ref sig .tc) := [main_c_48, main_v250, main_v251, main_c_49, main_v252, main_v253, main_v254, main_v255]
set_option maxRecDepth 8192 in
theorem sg57_writes : (sg57 : List (HloOp τ sig (Elt F))).Forall fun op => op.writes ⊆ (sg57_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 57 does not write keeps its contents through it. -/
theorem sg57_keep (V : Valuation τ sig (Elt F)) (r : Ref sig .tc) (h : r ∉ sg57_W) :
    after sg57 V (no_index (Proc.devRef .tc r)) = V (Proc.devRef .tc r) :=
  after_of_writes_sub sg57 V sg57_writes h

/-- The buffers that stretch 58 writes. -/
abbrev sg58_W : List (Ref sig .tc) := [main_v256, main_cst_50, main_v257, main_v258, main_v259, main_cst_51, main_v260, main_v261, main_v262, main_v263, main_v264]
set_option maxRecDepth 8192 in
theorem sg58_writes : (sg58 : List (HloOp τ sig (Elt F))).Forall fun op => op.writes ⊆ (sg58_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 58 does not write keeps its contents through it. -/
theorem sg58_keep (V : Valuation τ sig (Elt F)) (r : Ref sig .tc) (h : r ∉ sg58_W) :
    after sg58 V (no_index (Proc.devRef .tc r)) = V (Proc.devRef .tc r) :=
  after_of_writes_sub sg58 V sg58_writes h

/-- The buffers that stretch 59 writes. -/
abbrev sg59_W : List (Ref sig .tc) := [main_v265, main_v266, main_v267, main_v268, main_v269, main_v270]
set_option maxRecDepth 8192 in
theorem sg59_writes : (sg59 : List (HloOp τ sig (Elt F))).Forall fun op => op.writes ⊆ (sg59_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 59 does not write keeps its contents through it. -/
theorem sg59_keep (V : Valuation τ sig (Elt F)) (r : Ref sig .tc) (h : r ∉ sg59_W) :
    after sg59 V (no_index (Proc.devRef .tc r)) = V (Proc.devRef .tc r) :=
  after_of_writes_sub sg59 V sg59_writes h

/-- The buffers that stretch 60 writes. -/
abbrev sg60_W : List (Ref sig .tc) := [main_v271, main_cst_52, main_v272, main_v273, main_v274, main_cst_53, main_v275, main_v276, main_v277, main_v278]
set_option maxRecDepth 8192 in
theorem sg60_writes : (sg60 : List (HloOp τ sig (Elt F))).Forall fun op => op.writes ⊆ (sg60_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 60 does not write keeps its contents through it. -/
theorem sg60_keep (V : Valuation τ sig (Elt F)) (r : Ref sig .tc) (h : r ∉ sg60_W) :
    after sg60 V (no_index (Proc.devRef .tc r)) = V (Proc.devRef .tc r) :=
  after_of_writes_sub sg60 V sg60_writes h

/-- The buffers that stretch 61 writes. -/
abbrev sg61_W : List (Ref sig .tc) := [main_cst_54, main_v279, main_cst_55, main_v280, main_v281]
set_option maxRecDepth 8192 in
theorem sg61_writes : (sg61 : List (HloOp τ sig (Elt F))).Forall fun op => op.writes ⊆ (sg61_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 61 does not write keeps its contents through it. -/
theorem sg61_keep (V : Valuation τ sig (Elt F)) (r : Ref sig .tc) (h : r ∉ sg61_W) :
    after sg61 V (no_index (Proc.devRef .tc r)) = V (Proc.devRef .tc r) :=
  after_of_writes_sub sg61 V sg61_writes h

/-- The buffers that stretch 62 writes. -/
abbrev sg62_W : List (Ref sig .tc) := [main_c_56, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v282]
set_option maxRecDepth 8192 in
theorem sg62_writes : (sg62 : List (HloOp τ sig (Elt F))).Forall fun op => op.writes ⊆ (sg62_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 62 does not write keeps its contents through it. -/
theorem sg62_keep (V : Valuation τ sig (Elt F)) (r : Ref sig .tc) (h : r ∉ sg62_W) :
    after sg62 V (no_index (Proc.devRef .tc r)) = V (Proc.devRef .tc r) :=
  after_of_writes_sub sg62 V sg62_writes h

/-- The buffers that stretch 63 writes. -/
abbrev sg63_W : List (Ref sig .tc) := [main_v283, main_v284, main_v285, main_cst_57, main_v286, main_v287, main_v288, main_v289, main_v290, main_v291, main_v292, main_v293, main_v294, main_v295, main_v296, main_v297]
set_option maxRecDepth 8192 in
theorem sg63_writes : (sg63 : List (HloOp τ sig (Elt F))).Forall fun op => op.writes ⊆ (sg63_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 63 does not write keeps its contents through it. -/
theorem sg63_keep (V : Valuation τ sig (Elt F)) (r : Ref sig .tc) (h : r ∉ sg63_W) :
    after sg63 V (no_index (Proc.devRef .tc r)) = V (Proc.devRef .tc r) :=
  after_of_writes_sub sg63 V sg63_writes h

/-- The buffers that stretch 64 writes. -/
abbrev sg64_W : List (Ref sig .tc) := [main_v298, main_v299]
set_option maxRecDepth 8192 in
theorem sg64_writes : (sg64 : List (HloOp τ sig (Elt F))).Forall fun op => op.writes ⊆ (sg64_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 64 does not write keeps its contents through it. -/
theorem sg64_keep (V : Valuation τ sig (Elt F)) (r : Ref sig .tc) (h : r ∉ sg64_W) :
    after sg64 V (no_index (Proc.devRef .tc r)) = V (Proc.devRef .tc r) :=
  after_of_writes_sub sg64 V sg64_writes h

/-- The buffers that stretch 65 writes. -/
abbrev sg65_W : List (Ref sig .tc) := [main_v300, main_v301, main_call9_cst, main_call9_v0, main_v302, main_v303, main_v304, main_v305, main_v306, main_v307]
set_option maxRecDepth 8192 in
theorem sg65_writes : (sg65 : List (HloOp τ sig (Elt F))).Forall fun op => op.writes ⊆ (sg65_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 65 does not write keeps its contents through it. -/
theorem sg65_keep (V : Valuation τ sig (Elt F)) (r : Ref sig .tc) (h : r ∉ sg65_W) :
    after sg65 V (no_index (Proc.devRef .tc r)) = V (Proc.devRef .tc r) :=
  after_of_writes_sub sg65 V sg65_writes h

set_option maxRecDepth 8192 in
/-- Operations 0 … 1 leave `refSrc` of their inputs in `main_v1`. -/
theorem st_main_v1 (V : Valuation τ sig (Elt F)) :
    after sg0 V (no_index (Proc.devRef .tc main_v1)) =
      refSrc (V (Proc.devRef .tc main_arg1)) := by
  simp only [sg0]
  after_results_simp
  all_goals rfl

set_option maxRecDepth 8192 in
/-- Operations 2 … 3 leave `refDst` of their inputs in `main_v3`. -/
theorem st_main_v3 (V : Valuation τ sig (Elt F)) :
    after sg1 V (no_index (Proc.devRef .tc main_v3)) =
      refDst (V (Proc.devRef .tc main_arg1)) := by
  simp only [sg1]
  after_results_simp
  all_goals rfl

set_option maxRecDepth 8192 in
/-- Operations 4 … 9 leave `refDeg` of their inputs in `main_v7`. -/
theorem st_main_v7 (V : Valuation τ sig (Elt F)) :
    after sg2 V (no_index (Proc.devRef .tc main_v7)) =
      refDeg (V (Proc.devRef .tc main_v3)) := by
  simp only [sg2]
  after_results_simp
  all_goals rfl

set_option maxRecDepth 8192 in
/-- Operations 10 … 17 leave `refSrcIdx` of their inputs in `main_v13`. -/
theorem st_main_v13 (V : Valuation τ sig (Elt F)) :
    after sg3 V (no_index (Proc.devRef .tc main_v13)) =
      refSrcIdx (V (Proc.devRef .tc main_v1)) := by
  simp only [sg3]
  after_results_simp
  all_goals rfl

set_option maxRecDepth 8192 in
set_option maxHeartbeats 1100000 in
/-- Operations 18 … 28 leave `refAgg12` of their inputs in `main_v22`. -/
theorem st_main_v22 (V : Valuation τ sig (Elt F)) :
    after sg4 V (no_index (Proc.devRef .tc main_v22)) =
      refAgg12 (V (Proc.devRef .tc main_arg0)) (V (Proc.devRef .tc main_v13)) (V (Proc.devRef .tc main_v3)) (V (Proc.devRef .tc main_v7)) := by
  simp only [sg4]
  after_results_simp
  all_goals rfl

set_option maxRecDepth 8192 in
/-- Operations 29 … 34 leave `refPre12x256` of their inputs in `main_v28`. -/
theorem st_main_v28 (V : Valuation τ sig (Elt F)) :
    after sg5 V (no_index (Proc.devRef .tc main_v28)) =
      refPre12x256 (V (Proc.devRef .tc main_v22)) (V (Proc.devRef .tc main_arg2)) (V (Proc.devRef .tc main_arg3)) (V (Proc.devRef .tc main_arg0)) (V (Proc.devRef .tc main_arg4)) := by
  simp only [sg5]
  after_results_simp
  all_goals rfl

set_option maxRecDepth 8192 in
set_option maxHeartbeats 1000000 in
/-- Operations 35 … 44 leave `refRownorm256` of their inputs in `main_v36`. -/
theorem st_main_v36 (V : Valuation τ sig (Elt F)) :
    after sg6 V (no_index (Proc.devRef .tc main_v36)) =
      refRownorm256 (V (Proc.devRef .tc main_v28)) := by
  simp only [sg6]
  after_results_simp
  all_goals rfl

set_option maxRecDepth 8192 in
/-- Operations 45 … 49 leave `refMean256` of their inputs in `main_v39`. -/
theorem st_main_v39 (V : Valuation τ sig (Elt F)) :
    after sg7 V (no_index (Proc.devRef .tc main_v39)) =
      refMean256 (V (Proc.devRef .tc main_v36)) := by
  simp only [sg7]
  after_results_simp
  all_goals rfl

set_option maxRecDepth 8192 in
set_option maxHeartbeats 2000000 in
/-- Operations 50 … 72 leave `refVar256` of their inputs in `main_v40`. -/
theorem st_main_v40 (V : Valuation τ sig (Elt F)) :
    after sg8 V (no_index (Proc.devRef .tc main_v40)) =
      refVar256 (V (Proc.devRef .tc main_v36)) := by
  simp only [sg8]
  after_results_simp
  all_goals rfl

set_option maxRecDepth 8192 in
set_option maxHeartbeats 1600000 in
/-- Operations 73 … 88 leave `refBn256` of their inputs in `main_v55`. -/
theorem st_main_v55 (V : Valuation τ sig (Elt F)) :
    after sg10 (after sg9 V) (no_index (Proc.devRef .tc main_v55)) =
      refBn256 (V (Proc.devRef .tc main_v39)) (V (Proc.devRef .tc main_v36)) (V (Proc.devRef .tc main_v40)) (V (Proc.devRef .tc main_arg5)) (V (Proc.devRef .tc main_arg6)) := by
  simp only [sg9, sg10]
  after_results_simp
  all_goals rfl

set_option maxRecDepth 8192 in
/-- Operations 89 … 91 leave `refRelu256` of their inputs in `main_v56`. -/
theorem st_main_v56 (V : Valuation τ sig (Elt F)) :
    after sg11 V (no_index (Proc.devRef .tc main_v56)) =
      refRelu256 (V (Proc.devRef .tc main_v55)) := by
  simp only [sg11]
  after_results_simp
  all_goals rfl

set_option maxRecDepth 8192 in
/-- Operations 92 … 93 leave `refMat0` of their inputs in `main_v58`. -/
theorem st_main_v58 (V : Valuation τ sig (Elt F)) :
    after sg12 V (no_index (Proc.devRef .tc main_v58)) =
      refMat0 (V (Proc.devRef .tc main_arg7)) := by
  simp only [sg12]
  after_results_simp
  all_goals rfl

set_option maxRecDepth 8192 in
/-- Operations 94 … 95 leave `refVec0` of their inputs in `main_v60`. -/
theorem st_main_v60 (V : Valuation τ sig (Elt F)) :
    after sg13 V (no_index (Proc.devRef .tc main_v60)) =
      refVec0 (V (Proc.devRef .tc main_arg8)) := by
  simp only [sg13]
  after_results_simp
  all_goals rfl

set_option maxRecDepth 8192 in
/-- Operations 96 … 97 leave `refMat0` of their inputs in `main_v62`. -/
theorem st_main_v62 (V : Valuation τ sig (Elt F)) :
    after sg14 V (no_index (Proc.devRef .tc main_v62)) =
      refMat0 (V (Proc.devRef .tc main_arg9)) := by
  simp only [sg14]
  after_results_simp
  all_goals rfl

set_option maxRecDepth 8192 in
/-- Operations 98 … 99 leave `refVec0` of their inputs in `main_v64`. -/
theorem st_main_v64 (V : Valuation τ sig (Elt F)) :
    after sg15 V (no_index (Proc.devRef .tc main_v64)) =
      refVec0 (V (Proc.devRef .tc main_arg10)) := by
  simp only [sg15]
  after_results_simp
  all_goals rfl

set_option maxRecDepth 8192 in
/-- Operations 100 … 101 leave `refVec0` of their inputs in `main_v66`. -/
theorem st_main_v66 (V : Valuation τ sig (Elt F)) :
    after sg16 V (no_index (Proc.devRef .tc main_v66)) =
      refVec0 (V (Proc.devRef .tc main_arg11)) := by
  simp only [sg16]
  after_results_simp
  all_goals rfl

set_option maxRecDepth 8192 in
/-- Operations 102 … 107 leave `refDeg` of their inputs in `main_v70`. -/
theorem st_main_v70 (V : Valuation τ sig (Elt F)) :
    after sg17 V (no_index (Proc.devRef .tc main_v70)) =
      refDeg (V (Proc.devRef .tc main_v3)) := by
  simp only [sg17]
  after_results_simp
  all_goals rfl

set_option maxRecDepth 8192 in
/-- Operations 108 … 115 leave `refSrcIdx` of their inputs in `main_v76`. -/
theorem st_main_v76 (V : Valuation τ sig (Elt F)) :
    after sg18 V (no_index (Proc.devRef .tc main_v76)) =
      refSrcIdx (V (Proc.devRef .tc main_v1)) := by
  simp only [sg18]
  after_results_simp
  all_goals rfl

set_option maxRecDepth 8192 in
set_option maxHeartbeats 1100000 in
/-- Operations 116 … 126 leave `refAgg256` of their inputs in `main_v85`. -/
theorem st_main_v85 (V : Valuation τ sig (Elt F)) :
    after sg19 V (no_index (Proc.devRef .tc main_v85)) =
      refAgg256 (V (Proc.devRef .tc main_v56)) (V (Proc.devRef .tc main_v76)) (V (Proc.devRef .tc main_v3)) (V (Proc.devRef .tc main_v70)) := by
  simp only [sg19]
  after_results_simp
  all_goals rfl

set_option maxRecDepth 8192 in
/-- Operations 127 … 132 leave `refPre256x256` of their inputs in `main_v91`. -/
theorem st_main_v91 (V : Valuation τ sig (Elt F)) :
    after sg20 V (no_index (Proc.devRef .tc main_v91)) =
      refPre256x256 (V (Proc.devRef .tc main_v85)) (V (Proc.devRef .tc main_v58)) (V (Proc.devRef .tc main_v60)) (V (Proc.devRef .tc main_v56)) (V (Proc.devRef .tc main_v62)) := by
  simp only [sg20]
  after_results_simp
  all_goals rfl

set_option maxRecDepth 8192 in
set_option maxHeartbeats 1000000 in
/-- Operations 133 … 142 leave `refRownorm256` of their inputs in `main_v99`. -/
theorem st_main_v99 (V : Valuation τ sig (Elt F)) :
    after sg21 V (no_index (Proc.devRef .tc main_v99)) =
      refRownorm256 (V (Proc.devRef .tc main_v91)) := by
  simp only [sg21]
  after_results_simp
  all_goals rfl

set_option maxRecDepth 8192 in
/-- Operations 143 … 147 leave `refMean256` of their inputs in `main_v102`. -/
theorem st_main_v102 (V : Valuation τ sig (Elt F)) :
    after sg22 V (no_index (Proc.devRef .tc main_v102)) =
      refMean256 (V (Proc.devRef .tc main_v99)) := by
  simp only [sg22]
  after_results_simp
  all_goals rfl

set_option maxRecDepth 8192 in
set_option maxHeartbeats 2000000 in
/-- Operations 148 … 170 leave `refVar256` of their inputs in `main_v103`. -/
theorem st_main_v103 (V : Valuation τ sig (Elt F)) :
    after sg23 V (no_index (Proc.devRef .tc main_v103)) =
      refVar256 (V (Proc.devRef .tc main_v99)) := by
  simp only [sg23]
  after_results_simp
  all_goals rfl

set_option maxRecDepth 8192 in
set_option maxHeartbeats 1600000 in
/-- Operations 171 … 186 leave `refBn256` of their inputs in `main_v118`. -/
theorem st_main_v118 (V : Valuation τ sig (Elt F)) :
    after sg24 V (no_index (Proc.devRef .tc main_v118)) =
      refBn256 (V (Proc.devRef .tc main_v102)) (V (Proc.devRef .tc main_v99)) (V (Proc.devRef .tc main_v103)) (V (Proc.devRef .tc main_v64)) (V (Proc.devRef .tc main_v66)) := by
  simp only [sg24]
  after_results_simp
  all_goals rfl

set_option maxRecDepth 8192 in
/-- Operations 187 … 189 leave `refRelu256` of their inputs in `main_v119`. -/
theorem st_main_v119 (V : Valuation τ sig (Elt F)) :
    after sg25 V (no_index (Proc.devRef .tc main_v119)) =
      refRelu256 (V (Proc.devRef .tc main_v118)) := by
  simp only [sg25]
  after_results_simp
  all_goals rfl

set_option maxRecDepth 8192 in
/-- Operations 190 … 191 leave `refMat1` of their inputs in `main_v121`. -/
theorem st_main_v121 (V : Valuation τ sig (Elt F)) :
    after sg26 V (no_index (Proc.devRef .tc main_v121)) =
      refMat1 (V (Proc.devRef .tc main_arg7)) := by
  simp only [sg26]
  after_results_simp
  all_goals rfl

set_option maxRecDepth 8192 in
/-- Operations 192 … 193 leave `refVec1` of their inputs in `main_v123`. -/
theorem st_main_v123 (V : Valuation τ sig (Elt F)) :
    after sg27 V (no_index (Proc.devRef .tc main_v123)) =
      refVec1 (V (Proc.devRef .tc main_arg8)) := by
  simp only [sg27]
  after_results_simp
  all_goals rfl

set_option maxRecDepth 8192 in
/-- Operations 194 … 195 leave `refMat1` of their inputs in `main_v125`. -/
theorem st_main_v125 (V : Valuation τ sig (Elt F)) :
    after sg28 V (no_index (Proc.devRef .tc main_v125)) =
      refMat1 (V (Proc.devRef .tc main_arg9)) := by
  simp only [sg28]
  after_results_simp
  all_goals rfl

set_option maxRecDepth 8192 in
/-- Operations 196 … 197 leave `refVec1` of their inputs in `main_v127`. -/
theorem st_main_v127 (V : Valuation τ sig (Elt F)) :
    after sg29 V (no_index (Proc.devRef .tc main_v127)) =
      refVec1 (V (Proc.devRef .tc main_arg10)) := by
  simp only [sg29]
  after_results_simp
  all_goals rfl

set_option maxRecDepth 8192 in
/-- Operations 198 … 199 leave `refVec1` of their inputs in `main_v129`. -/
theorem st_main_v129 (V : Valuation τ sig (Elt F)) :
    after sg30 V (no_index (Proc.devRef .tc main_v129)) =
      refVec1 (V (Proc.devRef .tc main_arg11)) := by
  simp only [sg30]
  after_results_simp
  all_goals rfl

set_option maxRecDepth 8192 in
/-- Operations 200 … 205 leave `refDeg` of their inputs in `main_v133`. -/
theorem st_main_v133 (V : Valuation τ sig (Elt F)) :
    after sg31 V (no_index (Proc.devRef .tc main_v133)) =
      refDeg (V (Proc.devRef .tc main_v3)) := by
  simp only [sg31]
  after_results_simp
  all_goals rfl

set_option maxRecDepth 8192 in
/-- Operations 206 … 213 leave `refSrcIdx` of their inputs in `main_v139`. -/
theorem st_main_v139 (V : Valuation τ sig (Elt F)) :
    after sg32 V (no_index (Proc.devRef .tc main_v139)) =
      refSrcIdx (V (Proc.devRef .tc main_v1)) := by
  simp only [sg32]
  after_results_simp
  all_goals rfl

set_option maxRecDepth 8192 in
set_option maxHeartbeats 1100000 in
/-- Operations 214 … 224 leave `refAgg256` of their inputs in `main_v148`. -/
theorem st_main_v148 (V : Valuation τ sig (Elt F)) :
    after sg33 V (no_index (Proc.devRef .tc main_v148)) =
      refAgg256 (V (Proc.devRef .tc main_v119)) (V (Proc.devRef .tc main_v139)) (V (Proc.devRef .tc main_v3)) (V (Proc.devRef .tc main_v133)) := by
  simp only [sg33]
  after_results_simp
  all_goals rfl

set_option maxRecDepth 8192 in
/-- Operations 225 … 230 leave `refPre256x256` of their inputs in `main_v154`. -/
theorem st_main_v154 (V : Valuation τ sig (Elt F)) :
    after sg35 (after sg34 V) (no_index (Proc.devRef .tc main_v154)) =
      refPre256x256 (V (Proc.devRef .tc main_v148)) (V (Proc.devRef .tc main_v121)) (V (Proc.devRef .tc main_v123)) (V (Proc.devRef .tc main_v119)) (V (Proc.devRef .tc main_v125)) := by
  simp only [sg34, sg35]
  after_results_simp
  all_goals rfl

set_option maxRecDepth 8192 in
set_option maxHeartbeats 1000000 in
/-- Operations 231 … 240 leave `refRownorm256` of their inputs in `main_v162`. -/
theorem st_main_v162 (V : Valuation τ sig (Elt F)) :
    after sg36 V (no_index (Proc.devRef .tc main_v162)) =
      refRownorm256 (V (Proc.devRef .tc main_v154)) := by
  simp only [sg36]
  after_results_simp
  all_goals rfl

set_option maxRecDepth 8192 in
/-- Operations 241 … 245 leave `refMean256` of their inputs in `main_v165`. -/
theorem st_main_v165 (V : Valuation τ sig (Elt F)) :
    after sg37 V (no_index (Proc.devRef .tc main_v165)) =
      refMean256 (V (Proc.devRef .tc main_v162)) := by
  simp only [sg37]
  after_results_simp
  all_goals rfl

set_option maxRecDepth 8192 in
set_option maxHeartbeats 2000000 in
/-- Operations 246 … 268 leave `refVar256` of their inputs in `main_v166`. -/
theorem st_main_v166 (V : Valuation τ sig (Elt F)) :
    after sg38 V (no_index (Proc.devRef .tc main_v166)) =
      refVar256 (V (Proc.devRef .tc main_v162)) := by
  simp only [sg38]
  after_results_simp
  all_goals rfl

set_option maxRecDepth 8192 in
set_option maxHeartbeats 1600000 in
/-- Operations 269 … 284 leave `refBn256` of their inputs in `main_v181`. -/
theorem st_main_v181 (V : Valuation τ sig (Elt F)) :
    after sg39 V (no_index (Proc.devRef .tc main_v181)) =
      refBn256 (V (Proc.devRef .tc main_v165)) (V (Proc.devRef .tc main_v162)) (V (Proc.devRef .tc main_v166)) (V (Proc.devRef .tc main_v127)) (V (Proc.devRef .tc main_v129)) := by
  simp only [sg39]
  after_results_simp
  all_goals rfl

set_option maxRecDepth 8192 in
/-- Operations 285 … 287 leave `refRelu256` of their inputs in `main_v182`. -/
theorem st_main_v182 (V : Valuation τ sig (Elt F)) :
    after sg40 V (no_index (Proc.devRef .tc main_v182)) =
      refRelu256 (V (Proc.devRef .tc main_v181)) := by
  simp only [sg40]
  after_results_simp
  all_goals rfl

set_option maxRecDepth 8192 in
/-- Operations 288 … 289 leave `refMat2` of their inputs in `main_v184`. -/
theorem st_main_v184 (V : Valuation τ sig (Elt F)) :
    after sg41 V (no_index (Proc.devRef .tc main_v184)) =
      refMat2 (V (Proc.devRef .tc main_arg7)) := by
  simp only [sg41]
  after_results_simp
  all_goals rfl

set_option maxRecDepth 8192 in
/-- Operations 290 … 291 leave `refVec2` of their inputs in `main_v186`. -/
theorem st_main_v186 (V : Valuation τ sig (Elt F)) :
    after sg42 V (no_index (Proc.devRef .tc main_v186)) =
      refVec2 (V (Proc.devRef .tc main_arg8)) := by
  simp only [sg42]
  after_results_simp
  all_goals rfl

set_option maxRecDepth 8192 in
/-- Operations 292 … 293 leave `refMat2` of their inputs in `main_v188`. -/
theorem st_main_v188 (V : Valuation τ sig (Elt F)) :
    after sg43 V (no_index (Proc.devRef .tc main_v188)) =
      refMat2 (V (Proc.devRef .tc main_arg9)) := by
  simp only [sg43]
  after_results_simp
  all_goals rfl

set_option maxRecDepth 8192 in
/-- Operations 294 … 295 leave `refVec2` of their inputs in `main_v190`. -/
theorem st_main_v190 (V : Valuation τ sig (Elt F)) :
    after sg44 V (no_index (Proc.devRef .tc main_v190)) =
      refVec2 (V (Proc.devRef .tc main_arg10)) := by
  simp only [sg44]
  after_results_simp
  all_goals rfl

set_option maxRecDepth 8192 in
/-- Operations 296 … 297 leave `refVec2` of their inputs in `main_v192`. -/
theorem st_main_v192 (V : Valuation τ sig (Elt F)) :
    after sg45 V (no_index (Proc.devRef .tc main_v192)) =
      refVec2 (V (Proc.devRef .tc main_arg11)) := by
  simp only [sg45]
  after_results_simp
  all_goals rfl

set_option maxRecDepth 8192 in
/-- Operations 298 … 303 leave `refDeg` of their inputs in `main_v196`. -/
theorem st_main_v196 (V : Valuation τ sig (Elt F)) :
    after sg46 V (no_index (Proc.devRef .tc main_v196)) =
      refDeg (V (Proc.devRef .tc main_v3)) := by
  simp only [sg46]
  after_results_simp
  all_goals rfl

set_option maxRecDepth 8192 in
/-- Operations 304 … 311 leave `refSrcIdx` of their inputs in `main_v202`. -/
theorem st_main_v202 (V : Valuation τ sig (Elt F)) :
    after sg48 (after sg47 V) (no_index (Proc.devRef .tc main_v202)) =
      refSrcIdx (V (Proc.devRef .tc main_v1)) := by
  simp only [sg47, sg48]
  after_results_simp
  all_goals rfl

set_option maxRecDepth 8192 in
set_option maxHeartbeats 1100000 in
/-- Operations 312 … 322 leave `refAgg256` of their inputs in `main_v211`. -/
theorem st_main_v211 (V : Valuation τ sig (Elt F)) :
    after sg49 V (no_index (Proc.devRef .tc main_v211)) =
      refAgg256 (V (Proc.devRef .tc main_v182)) (V (Proc.devRef .tc main_v202)) (V (Proc.devRef .tc main_v3)) (V (Proc.devRef .tc main_v196)) := by
  simp only [sg49]
  after_results_simp
  all_goals rfl

set_option maxRecDepth 8192 in
/-- Operations 323 … 328 leave `refPre256x256` of their inputs in `main_v217`. -/
theorem st_main_v217 (V : Valuation τ sig (Elt F)) :
    after sg50 V (no_index (Proc.devRef .tc main_v217)) =
      refPre256x256 (V (Proc.devRef .tc main_v211)) (V (Proc.devRef .tc main_v184)) (V (Proc.devRef .tc main_v186)) (V (Proc.devRef .tc main_v182)) (V (Proc.devRef .tc main_v188)) := by
  simp only [sg50]
  after_results_simp
  all_goals rfl

set_option maxRecDepth 8192 in
set_option maxHeartbeats 1000000 in
/-- Operations 329 … 338 leave `refRownorm256` of their inputs in `main_v225`. -/
theorem st_main_v225 (V : Valuation τ sig (Elt F)) :
    after sg51 V (no_index (Proc.devRef .tc main_v225)) =
      refRownorm256 (V (Proc.devRef .tc main_v217)) := by
  simp only [sg51]
  after_results_simp
  all_goals rfl

set_option maxRecDepth 8192 in
/-- Operations 339 … 343 leave `refMean256` of their inputs in `main_v228`. -/
theorem st_main_v228 (V : Valuation τ sig (Elt F)) :
    after sg52 V (no_index (Proc.devRef .tc main_v228)) =
      refMean256 (V (Proc.devRef .tc main_v225)) := by
  simp only [sg52]
  after_results_simp
  all_goals rfl

set_option maxRecDepth 8192 in
set_option maxHeartbeats 2000000 in
/-- Operations 344 … 366 leave `refVar256` of their inputs in `main_v229`. -/
theorem st_main_v229 (V : Valuation τ sig (Elt F)) :
    after sg53 V (no_index (Proc.devRef .tc main_v229)) =
      refVar256 (V (Proc.devRef .tc main_v225)) := by
  simp only [sg53]
  after_results_simp
  all_goals rfl

set_option maxRecDepth 8192 in
set_option maxHeartbeats 1600000 in
/-- Operations 367 … 382 leave `refBn256` of their inputs in `main_v244`. -/
theorem st_main_v244 (V : Valuation τ sig (Elt F)) :
    after sg54 V (no_index (Proc.devRef .tc main_v244)) =
      refBn256 (V (Proc.devRef .tc main_v228)) (V (Proc.devRef .tc main_v225)) (V (Proc.devRef .tc main_v229)) (V (Proc.devRef .tc main_v190)) (V (Proc.devRef .tc main_v192)) := by
  simp only [sg54]
  after_results_simp
  all_goals rfl

set_option maxRecDepth 8192 in
/-- Operations 383 … 385 leave `refRelu256` of their inputs in `main_v245`. -/
theorem st_main_v245 (V : Valuation τ sig (Elt F)) :
    after sg55 V (no_index (Proc.devRef .tc main_v245)) =
      refRelu256 (V (Proc.devRef .tc main_v244)) := by
  simp only [sg55]
  after_results_simp
  all_goals rfl

set_option maxRecDepth 8192 in
/-- Operations 386 … 391 leave `refDeg` of their inputs in `main_v249`. -/
theorem st_main_v249 (V : Valuation τ sig (Elt F)) :
    after sg56 V (no_index (Proc.devRef .tc main_v249)) =
      refDeg (V (Proc.devRef .tc main_v3)) := by
  simp only [sg56]
  after_results_simp
  all_goals rfl

set_option maxRecDepth 8192 in
/-- Operations 392 … 399 leave `refSrcIdx` of their inputs in `main_v255`. -/
theorem st_main_v255 (V : Valuation τ sig (Elt F)) :
    after sg57 V (no_index (Proc.devRef .tc main_v255)) =
      refSrcIdx (V (Proc.devRef .tc main_v1)) := by
  simp only [sg57]
  after_results_simp
  all_goals rfl

set_option maxRecDepth 8192 in
set_option maxHeartbeats 1100000 in
/-- Operations 400 … 410 leave `refAgg256` of their inputs in `main_v264`. -/
theorem st_main_v264 (V : Valuation τ sig (Elt F)) :
    after sg58 V (no_index (Proc.devRef .tc main_v264)) =
      refAgg256 (V (Proc.devRef .tc main_v245)) (V (Proc.devRef .tc main_v255)) (V (Proc.devRef .tc main_v3)) (V (Proc.devRef .tc main_v249)) := by
  simp only [sg58]
  after_results_simp
  all_goals rfl

set_option maxRecDepth 8192 in
/-- Operations 411 … 416 leave `refPre256x128` of their inputs in `main_v270`. -/
theorem st_main_v270 (V : Valuation τ sig (Elt F)) :
    after sg59 V (no_index (Proc.devRef .tc main_v270)) =
      refPre256x128 (V (Proc.devRef .tc main_v264)) (V (Proc.devRef .tc main_arg12)) (V (Proc.devRef .tc main_arg13)) (V (Proc.devRef .tc main_v245)) (V (Proc.devRef .tc main_arg14)) := by
  simp only [sg59]
  after_results_simp
  all_goals rfl

set_option maxRecDepth 8192 in
set_option maxHeartbeats 1000000 in
/-- Operations 417 … 426 leave `refRownorm128` of their inputs in `main_v278`. -/
theorem st_main_v278 (V : Valuation τ sig (Elt F)) :
    after sg60 V (no_index (Proc.devRef .tc main_v278)) =
      refRownorm128 (V (Proc.devRef .tc main_v270)) := by
  simp only [sg60]
  after_results_simp
  all_goals rfl

set_option maxRecDepth 8192 in
/-- Operations 427 … 431 leave `refMean128` of their inputs in `main_v281`. -/
theorem st_main_v281 (V : Valuation τ sig (Elt F)) :
    after sg61 V (no_index (Proc.devRef .tc main_v281)) =
      refMean128 (V (Proc.devRef .tc main_v278)) := by
  simp only [sg61]
  after_results_simp
  all_goals rfl

set_option maxRecDepth 8192 in
set_option maxHeartbeats 2000000 in
/-- Operations 432 … 454 leave `refVar128` of their inputs in `main_v282`. -/
theorem st_main_v282 (V : Valuation τ sig (Elt F)) :
    after sg62 V (no_index (Proc.devRef .tc main_v282)) =
      refVar128 (V (Proc.devRef .tc main_v278)) := by
  simp only [sg62]
  after_results_simp
  all_goals rfl

set_option maxRecDepth 8192 in
set_option maxHeartbeats 1600000 in
/-- Operations 455 … 470 leave `refBn128` of their inputs in `main_v297`. -/
theorem st_main_v297 (V : Valuation τ sig (Elt F)) :
    after sg63 V (no_index (Proc.devRef .tc main_v297)) =
      refBn128 (V (Proc.devRef .tc main_v281)) (V (Proc.devRef .tc main_v278)) (V (Proc.devRef .tc main_v282)) (V (Proc.devRef .tc main_arg15)) (V (Proc.devRef .tc main_arg16)) := by
  simp only [sg63]
  after_results_simp
  all_goals rfl

set_option maxRecDepth 8192 in
set_option maxHeartbeats 1200000 in
/-- Operations 471 … 482 leave `refHead` of their inputs in `main_v307`. -/
theorem st_main_v307 (V : Valuation τ sig (Elt F)) :
    after sg65 (after sg64 V) (no_index (Proc.devRef .tc main_v307)) =
      refHead (V (Proc.devRef .tc main_v297)) (V (Proc.devRef .tc main_arg17)) (V (Proc.devRef .tc main_arg18)) (V (Proc.devRef .tc main_arg19)) (V (Proc.devRef .tc main_arg20)) := by
  simp only [sg64, sg65]
  after_results_simp
  all_goals rfl

end Cert.ReferenceIdeal.RefRun

end
-- ==== Proof.RefRun2.lean ====
/- The reference's run read layer by layer: each layer's stretch of operations leaves the layer function of its
   inputs in the layer's result buffer, the whole list leaves the network function of the 21 argument arrays in
   the result buffer and every argument buffer as it was; hence the statement about every execution. -/
import proofs.«169498_j72670846649171_2_alg».proof.Proof.RefRun1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0 (12 features in, 256 out): degree, neighbourhood mean, affine map, row normalisation, batch normalisation, relu. -/
def refLayer0 (h : (⟨S100000x12, .f32⟩ : BufTy).Contents (Elt F)) (src dst : (⟨S800000, .i32⟩ : BufTy).Contents (Elt F)) (wl : (⟨S12x256, .f32⟩ : BufTy).Contents (Elt F)) (bl : (⟨S256, .f32⟩ : BufTy).Contents (Elt F)) (wr : (⟨S12x256, .f32⟩ : BufTy).Contents (Elt F)) (gamma beta : (⟨S256, .f32⟩ : BufTy).Contents (Elt F)) :
    (⟨S100000x256, .f32⟩ : BufTy).Contents (Elt F) :=
  let x := refRownorm256 (refPre12x256 (refAgg12 h (refSrcIdx src) dst (refDeg dst)) wl bl h wr)
  refRelu256 (refBn256 (refMean256 x) x (refVar256 x) gamma beta)

/-- A middle layer (256 features in, 256 out). -/
def refLayer256 (h : (⟨S100000x256, .f32⟩ : BufTy).Contents (Elt F)) (src dst : (⟨S800000, .i32⟩ : BufTy).Contents (Elt F)) (wl : (⟨S256x256, .f32⟩ : BufTy).Contents (Elt F)) (bl : (⟨S256, .f32⟩ : BufTy).Contents (Elt F)) (wr : (⟨S256x256, .f32⟩ : BufTy).Contents (Elt F)) (gamma beta : (⟨S256, .f32⟩ : BufTy).Contents (Elt F)) :
    (⟨S100000x256, .f32⟩ : BufTy).Contents (Elt F) :=
  let x := refRownorm256 (refPre256x256 (refAgg256 h (refSrcIdx src) dst (refDeg dst)) wl bl h wr)
  refRelu256 (refBn256 (refMean256 x) x (refVar256 x) gamma beta)

/-- The last layer (256 features in, 128 out), without relu. -/
def refLayer4 (h : (⟨S100000x256, .f32⟩ : BufTy).Contents (Elt F)) (src dst : (⟨S800000, .i32⟩ : BufTy).Contents (Elt F)) (wl : (⟨S256x128, .f32⟩ : BufTy).Contents (Elt F)) (bl : (⟨S128, .f32⟩ : BufTy).Contents (Elt F)) (wr : (⟨S256x128, .f32⟩ : BufTy).Contents (Elt F)) (gamma beta : (⟨S128, .f32⟩ : BufTy).Contents (Elt F)) :
    (⟨S100000x128, .f32⟩ : BufTy).Contents (Elt F) :=
  let x := refRownorm128 (refPre256x128 (refAgg256 h (refSrcIdx src) dst (refDeg dst)) wl bl h wr)
  refBn128 (refMean128 x) x (refVar128 x) gamma beta

/-- The whole reference: five layers and the head, of the 21 argument arrays. -/
def refNet (a0 : (⟨S100000x12, .f32⟩ : BufTy).Contents (Elt F)) (a1 : (⟨S2x800000, .i32⟩ : BufTy).Contents (Elt F)) (a2 : (⟨S12x256, .f32⟩ : BufTy).Contents (Elt F)) (a3 : (⟨S256, .f32⟩ : BufTy).Contents (Elt F)) (a4 : (⟨S12x256, .f32⟩ : BufTy).Contents (Elt F)) (a5 : (⟨S256, .f32⟩ : BufTy).Contents (Elt F)) (a6 : (⟨S256, .f32⟩ : BufTy).Contents (Elt F)) (a7 : (⟨S3x256x256, .f32⟩ : BufTy).Contents (Elt F)) (a8 : (⟨S3x256, .f32⟩ : BufTy).Contents (Elt F)) (a9 : (⟨S3x256x256, .f32⟩ : BufTy).Contents (Elt F)) (a10 : (⟨S3x256, .f32⟩ : BufTy).Contents (Elt F)) (a11 : (⟨S3x256, .f32⟩ : BufTy).Contents (Elt F)) (a12 : (⟨S256x128, .f32⟩ : BufTy).Contents (Elt F)) (a13 : (⟨S128, .f32⟩ : BufTy).Contents (Elt F)) (a14 : (⟨S256x128, .f32⟩ : BufTy).Contents (Elt F)) (a15 : (⟨S128, .f32⟩ : BufTy).Contents (Elt F)) (a16 : (⟨S128, .f32⟩ : BufTy).Contents (Elt F)) (a17 : (⟨S128x64, .f32⟩ : BufTy).Contents (Elt F)) (a18 : (⟨S64, .f32⟩ : BufTy).Contents (Elt F)) (a19 : (⟨S64x1, .f32⟩ : BufTy).Contents (Elt F)) (a20 : (⟨S1, .f32⟩ : BufTy).Contents (Elt F)) :
    (⟨S100000, .f32⟩ : BufTy).Contents (Elt F) :=
  let src := refSrc a1
  let dst := refDst a1
  let h1 := refLayer0 a0 src dst a2 a3 a4 a5 a6
  let h2 := refLayer256 h1 src dst (refMat0 a7) (refVec0 a8) (refMat0 a9) (refVec0 a10) (refVec0 a11)
  let h3 := refLayer256 h2 src dst (refMat1 a7) (refVec1 a8) (refMat1 a9) (refVec1 a10) (refVec1 a11)
  let h4 := refLayer256 h3 src dst (refMat2 a7) (refVec2 a8) (refMat2 a9) (refVec2 a10) (refVec2 a11)
  refHead (refLayer4 h4 src dst a12 a13 a14 a15 a16) a17 a18 a19 a20

/-- The operations of stage group `pre`. -/
abbrev lay_pre : List (HloOp τ sig (Elt F)) :=
  sg0 ++ (sg1)
/-- The buffers they write. -/
abbrev lay_pre_W : List (Ref sig .tc) :=
  sg0_W ++ (sg1_W)
set_option maxRecDepth 8192 in
theorem lay_pre_keep (V : Valuation τ sig (Elt F)) (r : Ref sig .tc) (h : r ∉ lay_pre_W) :
    after lay_pre V (no_index (Proc.devRef .tc r)) = V (Proc.devRef .tc r) := by
  simp only [lay_pre, after_app]
  rw [sg1_keep _ r (fun hm => h (List.mem_append_right _ (hm))),
    sg0_keep _ r (fun hm => h (List.mem_append_left _ hm))]

/-- The operations of stage group `L0`. -/
abbrev lay_L0 : List (HloOp τ sig (Elt F)) :=
  sg2 ++ (sg3 ++ (sg4 ++ (sg5 ++ (sg6 ++ (sg7 ++ (sg8 ++ (sg9 ++ (sg10 ++ (sg11)))))))))
/-- The buffers they write. -/
abbrev lay_L0_W : List (Ref sig .tc) :=
  sg2_W ++ (sg3_W ++ (sg4_W ++ (sg5_W ++ (sg6_W ++ (sg7_W ++ (sg8_W ++ (sg9_W ++ (sg10_W ++ (sg11_W)))))))))
set_option maxRecDepth 8192 in
theorem lay_L0_keep (V : Valuation τ sig (Elt F)) (r : Ref sig .tc) (h : r ∉ lay_L0_W) :
    after lay_L0 V (no_index (Proc.devRef .tc r)) = V (Proc.devRef .tc r) := by
  simp only [lay_L0, after_app]
  rw [sg11_keep _ r (fun hm => h (List.mem_append_right _ (List.mem_append_right _ (List.mem_append_right _ (List.mem_append_right _ (List.mem_append_right _ (List.mem_append_right _ (List.mem_append_right _ (List.mem_append_right _ (List.mem_append_right _ (hm))))))))))),
    sg10_keep _ r (fun hm => h (List.mem_append_right _ (List.mem_append_right _ (List.mem_append_right _ (List.mem_append_right _ (List.mem_append_right _ (List.mem_append_right _ (List.mem_append_right _ (List.mem_append_right _ (List.mem_append_left _ hm)))))))))),
    sg9_keep _ r (fun hm => h (List.mem_append_right _ (List.mem_append_right _ (List.mem_append_right _ (List.mem_append_right _ (List.mem_append_right _ (List.mem_append_right _ (List.mem_append_right _ (List.mem_append_left _ hm))))))))),
    sg8_keep _ r (fun hm => h (List.mem_append_right _ (List.mem_append_right _ (List.mem_append_right _ (List.mem_append_right _ (List.mem_append_right _ (List.mem_append_right _ (List.mem_append_left _ hm)))))))),
    sg7_keep _ r (fun hm => h (List.mem_append_right _ (List.mem_append_right _ (List.mem_append_right _ (List.mem_append_right _ (List.mem_append_right _ (List.mem_append_left _ hm))))))),
    sg6_keep _ r (fun hm => h (List.mem_append_right _ (List.mem_append_right _ (List.mem_append_right _ (List.mem_append_right _ (List.mem_append_left _ hm)))))),
    sg5_keep _ r (fun hm => h (List.mem_append_right _ (List.mem_append_right _ (List.mem_append_right _ (List.mem_append_left _ hm))))),
    sg4_keep _ r (fun hm => h (List.mem_append_right _ (List.mem_append_right _ (List.mem_append_left _ hm)))),
    sg3_keep _ r (fun hm => h (List.mem_append_right _ (List.mem_append_left _ hm))),
    sg2_keep _ r (fun hm => h (List.mem_append_left _ hm))]

/-- The operations of stage group `L1`. -/
abbrev lay_L1 : List (HloOp τ sig (Elt F)) :=
  sg12 ++ (sg13 ++ (sg14 ++ (sg15 ++ (sg16 ++ (sg17 ++ (sg18 ++ (sg19 ++ (sg20 ++ (sg21 ++ (sg22 ++ (sg23 ++ (sg24 ++ (sg25)))))))))))))
/-- The buffers they write. -/
abbrev lay_L1_W : List (Ref sig .tc) :=
  sg12_W ++ (sg13_W ++ (sg14_W ++ (sg15_W ++ (sg16_W ++ (sg17_W ++ (sg18_W ++ (sg19_W ++ (sg20_W ++ (sg21_W ++ (sg22_W ++ (sg23_W ++ (sg24_W ++ (sg25_W)))))))))))))
set_option maxRecDepth 8192 in
theorem lay_L1_keep (V : Valuation τ sig (Elt F)) (r : Ref sig .tc) (h : r ∉ lay_L1_W) :
    after lay_L1 V (no_index (Proc.devRef .tc r)) = V (Proc.devRef .tc r) := by
  simp only [lay_L1, after_app]
  rw [sg25_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (hm))))))))))))))),
    sg24_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))),
    sg23_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))),
    sg22_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))),
    sg21_keep _ r (fun hm => h (List.mem_append_right _ (List.mem_append_right _ (List.mem_append_right _ (List.mem_append_right _ (List.mem_append_right _ (List.mem_append_right _ (List.mem_append_right _ (List.mem_append_right _ (List.mem_append_right _ (List.mem_append_left _ hm))))))))))),
    sg20_keep _ r (fun hm => h (List.mem_append_right _ (List.mem_append_right _ (List.mem_append_right _ (List.mem_append_right _ (List.mem_append_right _ (List.mem_append_right _ (List.mem_append_right _ (List.mem_append_right _ (List.mem_append_left _ hm)))))))))),
    sg19_keep _ r (fun hm => h (List.mem_append_right _ (List.mem_append_right _ (List.mem_append_right _ (List.mem_append_right _ (List.mem_append_right _ (List.mem_append_right _ (List.mem_append_right _ (List.mem_append_left _ hm))))))))),
    sg18_keep _ r (fun hm => h (List.mem_append_right _ (List.mem_append_right _ (List.mem_append_right _ (List.mem_append_right _ (List.mem_append_right _ (List.mem_append_right _ (List.mem_append_left _ hm)))))))),
    sg17_keep _ r (fun hm => h (List.mem_append_right _ (List.mem_append_right _ (List.mem_append_right _ (List.mem_append_right _ (List.mem_append_right _ (List.mem_append_left _ hm))))))),
    sg16_keep _ r (fun hm => h (List.mem_append_right _ (List.mem_append_right _ (List.mem_append_right _ (List.mem_append_right _ (List.mem_append_left _ hm)))))),
    sg15_keep _ r (fun hm => h (List.mem_append_right _ (List.mem_append_right _ (List.mem_append_right _ (List.mem_append_left _ hm))))),
    sg14_keep _ r (fun hm => h (List.mem_append_right _ (List.mem_append_right _ (List.mem_append_left _ hm)))),
    sg13_keep _ r (fun hm => h (List.mem_append_right _ (List.mem_append_left _ hm))),
    sg12_keep _ r (fun hm => h (List.mem_append_left _ hm))]

/-- The operations of stage group `L2`. -/
abbrev lay_L2 : List (HloOp τ sig (Elt F)) :=
  sg26 ++ (sg27 ++ (sg28 ++ (sg29 ++ (sg30 ++ (sg31 ++ (sg32 ++ (sg33 ++ (sg34 ++ (sg35 ++ (sg36 ++ (sg37 ++ (sg38 ++ (sg39 ++ (sg40))))))))))))))
/-- The buffers they write. -/
abbrev lay_L2_W : List (Ref sig .tc) :=
  sg26_W ++ (sg27_W ++ (sg28_W ++ (sg29_W ++ (sg30_W ++ (sg31_W ++ (sg32_W ++ (sg33_W ++ (sg34_W ++ (sg35_W ++ (sg36_W ++ (sg37_W ++ (sg38_W ++ (sg39_W ++ (sg40_W))))))))))))))
set_option maxRecDepth 8192 in
theorem lay_L2_keep (V : Valuation τ sig (Elt F)) (r : Ref sig .tc) (h : r ∉ lay_L2_W) :
    after lay_L2 V (no_index (Proc.devRef .tc r)) = V (Proc.devRef .tc r) := by
  simp only [lay_L2, after_app]
  rw [sg40_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (hm)))))))))))))))),
    sg39_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))),
    sg38_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))),
    sg37_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))),
    sg36_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))),
    sg35_keep _ r (fun hm => h (List.mem_append_right _ (List.mem_append_right _ (List.mem_append_right _ (List.mem_append_right _ (List.mem_append_right _ (List.mem_append_right _ (List.mem_append_right _ (List.mem_append_right _ (List.mem_append_right _ (List.mem_append_left _ hm))))))))))),
    sg34_keep _ r (fun hm => h (List.mem_append_right _ (List.mem_append_right _ (List.mem_append_right _ (List.mem_append_right _ (List.mem_append_right _ (List.mem_append_right _ (List.mem_append_right _ (List.mem_append_right _ (List.mem_append_left _ hm)))))))))),
    sg33_keep _ r (fun hm => h (List.mem_append_right _ (List.mem_append_right _ (List.mem_append_right _ (List.mem_append_right _ (List.mem_append_right _ (List.mem_append_right _ (List.mem_append_right _ (List.mem_append_left _ hm))))))))),
    sg32_keep _ r (fun hm => h (List.mem_append_right _ (List.mem_append_right _ (List.mem_append_right _ (List.mem_append_right _ (List.mem_append_right _ (List.mem_append_right _ (List.mem_append_left _ hm)))))))),
    sg31_keep _ r (fun hm => h (List.mem_append_right _ (List.mem_append_right _ (List.mem_append_right _ (List.mem_append_right _ (List.mem_append_right _ (List.mem_append_left _ hm))))))),
    sg30_keep _ r (fun hm => h (List.mem_append_right _ (List.mem_append_right _ (List.mem_append_right _ (List.mem_append_right _ (List.mem_append_left _ hm)))))),
    sg29_keep _ r (fun hm => h (List.mem_append_right _ (List.mem_append_right _ (List.mem_append_right _ (List.mem_append_left _ hm))))),
    sg28_keep _ r (fun hm => h (List.mem_append_right _ (List.mem_append_right _ (List.mem_append_left _ hm)))),
    sg27_keep _ r (fun hm => h (List.mem_append_right _ (List.mem_append_left _ hm))),
    sg26_keep _ r (fun hm => h (List.mem_append_left _ hm))]

/-- The operations of stage group `L3`. -/
abbrev lay_L3 : List (HloOp τ sig (Elt F)) :=
  sg41 ++ (sg42 ++ (sg43 ++ (sg44 ++ (sg45 ++ (sg46 ++ (sg47 ++ (sg48 ++ (sg49 ++ (sg50 ++ (sg51 ++ (sg52 ++ (sg53 ++ (sg54 ++ (sg55))))))))))))))
/-- The buffers they write. -/
abbrev lay_L3_W : List (Ref sig .tc) :=
  sg41_W ++ (sg42_W ++ (sg43_W ++ (sg44_W ++ (sg45_W ++ (sg46_W ++ (sg47_W ++ (sg48_W ++ (sg49_W ++ (sg50_W ++ (sg51_W ++ (sg52_W ++ (sg53_W ++ (sg54_W ++ (sg55_W))))))))))))))
set_option maxRecDepth 8192 in
theorem lay_L3_keep (V : Valuation τ sig (Elt F)) (r : Ref sig .tc) (h : r ∉ lay_L3_W) :
    after lay_L3 V (no_index (Proc.devRef .tc r)) = V (Proc.devRef .tc r) := by
  simp only [lay_L3, after_app]
  rw [sg55_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (hm)))))))))))))))),
    sg54_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))),
    sg53_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))),
    sg52_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))),
    sg51_keep _ r (fun hm => h (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))),
    sg50_keep _ r (fun hm => h (List.mem_append_right _ (List.mem_append_right _ (List.mem_append_right _ (List.mem_append_right _ (List.mem_append_right _ (List.mem_append_right _ (List.mem_append_right _ (List.mem_append_right _ (List.mem_append_right _ (List.mem_append_left _ hm))))))))))),
    sg49_keep _ r (fun hm => h (List.mem_append_right _ (List.mem_append_right _ (List.mem_append_right _ (List.mem_append_right _ (List.mem_append_right _ (List.mem_append_right _ (List.mem_append_right _ (List.mem_append_right _ (List.mem_append_left _ hm)))))))))),
    sg48_keep _ r (fun hm => h (List.mem_append_right _ (List.mem_append_right _ (List.mem_append_right _ (List.mem_append_right _ (List.mem_append_right _ (List.mem_append_right _ (List.mem_append_right _ (List.mem_append_left _ hm))))))))),
    sg47_keep _ r (fun hm => h (List.mem_append_right _ (List.mem_append_right _ (List.mem_append_right _ (List.mem_append_right _ (List.mem_append_right _ (List.mem_append_right _ (List.mem_append_left _ hm)))))))),
    sg46_keep _ r (fun hm => h (List.mem_append_right _ (List.mem_append_right _ (List.mem_append_right _ (List.mem_append_right _ (List.mem_append_right _ (List.mem_append_left _ hm))))))),
    sg45_keep _ r (fun hm => h (List.mem_append_right _ (List.mem_append_right _ (List.mem_append_right _ (List.mem_append_right _ (List.mem_append_left _ hm)))))),
    sg44_keep _ r (fun hm => h (List.mem_append_right _ (List.mem_append_right _ (List.mem_append_right _ (List.mem_append_left _ hm))))),
    sg43_keep _ r (fun hm => h (List.mem_append_right _ (List.mem_append_right _ (List.mem_append_left _ hm)))),
    sg42_keep _ r (fun hm => h (List.mem_append_right _ (List.mem_append_left _ hm))),
    sg41_keep _ r (fun hm => h (List.mem_append_left _ hm))]

/-- The operations of stage group `L4`. -/
abbrev lay_L4 : List (HloOp τ sig (Elt F)) :=
  sg56 ++ (sg57 ++ (sg58 ++ (sg59 ++ (sg60 ++ (sg61 ++ (sg62 ++ (sg63)))))))
/-- The buffers they write. -/
abbrev lay_L4_W : List (Ref sig .tc) :=
  sg56_W ++ (sg57_W ++ (sg58_W ++ (sg59_W ++ (sg60_W ++ (sg61_W ++ (sg62_W ++ (sg63_W)))))))
set_option maxRecDepth 8192 in
theorem lay_L4_keep (V : Valuation τ sig (Elt F)) (r : Ref sig .tc) (h : r ∉ lay_L4_W) :
    after lay_L4 V (no_index (Proc.devRef .tc r)) = V (Proc.devRef .tc r) := by
  simp only [lay_L4, after_app]
  rw [sg63_keep _ r (fun hm => h (List.mem_append_right _ (List.mem_append_right _ (List.mem_append_right _ (List.mem_append_right _ (List.mem_append_right _ (List.mem_append_right _ (List.mem_append_right _ (hm))))))))),
    sg62_keep _ r (fun hm => h (List.mem_append_right _ (List.mem_append_right _ (List.mem_append_right _ (List.mem_append_right _ (List.mem_append_right _ (List.mem_append_right _ (List.mem_append_left _ hm)))))))),
    sg61_keep _ r (fun hm => h (List.mem_append_right _ (List.mem_append_right _ (List.mem_append_right _ (List.mem_append_right _ (List.mem_append_right _ (List.mem_append_left _ hm))))))),
    sg60_keep _ r (fun hm => h (List.mem_append_right _ (List.mem_append_right _ (List.mem_append_right _ (List.mem_append_right _ (List.mem_append_left _ hm)))))),
    sg59_keep _ r (fun hm => h (List.mem_append_right _ (List.mem_append_right _ (List.mem_append_right _ (List.mem_append_left _ hm))))),
    sg58_keep _ r (fun hm => h (List.mem_append_right _ (List.mem_append_right _ (List.mem_append_left _ hm)))),
    sg57_keep _ r (fun hm => h (List.mem_append_right _ (List.mem_append_left _ hm))),
    sg56_keep _ r (fun hm => h (List.mem_append_left _ hm))]

/-- The operations of stage group `head`. -/
abbrev lay_head : List (HloOp τ sig (Elt F)) :=
  sg64 ++ (sg65)
/-- The buffers they write. -/
abbrev lay_head_W : List (Ref sig .tc) :=
  sg64_W ++ (sg65_W)
set_option maxRecDepth 8192 in
theorem lay_head_keep (V : Valuation τ sig (Elt F)) (r : Ref sig .tc) (h : r ∉ lay_head_W) :
    after lay_head V (no_index (Proc.devRef .tc r)) = V (Proc.devRef .tc r) := by
  simp only [lay_head, after_app]
  rw [sg65_keep _ r (fun hm => h (List.mem_append_right _ (hm))),
    sg64_keep _ r (fun hm => h (List.mem_append_left _ hm))]

set_option maxRecDepth 8192 in
set_option maxHeartbeats 2000000 in
theorem lay_pre_src (V : Valuation τ sig (Elt F)) :
    after lay_pre V (no_index (Proc.devRef .tc main_v1)) =
      refSrc (V (Proc.devRef .tc main_arg1)) := by
  simp only [lay_pre, after_app]
  simp (disch := decide) only [st_main_v1, st_main_v3, sg0_keep, sg1_keep]
  all_goals rfl

set_option maxRecDepth 8192 in
set_option maxHeartbeats 2000000 in
theorem lay_pre_dst (V : Valuation τ sig (Elt F)) :
    after lay_pre V (no_index (Proc.devRef .tc main_v3)) =
      refDst (V (Proc.devRef .tc main_arg1)) := by
  simp only [lay_pre, after_app]
  simp (disch := decide) only [st_main_v1, st_main_v3, sg0_keep, sg1_keep]
  all_goals rfl

set_option maxRecDepth 8192 in
set_option maxHeartbeats 2000000 in
theorem lay_L0_out (V : Valuation τ sig (Elt F)) :
    after lay_L0 V (no_index (Proc.devRef .tc main_v56)) =
      refLayer0 (V (Proc.devRef .tc main_arg0)) (V (Proc.devRef .tc main_v1)) (V (Proc.devRef .tc main_v3)) (V (Proc.devRef .tc main_arg2)) (V (Proc.devRef .tc main_arg3)) (V (Proc.devRef .tc main_arg4)) (V (Proc.devRef .tc main_arg5)) (V (Proc.devRef .tc main_arg6)) := by
  simp only [lay_L0, after_app]
  simp (disch := decide) only [st_main_v7, st_main_v13, st_main_v22, st_main_v28, st_main_v36, st_main_v39, st_main_v40, st_main_v55, st_main_v56, sg2_keep, sg3_keep, sg4_keep, sg5_keep, sg6_keep, sg7_keep, sg8_keep, sg9_keep, sg10_keep, sg11_keep]
  all_goals rfl

set_option maxRecDepth 8192 in
set_option maxHeartbeats 2000000 in
theorem lay_L1_out (V : Valuation τ sig (Elt F)) :
    after lay_L1 V (no_index (Proc.devRef .tc main_v119)) =
      refLayer256 (V (Proc.devRef .tc main_v56)) (V (Proc.devRef .tc main_v1)) (V (Proc.devRef .tc main_v3)) (refMat0 (V (Proc.devRef .tc main_arg7))) (refVec0 (V (Proc.devRef .tc main_arg8))) (refMat0 (V (Proc.devRef .tc main_arg9))) (refVec0 (V (Proc.devRef .tc main_arg10))) (refVec0 (V (Proc.devRef .tc main_arg11))) := by
  simp only [lay_L1, after_app]
  simp (disch := decide) only [st_main_v58, st_main_v60, st_main_v62, st_main_v64, st_main_v66, st_main_v70, st_main_v76, st_main_v85, st_main_v91, st_main_v99, st_main_v102, st_main_v103, st_main_v118, st_main_v119, sg12_keep, sg13_keep, sg14_keep, sg15_keep, sg16_keep, sg17_keep, sg18_keep, sg19_keep, sg20_keep, sg21_keep, sg22_keep, sg23_keep, sg24_keep, sg25_keep]
  all_goals rfl

set_option maxRecDepth 8192 in
set_option maxHeartbeats 2000000 in
theorem lay_L2_out (V : Valuation τ sig (Elt F)) :
    after lay_L2 V (no_index (Proc.devRef .tc main_v182)) =
      refLayer256 (V (Proc.devRef .tc main_v119)) (V (Proc.devRef .tc main_v1)) (V (Proc.devRef .tc main_v3)) (refMat1 (V (Proc.devRef .tc main_arg7))) (refVec1 (V (Proc.devRef .tc main_arg8))) (refMat1 (V (Proc.devRef .tc main_arg9))) (refVec1 (V (Proc.devRef .tc main_arg10))) (refVec1 (V (Proc.devRef .tc main_arg11))) := by
  simp only [lay_L2, after_app]
  simp (disch := decide) only [st_main_v121, st_main_v123, st_main_v125, st_main_v127, st_main_v129, st_main_v133, st_main_v139, st_main_v148, st_main_v154, st_main_v162, st_main_v165, st_main_v166, st_main_v181, st_main_v182, sg26_keep, sg27_keep, sg28_keep, sg29_keep, sg30_keep, sg31_keep, sg32_keep, sg33_keep, sg34_keep, sg35_keep, sg36_keep, sg37_keep, sg38_keep, sg39_keep, sg40_keep]
  all_goals rfl

set_option maxRecDepth 8192 in
set_option maxHeartbeats 2000000 in
theorem lay_L3_out (V : Valuation τ sig (Elt F)) :
    after lay_L3 V (no_index (Proc.devRef .tc main_v245)) =
      refLayer256 (V (Proc.devRef .tc main_v182)) (V (Proc.devRef .tc main_v1)) (V (Proc.devRef .tc main_v3)) (refMat2 (V (Proc.devRef .tc main_arg7))) (refVec2 (V (Proc.devRef .tc main_arg8))) (refMat2 (V (Proc.devRef .tc main_arg9))) (refVec2 (V (Proc.devRef .tc main_arg10))) (refVec2 (V (Proc.devRef .tc main_arg11))) := by
  simp only [lay_L3, after_app]
  simp (disch := decide) only [st_main_v184, st_main_v186, st_main_v188, st_main_v190, st_main_v192, st_main_v196, st_main_v202, st_main_v211, st_main_v217, st_main_v225, st_main_v228, st_main_v229, st_main_v244, st_main_v245, sg41_keep, sg42_keep, sg43_keep, sg44_keep, sg45_keep, sg46_keep, sg47_keep, sg48_keep, sg49_keep, sg50_keep, sg51_keep, sg52_keep, sg53_keep, sg54_keep, sg55_keep]
  all_goals rfl

set_option maxRecDepth 8192 in
set_option maxHeartbeats 2000000 in
theorem lay_L4_out (V : Valuation τ sig (Elt F)) :
    after lay_L4 V (no_index (Proc.devRef .tc main_v297)) =
      refLayer4 (V (Proc.devRef .tc main_v245)) (V (Proc.devRef .tc main_v1)) (V (Proc.devRef .tc main_v3)) (V (Proc.devRef .tc main_arg12)) (V (Proc.devRef .tc main_arg13)) (V (Proc.devRef .tc main_arg14)) (V (Proc.devRef .tc main_arg15)) (V (Proc.devRef .tc main_arg16)) := by
  simp only [lay_L4, after_app]
  simp (disch := decide) only [st_main_v249, st_main_v255, st_main_v264, st_main_v270, st_main_v278, st_main_v281, st_main_v282, st_main_v297, sg56_keep, sg57_keep, sg58_keep, sg59_keep, sg60_keep, sg61_keep, sg62_keep, sg63_keep]
  all_goals rfl

set_option maxRecDepth 8192 in
set_option maxHeartbeats 2000000 in
theorem lay_head_out (V : Valuation τ sig (Elt F)) :
    after lay_head V (no_index (Proc.devRef .tc main_v307)) =
      refHead (V (Proc.devRef .tc main_v297)) (V (Proc.devRef .tc main_arg17)) (V (Proc.devRef .tc main_arg18)) (V (Proc.devRef .tc main_arg19)) (V (Proc.devRef .tc main_arg20)) := by
  simp only [lay_head, after_app]
  simp (disch := decide) only [st_main_v307, sg64_keep, sg65_keep]
  all_goals rfl

set_option maxRecDepth 8192 in
/-- The whole list, regrouped by stage group. -/
theorem ops_lays (V : Valuation τ sig (Elt F)) :
    after ops V = after lay_head (after lay_L4 (after lay_L3 (after lay_L2 (after lay_L1 (after lay_L0 (after lay_pre V)))))) := by
  simp only [ops, ops_part0, ops_part1, ops_part2, ops_part3, ops_part4, ops_part5, ops_part6, lay_pre, lay_L0, lay_L1, lay_L2, lay_L3, lay_L4, lay_head, after_app]

set_option maxRecDepth 8192 in
set_option maxHeartbeats 4000000 in
/-- After all the operations the result buffer holds the network function of the argument buffers' launch contents. -/
theorem net_out (V : Valuation τ sig (Elt F)) :
    after ops V (Proc.devRef .tc main_v307) =
      refNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  rw [ops_lays]
  simp (disch := decide) only [lay_head_out, lay_L4_out, lay_L3_out, lay_L2_out, lay_L1_out, lay_L0_out, lay_pre_src, lay_pre_dst, lay_pre_keep, lay_L0_keep, lay_L1_keep, lay_L2_keep, lay_L3_keep, lay_L4_keep, lay_head_keep]
  all_goals rfl

set_option maxRecDepth 8192 in
theorem ops_arg0 (V : Valuation τ sig (Elt F)) : after ops V (Proc.devRef .tc main_arg0) = V (Proc.devRef .tc main_arg0) := by
  rw [ops_lays]
  simp (disch := decide) only [lay_pre_keep, lay_L0_keep, lay_L1_keep, lay_L2_keep, lay_L3_keep, lay_L4_keep, lay_head_keep]

set_option maxRecDepth 8192 in
theorem ops_arg1 (V : Valuation τ sig (Elt F)) : after ops V (Proc.devRef .tc main_arg1) = V (Proc.devRef .tc main_arg1) := by
  rw [ops_lays]
  simp (disch := decide) only [lay_pre_keep, lay_L0_keep, lay_L1_keep, lay_L2_keep, lay_L3_keep, lay_L4_keep, lay_head_keep]

set_option maxRecDepth 8192 in
theorem ops_arg2 (V : Valuation τ sig (Elt F)) : after ops V (Proc.devRef .tc main_arg2) = V (Proc.devRef .tc main_arg2) := by
  rw [ops_lays]
  simp (disch := decide) only [lay_pre_keep, lay_L0_keep, lay_L1_keep, lay_L2_keep, lay_L3_keep, lay_L4_keep, lay_head_keep]

set_option maxRecDepth 8192 in
theorem ops_arg3 (V : Valuation τ sig (Elt F)) : after ops V (Proc.devRef .tc main_arg3) = V (Proc.devRef .tc main_arg3) := by
  rw [ops_lays]
  simp (disch := decide) only [lay_pre_keep, lay_L0_keep, lay_L1_keep, lay_L2_keep, lay_L3_keep, lay_L4_keep, lay_head_keep]

set_option maxRecDepth 8192 in
theorem ops_arg4 (V : Valuation τ sig (Elt F)) : after ops V (Proc.devRef .tc main_arg4) = V (Proc.devRef .tc main_arg4) := by
  rw [ops_lays]
  simp (disch := decide) only [lay_pre_keep, lay_L0_keep, lay_L1_keep, lay_L2_keep, lay_L3_keep, lay_L4_keep, lay_head_keep]

set_option maxRecDepth 8192 in
theorem ops_arg5 (V : Valuation τ sig (Elt F)) : after ops V (Proc.devRef .tc main_arg5) = V (Proc.devRef .tc main_arg5) := by
  rw [ops_lays]
  simp (disch := decide) only [lay_pre_keep, lay_L0_keep, lay_L1_keep, lay_L2_keep, lay_L3_keep, lay_L4_keep, lay_head_keep]

set_option maxRecDepth 8192 in
theorem ops_arg6 (V : Valuation τ sig (Elt F)) : after ops V (Proc.devRef .tc main_arg6) = V (Proc.devRef .tc main_arg6) := by
  rw [ops_lays]
  simp (disch := decide) only [lay_pre_keep, lay_L0_keep, lay_L1_keep, lay_L2_keep, lay_L3_keep, lay_L4_keep, lay_head_keep]

set_option maxRecDepth 8192 in
theorem ops_arg7 (V : Valuation τ sig (Elt F)) : after ops V (Proc.devRef .tc main_arg7) = V (Proc.devRef .tc main_arg7) := by
  rw [ops_lays]
  simp (disch := decide) only [lay_pre_keep, lay_L0_keep, lay_L1_keep, lay_L2_keep, lay_L3_keep, lay_L4_keep, lay_head_keep]

set_option maxRecDepth 8192 in
theorem ops_arg8 (V : Valuation τ sig (Elt F)) : after ops V (Proc.devRef .tc main_arg8) = V (Proc.devRef .tc main_arg8) := by
  rw [ops_lays]
  simp (disch := decide) only [lay_pre_keep, lay_L0_keep, lay_L1_keep, lay_L2_keep, lay_L3_keep, lay_L4_keep, lay_head_keep]

set_option maxRecDepth 8192 in
theorem ops_arg9 (V : Valuation τ sig (Elt F)) : after ops V (Proc.devRef .tc main_arg9) = V (Proc.devRef .tc main_arg9) := by
  rw [ops_lays]
  simp (disch := decide) only [lay_pre_keep, lay_L0_keep, lay_L1_keep, lay_L2_keep, lay_L3_keep, lay_L4_keep, lay_head_keep]

set_option maxRecDepth 8192 in
theorem ops_arg10 (V : Valuation τ sig (Elt F)) : after ops V (Proc.devRef .tc main_arg10) = V (Proc.devRef .tc main_arg10) := by
  rw [ops_lays]
  simp (disch := decide) only [lay_pre_keep, lay_L0_keep, lay_L1_keep, lay_L2_keep, lay_L3_keep, lay_L4_keep, lay_head_keep]

set_option maxRecDepth 8192 in
theorem ops_arg11 (V : Valuation τ sig (Elt F)) : after ops V (Proc.devRef .tc main_arg11) = V (Proc.devRef .tc main_arg11) := by
  rw [ops_lays]
  simp (disch := decide) only [lay_pre_keep, lay_L0_keep, lay_L1_keep, lay_L2_keep, lay_L3_keep, lay_L4_keep, lay_head_keep]

set_option maxRecDepth 8192 in
theorem ops_arg12 (V : Valuation τ sig (Elt F)) : after ops V (Proc.devRef .tc main_arg12) = V (Proc.devRef .tc main_arg12) := by
  rw [ops_lays]
  simp (disch := decide) only [lay_pre_keep, lay_L0_keep, lay_L1_keep, lay_L2_keep, lay_L3_keep, lay_L4_keep, lay_head_keep]

set_option maxRecDepth 8192 in
theorem ops_arg13 (V : Valuation τ sig (Elt F)) : after ops V (Proc.devRef .tc main_arg13) = V (Proc.devRef .tc main_arg13) := by
  rw [ops_lays]
  simp (disch := decide) only [lay_pre_keep, lay_L0_keep, lay_L1_keep, lay_L2_keep, lay_L3_keep, lay_L4_keep, lay_head_keep]

set_option maxRecDepth 8192 in
theorem ops_arg14 (V : Valuation τ sig (Elt F)) : after ops V (Proc.devRef .tc main_arg14) = V (Proc.devRef .tc main_arg14) := by
  rw [ops_lays]
  simp (disch := decide) only [lay_pre_keep, lay_L0_keep, lay_L1_keep, lay_L2_keep, lay_L3_keep, lay_L4_keep, lay_head_keep]

set_option maxRecDepth 8192 in
theorem ops_arg15 (V : Valuation τ sig (Elt F)) : after ops V (Proc.devRef .tc main_arg15) = V (Proc.devRef .tc main_arg15) := by
  rw [ops_lays]
  simp (disch := decide) only [lay_pre_keep, lay_L0_keep, lay_L1_keep, lay_L2_keep, lay_L3_keep, lay_L4_keep, lay_head_keep]

set_option maxRecDepth 8192 in
theorem ops_arg16 (V : Valuation τ sig (Elt F)) : after ops V (Proc.devRef .tc main_arg16) = V (Proc.devRef .tc main_arg16) := by
  rw [ops_lays]
  simp (disch := decide) only [lay_pre_keep, lay_L0_keep, lay_L1_keep, lay_L2_keep, lay_L3_keep, lay_L4_keep, lay_head_keep]

set_option maxRecDepth 8192 in
theorem ops_arg17 (V : Valuation τ sig (Elt F)) : after ops V (Proc.devRef .tc main_arg17) = V (Proc.devRef .tc main_arg17) := by
  rw [ops_lays]
  simp (disch := decide) only [lay_pre_keep, lay_L0_keep, lay_L1_keep, lay_L2_keep, lay_L3_keep, lay_L4_keep, lay_head_keep]

set_option maxRecDepth 8192 in
theorem ops_arg18 (V : Valuation τ sig (Elt F)) : after ops V (Proc.devRef .tc main_arg18) = V (Proc.devRef .tc main_arg18) := by
  rw [ops_lays]
  simp (disch := decide) only [lay_pre_keep, lay_L0_keep, lay_L1_keep, lay_L2_keep, lay_L3_keep, lay_L4_keep, lay_head_keep]

set_option maxRecDepth 8192 in
theorem ops_arg19 (V : Valuation τ sig (Elt F)) : after ops V (Proc.devRef .tc main_arg19) = V (Proc.devRef .tc main_arg19) := by
  rw [ops_lays]
  simp (disch := decide) only [lay_pre_keep, lay_L0_keep, lay_L1_keep, lay_L2_keep, lay_L3_keep, lay_L4_keep, lay_head_keep]

set_option maxRecDepth 8192 in
theorem ops_arg20 (V : Valuation τ sig (Elt F)) : after ops V (Proc.devRef .tc main_arg20) = V (Proc.devRef .tc main_arg20) := by
  rw [ops_lays]
  simp (disch := decide) only [lay_pre_keep, lay_L0_keep, lay_L1_keep, lay_L2_keep, lay_L3_keep, lay_L4_keep, lay_head_keep]

/-- At the compiled mesh, for any float values, from any memory with zero counters: every weakly fair execution of the
    entry function terminates with the result buffer at the network function of the argument arrays and every
    argument array unchanged. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v307) = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c main_v307).trans (net_out (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c)),
      (h c main_arg7).trans (ops_arg7 (launchContents m c)),
      (h c main_arg8).trans (ops_arg8 (launchContents m c)),
      (h c main_arg9).trans (ops_arg9 (launchContents m c)),
      (h c main_arg10).trans (ops_arg10 (launchContents m c)),
      (h c main_arg11).trans (ops_arg11 (launchContents m c)),
      (h c main_arg12).trans (ops_arg12 (launchContents m c)),
      (h c main_arg13).trans (ops_arg13 (launchContents m c)),
      (h c main_arg14).trans (ops_arg14 (launchContents m c)),
      (h c main_arg15).trans (ops_arg15 (launchContents m c)),
      (h c main_arg16).trans (ops_arg16 (launchContents m c)),
      (h c main_arg17).trans (ops_arg17 (launchContents m c)),
      (h c main_arg18).trans (ops_arg18 (launchContents m c)),
      (h c main_arg19).trans (ops_arg19 (launchContents m c)),
      (h c main_arg20).trans (ops_arg20 (launchContents m c))⟩)
    (run_all m ρ)

end Cert.ReferenceIdeal.RefRun

end
-- ==== Proof.RefRun3.lean ====
/- The reference's run against the named network function: the function read off the run is the reference network of
   the 21 argument arrays, so every execution of the reference ends with that in the result buffer and the
   arguments unchanged; the frame claim of the reference follows. -/
import proofs.«169498_j72670846649171_2_alg».proof.Proof.RefRun2
import proofs.«169498_j72670846649171_2_alg».proof.Proof.RefSpec
import proofs.«169498_j72670846649171_2_alg».proof.Defs
import proofs.«169498_j72670846649171_2_alg».proof.Proof.Gen.Pre_finite_inputs
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The stage functions against the named functions of the reference network: the same compositions, grouped differently. -/

theorem srcIdx_eq (e : (⟨S2x800000, .i32⟩ : BufTy).Contents (Elt F)) : refSrcIdx (refSrc e) = RefSpec.srcIdx (F := F) e := rfl
theorem agg12_eq (h : (⟨S100000x12, .f32⟩ : BufTy).Contents (Elt F)) (e : (⟨S2x800000, .i32⟩ : BufTy).Contents (Elt F)) :
    refAgg12 h (refSrcIdx (refSrc e)) (refDst e) (refDeg (refDst e)) = RefSpec.agg12 h e := rfl
theorem agg256_eq (h : (⟨S100000x256, .f32⟩ : BufTy).Contents (Elt F)) (e : (⟨S2x800000, .i32⟩ : BufTy).Contents (Elt F)) :
    refAgg256 h (refSrcIdx (refSrc e)) (refDst e) (refDeg (refDst e)) = RefSpec.agg256 h e := rfl
theorem pre0_eq (a h : (⟨S100000x12, .f32⟩ : BufTy).Contents (Elt F)) (wl : (⟨S12x256, .f32⟩ : BufTy).Contents (Elt F)) (bl : (⟨S256, .f32⟩ : BufTy).Contents (Elt F)) (wr : (⟨S12x256, .f32⟩ : BufTy).Contents (Elt F)) :
    refPre12x256 a wl bl h wr = RefSpec.lin0 a h wl bl wr := rfl
theorem pre256_eq (a h : (⟨S100000x256, .f32⟩ : BufTy).Contents (Elt F)) (wl : (⟨S256x256, .f32⟩ : BufTy).Contents (Elt F)) (bl : (⟨S256, .f32⟩ : BufTy).Contents (Elt F)) (wr : (⟨S256x256, .f32⟩ : BufTy).Contents (Elt F)) :
    refPre256x256 a wl bl h wr = RefSpec.lin256 a h wl bl wr := rfl
theorem pre4_eq (a h : (⟨S100000x256, .f32⟩ : BufTy).Contents (Elt F)) (wl : (⟨S256x128, .f32⟩ : BufTy).Contents (Elt F)) (bl : (⟨S128, .f32⟩ : BufTy).Contents (Elt F)) (wr : (⟨S256x128, .f32⟩ : BufTy).Contents (Elt F)) :
    refPre256x128 a wl bl h wr = RefSpec.lin4 a h wl bl wr := rfl
theorem rownorm256_eq (p : (⟨S100000x256, .f32⟩ : BufTy).Contents (Elt F)) : refRownorm256 p = RefSpec.unit256 p := rfl
theorem rownorm128_eq (p : (⟨S100000x128, .f32⟩ : BufTy).Contents (Elt F)) : refRownorm128 p = RefSpec.unit128 p := rfl
theorem var256_eq (p : (⟨S100000x256, .f32⟩ : BufTy).Contents (Elt F)) : refVar256 p = RefSpec.var256 p := rfl
theorem var128_eq (p : (⟨S100000x128, .f32⟩ : BufTy).Contents (Elt F)) : refVar128 p = RefSpec.var128 p := rfl
theorem bn256_eq (p : (⟨S100000x256, .f32⟩ : BufTy).Contents (Elt F)) (g b : (⟨S256, .f32⟩ : BufTy).Contents (Elt F)) :
    refBn256 (refMean256 p) p (refVar256 p) g b = RefSpec.bn256 p g b := rfl
theorem bn128_eq (p : (⟨S100000x128, .f32⟩ : BufTy).Contents (Elt F)) (g b : (⟨S128, .f32⟩ : BufTy).Contents (Elt F)) :
    refBn128 (refMean128 p) p (refVar128 p) g b = RefSpec.bn128 p g b := rfl
theorem relu256_eq (y : (⟨S100000x256, .f32⟩ : BufTy).Contents (Elt F)) : refRelu256 y = RefSpec.relu256 y := rfl
theorem mat0_eq (w : (⟨S3x256x256, .f32⟩ : BufTy).Contents (Elt F)) : refMat0 w = RefSpec.mat0 w := rfl
theorem mat1_eq (w : (⟨S3x256x256, .f32⟩ : BufTy).Contents (Elt F)) : refMat1 w = RefSpec.mat1 w := rfl
theorem mat2_eq (w : (⟨S3x256x256, .f32⟩ : BufTy).Contents (Elt F)) : refMat2 w = RefSpec.mat2 w := rfl
theorem vec0_eq (w : (⟨S3x256, .f32⟩ : BufTy).Contents (Elt F)) : refVec0 w = RefSpec.vec0 w := rfl
theorem vec1_eq (w : (⟨S3x256, .f32⟩ : BufTy).Contents (Elt F)) : refVec1 w = RefSpec.vec1 w := rfl
theorem vec2_eq (w : (⟨S3x256, .f32⟩ : BufTy).Contents (Elt F)) : refVec2 w = RefSpec.vec2 w := rfl
theorem head_eq (h : (⟨S100000x128, .f32⟩ : BufTy).Contents (Elt F)) (cw1 : (⟨S128x64, .f32⟩ : BufTy).Contents (Elt F)) (cb1 : (⟨S64, .f32⟩ : BufTy).Contents (Elt F)) (cw2 : (⟨S64x1, .f32⟩ : BufTy).Contents (Elt F)) (cb2 : (⟨S1, .f32⟩ : BufTy).Contents (Elt F)) :
    refHead h cw1 cb1 cw2 cb2 = RefSpec.head h cw1 cb1 cw2 cb2 := rfl

theorem layer0_eq (x : (⟨S100000x12, .f32⟩ : BufTy).Contents (Elt F)) (e : (⟨S2x800000, .i32⟩ : BufTy).Contents (Elt F)) (wl : (⟨S12x256, .f32⟩ : BufTy).Contents (Elt F)) (bl : (⟨S256, .f32⟩ : BufTy).Contents (Elt F)) (wr : (⟨S12x256, .f32⟩ : BufTy).Contents (Elt F)) (g b : (⟨S256, .f32⟩ : BufTy).Contents (Elt F)) :
    refLayer0 x (refSrc e) (refDst e) wl bl wr g b = RefSpec.layer0 x e wl bl wr g b := by
  simp only [refLayer0, RefSpec.layer0, agg12_eq, pre0_eq, rownorm256_eq, bn256_eq, relu256_eq]
theorem layer256_eq (h : (⟨S100000x256, .f32⟩ : BufTy).Contents (Elt F)) (e : (⟨S2x800000, .i32⟩ : BufTy).Contents (Elt F)) (wl : (⟨S256x256, .f32⟩ : BufTy).Contents (Elt F)) (bl : (⟨S256, .f32⟩ : BufTy).Contents (Elt F)) (wr : (⟨S256x256, .f32⟩ : BufTy).Contents (Elt F)) (g b : (⟨S256, .f32⟩ : BufTy).Contents (Elt F)) :
    refLayer256 h (refSrc e) (refDst e) wl bl wr g b = RefSpec.layer256 h e wl bl wr g b := by
  simp only [refLayer256, RefSpec.layer256, agg256_eq, pre256_eq, rownorm256_eq, bn256_eq, relu256_eq]
theorem layer4_eq (h : (⟨S100000x256, .f32⟩ : BufTy).Contents (Elt F)) (e : (⟨S2x800000, .i32⟩ : BufTy).Contents (Elt F)) (wl : (⟨S256x128, .f32⟩ : BufTy).Contents (Elt F)) (bl : (⟨S128, .f32⟩ : BufTy).Contents (Elt F)) (wr : (⟨S256x128, .f32⟩ : BufTy).Contents (Elt F)) (g b : (⟨S128, .f32⟩ : BufTy).Contents (Elt F)) :
    refLayer4 h (refSrc e) (refDst e) wl bl wr g b = RefSpec.layer4 h e wl bl wr g b := by
  simp only [refLayer4, RefSpec.layer4, agg256_eq, pre4_eq, rownorm128_eq, bn128_eq]

/-- The network function read off the run is the reference network of the 21 argument arrays. -/
theorem net_eq (a0 : (⟨S100000x12, .f32⟩ : BufTy).Contents (Elt F)) (a1 : (⟨S2x800000, .i32⟩ : BufTy).Contents (Elt F)) (a2 : (⟨S12x256, .f32⟩ : BufTy).Contents (Elt F)) (a3 : (⟨S256, .f32⟩ : BufTy).Contents (Elt F)) (a4 : (⟨S12x256, .f32⟩ : BufTy).Contents (Elt F)) (a5 : (⟨S256, .f32⟩ : BufTy).Contents (Elt F)) (a6 : (⟨S256, .f32⟩ : BufTy).Contents (Elt F)) (a7 : (⟨S3x256x256, .f32⟩ : BufTy).Contents (Elt F)) (a8 : (⟨S3x256, .f32⟩ : BufTy).Contents (Elt F)) (a9 : (⟨S3x256x256, .f32⟩ : BufTy).Contents (Elt F)) (a10 : (⟨S3x256, .f32⟩ : BufTy).Contents (Elt F)) (a11 : (⟨S3x256, .f32⟩ : BufTy).Contents (Elt F)) (a12 : (⟨S256x128, .f32⟩ : BufTy).Contents (Elt F)) (a13 : (⟨S128, .f32⟩ : BufTy).Contents (Elt F)) (a14 : (⟨S256x128, .f32⟩ : BufTy).Contents (Elt F)) (a15 : (⟨S128, .f32⟩ : BufTy).Contents (Elt F)) (a16 : (⟨S128, .f32⟩ : BufTy).Contents (Elt F)) (a17 : (⟨S128x64, .f32⟩ : BufTy).Contents (Elt F)) (a18 : (⟨S64, .f32⟩ : BufTy).Contents (Elt F)) (a19 : (⟨S64x1, .f32⟩ : BufTy).Contents (Elt F)) (a20 : (⟨S1, .f32⟩ : BufTy).Contents (Elt F)) :
    refNet a0 a1 a2 a3 a4 a5 a6 a7 a8 a9 a10 a11 a12 a13 a14 a15 a16 a17 a18 a19 a20 = RefSpec.net (F := F) a0 a1 a2 a3 a4 a5 a6 a7 a8 a9 a10 a11 a12 a13 a14 a15 a16 a17 a18 a19 a20 := by
  simp only [refNet, RefSpec.net, layer0_eq, layer256_eq, layer4_eq, head_eq, mat0_eq, mat1_eq, mat2_eq, vec0_eq, vec1_eq, vec2_eq]

/-- Every weakly fair execution of the reference terminates with the result buffer at the reference network of the
    argument arrays and every argument array unchanged. -/
theorem run_spec (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v307) = RefSpec.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c).1.trans (net_eq ..), (h c).2⟩) (run m ρ)

/-- The reference runs and leaves its arguments unchanged. -/
theorem frame : Cert.frame_ReferenceIdeal (hReferenceIdeal := Cert.ReferenceIdeal.Gen.facts) (hPre_finite_inputs := Cert.Pre_finite_inputs.Gen.facts) :=
  fun m g _ => (θ_run defs _ _).mono (fun _ h c => (h c).2) (run (F := Ideal) m g)

end Cert.ReferenceIdeal.RefRun

end
-- ==== Proof.Claims.lean ====
/- The claims of the certificate, assembled: the two kernel programs and the reference run with their arguments
   unchanged; the idealized kernel is the kernel's own text; and at the ideal values, from memories that agree on the
   arguments and finite float inputs, the kernel's result array and the reference's are the same function of the 21
   argument arrays — the kernel's run ends at its network function of them, which is the reference network because
   every quantity met on the way is a real number, and the reference's run ends at the reference network. -/
import proofs.«169498_j72670846649171_2_alg».proof.Defs
import proofs.«169498_j72670846649171_2_alg».proof.Proof.Gen.Kernel.Frame
import proofs.«169498_j72670846649171_2_alg».proof.Proof.Gen.KernelIdeal.Frame
import proofs.«169498_j72670846649171_2_alg».proof.Proof.KRun
import proofs.«169498_j72670846649171_2_alg».proof.Proof.KVal
import proofs.«169498_j72670846649171_2_alg».proof.Proof.NetEq
import proofs.«169498_j72670846649171_2_alg».proof.Proof.PreFin
import proofs.«169498_j72670846649171_2_alg».proof.Proof.RefRun3

noncomputable section

open Idealize.ShloMosaic Idealize.ShloMosaic.TcCoe Idealize.SL.Sem

namespace Cert.Proof.Claims

theorem frame_p : Cert.frame_Kernel (hKernel := Cert.Kernel.Gen.facts) (hPre_finite_inputs := Cert.Pre_finite_inputs.Gen.facts) :=
  fun m ρ _ => Cert.Kernel.Gen.frame m ρ

theorem frame_pi : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  Cert.ReferenceIdeal.RefRun.frame

/-- The ideal pass rewrote no operation of the kernel: nothing to restate. -/
theorem preserves : Cert.preserves_Kernel_KernelIdeal := trivial

/-- The common result: the reference network of the kernel-side argument arrays. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v212) :=
  Cert.ReferenceIdeal.RefSpec.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))

/-- At the ideal values both programs end with the reference network of the argument arrays in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨result m, ?_, ?_⟩
  · -- the kernel: its run ends at its own network function, which is the reference network on finite inputs
    refine (θ_run Cert.KernelIdeal.defs _ _).mono (fun _ h c => ⟨(h c).1.trans ?_, (h c).2⟩)
      (Cert.KernelIdeal.KRun.run_value (F := Ideal) m ρ)
    refine (Cert.KernelIdeal.KVal.value m ρ c).trans ?_
    exact Cert.Bridge.net_eq _ _ _ _ _ _ _ _ _ _ _ _ _ _ _ _ _ _ _ _ _ (Cert.PreFin.pre_arg0 m hpre c) (Cert.PreFin.pre_arg2 m hpre c) (Cert.PreFin.pre_arg3 m hpre c) (Cert.PreFin.pre_arg4 m hpre c) (Cert.PreFin.pre_arg5 m hpre c) (Cert.PreFin.pre_arg6 m hpre c) (Cert.PreFin.pre_arg7 m hpre c) (Cert.PreFin.pre_arg8 m hpre c) (Cert.PreFin.pre_arg9 m hpre c) (Cert.PreFin.pre_arg10 m hpre c) (Cert.PreFin.pre_arg11 m hpre c) (Cert.PreFin.pre_arg12 m hpre c) (Cert.PreFin.pre_arg13 m hpre c) (Cert.PreFin.pre_arg14 m hpre c) (Cert.PreFin.pre_arg15 m hpre c) (Cert.PreFin.pre_arg16 m hpre c)
  · -- the reference: its run ends at the reference network of its own arguments, which are the kernel's
    refine (θ_run Cert.ReferenceIdeal.defs _ _).mono (fun _ h c => ⟨(h c).1.trans ?_, (h c).2⟩)
      (Cert.ReferenceIdeal.RefRun.run_spec (F := Ideal) m' ρ')
    obtain ⟨h0, h1, h2, h3, h4, h5, h6, h7, h8, h9, h10, h11, h12, h13, h14, h15, h16, h17, h18, h19, h20⟩ := hagree c
    rw [h0, h1, h2, h3, h4, h5, h6, h7, h8, h9, h10, h11, h12, h13, h14, h15, h16, h17, h18, h19, h20]
    rfl

end Cert.Proof.Claims

end
-- ==== Proof.lean ====
/-
  The certificate of a five-layer neighbourhood-averaging graph network over 100000 nodes and 800000 edges, followed
  by a two-layer head, computed once by ten row-blocked kernels between host operations and once by plain host
  operations.

  A layer averages each node's incoming neighbours' features (rows gathered along the edges, summed into their
  destination rows, divided by the in-degree guarded from below by one), applies the linear map
  `mean · wl + bl + features · wr`, scales every row to unit Euclidean norm (the norm guarded from below by a small
  positive constant), standardises every column by its mean and population variance over all rows (the variance
  guarded by a small positive constant under a reciprocal square root) with a gain and an offset, and, except in the
  last layer, keeps the positive part.  The head is a 128 → 64 linear map with positive part and a 64 → 1 linear map.

  On the extended reals, where every float operation is exact and a change of float format is the identity, the two
  programs differ only in these ways.  One multiplies the neighbourhood sum by the reciprocal of the guarded degree,
  the other divides by the guarded degree: the same number, the guard being nonzero.  One adds the bias after both
  products, the other between them: addition is commutative and associative.  One takes the column sums first
  inside each of 25 blocks of 4000 rows and then over the blocks, the other over all rows at once: a finite sum may
  be taken in blocks.  One gets the variance as the mean of the squares minus the squared mean, clamped at zero, the
  other as the mean of the squared deviations from the mean: for finitely many REAL numbers these are equal and not
  negative, and every normalised entry is a real number because the inputs are finite and each row is divided by a
  positive real; so finiteness is carried from layer to layer.  The last layer's standardisation is fused with the
  head in one kernel, which changes nothing entry by entry.

  The modules: LibStats, LibLayer, LibHostRead, Consts (the real-number identities, finiteness, host operations
  read at an index, the constants); RefSpec, RefRead*, RefRun* (the reference as named functions, read entry by
  entry, and its run); KHost*, KSage*, KBn*, KHead*, KNet, KRun, KVal (the kernel program's host stretches and
  regions as whole-array functions, and its run with the result named); KLayer, KAggEq, Bridge*, NetEq (the two
  networks are one function on finite arguments); PreFin (the precondition says every float argument is finite);
  Claims (the five claims).
-/
import proofs.«169498_j72670846649171_2_alg».proof.Defs
import proofs.«169498_j72670846649171_2_alg».proof.Proof.Gen.Kernel
import proofs.«169498_j72670846649171_2_alg».proof.Proof.Gen.KernelIdeal
import proofs.«169498_j72670846649171_2_alg».proof.Proof.Gen.ReferenceIdeal
import proofs.«169498_j72670846649171_2_alg».proof.Proof.Gen.Pre_finite_inputs
import proofs.«169498_j72670846649171_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
